-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x16x128 : Shape := ⟨3, ![10000, 16, 128]⟩
abbrev S_ : Shape := ⟨0, ![]⟩

class Facts : Prop where
  bcast_S_S10000x16x128 : S_.BroadcastsInDim S10000x16x128 (![] : Fin 0 → Fin S10000x16x128.rank)
  reducesTo_S10000x16x128_S_d0_1_2 : S10000x16x128.ReducesTo [0, 1, 2] S_
  h_S_ : 0 < S_.numel

variable [Facts]

def fn {F : FTy → Type} [FloatOps F] (main_arg0 : FVec F S10000x16x128 .f32) : IVec S_ 1 :=
  let main_v0 : FVec F S10000x16x128 .f32 := Host.absf main_arg0
  let main_cst : FVec F S_ .f32 := constant S_ .f32 0x7F800000#32
  let main_v1 : FVec F S10000x16x128 .f32 := broadcastInDim S10000x16x128 ![] bcast_S_S10000x16x128 main_cst
  let main_v2 : IVec S10000x16x128 1 := cmpf .olt main_v0 main_v1
  let main_c : IVec S_ 1 := constantI S_ 1 1#1
  let main_v3 : IVec S_ 1 := (fun x v => Host.reduce IntOp.andi x v reducesTo_S10000x16x128_S_d0_1_2 h_S_) main_v2 main_c
  main_v3
-- ==== Kernel.lean ====
abbrev S10000x16x128 : Shape := ⟨3, ![10000, 16, 128]⟩
abbrev S4096x4x128 : Shape := ⟨3, ![4096, 4, 128]⟩
abbrev S16x16x128 : Shape := ⟨3, ![16, 16, 128]⟩
abbrev S16x4x128 : Shape := ⟨3, ![16, 4, 128]⟩
abbrev S_ : Shape := ⟨0, ![]⟩
abbrev S1x1x16 : Shape := ⟨3, ![1, 1, 16]⟩
abbrev S16 : Shape := ⟨1, ![16]⟩
abbrev S10000x4x128 : Shape := ⟨3, ![10000, 4, 128]⟩
abbrev S984x16x128 : Shape := ⟨3, ![984, 16, 128]⟩
abbrev S984x4x128 : Shape := ⟨3, ![984, 4, 128]⟩
abbrev S984x1x128 : Shape := ⟨3, ![984, 1, 128]⟩
abbrev S984x128 : Shape := ⟨2, ![984, 128]⟩

abbrev nBuf : Table → Nat
  | .hbm => 7
  | .local .tc .vmem => 4
  | .local .scVector .vmem => 4
  | _ => 0

abbrev bufTy : (tb : Table) → Fin (nBuf tb) → BufTy
  | .hbm, ⟨0, _⟩ => ⟨S10000x16x128, .f32⟩
  | .hbm, ⟨1, _⟩ => ⟨S4096x4x128, .f32⟩
  | .hbm, ⟨2, _⟩ => ⟨S10000x4x128, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S10000x4x128, .f32⟩
  | .local .tc .vmem, ⟨0, _⟩ => ⟨S984x16x128, .f32⟩
  | .local .tc .vmem, ⟨1, _⟩ => ⟨S984x16x128, .f32⟩
  | .local .tc .vmem, ⟨2, _⟩ => ⟨S984x4x128, .f32⟩
  | .local .tc .vmem, ⟨3, _⟩ => ⟨S984x4x128, .f32⟩
  | .local .scVector .vmem, ⟨0, _⟩ => ⟨S16x16x128, .f32⟩
  | .local .scVector .vmem, ⟨1, _⟩ => ⟨S16x16x128, .f32⟩
  | .local .scVector .vmem, ⟨2, _⟩ => ⟨S16x4x128, .f32⟩
  | .local .scVector .vmem, ⟨3, _⟩ => ⟨S16x4x128, .f32⟩
  | _, _ => ⟨S10000x16x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_v2 : Ref sig .tc := ⟨.hbm, 6, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32_13 : BitVec 32) : Fin 3 → Nat :=
  let c5904_i32 : BitVec 32 := 5904#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v39 : BitVec 32 := Scalar.addi v1 c0_i32_13
  let c16_i32 : BitVec 32 := 16#32
  let v40 : BitVec 32 := Scalar.muli v39 c16_i32
  let v41 : BitVec 32 := Scalar.addi c5904_i32 v40
  let c0_i32_14 : BitVec 32 := 0#32
  let c0_i32_15 : BitVec 32 := 0#32
  ![v41.toNat, 0, 0]
@[reducible] def k0_t1_loop (i : grid0.Coords) : Scf.Loop 32 :=
  let c0_i32_26 : BitVec 32 := 0#32
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c256_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let v49 : BitVec 32 := Scalar.subi v38 c0_i32_26
  let c1_i32_27 : BitVec 32 := 1#32
  let v51 : BitVec 32 := Scalar.divsi v49 c1_i32_27
  let v52 : BitVec 32 := Scalar.muli v51 c1_i32_27
  let v53 : BitVec 32 := Scalar.addi c0_i32_26 v52
  let c1_i32_28 : BitVec 32 := 1#32
  ⟨c0_i32_26, v53, c1_i32_28⟩
@[reducible] def k0_t2_loop : Scf.Loop 32 :=
  let c0_i32_52 : BitVec 32 := 0#32
  let c16_i32_53 : BitVec 32 := 16#32
  let v64 : BitVec 32 := Scalar.addi c0_i32_52 c16_i32_53
  let c1_i32_54 : BitVec 32 := 1#32
  ⟨c0_i32_52, v64, c1_i32_54⟩
def k0_off2 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v91 : Index := Scalar.indexCast arg13
  let c0_i32_87 : BitVec 32 := 0#32
  let v92 : Index := Scalar.indexCast c0_i32_87
  let c0 : Index := 0#32
  ![v91.toNat, 0, 0]
def k0_off3 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v96 : Index := Scalar.indexCast arg13
  let c1_i32_88 : BitVec 32 := 1#32
  let v97 : Index := Scalar.indexCast c1_i32_88
  let c0_89 : Index := 0#32
  ![v96.toNat, 1, 0]
def k0_off4 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v101 : Index := Scalar.indexCast arg13
  let c2_i32_90 : BitVec 32 := 2#32
  let v102 : Index := Scalar.indexCast c2_i32_90
  let c0_91 : Index := 0#32
  ![v101.toNat, 2, 0]
def k0_off5 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v106 : Index := Scalar.indexCast arg13
  let c3_i32 : BitVec 32 := 3#32
  let v107 : Index := Scalar.indexCast c3_i32
  let c0_92 : Index := 0#32
  ![v106.toNat, 3, 0]
def k0_off6 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v111 : Index := Scalar.indexCast arg13
  let c4_i32 : BitVec 32 := 4#32
  let v112 : Index := Scalar.indexCast c4_i32
  let c0_93 : Index := 0#32
  ![v111.toNat, 4, 0]
def k0_off7 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v116 : Index := Scalar.indexCast arg13
  let c5_i32 : BitVec 32 := 5#32
  let v117 : Index := Scalar.indexCast c5_i32
  let c0_94 : Index := 0#32
  ![v116.toNat, 5, 0]
def k0_off8 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v121 : Index := Scalar.indexCast arg13
  let c6_i32 : BitVec 32 := 6#32
  let v122 : Index := Scalar.indexCast c6_i32
  let c0_95 : Index := 0#32
  ![v121.toNat, 6, 0]
def k0_off9 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v126 : Index := Scalar.indexCast arg13
  let c7_i32 : BitVec 32 := 7#32
  let v127 : Index := Scalar.indexCast c7_i32
  let c0_96 : Index := 0#32
  ![v126.toNat, 7, 0]
def k0_off10 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v131 : Index := Scalar.indexCast arg13
  let c8_i32 : BitVec 32 := 8#32
  let v132 : Index := Scalar.indexCast c8_i32
  let c0_97 : Index := 0#32
  ![v131.toNat, 8, 0]
def k0_off11 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v136 : Index := Scalar.indexCast arg13
  let c9_i32 : BitVec 32 := 9#32
  let v137 : Index := Scalar.indexCast c9_i32
  let c0_98 : Index := 0#32
  ![v136.toNat, 9, 0]
def k0_off12 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v141 : Index := Scalar.indexCast arg13
  let c10_i32 : BitVec 32 := 10#32
  let v142 : Index := Scalar.indexCast c10_i32
  let c0_99 : Index := 0#32
  ![v141.toNat, 10, 0]
def k0_off13 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v146 : Index := Scalar.indexCast arg13
  let c11_i32 : BitVec 32 := 11#32
  let v147 : Index := Scalar.indexCast c11_i32
  let c0_100 : Index := 0#32
  ![v146.toNat, 11, 0]
def k0_off14 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v151 : Index := Scalar.indexCast arg13
  let c12_i32 : BitVec 32 := 12#32
  let v152 : Index := Scalar.indexCast c12_i32
  let c0_101 : Index := 0#32
  ![v151.toNat, 12, 0]
def k0_off15 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v156 : Index := Scalar.indexCast arg13
  let c13_i32 : BitVec 32 := 13#32
  let v157 : Index := Scalar.indexCast c13_i32
  let c0_102 : Index := 0#32
  ![v156.toNat, 13, 0]
def k0_off16 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v161 : Index := Scalar.indexCast arg13
  let c14_i32 : BitVec 32 := 14#32
  let v162 : Index := Scalar.indexCast c14_i32
  let c0_103 : Index := 0#32
  ![v161.toNat, 14, 0]
def k0_off17 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v166 : Index := Scalar.indexCast arg13
  let c15_i32 : BitVec 32 := 15#32
  let v167 : Index := Scalar.indexCast c15_i32
  let c0_104 : Index := 0#32
  ![v166.toNat, 15, 0]
def k0_off18 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v183 : Index := Scalar.indexCast arg13
  let c0_i32_105 : BitVec 32 := 0#32
  let v184 : Index := Scalar.indexCast c0_i32_105
  let c0_106 : Index := 0#32
  ![v183.toNat, 0, 0]
def k0_off19 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v190 : Index := Scalar.indexCast arg13
  let c1_i32_107 : BitVec 32 := 1#32
  let v191 : Index := Scalar.indexCast c1_i32_107
  let c0_108 : Index := 0#32
  ![v190.toNat, 1, 0]
def k0_off20 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v197 : Index := Scalar.indexCast arg13
  let c2_i32_110 : BitVec 32 := 2#32
  let v198 : Index := Scalar.indexCast c2_i32_110
  let c0_111 : Index := 0#32
  ![v197.toNat, 2, 0]
def k0_off21 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v204 : Index := Scalar.indexCast arg13
  let c3_i32_113 : BitVec 32 := 3#32
  let v205 : Index := Scalar.indexCast c3_i32_113
  let c0_114 : Index := 0#32
  ![v204.toNat, 3, 0]
def k0_off22 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v209 : Index := Scalar.indexCast arg13
  let c0_i32_115 : BitVec 32 := 0#32
  let v210 : Index := Scalar.indexCast c0_i32_115
  let c16 : Index := 16#32
  ![v209.toNat, 0, 16]
def k0_off23 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v214 : Index := Scalar.indexCast arg13
  let c1_i32_116 : BitVec 32 := 1#32
  let v215 : Index := Scalar.indexCast c1_i32_116
  let c16_117 : Index := 16#32
  ![v214.toNat, 1, 16]
def k0_off24 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v219 : Index := Scalar.indexCast arg13
  let c2_i32_118 : BitVec 32 := 2#32
  let v220 : Index := Scalar.indexCast c2_i32_118
  let c16_119 : Index := 16#32
  ![v219.toNat, 2, 16]
def k0_off25 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v224 : Index := Scalar.indexCast arg13
  let c3_i32_120 : BitVec 32 := 3#32
  let v225 : Index := Scalar.indexCast c3_i32_120
  let c16_121 : Index := 16#32
  ![v224.toNat, 3, 16]
def k0_off26 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v229 : Index := Scalar.indexCast arg13
  let c4_i32_122 : BitVec 32 := 4#32
  let v230 : Index := Scalar.indexCast c4_i32_122
  let c16_123 : Index := 16#32
  ![v229.toNat, 4, 16]
def k0_off27 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v234 : Index := Scalar.indexCast arg13
  let c5_i32_124 : BitVec 32 := 5#32
  let v235 : Index := Scalar.indexCast c5_i32_124
  let c16_125 : Index := 16#32
  ![v234.toNat, 5, 16]
def k0_off28 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v239 : Index := Scalar.indexCast arg13
  let c6_i32_126 : BitVec 32 := 6#32
  let v240 : Index := Scalar.indexCast c6_i32_126
  let c16_127 : Index := 16#32
  ![v239.toNat, 6, 16]
def k0_off29 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v244 : Index := Scalar.indexCast arg13
  let c7_i32_128 : BitVec 32 := 7#32
  let v245 : Index := Scalar.indexCast c7_i32_128
  let c16_129 : Index := 16#32
  ![v244.toNat, 7, 16]
def k0_off30 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v249 : Index := Scalar.indexCast arg13
  let c8_i32_130 : BitVec 32 := 8#32
  let v250 : Index := Scalar.indexCast c8_i32_130
  let c16_131 : Index := 16#32
  ![v249.toNat, 8, 16]
def k0_off31 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v254 : Index := Scalar.indexCast arg13
  let c9_i32_132 : BitVec 32 := 9#32
  let v255 : Index := Scalar.indexCast c9_i32_132
  let c16_133 : Index := 16#32
  ![v254.toNat, 9, 16]
def k0_off32 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v259 : Index := Scalar.indexCast arg13
  let c10_i32_134 : BitVec 32 := 10#32
  let v260 : Index := Scalar.indexCast c10_i32_134
  let c16_135 : Index := 16#32
  ![v259.toNat, 10, 16]
def k0_off33 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v264 : Index := Scalar.indexCast arg13
  let c11_i32_136 : BitVec 32 := 11#32
  let v265 : Index := Scalar.indexCast c11_i32_136
  let c16_137 : Index := 16#32
  ![v264.toNat, 11, 16]
def k0_off34 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v269 : Index := Scalar.indexCast arg13
  let c12_i32_138 : BitVec 32 := 12#32
  let v270 : Index := Scalar.indexCast c12_i32_138
  let c16_139 : Index := 16#32
  ![v269.toNat, 12, 16]
def k0_off35 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v274 : Index := Scalar.indexCast arg13
  let c13_i32_140 : BitVec 32 := 13#32
  let v275 : Index := Scalar.indexCast c13_i32_140
  let c16_141 : Index := 16#32
  ![v274.toNat, 13, 16]
def k0_off36 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v279 : Index := Scalar.indexCast arg13
  let c14_i32_142 : BitVec 32 := 14#32
  let v280 : Index := Scalar.indexCast c14_i32_142
  let c16_143 : Index := 16#32
  ![v279.toNat, 14, 16]
def k0_off37 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v284 : Index := Scalar.indexCast arg13
  let c15_i32_144 : BitVec 32 := 15#32
  let v285 : Index := Scalar.indexCast c15_i32_144
  let c16_145 : Index := 16#32
  ![v284.toNat, 15, 16]
def k0_off38 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v301 : Index := Scalar.indexCast arg13
  let c0_i32_146 : BitVec 32 := 0#32
  let v302 : Index := Scalar.indexCast c0_i32_146
  let c16_147 : Index := 16#32
  ![v301.toNat, 0, 16]
def k0_off39 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v308 : Index := Scalar.indexCast arg13
  let c1_i32_149 : BitVec 32 := 1#32
  let v309 : Index := Scalar.indexCast c1_i32_149
  let c16_150 : Index := 16#32
  ![v308.toNat, 1, 16]
def k0_off40 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v315 : Index := Scalar.indexCast arg13
  let c2_i32_152 : BitVec 32 := 2#32
  let v316 : Index := Scalar.indexCast c2_i32_152
  let c16_153 : Index := 16#32
  ![v315.toNat, 2, 16]
def k0_off41 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v322 : Index := Scalar.indexCast arg13
  let c3_i32_155 : BitVec 32 := 3#32
  let v323 : Index := Scalar.indexCast c3_i32_155
  let c16_156 : Index := 16#32
  ![v322.toNat, 3, 16]
def k0_off42 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v327 : Index := Scalar.indexCast arg13
  let c0_i32_157 : BitVec 32 := 0#32
  let v328 : Index := Scalar.indexCast c0_i32_157
  let c32 : Index := 32#32
  ![v327.toNat, 0, 32]
def k0_off43 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v332 : Index := Scalar.indexCast arg13
  let c1_i32_158 : BitVec 32 := 1#32
  let v333 : Index := Scalar.indexCast c1_i32_158
  let c32_159 : Index := 32#32
  ![v332.toNat, 1, 32]
def k0_off44 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v337 : Index := Scalar.indexCast arg13
  let c2_i32_160 : BitVec 32 := 2#32
  let v338 : Index := Scalar.indexCast c2_i32_160
  let c32_161 : Index := 32#32
  ![v337.toNat, 2, 32]
def k0_off45 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v342 : Index := Scalar.indexCast arg13
  let c3_i32_162 : BitVec 32 := 3#32
  let v343 : Index := Scalar.indexCast c3_i32_162
  let c32_163 : Index := 32#32
  ![v342.toNat, 3, 32]
def k0_off46 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v347 : Index := Scalar.indexCast arg13
  let c4_i32_164 : BitVec 32 := 4#32
  let v348 : Index := Scalar.indexCast c4_i32_164
  let c32_165 : Index := 32#32
  ![v347.toNat, 4, 32]
def k0_off47 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v352 : Index := Scalar.indexCast arg13
  let c5_i32_166 : BitVec 32 := 5#32
  let v353 : Index := Scalar.indexCast c5_i32_166
  let c32_167 : Index := 32#32
  ![v352.toNat, 5, 32]
def k0_off48 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v357 : Index := Scalar.indexCast arg13
  let c6_i32_168 : BitVec 32 := 6#32
  let v358 : Index := Scalar.indexCast c6_i32_168
  let c32_169 : Index := 32#32
  ![v357.toNat, 6, 32]
def k0_off49 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v362 : Index := Scalar.indexCast arg13
  let c7_i32_170 : BitVec 32 := 7#32
  let v363 : Index := Scalar.indexCast c7_i32_170
  let c32_171 : Index := 32#32
  ![v362.toNat, 7, 32]
def k0_off50 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v367 : Index := Scalar.indexCast arg13
  let c8_i32_172 : BitVec 32 := 8#32
  let v368 : Index := Scalar.indexCast c8_i32_172
  let c32_173 : Index := 32#32
  ![v367.toNat, 8, 32]
def k0_off51 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v372 : Index := Scalar.indexCast arg13
  let c9_i32_174 : BitVec 32 := 9#32
  let v373 : Index := Scalar.indexCast c9_i32_174
  let c32_175 : Index := 32#32
  ![v372.toNat, 9, 32]
def k0_off52 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v377 : Index := Scalar.indexCast arg13
  let c10_i32_176 : BitVec 32 := 10#32
  let v378 : Index := Scalar.indexCast c10_i32_176
  let c32_177 : Index := 32#32
  ![v377.toNat, 10, 32]
def k0_off53 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v382 : Index := Scalar.indexCast arg13
  let c11_i32_178 : BitVec 32 := 11#32
  let v383 : Index := Scalar.indexCast c11_i32_178
  let c32_179 : Index := 32#32
  ![v382.toNat, 11, 32]
def k0_off54 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v387 : Index := Scalar.indexCast arg13
  let c12_i32_180 : BitVec 32 := 12#32
  let v388 : Index := Scalar.indexCast c12_i32_180
  let c32_181 : Index := 32#32
  ![v387.toNat, 12, 32]
def k0_off55 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v392 : Index := Scalar.indexCast arg13
  let c13_i32_182 : BitVec 32 := 13#32
  let v393 : Index := Scalar.indexCast c13_i32_182
  let c32_183 : Index := 32#32
  ![v392.toNat, 13, 32]
def k0_off56 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v397 : Index := Scalar.indexCast arg13
  let c14_i32_184 : BitVec 32 := 14#32
  let v398 : Index := Scalar.indexCast c14_i32_184
  let c32_185 : Index := 32#32
  ![v397.toNat, 14, 32]
def k0_off57 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v402 : Index := Scalar.indexCast arg13
  let c15_i32_186 : BitVec 32 := 15#32
  let v403 : Index := Scalar.indexCast c15_i32_186
  let c32_187 : Index := 32#32
  ![v402.toNat, 15, 32]
def k0_off58 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v419 : Index := Scalar.indexCast arg13
  let c0_i32_188 : BitVec 32 := 0#32
  let v420 : Index := Scalar.indexCast c0_i32_188
  let c32_189 : Index := 32#32
  ![v419.toNat, 0, 32]
def k0_off59 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v426 : Index := Scalar.indexCast arg13
  let c1_i32_191 : BitVec 32 := 1#32
  let v427 : Index := Scalar.indexCast c1_i32_191
  let c32_192 : Index := 32#32
  ![v426.toNat, 1, 32]
def k0_off60 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v433 : Index := Scalar.indexCast arg13
  let c2_i32_194 : BitVec 32 := 2#32
  let v434 : Index := Scalar.indexCast c2_i32_194
  let c32_195 : Index := 32#32
  ![v433.toNat, 2, 32]
def k0_off61 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v440 : Index := Scalar.indexCast arg13
  let c3_i32_197 : BitVec 32 := 3#32
  let v441 : Index := Scalar.indexCast c3_i32_197
  let c32_198 : Index := 32#32
  ![v440.toNat, 3, 32]
def k0_off62 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v445 : Index := Scalar.indexCast arg13
  let c0_i32_199 : BitVec 32 := 0#32
  let v446 : Index := Scalar.indexCast c0_i32_199
  let c48 : Index := 48#32
  ![v445.toNat, 0, 48]
def k0_off63 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v450 : Index := Scalar.indexCast arg13
  let c1_i32_200 : BitVec 32 := 1#32
  let v451 : Index := Scalar.indexCast c1_i32_200
  let c48_201 : Index := 48#32
  ![v450.toNat, 1, 48]
def k0_off64 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v455 : Index := Scalar.indexCast arg13
  let c2_i32_202 : BitVec 32 := 2#32
  let v456 : Index := Scalar.indexCast c2_i32_202
  let c48_203 : Index := 48#32
  ![v455.toNat, 2, 48]
def k0_off65 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v460 : Index := Scalar.indexCast arg13
  let c3_i32_204 : BitVec 32 := 3#32
  let v461 : Index := Scalar.indexCast c3_i32_204
  let c48_205 : Index := 48#32
  ![v460.toNat, 3, 48]
def k0_off66 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v465 : Index := Scalar.indexCast arg13
  let c4_i32_206 : BitVec 32 := 4#32
  let v466 : Index := Scalar.indexCast c4_i32_206
  let c48_207 : Index := 48#32
  ![v465.toNat, 4, 48]
def k0_off67 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v470 : Index := Scalar.indexCast arg13
  let c5_i32_208 : BitVec 32 := 5#32
  let v471 : Index := Scalar.indexCast c5_i32_208
  let c48_209 : Index := 48#32
  ![v470.toNat, 5, 48]
def k0_off68 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v475 : Index := Scalar.indexCast arg13
  let c6_i32_210 : BitVec 32 := 6#32
  let v476 : Index := Scalar.indexCast c6_i32_210
  let c48_211 : Index := 48#32
  ![v475.toNat, 6, 48]
def k0_off69 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v480 : Index := Scalar.indexCast arg13
  let c7_i32_212 : BitVec 32 := 7#32
  let v481 : Index := Scalar.indexCast c7_i32_212
  let c48_213 : Index := 48#32
  ![v480.toNat, 7, 48]
def k0_off70 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v485 : Index := Scalar.indexCast arg13
  let c8_i32_214 : BitVec 32 := 8#32
  let v486 : Index := Scalar.indexCast c8_i32_214
  let c48_215 : Index := 48#32
  ![v485.toNat, 8, 48]
def k0_off71 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v490 : Index := Scalar.indexCast arg13
  let c9_i32_216 : BitVec 32 := 9#32
  let v491 : Index := Scalar.indexCast c9_i32_216
  let c48_217 : Index := 48#32
  ![v490.toNat, 9, 48]
def k0_off72 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v495 : Index := Scalar.indexCast arg13
  let c10_i32_218 : BitVec 32 := 10#32
  let v496 : Index := Scalar.indexCast c10_i32_218
  let c48_219 : Index := 48#32
  ![v495.toNat, 10, 48]
def k0_off73 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v500 : Index := Scalar.indexCast arg13
  let c11_i32_220 : BitVec 32 := 11#32
  let v501 : Index := Scalar.indexCast c11_i32_220
  let c48_221 : Index := 48#32
  ![v500.toNat, 11, 48]
def k0_off74 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v505 : Index := Scalar.indexCast arg13
  let c12_i32_222 : BitVec 32 := 12#32
  let v506 : Index := Scalar.indexCast c12_i32_222
  let c48_223 : Index := 48#32
  ![v505.toNat, 12, 48]
def k0_off75 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v510 : Index := Scalar.indexCast arg13
  let c13_i32_224 : BitVec 32 := 13#32
  let v511 : Index := Scalar.indexCast c13_i32_224
  let c48_225 : Index := 48#32
  ![v510.toNat, 13, 48]
def k0_off76 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v515 : Index := Scalar.indexCast arg13
  let c14_i32_226 : BitVec 32 := 14#32
  let v516 : Index := Scalar.indexCast c14_i32_226
  let c48_227 : Index := 48#32
  ![v515.toNat, 14, 48]
def k0_off77 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v520 : Index := Scalar.indexCast arg13
  let c15_i32_228 : BitVec 32 := 15#32
  let v521 : Index := Scalar.indexCast c15_i32_228
  let c48_229 : Index := 48#32
  ![v520.toNat, 15, 48]
def k0_off78 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v537 : Index := Scalar.indexCast arg13
  let c0_i32_230 : BitVec 32 := 0#32
  let v538 : Index := Scalar.indexCast c0_i32_230
  let c48_231 : Index := 48#32
  ![v537.toNat, 0, 48]
def k0_off79 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v544 : Index := Scalar.indexCast arg13
  let c1_i32_233 : BitVec 32 := 1#32
  let v545 : Index := Scalar.indexCast c1_i32_233
  let c48_234 : Index := 48#32
  ![v544.toNat, 1, 48]
def k0_off80 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v551 : Index := Scalar.indexCast arg13
  let c2_i32_236 : BitVec 32 := 2#32
  let v552 : Index := Scalar.indexCast c2_i32_236
  let c48_237 : Index := 48#32
  ![v551.toNat, 2, 48]
def k0_off81 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v558 : Index := Scalar.indexCast arg13
  let c3_i32_239 : BitVec 32 := 3#32
  let v559 : Index := Scalar.indexCast c3_i32_239
  let c48_240 : Index := 48#32
  ![v558.toNat, 3, 48]
def k0_off82 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v563 : Index := Scalar.indexCast arg13
  let c0_i32_241 : BitVec 32 := 0#32
  let v564 : Index := Scalar.indexCast c0_i32_241
  let c64 : Index := 64#32
  ![v563.toNat, 0, 64]
def k0_off83 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v568 : Index := Scalar.indexCast arg13
  let c1_i32_242 : BitVec 32 := 1#32
  let v569 : Index := Scalar.indexCast c1_i32_242
  let c64_243 : Index := 64#32
  ![v568.toNat, 1, 64]
def k0_off84 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v573 : Index := Scalar.indexCast arg13
  let c2_i32_244 : BitVec 32 := 2#32
  let v574 : Index := Scalar.indexCast c2_i32_244
  let c64_245 : Index := 64#32
  ![v573.toNat, 2, 64]
def k0_off85 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v578 : Index := Scalar.indexCast arg13
  let c3_i32_246 : BitVec 32 := 3#32
  let v579 : Index := Scalar.indexCast c3_i32_246
  let c64_247 : Index := 64#32
  ![v578.toNat, 3, 64]
def k0_off86 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v583 : Index := Scalar.indexCast arg13
  let c4_i32_248 : BitVec 32 := 4#32
  let v584 : Index := Scalar.indexCast c4_i32_248
  let c64_249 : Index := 64#32
  ![v583.toNat, 4, 64]
def k0_off87 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v588 : Index := Scalar.indexCast arg13
  let c5_i32_250 : BitVec 32 := 5#32
  let v589 : Index := Scalar.indexCast c5_i32_250
  let c64_251 : Index := 64#32
  ![v588.toNat, 5, 64]
def k0_off88 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v593 : Index := Scalar.indexCast arg13
  let c6_i32_252 : BitVec 32 := 6#32
  let v594 : Index := Scalar.indexCast c6_i32_252
  let c64_253 : Index := 64#32
  ![v593.toNat, 6, 64]
def k0_off89 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v598 : Index := Scalar.indexCast arg13
  let c7_i32_254 : BitVec 32 := 7#32
  let v599 : Index := Scalar.indexCast c7_i32_254
  let c64_255 : Index := 64#32
  ![v598.toNat, 7, 64]
def k0_off90 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v603 : Index := Scalar.indexCast arg13
  let c8_i32_256 : BitVec 32 := 8#32
  let v604 : Index := Scalar.indexCast c8_i32_256
  let c64_257 : Index := 64#32
  ![v603.toNat, 8, 64]
def k0_off91 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v608 : Index := Scalar.indexCast arg13
  let c9_i32_258 : BitVec 32 := 9#32
  let v609 : Index := Scalar.indexCast c9_i32_258
  let c64_259 : Index := 64#32
  ![v608.toNat, 9, 64]
def k0_off92 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v613 : Index := Scalar.indexCast arg13
  let c10_i32_260 : BitVec 32 := 10#32
  let v614 : Index := Scalar.indexCast c10_i32_260
  let c64_261 : Index := 64#32
  ![v613.toNat, 10, 64]
def k0_off93 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v618 : Index := Scalar.indexCast arg13
  let c11_i32_262 : BitVec 32 := 11#32
  let v619 : Index := Scalar.indexCast c11_i32_262
  let c64_263 : Index := 64#32
  ![v618.toNat, 11, 64]
def k0_off94 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v623 : Index := Scalar.indexCast arg13
  let c12_i32_264 : BitVec 32 := 12#32
  let v624 : Index := Scalar.indexCast c12_i32_264
  let c64_265 : Index := 64#32
  ![v623.toNat, 12, 64]
def k0_off95 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v628 : Index := Scalar.indexCast arg13
  let c13_i32_266 : BitVec 32 := 13#32
  let v629 : Index := Scalar.indexCast c13_i32_266
  let c64_267 : Index := 64#32
  ![v628.toNat, 13, 64]
def k0_off96 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v633 : Index := Scalar.indexCast arg13
  let c14_i32_268 : BitVec 32 := 14#32
  let v634 : Index := Scalar.indexCast c14_i32_268
  let c64_269 : Index := 64#32
  ![v633.toNat, 14, 64]
def k0_off97 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v638 : Index := Scalar.indexCast arg13
  let c15_i32_270 : BitVec 32 := 15#32
  let v639 : Index := Scalar.indexCast c15_i32_270
  let c64_271 : Index := 64#32
  ![v638.toNat, 15, 64]
def k0_off98 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v655 : Index := Scalar.indexCast arg13
  let c0_i32_272 : BitVec 32 := 0#32
  let v656 : Index := Scalar.indexCast c0_i32_272
  let c64_273 : Index := 64#32
  ![v655.toNat, 0, 64]
def k0_off99 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v662 : Index := Scalar.indexCast arg13
  let c1_i32_275 : BitVec 32 := 1#32
  let v663 : Index := Scalar.indexCast c1_i32_275
  let c64_276 : Index := 64#32
  ![v662.toNat, 1, 64]
def k0_off100 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v669 : Index := Scalar.indexCast arg13
  let c2_i32_278 : BitVec 32 := 2#32
  let v670 : Index := Scalar.indexCast c2_i32_278
  let c64_279 : Index := 64#32
  ![v669.toNat, 2, 64]
def k0_off101 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v676 : Index := Scalar.indexCast arg13
  let c3_i32_281 : BitVec 32 := 3#32
  let v677 : Index := Scalar.indexCast c3_i32_281
  let c64_282 : Index := 64#32
  ![v676.toNat, 3, 64]
def k0_off102 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v681 : Index := Scalar.indexCast arg13
  let c0_i32_283 : BitVec 32 := 0#32
  let v682 : Index := Scalar.indexCast c0_i32_283
  let c80 : Index := 80#32
  ![v681.toNat, 0, 80]
def k0_off103 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v686 : Index := Scalar.indexCast arg13
  let c1_i32_284 : BitVec 32 := 1#32
  let v687 : Index := Scalar.indexCast c1_i32_284
  let c80_285 : Index := 80#32
  ![v686.toNat, 1, 80]
def k0_off104 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v691 : Index := Scalar.indexCast arg13
  let c2_i32_286 : BitVec 32 := 2#32
  let v692 : Index := Scalar.indexCast c2_i32_286
  let c80_287 : Index := 80#32
  ![v691.toNat, 2, 80]
def k0_off105 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v696 : Index := Scalar.indexCast arg13
  let c3_i32_288 : BitVec 32 := 3#32
  let v697 : Index := Scalar.indexCast c3_i32_288
  let c80_289 : Index := 80#32
  ![v696.toNat, 3, 80]
def k0_off106 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v701 : Index := Scalar.indexCast arg13
  let c4_i32_290 : BitVec 32 := 4#32
  let v702 : Index := Scalar.indexCast c4_i32_290
  let c80_291 : Index := 80#32
  ![v701.toNat, 4, 80]
def k0_off107 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v706 : Index := Scalar.indexCast arg13
  let c5_i32_292 : BitVec 32 := 5#32
  let v707 : Index := Scalar.indexCast c5_i32_292
  let c80_293 : Index := 80#32
  ![v706.toNat, 5, 80]
def k0_off108 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v711 : Index := Scalar.indexCast arg13
  let c6_i32_294 : BitVec 32 := 6#32
  let v712 : Index := Scalar.indexCast c6_i32_294
  let c80_295 : Index := 80#32
  ![v711.toNat, 6, 80]
def k0_off109 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v716 : Index := Scalar.indexCast arg13
  let c7_i32_296 : BitVec 32 := 7#32
  let v717 : Index := Scalar.indexCast c7_i32_296
  let c80_297 : Index := 80#32
  ![v716.toNat, 7, 80]
def k0_off110 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v721 : Index := Scalar.indexCast arg13
  let c8_i32_298 : BitVec 32 := 8#32
  let v722 : Index := Scalar.indexCast c8_i32_298
  let c80_299 : Index := 80#32
  ![v721.toNat, 8, 80]
def k0_off111 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v726 : Index := Scalar.indexCast arg13
  let c9_i32_300 : BitVec 32 := 9#32
  let v727 : Index := Scalar.indexCast c9_i32_300
  let c80_301 : Index := 80#32
  ![v726.toNat, 9, 80]
def k0_off112 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v731 : Index := Scalar.indexCast arg13
  let c10_i32_302 : BitVec 32 := 10#32
  let v732 : Index := Scalar.indexCast c10_i32_302
  let c80_303 : Index := 80#32
  ![v731.toNat, 10, 80]
def k0_off113 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v736 : Index := Scalar.indexCast arg13
  let c11_i32_304 : BitVec 32 := 11#32
  let v737 : Index := Scalar.indexCast c11_i32_304
  let c80_305 : Index := 80#32
  ![v736.toNat, 11, 80]
def k0_off114 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v741 : Index := Scalar.indexCast arg13
  let c12_i32_306 : BitVec 32 := 12#32
  let v742 : Index := Scalar.indexCast c12_i32_306
  let c80_307 : Index := 80#32
  ![v741.toNat, 12, 80]
def k0_off115 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v746 : Index := Scalar.indexCast arg13
  let c13_i32_308 : BitVec 32 := 13#32
  let v747 : Index := Scalar.indexCast c13_i32_308
  let c80_309 : Index := 80#32
  ![v746.toNat, 13, 80]
def k0_off116 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v751 : Index := Scalar.indexCast arg13
  let c14_i32_310 : BitVec 32 := 14#32
  let v752 : Index := Scalar.indexCast c14_i32_310
  let c80_311 : Index := 80#32
  ![v751.toNat, 14, 80]
def k0_off117 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v756 : Index := Scalar.indexCast arg13
  let c15_i32_312 : BitVec 32 := 15#32
  let v757 : Index := Scalar.indexCast c15_i32_312
  let c80_313 : Index := 80#32
  ![v756.toNat, 15, 80]
def k0_off118 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v773 : Index := Scalar.indexCast arg13
  let c0_i32_314 : BitVec 32 := 0#32
  let v774 : Index := Scalar.indexCast c0_i32_314
  let c80_315 : Index := 80#32
  ![v773.toNat, 0, 80]
def k0_off119 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v780 : Index := Scalar.indexCast arg13
  let c1_i32_317 : BitVec 32 := 1#32
  let v781 : Index := Scalar.indexCast c1_i32_317
  let c80_318 : Index := 80#32
  ![v780.toNat, 1, 80]
def k0_off120 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v787 : Index := Scalar.indexCast arg13
  let c2_i32_320 : BitVec 32 := 2#32
  let v788 : Index := Scalar.indexCast c2_i32_320
  let c80_321 : Index := 80#32
  ![v787.toNat, 2, 80]
def k0_off121 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v794 : Index := Scalar.indexCast arg13
  let c3_i32_323 : BitVec 32 := 3#32
  let v795 : Index := Scalar.indexCast c3_i32_323
  let c80_324 : Index := 80#32
  ![v794.toNat, 3, 80]
def k0_off122 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v799 : Index := Scalar.indexCast arg13
  let c0_i32_325 : BitVec 32 := 0#32
  let v800 : Index := Scalar.indexCast c0_i32_325
  let c96 : Index := 96#32
  ![v799.toNat, 0, 96]
def k0_off123 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v804 : Index := Scalar.indexCast arg13
  let c1_i32_326 : BitVec 32 := 1#32
  let v805 : Index := Scalar.indexCast c1_i32_326
  let c96_327 : Index := 96#32
  ![v804.toNat, 1, 96]
def k0_off124 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v809 : Index := Scalar.indexCast arg13
  let c2_i32_328 : BitVec 32 := 2#32
  let v810 : Index := Scalar.indexCast c2_i32_328
  let c96_329 : Index := 96#32
  ![v809.toNat, 2, 96]
def k0_off125 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v814 : Index := Scalar.indexCast arg13
  let c3_i32_330 : BitVec 32 := 3#32
  let v815 : Index := Scalar.indexCast c3_i32_330
  let c96_331 : Index := 96#32
  ![v814.toNat, 3, 96]
def k0_off126 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v819 : Index := Scalar.indexCast arg13
  let c4_i32_332 : BitVec 32 := 4#32
  let v820 : Index := Scalar.indexCast c4_i32_332
  let c96_333 : Index := 96#32
  ![v819.toNat, 4, 96]
def k0_off127 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v824 : Index := Scalar.indexCast arg13
  let c5_i32_334 : BitVec 32 := 5#32
  let v825 : Index := Scalar.indexCast c5_i32_334
  let c96_335 : Index := 96#32
  ![v824.toNat, 5, 96]
def k0_off128 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v829 : Index := Scalar.indexCast arg13
  let c6_i32_336 : BitVec 32 := 6#32
  let v830 : Index := Scalar.indexCast c6_i32_336
  let c96_337 : Index := 96#32
  ![v829.toNat, 6, 96]
def k0_off129 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v834 : Index := Scalar.indexCast arg13
  let c7_i32_338 : BitVec 32 := 7#32
  let v835 : Index := Scalar.indexCast c7_i32_338
  let c96_339 : Index := 96#32
  ![v834.toNat, 7, 96]
def k0_off130 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v839 : Index := Scalar.indexCast arg13
  let c8_i32_340 : BitVec 32 := 8#32
  let v840 : Index := Scalar.indexCast c8_i32_340
  let c96_341 : Index := 96#32
  ![v839.toNat, 8, 96]
def k0_off131 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v844 : Index := Scalar.indexCast arg13
  let c9_i32_342 : BitVec 32 := 9#32
  let v845 : Index := Scalar.indexCast c9_i32_342
  let c96_343 : Index := 96#32
  ![v844.toNat, 9, 96]
def k0_off132 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v849 : Index := Scalar.indexCast arg13
  let c10_i32_344 : BitVec 32 := 10#32
  let v850 : Index := Scalar.indexCast c10_i32_344
  let c96_345 : Index := 96#32
  ![v849.toNat, 10, 96]
def k0_off133 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v854 : Index := Scalar.indexCast arg13
  let c11_i32_346 : BitVec 32 := 11#32
  let v855 : Index := Scalar.indexCast c11_i32_346
  let c96_347 : Index := 96#32
  ![v854.toNat, 11, 96]
def k0_off134 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v859 : Index := Scalar.indexCast arg13
  let c12_i32_348 : BitVec 32 := 12#32
  let v860 : Index := Scalar.indexCast c12_i32_348
  let c96_349 : Index := 96#32
  ![v859.toNat, 12, 96]
def k0_off135 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v864 : Index := Scalar.indexCast arg13
  let c13_i32_350 : BitVec 32 := 13#32
  let v865 : Index := Scalar.indexCast c13_i32_350
  let c96_351 : Index := 96#32
  ![v864.toNat, 13, 96]
def k0_off136 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v869 : Index := Scalar.indexCast arg13
  let c14_i32_352 : BitVec 32 := 14#32
  let v870 : Index := Scalar.indexCast c14_i32_352
  let c96_353 : Index := 96#32
  ![v869.toNat, 14, 96]
def k0_off137 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v874 : Index := Scalar.indexCast arg13
  let c15_i32_354 : BitVec 32 := 15#32
  let v875 : Index := Scalar.indexCast c15_i32_354
  let c96_355 : Index := 96#32
  ![v874.toNat, 15, 96]
def k0_off138 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v891 : Index := Scalar.indexCast arg13
  let c0_i32_356 : BitVec 32 := 0#32
  let v892 : Index := Scalar.indexCast c0_i32_356
  let c96_357 : Index := 96#32
  ![v891.toNat, 0, 96]
def k0_off139 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v898 : Index := Scalar.indexCast arg13
  let c1_i32_359 : BitVec 32 := 1#32
  let v899 : Index := Scalar.indexCast c1_i32_359
  let c96_360 : Index := 96#32
  ![v898.toNat, 1, 96]
def k0_off140 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v905 : Index := Scalar.indexCast arg13
  let c2_i32_362 : BitVec 32 := 2#32
  let v906 : Index := Scalar.indexCast c2_i32_362
  let c96_363 : Index := 96#32
  ![v905.toNat, 2, 96]
def k0_off141 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v912 : Index := Scalar.indexCast arg13
  let c3_i32_365 : BitVec 32 := 3#32
  let v913 : Index := Scalar.indexCast c3_i32_365
  let c96_366 : Index := 96#32
  ![v912.toNat, 3, 96]
def k0_off142 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v917 : Index := Scalar.indexCast arg13
  let c0_i32_367 : BitVec 32 := 0#32
  let v918 : Index := Scalar.indexCast c0_i32_367
  let c112 : Index := 112#32
  ![v917.toNat, 0, 112]
def k0_off143 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v922 : Index := Scalar.indexCast arg13
  let c1_i32_368 : BitVec 32 := 1#32
  let v923 : Index := Scalar.indexCast c1_i32_368
  let c112_369 : Index := 112#32
  ![v922.toNat, 1, 112]
def k0_off144 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v927 : Index := Scalar.indexCast arg13
  let c2_i32_370 : BitVec 32 := 2#32
  let v928 : Index := Scalar.indexCast c2_i32_370
  let c112_371 : Index := 112#32
  ![v927.toNat, 2, 112]
def k0_off145 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v932 : Index := Scalar.indexCast arg13
  let c3_i32_372 : BitVec 32 := 3#32
  let v933 : Index := Scalar.indexCast c3_i32_372
  let c112_373 : Index := 112#32
  ![v932.toNat, 3, 112]
def k0_off146 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v937 : Index := Scalar.indexCast arg13
  let c4_i32_374 : BitVec 32 := 4#32
  let v938 : Index := Scalar.indexCast c4_i32_374
  let c112_375 : Index := 112#32
  ![v937.toNat, 4, 112]
def k0_off147 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v942 : Index := Scalar.indexCast arg13
  let c5_i32_376 : BitVec 32 := 5#32
  let v943 : Index := Scalar.indexCast c5_i32_376
  let c112_377 : Index := 112#32
  ![v942.toNat, 5, 112]
def k0_off148 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v947 : Index := Scalar.indexCast arg13
  let c6_i32_378 : BitVec 32 := 6#32
  let v948 : Index := Scalar.indexCast c6_i32_378
  let c112_379 : Index := 112#32
  ![v947.toNat, 6, 112]
def k0_off149 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v952 : Index := Scalar.indexCast arg13
  let c7_i32_380 : BitVec 32 := 7#32
  let v953 : Index := Scalar.indexCast c7_i32_380
  let c112_381 : Index := 112#32
  ![v952.toNat, 7, 112]
def k0_off150 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v957 : Index := Scalar.indexCast arg13
  let c8_i32_382 : BitVec 32 := 8#32
  let v958 : Index := Scalar.indexCast c8_i32_382
  let c112_383 : Index := 112#32
  ![v957.toNat, 8, 112]
def k0_off151 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v962 : Index := Scalar.indexCast arg13
  let c9_i32_384 : BitVec 32 := 9#32
  let v963 : Index := Scalar.indexCast c9_i32_384
  let c112_385 : Index := 112#32
  ![v962.toNat, 9, 112]
def k0_off152 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v967 : Index := Scalar.indexCast arg13
  let c10_i32_386 : BitVec 32 := 10#32
  let v968 : Index := Scalar.indexCast c10_i32_386
  let c112_387 : Index := 112#32
  ![v967.toNat, 10, 112]
def k0_off153 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v972 : Index := Scalar.indexCast arg13
  let c11_i32_388 : BitVec 32 := 11#32
  let v973 : Index := Scalar.indexCast c11_i32_388
  let c112_389 : Index := 112#32
  ![v972.toNat, 11, 112]
def k0_off154 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v977 : Index := Scalar.indexCast arg13
  let c12_i32_390 : BitVec 32 := 12#32
  let v978 : Index := Scalar.indexCast c12_i32_390
  let c112_391 : Index := 112#32
  ![v977.toNat, 12, 112]
def k0_off155 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v982 : Index := Scalar.indexCast arg13
  let c13_i32_392 : BitVec 32 := 13#32
  let v983 : Index := Scalar.indexCast c13_i32_392
  let c112_393 : Index := 112#32
  ![v982.toNat, 13, 112]
def k0_off156 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v987 : Index := Scalar.indexCast arg13
  let c14_i32_394 : BitVec 32 := 14#32
  let v988 : Index := Scalar.indexCast c14_i32_394
  let c112_395 : Index := 112#32
  ![v987.toNat, 14, 112]
def k0_off157 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v992 : Index := Scalar.indexCast arg13
  let c15_i32_396 : BitVec 32 := 15#32
  let v993 : Index := Scalar.indexCast c15_i32_396
  let c112_397 : Index := 112#32
  ![v992.toNat, 15, 112]
def k0_off158 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v1009 : Index := Scalar.indexCast arg13
  let c0_i32_398 : BitVec 32 := 0#32
  let v1010 : Index := Scalar.indexCast c0_i32_398
  let c112_399 : Index := 112#32
  ![v1009.toNat, 0, 112]
def k0_off159 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v1016 : Index := Scalar.indexCast arg13
  let c1_i32_401 : BitVec 32 := 1#32
  let v1017 : Index := Scalar.indexCast c1_i32_401
  let c112_402 : Index := 112#32
  ![v1016.toNat, 1, 112]
def k0_off160 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v1023 : Index := Scalar.indexCast arg13
  let c2_i32_404 : BitVec 32 := 2#32
  let v1024 : Index := Scalar.indexCast c2_i32_404
  let c112_405 : Index := 112#32
  ![v1023.toNat, 2, 112]
def k0_off161 (k0_t2 : Fin k0_t2_loop.trips) : Fin 3 → Nat :=
  let c0_i32_52 : BitVec 32 := 0#32
  let c1_i32_54 : BitVec 32 := 1#32
  let arg13 : BitVec 32 := Scf.iv c0_i32_52 c1_i32_54 k0_t2
  let v1030 : Index := Scalar.indexCast arg13
  let c3_i32_407 : BitVec 32 := 3#32
  let v1031 : Index := Scalar.indexCast c3_i32_407
  let c112_408 : Index := 112#32
  ![v1030.toNat, 3, 112]
def k0_off162 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_42 : BitVec 32 := 2#32
  let c0_i32_26 : BitVec 32 := 0#32
  let c1_i32_28 : BitVec 32 := 1#32
  let arg12 : BitVec 32 := Scf.iv c0_i32_26 c1_i32_28 k0_t1
  let v58 : BitVec 32 := Scalar.muli c2_i32_42 arg12
  let c32_i32_56 : BitVec 32 := 32#32
  let v65 : BitVec 32 := Scalar.muli v58 c32_i32_56
  let v66 : BitVec 32 := Scalar.addi v1 v65
  let c16_i32_57 : BitVec 32 := 16#32
  let v67 : BitVec 32 := Scalar.muli v66 c16_i32_57
  let c0_i32_58 : BitVec 32 := 0#32
  let c0_i32_59 : BitVec 32 := 0#32
  ![v67.toNat, 0, 0]
def k0_cond2 (i : grid0.Coords) (k0_t1 : Fin (k0_t1_loop i).trips) : BitVec 1 :=
  let c2_i32_42 : BitVec 32 := 2#32
  let c0_i32_26 : BitVec 32 := 0#32
  let c1_i32_28 : BitVec 32 := 1#32
  let arg12 : BitVec 32 := Scf.iv c0_i32_26 c1_i32_28 k0_t1
  let v58 : BitVec 32 := Scalar.muli c2_i32_42 arg12
  let c2_i32_62 : BitVec 32 := 2#32
  let v70 : BitVec 32 := Scalar.addi v58 c2_i32_62
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c256_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v71 : BitVec 1 := Scalar.cmpi .slt v70 v21
  let v72 : BitVec 32 := Scalar.extui v71
  let c0_i32_63 : BitVec 32 := 0#32
  let v73 : BitVec 1 := Scalar.cmpi .ne v72 c0_i32_63
  v73

def k0_off163 (i : grid0.Coords) (k0_t1 : Fin (k0_t1_loop i).trips) : Fin 3 → Nat :=
  let c5904_i32_90 : BitVec 32 := 5904#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_42 : BitVec 32 := 2#32
  let c0_i32_26 : BitVec 32 := 0#32
  let c1_i32_28 : BitVec 32 := 1#32
  let arg12 : BitVec 32 := Scf.iv c0_i32_26 c1_i32_28 k0_t1
  let v58 : BitVec 32 := Scalar.muli c2_i32_42 arg12
  let c2_i32_87 : BitVec 32 := 2#32
  let v91 : BitVec 32 := Scalar.addi v58 c2_i32_87
  let c32_i32_88 : BitVec 32 := 32#32
  let v92 : BitVec 32 := Scalar.muli v91 c32_i32_88
  let v93 : BitVec 32 := Scalar.addi v1 v92
  let c16_i32_89 : BitVec 32 := 16#32
  let v94 : BitVec 32 := Scalar.muli v93 c16_i32_89
  let v95 : BitVec 32 := Scalar.addi c5904_i32_90 v94
  let c0_i32_91 : BitVec 32 := 0#32
  let c0_i32_92 : BitVec 32 := 0#32
  ![v95.toNat, 0, 0]
@[reducible] def k0_t3_loop : Scf.Loop 32 :=
  let c0_i32_75 : BitVec 32 := 0#32
  let c16_i32_76 : BitVec 32 := 16#32
  let v81 : BitVec 32 := Scalar.addi c0_i32_75 c16_i32_76
  let c1_i32_77 : BitVec 32 := 1#32
  ⟨c0_i32_75, v81, c1_i32_77⟩
def k0_off164 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v91 : Index := Scalar.indexCast arg13
  let c0_i32_87 : BitVec 32 := 0#32
  let v92 : Index := Scalar.indexCast c0_i32_87
  let c0 : Index := 0#32
  ![v91.toNat, 0, 0]
def k0_off165 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v96 : Index := Scalar.indexCast arg13
  let c1_i32_88 : BitVec 32 := 1#32
  let v97 : Index := Scalar.indexCast c1_i32_88
  let c0_89 : Index := 0#32
  ![v96.toNat, 1, 0]
def k0_off166 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v101 : Index := Scalar.indexCast arg13
  let c2_i32_90 : BitVec 32 := 2#32
  let v102 : Index := Scalar.indexCast c2_i32_90
  let c0_91 : Index := 0#32
  ![v101.toNat, 2, 0]
def k0_off167 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v106 : Index := Scalar.indexCast arg13
  let c3_i32 : BitVec 32 := 3#32
  let v107 : Index := Scalar.indexCast c3_i32
  let c0_92 : Index := 0#32
  ![v106.toNat, 3, 0]
def k0_off168 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v111 : Index := Scalar.indexCast arg13
  let c4_i32 : BitVec 32 := 4#32
  let v112 : Index := Scalar.indexCast c4_i32
  let c0_93 : Index := 0#32
  ![v111.toNat, 4, 0]
def k0_off169 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v116 : Index := Scalar.indexCast arg13
  let c5_i32 : BitVec 32 := 5#32
  let v117 : Index := Scalar.indexCast c5_i32
  let c0_94 : Index := 0#32
  ![v116.toNat, 5, 0]
def k0_off170 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v121 : Index := Scalar.indexCast arg13
  let c6_i32 : BitVec 32 := 6#32
  let v122 : Index := Scalar.indexCast c6_i32
  let c0_95 : Index := 0#32
  ![v121.toNat, 6, 0]
def k0_off171 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v126 : Index := Scalar.indexCast arg13
  let c7_i32 : BitVec 32 := 7#32
  let v127 : Index := Scalar.indexCast c7_i32
  let c0_96 : Index := 0#32
  ![v126.toNat, 7, 0]
def k0_off172 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v131 : Index := Scalar.indexCast arg13
  let c8_i32 : BitVec 32 := 8#32
  let v132 : Index := Scalar.indexCast c8_i32
  let c0_97 : Index := 0#32
  ![v131.toNat, 8, 0]
def k0_off173 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v136 : Index := Scalar.indexCast arg13
  let c9_i32 : BitVec 32 := 9#32
  let v137 : Index := Scalar.indexCast c9_i32
  let c0_98 : Index := 0#32
  ![v136.toNat, 9, 0]
def k0_off174 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v141 : Index := Scalar.indexCast arg13
  let c10_i32 : BitVec 32 := 10#32
  let v142 : Index := Scalar.indexCast c10_i32
  let c0_99 : Index := 0#32
  ![v141.toNat, 10, 0]
def k0_off175 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v146 : Index := Scalar.indexCast arg13
  let c11_i32 : BitVec 32 := 11#32
  let v147 : Index := Scalar.indexCast c11_i32
  let c0_100 : Index := 0#32
  ![v146.toNat, 11, 0]
def k0_off176 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v151 : Index := Scalar.indexCast arg13
  let c12_i32 : BitVec 32 := 12#32
  let v152 : Index := Scalar.indexCast c12_i32
  let c0_101 : Index := 0#32
  ![v151.toNat, 12, 0]
def k0_off177 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v156 : Index := Scalar.indexCast arg13
  let c13_i32 : BitVec 32 := 13#32
  let v157 : Index := Scalar.indexCast c13_i32
  let c0_102 : Index := 0#32
  ![v156.toNat, 13, 0]
def k0_off178 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v161 : Index := Scalar.indexCast arg13
  let c14_i32 : BitVec 32 := 14#32
  let v162 : Index := Scalar.indexCast c14_i32
  let c0_103 : Index := 0#32
  ![v161.toNat, 14, 0]
def k0_off179 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v166 : Index := Scalar.indexCast arg13
  let c15_i32 : BitVec 32 := 15#32
  let v167 : Index := Scalar.indexCast c15_i32
  let c0_104 : Index := 0#32
  ![v166.toNat, 15, 0]
def k0_off180 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v183 : Index := Scalar.indexCast arg13
  let c0_i32_105 : BitVec 32 := 0#32
  let v184 : Index := Scalar.indexCast c0_i32_105
  let c0_106 : Index := 0#32
  ![v183.toNat, 0, 0]
def k0_off181 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v190 : Index := Scalar.indexCast arg13
  let c1_i32_107 : BitVec 32 := 1#32
  let v191 : Index := Scalar.indexCast c1_i32_107
  let c0_108 : Index := 0#32
  ![v190.toNat, 1, 0]
def k0_off182 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v197 : Index := Scalar.indexCast arg13
  let c2_i32_110 : BitVec 32 := 2#32
  let v198 : Index := Scalar.indexCast c2_i32_110
  let c0_111 : Index := 0#32
  ![v197.toNat, 2, 0]
def k0_off183 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v204 : Index := Scalar.indexCast arg13
  let c3_i32_113 : BitVec 32 := 3#32
  let v205 : Index := Scalar.indexCast c3_i32_113
  let c0_114 : Index := 0#32
  ![v204.toNat, 3, 0]
def k0_off184 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v209 : Index := Scalar.indexCast arg13
  let c0_i32_115 : BitVec 32 := 0#32
  let v210 : Index := Scalar.indexCast c0_i32_115
  let c16 : Index := 16#32
  ![v209.toNat, 0, 16]
def k0_off185 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v214 : Index := Scalar.indexCast arg13
  let c1_i32_116 : BitVec 32 := 1#32
  let v215 : Index := Scalar.indexCast c1_i32_116
  let c16_117 : Index := 16#32
  ![v214.toNat, 1, 16]
def k0_off186 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v219 : Index := Scalar.indexCast arg13
  let c2_i32_118 : BitVec 32 := 2#32
  let v220 : Index := Scalar.indexCast c2_i32_118
  let c16_119 : Index := 16#32
  ![v219.toNat, 2, 16]
def k0_off187 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v224 : Index := Scalar.indexCast arg13
  let c3_i32_120 : BitVec 32 := 3#32
  let v225 : Index := Scalar.indexCast c3_i32_120
  let c16_121 : Index := 16#32
  ![v224.toNat, 3, 16]
def k0_off188 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v229 : Index := Scalar.indexCast arg13
  let c4_i32_122 : BitVec 32 := 4#32
  let v230 : Index := Scalar.indexCast c4_i32_122
  let c16_123 : Index := 16#32
  ![v229.toNat, 4, 16]
def k0_off189 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v234 : Index := Scalar.indexCast arg13
  let c5_i32_124 : BitVec 32 := 5#32
  let v235 : Index := Scalar.indexCast c5_i32_124
  let c16_125 : Index := 16#32
  ![v234.toNat, 5, 16]
def k0_off190 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v239 : Index := Scalar.indexCast arg13
  let c6_i32_126 : BitVec 32 := 6#32
  let v240 : Index := Scalar.indexCast c6_i32_126
  let c16_127 : Index := 16#32
  ![v239.toNat, 6, 16]
def k0_off191 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v244 : Index := Scalar.indexCast arg13
  let c7_i32_128 : BitVec 32 := 7#32
  let v245 : Index := Scalar.indexCast c7_i32_128
  let c16_129 : Index := 16#32
  ![v244.toNat, 7, 16]
def k0_off192 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v249 : Index := Scalar.indexCast arg13
  let c8_i32_130 : BitVec 32 := 8#32
  let v250 : Index := Scalar.indexCast c8_i32_130
  let c16_131 : Index := 16#32
  ![v249.toNat, 8, 16]
def k0_off193 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v254 : Index := Scalar.indexCast arg13
  let c9_i32_132 : BitVec 32 := 9#32
  let v255 : Index := Scalar.indexCast c9_i32_132
  let c16_133 : Index := 16#32
  ![v254.toNat, 9, 16]
def k0_off194 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v259 : Index := Scalar.indexCast arg13
  let c10_i32_134 : BitVec 32 := 10#32
  let v260 : Index := Scalar.indexCast c10_i32_134
  let c16_135 : Index := 16#32
  ![v259.toNat, 10, 16]
def k0_off195 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v264 : Index := Scalar.indexCast arg13
  let c11_i32_136 : BitVec 32 := 11#32
  let v265 : Index := Scalar.indexCast c11_i32_136
  let c16_137 : Index := 16#32
  ![v264.toNat, 11, 16]
def k0_off196 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v269 : Index := Scalar.indexCast arg13
  let c12_i32_138 : BitVec 32 := 12#32
  let v270 : Index := Scalar.indexCast c12_i32_138
  let c16_139 : Index := 16#32
  ![v269.toNat, 12, 16]
def k0_off197 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v274 : Index := Scalar.indexCast arg13
  let c13_i32_140 : BitVec 32 := 13#32
  let v275 : Index := Scalar.indexCast c13_i32_140
  let c16_141 : Index := 16#32
  ![v274.toNat, 13, 16]
def k0_off198 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v279 : Index := Scalar.indexCast arg13
  let c14_i32_142 : BitVec 32 := 14#32
  let v280 : Index := Scalar.indexCast c14_i32_142
  let c16_143 : Index := 16#32
  ![v279.toNat, 14, 16]
def k0_off199 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v284 : Index := Scalar.indexCast arg13
  let c15_i32_144 : BitVec 32 := 15#32
  let v285 : Index := Scalar.indexCast c15_i32_144
  let c16_145 : Index := 16#32
  ![v284.toNat, 15, 16]
def k0_off200 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v301 : Index := Scalar.indexCast arg13
  let c0_i32_146 : BitVec 32 := 0#32
  let v302 : Index := Scalar.indexCast c0_i32_146
  let c16_147 : Index := 16#32
  ![v301.toNat, 0, 16]
def k0_off201 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v308 : Index := Scalar.indexCast arg13
  let c1_i32_149 : BitVec 32 := 1#32
  let v309 : Index := Scalar.indexCast c1_i32_149
  let c16_150 : Index := 16#32
  ![v308.toNat, 1, 16]
def k0_off202 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v315 : Index := Scalar.indexCast arg13
  let c2_i32_152 : BitVec 32 := 2#32
  let v316 : Index := Scalar.indexCast c2_i32_152
  let c16_153 : Index := 16#32
  ![v315.toNat, 2, 16]
def k0_off203 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v322 : Index := Scalar.indexCast arg13
  let c3_i32_155 : BitVec 32 := 3#32
  let v323 : Index := Scalar.indexCast c3_i32_155
  let c16_156 : Index := 16#32
  ![v322.toNat, 3, 16]
def k0_off204 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v327 : Index := Scalar.indexCast arg13
  let c0_i32_157 : BitVec 32 := 0#32
  let v328 : Index := Scalar.indexCast c0_i32_157
  let c32 : Index := 32#32
  ![v327.toNat, 0, 32]
def k0_off205 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v332 : Index := Scalar.indexCast arg13
  let c1_i32_158 : BitVec 32 := 1#32
  let v333 : Index := Scalar.indexCast c1_i32_158
  let c32_159 : Index := 32#32
  ![v332.toNat, 1, 32]
def k0_off206 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v337 : Index := Scalar.indexCast arg13
  let c2_i32_160 : BitVec 32 := 2#32
  let v338 : Index := Scalar.indexCast c2_i32_160
  let c32_161 : Index := 32#32
  ![v337.toNat, 2, 32]
def k0_off207 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v342 : Index := Scalar.indexCast arg13
  let c3_i32_162 : BitVec 32 := 3#32
  let v343 : Index := Scalar.indexCast c3_i32_162
  let c32_163 : Index := 32#32
  ![v342.toNat, 3, 32]
def k0_off208 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v347 : Index := Scalar.indexCast arg13
  let c4_i32_164 : BitVec 32 := 4#32
  let v348 : Index := Scalar.indexCast c4_i32_164
  let c32_165 : Index := 32#32
  ![v347.toNat, 4, 32]
def k0_off209 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v352 : Index := Scalar.indexCast arg13
  let c5_i32_166 : BitVec 32 := 5#32
  let v353 : Index := Scalar.indexCast c5_i32_166
  let c32_167 : Index := 32#32
  ![v352.toNat, 5, 32]
def k0_off210 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v357 : Index := Scalar.indexCast arg13
  let c6_i32_168 : BitVec 32 := 6#32
  let v358 : Index := Scalar.indexCast c6_i32_168
  let c32_169 : Index := 32#32
  ![v357.toNat, 6, 32]
def k0_off211 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v362 : Index := Scalar.indexCast arg13
  let c7_i32_170 : BitVec 32 := 7#32
  let v363 : Index := Scalar.indexCast c7_i32_170
  let c32_171 : Index := 32#32
  ![v362.toNat, 7, 32]
def k0_off212 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v367 : Index := Scalar.indexCast arg13
  let c8_i32_172 : BitVec 32 := 8#32
  let v368 : Index := Scalar.indexCast c8_i32_172
  let c32_173 : Index := 32#32
  ![v367.toNat, 8, 32]
def k0_off213 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v372 : Index := Scalar.indexCast arg13
  let c9_i32_174 : BitVec 32 := 9#32
  let v373 : Index := Scalar.indexCast c9_i32_174
  let c32_175 : Index := 32#32
  ![v372.toNat, 9, 32]
def k0_off214 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v377 : Index := Scalar.indexCast arg13
  let c10_i32_176 : BitVec 32 := 10#32
  let v378 : Index := Scalar.indexCast c10_i32_176
  let c32_177 : Index := 32#32
  ![v377.toNat, 10, 32]
def k0_off215 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v382 : Index := Scalar.indexCast arg13
  let c11_i32_178 : BitVec 32 := 11#32
  let v383 : Index := Scalar.indexCast c11_i32_178
  let c32_179 : Index := 32#32
  ![v382.toNat, 11, 32]
def k0_off216 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v387 : Index := Scalar.indexCast arg13
  let c12_i32_180 : BitVec 32 := 12#32
  let v388 : Index := Scalar.indexCast c12_i32_180
  let c32_181 : Index := 32#32
  ![v387.toNat, 12, 32]
def k0_off217 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v392 : Index := Scalar.indexCast arg13
  let c13_i32_182 : BitVec 32 := 13#32
  let v393 : Index := Scalar.indexCast c13_i32_182
  let c32_183 : Index := 32#32
  ![v392.toNat, 13, 32]
def k0_off218 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v397 : Index := Scalar.indexCast arg13
  let c14_i32_184 : BitVec 32 := 14#32
  let v398 : Index := Scalar.indexCast c14_i32_184
  let c32_185 : Index := 32#32
  ![v397.toNat, 14, 32]
def k0_off219 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v402 : Index := Scalar.indexCast arg13
  let c15_i32_186 : BitVec 32 := 15#32
  let v403 : Index := Scalar.indexCast c15_i32_186
  let c32_187 : Index := 32#32
  ![v402.toNat, 15, 32]
def k0_off220 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v419 : Index := Scalar.indexCast arg13
  let c0_i32_188 : BitVec 32 := 0#32
  let v420 : Index := Scalar.indexCast c0_i32_188
  let c32_189 : Index := 32#32
  ![v419.toNat, 0, 32]
def k0_off221 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v426 : Index := Scalar.indexCast arg13
  let c1_i32_191 : BitVec 32 := 1#32
  let v427 : Index := Scalar.indexCast c1_i32_191
  let c32_192 : Index := 32#32
  ![v426.toNat, 1, 32]
def k0_off222 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v433 : Index := Scalar.indexCast arg13
  let c2_i32_194 : BitVec 32 := 2#32
  let v434 : Index := Scalar.indexCast c2_i32_194
  let c32_195 : Index := 32#32
  ![v433.toNat, 2, 32]
def k0_off223 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v440 : Index := Scalar.indexCast arg13
  let c3_i32_197 : BitVec 32 := 3#32
  let v441 : Index := Scalar.indexCast c3_i32_197
  let c32_198 : Index := 32#32
  ![v440.toNat, 3, 32]
def k0_off224 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v445 : Index := Scalar.indexCast arg13
  let c0_i32_199 : BitVec 32 := 0#32
  let v446 : Index := Scalar.indexCast c0_i32_199
  let c48 : Index := 48#32
  ![v445.toNat, 0, 48]
def k0_off225 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v450 : Index := Scalar.indexCast arg13
  let c1_i32_200 : BitVec 32 := 1#32
  let v451 : Index := Scalar.indexCast c1_i32_200
  let c48_201 : Index := 48#32
  ![v450.toNat, 1, 48]
def k0_off226 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v455 : Index := Scalar.indexCast arg13
  let c2_i32_202 : BitVec 32 := 2#32
  let v456 : Index := Scalar.indexCast c2_i32_202
  let c48_203 : Index := 48#32
  ![v455.toNat, 2, 48]
def k0_off227 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v460 : Index := Scalar.indexCast arg13
  let c3_i32_204 : BitVec 32 := 3#32
  let v461 : Index := Scalar.indexCast c3_i32_204
  let c48_205 : Index := 48#32
  ![v460.toNat, 3, 48]
def k0_off228 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v465 : Index := Scalar.indexCast arg13
  let c4_i32_206 : BitVec 32 := 4#32
  let v466 : Index := Scalar.indexCast c4_i32_206
  let c48_207 : Index := 48#32
  ![v465.toNat, 4, 48]
def k0_off229 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v470 : Index := Scalar.indexCast arg13
  let c5_i32_208 : BitVec 32 := 5#32
  let v471 : Index := Scalar.indexCast c5_i32_208
  let c48_209 : Index := 48#32
  ![v470.toNat, 5, 48]
def k0_off230 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v475 : Index := Scalar.indexCast arg13
  let c6_i32_210 : BitVec 32 := 6#32
  let v476 : Index := Scalar.indexCast c6_i32_210
  let c48_211 : Index := 48#32
  ![v475.toNat, 6, 48]
def k0_off231 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v480 : Index := Scalar.indexCast arg13
  let c7_i32_212 : BitVec 32 := 7#32
  let v481 : Index := Scalar.indexCast c7_i32_212
  let c48_213 : Index := 48#32
  ![v480.toNat, 7, 48]
def k0_off232 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v485 : Index := Scalar.indexCast arg13
  let c8_i32_214 : BitVec 32 := 8#32
  let v486 : Index := Scalar.indexCast c8_i32_214
  let c48_215 : Index := 48#32
  ![v485.toNat, 8, 48]
def k0_off233 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v490 : Index := Scalar.indexCast arg13
  let c9_i32_216 : BitVec 32 := 9#32
  let v491 : Index := Scalar.indexCast c9_i32_216
  let c48_217 : Index := 48#32
  ![v490.toNat, 9, 48]
def k0_off234 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v495 : Index := Scalar.indexCast arg13
  let c10_i32_218 : BitVec 32 := 10#32
  let v496 : Index := Scalar.indexCast c10_i32_218
  let c48_219 : Index := 48#32
  ![v495.toNat, 10, 48]
def k0_off235 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v500 : Index := Scalar.indexCast arg13
  let c11_i32_220 : BitVec 32 := 11#32
  let v501 : Index := Scalar.indexCast c11_i32_220
  let c48_221 : Index := 48#32
  ![v500.toNat, 11, 48]
def k0_off236 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v505 : Index := Scalar.indexCast arg13
  let c12_i32_222 : BitVec 32 := 12#32
  let v506 : Index := Scalar.indexCast c12_i32_222
  let c48_223 : Index := 48#32
  ![v505.toNat, 12, 48]
def k0_off237 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v510 : Index := Scalar.indexCast arg13
  let c13_i32_224 : BitVec 32 := 13#32
  let v511 : Index := Scalar.indexCast c13_i32_224
  let c48_225 : Index := 48#32
  ![v510.toNat, 13, 48]
def k0_off238 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v515 : Index := Scalar.indexCast arg13
  let c14_i32_226 : BitVec 32 := 14#32
  let v516 : Index := Scalar.indexCast c14_i32_226
  let c48_227 : Index := 48#32
  ![v515.toNat, 14, 48]
def k0_off239 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v520 : Index := Scalar.indexCast arg13
  let c15_i32_228 : BitVec 32 := 15#32
  let v521 : Index := Scalar.indexCast c15_i32_228
  let c48_229 : Index := 48#32
  ![v520.toNat, 15, 48]
def k0_off240 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v537 : Index := Scalar.indexCast arg13
  let c0_i32_230 : BitVec 32 := 0#32
  let v538 : Index := Scalar.indexCast c0_i32_230
  let c48_231 : Index := 48#32
  ![v537.toNat, 0, 48]
def k0_off241 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v544 : Index := Scalar.indexCast arg13
  let c1_i32_233 : BitVec 32 := 1#32
  let v545 : Index := Scalar.indexCast c1_i32_233
  let c48_234 : Index := 48#32
  ![v544.toNat, 1, 48]
def k0_off242 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v551 : Index := Scalar.indexCast arg13
  let c2_i32_236 : BitVec 32 := 2#32
  let v552 : Index := Scalar.indexCast c2_i32_236
  let c48_237 : Index := 48#32
  ![v551.toNat, 2, 48]
def k0_off243 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v558 : Index := Scalar.indexCast arg13
  let c3_i32_239 : BitVec 32 := 3#32
  let v559 : Index := Scalar.indexCast c3_i32_239
  let c48_240 : Index := 48#32
  ![v558.toNat, 3, 48]
def k0_off244 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v563 : Index := Scalar.indexCast arg13
  let c0_i32_241 : BitVec 32 := 0#32
  let v564 : Index := Scalar.indexCast c0_i32_241
  let c64 : Index := 64#32
  ![v563.toNat, 0, 64]
def k0_off245 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v568 : Index := Scalar.indexCast arg13
  let c1_i32_242 : BitVec 32 := 1#32
  let v569 : Index := Scalar.indexCast c1_i32_242
  let c64_243 : Index := 64#32
  ![v568.toNat, 1, 64]
def k0_off246 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v573 : Index := Scalar.indexCast arg13
  let c2_i32_244 : BitVec 32 := 2#32
  let v574 : Index := Scalar.indexCast c2_i32_244
  let c64_245 : Index := 64#32
  ![v573.toNat, 2, 64]
def k0_off247 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v578 : Index := Scalar.indexCast arg13
  let c3_i32_246 : BitVec 32 := 3#32
  let v579 : Index := Scalar.indexCast c3_i32_246
  let c64_247 : Index := 64#32
  ![v578.toNat, 3, 64]
def k0_off248 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v583 : Index := Scalar.indexCast arg13
  let c4_i32_248 : BitVec 32 := 4#32
  let v584 : Index := Scalar.indexCast c4_i32_248
  let c64_249 : Index := 64#32
  ![v583.toNat, 4, 64]
def k0_off249 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v588 : Index := Scalar.indexCast arg13
  let c5_i32_250 : BitVec 32 := 5#32
  let v589 : Index := Scalar.indexCast c5_i32_250
  let c64_251 : Index := 64#32
  ![v588.toNat, 5, 64]
def k0_off250 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v593 : Index := Scalar.indexCast arg13
  let c6_i32_252 : BitVec 32 := 6#32
  let v594 : Index := Scalar.indexCast c6_i32_252
  let c64_253 : Index := 64#32
  ![v593.toNat, 6, 64]
def k0_off251 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v598 : Index := Scalar.indexCast arg13
  let c7_i32_254 : BitVec 32 := 7#32
  let v599 : Index := Scalar.indexCast c7_i32_254
  let c64_255 : Index := 64#32
  ![v598.toNat, 7, 64]
def k0_off252 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v603 : Index := Scalar.indexCast arg13
  let c8_i32_256 : BitVec 32 := 8#32
  let v604 : Index := Scalar.indexCast c8_i32_256
  let c64_257 : Index := 64#32
  ![v603.toNat, 8, 64]
def k0_off253 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v608 : Index := Scalar.indexCast arg13
  let c9_i32_258 : BitVec 32 := 9#32
  let v609 : Index := Scalar.indexCast c9_i32_258
  let c64_259 : Index := 64#32
  ![v608.toNat, 9, 64]
def k0_off254 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v613 : Index := Scalar.indexCast arg13
  let c10_i32_260 : BitVec 32 := 10#32
  let v614 : Index := Scalar.indexCast c10_i32_260
  let c64_261 : Index := 64#32
  ![v613.toNat, 10, 64]
def k0_off255 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v618 : Index := Scalar.indexCast arg13
  let c11_i32_262 : BitVec 32 := 11#32
  let v619 : Index := Scalar.indexCast c11_i32_262
  let c64_263 : Index := 64#32
  ![v618.toNat, 11, 64]
def k0_off256 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v623 : Index := Scalar.indexCast arg13
  let c12_i32_264 : BitVec 32 := 12#32
  let v624 : Index := Scalar.indexCast c12_i32_264
  let c64_265 : Index := 64#32
  ![v623.toNat, 12, 64]
def k0_off257 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v628 : Index := Scalar.indexCast arg13
  let c13_i32_266 : BitVec 32 := 13#32
  let v629 : Index := Scalar.indexCast c13_i32_266
  let c64_267 : Index := 64#32
  ![v628.toNat, 13, 64]
def k0_off258 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v633 : Index := Scalar.indexCast arg13
  let c14_i32_268 : BitVec 32 := 14#32
  let v634 : Index := Scalar.indexCast c14_i32_268
  let c64_269 : Index := 64#32
  ![v633.toNat, 14, 64]
def k0_off259 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v638 : Index := Scalar.indexCast arg13
  let c15_i32_270 : BitVec 32 := 15#32
  let v639 : Index := Scalar.indexCast c15_i32_270
  let c64_271 : Index := 64#32
  ![v638.toNat, 15, 64]
def k0_off260 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v655 : Index := Scalar.indexCast arg13
  let c0_i32_272 : BitVec 32 := 0#32
  let v656 : Index := Scalar.indexCast c0_i32_272
  let c64_273 : Index := 64#32
  ![v655.toNat, 0, 64]
def k0_off261 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v662 : Index := Scalar.indexCast arg13
  let c1_i32_275 : BitVec 32 := 1#32
  let v663 : Index := Scalar.indexCast c1_i32_275
  let c64_276 : Index := 64#32
  ![v662.toNat, 1, 64]
def k0_off262 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v669 : Index := Scalar.indexCast arg13
  let c2_i32_278 : BitVec 32 := 2#32
  let v670 : Index := Scalar.indexCast c2_i32_278
  let c64_279 : Index := 64#32
  ![v669.toNat, 2, 64]
def k0_off263 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v676 : Index := Scalar.indexCast arg13
  let c3_i32_281 : BitVec 32 := 3#32
  let v677 : Index := Scalar.indexCast c3_i32_281
  let c64_282 : Index := 64#32
  ![v676.toNat, 3, 64]
def k0_off264 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v681 : Index := Scalar.indexCast arg13
  let c0_i32_283 : BitVec 32 := 0#32
  let v682 : Index := Scalar.indexCast c0_i32_283
  let c80 : Index := 80#32
  ![v681.toNat, 0, 80]
def k0_off265 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v686 : Index := Scalar.indexCast arg13
  let c1_i32_284 : BitVec 32 := 1#32
  let v687 : Index := Scalar.indexCast c1_i32_284
  let c80_285 : Index := 80#32
  ![v686.toNat, 1, 80]
def k0_off266 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v691 : Index := Scalar.indexCast arg13
  let c2_i32_286 : BitVec 32 := 2#32
  let v692 : Index := Scalar.indexCast c2_i32_286
  let c80_287 : Index := 80#32
  ![v691.toNat, 2, 80]
def k0_off267 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v696 : Index := Scalar.indexCast arg13
  let c3_i32_288 : BitVec 32 := 3#32
  let v697 : Index := Scalar.indexCast c3_i32_288
  let c80_289 : Index := 80#32
  ![v696.toNat, 3, 80]
def k0_off268 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v701 : Index := Scalar.indexCast arg13
  let c4_i32_290 : BitVec 32 := 4#32
  let v702 : Index := Scalar.indexCast c4_i32_290
  let c80_291 : Index := 80#32
  ![v701.toNat, 4, 80]
def k0_off269 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v706 : Index := Scalar.indexCast arg13
  let c5_i32_292 : BitVec 32 := 5#32
  let v707 : Index := Scalar.indexCast c5_i32_292
  let c80_293 : Index := 80#32
  ![v706.toNat, 5, 80]
def k0_off270 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v711 : Index := Scalar.indexCast arg13
  let c6_i32_294 : BitVec 32 := 6#32
  let v712 : Index := Scalar.indexCast c6_i32_294
  let c80_295 : Index := 80#32
  ![v711.toNat, 6, 80]
def k0_off271 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v716 : Index := Scalar.indexCast arg13
  let c7_i32_296 : BitVec 32 := 7#32
  let v717 : Index := Scalar.indexCast c7_i32_296
  let c80_297 : Index := 80#32
  ![v716.toNat, 7, 80]
def k0_off272 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v721 : Index := Scalar.indexCast arg13
  let c8_i32_298 : BitVec 32 := 8#32
  let v722 : Index := Scalar.indexCast c8_i32_298
  let c80_299 : Index := 80#32
  ![v721.toNat, 8, 80]
def k0_off273 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v726 : Index := Scalar.indexCast arg13
  let c9_i32_300 : BitVec 32 := 9#32
  let v727 : Index := Scalar.indexCast c9_i32_300
  let c80_301 : Index := 80#32
  ![v726.toNat, 9, 80]
def k0_off274 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v731 : Index := Scalar.indexCast arg13
  let c10_i32_302 : BitVec 32 := 10#32
  let v732 : Index := Scalar.indexCast c10_i32_302
  let c80_303 : Index := 80#32
  ![v731.toNat, 10, 80]
def k0_off275 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v736 : Index := Scalar.indexCast arg13
  let c11_i32_304 : BitVec 32 := 11#32
  let v737 : Index := Scalar.indexCast c11_i32_304
  let c80_305 : Index := 80#32
  ![v736.toNat, 11, 80]
def k0_off276 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v741 : Index := Scalar.indexCast arg13
  let c12_i32_306 : BitVec 32 := 12#32
  let v742 : Index := Scalar.indexCast c12_i32_306
  let c80_307 : Index := 80#32
  ![v741.toNat, 12, 80]
def k0_off277 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v746 : Index := Scalar.indexCast arg13
  let c13_i32_308 : BitVec 32 := 13#32
  let v747 : Index := Scalar.indexCast c13_i32_308
  let c80_309 : Index := 80#32
  ![v746.toNat, 13, 80]
def k0_off278 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v751 : Index := Scalar.indexCast arg13
  let c14_i32_310 : BitVec 32 := 14#32
  let v752 : Index := Scalar.indexCast c14_i32_310
  let c80_311 : Index := 80#32
  ![v751.toNat, 14, 80]
def k0_off279 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v756 : Index := Scalar.indexCast arg13
  let c15_i32_312 : BitVec 32 := 15#32
  let v757 : Index := Scalar.indexCast c15_i32_312
  let c80_313 : Index := 80#32
  ![v756.toNat, 15, 80]
def k0_off280 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v773 : Index := Scalar.indexCast arg13
  let c0_i32_314 : BitVec 32 := 0#32
  let v774 : Index := Scalar.indexCast c0_i32_314
  let c80_315 : Index := 80#32
  ![v773.toNat, 0, 80]
def k0_off281 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v780 : Index := Scalar.indexCast arg13
  let c1_i32_317 : BitVec 32 := 1#32
  let v781 : Index := Scalar.indexCast c1_i32_317
  let c80_318 : Index := 80#32
  ![v780.toNat, 1, 80]
def k0_off282 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v787 : Index := Scalar.indexCast arg13
  let c2_i32_320 : BitVec 32 := 2#32
  let v788 : Index := Scalar.indexCast c2_i32_320
  let c80_321 : Index := 80#32
  ![v787.toNat, 2, 80]
def k0_off283 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v794 : Index := Scalar.indexCast arg13
  let c3_i32_323 : BitVec 32 := 3#32
  let v795 : Index := Scalar.indexCast c3_i32_323
  let c80_324 : Index := 80#32
  ![v794.toNat, 3, 80]
def k0_off284 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v799 : Index := Scalar.indexCast arg13
  let c0_i32_325 : BitVec 32 := 0#32
  let v800 : Index := Scalar.indexCast c0_i32_325
  let c96 : Index := 96#32
  ![v799.toNat, 0, 96]
def k0_off285 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v804 : Index := Scalar.indexCast arg13
  let c1_i32_326 : BitVec 32 := 1#32
  let v805 : Index := Scalar.indexCast c1_i32_326
  let c96_327 : Index := 96#32
  ![v804.toNat, 1, 96]
def k0_off286 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v809 : Index := Scalar.indexCast arg13
  let c2_i32_328 : BitVec 32 := 2#32
  let v810 : Index := Scalar.indexCast c2_i32_328
  let c96_329 : Index := 96#32
  ![v809.toNat, 2, 96]
def k0_off287 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v814 : Index := Scalar.indexCast arg13
  let c3_i32_330 : BitVec 32 := 3#32
  let v815 : Index := Scalar.indexCast c3_i32_330
  let c96_331 : Index := 96#32
  ![v814.toNat, 3, 96]
def k0_off288 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v819 : Index := Scalar.indexCast arg13
  let c4_i32_332 : BitVec 32 := 4#32
  let v820 : Index := Scalar.indexCast c4_i32_332
  let c96_333 : Index := 96#32
  ![v819.toNat, 4, 96]
def k0_off289 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v824 : Index := Scalar.indexCast arg13
  let c5_i32_334 : BitVec 32 := 5#32
  let v825 : Index := Scalar.indexCast c5_i32_334
  let c96_335 : Index := 96#32
  ![v824.toNat, 5, 96]
def k0_off290 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v829 : Index := Scalar.indexCast arg13
  let c6_i32_336 : BitVec 32 := 6#32
  let v830 : Index := Scalar.indexCast c6_i32_336
  let c96_337 : Index := 96#32
  ![v829.toNat, 6, 96]
def k0_off291 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v834 : Index := Scalar.indexCast arg13
  let c7_i32_338 : BitVec 32 := 7#32
  let v835 : Index := Scalar.indexCast c7_i32_338
  let c96_339 : Index := 96#32
  ![v834.toNat, 7, 96]
def k0_off292 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v839 : Index := Scalar.indexCast arg13
  let c8_i32_340 : BitVec 32 := 8#32
  let v840 : Index := Scalar.indexCast c8_i32_340
  let c96_341 : Index := 96#32
  ![v839.toNat, 8, 96]
def k0_off293 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v844 : Index := Scalar.indexCast arg13
  let c9_i32_342 : BitVec 32 := 9#32
  let v845 : Index := Scalar.indexCast c9_i32_342
  let c96_343 : Index := 96#32
  ![v844.toNat, 9, 96]
def k0_off294 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v849 : Index := Scalar.indexCast arg13
  let c10_i32_344 : BitVec 32 := 10#32
  let v850 : Index := Scalar.indexCast c10_i32_344
  let c96_345 : Index := 96#32
  ![v849.toNat, 10, 96]
def k0_off295 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v854 : Index := Scalar.indexCast arg13
  let c11_i32_346 : BitVec 32 := 11#32
  let v855 : Index := Scalar.indexCast c11_i32_346
  let c96_347 : Index := 96#32
  ![v854.toNat, 11, 96]
def k0_off296 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v859 : Index := Scalar.indexCast arg13
  let c12_i32_348 : BitVec 32 := 12#32
  let v860 : Index := Scalar.indexCast c12_i32_348
  let c96_349 : Index := 96#32
  ![v859.toNat, 12, 96]
def k0_off297 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v864 : Index := Scalar.indexCast arg13
  let c13_i32_350 : BitVec 32 := 13#32
  let v865 : Index := Scalar.indexCast c13_i32_350
  let c96_351 : Index := 96#32
  ![v864.toNat, 13, 96]
def k0_off298 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v869 : Index := Scalar.indexCast arg13
  let c14_i32_352 : BitVec 32 := 14#32
  let v870 : Index := Scalar.indexCast c14_i32_352
  let c96_353 : Index := 96#32
  ![v869.toNat, 14, 96]
def k0_off299 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v874 : Index := Scalar.indexCast arg13
  let c15_i32_354 : BitVec 32 := 15#32
  let v875 : Index := Scalar.indexCast c15_i32_354
  let c96_355 : Index := 96#32
  ![v874.toNat, 15, 96]
def k0_off300 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v891 : Index := Scalar.indexCast arg13
  let c0_i32_356 : BitVec 32 := 0#32
  let v892 : Index := Scalar.indexCast c0_i32_356
  let c96_357 : Index := 96#32
  ![v891.toNat, 0, 96]
def k0_off301 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v898 : Index := Scalar.indexCast arg13
  let c1_i32_359 : BitVec 32 := 1#32
  let v899 : Index := Scalar.indexCast c1_i32_359
  let c96_360 : Index := 96#32
  ![v898.toNat, 1, 96]
def k0_off302 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v905 : Index := Scalar.indexCast arg13
  let c2_i32_362 : BitVec 32 := 2#32
  let v906 : Index := Scalar.indexCast c2_i32_362
  let c96_363 : Index := 96#32
  ![v905.toNat, 2, 96]
def k0_off303 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v912 : Index := Scalar.indexCast arg13
  let c3_i32_365 : BitVec 32 := 3#32
  let v913 : Index := Scalar.indexCast c3_i32_365
  let c96_366 : Index := 96#32
  ![v912.toNat, 3, 96]
def k0_off304 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v917 : Index := Scalar.indexCast arg13
  let c0_i32_367 : BitVec 32 := 0#32
  let v918 : Index := Scalar.indexCast c0_i32_367
  let c112 : Index := 112#32
  ![v917.toNat, 0, 112]
def k0_off305 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v922 : Index := Scalar.indexCast arg13
  let c1_i32_368 : BitVec 32 := 1#32
  let v923 : Index := Scalar.indexCast c1_i32_368
  let c112_369 : Index := 112#32
  ![v922.toNat, 1, 112]
def k0_off306 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v927 : Index := Scalar.indexCast arg13
  let c2_i32_370 : BitVec 32 := 2#32
  let v928 : Index := Scalar.indexCast c2_i32_370
  let c112_371 : Index := 112#32
  ![v927.toNat, 2, 112]
def k0_off307 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v932 : Index := Scalar.indexCast arg13
  let c3_i32_372 : BitVec 32 := 3#32
  let v933 : Index := Scalar.indexCast c3_i32_372
  let c112_373 : Index := 112#32
  ![v932.toNat, 3, 112]
def k0_off308 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v937 : Index := Scalar.indexCast arg13
  let c4_i32_374 : BitVec 32 := 4#32
  let v938 : Index := Scalar.indexCast c4_i32_374
  let c112_375 : Index := 112#32
  ![v937.toNat, 4, 112]
def k0_off309 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v942 : Index := Scalar.indexCast arg13
  let c5_i32_376 : BitVec 32 := 5#32
  let v943 : Index := Scalar.indexCast c5_i32_376
  let c112_377 : Index := 112#32
  ![v942.toNat, 5, 112]
def k0_off310 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v947 : Index := Scalar.indexCast arg13
  let c6_i32_378 : BitVec 32 := 6#32
  let v948 : Index := Scalar.indexCast c6_i32_378
  let c112_379 : Index := 112#32
  ![v947.toNat, 6, 112]
def k0_off311 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v952 : Index := Scalar.indexCast arg13
  let c7_i32_380 : BitVec 32 := 7#32
  let v953 : Index := Scalar.indexCast c7_i32_380
  let c112_381 : Index := 112#32
  ![v952.toNat, 7, 112]
def k0_off312 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v957 : Index := Scalar.indexCast arg13
  let c8_i32_382 : BitVec 32 := 8#32
  let v958 : Index := Scalar.indexCast c8_i32_382
  let c112_383 : Index := 112#32
  ![v957.toNat, 8, 112]
def k0_off313 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v962 : Index := Scalar.indexCast arg13
  let c9_i32_384 : BitVec 32 := 9#32
  let v963 : Index := Scalar.indexCast c9_i32_384
  let c112_385 : Index := 112#32
  ![v962.toNat, 9, 112]
def k0_off314 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v967 : Index := Scalar.indexCast arg13
  let c10_i32_386 : BitVec 32 := 10#32
  let v968 : Index := Scalar.indexCast c10_i32_386
  let c112_387 : Index := 112#32
  ![v967.toNat, 10, 112]
def k0_off315 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v972 : Index := Scalar.indexCast arg13
  let c11_i32_388 : BitVec 32 := 11#32
  let v973 : Index := Scalar.indexCast c11_i32_388
  let c112_389 : Index := 112#32
  ![v972.toNat, 11, 112]
def k0_off316 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v977 : Index := Scalar.indexCast arg13
  let c12_i32_390 : BitVec 32 := 12#32
  let v978 : Index := Scalar.indexCast c12_i32_390
  let c112_391 : Index := 112#32
  ![v977.toNat, 12, 112]
def k0_off317 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v982 : Index := Scalar.indexCast arg13
  let c13_i32_392 : BitVec 32 := 13#32
  let v983 : Index := Scalar.indexCast c13_i32_392
  let c112_393 : Index := 112#32
  ![v982.toNat, 13, 112]
def k0_off318 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v987 : Index := Scalar.indexCast arg13
  let c14_i32_394 : BitVec 32 := 14#32
  let v988 : Index := Scalar.indexCast c14_i32_394
  let c112_395 : Index := 112#32
  ![v987.toNat, 14, 112]
def k0_off319 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v992 : Index := Scalar.indexCast arg13
  let c15_i32_396 : BitVec 32 := 15#32
  let v993 : Index := Scalar.indexCast c15_i32_396
  let c112_397 : Index := 112#32
  ![v992.toNat, 15, 112]
def k0_off320 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v1009 : Index := Scalar.indexCast arg13
  let c0_i32_398 : BitVec 32 := 0#32
  let v1010 : Index := Scalar.indexCast c0_i32_398
  let c112_399 : Index := 112#32
  ![v1009.toNat, 0, 112]
def k0_off321 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v1016 : Index := Scalar.indexCast arg13
  let c1_i32_401 : BitVec 32 := 1#32
  let v1017 : Index := Scalar.indexCast c1_i32_401
  let c112_402 : Index := 112#32
  ![v1016.toNat, 1, 112]
def k0_off322 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v1023 : Index := Scalar.indexCast arg13
  let c2_i32_404 : BitVec 32 := 2#32
  let v1024 : Index := Scalar.indexCast c2_i32_404
  let c112_405 : Index := 112#32
  ![v1023.toNat, 2, 112]
def k0_off323 (k0_t3 : Fin k0_t3_loop.trips) : Fin 3 → Nat :=
  let c0_i32_75 : BitVec 32 := 0#32
  let c1_i32_77 : BitVec 32 := 1#32
  let arg13 : BitVec 32 := Scf.iv c0_i32_75 c1_i32_77 k0_t3
  let v1030 : Index := Scalar.indexCast arg13
  let c3_i32_407 : BitVec 32 := 3#32
  let v1031 : Index := Scalar.indexCast c3_i32_407
  let c112_408 : Index := 112#32
  ![v1030.toNat, 3, 112]
def k0_off324 (i : grid0.Coords) (k0_t1 : Fin (k0_t1_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_64 : BitVec 32 := 2#32
  let c0_i32_26 : BitVec 32 := 0#32
  let c1_i32_28 : BitVec 32 := 1#32
  let arg12 : BitVec 32 := Scf.iv c0_i32_26 c1_i32_28 k0_t1
  let v74 : BitVec 32 := Scalar.muli c2_i32_64 arg12
  let c1_i32_65 : BitVec 32 := 1#32
  let v75 : BitVec 32 := Scalar.addi v74 c1_i32_65
  let c32_i32_79 : BitVec 32 := 32#32
  let v82 : BitVec 32 := Scalar.muli v75 c32_i32_79
  let v83 : BitVec 32 := Scalar.addi v1 v82
  let c16_i32_80 : BitVec 32 := 16#32
  let v84 : BitVec 32 := Scalar.muli v83 c16_i32_80
  let c0_i32_81 : BitVec 32 := 0#32
  let c0_i32_82 : BitVec 32 := 0#32
  ![v84.toNat, 0, 0]
def k0_cond4 (i : grid0.Coords) (k0_t1 : Fin (k0_t1_loop i).trips) : BitVec 1 :=
  let c2_i32_64 : BitVec 32 := 2#32
  let c0_i32_26 : BitVec 32 := 0#32
  let c1_i32_28 : BitVec 32 := 1#32
  let arg12 : BitVec 32 := Scf.iv c0_i32_26 c1_i32_28 k0_t1
  let v74 : BitVec 32 := Scalar.muli c2_i32_64 arg12
  let c1_i32_65 : BitVec 32 := 1#32
  let v75 : BitVec 32 := Scalar.addi v74 c1_i32_65
  let c2_i32_85 : BitVec 32 := 2#32
  let v87 : BitVec 32 := Scalar.addi v75 c2_i32_85
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c256_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let v88 : BitVec 1 := Scalar.cmpi .slt v87 v21
  let v89 : BitVec 32 := Scalar.extui v88
  let c0_i32_86 : BitVec 32 := 0#32
  let v90 : BitVec 1 := Scalar.cmpi .ne v89 c0_i32_86
  v90

def k0_off325 (i : grid0.Coords) (k0_t1 : Fin (k0_t1_loop i).trips) : Fin 3 → Nat :=
  let c5904_i32_90 : BitVec 32 := 5904#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_64 : BitVec 32 := 2#32
  let c0_i32_26 : BitVec 32 := 0#32
  let c1_i32_28 : BitVec 32 := 1#32
  let arg12 : BitVec 32 := Scf.iv c0_i32_26 c1_i32_28 k0_t1
  let v74 : BitVec 32 := Scalar.muli c2_i32_64 arg12
  let c1_i32_65 : BitVec 32 := 1#32
  let v75 : BitVec 32 := Scalar.addi v74 c1_i32_65
  let c2_i32_87 : BitVec 32 := 2#32
  let v91 : BitVec 32 := Scalar.addi v75 c2_i32_87
  let c32_i32_88 : BitVec 32 := 32#32
  let v92 : BitVec 32 := Scalar.muli v91 c32_i32_88
  let v93 : BitVec 32 := Scalar.addi v1 v92
  let c16_i32_89 : BitVec 32 := 16#32
  let v94 : BitVec 32 := Scalar.muli v93 c16_i32_89
  let v95 : BitVec 32 := Scalar.addi c5904_i32_90 v94
  let c0_i32_91 : BitVec 32 := 0#32
  let c0_i32_92 : BitVec 32 := 0#32
  ![v95.toNat, 0, 0]
@[reducible] def k0_t4_loop (i : grid0.Coords) : Scf.Loop 32 :=
  let c0_i32_26 : BitVec 32 := 0#32
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c256_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let v49 : BitVec 32 := Scalar.subi v38 c0_i32_26
  let c1_i32_27 : BitVec 32 := 1#32
  let v51 : BitVec 32 := Scalar.divsi v49 c1_i32_27
  let v52 : BitVec 32 := Scalar.muli v51 c1_i32_27
  let v53 : BitVec 32 := Scalar.addi c0_i32_26 v52
  let v50 : BitVec 32 := Scalar.addi c0_i32_26 v49
  let c1_i32_29 : BitVec 32 := 1#32
  ⟨v53, v50, c1_i32_29⟩
@[reducible] def k0_t5_loop : Scf.Loop 32 :=
  let c0_i32_52 : BitVec 32 := 0#32
  let c16_i32_53 : BitVec 32 := 16#32
  let v64 : BitVec 32 := Scalar.addi c0_i32_52 c16_i32_53
  let c1_i32_54 : BitVec 32 := 1#32
  ⟨c0_i32_52, v64, c1_i32_54⟩
def k0_off326 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v91 : Index := Scalar.indexCast arg13
  let c0_i32_87 : BitVec 32 := 0#32
  let v92 : Index := Scalar.indexCast c0_i32_87
  let c0 : Index := 0#32
  ![v91.toNat, 0, 0]
def k0_off327 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v96 : Index := Scalar.indexCast arg13
  let c1_i32_88 : BitVec 32 := 1#32
  let v97 : Index := Scalar.indexCast c1_i32_88
  let c0_89 : Index := 0#32
  ![v96.toNat, 1, 0]
def k0_off328 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v101 : Index := Scalar.indexCast arg13
  let c2_i32_90 : BitVec 32 := 2#32
  let v102 : Index := Scalar.indexCast c2_i32_90
  let c0_91 : Index := 0#32
  ![v101.toNat, 2, 0]
def k0_off329 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v106 : Index := Scalar.indexCast arg13
  let c3_i32 : BitVec 32 := 3#32
  let v107 : Index := Scalar.indexCast c3_i32
  let c0_92 : Index := 0#32
  ![v106.toNat, 3, 0]
def k0_off330 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v111 : Index := Scalar.indexCast arg13
  let c4_i32 : BitVec 32 := 4#32
  let v112 : Index := Scalar.indexCast c4_i32
  let c0_93 : Index := 0#32
  ![v111.toNat, 4, 0]
def k0_off331 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v116 : Index := Scalar.indexCast arg13
  let c5_i32 : BitVec 32 := 5#32
  let v117 : Index := Scalar.indexCast c5_i32
  let c0_94 : Index := 0#32
  ![v116.toNat, 5, 0]
def k0_off332 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v121 : Index := Scalar.indexCast arg13
  let c6_i32 : BitVec 32 := 6#32
  let v122 : Index := Scalar.indexCast c6_i32
  let c0_95 : Index := 0#32
  ![v121.toNat, 6, 0]
def k0_off333 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v126 : Index := Scalar.indexCast arg13
  let c7_i32 : BitVec 32 := 7#32
  let v127 : Index := Scalar.indexCast c7_i32
  let c0_96 : Index := 0#32
  ![v126.toNat, 7, 0]
def k0_off334 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v131 : Index := Scalar.indexCast arg13
  let c8_i32 : BitVec 32 := 8#32
  let v132 : Index := Scalar.indexCast c8_i32
  let c0_97 : Index := 0#32
  ![v131.toNat, 8, 0]
def k0_off335 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v136 : Index := Scalar.indexCast arg13
  let c9_i32 : BitVec 32 := 9#32
  let v137 : Index := Scalar.indexCast c9_i32
  let c0_98 : Index := 0#32
  ![v136.toNat, 9, 0]
def k0_off336 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v141 : Index := Scalar.indexCast arg13
  let c10_i32 : BitVec 32 := 10#32
  let v142 : Index := Scalar.indexCast c10_i32
  let c0_99 : Index := 0#32
  ![v141.toNat, 10, 0]
def k0_off337 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v146 : Index := Scalar.indexCast arg13
  let c11_i32 : BitVec 32 := 11#32
  let v147 : Index := Scalar.indexCast c11_i32
  let c0_100 : Index := 0#32
  ![v146.toNat, 11, 0]
def k0_off338 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v151 : Index := Scalar.indexCast arg13
  let c12_i32 : BitVec 32 := 12#32
  let v152 : Index := Scalar.indexCast c12_i32
  let c0_101 : Index := 0#32
  ![v151.toNat, 12, 0]
def k0_off339 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v156 : Index := Scalar.indexCast arg13
  let c13_i32 : BitVec 32 := 13#32
  let v157 : Index := Scalar.indexCast c13_i32
  let c0_102 : Index := 0#32
  ![v156.toNat, 13, 0]
def k0_off340 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v161 : Index := Scalar.indexCast arg13
  let c14_i32 : BitVec 32 := 14#32
  let v162 : Index := Scalar.indexCast c14_i32
  let c0_103 : Index := 0#32
  ![v161.toNat, 14, 0]
def k0_off341 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v166 : Index := Scalar.indexCast arg13
  let c15_i32 : BitVec 32 := 15#32
  let v167 : Index := Scalar.indexCast c15_i32
  let c0_104 : Index := 0#32
  ![v166.toNat, 15, 0]
def k0_off342 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v183 : Index := Scalar.indexCast arg13
  let c0_i32_105 : BitVec 32 := 0#32
  let v184 : Index := Scalar.indexCast c0_i32_105
  let c0_106 : Index := 0#32
  ![v183.toNat, 0, 0]
def k0_off343 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v190 : Index := Scalar.indexCast arg13
  let c1_i32_107 : BitVec 32 := 1#32
  let v191 : Index := Scalar.indexCast c1_i32_107
  let c0_108 : Index := 0#32
  ![v190.toNat, 1, 0]
def k0_off344 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v197 : Index := Scalar.indexCast arg13
  let c2_i32_110 : BitVec 32 := 2#32
  let v198 : Index := Scalar.indexCast c2_i32_110
  let c0_111 : Index := 0#32
  ![v197.toNat, 2, 0]
def k0_off345 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v204 : Index := Scalar.indexCast arg13
  let c3_i32_113 : BitVec 32 := 3#32
  let v205 : Index := Scalar.indexCast c3_i32_113
  let c0_114 : Index := 0#32
  ![v204.toNat, 3, 0]
def k0_off346 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v209 : Index := Scalar.indexCast arg13
  let c0_i32_115 : BitVec 32 := 0#32
  let v210 : Index := Scalar.indexCast c0_i32_115
  let c16 : Index := 16#32
  ![v209.toNat, 0, 16]
def k0_off347 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v214 : Index := Scalar.indexCast arg13
  let c1_i32_116 : BitVec 32 := 1#32
  let v215 : Index := Scalar.indexCast c1_i32_116
  let c16_117 : Index := 16#32
  ![v214.toNat, 1, 16]
def k0_off348 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v219 : Index := Scalar.indexCast arg13
  let c2_i32_118 : BitVec 32 := 2#32
  let v220 : Index := Scalar.indexCast c2_i32_118
  let c16_119 : Index := 16#32
  ![v219.toNat, 2, 16]
def k0_off349 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v224 : Index := Scalar.indexCast arg13
  let c3_i32_120 : BitVec 32 := 3#32
  let v225 : Index := Scalar.indexCast c3_i32_120
  let c16_121 : Index := 16#32
  ![v224.toNat, 3, 16]
def k0_off350 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v229 : Index := Scalar.indexCast arg13
  let c4_i32_122 : BitVec 32 := 4#32
  let v230 : Index := Scalar.indexCast c4_i32_122
  let c16_123 : Index := 16#32
  ![v229.toNat, 4, 16]
def k0_off351 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v234 : Index := Scalar.indexCast arg13
  let c5_i32_124 : BitVec 32 := 5#32
  let v235 : Index := Scalar.indexCast c5_i32_124
  let c16_125 : Index := 16#32
  ![v234.toNat, 5, 16]
def k0_off352 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v239 : Index := Scalar.indexCast arg13
  let c6_i32_126 : BitVec 32 := 6#32
  let v240 : Index := Scalar.indexCast c6_i32_126
  let c16_127 : Index := 16#32
  ![v239.toNat, 6, 16]
def k0_off353 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v244 : Index := Scalar.indexCast arg13
  let c7_i32_128 : BitVec 32 := 7#32
  let v245 : Index := Scalar.indexCast c7_i32_128
  let c16_129 : Index := 16#32
  ![v244.toNat, 7, 16]
def k0_off354 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v249 : Index := Scalar.indexCast arg13
  let c8_i32_130 : BitVec 32 := 8#32
  let v250 : Index := Scalar.indexCast c8_i32_130
  let c16_131 : Index := 16#32
  ![v249.toNat, 8, 16]
def k0_off355 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v254 : Index := Scalar.indexCast arg13
  let c9_i32_132 : BitVec 32 := 9#32
  let v255 : Index := Scalar.indexCast c9_i32_132
  let c16_133 : Index := 16#32
  ![v254.toNat, 9, 16]
def k0_off356 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v259 : Index := Scalar.indexCast arg13
  let c10_i32_134 : BitVec 32 := 10#32
  let v260 : Index := Scalar.indexCast c10_i32_134
  let c16_135 : Index := 16#32
  ![v259.toNat, 10, 16]
def k0_off357 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v264 : Index := Scalar.indexCast arg13
  let c11_i32_136 : BitVec 32 := 11#32
  let v265 : Index := Scalar.indexCast c11_i32_136
  let c16_137 : Index := 16#32
  ![v264.toNat, 11, 16]
def k0_off358 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v269 : Index := Scalar.indexCast arg13
  let c12_i32_138 : BitVec 32 := 12#32
  let v270 : Index := Scalar.indexCast c12_i32_138
  let c16_139 : Index := 16#32
  ![v269.toNat, 12, 16]
def k0_off359 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v274 : Index := Scalar.indexCast arg13
  let c13_i32_140 : BitVec 32 := 13#32
  let v275 : Index := Scalar.indexCast c13_i32_140
  let c16_141 : Index := 16#32
  ![v274.toNat, 13, 16]
def k0_off360 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v279 : Index := Scalar.indexCast arg13
  let c14_i32_142 : BitVec 32 := 14#32
  let v280 : Index := Scalar.indexCast c14_i32_142
  let c16_143 : Index := 16#32
  ![v279.toNat, 14, 16]
def k0_off361 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v284 : Index := Scalar.indexCast arg13
  let c15_i32_144 : BitVec 32 := 15#32
  let v285 : Index := Scalar.indexCast c15_i32_144
  let c16_145 : Index := 16#32
  ![v284.toNat, 15, 16]
def k0_off362 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v301 : Index := Scalar.indexCast arg13
  let c0_i32_146 : BitVec 32 := 0#32
  let v302 : Index := Scalar.indexCast c0_i32_146
  let c16_147 : Index := 16#32
  ![v301.toNat, 0, 16]
def k0_off363 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v308 : Index := Scalar.indexCast arg13
  let c1_i32_149 : BitVec 32 := 1#32
  let v309 : Index := Scalar.indexCast c1_i32_149
  let c16_150 : Index := 16#32
  ![v308.toNat, 1, 16]
def k0_off364 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v315 : Index := Scalar.indexCast arg13
  let c2_i32_152 : BitVec 32 := 2#32
  let v316 : Index := Scalar.indexCast c2_i32_152
  let c16_153 : Index := 16#32
  ![v315.toNat, 2, 16]
def k0_off365 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v322 : Index := Scalar.indexCast arg13
  let c3_i32_155 : BitVec 32 := 3#32
  let v323 : Index := Scalar.indexCast c3_i32_155
  let c16_156 : Index := 16#32
  ![v322.toNat, 3, 16]
def k0_off366 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v327 : Index := Scalar.indexCast arg13
  let c0_i32_157 : BitVec 32 := 0#32
  let v328 : Index := Scalar.indexCast c0_i32_157
  let c32 : Index := 32#32
  ![v327.toNat, 0, 32]
def k0_off367 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v332 : Index := Scalar.indexCast arg13
  let c1_i32_158 : BitVec 32 := 1#32
  let v333 : Index := Scalar.indexCast c1_i32_158
  let c32_159 : Index := 32#32
  ![v332.toNat, 1, 32]
def k0_off368 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v337 : Index := Scalar.indexCast arg13
  let c2_i32_160 : BitVec 32 := 2#32
  let v338 : Index := Scalar.indexCast c2_i32_160
  let c32_161 : Index := 32#32
  ![v337.toNat, 2, 32]
def k0_off369 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v342 : Index := Scalar.indexCast arg13
  let c3_i32_162 : BitVec 32 := 3#32
  let v343 : Index := Scalar.indexCast c3_i32_162
  let c32_163 : Index := 32#32
  ![v342.toNat, 3, 32]
def k0_off370 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v347 : Index := Scalar.indexCast arg13
  let c4_i32_164 : BitVec 32 := 4#32
  let v348 : Index := Scalar.indexCast c4_i32_164
  let c32_165 : Index := 32#32
  ![v347.toNat, 4, 32]
def k0_off371 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v352 : Index := Scalar.indexCast arg13
  let c5_i32_166 : BitVec 32 := 5#32
  let v353 : Index := Scalar.indexCast c5_i32_166
  let c32_167 : Index := 32#32
  ![v352.toNat, 5, 32]
def k0_off372 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v357 : Index := Scalar.indexCast arg13
  let c6_i32_168 : BitVec 32 := 6#32
  let v358 : Index := Scalar.indexCast c6_i32_168
  let c32_169 : Index := 32#32
  ![v357.toNat, 6, 32]
def k0_off373 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v362 : Index := Scalar.indexCast arg13
  let c7_i32_170 : BitVec 32 := 7#32
  let v363 : Index := Scalar.indexCast c7_i32_170
  let c32_171 : Index := 32#32
  ![v362.toNat, 7, 32]
def k0_off374 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v367 : Index := Scalar.indexCast arg13
  let c8_i32_172 : BitVec 32 := 8#32
  let v368 : Index := Scalar.indexCast c8_i32_172
  let c32_173 : Index := 32#32
  ![v367.toNat, 8, 32]
def k0_off375 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v372 : Index := Scalar.indexCast arg13
  let c9_i32_174 : BitVec 32 := 9#32
  let v373 : Index := Scalar.indexCast c9_i32_174
  let c32_175 : Index := 32#32
  ![v372.toNat, 9, 32]
def k0_off376 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v377 : Index := Scalar.indexCast arg13
  let c10_i32_176 : BitVec 32 := 10#32
  let v378 : Index := Scalar.indexCast c10_i32_176
  let c32_177 : Index := 32#32
  ![v377.toNat, 10, 32]
def k0_off377 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v382 : Index := Scalar.indexCast arg13
  let c11_i32_178 : BitVec 32 := 11#32
  let v383 : Index := Scalar.indexCast c11_i32_178
  let c32_179 : Index := 32#32
  ![v382.toNat, 11, 32]
def k0_off378 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v387 : Index := Scalar.indexCast arg13
  let c12_i32_180 : BitVec 32 := 12#32
  let v388 : Index := Scalar.indexCast c12_i32_180
  let c32_181 : Index := 32#32
  ![v387.toNat, 12, 32]
def k0_off379 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v392 : Index := Scalar.indexCast arg13
  let c13_i32_182 : BitVec 32 := 13#32
  let v393 : Index := Scalar.indexCast c13_i32_182
  let c32_183 : Index := 32#32
  ![v392.toNat, 13, 32]
def k0_off380 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v397 : Index := Scalar.indexCast arg13
  let c14_i32_184 : BitVec 32 := 14#32
  let v398 : Index := Scalar.indexCast c14_i32_184
  let c32_185 : Index := 32#32
  ![v397.toNat, 14, 32]
def k0_off381 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v402 : Index := Scalar.indexCast arg13
  let c15_i32_186 : BitVec 32 := 15#32
  let v403 : Index := Scalar.indexCast c15_i32_186
  let c32_187 : Index := 32#32
  ![v402.toNat, 15, 32]
def k0_off382 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v419 : Index := Scalar.indexCast arg13
  let c0_i32_188 : BitVec 32 := 0#32
  let v420 : Index := Scalar.indexCast c0_i32_188
  let c32_189 : Index := 32#32
  ![v419.toNat, 0, 32]
def k0_off383 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v426 : Index := Scalar.indexCast arg13
  let c1_i32_191 : BitVec 32 := 1#32
  let v427 : Index := Scalar.indexCast c1_i32_191
  let c32_192 : Index := 32#32
  ![v426.toNat, 1, 32]
def k0_off384 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v433 : Index := Scalar.indexCast arg13
  let c2_i32_194 : BitVec 32 := 2#32
  let v434 : Index := Scalar.indexCast c2_i32_194
  let c32_195 : Index := 32#32
  ![v433.toNat, 2, 32]
def k0_off385 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v440 : Index := Scalar.indexCast arg13
  let c3_i32_197 : BitVec 32 := 3#32
  let v441 : Index := Scalar.indexCast c3_i32_197
  let c32_198 : Index := 32#32
  ![v440.toNat, 3, 32]
def k0_off386 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v445 : Index := Scalar.indexCast arg13
  let c0_i32_199 : BitVec 32 := 0#32
  let v446 : Index := Scalar.indexCast c0_i32_199
  let c48 : Index := 48#32
  ![v445.toNat, 0, 48]
def k0_off387 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v450 : Index := Scalar.indexCast arg13
  let c1_i32_200 : BitVec 32 := 1#32
  let v451 : Index := Scalar.indexCast c1_i32_200
  let c48_201 : Index := 48#32
  ![v450.toNat, 1, 48]
def k0_off388 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v455 : Index := Scalar.indexCast arg13
  let c2_i32_202 : BitVec 32 := 2#32
  let v456 : Index := Scalar.indexCast c2_i32_202
  let c48_203 : Index := 48#32
  ![v455.toNat, 2, 48]
def k0_off389 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v460 : Index := Scalar.indexCast arg13
  let c3_i32_204 : BitVec 32 := 3#32
  let v461 : Index := Scalar.indexCast c3_i32_204
  let c48_205 : Index := 48#32
  ![v460.toNat, 3, 48]
def k0_off390 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v465 : Index := Scalar.indexCast arg13
  let c4_i32_206 : BitVec 32 := 4#32
  let v466 : Index := Scalar.indexCast c4_i32_206
  let c48_207 : Index := 48#32
  ![v465.toNat, 4, 48]
def k0_off391 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v470 : Index := Scalar.indexCast arg13
  let c5_i32_208 : BitVec 32 := 5#32
  let v471 : Index := Scalar.indexCast c5_i32_208
  let c48_209 : Index := 48#32
  ![v470.toNat, 5, 48]
def k0_off392 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v475 : Index := Scalar.indexCast arg13
  let c6_i32_210 : BitVec 32 := 6#32
  let v476 : Index := Scalar.indexCast c6_i32_210
  let c48_211 : Index := 48#32
  ![v475.toNat, 6, 48]
def k0_off393 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v480 : Index := Scalar.indexCast arg13
  let c7_i32_212 : BitVec 32 := 7#32
  let v481 : Index := Scalar.indexCast c7_i32_212
  let c48_213 : Index := 48#32
  ![v480.toNat, 7, 48]
def k0_off394 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v485 : Index := Scalar.indexCast arg13
  let c8_i32_214 : BitVec 32 := 8#32
  let v486 : Index := Scalar.indexCast c8_i32_214
  let c48_215 : Index := 48#32
  ![v485.toNat, 8, 48]
def k0_off395 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v490 : Index := Scalar.indexCast arg13
  let c9_i32_216 : BitVec 32 := 9#32
  let v491 : Index := Scalar.indexCast c9_i32_216
  let c48_217 : Index := 48#32
  ![v490.toNat, 9, 48]
def k0_off396 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v495 : Index := Scalar.indexCast arg13
  let c10_i32_218 : BitVec 32 := 10#32
  let v496 : Index := Scalar.indexCast c10_i32_218
  let c48_219 : Index := 48#32
  ![v495.toNat, 10, 48]
def k0_off397 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v500 : Index := Scalar.indexCast arg13
  let c11_i32_220 : BitVec 32 := 11#32
  let v501 : Index := Scalar.indexCast c11_i32_220
  let c48_221 : Index := 48#32
  ![v500.toNat, 11, 48]
def k0_off398 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v505 : Index := Scalar.indexCast arg13
  let c12_i32_222 : BitVec 32 := 12#32
  let v506 : Index := Scalar.indexCast c12_i32_222
  let c48_223 : Index := 48#32
  ![v505.toNat, 12, 48]
def k0_off399 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v510 : Index := Scalar.indexCast arg13
  let c13_i32_224 : BitVec 32 := 13#32
  let v511 : Index := Scalar.indexCast c13_i32_224
  let c48_225 : Index := 48#32
  ![v510.toNat, 13, 48]
def k0_off400 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v515 : Index := Scalar.indexCast arg13
  let c14_i32_226 : BitVec 32 := 14#32
  let v516 : Index := Scalar.indexCast c14_i32_226
  let c48_227 : Index := 48#32
  ![v515.toNat, 14, 48]
def k0_off401 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v520 : Index := Scalar.indexCast arg13
  let c15_i32_228 : BitVec 32 := 15#32
  let v521 : Index := Scalar.indexCast c15_i32_228
  let c48_229 : Index := 48#32
  ![v520.toNat, 15, 48]
def k0_off402 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v537 : Index := Scalar.indexCast arg13
  let c0_i32_230 : BitVec 32 := 0#32
  let v538 : Index := Scalar.indexCast c0_i32_230
  let c48_231 : Index := 48#32
  ![v537.toNat, 0, 48]
def k0_off403 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v544 : Index := Scalar.indexCast arg13
  let c1_i32_233 : BitVec 32 := 1#32
  let v545 : Index := Scalar.indexCast c1_i32_233
  let c48_234 : Index := 48#32
  ![v544.toNat, 1, 48]
def k0_off404 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v551 : Index := Scalar.indexCast arg13
  let c2_i32_236 : BitVec 32 := 2#32
  let v552 : Index := Scalar.indexCast c2_i32_236
  let c48_237 : Index := 48#32
  ![v551.toNat, 2, 48]
def k0_off405 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v558 : Index := Scalar.indexCast arg13
  let c3_i32_239 : BitVec 32 := 3#32
  let v559 : Index := Scalar.indexCast c3_i32_239
  let c48_240 : Index := 48#32
  ![v558.toNat, 3, 48]
def k0_off406 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v563 : Index := Scalar.indexCast arg13
  let c0_i32_241 : BitVec 32 := 0#32
  let v564 : Index := Scalar.indexCast c0_i32_241
  let c64 : Index := 64#32
  ![v563.toNat, 0, 64]
def k0_off407 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v568 : Index := Scalar.indexCast arg13
  let c1_i32_242 : BitVec 32 := 1#32
  let v569 : Index := Scalar.indexCast c1_i32_242
  let c64_243 : Index := 64#32
  ![v568.toNat, 1, 64]
def k0_off408 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v573 : Index := Scalar.indexCast arg13
  let c2_i32_244 : BitVec 32 := 2#32
  let v574 : Index := Scalar.indexCast c2_i32_244
  let c64_245 : Index := 64#32
  ![v573.toNat, 2, 64]
def k0_off409 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v578 : Index := Scalar.indexCast arg13
  let c3_i32_246 : BitVec 32 := 3#32
  let v579 : Index := Scalar.indexCast c3_i32_246
  let c64_247 : Index := 64#32
  ![v578.toNat, 3, 64]
def k0_off410 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v583 : Index := Scalar.indexCast arg13
  let c4_i32_248 : BitVec 32 := 4#32
  let v584 : Index := Scalar.indexCast c4_i32_248
  let c64_249 : Index := 64#32
  ![v583.toNat, 4, 64]
def k0_off411 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v588 : Index := Scalar.indexCast arg13
  let c5_i32_250 : BitVec 32 := 5#32
  let v589 : Index := Scalar.indexCast c5_i32_250
  let c64_251 : Index := 64#32
  ![v588.toNat, 5, 64]
def k0_off412 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v593 : Index := Scalar.indexCast arg13
  let c6_i32_252 : BitVec 32 := 6#32
  let v594 : Index := Scalar.indexCast c6_i32_252
  let c64_253 : Index := 64#32
  ![v593.toNat, 6, 64]
def k0_off413 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v598 : Index := Scalar.indexCast arg13
  let c7_i32_254 : BitVec 32 := 7#32
  let v599 : Index := Scalar.indexCast c7_i32_254
  let c64_255 : Index := 64#32
  ![v598.toNat, 7, 64]
def k0_off414 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v603 : Index := Scalar.indexCast arg13
  let c8_i32_256 : BitVec 32 := 8#32
  let v604 : Index := Scalar.indexCast c8_i32_256
  let c64_257 : Index := 64#32
  ![v603.toNat, 8, 64]
def k0_off415 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v608 : Index := Scalar.indexCast arg13
  let c9_i32_258 : BitVec 32 := 9#32
  let v609 : Index := Scalar.indexCast c9_i32_258
  let c64_259 : Index := 64#32
  ![v608.toNat, 9, 64]
def k0_off416 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v613 : Index := Scalar.indexCast arg13
  let c10_i32_260 : BitVec 32 := 10#32
  let v614 : Index := Scalar.indexCast c10_i32_260
  let c64_261 : Index := 64#32
  ![v613.toNat, 10, 64]
def k0_off417 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v618 : Index := Scalar.indexCast arg13
  let c11_i32_262 : BitVec 32 := 11#32
  let v619 : Index := Scalar.indexCast c11_i32_262
  let c64_263 : Index := 64#32
  ![v618.toNat, 11, 64]
def k0_off418 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v623 : Index := Scalar.indexCast arg13
  let c12_i32_264 : BitVec 32 := 12#32
  let v624 : Index := Scalar.indexCast c12_i32_264
  let c64_265 : Index := 64#32
  ![v623.toNat, 12, 64]
def k0_off419 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v628 : Index := Scalar.indexCast arg13
  let c13_i32_266 : BitVec 32 := 13#32
  let v629 : Index := Scalar.indexCast c13_i32_266
  let c64_267 : Index := 64#32
  ![v628.toNat, 13, 64]
def k0_off420 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v633 : Index := Scalar.indexCast arg13
  let c14_i32_268 : BitVec 32 := 14#32
  let v634 : Index := Scalar.indexCast c14_i32_268
  let c64_269 : Index := 64#32
  ![v633.toNat, 14, 64]
def k0_off421 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v638 : Index := Scalar.indexCast arg13
  let c15_i32_270 : BitVec 32 := 15#32
  let v639 : Index := Scalar.indexCast c15_i32_270
  let c64_271 : Index := 64#32
  ![v638.toNat, 15, 64]
def k0_off422 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v655 : Index := Scalar.indexCast arg13
  let c0_i32_272 : BitVec 32 := 0#32
  let v656 : Index := Scalar.indexCast c0_i32_272
  let c64_273 : Index := 64#32
  ![v655.toNat, 0, 64]
def k0_off423 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v662 : Index := Scalar.indexCast arg13
  let c1_i32_275 : BitVec 32 := 1#32
  let v663 : Index := Scalar.indexCast c1_i32_275
  let c64_276 : Index := 64#32
  ![v662.toNat, 1, 64]
def k0_off424 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v669 : Index := Scalar.indexCast arg13
  let c2_i32_278 : BitVec 32 := 2#32
  let v670 : Index := Scalar.indexCast c2_i32_278
  let c64_279 : Index := 64#32
  ![v669.toNat, 2, 64]
def k0_off425 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v676 : Index := Scalar.indexCast arg13
  let c3_i32_281 : BitVec 32 := 3#32
  let v677 : Index := Scalar.indexCast c3_i32_281
  let c64_282 : Index := 64#32
  ![v676.toNat, 3, 64]
def k0_off426 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v681 : Index := Scalar.indexCast arg13
  let c0_i32_283 : BitVec 32 := 0#32
  let v682 : Index := Scalar.indexCast c0_i32_283
  let c80 : Index := 80#32
  ![v681.toNat, 0, 80]
def k0_off427 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v686 : Index := Scalar.indexCast arg13
  let c1_i32_284 : BitVec 32 := 1#32
  let v687 : Index := Scalar.indexCast c1_i32_284
  let c80_285 : Index := 80#32
  ![v686.toNat, 1, 80]
def k0_off428 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v691 : Index := Scalar.indexCast arg13
  let c2_i32_286 : BitVec 32 := 2#32
  let v692 : Index := Scalar.indexCast c2_i32_286
  let c80_287 : Index := 80#32
  ![v691.toNat, 2, 80]
def k0_off429 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v696 : Index := Scalar.indexCast arg13
  let c3_i32_288 : BitVec 32 := 3#32
  let v697 : Index := Scalar.indexCast c3_i32_288
  let c80_289 : Index := 80#32
  ![v696.toNat, 3, 80]
def k0_off430 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v701 : Index := Scalar.indexCast arg13
  let c4_i32_290 : BitVec 32 := 4#32
  let v702 : Index := Scalar.indexCast c4_i32_290
  let c80_291 : Index := 80#32
  ![v701.toNat, 4, 80]
def k0_off431 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v706 : Index := Scalar.indexCast arg13
  let c5_i32_292 : BitVec 32 := 5#32
  let v707 : Index := Scalar.indexCast c5_i32_292
  let c80_293 : Index := 80#32
  ![v706.toNat, 5, 80]
def k0_off432 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v711 : Index := Scalar.indexCast arg13
  let c6_i32_294 : BitVec 32 := 6#32
  let v712 : Index := Scalar.indexCast c6_i32_294
  let c80_295 : Index := 80#32
  ![v711.toNat, 6, 80]
def k0_off433 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v716 : Index := Scalar.indexCast arg13
  let c7_i32_296 : BitVec 32 := 7#32
  let v717 : Index := Scalar.indexCast c7_i32_296
  let c80_297 : Index := 80#32
  ![v716.toNat, 7, 80]
def k0_off434 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v721 : Index := Scalar.indexCast arg13
  let c8_i32_298 : BitVec 32 := 8#32
  let v722 : Index := Scalar.indexCast c8_i32_298
  let c80_299 : Index := 80#32
  ![v721.toNat, 8, 80]
def k0_off435 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v726 : Index := Scalar.indexCast arg13
  let c9_i32_300 : BitVec 32 := 9#32
  let v727 : Index := Scalar.indexCast c9_i32_300
  let c80_301 : Index := 80#32
  ![v726.toNat, 9, 80]
def k0_off436 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v731 : Index := Scalar.indexCast arg13
  let c10_i32_302 : BitVec 32 := 10#32
  let v732 : Index := Scalar.indexCast c10_i32_302
  let c80_303 : Index := 80#32
  ![v731.toNat, 10, 80]
def k0_off437 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v736 : Index := Scalar.indexCast arg13
  let c11_i32_304 : BitVec 32 := 11#32
  let v737 : Index := Scalar.indexCast c11_i32_304
  let c80_305 : Index := 80#32
  ![v736.toNat, 11, 80]
def k0_off438 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v741 : Index := Scalar.indexCast arg13
  let c12_i32_306 : BitVec 32 := 12#32
  let v742 : Index := Scalar.indexCast c12_i32_306
  let c80_307 : Index := 80#32
  ![v741.toNat, 12, 80]
def k0_off439 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v746 : Index := Scalar.indexCast arg13
  let c13_i32_308 : BitVec 32 := 13#32
  let v747 : Index := Scalar.indexCast c13_i32_308
  let c80_309 : Index := 80#32
  ![v746.toNat, 13, 80]
def k0_off440 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v751 : Index := Scalar.indexCast arg13
  let c14_i32_310 : BitVec 32 := 14#32
  let v752 : Index := Scalar.indexCast c14_i32_310
  let c80_311 : Index := 80#32
  ![v751.toNat, 14, 80]
def k0_off441 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v756 : Index := Scalar.indexCast arg13
  let c15_i32_312 : BitVec 32 := 15#32
  let v757 : Index := Scalar.indexCast c15_i32_312
  let c80_313 : Index := 80#32
  ![v756.toNat, 15, 80]
def k0_off442 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v773 : Index := Scalar.indexCast arg13
  let c0_i32_314 : BitVec 32 := 0#32
  let v774 : Index := Scalar.indexCast c0_i32_314
  let c80_315 : Index := 80#32
  ![v773.toNat, 0, 80]
def k0_off443 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v780 : Index := Scalar.indexCast arg13
  let c1_i32_317 : BitVec 32 := 1#32
  let v781 : Index := Scalar.indexCast c1_i32_317
  let c80_318 : Index := 80#32
  ![v780.toNat, 1, 80]
def k0_off444 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v787 : Index := Scalar.indexCast arg13
  let c2_i32_320 : BitVec 32 := 2#32
  let v788 : Index := Scalar.indexCast c2_i32_320
  let c80_321 : Index := 80#32
  ![v787.toNat, 2, 80]
def k0_off445 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v794 : Index := Scalar.indexCast arg13
  let c3_i32_323 : BitVec 32 := 3#32
  let v795 : Index := Scalar.indexCast c3_i32_323
  let c80_324 : Index := 80#32
  ![v794.toNat, 3, 80]
def k0_off446 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v799 : Index := Scalar.indexCast arg13
  let c0_i32_325 : BitVec 32 := 0#32
  let v800 : Index := Scalar.indexCast c0_i32_325
  let c96 : Index := 96#32
  ![v799.toNat, 0, 96]
def k0_off447 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v804 : Index := Scalar.indexCast arg13
  let c1_i32_326 : BitVec 32 := 1#32
  let v805 : Index := Scalar.indexCast c1_i32_326
  let c96_327 : Index := 96#32
  ![v804.toNat, 1, 96]
def k0_off448 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v809 : Index := Scalar.indexCast arg13
  let c2_i32_328 : BitVec 32 := 2#32
  let v810 : Index := Scalar.indexCast c2_i32_328
  let c96_329 : Index := 96#32
  ![v809.toNat, 2, 96]
def k0_off449 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v814 : Index := Scalar.indexCast arg13
  let c3_i32_330 : BitVec 32 := 3#32
  let v815 : Index := Scalar.indexCast c3_i32_330
  let c96_331 : Index := 96#32
  ![v814.toNat, 3, 96]
def k0_off450 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v819 : Index := Scalar.indexCast arg13
  let c4_i32_332 : BitVec 32 := 4#32
  let v820 : Index := Scalar.indexCast c4_i32_332
  let c96_333 : Index := 96#32
  ![v819.toNat, 4, 96]
def k0_off451 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v824 : Index := Scalar.indexCast arg13
  let c5_i32_334 : BitVec 32 := 5#32
  let v825 : Index := Scalar.indexCast c5_i32_334
  let c96_335 : Index := 96#32
  ![v824.toNat, 5, 96]
def k0_off452 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v829 : Index := Scalar.indexCast arg13
  let c6_i32_336 : BitVec 32 := 6#32
  let v830 : Index := Scalar.indexCast c6_i32_336
  let c96_337 : Index := 96#32
  ![v829.toNat, 6, 96]
def k0_off453 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v834 : Index := Scalar.indexCast arg13
  let c7_i32_338 : BitVec 32 := 7#32
  let v835 : Index := Scalar.indexCast c7_i32_338
  let c96_339 : Index := 96#32
  ![v834.toNat, 7, 96]
def k0_off454 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v839 : Index := Scalar.indexCast arg13
  let c8_i32_340 : BitVec 32 := 8#32
  let v840 : Index := Scalar.indexCast c8_i32_340
  let c96_341 : Index := 96#32
  ![v839.toNat, 8, 96]
def k0_off455 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v844 : Index := Scalar.indexCast arg13
  let c9_i32_342 : BitVec 32 := 9#32
  let v845 : Index := Scalar.indexCast c9_i32_342
  let c96_343 : Index := 96#32
  ![v844.toNat, 9, 96]
def k0_off456 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v849 : Index := Scalar.indexCast arg13
  let c10_i32_344 : BitVec 32 := 10#32
  let v850 : Index := Scalar.indexCast c10_i32_344
  let c96_345 : Index := 96#32
  ![v849.toNat, 10, 96]
def k0_off457 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v854 : Index := Scalar.indexCast arg13
  let c11_i32_346 : BitVec 32 := 11#32
  let v855 : Index := Scalar.indexCast c11_i32_346
  let c96_347 : Index := 96#32
  ![v854.toNat, 11, 96]
def k0_off458 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v859 : Index := Scalar.indexCast arg13
  let c12_i32_348 : BitVec 32 := 12#32
  let v860 : Index := Scalar.indexCast c12_i32_348
  let c96_349 : Index := 96#32
  ![v859.toNat, 12, 96]
def k0_off459 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v864 : Index := Scalar.indexCast arg13
  let c13_i32_350 : BitVec 32 := 13#32
  let v865 : Index := Scalar.indexCast c13_i32_350
  let c96_351 : Index := 96#32
  ![v864.toNat, 13, 96]
def k0_off460 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v869 : Index := Scalar.indexCast arg13
  let c14_i32_352 : BitVec 32 := 14#32
  let v870 : Index := Scalar.indexCast c14_i32_352
  let c96_353 : Index := 96#32
  ![v869.toNat, 14, 96]
def k0_off461 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v874 : Index := Scalar.indexCast arg13
  let c15_i32_354 : BitVec 32 := 15#32
  let v875 : Index := Scalar.indexCast c15_i32_354
  let c96_355 : Index := 96#32
  ![v874.toNat, 15, 96]
def k0_off462 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v891 : Index := Scalar.indexCast arg13
  let c0_i32_356 : BitVec 32 := 0#32
  let v892 : Index := Scalar.indexCast c0_i32_356
  let c96_357 : Index := 96#32
  ![v891.toNat, 0, 96]
def k0_off463 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v898 : Index := Scalar.indexCast arg13
  let c1_i32_359 : BitVec 32 := 1#32
  let v899 : Index := Scalar.indexCast c1_i32_359
  let c96_360 : Index := 96#32
  ![v898.toNat, 1, 96]
def k0_off464 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v905 : Index := Scalar.indexCast arg13
  let c2_i32_362 : BitVec 32 := 2#32
  let v906 : Index := Scalar.indexCast c2_i32_362
  let c96_363 : Index := 96#32
  ![v905.toNat, 2, 96]
def k0_off465 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v912 : Index := Scalar.indexCast arg13
  let c3_i32_365 : BitVec 32 := 3#32
  let v913 : Index := Scalar.indexCast c3_i32_365
  let c96_366 : Index := 96#32
  ![v912.toNat, 3, 96]
def k0_off466 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v917 : Index := Scalar.indexCast arg13
  let c0_i32_367 : BitVec 32 := 0#32
  let v918 : Index := Scalar.indexCast c0_i32_367
  let c112 : Index := 112#32
  ![v917.toNat, 0, 112]
def k0_off467 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v922 : Index := Scalar.indexCast arg13
  let c1_i32_368 : BitVec 32 := 1#32
  let v923 : Index := Scalar.indexCast c1_i32_368
  let c112_369 : Index := 112#32
  ![v922.toNat, 1, 112]
def k0_off468 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v927 : Index := Scalar.indexCast arg13
  let c2_i32_370 : BitVec 32 := 2#32
  let v928 : Index := Scalar.indexCast c2_i32_370
  let c112_371 : Index := 112#32
  ![v927.toNat, 2, 112]
def k0_off469 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v932 : Index := Scalar.indexCast arg13
  let c3_i32_372 : BitVec 32 := 3#32
  let v933 : Index := Scalar.indexCast c3_i32_372
  let c112_373 : Index := 112#32
  ![v932.toNat, 3, 112]
def k0_off470 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v937 : Index := Scalar.indexCast arg13
  let c4_i32_374 : BitVec 32 := 4#32
  let v938 : Index := Scalar.indexCast c4_i32_374
  let c112_375 : Index := 112#32
  ![v937.toNat, 4, 112]
def k0_off471 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v942 : Index := Scalar.indexCast arg13
  let c5_i32_376 : BitVec 32 := 5#32
  let v943 : Index := Scalar.indexCast c5_i32_376
  let c112_377 : Index := 112#32
  ![v942.toNat, 5, 112]
def k0_off472 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v947 : Index := Scalar.indexCast arg13
  let c6_i32_378 : BitVec 32 := 6#32
  let v948 : Index := Scalar.indexCast c6_i32_378
  let c112_379 : Index := 112#32
  ![v947.toNat, 6, 112]
def k0_off473 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v952 : Index := Scalar.indexCast arg13
  let c7_i32_380 : BitVec 32 := 7#32
  let v953 : Index := Scalar.indexCast c7_i32_380
  let c112_381 : Index := 112#32
  ![v952.toNat, 7, 112]
def k0_off474 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v957 : Index := Scalar.indexCast arg13
  let c8_i32_382 : BitVec 32 := 8#32
  let v958 : Index := Scalar.indexCast c8_i32_382
  let c112_383 : Index := 112#32
  ![v957.toNat, 8, 112]
def k0_off475 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v962 : Index := Scalar.indexCast arg13
  let c9_i32_384 : BitVec 32 := 9#32
  let v963 : Index := Scalar.indexCast c9_i32_384
  let c112_385 : Index := 112#32
  ![v962.toNat, 9, 112]
def k0_off476 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v967 : Index := Scalar.indexCast arg13
  let c10_i32_386 : BitVec 32 := 10#32
  let v968 : Index := Scalar.indexCast c10_i32_386
  let c112_387 : Index := 112#32
  ![v967.toNat, 10, 112]
def k0_off477 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v972 : Index := Scalar.indexCast arg13
  let c11_i32_388 : BitVec 32 := 11#32
  let v973 : Index := Scalar.indexCast c11_i32_388
  let c112_389 : Index := 112#32
  ![v972.toNat, 11, 112]
def k0_off478 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v977 : Index := Scalar.indexCast arg13
  let c12_i32_390 : BitVec 32 := 12#32
  let v978 : Index := Scalar.indexCast c12_i32_390
  let c112_391 : Index := 112#32
  ![v977.toNat, 12, 112]
def k0_off479 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v982 : Index := Scalar.indexCast arg13
  let c13_i32_392 : BitVec 32 := 13#32
  let v983 : Index := Scalar.indexCast c13_i32_392
  let c112_393 : Index := 112#32
  ![v982.toNat, 13, 112]
def k0_off480 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v987 : Index := Scalar.indexCast arg13
  let c14_i32_394 : BitVec 32 := 14#32
  let v988 : Index := Scalar.indexCast c14_i32_394
  let c112_395 : Index := 112#32
  ![v987.toNat, 14, 112]
def k0_off481 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v992 : Index := Scalar.indexCast arg13
  let c15_i32_396 : BitVec 32 := 15#32
  let v993 : Index := Scalar.indexCast c15_i32_396
  let c112_397 : Index := 112#32
  ![v992.toNat, 15, 112]
def k0_off482 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v1009 : Index := Scalar.indexCast arg13
  let c0_i32_398 : BitVec 32 := 0#32
  let v1010 : Index := Scalar.indexCast c0_i32_398
  let c112_399 : Index := 112#32
  ![v1009.toNat, 0, 112]
def k0_off483 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v1016 : Index := Scalar.indexCast arg13
  let c1_i32_401 : BitVec 32 := 1#32
  let v1017 : Index := Scalar.indexCast c1_i32_401
  let c112_402 : Index := 112#32
  ![v1016.toNat, 1, 112]
def k0_off484 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v1023 : Index := Scalar.indexCast arg13
  let c2_i32_404 : BitVec 32 := 2#32
  let v1024 : Index := Scalar.indexCast c2_i32_404
  let c112_405 : Index := 112#32
  ![v1023.toNat, 2, 112]
def k0_off485 (k0_t5 : Fin k0_t5_loop.trips) : Fin 3 → Nat :=
  let c0_i32_52 : BitVec 32 := 0#32
  let c1_i32_54 : BitVec 32 := 1#32
  let arg13 : BitVec 32 := Scf.iv c0_i32_52 c1_i32_54 k0_t5
  let v1030 : Index := Scalar.indexCast arg13
  let c3_i32_407 : BitVec 32 := 3#32
  let v1031 : Index := Scalar.indexCast c3_i32_407
  let c112_408 : Index := 112#32
  ![v1030.toNat, 3, 112]
def k0_off486 (i : grid0.Coords) (k0_t4 : Fin (k0_t4_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_42 : BitVec 32 := 2#32
  let c0_i32_26 : BitVec 32 := 0#32
  let c256_i32 : BitVec 32 := 256#32
  let v2 : BitVec 32 := Scalar.subi c256_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let v49 : BitVec 32 := Scalar.subi v38 c0_i32_26
  let c1_i32_27 : BitVec 32 := 1#32
  let v51 : BitVec 32 := Scalar.divsi v49 c1_i32_27
  let v52 : BitVec 32 := Scalar.muli v51 c1_i32_27
  let v53 : BitVec 32 := Scalar.addi c0_i32_26 v52
  let c1_i32_29 : BitVec 32 := 1#32
  let arg12 : BitVec 32 := Scf.iv v53 c1_i32_29 k0_t4
  let v58 : BitVec 32 := Scalar.muli c2_i32_42 arg12
  let c32_i32_56 : BitVec 32 := 32#32
  let v65 : BitVec 32 := Scalar.muli v58 c32_i32_56
  let v66 : BitVec 32 := Scalar.addi v1 v65
  let c16_i32_57 : BitVec 32 := 16#32
  let v67 : BitVec 32 := Scalar.muli v66 c16_i32_57
  let c0_i32_58 : BitVec 32 := 0#32
  let c0_i32_59 : BitVec 32 := 0#32
  ![v67.toNat, 0, 0]
def k0_cond6 (i : grid0.Coords) (k0_t4 : Fin (k0_t4_loop i).trips) : BitVec 1 :=
  let c2_i32_42 : BitVec 32 := 2#32
  let c0_i32_26 : BitVec 32 := 0#32
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c256_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let v49 : BitVec 32 := Scalar.subi v38 c0_i32_26
  let c1_i32_27 : BitVec 32 := 1#32
  let v51 : BitVec 32 := Scalar.divsi v49 c1_i32_27
  let v52 : BitVec 32 := Scalar.muli v51 c1_i32_27
  let v53 : BitVec 32 := Scalar.addi c0_i32_26 v52
  let c1_i32_29 : BitVec 32 := 1#32
  let arg12 : BitVec 32 := Scf.iv v53 c1_i32_29 k0_t4
  let v58 : BitVec 32 := Scalar.muli c2_i32_42 arg12
  let c2_i32_62 : BitVec 32 := 2#32
  let v70 : BitVec 32 := Scalar.addi v58 c2_i32_62
  let v71 : BitVec 1 := Scalar.cmpi .slt v70 v21
  let v72 : BitVec 32 := Scalar.extui v71
  let c0_i32_63 : BitVec 32 := 0#32
  let v73 : BitVec 1 := Scalar.cmpi .ne v72 c0_i32_63
  v73

def k0_off487 (i : grid0.Coords) (k0_t4 : Fin (k0_t4_loop i).trips) : Fin 3 → Nat :=
  let c5904_i32_90 : BitVec 32 := 5904#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_42 : BitVec 32 := 2#32
  let c0_i32_26 : BitVec 32 := 0#32
  let c256_i32 : BitVec 32 := 256#32
  let v2 : BitVec 32 := Scalar.subi c256_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let v49 : BitVec 32 := Scalar.subi v38 c0_i32_26
  let c1_i32_27 : BitVec 32 := 1#32
  let v51 : BitVec 32 := Scalar.divsi v49 c1_i32_27
  let v52 : BitVec 32 := Scalar.muli v51 c1_i32_27
  let v53 : BitVec 32 := Scalar.addi c0_i32_26 v52
  let c1_i32_29 : BitVec 32 := 1#32
  let arg12 : BitVec 32 := Scf.iv v53 c1_i32_29 k0_t4
  let v58 : BitVec 32 := Scalar.muli c2_i32_42 arg12
  let c2_i32_87 : BitVec 32 := 2#32
  let v91 : BitVec 32 := Scalar.addi v58 c2_i32_87
  let c32_i32_88 : BitVec 32 := 32#32
  let v92 : BitVec 32 := Scalar.muli v91 c32_i32_88
  let v93 : BitVec 32 := Scalar.addi v1 v92
  let c16_i32_89 : BitVec 32 := 16#32
  let v94 : BitVec 32 := Scalar.muli v93 c16_i32_89
  let v95 : BitVec 32 := Scalar.addi c5904_i32_90 v94
  let c0_i32_91 : BitVec 32 := 0#32
  let c0_i32_92 : BitVec 32 := 0#32
  ![v95.toNat, 0, 0]
@[reducible] def k0_t6_loop : Scf.Loop 32 :=
  let c0_i32_75 : BitVec 32 := 0#32
  let c16_i32_76 : BitVec 32 := 16#32
  let v81 : BitVec 32 := Scalar.addi c0_i32_75 c16_i32_76
  let c1_i32_77 : BitVec 32 := 1#32
  ⟨c0_i32_75, v81, c1_i32_77⟩
def k0_off488 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v91 : Index := Scalar.indexCast arg13
  let c0_i32_87 : BitVec 32 := 0#32
  let v92 : Index := Scalar.indexCast c0_i32_87
  let c0 : Index := 0#32
  ![v91.toNat, 0, 0]
def k0_off489 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v96 : Index := Scalar.indexCast arg13
  let c1_i32_88 : BitVec 32 := 1#32
  let v97 : Index := Scalar.indexCast c1_i32_88
  let c0_89 : Index := 0#32
  ![v96.toNat, 1, 0]
def k0_off490 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v101 : Index := Scalar.indexCast arg13
  let c2_i32_90 : BitVec 32 := 2#32
  let v102 : Index := Scalar.indexCast c2_i32_90
  let c0_91 : Index := 0#32
  ![v101.toNat, 2, 0]
def k0_off491 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v106 : Index := Scalar.indexCast arg13
  let c3_i32 : BitVec 32 := 3#32
  let v107 : Index := Scalar.indexCast c3_i32
  let c0_92 : Index := 0#32
  ![v106.toNat, 3, 0]
def k0_off492 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v111 : Index := Scalar.indexCast arg13
  let c4_i32 : BitVec 32 := 4#32
  let v112 : Index := Scalar.indexCast c4_i32
  let c0_93 : Index := 0#32
  ![v111.toNat, 4, 0]
def k0_off493 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v116 : Index := Scalar.indexCast arg13
  let c5_i32 : BitVec 32 := 5#32
  let v117 : Index := Scalar.indexCast c5_i32
  let c0_94 : Index := 0#32
  ![v116.toNat, 5, 0]
def k0_off494 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v121 : Index := Scalar.indexCast arg13
  let c6_i32 : BitVec 32 := 6#32
  let v122 : Index := Scalar.indexCast c6_i32
  let c0_95 : Index := 0#32
  ![v121.toNat, 6, 0]
def k0_off495 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v126 : Index := Scalar.indexCast arg13
  let c7_i32 : BitVec 32 := 7#32
  let v127 : Index := Scalar.indexCast c7_i32
  let c0_96 : Index := 0#32
  ![v126.toNat, 7, 0]
def k0_off496 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v131 : Index := Scalar.indexCast arg13
  let c8_i32 : BitVec 32 := 8#32
  let v132 : Index := Scalar.indexCast c8_i32
  let c0_97 : Index := 0#32
  ![v131.toNat, 8, 0]
def k0_off497 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v136 : Index := Scalar.indexCast arg13
  let c9_i32 : BitVec 32 := 9#32
  let v137 : Index := Scalar.indexCast c9_i32
  let c0_98 : Index := 0#32
  ![v136.toNat, 9, 0]
def k0_off498 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v141 : Index := Scalar.indexCast arg13
  let c10_i32 : BitVec 32 := 10#32
  let v142 : Index := Scalar.indexCast c10_i32
  let c0_99 : Index := 0#32
  ![v141.toNat, 10, 0]
def k0_off499 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v146 : Index := Scalar.indexCast arg13
  let c11_i32 : BitVec 32 := 11#32
  let v147 : Index := Scalar.indexCast c11_i32
  let c0_100 : Index := 0#32
  ![v146.toNat, 11, 0]
def k0_off500 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v151 : Index := Scalar.indexCast arg13
  let c12_i32 : BitVec 32 := 12#32
  let v152 : Index := Scalar.indexCast c12_i32
  let c0_101 : Index := 0#32
  ![v151.toNat, 12, 0]
def k0_off501 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v156 : Index := Scalar.indexCast arg13
  let c13_i32 : BitVec 32 := 13#32
  let v157 : Index := Scalar.indexCast c13_i32
  let c0_102 : Index := 0#32
  ![v156.toNat, 13, 0]
def k0_off502 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v161 : Index := Scalar.indexCast arg13
  let c14_i32 : BitVec 32 := 14#32
  let v162 : Index := Scalar.indexCast c14_i32
  let c0_103 : Index := 0#32
  ![v161.toNat, 14, 0]
def k0_off503 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v166 : Index := Scalar.indexCast arg13
  let c15_i32 : BitVec 32 := 15#32
  let v167 : Index := Scalar.indexCast c15_i32
  let c0_104 : Index := 0#32
  ![v166.toNat, 15, 0]
def k0_off504 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v183 : Index := Scalar.indexCast arg13
  let c0_i32_105 : BitVec 32 := 0#32
  let v184 : Index := Scalar.indexCast c0_i32_105
  let c0_106 : Index := 0#32
  ![v183.toNat, 0, 0]
def k0_off505 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v190 : Index := Scalar.indexCast arg13
  let c1_i32_107 : BitVec 32 := 1#32
  let v191 : Index := Scalar.indexCast c1_i32_107
  let c0_108 : Index := 0#32
  ![v190.toNat, 1, 0]
def k0_off506 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v197 : Index := Scalar.indexCast arg13
  let c2_i32_110 : BitVec 32 := 2#32
  let v198 : Index := Scalar.indexCast c2_i32_110
  let c0_111 : Index := 0#32
  ![v197.toNat, 2, 0]
def k0_off507 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v204 : Index := Scalar.indexCast arg13
  let c3_i32_113 : BitVec 32 := 3#32
  let v205 : Index := Scalar.indexCast c3_i32_113
  let c0_114 : Index := 0#32
  ![v204.toNat, 3, 0]
def k0_off508 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v209 : Index := Scalar.indexCast arg13
  let c0_i32_115 : BitVec 32 := 0#32
  let v210 : Index := Scalar.indexCast c0_i32_115
  let c16 : Index := 16#32
  ![v209.toNat, 0, 16]
def k0_off509 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v214 : Index := Scalar.indexCast arg13
  let c1_i32_116 : BitVec 32 := 1#32
  let v215 : Index := Scalar.indexCast c1_i32_116
  let c16_117 : Index := 16#32
  ![v214.toNat, 1, 16]
def k0_off510 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v219 : Index := Scalar.indexCast arg13
  let c2_i32_118 : BitVec 32 := 2#32
  let v220 : Index := Scalar.indexCast c2_i32_118
  let c16_119 : Index := 16#32
  ![v219.toNat, 2, 16]
def k0_off511 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v224 : Index := Scalar.indexCast arg13
  let c3_i32_120 : BitVec 32 := 3#32
  let v225 : Index := Scalar.indexCast c3_i32_120
  let c16_121 : Index := 16#32
  ![v224.toNat, 3, 16]
def k0_off512 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v229 : Index := Scalar.indexCast arg13
  let c4_i32_122 : BitVec 32 := 4#32
  let v230 : Index := Scalar.indexCast c4_i32_122
  let c16_123 : Index := 16#32
  ![v229.toNat, 4, 16]
def k0_off513 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v234 : Index := Scalar.indexCast arg13
  let c5_i32_124 : BitVec 32 := 5#32
  let v235 : Index := Scalar.indexCast c5_i32_124
  let c16_125 : Index := 16#32
  ![v234.toNat, 5, 16]
def k0_off514 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v239 : Index := Scalar.indexCast arg13
  let c6_i32_126 : BitVec 32 := 6#32
  let v240 : Index := Scalar.indexCast c6_i32_126
  let c16_127 : Index := 16#32
  ![v239.toNat, 6, 16]
def k0_off515 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v244 : Index := Scalar.indexCast arg13
  let c7_i32_128 : BitVec 32 := 7#32
  let v245 : Index := Scalar.indexCast c7_i32_128
  let c16_129 : Index := 16#32
  ![v244.toNat, 7, 16]
def k0_off516 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v249 : Index := Scalar.indexCast arg13
  let c8_i32_130 : BitVec 32 := 8#32
  let v250 : Index := Scalar.indexCast c8_i32_130
  let c16_131 : Index := 16#32
  ![v249.toNat, 8, 16]
def k0_off517 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v254 : Index := Scalar.indexCast arg13
  let c9_i32_132 : BitVec 32 := 9#32
  let v255 : Index := Scalar.indexCast c9_i32_132
  let c16_133 : Index := 16#32
  ![v254.toNat, 9, 16]
def k0_off518 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v259 : Index := Scalar.indexCast arg13
  let c10_i32_134 : BitVec 32 := 10#32
  let v260 : Index := Scalar.indexCast c10_i32_134
  let c16_135 : Index := 16#32
  ![v259.toNat, 10, 16]
def k0_off519 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v264 : Index := Scalar.indexCast arg13
  let c11_i32_136 : BitVec 32 := 11#32
  let v265 : Index := Scalar.indexCast c11_i32_136
  let c16_137 : Index := 16#32
  ![v264.toNat, 11, 16]
def k0_off520 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v269 : Index := Scalar.indexCast arg13
  let c12_i32_138 : BitVec 32 := 12#32
  let v270 : Index := Scalar.indexCast c12_i32_138
  let c16_139 : Index := 16#32
  ![v269.toNat, 12, 16]
def k0_off521 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v274 : Index := Scalar.indexCast arg13
  let c13_i32_140 : BitVec 32 := 13#32
  let v275 : Index := Scalar.indexCast c13_i32_140
  let c16_141 : Index := 16#32
  ![v274.toNat, 13, 16]
def k0_off522 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v279 : Index := Scalar.indexCast arg13
  let c14_i32_142 : BitVec 32 := 14#32
  let v280 : Index := Scalar.indexCast c14_i32_142
  let c16_143 : Index := 16#32
  ![v279.toNat, 14, 16]
def k0_off523 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v284 : Index := Scalar.indexCast arg13
  let c15_i32_144 : BitVec 32 := 15#32
  let v285 : Index := Scalar.indexCast c15_i32_144
  let c16_145 : Index := 16#32
  ![v284.toNat, 15, 16]
def k0_off524 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v301 : Index := Scalar.indexCast arg13
  let c0_i32_146 : BitVec 32 := 0#32
  let v302 : Index := Scalar.indexCast c0_i32_146
  let c16_147 : Index := 16#32
  ![v301.toNat, 0, 16]
def k0_off525 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v308 : Index := Scalar.indexCast arg13
  let c1_i32_149 : BitVec 32 := 1#32
  let v309 : Index := Scalar.indexCast c1_i32_149
  let c16_150 : Index := 16#32
  ![v308.toNat, 1, 16]
def k0_off526 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v315 : Index := Scalar.indexCast arg13
  let c2_i32_152 : BitVec 32 := 2#32
  let v316 : Index := Scalar.indexCast c2_i32_152
  let c16_153 : Index := 16#32
  ![v315.toNat, 2, 16]
def k0_off527 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v322 : Index := Scalar.indexCast arg13
  let c3_i32_155 : BitVec 32 := 3#32
  let v323 : Index := Scalar.indexCast c3_i32_155
  let c16_156 : Index := 16#32
  ![v322.toNat, 3, 16]
def k0_off528 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v327 : Index := Scalar.indexCast arg13
  let c0_i32_157 : BitVec 32 := 0#32
  let v328 : Index := Scalar.indexCast c0_i32_157
  let c32 : Index := 32#32
  ![v327.toNat, 0, 32]
def k0_off529 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v332 : Index := Scalar.indexCast arg13
  let c1_i32_158 : BitVec 32 := 1#32
  let v333 : Index := Scalar.indexCast c1_i32_158
  let c32_159 : Index := 32#32
  ![v332.toNat, 1, 32]
def k0_off530 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v337 : Index := Scalar.indexCast arg13
  let c2_i32_160 : BitVec 32 := 2#32
  let v338 : Index := Scalar.indexCast c2_i32_160
  let c32_161 : Index := 32#32
  ![v337.toNat, 2, 32]
def k0_off531 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v342 : Index := Scalar.indexCast arg13
  let c3_i32_162 : BitVec 32 := 3#32
  let v343 : Index := Scalar.indexCast c3_i32_162
  let c32_163 : Index := 32#32
  ![v342.toNat, 3, 32]
def k0_off532 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v347 : Index := Scalar.indexCast arg13
  let c4_i32_164 : BitVec 32 := 4#32
  let v348 : Index := Scalar.indexCast c4_i32_164
  let c32_165 : Index := 32#32
  ![v347.toNat, 4, 32]
def k0_off533 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v352 : Index := Scalar.indexCast arg13
  let c5_i32_166 : BitVec 32 := 5#32
  let v353 : Index := Scalar.indexCast c5_i32_166
  let c32_167 : Index := 32#32
  ![v352.toNat, 5, 32]
def k0_off534 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v357 : Index := Scalar.indexCast arg13
  let c6_i32_168 : BitVec 32 := 6#32
  let v358 : Index := Scalar.indexCast c6_i32_168
  let c32_169 : Index := 32#32
  ![v357.toNat, 6, 32]
def k0_off535 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v362 : Index := Scalar.indexCast arg13
  let c7_i32_170 : BitVec 32 := 7#32
  let v363 : Index := Scalar.indexCast c7_i32_170
  let c32_171 : Index := 32#32
  ![v362.toNat, 7, 32]
def k0_off536 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v367 : Index := Scalar.indexCast arg13
  let c8_i32_172 : BitVec 32 := 8#32
  let v368 : Index := Scalar.indexCast c8_i32_172
  let c32_173 : Index := 32#32
  ![v367.toNat, 8, 32]
def k0_off537 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v372 : Index := Scalar.indexCast arg13
  let c9_i32_174 : BitVec 32 := 9#32
  let v373 : Index := Scalar.indexCast c9_i32_174
  let c32_175 : Index := 32#32
  ![v372.toNat, 9, 32]
def k0_off538 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v377 : Index := Scalar.indexCast arg13
  let c10_i32_176 : BitVec 32 := 10#32
  let v378 : Index := Scalar.indexCast c10_i32_176
  let c32_177 : Index := 32#32
  ![v377.toNat, 10, 32]
def k0_off539 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v382 : Index := Scalar.indexCast arg13
  let c11_i32_178 : BitVec 32 := 11#32
  let v383 : Index := Scalar.indexCast c11_i32_178
  let c32_179 : Index := 32#32
  ![v382.toNat, 11, 32]
def k0_off540 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v387 : Index := Scalar.indexCast arg13
  let c12_i32_180 : BitVec 32 := 12#32
  let v388 : Index := Scalar.indexCast c12_i32_180
  let c32_181 : Index := 32#32
  ![v387.toNat, 12, 32]
def k0_off541 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v392 : Index := Scalar.indexCast arg13
  let c13_i32_182 : BitVec 32 := 13#32
  let v393 : Index := Scalar.indexCast c13_i32_182
  let c32_183 : Index := 32#32
  ![v392.toNat, 13, 32]
def k0_off542 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v397 : Index := Scalar.indexCast arg13
  let c14_i32_184 : BitVec 32 := 14#32
  let v398 : Index := Scalar.indexCast c14_i32_184
  let c32_185 : Index := 32#32
  ![v397.toNat, 14, 32]
def k0_off543 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v402 : Index := Scalar.indexCast arg13
  let c15_i32_186 : BitVec 32 := 15#32
  let v403 : Index := Scalar.indexCast c15_i32_186
  let c32_187 : Index := 32#32
  ![v402.toNat, 15, 32]
def k0_off544 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v419 : Index := Scalar.indexCast arg13
  let c0_i32_188 : BitVec 32 := 0#32
  let v420 : Index := Scalar.indexCast c0_i32_188
  let c32_189 : Index := 32#32
  ![v419.toNat, 0, 32]
def k0_off545 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v426 : Index := Scalar.indexCast arg13
  let c1_i32_191 : BitVec 32 := 1#32
  let v427 : Index := Scalar.indexCast c1_i32_191
  let c32_192 : Index := 32#32
  ![v426.toNat, 1, 32]
def k0_off546 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v433 : Index := Scalar.indexCast arg13
  let c2_i32_194 : BitVec 32 := 2#32
  let v434 : Index := Scalar.indexCast c2_i32_194
  let c32_195 : Index := 32#32
  ![v433.toNat, 2, 32]
def k0_off547 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v440 : Index := Scalar.indexCast arg13
  let c3_i32_197 : BitVec 32 := 3#32
  let v441 : Index := Scalar.indexCast c3_i32_197
  let c32_198 : Index := 32#32
  ![v440.toNat, 3, 32]
def k0_off548 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v445 : Index := Scalar.indexCast arg13
  let c0_i32_199 : BitVec 32 := 0#32
  let v446 : Index := Scalar.indexCast c0_i32_199
  let c48 : Index := 48#32
  ![v445.toNat, 0, 48]
def k0_off549 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v450 : Index := Scalar.indexCast arg13
  let c1_i32_200 : BitVec 32 := 1#32
  let v451 : Index := Scalar.indexCast c1_i32_200
  let c48_201 : Index := 48#32
  ![v450.toNat, 1, 48]
def k0_off550 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v455 : Index := Scalar.indexCast arg13
  let c2_i32_202 : BitVec 32 := 2#32
  let v456 : Index := Scalar.indexCast c2_i32_202
  let c48_203 : Index := 48#32
  ![v455.toNat, 2, 48]
def k0_off551 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v460 : Index := Scalar.indexCast arg13
  let c3_i32_204 : BitVec 32 := 3#32
  let v461 : Index := Scalar.indexCast c3_i32_204
  let c48_205 : Index := 48#32
  ![v460.toNat, 3, 48]
def k0_off552 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v465 : Index := Scalar.indexCast arg13
  let c4_i32_206 : BitVec 32 := 4#32
  let v466 : Index := Scalar.indexCast c4_i32_206
  let c48_207 : Index := 48#32
  ![v465.toNat, 4, 48]
def k0_off553 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v470 : Index := Scalar.indexCast arg13
  let c5_i32_208 : BitVec 32 := 5#32
  let v471 : Index := Scalar.indexCast c5_i32_208
  let c48_209 : Index := 48#32
  ![v470.toNat, 5, 48]
def k0_off554 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v475 : Index := Scalar.indexCast arg13
  let c6_i32_210 : BitVec 32 := 6#32
  let v476 : Index := Scalar.indexCast c6_i32_210
  let c48_211 : Index := 48#32
  ![v475.toNat, 6, 48]
def k0_off555 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v480 : Index := Scalar.indexCast arg13
  let c7_i32_212 : BitVec 32 := 7#32
  let v481 : Index := Scalar.indexCast c7_i32_212
  let c48_213 : Index := 48#32
  ![v480.toNat, 7, 48]
def k0_off556 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v485 : Index := Scalar.indexCast arg13
  let c8_i32_214 : BitVec 32 := 8#32
  let v486 : Index := Scalar.indexCast c8_i32_214
  let c48_215 : Index := 48#32
  ![v485.toNat, 8, 48]
def k0_off557 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v490 : Index := Scalar.indexCast arg13
  let c9_i32_216 : BitVec 32 := 9#32
  let v491 : Index := Scalar.indexCast c9_i32_216
  let c48_217 : Index := 48#32
  ![v490.toNat, 9, 48]
def k0_off558 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v495 : Index := Scalar.indexCast arg13
  let c10_i32_218 : BitVec 32 := 10#32
  let v496 : Index := Scalar.indexCast c10_i32_218
  let c48_219 : Index := 48#32
  ![v495.toNat, 10, 48]
def k0_off559 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v500 : Index := Scalar.indexCast arg13
  let c11_i32_220 : BitVec 32 := 11#32
  let v501 : Index := Scalar.indexCast c11_i32_220
  let c48_221 : Index := 48#32
  ![v500.toNat, 11, 48]
def k0_off560 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v505 : Index := Scalar.indexCast arg13
  let c12_i32_222 : BitVec 32 := 12#32
  let v506 : Index := Scalar.indexCast c12_i32_222
  let c48_223 : Index := 48#32
  ![v505.toNat, 12, 48]
def k0_off561 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v510 : Index := Scalar.indexCast arg13
  let c13_i32_224 : BitVec 32 := 13#32
  let v511 : Index := Scalar.indexCast c13_i32_224
  let c48_225 : Index := 48#32
  ![v510.toNat, 13, 48]
def k0_off562 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v515 : Index := Scalar.indexCast arg13
  let c14_i32_226 : BitVec 32 := 14#32
  let v516 : Index := Scalar.indexCast c14_i32_226
  let c48_227 : Index := 48#32
  ![v515.toNat, 14, 48]
def k0_off563 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v520 : Index := Scalar.indexCast arg13
  let c15_i32_228 : BitVec 32 := 15#32
  let v521 : Index := Scalar.indexCast c15_i32_228
  let c48_229 : Index := 48#32
  ![v520.toNat, 15, 48]
def k0_off564 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v537 : Index := Scalar.indexCast arg13
  let c0_i32_230 : BitVec 32 := 0#32
  let v538 : Index := Scalar.indexCast c0_i32_230
  let c48_231 : Index := 48#32
  ![v537.toNat, 0, 48]
def k0_off565 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v544 : Index := Scalar.indexCast arg13
  let c1_i32_233 : BitVec 32 := 1#32
  let v545 : Index := Scalar.indexCast c1_i32_233
  let c48_234 : Index := 48#32
  ![v544.toNat, 1, 48]
def k0_off566 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v551 : Index := Scalar.indexCast arg13
  let c2_i32_236 : BitVec 32 := 2#32
  let v552 : Index := Scalar.indexCast c2_i32_236
  let c48_237 : Index := 48#32
  ![v551.toNat, 2, 48]
def k0_off567 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v558 : Index := Scalar.indexCast arg13
  let c3_i32_239 : BitVec 32 := 3#32
  let v559 : Index := Scalar.indexCast c3_i32_239
  let c48_240 : Index := 48#32
  ![v558.toNat, 3, 48]
def k0_off568 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v563 : Index := Scalar.indexCast arg13
  let c0_i32_241 : BitVec 32 := 0#32
  let v564 : Index := Scalar.indexCast c0_i32_241
  let c64 : Index := 64#32
  ![v563.toNat, 0, 64]
def k0_off569 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v568 : Index := Scalar.indexCast arg13
  let c1_i32_242 : BitVec 32 := 1#32
  let v569 : Index := Scalar.indexCast c1_i32_242
  let c64_243 : Index := 64#32
  ![v568.toNat, 1, 64]
def k0_off570 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v573 : Index := Scalar.indexCast arg13
  let c2_i32_244 : BitVec 32 := 2#32
  let v574 : Index := Scalar.indexCast c2_i32_244
  let c64_245 : Index := 64#32
  ![v573.toNat, 2, 64]
def k0_off571 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v578 : Index := Scalar.indexCast arg13
  let c3_i32_246 : BitVec 32 := 3#32
  let v579 : Index := Scalar.indexCast c3_i32_246
  let c64_247 : Index := 64#32
  ![v578.toNat, 3, 64]
def k0_off572 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v583 : Index := Scalar.indexCast arg13
  let c4_i32_248 : BitVec 32 := 4#32
  let v584 : Index := Scalar.indexCast c4_i32_248
  let c64_249 : Index := 64#32
  ![v583.toNat, 4, 64]
def k0_off573 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v588 : Index := Scalar.indexCast arg13
  let c5_i32_250 : BitVec 32 := 5#32
  let v589 : Index := Scalar.indexCast c5_i32_250
  let c64_251 : Index := 64#32
  ![v588.toNat, 5, 64]
def k0_off574 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v593 : Index := Scalar.indexCast arg13
  let c6_i32_252 : BitVec 32 := 6#32
  let v594 : Index := Scalar.indexCast c6_i32_252
  let c64_253 : Index := 64#32
  ![v593.toNat, 6, 64]
def k0_off575 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v598 : Index := Scalar.indexCast arg13
  let c7_i32_254 : BitVec 32 := 7#32
  let v599 : Index := Scalar.indexCast c7_i32_254
  let c64_255 : Index := 64#32
  ![v598.toNat, 7, 64]
def k0_off576 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v603 : Index := Scalar.indexCast arg13
  let c8_i32_256 : BitVec 32 := 8#32
  let v604 : Index := Scalar.indexCast c8_i32_256
  let c64_257 : Index := 64#32
  ![v603.toNat, 8, 64]
def k0_off577 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v608 : Index := Scalar.indexCast arg13
  let c9_i32_258 : BitVec 32 := 9#32
  let v609 : Index := Scalar.indexCast c9_i32_258
  let c64_259 : Index := 64#32
  ![v608.toNat, 9, 64]
def k0_off578 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v613 : Index := Scalar.indexCast arg13
  let c10_i32_260 : BitVec 32 := 10#32
  let v614 : Index := Scalar.indexCast c10_i32_260
  let c64_261 : Index := 64#32
  ![v613.toNat, 10, 64]
def k0_off579 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v618 : Index := Scalar.indexCast arg13
  let c11_i32_262 : BitVec 32 := 11#32
  let v619 : Index := Scalar.indexCast c11_i32_262
  let c64_263 : Index := 64#32
  ![v618.toNat, 11, 64]
def k0_off580 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v623 : Index := Scalar.indexCast arg13
  let c12_i32_264 : BitVec 32 := 12#32
  let v624 : Index := Scalar.indexCast c12_i32_264
  let c64_265 : Index := 64#32
  ![v623.toNat, 12, 64]
def k0_off581 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v628 : Index := Scalar.indexCast arg13
  let c13_i32_266 : BitVec 32 := 13#32
  let v629 : Index := Scalar.indexCast c13_i32_266
  let c64_267 : Index := 64#32
  ![v628.toNat, 13, 64]
def k0_off582 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v633 : Index := Scalar.indexCast arg13
  let c14_i32_268 : BitVec 32 := 14#32
  let v634 : Index := Scalar.indexCast c14_i32_268
  let c64_269 : Index := 64#32
  ![v633.toNat, 14, 64]
def k0_off583 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v638 : Index := Scalar.indexCast arg13
  let c15_i32_270 : BitVec 32 := 15#32
  let v639 : Index := Scalar.indexCast c15_i32_270
  let c64_271 : Index := 64#32
  ![v638.toNat, 15, 64]
def k0_off584 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v655 : Index := Scalar.indexCast arg13
  let c0_i32_272 : BitVec 32 := 0#32
  let v656 : Index := Scalar.indexCast c0_i32_272
  let c64_273 : Index := 64#32
  ![v655.toNat, 0, 64]
def k0_off585 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v662 : Index := Scalar.indexCast arg13
  let c1_i32_275 : BitVec 32 := 1#32
  let v663 : Index := Scalar.indexCast c1_i32_275
  let c64_276 : Index := 64#32
  ![v662.toNat, 1, 64]
def k0_off586 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v669 : Index := Scalar.indexCast arg13
  let c2_i32_278 : BitVec 32 := 2#32
  let v670 : Index := Scalar.indexCast c2_i32_278
  let c64_279 : Index := 64#32
  ![v669.toNat, 2, 64]
def k0_off587 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v676 : Index := Scalar.indexCast arg13
  let c3_i32_281 : BitVec 32 := 3#32
  let v677 : Index := Scalar.indexCast c3_i32_281
  let c64_282 : Index := 64#32
  ![v676.toNat, 3, 64]
def k0_off588 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v681 : Index := Scalar.indexCast arg13
  let c0_i32_283 : BitVec 32 := 0#32
  let v682 : Index := Scalar.indexCast c0_i32_283
  let c80 : Index := 80#32
  ![v681.toNat, 0, 80]
def k0_off589 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v686 : Index := Scalar.indexCast arg13
  let c1_i32_284 : BitVec 32 := 1#32
  let v687 : Index := Scalar.indexCast c1_i32_284
  let c80_285 : Index := 80#32
  ![v686.toNat, 1, 80]
def k0_off590 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v691 : Index := Scalar.indexCast arg13
  let c2_i32_286 : BitVec 32 := 2#32
  let v692 : Index := Scalar.indexCast c2_i32_286
  let c80_287 : Index := 80#32
  ![v691.toNat, 2, 80]
def k0_off591 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v696 : Index := Scalar.indexCast arg13
  let c3_i32_288 : BitVec 32 := 3#32
  let v697 : Index := Scalar.indexCast c3_i32_288
  let c80_289 : Index := 80#32
  ![v696.toNat, 3, 80]
def k0_off592 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v701 : Index := Scalar.indexCast arg13
  let c4_i32_290 : BitVec 32 := 4#32
  let v702 : Index := Scalar.indexCast c4_i32_290
  let c80_291 : Index := 80#32
  ![v701.toNat, 4, 80]
def k0_off593 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v706 : Index := Scalar.indexCast arg13
  let c5_i32_292 : BitVec 32 := 5#32
  let v707 : Index := Scalar.indexCast c5_i32_292
  let c80_293 : Index := 80#32
  ![v706.toNat, 5, 80]
def k0_off594 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v711 : Index := Scalar.indexCast arg13
  let c6_i32_294 : BitVec 32 := 6#32
  let v712 : Index := Scalar.indexCast c6_i32_294
  let c80_295 : Index := 80#32
  ![v711.toNat, 6, 80]
def k0_off595 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v716 : Index := Scalar.indexCast arg13
  let c7_i32_296 : BitVec 32 := 7#32
  let v717 : Index := Scalar.indexCast c7_i32_296
  let c80_297 : Index := 80#32
  ![v716.toNat, 7, 80]
def k0_off596 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v721 : Index := Scalar.indexCast arg13
  let c8_i32_298 : BitVec 32 := 8#32
  let v722 : Index := Scalar.indexCast c8_i32_298
  let c80_299 : Index := 80#32
  ![v721.toNat, 8, 80]
def k0_off597 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v726 : Index := Scalar.indexCast arg13
  let c9_i32_300 : BitVec 32 := 9#32
  let v727 : Index := Scalar.indexCast c9_i32_300
  let c80_301 : Index := 80#32
  ![v726.toNat, 9, 80]
def k0_off598 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v731 : Index := Scalar.indexCast arg13
  let c10_i32_302 : BitVec 32 := 10#32
  let v732 : Index := Scalar.indexCast c10_i32_302
  let c80_303 : Index := 80#32
  ![v731.toNat, 10, 80]
def k0_off599 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v736 : Index := Scalar.indexCast arg13
  let c11_i32_304 : BitVec 32 := 11#32
  let v737 : Index := Scalar.indexCast c11_i32_304
  let c80_305 : Index := 80#32
  ![v736.toNat, 11, 80]
def k0_off600 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v741 : Index := Scalar.indexCast arg13
  let c12_i32_306 : BitVec 32 := 12#32
  let v742 : Index := Scalar.indexCast c12_i32_306
  let c80_307 : Index := 80#32
  ![v741.toNat, 12, 80]
def k0_off601 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v746 : Index := Scalar.indexCast arg13
  let c13_i32_308 : BitVec 32 := 13#32
  let v747 : Index := Scalar.indexCast c13_i32_308
  let c80_309 : Index := 80#32
  ![v746.toNat, 13, 80]
def k0_off602 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v751 : Index := Scalar.indexCast arg13
  let c14_i32_310 : BitVec 32 := 14#32
  let v752 : Index := Scalar.indexCast c14_i32_310
  let c80_311 : Index := 80#32
  ![v751.toNat, 14, 80]
def k0_off603 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v756 : Index := Scalar.indexCast arg13
  let c15_i32_312 : BitVec 32 := 15#32
  let v757 : Index := Scalar.indexCast c15_i32_312
  let c80_313 : Index := 80#32
  ![v756.toNat, 15, 80]
def k0_off604 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v773 : Index := Scalar.indexCast arg13
  let c0_i32_314 : BitVec 32 := 0#32
  let v774 : Index := Scalar.indexCast c0_i32_314
  let c80_315 : Index := 80#32
  ![v773.toNat, 0, 80]
def k0_off605 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v780 : Index := Scalar.indexCast arg13
  let c1_i32_317 : BitVec 32 := 1#32
  let v781 : Index := Scalar.indexCast c1_i32_317
  let c80_318 : Index := 80#32
  ![v780.toNat, 1, 80]
def k0_off606 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v787 : Index := Scalar.indexCast arg13
  let c2_i32_320 : BitVec 32 := 2#32
  let v788 : Index := Scalar.indexCast c2_i32_320
  let c80_321 : Index := 80#32
  ![v787.toNat, 2, 80]
def k0_off607 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v794 : Index := Scalar.indexCast arg13
  let c3_i32_323 : BitVec 32 := 3#32
  let v795 : Index := Scalar.indexCast c3_i32_323
  let c80_324 : Index := 80#32
  ![v794.toNat, 3, 80]
def k0_off608 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v799 : Index := Scalar.indexCast arg13
  let c0_i32_325 : BitVec 32 := 0#32
  let v800 : Index := Scalar.indexCast c0_i32_325
  let c96 : Index := 96#32
  ![v799.toNat, 0, 96]
def k0_off609 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v804 : Index := Scalar.indexCast arg13
  let c1_i32_326 : BitVec 32 := 1#32
  let v805 : Index := Scalar.indexCast c1_i32_326
  let c96_327 : Index := 96#32
  ![v804.toNat, 1, 96]
def k0_off610 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v809 : Index := Scalar.indexCast arg13
  let c2_i32_328 : BitVec 32 := 2#32
  let v810 : Index := Scalar.indexCast c2_i32_328
  let c96_329 : Index := 96#32
  ![v809.toNat, 2, 96]
def k0_off611 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v814 : Index := Scalar.indexCast arg13
  let c3_i32_330 : BitVec 32 := 3#32
  let v815 : Index := Scalar.indexCast c3_i32_330
  let c96_331 : Index := 96#32
  ![v814.toNat, 3, 96]
def k0_off612 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v819 : Index := Scalar.indexCast arg13
  let c4_i32_332 : BitVec 32 := 4#32
  let v820 : Index := Scalar.indexCast c4_i32_332
  let c96_333 : Index := 96#32
  ![v819.toNat, 4, 96]
def k0_off613 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v824 : Index := Scalar.indexCast arg13
  let c5_i32_334 : BitVec 32 := 5#32
  let v825 : Index := Scalar.indexCast c5_i32_334
  let c96_335 : Index := 96#32
  ![v824.toNat, 5, 96]
def k0_off614 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v829 : Index := Scalar.indexCast arg13
  let c6_i32_336 : BitVec 32 := 6#32
  let v830 : Index := Scalar.indexCast c6_i32_336
  let c96_337 : Index := 96#32
  ![v829.toNat, 6, 96]
def k0_off615 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v834 : Index := Scalar.indexCast arg13
  let c7_i32_338 : BitVec 32 := 7#32
  let v835 : Index := Scalar.indexCast c7_i32_338
  let c96_339 : Index := 96#32
  ![v834.toNat, 7, 96]
def k0_off616 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v839 : Index := Scalar.indexCast arg13
  let c8_i32_340 : BitVec 32 := 8#32
  let v840 : Index := Scalar.indexCast c8_i32_340
  let c96_341 : Index := 96#32
  ![v839.toNat, 8, 96]
def k0_off617 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v844 : Index := Scalar.indexCast arg13
  let c9_i32_342 : BitVec 32 := 9#32
  let v845 : Index := Scalar.indexCast c9_i32_342
  let c96_343 : Index := 96#32
  ![v844.toNat, 9, 96]
def k0_off618 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v849 : Index := Scalar.indexCast arg13
  let c10_i32_344 : BitVec 32 := 10#32
  let v850 : Index := Scalar.indexCast c10_i32_344
  let c96_345 : Index := 96#32
  ![v849.toNat, 10, 96]
def k0_off619 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v854 : Index := Scalar.indexCast arg13
  let c11_i32_346 : BitVec 32 := 11#32
  let v855 : Index := Scalar.indexCast c11_i32_346
  let c96_347 : Index := 96#32
  ![v854.toNat, 11, 96]
def k0_off620 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v859 : Index := Scalar.indexCast arg13
  let c12_i32_348 : BitVec 32 := 12#32
  let v860 : Index := Scalar.indexCast c12_i32_348
  let c96_349 : Index := 96#32
  ![v859.toNat, 12, 96]
def k0_off621 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v864 : Index := Scalar.indexCast arg13
  let c13_i32_350 : BitVec 32 := 13#32
  let v865 : Index := Scalar.indexCast c13_i32_350
  let c96_351 : Index := 96#32
  ![v864.toNat, 13, 96]
def k0_off622 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v869 : Index := Scalar.indexCast arg13
  let c14_i32_352 : BitVec 32 := 14#32
  let v870 : Index := Scalar.indexCast c14_i32_352
  let c96_353 : Index := 96#32
  ![v869.toNat, 14, 96]
def k0_off623 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v874 : Index := Scalar.indexCast arg13
  let c15_i32_354 : BitVec 32 := 15#32
  let v875 : Index := Scalar.indexCast c15_i32_354
  let c96_355 : Index := 96#32
  ![v874.toNat, 15, 96]
def k0_off624 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v891 : Index := Scalar.indexCast arg13
  let c0_i32_356 : BitVec 32 := 0#32
  let v892 : Index := Scalar.indexCast c0_i32_356
  let c96_357 : Index := 96#32
  ![v891.toNat, 0, 96]
def k0_off625 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v898 : Index := Scalar.indexCast arg13
  let c1_i32_359 : BitVec 32 := 1#32
  let v899 : Index := Scalar.indexCast c1_i32_359
  let c96_360 : Index := 96#32
  ![v898.toNat, 1, 96]
def k0_off626 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v905 : Index := Scalar.indexCast arg13
  let c2_i32_362 : BitVec 32 := 2#32
  let v906 : Index := Scalar.indexCast c2_i32_362
  let c96_363 : Index := 96#32
  ![v905.toNat, 2, 96]
def k0_off627 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v912 : Index := Scalar.indexCast arg13
  let c3_i32_365 : BitVec 32 := 3#32
  let v913 : Index := Scalar.indexCast c3_i32_365
  let c96_366 : Index := 96#32
  ![v912.toNat, 3, 96]
def k0_off628 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v917 : Index := Scalar.indexCast arg13
  let c0_i32_367 : BitVec 32 := 0#32
  let v918 : Index := Scalar.indexCast c0_i32_367
  let c112 : Index := 112#32
  ![v917.toNat, 0, 112]
def k0_off629 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v922 : Index := Scalar.indexCast arg13
  let c1_i32_368 : BitVec 32 := 1#32
  let v923 : Index := Scalar.indexCast c1_i32_368
  let c112_369 : Index := 112#32
  ![v922.toNat, 1, 112]
def k0_off630 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v927 : Index := Scalar.indexCast arg13
  let c2_i32_370 : BitVec 32 := 2#32
  let v928 : Index := Scalar.indexCast c2_i32_370
  let c112_371 : Index := 112#32
  ![v927.toNat, 2, 112]
def k0_off631 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v932 : Index := Scalar.indexCast arg13
  let c3_i32_372 : BitVec 32 := 3#32
  let v933 : Index := Scalar.indexCast c3_i32_372
  let c112_373 : Index := 112#32
  ![v932.toNat, 3, 112]
def k0_off632 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v937 : Index := Scalar.indexCast arg13
  let c4_i32_374 : BitVec 32 := 4#32
  let v938 : Index := Scalar.indexCast c4_i32_374
  let c112_375 : Index := 112#32
  ![v937.toNat, 4, 112]
def k0_off633 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v942 : Index := Scalar.indexCast arg13
  let c5_i32_376 : BitVec 32 := 5#32
  let v943 : Index := Scalar.indexCast c5_i32_376
  let c112_377 : Index := 112#32
  ![v942.toNat, 5, 112]
def k0_off634 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v947 : Index := Scalar.indexCast arg13
  let c6_i32_378 : BitVec 32 := 6#32
  let v948 : Index := Scalar.indexCast c6_i32_378
  let c112_379 : Index := 112#32
  ![v947.toNat, 6, 112]
def k0_off635 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v952 : Index := Scalar.indexCast arg13
  let c7_i32_380 : BitVec 32 := 7#32
  let v953 : Index := Scalar.indexCast c7_i32_380
  let c112_381 : Index := 112#32
  ![v952.toNat, 7, 112]
def k0_off636 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v957 : Index := Scalar.indexCast arg13
  let c8_i32_382 : BitVec 32 := 8#32
  let v958 : Index := Scalar.indexCast c8_i32_382
  let c112_383 : Index := 112#32
  ![v957.toNat, 8, 112]
def k0_off637 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v962 : Index := Scalar.indexCast arg13
  let c9_i32_384 : BitVec 32 := 9#32
  let v963 : Index := Scalar.indexCast c9_i32_384
  let c112_385 : Index := 112#32
  ![v962.toNat, 9, 112]
def k0_off638 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v967 : Index := Scalar.indexCast arg13
  let c10_i32_386 : BitVec 32 := 10#32
  let v968 : Index := Scalar.indexCast c10_i32_386
  let c112_387 : Index := 112#32
  ![v967.toNat, 10, 112]
def k0_off639 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v972 : Index := Scalar.indexCast arg13
  let c11_i32_388 : BitVec 32 := 11#32
  let v973 : Index := Scalar.indexCast c11_i32_388
  let c112_389 : Index := 112#32
  ![v972.toNat, 11, 112]
def k0_off640 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v977 : Index := Scalar.indexCast arg13
  let c12_i32_390 : BitVec 32 := 12#32
  let v978 : Index := Scalar.indexCast c12_i32_390
  let c112_391 : Index := 112#32
  ![v977.toNat, 12, 112]
def k0_off641 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v982 : Index := Scalar.indexCast arg13
  let c13_i32_392 : BitVec 32 := 13#32
  let v983 : Index := Scalar.indexCast c13_i32_392
  let c112_393 : Index := 112#32
  ![v982.toNat, 13, 112]
def k0_off642 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v987 : Index := Scalar.indexCast arg13
  let c14_i32_394 : BitVec 32 := 14#32
  let v988 : Index := Scalar.indexCast c14_i32_394
  let c112_395 : Index := 112#32
  ![v987.toNat, 14, 112]
def k0_off643 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v992 : Index := Scalar.indexCast arg13
  let c15_i32_396 : BitVec 32 := 15#32
  let v993 : Index := Scalar.indexCast c15_i32_396
  let c112_397 : Index := 112#32
  ![v992.toNat, 15, 112]
def k0_off644 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v1009 : Index := Scalar.indexCast arg13
  let c0_i32_398 : BitVec 32 := 0#32
  let v1010 : Index := Scalar.indexCast c0_i32_398
  let c112_399 : Index := 112#32
  ![v1009.toNat, 0, 112]
def k0_off645 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v1016 : Index := Scalar.indexCast arg13
  let c1_i32_401 : BitVec 32 := 1#32
  let v1017 : Index := Scalar.indexCast c1_i32_401
  let c112_402 : Index := 112#32
  ![v1016.toNat, 1, 112]
def k0_off646 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v1023 : Index := Scalar.indexCast arg13
  let c2_i32_404 : BitVec 32 := 2#32
  let v1024 : Index := Scalar.indexCast c2_i32_404
  let c112_405 : Index := 112#32
  ![v1023.toNat, 2, 112]
def k0_off647 (k0_t6 : Fin k0_t6_loop.trips) : Fin 3 → Nat :=
  let c0_i32_75 : BitVec 32 := 0#32
  let c1_i32_77 : BitVec 32 := 1#32
  let arg13 : BitVec 32 := Scf.iv c0_i32_75 c1_i32_77 k0_t6
  let v1030 : Index := Scalar.indexCast arg13
  let c3_i32_407 : BitVec 32 := 3#32
  let v1031 : Index := Scalar.indexCast c3_i32_407
  let c112_408 : Index := 112#32
  ![v1030.toNat, 3, 112]
def k0_off648 (i : grid0.Coords) (k0_t4 : Fin (k0_t4_loop i).trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_64 : BitVec 32 := 2#32
  let c0_i32_26 : BitVec 32 := 0#32
  let c256_i32 : BitVec 32 := 256#32
  let v2 : BitVec 32 := Scalar.subi c256_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let v49 : BitVec 32 := Scalar.subi v38 c0_i32_26
  let c1_i32_27 : BitVec 32 := 1#32
  let v51 : BitVec 32 := Scalar.divsi v49 c1_i32_27
  let v52 : BitVec 32 := Scalar.muli v51 c1_i32_27
  let v53 : BitVec 32 := Scalar.addi c0_i32_26 v52
  let c1_i32_29 : BitVec 32 := 1#32
  let arg12 : BitVec 32 := Scf.iv v53 c1_i32_29 k0_t4
  let v74 : BitVec 32 := Scalar.muli c2_i32_64 arg12
  let c1_i32_65 : BitVec 32 := 1#32
  let v75 : BitVec 32 := Scalar.addi v74 c1_i32_65
  let c32_i32_79 : BitVec 32 := 32#32
  let v82 : BitVec 32 := Scalar.muli v75 c32_i32_79
  let v83 : BitVec 32 := Scalar.addi v1 v82
  let c16_i32_80 : BitVec 32 := 16#32
  let v84 : BitVec 32 := Scalar.muli v83 c16_i32_80
  let c0_i32_81 : BitVec 32 := 0#32
  let c0_i32_82 : BitVec 32 := 0#32
  ![v84.toNat, 0, 0]
def k0_cond8 (i : grid0.Coords) (k0_t4 : Fin (k0_t4_loop i).trips) : BitVec 1 :=
  let c2_i32_64 : BitVec 32 := 2#32
  let c0_i32_26 : BitVec 32 := 0#32
  let c256_i32 : BitVec 32 := 256#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v2 : BitVec 32 := Scalar.subi c256_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let v49 : BitVec 32 := Scalar.subi v38 c0_i32_26
  let c1_i32_27 : BitVec 32 := 1#32
  let v51 : BitVec 32 := Scalar.divsi v49 c1_i32_27
  let v52 : BitVec 32 := Scalar.muli v51 c1_i32_27
  let v53 : BitVec 32 := Scalar.addi c0_i32_26 v52
  let c1_i32_29 : BitVec 32 := 1#32
  let arg12 : BitVec 32 := Scf.iv v53 c1_i32_29 k0_t4
  let v74 : BitVec 32 := Scalar.muli c2_i32_64 arg12
  let c1_i32_65 : BitVec 32 := 1#32
  let v75 : BitVec 32 := Scalar.addi v74 c1_i32_65
  let c2_i32_85 : BitVec 32 := 2#32
  let v87 : BitVec 32 := Scalar.addi v75 c2_i32_85
  let v88 : BitVec 1 := Scalar.cmpi .slt v87 v21
  let v89 : BitVec 32 := Scalar.extui v88
  let c0_i32_86 : BitVec 32 := 0#32
  let v90 : BitVec 1 := Scalar.cmpi .ne v89 c0_i32_86
  v90

def k0_off649 (i : grid0.Coords) (k0_t4 : Fin (k0_t4_loop i).trips) : Fin 3 → Nat :=
  let c5904_i32_90 : BitVec 32 := 5904#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_64 : BitVec 32 := 2#32
  let c0_i32_26 : BitVec 32 := 0#32
  let c256_i32 : BitVec 32 := 256#32
  let v2 : BitVec 32 := Scalar.subi c256_i32 v1
  let c32_i32 : BitVec 32 := 32#32
  let v3 : BitVec 32 := Scalar.addi v2 c32_i32
  let c1_i32 : BitVec 32 := 1#32
  let v4 : BitVec 32 := Scalar.subi v3 c1_i32
  let c0_i32 : BitVec 32 := 0#32
  let v6 : BitVec 1 := Scalar.cmpi .sgt v4 c0_i32
  let v7 : BitVec 32 := Scalar.extui v6
  let c0_i32_1 : BitVec 32 := 0#32
  let v8 : BitVec 1 := Scalar.cmpi .slt v4 c0_i32_1
  let v9 : BitVec 32 := Scalar.extui v8
  let v10 : BitVec 32 := Scalar.subi v7 v9
  let c32_i32_0 : BitVec 32 := 32#32
  let c0_i32_2 : BitVec 32 := 0#32
  let v11 : BitVec 1 := Scalar.cmpi .sgt c32_i32_0 c0_i32_2
  let v12 : BitVec 32 := Scalar.extui v11
  let c0_i32_3 : BitVec 32 := 0#32
  let v13 : BitVec 1 := Scalar.cmpi .slt c32_i32_0 c0_i32_3
  let v14 : BitVec 32 := Scalar.extui v13
  let v15 : BitVec 32 := Scalar.subi v12 v14
  let v16 : BitVec 1 := Scalar.cmpi .ne v10 v15
  let v17 : BitVec 32 := Scalar.remsi v4 c32_i32_0
  let c0_i32_4 : BitVec 32 := 0#32
  let v18 : BitVec 1 := Scalar.cmpi .ne v17 c0_i32_4
  let v19 : BitVec 1 := Scalar.andi v16 v18
  let v5 : BitVec 32 := Scalar.divsi v4 c32_i32_0
  let c1_i32_5 : BitVec 32 := 1#32
  let v20 : BitVec 32 := Scalar.subi v5 c1_i32_5
  let v21 : BitVec 32 := Scalar.select v19 v20 v5
  let c0_i32_7 : BitVec 32 := 0#32
  let v23 : BitVec 1 := Scalar.cmpi .sgt v21 c0_i32_7
  let v24 : BitVec 32 := Scalar.extui v23
  let c0_i32_8 : BitVec 32 := 0#32
  let v25 : BitVec 1 := Scalar.cmpi .slt v21 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v21 c2_i32_6
  let c0_i32_11 : BitVec 32 := 0#32
  let v35 : BitVec 1 := Scalar.cmpi .ne v34 c0_i32_11
  let v36 : BitVec 1 := Scalar.andi v33 v35
  let v22 : BitVec 32 := Scalar.divsi v21 c2_i32_6
  let c1_i32_12 : BitVec 32 := 1#32
  let v37 : BitVec 32 := Scalar.subi v22 c1_i32_12
  let v38 : BitVec 32 := Scalar.select v36 v37 v22
  let v49 : BitVec 32 := Scalar.subi v38 c0_i32_26
  let c1_i32_27 : BitVec 32 := 1#32
  let v51 : BitVec 32 := Scalar.divsi v49 c1_i32_27
  let v52 : BitVec 32 := Scalar.muli v51 c1_i32_27
  let v53 : BitVec 32 := Scalar.addi c0_i32_26 v52
  let c1_i32_29 : BitVec 32 := 1#32
  let arg12 : BitVec 32 := Scf.iv v53 c1_i32_29 k0_t4
  let v74 : BitVec 32 := Scalar.muli c2_i32_64 arg12
  let c1_i32_65 : BitVec 32 := 1#32
  let v75 : BitVec 32 := Scalar.addi v74 c1_i32_65
  let c2_i32_87 : BitVec 32 := 2#32
  let v91 : BitVec 32 := Scalar.addi v75 c2_i32_87
  let c32_i32_88 : BitVec 32 := 32#32
  let v92 : BitVec 32 := Scalar.muli v91 c32_i32_88
  let v93 : BitVec 32 := Scalar.addi v1 v92
  let c16_i32_89 : BitVec 32 := 16#32
  let v94 : BitVec 32 := Scalar.muli v93 c16_i32_89
  let v95 : BitVec 32 := Scalar.addi c5904_i32_90 v94
  let c0_i32_91 : BitVec 32 := 0#32
  let c0_i32_92 : BitVec 32 := 0#32
  ![v95.toNat, 0, 0]
abbrev grid1 : Pipeline.Grid := ⟨1, ![6], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S984x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S984x4x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S10000x16x128_S16x16x128_0_0_0 : ∀ a, (![0, 0, 0] : Fin 3 → Nat) a + S16x16x128.size a ≤ S10000x16x128.size a
  inb_S4096x4x128_S16x4x128_0_0_0 : ∀ a, (![0, 0, 0] : Fin 3 → Nat) a + S16x4x128.size a ≤ S4096x4x128.size a
  h_S1x1x16 : 0 < S1x1x16.numel
  shapeCasts_S1x1x16_S16 : S1x1x16.ShapeCasts S16
  shapeCasts_S16_S1x1x16 : S16.ShapeCasts S1x1x16
  inb_S984x16x128_S984x16x128_0_0_0 : ∀ a, (![0, 0, 0] : Fin 3 → Nat) a + S984x16x128.size a ≤ S984x16x128.size a
  h_S984x16x128 : 0 < S984x16x128.numel
  slices_S984x16x128_o0_0_0_S984x1x128 : S984x16x128.Slices ![0, 0, 0] S984x1x128
  shapeCasts_S984x1x128_S984x128 : S984x1x128.ShapeCasts S984x128
  inb_S984x4x128_S984x1x128_0_0_0 : ∀ a, (![0, 0, 0] : Fin 3 → Nat) a + S984x1x128.size a ≤ S984x4x128.size a
  h_S984x1x128 : 0 < S984x1x128.numel
  shapeCasts_S984x128_S984x1x128 : S984x128.ShapeCasts S984x1x128
  slices_S984x16x128_o0_1_0_S984x1x128 : S984x16x128.Slices ![0, 1, 0] S984x1x128
  slices_S984x16x128_o0_2_0_S984x1x128 : S984x16x128.Slices ![0, 2, 0] S984x1x128
  slices_S984x16x128_o0_3_0_S984x1x128 : S984x16x128.Slices ![0, 3, 0] S984x1x128
  inb_S984x4x128_S984x1x128_0_1_0 : ∀ a, (![0, 1, 0] : Fin 3 → Nat) a + S984x1x128.size a ≤ S984x4x128.size a
  slices_S984x16x128_o0_4_0_S984x1x128 : S984x16x128.Slices ![0, 4, 0] S984x1x128
  slices_S984x16x128_o0_5_0_S984x1x128 : S984x16x128.Slices ![0, 5, 0] S984x1x128
  slices_S984x16x128_o0_6_0_S984x1x128 : S984x16x128.Slices ![0, 6, 0] S984x1x128
  slices_S984x16x128_o0_7_0_S984x1x128 : S984x16x128.Slices ![0, 7, 0] S984x1x128
  slices_S984x16x128_o0_8_0_S984x1x128 : S984x16x128.Slices ![0, 8, 0] S984x1x128
  inb_S984x4x128_S984x1x128_0_2_0 : ∀ a, (![0, 2, 0] : Fin 3 → Nat) a + S984x1x128.size a ≤ S984x4x128.size a
  slices_S984x16x128_o0_9_0_S984x1x128 : S984x16x128.Slices ![0, 9, 0] S984x1x128
  slices_S984x16x128_o0_10_0_S984x1x128 : S984x16x128.Slices ![0, 10, 0] S984x1x128
  slices_S984x16x128_o0_11_0_S984x1x128 : S984x16x128.Slices ![0, 11, 0] S984x1x128
  slices_S984x16x128_o0_12_0_S984x1x128 : S984x16x128.Slices ![0, 12, 0] S984x1x128
  slices_S984x16x128_o0_13_0_S984x1x128 : S984x16x128.Slices ![0, 13, 0] S984x1x128
  slices_S984x16x128_o0_14_0_S984x1x128 : S984x16x128.Slices ![0, 14, 0] S984x1x128
  slices_S984x16x128_o0_15_0_S984x1x128 : S984x16x128.Slices ![0, 15, 0] S984x1x128
  inb_S984x4x128_S984x1x128_0_3_0 : ∀ a, (![0, 3, 0] : Fin 3 → Nat) a + S984x1x128.size a ≤ S984x4x128.size a
  updateFits_S10000x4x128_S4096x4x128 : S10000x4x128.Slices (fun _ => 0) S4096x4x128
  h_S_ : 0 < S_.numel
  hcc0_scratch4 : 0 + S_.numel ≤ 8
  hcc0_scratch5 : 1 + S_.numel ≤ 8
  hcc0_scratch6 : 2 + S_.numel ≤ 8
  hcc0_scratch7 : 3 + S_.numel ≤ 8
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 2), ∀ a, (k0_off1 i (BitVec.ofNat 32 (32 * r.val))) a + S16x16x128.size a ≤ S10000x16x128.size a
  k0_t1_ok : ∀ i : grid0.Coords, (k0_t1_loop i).OK
  k0_t2_ok : k0_t2_loop.OK
  k0_off2_inb : ∀ k0_t2 : Fin k0_t2_loop.trips, ∀ a, (k0_off2 k0_t2) a + S1x1x16.size a ≤ S16x16x128.size a
  k0_off3_inb : ∀ k0_t2 : Fin k0_t2_loop.trips, ∀ a, (k0_off3 k0_t2) a + S1x1x16.size a ≤ S16x16x128.size a
  k0_off4_inb : ∀ k0_t2 : Fin k0_t2_loop.trips, ∀ a, (k0_off4 k0_t2) a + S1x1x16.size a ≤ S16x16x128.size a
  k0_off5_inb : ∀ k0_t2 : Fin k0_t2_loop.trips, ∀ a, (k0_off5 k0_t2) a + S1x1x16.size a ≤ S16x16x128.size a
  k0_off6_inb : ∀ k0_t2 : Fin k0_t2_loop.trips, ∀ a, (k0_off6 k0_t2) a + S1x1x16.size a ≤ S16x16x128.size a
  k0_off7_inb : ∀ k0_t2 : Fin k0_t2_loop.trips, ∀ a, (k0_off7 k0_t2) a + S1x1x16.size a ≤ S16x16x128.size a
  k0_off8_inb : ∀ k0_t2 : Fin k0_t2_loop.trips, ∀ a, (k0_off8 k0_t2) a + S1x1x16.size a ≤ S16x16x128.size a
  k0_off9_inb : ∀ k0_t2 : Fin k0_t2_loop.trips, ∀ a, (k0_off9 k0_t2) a + S1x1x16.size a ≤ S16x16x128.size a
  k0_off10_inb : ∀ k0_t2 : Fin k0_t2_loop.trips, ∀ a, (k0_off10 k0_t2) a + S1x1x16.size a ≤ S16x16x128.size a
  k0_off11_inb : ∀ k0_t2 : Fin k0_t2_loop.trips, ∀ a, (k0_off11 k0_t2) a + S1x1x16.size a ≤ S16x16x128.size a
  k0_off12_inb : ∀ k0_t2 : Fin k0_t2_loop.trips, ∀ a, (k0_off12 k0_t2) a + S1x1x16.size a ≤ S16x16x128.size a
  k0_off13_inb : ∀ k0_t2 : Fin k0_t2_loop.trips, ∀ a, (k0_off13 k0_t2) a + S1x1x16.size a ≤ S16x16x128.size a
  k0_off14_inb : ∀ k0_t2 : Fin k0_t2_loop.trips, ∀ a, (k0_off14 k0_t2) a + S1x1x16.size a ≤ S16x16x128.size a
  k0_off15_inb : ∀ k0_t2 : Fin k0_t2_loop.trips, ∀ a, (k0_off15 k0_t2) a + S1x1x16.size a ≤ S16x16x128.size a
  k0_off16_inb : ∀ k0_t2 : Fin k0_t2_loop.trips, ∀ a, (k0_off16 k0_t2) a + S1x1x16.size a ≤ S16x16x128.size a
  k0_off17_inb : ∀ k0_t2 : Fin k0_t2_loop.trips, ∀ a, (k0_off17 k0_t2) a + S1x1x16.size a ≤ S16x16x128.size a
  k0_off18_inb : ∀ k0_t2 : Fin k0_t2_loop.trips, ∀ a, (k0_off18 k0_t2) a + S1x1x16.size a ≤ S16x4x128.size a
  k0_off19_inb : ∀ k0_t2 : Fin k0_t2_loop.trips, ∀ a, (k0_off19 k0_t2) a + S1x1x16.size a ≤ S16x4x128.size a
  k0_off20_inb : ∀ k0_t2 : Fin k0_t2_loop.trips, ∀ a, (k0_off20 k0_t2) a + S1x1x16.size a ≤ S16x4x128.size a
  k0_off21_inb : ∀ k0_t2 : Fin k0_t2_loop.trips, ∀ a, (k0_off21 k0_t2) a + S1x1x16.size a ≤ S16x4x128.size a
  k0_off22_inb : ∀ k0_t2 : Fin k0_t2_loop.trips, ∀ a, (k0_off22 k0_t2) a + S1x1x16.size a ≤ S16x16x128.size a
  k0_off23_inb : ∀ k0_t2 : Fin k0_t2_loop.trips, ∀ a, (k0_off23 k0_t2) a + S1x1x16.size a ≤ S16x16x128.size a
  k0_off24_inb : ∀ k0_t2 : Fin k0_t2_loop.trips, ∀ a, (k0_off24 k0_t2) a + S1x1x16.size a ≤ S16x16x128.size a
  k0_off25_inb : ∀ k0_t2 : Fin k0_t2_loop.trips, ∀ a, (k0_off25 k0_t2) a + S1x1x16.size a ≤ S16x16x128.size a
  k0_off26_inb : ∀ k0_t2 : Fin k0_t2_loop.trips, ∀ a, (k0_off26 k0_t2) a + S1x1x16.size a ≤ S16x16x128.size a
  k0_off27_inb : ∀ k0_t2 : Fin k0_t2_loop.trips, ∀ a, (k0_off27 k0_t2) a + S1x1x16.size a ≤ S16x16x128.size a
  k0_off28_inb : ∀ k0_t2 : Fin k0_t2_loop.trips, ∀ a, (k0_off28 k0_t2) a + S1x1x16.size a ≤ S16x16x128.size a
  k0_off29_inb : ∀ k0_t2 : Fin k0_t2_loop.trips, ∀ a, (k0_off29 k0_t2) a + S1x1x16.size a ≤ S16x16x128.size a
  k0_off30_inb : ∀ k0_t2 : Fin k0_t2_loop.trips, ∀ a, (k0_off30 k0_t2) a + S1x1x16.size a ≤ S16x16x128.size a
  k0_off31_inb : ∀ k0_t2 : Fin k0_t2_loop.trips, ∀ a, (k0_off31 k0_t2) a + S1x1x16.size a ≤ S16x16x128.size a
  k0_off32_inb : ∀ k0_t2 : Fin k0_t2_loop.trips, ∀ a, (k0_off32 k0_t2) a + S1x1x16.size a ≤ S16x16x128.size a
  k0_off33_inb : ∀ k0_t2 : Fin k0_t2_loop.trips, ∀ a, (k0_off33 k0_t2) a + S1x1x16.size a ≤ S16x16x128.size a
  k0_off34_inb : ∀ k0_t2 : Fin k0_t2_loop.trips, ∀ a, (k0_off34 k0_t2) a + S1x1x16.size a ≤ S16x16x128.size a
  k0_off35_inb : ∀ k0_t2 : Fin k0_t2_loop.trips, ∀ a, (k0_off35 k0_t2) a + S1x1x16.size a ≤ S16x16x128.size a
  k0_off36_inb : ∀ k0_t2 : Fin k0_t2_loop.trips, ∀ a, (k0_off36 k0_t2) a + S1x1x16.size a ≤ S16x16x128.size a
  k0_off37_inb : ∀ k0_t2 : Fin k0_t2_loop.trips, ∀ a, (k0_off37 k0_t2) a + S1x1x16.size a ≤ S16x16x128.size a
  k0_off38_inb : ∀ k0_t2 : Fin k0_t2_loop.trips, ∀ a, (k0_off38 k0_t2) a + S1x1x16.size a ≤ S16x4x128.size a
  k0_off39_inb : ∀ k0_t2 : Fin k0_t2_loop.trips, ∀ a, (k0_off39 k0_t2) a + S1x1x16.size a ≤ S16x4x128.size a
  k0_off40_inb : ∀ k0_t2 : Fin k0_t2_loop.trips, ∀ a, (k0_off40 k0_t2) a + S1x1x16.size a ≤ S16x4x128.size a
  k0_off41_inb : ∀ k0_t2 : Fin k0_t2_loop.trips, ∀ a, (k0_off41 k0_t2) a + S1x1x16.size a ≤ S16x4x128.size a
  k0_off42_inb : ∀ k0_t2 : Fin k0_t2_loop.trips, ∀ a, (k0_off42 k0_t2) a + S1x1x16.size a ≤ S16x16x128.size a
  k0_off43_inb : ∀ k0_t2 : Fin k0_t2_loop.trips, ∀ a, (k0_off43 k0_t2) a + S1x1x16.size a ≤ S16x16x128.size a
  k0_off44_inb : ∀ k0_t2 : Fin k0_t2_loop.trips, ∀ a, (k0_off44 k0_t2) a + S1x1x16.size a ≤ S16x16x128.size a
  k0_off45_inb : ∀ k0_t2 : Fin k0_t2_loop.trips, ∀ a, (k0_off45 k0_t2) a + S1x1x16.size a ≤ S16x16x128.size a
  k0_off46_inb : ∀ k0_t2 : Fin k0_t2_loop.trips, ∀ a, (k0_off46 k0_t2) a + S1x1x16.size a ≤ S16x16x128.size a
  k0_off47_inb : ∀ k0_t2 : Fin k0_t2_loop.trips, ∀ a, (k0_off47 k0_t2) a + S1x1x16.size a ≤ S16x16x128.size a
  k0_off48_inb : ∀ k0_t2 : Fin k0_t2_loop.trips, ∀ a, (k0_off48 k0_t2) a + S1x1x16.size a ≤ S16x16x128.size a
  k0_off49_inb : ∀ k0_t2 : Fin k0_t2_loop.trips, ∀ a, (k0_off49 k0_t2) a + S1x1x16.size a ≤ S16x16x128.size a
  k0_off50_inb : ∀ k0_t2 : Fin k0_t2_loop.trips, ∀ a, (k0_off50 k0_t2) a + S1x1x16.size a ≤ S16x16x128.size a
  k0_off51_inb : ∀ k0_t2 : Fin k0_t2_loop.trips, ∀ a, (k0_off51 k0_t2) a + S1x1x16.size a ≤ S16x16x128.size a
  k0_off52_inb : ∀ k0_t2 : Fin k0_t2_loop.trips, ∀ a, (k0_off52 k0_t2) a + S1x1x16.size a ≤ S16x16x128.size a
  k0_off53_inb : ∀ k0_t2 : Fin k0_t2_loop.trips, ∀ a, (k0_off53 k0_t2) a + S1x1x16.size a ≤ S16x16x128.size a
  k0_off54_inb : ∀ k0_t2 : Fin k0_t2_loop.trips, ∀ a, (k0_off54 k0_t2) a + S1x1x16.size a ≤ S16x16x128.size a
  k0_off55_inb : ∀ k0_t2 : Fin k0_t2_loop.trips, ∀ a, (k0_off55 k0_t2) a + S1x1x16.size a ≤ S16x16x128.size a
  k0_off56_inb : ∀ k0_t2 : Fin k0_t2_loop.trips, ∀ a, (k0_off56 k0_t2) a + S1x1x16.size a ≤ S16x16x128.size a
  k0_off57_inb : ∀ k0_t2 : Fin k0_t2_loop.trips, ∀ a, (k0_off57 k0_t2) a + S1x1x16.size a ≤ S16x16x128.size a
  k0_off58_inb : ∀ k0_t2 : Fin k0_t2_loop.trips, ∀ a, (k0_off58 k0_t2) a + S1x1x16.size a ≤ S16x4x128.size a
  k0_off59_inb : ∀ k0_t2 : Fin k0_t2_loop.trips, ∀ a, (k0_off59 k0_t2) a + S1x1x16.size a ≤ S16x4x128.size a
  k0_off60_inb : ∀ k0_t2 : Fin k0_t2_loop.trips, ∀ a, (k0_off60 k0_t2) a + S1x1x16.size a ≤ S16x4x128.size a
  k0_off61_inb : ∀ k0_t2 : Fin k0_t2_loop.trips, ∀ a, (k0_off61 k0_t2) a + S1x1x16.size a ≤ S16x4x128.size a
  k0_off62_inb : ∀ k0_t2 : Fin k0_t2_loop.trips, ∀ a, (k0_off62 k0_t2) a + S1x1x16.size a ≤ S16x16x128.size a
  k0_off63_inb : ∀ k0_t2 : Fin k0_t2_loop.trips, ∀ a, (k0_off63 k0_t2) a + S1x1x16.size a ≤ S16x16x128.size a
  k0_off64_inb : ∀ k0_t2 : Fin k0_t2_loop.trips, ∀ a, (k0_off64 k0_t2) a + S1x1x16.size a ≤ S16x16x128.size a
  k0_off65_inb : ∀ k0_t2 : Fin k0_t2_loop.trips, ∀ a, (k0_off65 k0_t2) a + S1x1x16.size a ≤ S16x16x128.size a
  k0_off66_inb : ∀ k0_t2 : Fin k0_t2_loop.trips, ∀ a, (k0_off66 k0_t2) a + S1x1x16.size a ≤ S16x16x128.size a
  k0_off67_inb : ∀ k0_t2 : Fin k0_t2_loop.trips, ∀ a, (k0_off67 k0_t2) a + S1x1x16.size a ≤ S16x16x128.size a
  k0_off68_inb : ∀ k0_t2 : Fin k0_t2_loop.trips, ∀ a, (k0_off68 k0_t2) a + S1x1x16.size a ≤ S16x16x128.size a
  k0_off69_inb : ∀ k0_t2 : Fin k0_t2_loop.trips, ∀ a, (k0_off69 k0_t2) a + S1x1x16.size a ≤ S16x16x128.size a
  k0_off70_inb : ∀ k0_t2 : Fin k0_t2_loop.trips, ∀ a, (k0_off70 k0_t2) a + S1x1x16.size a ≤ S16x16x128.size a
  k0_off71_inb : ∀ k0_t2 : Fin k0_t2_loop.trips, ∀ a, (k0_off71 k0_t2) a + S1x1x16.size a ≤ S16x16x128.size a
  k0_off72_inb : ∀ k0_t2 : Fin k0_t2_loop.trips, ∀ a, (k0_off72 k0_t2) a + S1x1x16.size a ≤ S16x16x128.size a
  k0_off73_inb : ∀ k0_t2 : Fin k0_t2_loop.trips, ∀ a, (k0_off73 k0_t2) a + S1x1x16.size a ≤ S16x16x128.size a
  k0_off74_inb : ∀ k0_t2 : Fin k0_t2_loop.trips, ∀ a, (k0_off74 k0_t2) a + S1x1x16.size a ≤ S16x16x128.size a
  k0_off75_inb : ∀ k0_t2 : Fin k0_t2_loop.trips, ∀ a, (k0_off75 k0_t2) a + S1x1x16.size a ≤ S16x16x128.size a
  k0_off76_inb : ∀ k0_t2 : Fin k0_t2_loop.trips, ∀ a, (k0_off76 k0_t2) a + S1x1x16.size a ≤ S16x16x128.size a
  k0_off77_inb : ∀ k0_t2 : Fin k0_t2_loop.trips, ∀ a, (k0_off77 k0_t2) a + S1x1x16.size a ≤ S16x16x128.size a
  k0_off78_inb : ∀ k0_t2 : Fin k0_t2_loop.trips, ∀ a, (k0_off78 k0_t2) a + S1x1x16.size a ≤ S16x4x128.size a
  k0_off79_inb : ∀ k0_t2 : Fin k0_t2_loop.trips, ∀ a, (k0_off79 k0_t2) a + S1x1x16.size a ≤ S16x4x128.size a
  k0_off80_inb : ∀ k0_t2 : Fin k0_t2_loop.trips, ∀ a, (k0_off80 k0_t2) a + S1x1x16.size a ≤ S16x4x128.size a
  k0_off81_inb : ∀ k0_t2 : Fin k0_t2_loop.trips, ∀ a, (k0_off81 k0_t2) a + S1x1x16.size a ≤ S16x4x128.size a
  k0_off82_inb : ∀ k0_t2 : Fin k0_t2_loop.trips, ∀ a, (k0_off82 k0_t2) a + S1x1x16.size a ≤ S16x16x128.size a
  k0_off83_inb : ∀ k0_t2 : Fin k0_t2_loop.trips, ∀ a, (k0_off83 k0_t2) a + S1x1x16.size a ≤ S16x16x128.size a
  k0_off84_inb : ∀ k0_t2 : Fin k0_t2_loop.trips, ∀ a, (k0_off84 k0_t2) a + S1x1x16.size a ≤ S16x16x128.size a
  k0_off85_inb : ∀ k0_t2 : Fin k0_t2_loop.trips, ∀ a, (k0_off85 k0_t2) a + S1x1x16.size a ≤ S16x16x128.size a
  k0_off86_inb : ∀ k0_t2 : Fin k0_t2_loop.trips, ∀ a, (k0_off86 k0_t2) a + S1x1x16.size a ≤ S16x16x128.size a
  k0_off87_inb : ∀ k0_t2 : Fin k0_t2_loop.trips, ∀ a, (k0_off87 k0_t2) a + S1x1x16.size a ≤ S16x16x128.size a
  k0_off88_inb : ∀ k0_t2 : Fin k0_t2_loop.trips, ∀ a, (k0_off88 k0_t2) a + S1x1x16.size a ≤ S16x16x128.size a
  k0_off89_inb : ∀ k0_t2 : Fin k0_t2_loop.trips, ∀ a, (k0_off89 k0_t2) a + S1x1x16.size a ≤ S16x16x128.size a
  k0_off90_inb : ∀ k0_t2 : Fin k0_t2_loop.trips, ∀ a, (k0_off90 k0_t2) a + S1x1x16.size a ≤ S16x16x128.size a
  k0_off91_inb : ∀ k0_t2 : Fin k0_t2_loop.trips, ∀ a, (k0_off91 k0_t2) a + S1x1x16.size a ≤ S16x16x128.size a
  k0_off92_inb : ∀ k0_t2 : Fin k0_t2_loop.trips, ∀ a, (k0_off92 k0_t2) a + S1x1x16.size a ≤ S16x16x128.size a
  k0_off93_inb : ∀ k0_t2 : Fin k0_t2_loop.trips, ∀ a, (k0_off93 k0_t2) a + S1x1x16.size a ≤ S16x16x128.size a
  k0_off94_inb : ∀ k0_t2 : Fin k0_t2_loop.trips, ∀ a, (k0_off94 k0_t2) a + S1x1x16.size a ≤ S16x16x128.size a
  k0_off95_inb : ∀ k0_t2 : Fin k0_t2_loop.trips, ∀ a, (k0_off95 k0_t2) a + S1x1x16.size a ≤ S16x16x128.size a
  k0_off96_inb : ∀ k0_t2 : Fin k0_t2_loop.trips, ∀ a, (k0_off96 k0_t2) a + S1x1x16.size a ≤ S16x16x128.size a
  k0_off97_inb : ∀ k0_t2 : Fin k0_t2_loop.trips, ∀ a, (k0_off97 k0_t2) a + S1x1x16.size a ≤ S16x16x128.size a
  k0_off98_inb : ∀ k0_t2 : Fin k0_t2_loop.trips, ∀ a, (k0_off98 k0_t2) a + S1x1x16.size a ≤ S16x4x128.size a
  k0_off99_inb : ∀ k0_t2 : Fin k0_t2_loop.trips, ∀ a, (k0_off99 k0_t2) a + S1x1x16.size a ≤ S16x4x128.size a
  k0_off100_inb : ∀ k0_t2 : Fin k0_t2_loop.trips, ∀ a, (k0_off100 k0_t2) a + S1x1x16.size a ≤ S16x4x128.size a
  k0_off101_inb : ∀ k0_t2 : Fin k0_t2_loop.trips, ∀ a, (k0_off101 k0_t2) a + S1x1x16.size a ≤ S16x4x128.size a
  k0_off102_inb : ∀ k0_t2 : Fin k0_t2_loop.trips, ∀ a, (k0_off102 k0_t2) a + S1x1x16.size a ≤ S16x16x128.size a
  k0_off103_inb : ∀ k0_t2 : Fin k0_t2_loop.trips, ∀ a, (k0_off103 k0_t2) a + S1x1x16.size a ≤ S16x16x128.size a
  k0_off104_inb : ∀ k0_t2 : Fin k0_t2_loop.trips, ∀ a, (k0_off104 k0_t2) a + S1x1x16.size a ≤ S16x16x128.size a
  k0_off105_inb : ∀ k0_t2 : Fin k0_t2_loop.trips, ∀ a, (k0_off105 k0_t2) a + S1x1x16.size a ≤ S16x16x128.size a
  k0_off106_inb : ∀ k0_t2 : Fin k0_t2_loop.trips, ∀ a, (k0_off106 k0_t2) a + S1x1x16.size a ≤ S16x16x128.size a
  k0_off107_inb : ∀ k0_t2 : Fin k0_t2_loop.trips, ∀ a, (k0_off107 k0_t2) a + S1x1x16.size a ≤ S16x16x128.size a
  k0_off108_inb : ∀ k0_t2 : Fin k0_t2_loop.trips, ∀ a, (k0_off108 k0_t2) a + S1x1x16.size a ≤ S16x16x128.size a
  k0_off109_inb : ∀ k0_t2 : Fin k0_t2_loop.trips, ∀ a, (k0_off109 k0_t2) a + S1x1x16.size a ≤ S16x16x128.size a
  k0_off110_inb : ∀ k0_t2 : Fin k0_t2_loop.trips, ∀ a, (k0_off110 k0_t2) a + S1x1x16.size a ≤ S16x16x128.size a
  k0_off111_inb : ∀ k0_t2 : Fin k0_t2_loop.trips, ∀ a, (k0_off111 k0_t2) a + S1x1x16.size a ≤ S16x16x128.size a
  k0_off112_inb : ∀ k0_t2 : Fin k0_t2_loop.trips, ∀ a, (k0_off112 k0_t2) a + S1x1x16.size a ≤ S16x16x128.size a
  k0_off113_inb : ∀ k0_t2 : Fin k0_t2_loop.trips, ∀ a, (k0_off113 k0_t2) a + S1x1x16.size a ≤ S16x16x128.size a
  k0_off114_inb : ∀ k0_t2 : Fin k0_t2_loop.trips, ∀ a, (k0_off114 k0_t2) a + S1x1x16.size a ≤ S16x16x128.size a
  k0_off115_inb : ∀ k0_t2 : Fin k0_t2_loop.trips, ∀ a, (k0_off115 k0_t2) a + S1x1x16.size a ≤ S16x16x128.size a
  k0_off116_inb : ∀ k0_t2 : Fin k0_t2_loop.trips, ∀ a, (k0_off116 k0_t2) a + S1x1x16.size a ≤ S16x16x128.size a
  k0_off117_inb : ∀ k0_t2 : Fin k0_t2_loop.trips, ∀ a, (k0_off117 k0_t2) a + S1x1x16.size a ≤ S16x16x128.size a
  k0_off118_inb : ∀ k0_t2 : Fin k0_t2_loop.trips, ∀ a, (k0_off118 k0_t2) a + S1x1x16.size a ≤ S16x4x128.size a
  k0_off119_inb : ∀ k0_t2 : Fin k0_t2_loop.trips, ∀ a, (k0_off119 k0_t2) a + S1x1x16.size a ≤ S16x4x128.size a
  k0_off120_inb : ∀ k0_t2 : Fin k0_t2_loop.trips, ∀ a, (k0_off120 k0_t2) a + S1x1x16.size a ≤ S16x4x128.size a
  k0_off121_inb : ∀ k0_t2 : Fin k0_t2_loop.trips, ∀ a, (k0_off121 k0_t2) a + S1x1x16.size a ≤ S16x4x128.size a
  k0_off122_inb : ∀ k0_t2 : Fin k0_t2_loop.trips, ∀ a, (k0_off122 k0_t2) a + S1x1x16.size a ≤ S16x16x128.size a
  k0_off123_inb : ∀ k0_t2 : Fin k0_t2_loop.trips, ∀ a, (k0_off123 k0_t2) a + S1x1x16.size a ≤ S16x16x128.size a
  k0_off124_inb : ∀ k0_t2 : Fin k0_t2_loop.trips, ∀ a, (k0_off124 k0_t2) a + S1x1x16.size a ≤ S16x16x128.size a
  k0_off125_inb : ∀ k0_t2 : Fin k0_t2_loop.trips, ∀ a, (k0_off125 k0_t2) a + S1x1x16.size a ≤ S16x16x128.size a
  k0_off126_inb : ∀ k0_t2 : Fin k0_t2_loop.trips, ∀ a, (k0_off126 k0_t2) a + S1x1x16.size a ≤ S16x16x128.size a
  k0_off127_inb : ∀ k0_t2 : Fin k0_t2_loop.trips, ∀ a, (k0_off127 k0_t2) a + S1x1x16.size a ≤ S16x16x128.size a
  k0_off128_inb : ∀ k0_t2 : Fin k0_t2_loop.trips, ∀ a, (k0_off128 k0_t2) a + S1x1x16.size a ≤ S16x16x128.size a
  k0_off129_inb : ∀ k0_t2 : Fin k0_t2_loop.trips, ∀ a, (k0_off129 k0_t2) a + S1x1x16.size a ≤ S16x16x128.size a
  k0_off130_inb : ∀ k0_t2 : Fin k0_t2_loop.trips, ∀ a, (k0_off130 k0_t2) a + S1x1x16.size a ≤ S16x16x128.size a
  k0_off131_inb : ∀ k0_t2 : Fin k0_t2_loop.trips, ∀ a, (k0_off131 k0_t2) a + S1x1x16.size a ≤ S16x16x128.size a
  k0_off132_inb : ∀ k0_t2 : Fin k0_t2_loop.trips, ∀ a, (k0_off132 k0_t2) a + S1x1x16.size a ≤ S16x16x128.size a
  k0_off133_inb : ∀ k0_t2 : Fin k0_t2_loop.trips, ∀ a, (k0_off133 k0_t2) a + S1x1x16.size a ≤ S16x16x128.size a
  k0_off134_inb : ∀ k0_t2 : Fin k0_t2_loop.trips, ∀ a, (k0_off134 k0_t2) a + S1x1x16.size a ≤ S16x16x128.size a
  k0_off135_inb : ∀ k0_t2 : Fin k0_t2_loop.trips, ∀ a, (k0_off135 k0_t2) a + S1x1x16.size a ≤ S16x16x128.size a
  k0_off136_inb : ∀ k0_t2 : Fin k0_t2_loop.trips, ∀ a, (k0_off136 k0_t2) a + S1x1x16.size a ≤ S16x16x128.size a
  k0_off137_inb : ∀ k0_t2 : Fin k0_t2_loop.trips, ∀ a, (k0_off137 k0_t2) a + S1x1x16.size a ≤ S16x16x128.size a
  k0_off138_inb : ∀ k0_t2 : Fin k0_t2_loop.trips, ∀ a, (k0_off138 k0_t2) a + S1x1x16.size a ≤ S16x4x128.size a
  k0_off139_inb : ∀ k0_t2 : Fin k0_t2_loop.trips, ∀ a, (k0_off139 k0_t2) a + S1x1x16.size a ≤ S16x4x128.size a
  k0_off140_inb : ∀ k0_t2 : Fin k0_t2_loop.trips, ∀ a, (k0_off140 k0_t2) a + S1x1x16.size a ≤ S16x4x128.size a
  k0_off141_inb : ∀ k0_t2 : Fin k0_t2_loop.trips, ∀ a, (k0_off141 k0_t2) a + S1x1x16.size a ≤ S16x4x128.size a
  k0_off142_inb : ∀ k0_t2 : Fin k0_t2_loop.trips, ∀ a, (k0_off142 k0_t2) a + S1x1x16.size a ≤ S16x16x128.size a
  k0_off143_inb : ∀ k0_t2 : Fin k0_t2_loop.trips, ∀ a, (k0_off143 k0_t2) a + S1x1x16.size a ≤ S16x16x128.size a
  k0_off144_inb : ∀ k0_t2 : Fin k0_t2_loop.trips, ∀ a, (k0_off144 k0_t2) a + S1x1x16.size a ≤ S16x16x128.size a
  k0_off145_inb : ∀ k0_t2 : Fin k0_t2_loop.trips, ∀ a, (k0_off145 k0_t2) a + S1x1x16.size a ≤ S16x16x128.size a
  k0_off146_inb : ∀ k0_t2 : Fin k0_t2_loop.trips, ∀ a, (k0_off146 k0_t2) a + S1x1x16.size a ≤ S16x16x128.size a
  k0_off147_inb : ∀ k0_t2 : Fin k0_t2_loop.trips, ∀ a, (k0_off147 k0_t2) a + S1x1x16.size a ≤ S16x16x128.size a
  k0_off148_inb : ∀ k0_t2 : Fin k0_t2_loop.trips, ∀ a, (k0_off148 k0_t2) a + S1x1x16.size a ≤ S16x16x128.size a
  k0_off149_inb : ∀ k0_t2 : Fin k0_t2_loop.trips, ∀ a, (k0_off149 k0_t2) a + S1x1x16.size a ≤ S16x16x128.size a
  k0_off150_inb : ∀ k0_t2 : Fin k0_t2_loop.trips, ∀ a, (k0_off150 k0_t2) a + S1x1x16.size a ≤ S16x16x128.size a
  k0_off151_inb : ∀ k0_t2 : Fin k0_t2_loop.trips, ∀ a, (k0_off151 k0_t2) a + S1x1x16.size a ≤ S16x16x128.size a
  k0_off152_inb : ∀ k0_t2 : Fin k0_t2_loop.trips, ∀ a, (k0_off152 k0_t2) a + S1x1x16.size a ≤ S16x16x128.size a
  k0_off153_inb : ∀ k0_t2 : Fin k0_t2_loop.trips, ∀ a, (k0_off153 k0_t2) a + S1x1x16.size a ≤ S16x16x128.size a
  k0_off154_inb : ∀ k0_t2 : Fin k0_t2_loop.trips, ∀ a, (k0_off154 k0_t2) a + S1x1x16.size a ≤ S16x16x128.size a
  k0_off155_inb : ∀ k0_t2 : Fin k0_t2_loop.trips, ∀ a, (k0_off155 k0_t2) a + S1x1x16.size a ≤ S16x16x128.size a
  k0_off156_inb : ∀ k0_t2 : Fin k0_t2_loop.trips, ∀ a, (k0_off156 k0_t2) a + S1x1x16.size a ≤ S16x16x128.size a
  k0_off157_inb : ∀ k0_t2 : Fin k0_t2_loop.trips, ∀ a, (k0_off157 k0_t2) a + S1x1x16.size a ≤ S16x16x128.size a
  k0_off158_inb : ∀ k0_t2 : Fin k0_t2_loop.trips, ∀ a, (k0_off158 k0_t2) a + S1x1x16.size a ≤ S16x4x128.size a
  k0_off159_inb : ∀ k0_t2 : Fin k0_t2_loop.trips, ∀ a, (k0_off159 k0_t2) a + S1x1x16.size a ≤ S16x4x128.size a
  k0_off160_inb : ∀ k0_t2 : Fin k0_t2_loop.trips, ∀ a, (k0_off160 k0_t2) a + S1x1x16.size a ≤ S16x4x128.size a
  k0_off161_inb : ∀ k0_t2 : Fin k0_t2_loop.trips, ∀ a, (k0_off161 k0_t2) a + S1x1x16.size a ≤ S16x4x128.size a
  k0_off162_inb : ∀ (i : grid0.Coords) (k0_t1 : Fin (k0_t1_loop i).trips), ∀ a, (k0_off162 i k0_t1) a + S16x4x128.size a ≤ S4096x4x128.size a
  k0_off163_inb : ∀ (i : grid0.Coords) (k0_t1 : Fin (k0_t1_loop i).trips), ∀ (k0_h2 : k0_cond2 i k0_t1 = 1#1), ∀ a, (k0_off163 i k0_t1) a + S16x16x128.size a ≤ S10000x16x128.size a
  k0_t3_ok : k0_t3_loop.OK
  k0_off164_inb : ∀ k0_t3 : Fin k0_t3_loop.trips, ∀ a, (k0_off164 k0_t3) a + S1x1x16.size a ≤ S16x16x128.size a
  k0_off165_inb : ∀ k0_t3 : Fin k0_t3_loop.trips, ∀ a, (k0_off165 k0_t3) a + S1x1x16.size a ≤ S16x16x128.size a
  k0_off166_inb : ∀ k0_t3 : Fin k0_t3_loop.trips, ∀ a, (k0_off166 k0_t3) a + S1x1x16.size a ≤ S16x16x128.size a
  k0_off167_inb : ∀ k0_t3 : Fin k0_t3_loop.trips, ∀ a, (k0_off167 k0_t3) a + S1x1x16.size a ≤ S16x16x128.size a
  k0_off168_inb : ∀ k0_t3 : Fin k0_t3_loop.trips, ∀ a, (k0_off168 k0_t3) a + S1x1x16.size a ≤ S16x16x128.size a
  k0_off169_inb : ∀ k0_t3 : Fin k0_t3_loop.trips, ∀ a, (k0_off169 k0_t3) a + S1x1x16.size a ≤ S16x16x128.size a
  k0_off170_inb : ∀ k0_t3 : Fin k0_t3_loop.trips, ∀ a, (k0_off170 k0_t3) a + S1x1x16.size a ≤ S16x16x128.size a
  k0_off171_inb : ∀ k0_t3 : Fin k0_t3_loop.trips, ∀ a, (k0_off171 k0_t3) a + S1x1x16.size a ≤ S16x16x128.size a
  k0_off172_inb : ∀ k0_t3 : Fin k0_t3_loop.trips, ∀ a, (k0_off172 k0_t3) a + S1x1x16.size a ≤ S16x16x128.size a
  k0_off173_inb : ∀ k0_t3 : Fin k0_t3_loop.trips, ∀ a, (k0_off173 k0_t3) a + S1x1x16.size a ≤ S16x16x128.size a
  k0_off174_inb : ∀ k0_t3 : Fin k0_t3_loop.trips, ∀ a, (k0_off174 k0_t3) a + S1x1x16.size a ≤ S16x16x128.size a
  k0_off175_inb : ∀ k0_t3 : Fin k0_t3_loop.trips, ∀ a, (k0_off175 k0_t3) a + S1x1x16.size a ≤ S16x16x128.size a
  k0_off176_inb : ∀ k0_t3 : Fin k0_t3_loop.trips, ∀ a, (k0_off176 k0_t3) a + S1x1x16.size a ≤ S16x16x128.size a
  k0_off177_inb : ∀ k0_t3 : Fin k0_t3_loop.trips, ∀ a, (k0_off177 k0_t3) a + S1x1x16.size a ≤ S16x16x128.size a
  k0_off178_inb : ∀ k0_t3 : Fin k0_t3_loop.trips, ∀ a, (k0_off178 k0_t3) a + S1x1x16.size a ≤ S16x16x128.size a
  k0_off179_inb : ∀ k0_t3 : Fin k0_t3_loop.trips, ∀ a, (k0_off179 k0_t3) a + S1x1x16.size a ≤ S16x16x128.size a
  k0_off180_inb : ∀ k0_t3 : Fin k0_t3_loop.trips, ∀ a, (k0_off180 k0_t3) a + S1x1x16.size a ≤ S16x4x128.size a
  k0_off181_inb : ∀ k0_t3 : Fin k0_t3_loop.trips, ∀ a, (k0_off181 k0_t3) a + S1x1x16.size a ≤ S16x4x128.size a
  k0_off182_inb : ∀ k0_t3 : Fin k0_t3_loop.trips, ∀ a, (k0_off182 k0_t3) a + S1x1x16.size a ≤ S16x4x128.size a
  k0_off183_inb : ∀ k0_t3 : Fin k0_t3_loop.trips, ∀ a, (k0_off183 k0_t3) a + S1x1x16.size a ≤ S16x4x128.size a
  k0_off184_inb : ∀ k0_t3 : Fin k0_t3_loop.trips, ∀ a, (k0_off184 k0_t3) a + S1x1x16.size a ≤ S16x16x128.size a
  k0_off185_inb : ∀ k0_t3 : Fin k0_t3_loop.trips, ∀ a, (k0_off185 k0_t3) a + S1x1x16.size a ≤ S16x16x128.size a
  k0_off186_inb : ∀ k0_t3 : Fin k0_t3_loop.trips, ∀ a, (k0_off186 k0_t3) a + S1x1x16.size a ≤ S16x16x128.size a
  k0_off187_inb : ∀ k0_t3 : Fin k0_t3_loop.trips, ∀ a, (k0_off187 k0_t3) a + S1x1x16.size a ≤ S16x16x128.size a
  k0_off188_inb : ∀ k0_t3 : Fin k0_t3_loop.trips, ∀ a, (k0_off188 k0_t3) a + S1x1x16.size a ≤ S16x16x128.size a
  k0_off189_inb : ∀ k0_t3 : Fin k0_t3_loop.trips, ∀ a, (k0_off189 k0_t3) a + S1x1x16.size a ≤ S16x16x128.size a
  k0_off190_inb : ∀ k0_t3 : Fin k0_t3_loop.trips, ∀ a, (k0_off190 k0_t3) a + S1x1x16.size a ≤ S16x16x128.size a
  k0_off191_inb : ∀ k0_t3 : Fin k0_t3_loop.trips, ∀ a, (k0_off191 k0_t3) a + S1x1x16.size a ≤ S16x16x128.size a
  k0_off192_inb : ∀ k0_t3 : Fin k0_t3_loop.trips, ∀ a, (k0_off192 k0_t3) a + S1x1x16.size a ≤ S16x16x128.size a
  k0_off193_inb : ∀ k0_t3 : Fin k0_t3_loop.trips, ∀ a, (k0_off193 k0_t3) a + S1x1x16.size a ≤ S16x16x128.size a
  k0_off194_inb : ∀ k0_t3 : Fin k0_t3_loop.trips, ∀ a, (k0_off194 k0_t3) a + S1x1x16.size a ≤ S16x16x128.size a
  k0_off195_inb : ∀ k0_t3 : Fin k0_t3_loop.trips, ∀ a, (k0_off195 k0_t3) a + S1x1x16.size a ≤ S16x16x128.size a
  k0_off196_inb : ∀ k0_t3 : Fin k0_t3_loop.trips, ∀ a, (k0_off196 k0_t3) a + S1x1x16.size a ≤ S16x16x128.size a
  k0_off197_inb : ∀ k0_t3 : Fin k0_t3_loop.trips, ∀ a, (k0_off197 k0_t3) a + S1x1x16.size a ≤ S16x16x128.size a
  k0_off198_inb : ∀ k0_t3 : Fin k0_t3_loop.trips, ∀ a, (k0_off198 k0_t3) a + S1x1x16.size a ≤ S16x16x128.size a
  k0_off199_inb : ∀ k0_t3 : Fin k0_t3_loop.trips, ∀ a, (k0_off199 k0_t3) a + S1x1x16.size a ≤ S16x16x128.size a
  k0_off200_inb : ∀ k0_t3 : Fin k0_t3_loop.trips, ∀ a, (k0_off200 k0_t3) a + S1x1x16.size a ≤ S16x4x128.size a
  k0_off201_inb : ∀ k0_t3 : Fin k0_t3_loop.trips, ∀ a, (k0_off201 k0_t3) a + S1x1x16.size a ≤ S16x4x128.size a
  k0_off202_inb : ∀ k0_t3 : Fin k0_t3_loop.trips, ∀ a, (k0_off202 k0_t3) a + S1x1x16.size a ≤ S16x4x128.size a
  k0_off203_inb : ∀ k0_t3 : Fin k0_t3_loop.trips, ∀ a, (k0_off203 k0_t3) a + S1x1x16.size a ≤ S16x4x128.size a
  k0_off204_inb : ∀ k0_t3 : Fin k0_t3_loop.trips, ∀ a, (k0_off204 k0_t3) a + S1x1x16.size a ≤ S16x16x128.size a
  k0_off205_inb : ∀ k0_t3 : Fin k0_t3_loop.trips, ∀ a, (k0_off205 k0_t3) a + S1x1x16.size a ≤ S16x16x128.size a
  k0_off206_inb : ∀ k0_t3 : Fin k0_t3_loop.trips, ∀ a, (k0_off206 k0_t3) a + S1x1x16.size a ≤ S16x16x128.size a
  k0_off207_inb : ∀ k0_t3 : Fin k0_t3_loop.trips, ∀ a, (k0_off207 k0_t3) a + S1x1x16.size a ≤ S16x16x128.size a
  k0_off208_inb : ∀ k0_t3 : Fin k0_t3_loop.trips, ∀ a, (k0_off208 k0_t3) a + S1x1x16.size a ≤ S16x16x128.size a
  k0_off209_inb : ∀ k0_t3 : Fin k0_t3_loop.trips, ∀ a, (k0_off209 k0_t3) a + S1x1x16.size a ≤ S16x16x128.size a
  k0_off210_inb : ∀ k0_t3 : Fin k0_t3_loop.trips, ∀ a, (k0_off210 k0_t3) a + S1x1x16.size a ≤ S16x16x128.size a
  k0_off211_inb : ∀ k0_t3 : Fin k0_t3_loop.trips, ∀ a, (k0_off211 k0_t3) a + S1x1x16.size a ≤ S16x16x128.size a
  k0_off212_inb : ∀ k0_t3 : Fin k0_t3_loop.trips, ∀ a, (k0_off212 k0_t3) a + S1x1x16.size a ≤ S16x16x128.size a
  k0_off213_inb : ∀ k0_t3 : Fin k0_t3_loop.trips, ∀ a, (k0_off213 k0_t3) a + S1x1x16.size a ≤ S16x16x128.size a
  k0_off214_inb : ∀ k0_t3 : Fin k0_t3_loop.trips, ∀ a, (k0_off214 k0_t3) a + S1x1x16.size a ≤ S16x16x128.size a
  k0_off215_inb : ∀ k0_t3 : Fin k0_t3_loop.trips, ∀ a, (k0_off215 k0_t3) a + S1x1x16.size a ≤ S16x16x128.size a
  k0_off216_inb : ∀ k0_t3 : Fin k0_t3_loop.trips, ∀ a, (k0_off216 k0_t3) a + S1x1x16.size a ≤ S16x16x128.size a
  k0_off217_inb : ∀ k0_t3 : Fin k0_t3_loop.trips, ∀ a, (k0_off217 k0_t3) a + S1x1x16.size a ≤ S16x16x128.size a
  k0_off218_inb : ∀ k0_t3 : Fin k0_t3_loop.trips, ∀ a, (k0_off218 k0_t3) a + S1x1x16.size a ≤ S16x16x128.size a
  k0_off219_inb : ∀ k0_t3 : Fin k0_t3_loop.trips, ∀ a, (k0_off219 k0_t3) a + S1x1x16.size a ≤ S16x16x128.size a
  k0_off220_inb : ∀ k0_t3 : Fin k0_t3_loop.trips, ∀ a, (k0_off220 k0_t3) a + S1x1x16.size a ≤ S16x4x128.size a
  k0_off221_inb : ∀ k0_t3 : Fin k0_t3_loop.trips, ∀ a, (k0_off221 k0_t3) a + S1x1x16.size a ≤ S16x4x128.size a
  k0_off222_inb : ∀ k0_t3 : Fin k0_t3_loop.trips, ∀ a, (k0_off222 k0_t3) a + S1x1x16.size a ≤ S16x4x128.size a
  k0_off223_inb : ∀ k0_t3 : Fin k0_t3_loop.trips, ∀ a, (k0_off223 k0_t3) a + S1x1x16.size a ≤ S16x4x128.size a
  k0_off224_inb : ∀ k0_t3 : Fin k0_t3_loop.trips, ∀ a, (k0_off224 k0_t3) a + S1x1x16.size a ≤ S16x16x128.size a
  k0_off225_inb : ∀ k0_t3 : Fin k0_t3_loop.trips, ∀ a, (k0_off225 k0_t3) a + S1x1x16.size a ≤ S16x16x128.size a
  k0_off226_inb : ∀ k0_t3 : Fin k0_t3_loop.trips, ∀ a, (k0_off226 k0_t3) a + S1x1x16.size a ≤ S16x16x128.size a
  k0_off227_inb : ∀ k0_t3 : Fin k0_t3_loop.trips, ∀ a, (k0_off227 k0_t3) a + S1x1x16.size a ≤ S16x16x128.size a
  k0_off228_inb : ∀ k0_t3 : Fin k0_t3_loop.trips, ∀ a, (k0_off228 k0_t3) a + S1x1x16.size a ≤ S16x16x128.size a
  k0_off229_inb : ∀ k0_t3 : Fin k0_t3_loop.trips, ∀ a, (k0_off229 k0_t3) a + S1x1x16.size a ≤ S16x16x128.size a
  k0_off230_inb : ∀ k0_t3 : Fin k0_t3_loop.trips, ∀ a, (k0_off230 k0_t3) a + S1x1x16.size a ≤ S16x16x128.size a
  k0_off231_inb : ∀ k0_t3 : Fin k0_t3_loop.trips, ∀ a, (k0_off231 k0_t3) a + S1x1x16.size a ≤ S16x16x128.size a
  k0_off232_inb : ∀ k0_t3 : Fin k0_t3_loop.trips, ∀ a, (k0_off232 k0_t3) a + S1x1x16.size a ≤ S16x16x128.size a
  k0_off233_inb : ∀ k0_t3 : Fin k0_t3_loop.trips, ∀ a, (k0_off233 k0_t3) a + S1x1x16.size a ≤ S16x16x128.size a
  k0_off234_inb : ∀ k0_t3 : Fin k0_t3_loop.trips, ∀ a, (k0_off234 k0_t3) a + S1x1x16.size a ≤ S16x16x128.size a
  k0_off235_inb : ∀ k0_t3 : Fin k0_t3_loop.trips, ∀ a, (k0_off235 k0_t3) a + S1x1x16.size a ≤ S16x16x128.size a
  k0_off236_inb : ∀ k0_t3 : Fin k0_t3_loop.trips, ∀ a, (k0_off236 k0_t3) a + S1x1x16.size a ≤ S16x16x128.size a
  k0_off237_inb : ∀ k0_t3 : Fin k0_t3_loop.trips, ∀ a, (k0_off237 k0_t3) a + S1x1x16.size a ≤ S16x16x128.size a
  k0_off238_inb : ∀ k0_t3 : Fin k0_t3_loop.trips, ∀ a, (k0_off238 k0_t3) a + S1x1x16.size a ≤ S16x16x128.size a
  k0_off239_inb : ∀ k0_t3 : Fin k0_t3_loop.trips, ∀ a, (k0_off239 k0_t3) a + S1x1x16.size a ≤ S16x16x128.size a
  k0_off240_inb : ∀ k0_t3 : Fin k0_t3_loop.trips, ∀ a, (k0_off240 k0_t3) a + S1x1x16.size a ≤ S16x4x128.size a
  k0_off241_inb : ∀ k0_t3 : Fin k0_t3_loop.trips, ∀ a, (k0_off241 k0_t3) a + S1x1x16.size a ≤ S16x4x128.size a
  k0_off242_inb : ∀ k0_t3 : Fin k0_t3_loop.trips, ∀ a, (k0_off242 k0_t3) a + S1x1x16.size a ≤ S16x4x128.size a
  k0_off243_inb : ∀ k0_t3 : Fin k0_t3_loop.trips, ∀ a, (k0_off243 k0_t3) a + S1x1x16.size a ≤ S16x4x128.size a
  k0_off244_inb : ∀ k0_t3 : Fin k0_t3_loop.trips, ∀ a, (k0_off244 k0_t3) a + S1x1x16.size a ≤ S16x16x128.size a
  k0_off245_inb : ∀ k0_t3 : Fin k0_t3_loop.trips, ∀ a, (k0_off245 k0_t3) a + S1x1x16.size a ≤ S16x16x128.size a
  k0_off246_inb : ∀ k0_t3 : Fin k0_t3_loop.trips, ∀ a, (k0_off246 k0_t3) a + S1x1x16.size a ≤ S16x16x128.size a
  k0_off247_inb : ∀ k0_t3 : Fin k0_t3_loop.trips, ∀ a, (k0_off247 k0_t3) a + S1x1x16.size a ≤ S16x16x128.size a
  k0_off248_inb : ∀ k0_t3 : Fin k0_t3_loop.trips, ∀ a, (k0_off248 k0_t3) a + S1x1x16.size a ≤ S16x16x128.size a
  k0_off249_inb : ∀ k0_t3 : Fin k0_t3_loop.trips, ∀ a, (k0_off249 k0_t3) a + S1x1x16.size a ≤ S16x16x128.size a
  k0_off250_inb : ∀ k0_t3 : Fin k0_t3_loop.trips, ∀ a, (k0_off250 k0_t3) a + S1x1x16.size a ≤ S16x16x128.size a
  k0_off251_inb : ∀ k0_t3 : Fin k0_t3_loop.trips, ∀ a, (k0_off251 k0_t3) a + S1x1x16.size a ≤ S16x16x128.size a
  k0_off252_inb : ∀ k0_t3 : Fin k0_t3_loop.trips, ∀ a, (k0_off252 k0_t3) a + S1x1x16.size a ≤ S16x16x128.size a
  k0_off253_inb : ∀ k0_t3 : Fin k0_t3_loop.trips, ∀ a, (k0_off253 k0_t3) a + S1x1x16.size a ≤ S16x16x128.size a
  k0_off254_inb : ∀ k0_t3 : Fin k0_t3_loop.trips, ∀ a, (k0_off254 k0_t3) a + S1x1x16.size a ≤ S16x16x128.size a
  k0_off255_inb : ∀ k0_t3 : Fin k0_t3_loop.trips, ∀ a, (k0_off255 k0_t3) a + S1x1x16.size a ≤ S16x16x128.size a
  k0_off256_inb : ∀ k0_t3 : Fin k0_t3_loop.trips, ∀ a, (k0_off256 k0_t3) a + S1x1x16.size a ≤ S16x16x128.size a
  k0_off257_inb : ∀ k0_t3 : Fin k0_t3_loop.trips, ∀ a, (k0_off257 k0_t3) a + S1x1x16.size a ≤ S16x16x128.size a
  k0_off258_inb : ∀ k0_t3 : Fin k0_t3_loop.trips, ∀ a, (k0_off258 k0_t3) a + S1x1x16.size a ≤ S16x16x128.size a
  k0_off259_inb : ∀ k0_t3 : Fin k0_t3_loop.trips, ∀ a, (k0_off259 k0_t3) a + S1x1x16.size a ≤ S16x16x128.size a
  k0_off260_inb : ∀ k0_t3 : Fin k0_t3_loop.trips, ∀ a, (k0_off260 k0_t3) a + S1x1x16.size a ≤ S16x4x128.size a
  k0_off261_inb : ∀ k0_t3 : Fin k0_t3_loop.trips, ∀ a, (k0_off261 k0_t3) a + S1x1x16.size a ≤ S16x4x128.size a
  k0_off262_inb : ∀ k0_t3 : Fin k0_t3_loop.trips, ∀ a, (k0_off262 k0_t3) a + S1x1x16.size a ≤ S16x4x128.size a
  k0_off263_inb : ∀ k0_t3 : Fin k0_t3_loop.trips, ∀ a, (k0_off263 k0_t3) a + S1x1x16.size a ≤ S16x4x128.size a
  k0_off264_inb : ∀ k0_t3 : Fin k0_t3_loop.trips, ∀ a, (k0_off264 k0_t3) a + S1x1x16.size a ≤ S16x16x128.size a
  k0_off265_inb : ∀ k0_t3 : Fin k0_t3_loop.trips, ∀ a, (k0_off265 k0_t3) a + S1x1x16.size a ≤ S16x16x128.size a
  k0_off266_inb : ∀ k0_t3 : Fin k0_t3_loop.trips, ∀ a, (k0_off266 k0_t3) a + S1x1x16.size a ≤ S16x16x128.size a
  k0_off267_inb : ∀ k0_t3 : Fin k0_t3_loop.trips, ∀ a, (k0_off267 k0_t3) a + S1x1x16.size a ≤ S16x16x128.size a
  k0_off268_inb : ∀ k0_t3 : Fin k0_t3_loop.trips, ∀ a, (k0_off268 k0_t3) a + S1x1x16.size a ≤ S16x16x128.size a
  k0_off269_inb : ∀ k0_t3 : Fin k0_t3_loop.trips, ∀ a, (k0_off269 k0_t3) a + S1x1x16.size a ≤ S16x16x128.size a
  k0_off270_inb : ∀ k0_t3 : Fin k0_t3_loop.trips, ∀ a, (k0_off270 k0_t3) a + S1x1x16.size a ≤ S16x16x128.size a
  k0_off271_inb : ∀ k0_t3 : Fin k0_t3_loop.trips, ∀ a, (k0_off271 k0_t3) a + S1x1x16.size a ≤ S16x16x128.size a
  k0_off272_inb : ∀ k0_t3 : Fin k0_t3_loop.trips, ∀ a, (k0_off272 k0_t3) a + S1x1x16.size a ≤ S16x16x128.size a
  k0_off273_inb : ∀ k0_t3 : Fin k0_t3_loop.trips, ∀ a, (k0_off273 k0_t3) a + S1x1x16.size a ≤ S16x16x128.size a
  k0_off274_inb : ∀ k0_t3 : Fin k0_t3_loop.trips, ∀ a, (k0_off274 k0_t3) a + S1x1x16.size a ≤ S16x16x128.size a
  k0_off275_inb : ∀ k0_t3 : Fin k0_t3_loop.trips, ∀ a, (k0_off275 k0_t3) a + S1x1x16.size a ≤ S16x16x128.size a
  k0_off276_inb : ∀ k0_t3 : Fin k0_t3_loop.trips, ∀ a, (k0_off276 k0_t3) a + S1x1x16.size a ≤ S16x16x128.size a
  k0_off277_inb : ∀ k0_t3 : Fin k0_t3_loop.trips, ∀ a, (k0_off277 k0_t3) a + S1x1x16.size a ≤ S16x16x128.size a
  k0_off278_inb : ∀ k0_t3 : Fin k0_t3_loop.trips, ∀ a, (k0_off278 k0_t3) a + S1x1x16.size a ≤ S16x16x128.size a
  k0_off279_inb : ∀ k0_t3 : Fin k0_t3_loop.trips, ∀ a, (k0_off279 k0_t3) a + S1x1x16.size a ≤ S16x16x128.size a
  k0_off280_inb : ∀ k0_t3 : Fin k0_t3_loop.trips, ∀ a, (k0_off280 k0_t3) a + S1x1x16.size a ≤ S16x4x128.size a
  k0_off281_inb : ∀ k0_t3 : Fin k0_t3_loop.trips, ∀ a, (k0_off281 k0_t3) a + S1x1x16.size a ≤ S16x4x128.size a
  k0_off282_inb : ∀ k0_t3 : Fin k0_t3_loop.trips, ∀ a, (k0_off282 k0_t3) a + S1x1x16.size a ≤ S16x4x128.size a
  k0_off283_inb : ∀ k0_t3 : Fin k0_t3_loop.trips, ∀ a, (k0_off283 k0_t3) a + S1x1x16.size a ≤ S16x4x128.size a
  k0_off284_inb : ∀ k0_t3 : Fin k0_t3_loop.trips, ∀ a, (k0_off284 k0_t3) a + S1x1x16.size a ≤ S16x16x128.size a
  k0_off285_inb : ∀ k0_t3 : Fin k0_t3_loop.trips, ∀ a, (k0_off285 k0_t3) a + S1x1x16.size a ≤ S16x16x128.size a
  k0_off286_inb : ∀ k0_t3 : Fin k0_t3_loop.trips, ∀ a, (k0_off286 k0_t3) a + S1x1x16.size a ≤ S16x16x128.size a
  k0_off287_inb : ∀ k0_t3 : Fin k0_t3_loop.trips, ∀ a, (k0_off287 k0_t3) a + S1x1x16.size a ≤ S16x16x128.size a
  k0_off288_inb : ∀ k0_t3 : Fin k0_t3_loop.trips, ∀ a, (k0_off288 k0_t3) a + S1x1x16.size a ≤ S16x16x128.size a
  k0_off289_inb : ∀ k0_t3 : Fin k0_t3_loop.trips, ∀ a, (k0_off289 k0_t3) a + S1x1x16.size a ≤ S16x16x128.size a
  k0_off290_inb : ∀ k0_t3 : Fin k0_t3_loop.trips, ∀ a, (k0_off290 k0_t3) a + S1x1x16.size a ≤ S16x16x128.size a
  k0_off291_inb : ∀ k0_t3 : Fin k0_t3_loop.trips, ∀ a, (k0_off291 k0_t3) a + S1x1x16.size a ≤ S16x16x128.size a
  k0_off292_inb : ∀ k0_t3 : Fin k0_t3_loop.trips, ∀ a, (k0_off292 k0_t3) a + S1x1x16.size a ≤ S16x16x128.size a
  k0_off293_inb : ∀ k0_t3 : Fin k0_t3_loop.trips, ∀ a, (k0_off293 k0_t3) a + S1x1x16.size a ≤ S16x16x128.size a
  k0_off294_inb : ∀ k0_t3 : Fin k0_t3_loop.trips, ∀ a, (k0_off294 k0_t3) a + S1x1x16.size a ≤ S16x16x128.size a
  k0_off295_inb : ∀ k0_t3 : Fin k0_t3_loop.trips, ∀ a, (k0_off295 k0_t3) a + S1x1x16.size a ≤ S16x16x128.size a
  k0_off296_inb : ∀ k0_t3 : Fin k0_t3_loop.trips, ∀ a, (k0_off296 k0_t3) a + S1x1x16.size a ≤ S16x16x128.size a
  k0_off297_inb : ∀ k0_t3 : Fin k0_t3_loop.trips, ∀ a, (k0_off297 k0_t3) a + S1x1x16.size a ≤ S16x16x128.size a
  k0_off298_inb : ∀ k0_t3 : Fin k0_t3_loop.trips, ∀ a, (k0_off298 k0_t3) a + S1x1x16.size a ≤ S16x16x128.size a
  k0_off299_inb : ∀ k0_t3 : Fin k0_t3_loop.trips, ∀ a, (k0_off299 k0_t3) a + S1x1x16.size a ≤ S16x16x128.size a
  k0_off300_inb : ∀ k0_t3 : Fin k0_t3_loop.trips, ∀ a, (k0_off300 k0_t3) a + S1x1x16.size a ≤ S16x4x128.size a
  k0_off301_inb : ∀ k0_t3 : Fin k0_t3_loop.trips, ∀ a, (k0_off301 k0_t3) a + S1x1x16.size a ≤ S16x4x128.size a
  k0_off302_inb : ∀ k0_t3 : Fin k0_t3_loop.trips, ∀ a, (k0_off302 k0_t3) a + S1x1x16.size a ≤ S16x4x128.size a
  k0_off303_inb : ∀ k0_t3 : Fin k0_t3_loop.trips, ∀ a, (k0_off303 k0_t3) a + S1x1x16.size a ≤ S16x4x128.size a
  k0_off304_inb : ∀ k0_t3 : Fin k0_t3_loop.trips, ∀ a, (k0_off304 k0_t3) a + S1x1x16.size a ≤ S16x16x128.size a
  k0_off305_inb : ∀ k0_t3 : Fin k0_t3_loop.trips, ∀ a, (k0_off305 k0_t3) a + S1x1x16.size a ≤ S16x16x128.size a
  k0_off306_inb : ∀ k0_t3 : Fin k0_t3_loop.trips, ∀ a, (k0_off306 k0_t3) a + S1x1x16.size a ≤ S16x16x128.size a
  k0_off307_inb : ∀ k0_t3 : Fin k0_t3_loop.trips, ∀ a, (k0_off307 k0_t3) a + S1x1x16.size a ≤ S16x16x128.size a
  k0_off308_inb : ∀ k0_t3 : Fin k0_t3_loop.trips, ∀ a, (k0_off308 k0_t3) a + S1x1x16.size a ≤ S16x16x128.size a
  k0_off309_inb : ∀ k0_t3 : Fin k0_t3_loop.trips, ∀ a, (k0_off309 k0_t3) a + S1x1x16.size a ≤ S16x16x128.size a
  k0_off310_inb : ∀ k0_t3 : Fin k0_t3_loop.trips, ∀ a, (k0_off310 k0_t3) a + S1x1x16.size a ≤ S16x16x128.size a
  k0_off311_inb : ∀ k0_t3 : Fin k0_t3_loop.trips, ∀ a, (k0_off311 k0_t3) a + S1x1x16.size a ≤ S16x16x128.size a
  k0_off312_inb : ∀ k0_t3 : Fin k0_t3_loop.trips, ∀ a, (k0_off312 k0_t3) a + S1x1x16.size a ≤ S16x16x128.size a
  k0_off313_inb : ∀ k0_t3 : Fin k0_t3_loop.trips, ∀ a, (k0_off313 k0_t3) a + S1x1x16.size a ≤ S16x16x128.size a
  k0_off314_inb : ∀ k0_t3 : Fin k0_t3_loop.trips, ∀ a, (k0_off314 k0_t3) a + S1x1x16.size a ≤ S16x16x128.size a
  k0_off315_inb : ∀ k0_t3 : Fin k0_t3_loop.trips, ∀ a, (k0_off315 k0_t3) a + S1x1x16.size a ≤ S16x16x128.size a
  k0_off316_inb : ∀ k0_t3 : Fin k0_t3_loop.trips, ∀ a, (k0_off316 k0_t3) a + S1x1x16.size a ≤ S16x16x128.size a
  k0_off317_inb : ∀ k0_t3 : Fin k0_t3_loop.trips, ∀ a, (k0_off317 k0_t3) a + S1x1x16.size a ≤ S16x16x128.size a
  k0_off318_inb : ∀ k0_t3 : Fin k0_t3_loop.trips, ∀ a, (k0_off318 k0_t3) a + S1x1x16.size a ≤ S16x16x128.size a
  k0_off319_inb : ∀ k0_t3 : Fin k0_t3_loop.trips, ∀ a, (k0_off319 k0_t3) a + S1x1x16.size a ≤ S16x16x128.size a
  k0_off320_inb : ∀ k0_t3 : Fin k0_t3_loop.trips, ∀ a, (k0_off320 k0_t3) a + S1x1x16.size a ≤ S16x4x128.size a
  k0_off321_inb : ∀ k0_t3 : Fin k0_t3_loop.trips, ∀ a, (k0_off321 k0_t3) a + S1x1x16.size a ≤ S16x4x128.size a
  k0_off322_inb : ∀ k0_t3 : Fin k0_t3_loop.trips, ∀ a, (k0_off322 k0_t3) a + S1x1x16.size a ≤ S16x4x128.size a
  k0_off323_inb : ∀ k0_t3 : Fin k0_t3_loop.trips, ∀ a, (k0_off323 k0_t3) a + S1x1x16.size a ≤ S16x4x128.size a
  k0_off324_inb : ∀ (i : grid0.Coords) (k0_t1 : Fin (k0_t1_loop i).trips), ∀ a, (k0_off324 i k0_t1) a + S16x4x128.size a ≤ S4096x4x128.size a
  k0_off325_inb : ∀ (i : grid0.Coords) (k0_t1 : Fin (k0_t1_loop i).trips), ∀ (k0_h4 : k0_cond4 i k0_t1 = 1#1), ∀ a, (k0_off325 i k0_t1) a + S16x16x128.size a ≤ S10000x16x128.size a
  k0_t4_ok : ∀ i : grid0.Coords, (k0_t4_loop i).OK
  k0_t5_ok : k0_t5_loop.OK
  k0_off326_inb : ∀ k0_t5 : Fin k0_t5_loop.trips, ∀ a, (k0_off326 k0_t5) a + S1x1x16.size a ≤ S16x16x128.size a
  k0_off327_inb : ∀ k0_t5 : Fin k0_t5_loop.trips, ∀ a, (k0_off327 k0_t5) a + S1x1x16.size a ≤ S16x16x128.size a
  k0_off328_inb : ∀ k0_t5 : Fin k0_t5_loop.trips, ∀ a, (k0_off328 k0_t5) a + S1x1x16.size a ≤ S16x16x128.size a
  k0_off329_inb : ∀ k0_t5 : Fin k0_t5_loop.trips, ∀ a, (k0_off329 k0_t5) a + S1x1x16.size a ≤ S16x16x128.size a
  k0_off330_inb : ∀ k0_t5 : Fin k0_t5_loop.trips, ∀ a, (k0_off330 k0_t5) a + S1x1x16.size a ≤ S16x16x128.size a
  k0_off331_inb : ∀ k0_t5 : Fin k0_t5_loop.trips, ∀ a, (k0_off331 k0_t5) a + S1x1x16.size a ≤ S16x16x128.size a
  k0_off332_inb : ∀ k0_t5 : Fin k0_t5_loop.trips, ∀ a, (k0_off332 k0_t5) a + S1x1x16.size a ≤ S16x16x128.size a
  k0_off333_inb : ∀ k0_t5 : Fin k0_t5_loop.trips, ∀ a, (k0_off333 k0_t5) a + S1x1x16.size a ≤ S16x16x128.size a
  k0_off334_inb : ∀ k0_t5 : Fin k0_t5_loop.trips, ∀ a, (k0_off334 k0_t5) a + S1x1x16.size a ≤ S16x16x128.size a
  k0_off335_inb : ∀ k0_t5 : Fin k0_t5_loop.trips, ∀ a, (k0_off335 k0_t5) a + S1x1x16.size a ≤ S16x16x128.size a
  k0_off336_inb : ∀ k0_t5 : Fin k0_t5_loop.trips, ∀ a, (k0_off336 k0_t5) a + S1x1x16.size a ≤ S16x16x128.size a
  k0_off337_inb : ∀ k0_t5 : Fin k0_t5_loop.trips, ∀ a, (k0_off337 k0_t5) a + S1x1x16.size a ≤ S16x16x128.size a
  k0_off338_inb : ∀ k0_t5 : Fin k0_t5_loop.trips, ∀ a, (k0_off338 k0_t5) a + S1x1x16.size a ≤ S16x16x128.size a
  k0_off339_inb : ∀ k0_t5 : Fin k0_t5_loop.trips, ∀ a, (k0_off339 k0_t5) a + S1x1x16.size a ≤ S16x16x128.size a
  k0_off340_inb : ∀ k0_t5 : Fin k0_t5_loop.trips, ∀ a, (k0_off340 k0_t5) a + S1x1x16.size a ≤ S16x16x128.size a
  k0_off341_inb : ∀ k0_t5 : Fin k0_t5_loop.trips, ∀ a, (k0_off341 k0_t5) a + S1x1x16.size a ≤ S16x16x128.size a
  k0_off342_inb : ∀ k0_t5 : Fin k0_t5_loop.trips, ∀ a, (k0_off342 k0_t5) a + S1x1x16.size a ≤ S16x4x128.size a
  k0_off343_inb : ∀ k0_t5 : Fin k0_t5_loop.trips, ∀ a, (k0_off343 k0_t5) a + S1x1x16.size a ≤ S16x4x128.size a
  k0_off344_inb : ∀ k0_t5 : Fin k0_t5_loop.trips, ∀ a, (k0_off344 k0_t5) a + S1x1x16.size a ≤ S16x4x128.size a
  k0_off345_inb : ∀ k0_t5 : Fin k0_t5_loop.trips, ∀ a, (k0_off345 k0_t5) a + S1x1x16.size a ≤ S16x4x128.size a
  k0_off346_inb : ∀ k0_t5 : Fin k0_t5_loop.trips, ∀ a, (k0_off346 k0_t5) a + S1x1x16.size a ≤ S16x16x128.size a
  k0_off347_inb : ∀ k0_t5 : Fin k0_t5_loop.trips, ∀ a, (k0_off347 k0_t5) a + S1x1x16.size a ≤ S16x16x128.size a
  k0_off348_inb : ∀ k0_t5 : Fin k0_t5_loop.trips, ∀ a, (k0_off348 k0_t5) a + S1x1x16.size a ≤ S16x16x128.size a
  k0_off349_inb : ∀ k0_t5 : Fin k0_t5_loop.trips, ∀ a, (k0_off349 k0_t5) a + S1x1x16.size a ≤ S16x16x128.size a
  k0_off350_inb : ∀ k0_t5 : Fin k0_t5_loop.trips, ∀ a, (k0_off350 k0_t5) a + S1x1x16.size a ≤ S16x16x128.size a
  k0_off351_inb : ∀ k0_t5 : Fin k0_t5_loop.trips, ∀ a, (k0_off351 k0_t5) a + S1x1x16.size a ≤ S16x16x128.size a
  k0_off352_inb : ∀ k0_t5 : Fin k0_t5_loop.trips, ∀ a, (k0_off352 k0_t5) a + S1x1x16.size a ≤ S16x16x128.size a
  k0_off353_inb : ∀ k0_t5 : Fin k0_t5_loop.trips, ∀ a, (k0_off353 k0_t5) a + S1x1x16.size a ≤ S16x16x128.size a
  k0_off354_inb : ∀ k0_t5 : Fin k0_t5_loop.trips, ∀ a, (k0_off354 k0_t5) a + S1x1x16.size a ≤ S16x16x128.size a
  k0_off355_inb : ∀ k0_t5 : Fin k0_t5_loop.trips, ∀ a, (k0_off355 k0_t5) a + S1x1x16.size a ≤ S16x16x128.size a
  k0_off356_inb : ∀ k0_t5 : Fin k0_t5_loop.trips, ∀ a, (k0_off356 k0_t5) a + S1x1x16.size a ≤ S16x16x128.size a
  k0_off357_inb : ∀ k0_t5 : Fin k0_t5_loop.trips, ∀ a, (k0_off357 k0_t5) a + S1x1x16.size a ≤ S16x16x128.size a
  k0_off358_inb : ∀ k0_t5 : Fin k0_t5_loop.trips, ∀ a, (k0_off358 k0_t5) a + S1x1x16.size a ≤ S16x16x128.size a
  k0_off359_inb : ∀ k0_t5 : Fin k0_t5_loop.trips, ∀ a, (k0_off359 k0_t5) a + S1x1x16.size a ≤ S16x16x128.size a
  k0_off360_inb : ∀ k0_t5 : Fin k0_t5_loop.trips, ∀ a, (k0_off360 k0_t5) a + S1x1x16.size a ≤ S16x16x128.size a
  k0_off361_inb : ∀ k0_t5 : Fin k0_t5_loop.trips, ∀ a, (k0_off361 k0_t5) a + S1x1x16.size a ≤ S16x16x128.size a
  k0_off362_inb : ∀ k0_t5 : Fin k0_t5_loop.trips, ∀ a, (k0_off362 k0_t5) a + S1x1x16.size a ≤ S16x4x128.size a
  k0_off363_inb : ∀ k0_t5 : Fin k0_t5_loop.trips, ∀ a, (k0_off363 k0_t5) a + S1x1x16.size a ≤ S16x4x128.size a
  k0_off364_inb : ∀ k0_t5 : Fin k0_t5_loop.trips, ∀ a, (k0_off364 k0_t5) a + S1x1x16.size a ≤ S16x4x128.size a
  k0_off365_inb : ∀ k0_t5 : Fin k0_t5_loop.trips, ∀ a, (k0_off365 k0_t5) a + S1x1x16.size a ≤ S16x4x128.size a
  k0_off366_inb : ∀ k0_t5 : Fin k0_t5_loop.trips, ∀ a, (k0_off366 k0_t5) a + S1x1x16.size a ≤ S16x16x128.size a
  k0_off367_inb : ∀ k0_t5 : Fin k0_t5_loop.trips, ∀ a, (k0_off367 k0_t5) a + S1x1x16.size a ≤ S16x16x128.size a
  k0_off368_inb : ∀ k0_t5 : Fin k0_t5_loop.trips, ∀ a, (k0_off368 k0_t5) a + S1x1x16.size a ≤ S16x16x128.size a
  k0_off369_inb : ∀ k0_t5 : Fin k0_t5_loop.trips, ∀ a, (k0_off369 k0_t5) a + S1x1x16.size a ≤ S16x16x128.size a
  k0_off370_inb : ∀ k0_t5 : Fin k0_t5_loop.trips, ∀ a, (k0_off370 k0_t5) a + S1x1x16.size a ≤ S16x16x128.size a
  k0_off371_inb : ∀ k0_t5 : Fin k0_t5_loop.trips, ∀ a, (k0_off371 k0_t5) a + S1x1x16.size a ≤ S16x16x128.size a
  k0_off372_inb : ∀ k0_t5 : Fin k0_t5_loop.trips, ∀ a, (k0_off372 k0_t5) a + S1x1x16.size a ≤ S16x16x128.size a
  k0_off373_inb : ∀ k0_t5 : Fin k0_t5_loop.trips, ∀ a, (k0_off373 k0_t5) a + S1x1x16.size a ≤ S16x16x128.size a
  k0_off374_inb : ∀ k0_t5 : Fin k0_t5_loop.trips, ∀ a, (k0_off374 k0_t5) a + S1x1x16.size a ≤ S16x16x128.size a
  k0_off375_inb : ∀ k0_t5 : Fin k0_t5_loop.trips, ∀ a, (k0_off375 k0_t5) a + S1x1x16.size a ≤ S16x16x128.size a
  k0_off376_inb : ∀ k0_t5 : Fin k0_t5_loop.trips, ∀ a, (k0_off376 k0_t5) a + S1x1x16.size a ≤ S16x16x128.size a
  k0_off377_inb : ∀ k0_t5 : Fin k0_t5_loop.trips, ∀ a, (k0_off377 k0_t5) a + S1x1x16.size a ≤ S16x16x128.size a
  k0_off378_inb : ∀ k0_t5 : Fin k0_t5_loop.trips, ∀ a, (k0_off378 k0_t5) a + S1x1x16.size a ≤ S16x16x128.size a
  k0_off379_inb : ∀ k0_t5 : Fin k0_t5_loop.trips, ∀ a, (k0_off379 k0_t5) a + S1x1x16.size a ≤ S16x16x128.size a
  k0_off380_inb : ∀ k0_t5 : Fin k0_t5_loop.trips, ∀ a, (k0_off380 k0_t5) a + S1x1x16.size a ≤ S16x16x128.size a
  k0_off381_inb : ∀ k0_t5 : Fin k0_t5_loop.trips, ∀ a, (k0_off381 k0_t5) a + S1x1x16.size a ≤ S16x16x128.size a
  k0_off382_inb : ∀ k0_t5 : Fin k0_t5_loop.trips, ∀ a, (k0_off382 k0_t5) a + S1x1x16.size a ≤ S16x4x128.size a
  k0_off383_inb : ∀ k0_t5 : Fin k0_t5_loop.trips, ∀ a, (k0_off383 k0_t5) a + S1x1x16.size a ≤ S16x4x128.size a
  k0_off384_inb : ∀ k0_t5 : Fin k0_t5_loop.trips, ∀ a, (k0_off384 k0_t5) a + S1x1x16.size a ≤ S16x4x128.size a
  k0_off385_inb : ∀ k0_t5 : Fin k0_t5_loop.trips, ∀ a, (k0_off385 k0_t5) a + S1x1x16.size a ≤ S16x4x128.size a
  k0_off386_inb : ∀ k0_t5 : Fin k0_t5_loop.trips, ∀ a, (k0_off386 k0_t5) a + S1x1x16.size a ≤ S16x16x128.size a
  k0_off387_inb : ∀ k0_t5 : Fin k0_t5_loop.trips, ∀ a, (k0_off387 k0_t5) a + S1x1x16.size a ≤ S16x16x128.size a
  k0_off388_inb : ∀ k0_t5 : Fin k0_t5_loop.trips, ∀ a, (k0_off388 k0_t5) a + S1x1x16.size a ≤ S16x16x128.size a
  k0_off389_inb : ∀ k0_t5 : Fin k0_t5_loop.trips, ∀ a, (k0_off389 k0_t5) a + S1x1x16.size a ≤ S16x16x128.size a
  k0_off390_inb : ∀ k0_t5 : Fin k0_t5_loop.trips, ∀ a, (k0_off390 k0_t5) a + S1x1x16.size a ≤ S16x16x128.size a
  k0_off391_inb : ∀ k0_t5 : Fin k0_t5_loop.trips, ∀ a, (k0_off391 k0_t5) a + S1x1x16.size a ≤ S16x16x128.size a
  k0_off392_inb : ∀ k0_t5 : Fin k0_t5_loop.trips, ∀ a, (k0_off392 k0_t5) a + S1x1x16.size a ≤ S16x16x128.size a
  k0_off393_inb : ∀ k0_t5 : Fin k0_t5_loop.trips, ∀ a, (k0_off393 k0_t5) a + S1x1x16.size a ≤ S16x16x128.size a
  k0_off394_inb : ∀ k0_t5 : Fin k0_t5_loop.trips, ∀ a, (k0_off394 k0_t5) a + S1x1x16.size a ≤ S16x16x128.size a
  k0_off395_inb : ∀ k0_t5 : Fin k0_t5_loop.trips, ∀ a, (k0_off395 k0_t5) a + S1x1x16.size a ≤ S16x16x128.size a
  k0_off396_inb : ∀ k0_t5 : Fin k0_t5_loop.trips, ∀ a, (k0_off396 k0_t5) a + S1x1x16.size a ≤ S16x16x128.size a
  k0_off397_inb : ∀ k0_t5 : Fin k0_t5_loop.trips, ∀ a, (k0_off397 k0_t5) a + S1x1x16.size a ≤ S16x16x128.size a
  k0_off398_inb : ∀ k0_t5 : Fin k0_t5_loop.trips, ∀ a, (k0_off398 k0_t5) a + S1x1x16.size a ≤ S16x16x128.size a
  k0_off399_inb : ∀ k0_t5 : Fin k0_t5_loop.trips, ∀ a, (k0_off399 k0_t5) a + S1x1x16.size a ≤ S16x16x128.size a
  k0_off400_inb : ∀ k0_t5 : Fin k0_t5_loop.trips, ∀ a, (k0_off400 k0_t5) a + S1x1x16.size a ≤ S16x16x128.size a
  k0_off401_inb : ∀ k0_t5 : Fin k0_t5_loop.trips, ∀ a, (k0_off401 k0_t5) a + S1x1x16.size a ≤ S16x16x128.size a
  k0_off402_inb : ∀ k0_t5 : Fin k0_t5_loop.trips, ∀ a, (k0_off402 k0_t5) a + S1x1x16.size a ≤ S16x4x128.size a
  k0_off403_inb : ∀ k0_t5 : Fin k0_t5_loop.trips, ∀ a, (k0_off403 k0_t5) a + S1x1x16.size a ≤ S16x4x128.size a
  k0_off404_inb : ∀ k0_t5 : Fin k0_t5_loop.trips, ∀ a, (k0_off404 k0_t5) a + S1x1x16.size a ≤ S16x4x128.size a
  k0_off405_inb : ∀ k0_t5 : Fin k0_t5_loop.trips, ∀ a, (k0_off405 k0_t5) a + S1x1x16.size a ≤ S16x4x128.size a
  k0_off406_inb : ∀ k0_t5 : Fin k0_t5_loop.trips, ∀ a, (k0_off406 k0_t5) a + S1x1x16.size a ≤ S16x16x128.size a
  k0_off407_inb : ∀ k0_t5 : Fin k0_t5_loop.trips, ∀ a, (k0_off407 k0_t5) a + S1x1x16.size a ≤ S16x16x128.size a
  k0_off408_inb : ∀ k0_t5 : Fin k0_t5_loop.trips, ∀ a, (k0_off408 k0_t5) a + S1x1x16.size a ≤ S16x16x128.size a
  k0_off409_inb : ∀ k0_t5 : Fin k0_t5_loop.trips, ∀ a, (k0_off409 k0_t5) a + S1x1x16.size a ≤ S16x16x128.size a
  k0_off410_inb : ∀ k0_t5 : Fin k0_t5_loop.trips, ∀ a, (k0_off410 k0_t5) a + S1x1x16.size a ≤ S16x16x128.size a
  k0_off411_inb : ∀ k0_t5 : Fin k0_t5_loop.trips, ∀ a, (k0_off411 k0_t5) a + S1x1x16.size a ≤ S16x16x128.size a
  k0_off412_inb : ∀ k0_t5 : Fin k0_t5_loop.trips, ∀ a, (k0_off412 k0_t5) a + S1x1x16.size a ≤ S16x16x128.size a
  k0_off413_inb : ∀ k0_t5 : Fin k0_t5_loop.trips, ∀ a, (k0_off413 k0_t5) a + S1x1x16.size a ≤ S16x16x128.size a
  k0_off414_inb : ∀ k0_t5 : Fin k0_t5_loop.trips, ∀ a, (k0_off414 k0_t5) a + S1x1x16.size a ≤ S16x16x128.size a
  k0_off415_inb : ∀ k0_t5 : Fin k0_t5_loop.trips, ∀ a, (k0_off415 k0_t5) a + S1x1x16.size a ≤ S16x16x128.size a
  k0_off416_inb : ∀ k0_t5 : Fin k0_t5_loop.trips, ∀ a, (k0_off416 k0_t5) a + S1x1x16.size a ≤ S16x16x128.size a
  k0_off417_inb : ∀ k0_t5 : Fin k0_t5_loop.trips, ∀ a, (k0_off417 k0_t5) a + S1x1x16.size a ≤ S16x16x128.size a
  k0_off418_inb : ∀ k0_t5 : Fin k0_t5_loop.trips, ∀ a, (k0_off418 k0_t5) a + S1x1x16.size a ≤ S16x16x128.size a
  k0_off419_inb : ∀ k0_t5 : Fin k0_t5_loop.trips, ∀ a, (k0_off419 k0_t5) a + S1x1x16.size a ≤ S16x16x128.size a
  k0_off420_inb : ∀ k0_t5 : Fin k0_t5_loop.trips, ∀ a, (k0_off420 k0_t5) a + S1x1x16.size a ≤ S16x16x128.size a
  k0_off421_inb : ∀ k0_t5 : Fin k0_t5_loop.trips, ∀ a, (k0_off421 k0_t5) a + S1x1x16.size a ≤ S16x16x128.size a
  k0_off422_inb : ∀ k0_t5 : Fin k0_t5_loop.trips, ∀ a, (k0_off422 k0_t5) a + S1x1x16.size a ≤ S16x4x128.size a
  k0_off423_inb : ∀ k0_t5 : Fin k0_t5_loop.trips, ∀ a, (k0_off423 k0_t5) a + S1x1x16.size a ≤ S16x4x128.size a
  k0_off424_inb : ∀ k0_t5 : Fin k0_t5_loop.trips, ∀ a, (k0_off424 k0_t5) a + S1x1x16.size a ≤ S16x4x128.size a
  k0_off425_inb : ∀ k0_t5 : Fin k0_t5_loop.trips, ∀ a, (k0_off425 k0_t5) a + S1x1x16.size a ≤ S16x4x128.size a
  k0_off426_inb : ∀ k0_t5 : Fin k0_t5_loop.trips, ∀ a, (k0_off426 k0_t5) a + S1x1x16.size a ≤ S16x16x128.size a
  k0_off427_inb : ∀ k0_t5 : Fin k0_t5_loop.trips, ∀ a, (k0_off427 k0_t5) a + S1x1x16.size a ≤ S16x16x128.size a
  k0_off428_inb : ∀ k0_t5 : Fin k0_t5_loop.trips, ∀ a, (k0_off428 k0_t5) a + S1x1x16.size a ≤ S16x16x128.size a
  k0_off429_inb : ∀ k0_t5 : Fin k0_t5_loop.trips, ∀ a, (k0_off429 k0_t5) a + S1x1x16.size a ≤ S16x16x128.size a
  k0_off430_inb : ∀ k0_t5 : Fin k0_t5_loop.trips, ∀ a, (k0_off430 k0_t5) a + S1x1x16.size a ≤ S16x16x128.size a
  k0_off431_inb : ∀ k0_t5 : Fin k0_t5_loop.trips, ∀ a, (k0_off431 k0_t5) a + S1x1x16.size a ≤ S16x16x128.size a
  k0_off432_inb : ∀ k0_t5 : Fin k0_t5_loop.trips, ∀ a, (k0_off432 k0_t5) a + S1x1x16.size a ≤ S16x16x128.size a
  k0_off433_inb : ∀ k0_t5 : Fin k0_t5_loop.trips, ∀ a, (k0_off433 k0_t5) a + S1x1x16.size a ≤ S16x16x128.size a
  k0_off434_inb : ∀ k0_t5 : Fin k0_t5_loop.trips, ∀ a, (k0_off434 k0_t5) a + S1x1x16.size a ≤ S16x16x128.size a
  k0_off435_inb : ∀ k0_t5 : Fin k0_t5_loop.trips, ∀ a, (k0_off435 k0_t5) a + S1x1x16.size a ≤ S16x16x128.size a
  k0_off436_inb : ∀ k0_t5 : Fin k0_t5_loop.trips, ∀ a, (k0_off436 k0_t5) a + S1x1x16.size a ≤ S16x16x128.size a
  k0_off437_inb : ∀ k0_t5 : Fin k0_t5_loop.trips, ∀ a, (k0_off437 k0_t5) a + S1x1x16.size a ≤ S16x16x128.size a
  k0_off438_inb : ∀ k0_t5 : Fin k0_t5_loop.trips, ∀ a, (k0_off438 k0_t5) a + S1x1x16.size a ≤ S16x16x128.size a
  k0_off439_inb : ∀ k0_t5 : Fin k0_t5_loop.trips, ∀ a, (k0_off439 k0_t5) a + S1x1x16.size a ≤ S16x16x128.size a
  k0_off440_inb : ∀ k0_t5 : Fin k0_t5_loop.trips, ∀ a, (k0_off440 k0_t5) a + S1x1x16.size a ≤ S16x16x128.size a
  k0_off441_inb : ∀ k0_t5 : Fin k0_t5_loop.trips, ∀ a, (k0_off441 k0_t5) a + S1x1x16.size a ≤ S16x16x128.size a
  k0_off442_inb : ∀ k0_t5 : Fin k0_t5_loop.trips, ∀ a, (k0_off442 k0_t5) a + S1x1x16.size a ≤ S16x4x128.size a
  k0_off443_inb : ∀ k0_t5 : Fin k0_t5_loop.trips, ∀ a, (k0_off443 k0_t5) a + S1x1x16.size a ≤ S16x4x128.size a
  k0_off444_inb : ∀ k0_t5 : Fin k0_t5_loop.trips, ∀ a, (k0_off444 k0_t5) a + S1x1x16.size a ≤ S16x4x128.size a
  k0_off445_inb : ∀ k0_t5 : Fin k0_t5_loop.trips, ∀ a, (k0_off445 k0_t5) a + S1x1x16.size a ≤ S16x4x128.size a
  k0_off446_inb : ∀ k0_t5 : Fin k0_t5_loop.trips, ∀ a, (k0_off446 k0_t5) a + S1x1x16.size a ≤ S16x16x128.size a
  k0_off447_inb : ∀ k0_t5 : Fin k0_t5_loop.trips, ∀ a, (k0_off447 k0_t5) a + S1x1x16.size a ≤ S16x16x128.size a
  k0_off448_inb : ∀ k0_t5 : Fin k0_t5_loop.trips, ∀ a, (k0_off448 k0_t5) a + S1x1x16.size a ≤ S16x16x128.size a
  k0_off449_inb : ∀ k0_t5 : Fin k0_t5_loop.trips, ∀ a, (k0_off449 k0_t5) a + S1x1x16.size a ≤ S16x16x128.size a
  k0_off450_inb : ∀ k0_t5 : Fin k0_t5_loop.trips, ∀ a, (k0_off450 k0_t5) a + S1x1x16.size a ≤ S16x16x128.size a
  k0_off451_inb : ∀ k0_t5 : Fin k0_t5_loop.trips, ∀ a, (k0_off451 k0_t5) a + S1x1x16.size a ≤ S16x16x128.size a
  k0_off452_inb : ∀ k0_t5 : Fin k0_t5_loop.trips, ∀ a, (k0_off452 k0_t5) a + S1x1x16.size a ≤ S16x16x128.size a
  k0_off453_inb : ∀ k0_t5 : Fin k0_t5_loop.trips, ∀ a, (k0_off453 k0_t5) a + S1x1x16.size a ≤ S16x16x128.size a
  k0_off454_inb : ∀ k0_t5 : Fin k0_t5_loop.trips, ∀ a, (k0_off454 k0_t5) a + S1x1x16.size a ≤ S16x16x128.size a
  k0_off455_inb : ∀ k0_t5 : Fin k0_t5_loop.trips, ∀ a, (k0_off455 k0_t5) a + S1x1x16.size a ≤ S16x16x128.size a
  k0_off456_inb : ∀ k0_t5 : Fin k0_t5_loop.trips, ∀ a, (k0_off456 k0_t5) a + S1x1x16.size a ≤ S16x16x128.size a
  k0_off457_inb : ∀ k0_t5 : Fin k0_t5_loop.trips, ∀ a, (k0_off457 k0_t5) a + S1x1x16.size a ≤ S16x16x128.size a
  k0_off458_inb : ∀ k0_t5 : Fin k0_t5_loop.trips, ∀ a, (k0_off458 k0_t5) a + S1x1x16.size a ≤ S16x16x128.size a
  k0_off459_inb : ∀ k0_t5 : Fin k0_t5_loop.trips, ∀ a, (k0_off459 k0_t5) a + S1x1x16.size a ≤ S16x16x128.size a
  k0_off460_inb : ∀ k0_t5 : Fin k0_t5_loop.trips, ∀ a, (k0_off460 k0_t5) a + S1x1x16.size a ≤ S16x16x128.size a
  k0_off461_inb : ∀ k0_t5 : Fin k0_t5_loop.trips, ∀ a, (k0_off461 k0_t5) a + S1x1x16.size a ≤ S16x16x128.size a
  k0_off462_inb : ∀ k0_t5 : Fin k0_t5_loop.trips, ∀ a, (k0_off462 k0_t5) a + S1x1x16.size a ≤ S16x4x128.size a
  k0_off463_inb : ∀ k0_t5 : Fin k0_t5_loop.trips, ∀ a, (k0_off463 k0_t5) a + S1x1x16.size a ≤ S16x4x128.size a
  k0_off464_inb : ∀ k0_t5 : Fin k0_t5_loop.trips, ∀ a, (k0_off464 k0_t5) a + S1x1x16.size a ≤ S16x4x128.size a
  k0_off465_inb : ∀ k0_t5 : Fin k0_t5_loop.trips, ∀ a, (k0_off465 k0_t5) a + S1x1x16.size a ≤ S16x4x128.size a
  k0_off466_inb : ∀ k0_t5 : Fin k0_t5_loop.trips, ∀ a, (k0_off466 k0_t5) a + S1x1x16.size a ≤ S16x16x128.size a
  k0_off467_inb : ∀ k0_t5 : Fin k0_t5_loop.trips, ∀ a, (k0_off467 k0_t5) a + S1x1x16.size a ≤ S16x16x128.size a
  k0_off468_inb : ∀ k0_t5 : Fin k0_t5_loop.trips, ∀ a, (k0_off468 k0_t5) a + S1x1x16.size a ≤ S16x16x128.size a
  k0_off469_inb : ∀ k0_t5 : Fin k0_t5_loop.trips, ∀ a, (k0_off469 k0_t5) a + S1x1x16.size a ≤ S16x16x128.size a
  k0_off470_inb : ∀ k0_t5 : Fin k0_t5_loop.trips, ∀ a, (k0_off470 k0_t5) a + S1x1x16.size a ≤ S16x16x128.size a
  k0_off471_inb : ∀ k0_t5 : Fin k0_t5_loop.trips, ∀ a, (k0_off471 k0_t5) a + S1x1x16.size a ≤ S16x16x128.size a
  k0_off472_inb : ∀ k0_t5 : Fin k0_t5_loop.trips, ∀ a, (k0_off472 k0_t5) a + S1x1x16.size a ≤ S16x16x128.size a
  k0_off473_inb : ∀ k0_t5 : Fin k0_t5_loop.trips, ∀ a, (k0_off473 k0_t5) a + S1x1x16.size a ≤ S16x16x128.size a
  k0_off474_inb : ∀ k0_t5 : Fin k0_t5_loop.trips, ∀ a, (k0_off474 k0_t5) a + S1x1x16.size a ≤ S16x16x128.size a
  k0_off475_inb : ∀ k0_t5 : Fin k0_t5_loop.trips, ∀ a, (k0_off475 k0_t5) a + S1x1x16.size a ≤ S16x16x128.size a
  k0_off476_inb : ∀ k0_t5 : Fin k0_t5_loop.trips, ∀ a, (k0_off476 k0_t5) a + S1x1x16.size a ≤ S16x16x128.size a
  k0_off477_inb : ∀ k0_t5 : Fin k0_t5_loop.trips, ∀ a, (k0_off477 k0_t5) a + S1x1x16.size a ≤ S16x16x128.size a
  k0_off478_inb : ∀ k0_t5 : Fin k0_t5_loop.trips, ∀ a, (k0_off478 k0_t5) a + S1x1x16.size a ≤ S16x16x128.size a
  k0_off479_inb : ∀ k0_t5 : Fin k0_t5_loop.trips, ∀ a, (k0_off479 k0_t5) a + S1x1x16.size a ≤ S16x16x128.size a
  k0_off480_inb : ∀ k0_t5 : Fin k0_t5_loop.trips, ∀ a, (k0_off480 k0_t5) a + S1x1x16.size a ≤ S16x16x128.size a
  k0_off481_inb : ∀ k0_t5 : Fin k0_t5_loop.trips, ∀ a, (k0_off481 k0_t5) a + S1x1x16.size a ≤ S16x16x128.size a
  k0_off482_inb : ∀ k0_t5 : Fin k0_t5_loop.trips, ∀ a, (k0_off482 k0_t5) a + S1x1x16.size a ≤ S16x4x128.size a
  k0_off483_inb : ∀ k0_t5 : Fin k0_t5_loop.trips, ∀ a, (k0_off483 k0_t5) a + S1x1x16.size a ≤ S16x4x128.size a
  k0_off484_inb : ∀ k0_t5 : Fin k0_t5_loop.trips, ∀ a, (k0_off484 k0_t5) a + S1x1x16.size a ≤ S16x4x128.size a
  k0_off485_inb : ∀ k0_t5 : Fin k0_t5_loop.trips, ∀ a, (k0_off485 k0_t5) a + S1x1x16.size a ≤ S16x4x128.size a
  k0_off486_inb : ∀ (i : grid0.Coords) (k0_t4 : Fin (k0_t4_loop i).trips), ∀ a, (k0_off486 i k0_t4) a + S16x4x128.size a ≤ S4096x4x128.size a
  k0_off487_inb : ∀ (i : grid0.Coords) (k0_t4 : Fin (k0_t4_loop i).trips), ∀ (k0_h6 : k0_cond6 i k0_t4 = 1#1), ∀ a, (k0_off487 i k0_t4) a + S16x16x128.size a ≤ S10000x16x128.size a
  k0_t6_ok : k0_t6_loop.OK
  k0_off488_inb : ∀ k0_t6 : Fin k0_t6_loop.trips, ∀ a, (k0_off488 k0_t6) a + S1x1x16.size a ≤ S16x16x128.size a
  k0_off489_inb : ∀ k0_t6 : Fin k0_t6_loop.trips, ∀ a, (k0_off489 k0_t6) a + S1x1x16.size a ≤ S16x16x128.size a
  k0_off490_inb : ∀ k0_t6 : Fin k0_t6_loop.trips, ∀ a, (k0_off490 k0_t6) a + S1x1x16.size a ≤ S16x16x128.size a
  k0_off491_inb : ∀ k0_t6 : Fin k0_t6_loop.trips, ∀ a, (k0_off491 k0_t6) a + S1x1x16.size a ≤ S16x16x128.size a
  k0_off492_inb : ∀ k0_t6 : Fin k0_t6_loop.trips, ∀ a, (k0_off492 k0_t6) a + S1x1x16.size a ≤ S16x16x128.size a
  k0_off493_inb : ∀ k0_t6 : Fin k0_t6_loop.trips, ∀ a, (k0_off493 k0_t6) a + S1x1x16.size a ≤ S16x16x128.size a
  k0_off494_inb : ∀ k0_t6 : Fin k0_t6_loop.trips, ∀ a, (k0_off494 k0_t6) a + S1x1x16.size a ≤ S16x16x128.size a
  k0_off495_inb : ∀ k0_t6 : Fin k0_t6_loop.trips, ∀ a, (k0_off495 k0_t6) a + S1x1x16.size a ≤ S16x16x128.size a
  k0_off496_inb : ∀ k0_t6 : Fin k0_t6_loop.trips, ∀ a, (k0_off496 k0_t6) a + S1x1x16.size a ≤ S16x16x128.size a
  k0_off497_inb : ∀ k0_t6 : Fin k0_t6_loop.trips, ∀ a, (k0_off497 k0_t6) a + S1x1x16.size a ≤ S16x16x128.size a
  k0_off498_inb : ∀ k0_t6 : Fin k0_t6_loop.trips, ∀ a, (k0_off498 k0_t6) a + S1x1x16.size a ≤ S16x16x128.size a
  k0_off499_inb : ∀ k0_t6 : Fin k0_t6_loop.trips, ∀ a, (k0_off499 k0_t6) a + S1x1x16.size a ≤ S16x16x128.size a
  k0_off500_inb : ∀ k0_t6 : Fin k0_t6_loop.trips, ∀ a, (k0_off500 k0_t6) a + S1x1x16.size a ≤ S16x16x128.size a
  k0_off501_inb : ∀ k0_t6 : Fin k0_t6_loop.trips, ∀ a, (k0_off501 k0_t6) a + S1x1x16.size a ≤ S16x16x128.size a
  k0_off502_inb : ∀ k0_t6 : Fin k0_t6_loop.trips, ∀ a, (k0_off502 k0_t6) a + S1x1x16.size a ≤ S16x16x128.size a
  k0_off503_inb : ∀ k0_t6 : Fin k0_t6_loop.trips, ∀ a, (k0_off503 k0_t6) a + S1x1x16.size a ≤ S16x16x128.size a
  k0_off504_inb : ∀ k0_t6 : Fin k0_t6_loop.trips, ∀ a, (k0_off504 k0_t6) a + S1x1x16.size a ≤ S16x4x128.size a
  k0_off505_inb : ∀ k0_t6 : Fin k0_t6_loop.trips, ∀ a, (k0_off505 k0_t6) a + S1x1x16.size a ≤ S16x4x128.size a
  k0_off506_inb : ∀ k0_t6 : Fin k0_t6_loop.trips, ∀ a, (k0_off506 k0_t6) a + S1x1x16.size a ≤ S16x4x128.size a
  k0_off507_inb : ∀ k0_t6 : Fin k0_t6_loop.trips, ∀ a, (k0_off507 k0_t6) a + S1x1x16.size a ≤ S16x4x128.size a
  k0_off508_inb : ∀ k0_t6 : Fin k0_t6_loop.trips, ∀ a, (k0_off508 k0_t6) a + S1x1x16.size a ≤ S16x16x128.size a
  k0_off509_inb : ∀ k0_t6 : Fin k0_t6_loop.trips, ∀ a, (k0_off509 k0_t6) a + S1x1x16.size a ≤ S16x16x128.size a
  k0_off510_inb : ∀ k0_t6 : Fin k0_t6_loop.trips, ∀ a, (k0_off510 k0_t6) a + S1x1x16.size a ≤ S16x16x128.size a
  k0_off511_inb : ∀ k0_t6 : Fin k0_t6_loop.trips, ∀ a, (k0_off511 k0_t6) a + S1x1x16.size a ≤ S16x16x128.size a
  k0_off512_inb : ∀ k0_t6 : Fin k0_t6_loop.trips, ∀ a, (k0_off512 k0_t6) a + S1x1x16.size a ≤ S16x16x128.size a
  k0_off513_inb : ∀ k0_t6 : Fin k0_t6_loop.trips, ∀ a, (k0_off513 k0_t6) a + S1x1x16.size a ≤ S16x16x128.size a
  k0_off514_inb : ∀ k0_t6 : Fin k0_t6_loop.trips, ∀ a, (k0_off514 k0_t6) a + S1x1x16.size a ≤ S16x16x128.size a
  k0_off515_inb : ∀ k0_t6 : Fin k0_t6_loop.trips, ∀ a, (k0_off515 k0_t6) a + S1x1x16.size a ≤ S16x16x128.size a
  k0_off516_inb : ∀ k0_t6 : Fin k0_t6_loop.trips, ∀ a, (k0_off516 k0_t6) a + S1x1x16.size a ≤ S16x16x128.size a
  k0_off517_inb : ∀ k0_t6 : Fin k0_t6_loop.trips, ∀ a, (k0_off517 k0_t6) a + S1x1x16.size a ≤ S16x16x128.size a
  k0_off518_inb : ∀ k0_t6 : Fin k0_t6_loop.trips, ∀ a, (k0_off518 k0_t6) a + S1x1x16.size a ≤ S16x16x128.size a
  k0_off519_inb : ∀ k0_t6 : Fin k0_t6_loop.trips, ∀ a, (k0_off519 k0_t6) a + S1x1x16.size a ≤ S16x16x128.size a
  k0_off520_inb : ∀ k0_t6 : Fin k0_t6_loop.trips, ∀ a, (k0_off520 k0_t6) a + S1x1x16.size a ≤ S16x16x128.size a
  k0_off521_inb : ∀ k0_t6 : Fin k0_t6_loop.trips, ∀ a, (k0_off521 k0_t6) a + S1x1x16.size a ≤ S16x16x128.size a
  k0_off522_inb : ∀ k0_t6 : Fin k0_t6_loop.trips, ∀ a, (k0_off522 k0_t6) a + S1x1x16.size a ≤ S16x16x128.size a
  k0_off523_inb : ∀ k0_t6 : Fin k0_t6_loop.trips, ∀ a, (k0_off523 k0_t6) a + S1x1x16.size a ≤ S16x16x128.size a
  k0_off524_inb : ∀ k0_t6 : Fin k0_t6_loop.trips, ∀ a, (k0_off524 k0_t6) a + S1x1x16.size a ≤ S16x4x128.size a
  k0_off525_inb : ∀ k0_t6 : Fin k0_t6_loop.trips, ∀ a, (k0_off525 k0_t6) a + S1x1x16.size a ≤ S16x4x128.size a
  k0_off526_inb : ∀ k0_t6 : Fin k0_t6_loop.trips, ∀ a, (k0_off526 k0_t6) a + S1x1x16.size a ≤ S16x4x128.size a
  k0_off527_inb : ∀ k0_t6 : Fin k0_t6_loop.trips, ∀ a, (k0_off527 k0_t6) a + S1x1x16.size a ≤ S16x4x128.size a
  k0_off528_inb : ∀ k0_t6 : Fin k0_t6_loop.trips, ∀ a, (k0_off528 k0_t6) a + S1x1x16.size a ≤ S16x16x128.size a
  k0_off529_inb : ∀ k0_t6 : Fin k0_t6_loop.trips, ∀ a, (k0_off529 k0_t6) a + S1x1x16.size a ≤ S16x16x128.size a
  k0_off530_inb : ∀ k0_t6 : Fin k0_t6_loop.trips, ∀ a, (k0_off530 k0_t6) a + S1x1x16.size a ≤ S16x16x128.size a
  k0_off531_inb : ∀ k0_t6 : Fin k0_t6_loop.trips, ∀ a, (k0_off531 k0_t6) a + S1x1x16.size a ≤ S16x16x128.size a
  k0_off532_inb : ∀ k0_t6 : Fin k0_t6_loop.trips, ∀ a, (k0_off532 k0_t6) a + S1x1x16.size a ≤ S16x16x128.size a
  k0_off533_inb : ∀ k0_t6 : Fin k0_t6_loop.trips, ∀ a, (k0_off533 k0_t6) a + S1x1x16.size a ≤ S16x16x128.size a
  k0_off534_inb : ∀ k0_t6 : Fin k0_t6_loop.trips, ∀ a, (k0_off534 k0_t6) a + S1x1x16.size a ≤ S16x16x128.size a
  k0_off535_inb : ∀ k0_t6 : Fin k0_t6_loop.trips, ∀ a, (k0_off535 k0_t6) a + S1x1x16.size a ≤ S16x16x128.size a
  k0_off536_inb : ∀ k0_t6 : Fin k0_t6_loop.trips, ∀ a, (k0_off536 k0_t6) a + S1x1x16.size a ≤ S16x16x128.size a
  k0_off537_inb : ∀ k0_t6 : Fin k0_t6_loop.trips, ∀ a, (k0_off537 k0_t6) a + S1x1x16.size a ≤ S16x16x128.size a
  k0_off538_inb : ∀ k0_t6 : Fin k0_t6_loop.trips, ∀ a, (k0_off538 k0_t6) a + S1x1x16.size a ≤ S16x16x128.size a
  k0_off539_inb : ∀ k0_t6 : Fin k0_t6_loop.trips, ∀ a, (k0_off539 k0_t6) a + S1x1x16.size a ≤ S16x16x128.size a
  k0_off540_inb : ∀ k0_t6 : Fin k0_t6_loop.trips, ∀ a, (k0_off540 k0_t6) a + S1x1x16.size a ≤ S16x16x128.size a
  k0_off541_inb : ∀ k0_t6 : Fin k0_t6_loop.trips, ∀ a, (k0_off541 k0_t6) a + S1x1x16.size a ≤ S16x16x128.size a
  k0_off542_inb : ∀ k0_t6 : Fin k0_t6_loop.trips, ∀ a, (k0_off542 k0_t6) a + S1x1x16.size a ≤ S16x16x128.size a
  k0_off543_inb : ∀ k0_t6 : Fin k0_t6_loop.trips, ∀ a, (k0_off543 k0_t6) a + S1x1x16.size a ≤ S16x16x128.size a
  k0_off544_inb : ∀ k0_t6 : Fin k0_t6_loop.trips, ∀ a, (k0_off544 k0_t6) a + S1x1x16.size a ≤ S16x4x128.size a
  k0_off545_inb : ∀ k0_t6 : Fin k0_t6_loop.trips, ∀ a, (k0_off545 k0_t6) a + S1x1x16.size a ≤ S16x4x128.size a
  k0_off546_inb : ∀ k0_t6 : Fin k0_t6_loop.trips, ∀ a, (k0_off546 k0_t6) a + S1x1x16.size a ≤ S16x4x128.size a
  k0_off547_inb : ∀ k0_t6 : Fin k0_t6_loop.trips, ∀ a, (k0_off547 k0_t6) a + S1x1x16.size a ≤ S16x4x128.size a
  k0_off548_inb : ∀ k0_t6 : Fin k0_t6_loop.trips, ∀ a, (k0_off548 k0_t6) a + S1x1x16.size a ≤ S16x16x128.size a
  k0_off549_inb : ∀ k0_t6 : Fin k0_t6_loop.trips, ∀ a, (k0_off549 k0_t6) a + S1x1x16.size a ≤ S16x16x128.size a
  k0_off550_inb : ∀ k0_t6 : Fin k0_t6_loop.trips, ∀ a, (k0_off550 k0_t6) a + S1x1x16.size a ≤ S16x16x128.size a
  k0_off551_inb : ∀ k0_t6 : Fin k0_t6_loop.trips, ∀ a, (k0_off551 k0_t6) a + S1x1x16.size a ≤ S16x16x128.size a
  k0_off552_inb : ∀ k0_t6 : Fin k0_t6_loop.trips, ∀ a, (k0_off552 k0_t6) a + S1x1x16.size a ≤ S16x16x128.size a
  k0_off553_inb : ∀ k0_t6 : Fin k0_t6_loop.trips, ∀ a, (k0_off553 k0_t6) a + S1x1x16.size a ≤ S16x16x128.size a
  k0_off554_inb : ∀ k0_t6 : Fin k0_t6_loop.trips, ∀ a, (k0_off554 k0_t6) a + S1x1x16.size a ≤ S16x16x128.size a
  k0_off555_inb : ∀ k0_t6 : Fin k0_t6_loop.trips, ∀ a, (k0_off555 k0_t6) a + S1x1x16.size a ≤ S16x16x128.size a
  k0_off556_inb : ∀ k0_t6 : Fin k0_t6_loop.trips, ∀ a, (k0_off556 k0_t6) a + S1x1x16.size a ≤ S16x16x128.size a
  k0_off557_inb : ∀ k0_t6 : Fin k0_t6_loop.trips, ∀ a, (k0_off557 k0_t6) a + S1x1x16.size a ≤ S16x16x128.size a
  k0_off558_inb : ∀ k0_t6 : Fin k0_t6_loop.trips, ∀ a, (k0_off558 k0_t6) a + S1x1x16.size a ≤ S16x16x128.size a
  k0_off559_inb : ∀ k0_t6 : Fin k0_t6_loop.trips, ∀ a, (k0_off559 k0_t6) a + S1x1x16.size a ≤ S16x16x128.size a
  k0_off560_inb : ∀ k0_t6 : Fin k0_t6_loop.trips, ∀ a, (k0_off560 k0_t6) a + S1x1x16.size a ≤ S16x16x128.size a
  k0_off561_inb : ∀ k0_t6 : Fin k0_t6_loop.trips, ∀ a, (k0_off561 k0_t6) a + S1x1x16.size a ≤ S16x16x128.size a
  k0_off562_inb : ∀ k0_t6 : Fin k0_t6_loop.trips, ∀ a, (k0_off562 k0_t6) a + S1x1x16.size a ≤ S16x16x128.size a
  k0_off563_inb : ∀ k0_t6 : Fin k0_t6_loop.trips, ∀ a, (k0_off563 k0_t6) a + S1x1x16.size a ≤ S16x16x128.size a
  k0_off564_inb : ∀ k0_t6 : Fin k0_t6_loop.trips, ∀ a, (k0_off564 k0_t6) a + S1x1x16.size a ≤ S16x4x128.size a
  k0_off565_inb : ∀ k0_t6 : Fin k0_t6_loop.trips, ∀ a, (k0_off565 k0_t6) a + S1x1x16.size a ≤ S16x4x128.size a
  k0_off566_inb : ∀ k0_t6 : Fin k0_t6_loop.trips, ∀ a, (k0_off566 k0_t6) a + S1x1x16.size a ≤ S16x4x128.size a
  k0_off567_inb : ∀ k0_t6 : Fin k0_t6_loop.trips, ∀ a, (k0_off567 k0_t6) a + S1x1x16.size a ≤ S16x4x128.size a
  k0_off568_inb : ∀ k0_t6 : Fin k0_t6_loop.trips, ∀ a, (k0_off568 k0_t6) a + S1x1x16.size a ≤ S16x16x128.size a
  k0_off569_inb : ∀ k0_t6 : Fin k0_t6_loop.trips, ∀ a, (k0_off569 k0_t6) a + S1x1x16.size a ≤ S16x16x128.size a
  k0_off570_inb : ∀ k0_t6 : Fin k0_t6_loop.trips, ∀ a, (k0_off570 k0_t6) a + S1x1x16.size a ≤ S16x16x128.size a
  k0_off571_inb : ∀ k0_t6 : Fin k0_t6_loop.trips, ∀ a, (k0_off571 k0_t6) a + S1x1x16.size a ≤ S16x16x128.size a
  k0_off572_inb : ∀ k0_t6 : Fin k0_t6_loop.trips, ∀ a, (k0_off572 k0_t6) a + S1x1x16.size a ≤ S16x16x128.size a
  k0_off573_inb : ∀ k0_t6 : Fin k0_t6_loop.trips, ∀ a, (k0_off573 k0_t6) a + S1x1x16.size a ≤ S16x16x128.size a
  k0_off574_inb : ∀ k0_t6 : Fin k0_t6_loop.trips, ∀ a, (k0_off574 k0_t6) a + S1x1x16.size a ≤ S16x16x128.size a
  k0_off575_inb : ∀ k0_t6 : Fin k0_t6_loop.trips, ∀ a, (k0_off575 k0_t6) a + S1x1x16.size a ≤ S16x16x128.size a
  k0_off576_inb : ∀ k0_t6 : Fin k0_t6_loop.trips, ∀ a, (k0_off576 k0_t6) a + S1x1x16.size a ≤ S16x16x128.size a
  k0_off577_inb : ∀ k0_t6 : Fin k0_t6_loop.trips, ∀ a, (k0_off577 k0_t6) a + S1x1x16.size a ≤ S16x16x128.size a
  k0_off578_inb : ∀ k0_t6 : Fin k0_t6_loop.trips, ∀ a, (k0_off578 k0_t6) a + S1x1x16.size a ≤ S16x16x128.size a
  k0_off579_inb : ∀ k0_t6 : Fin k0_t6_loop.trips, ∀ a, (k0_off579 k0_t6) a + S1x1x16.size a ≤ S16x16x128.size a
  k0_off580_inb : ∀ k0_t6 : Fin k0_t6_loop.trips, ∀ a, (k0_off580 k0_t6) a + S1x1x16.size a ≤ S16x16x128.size a
  k0_off581_inb : ∀ k0_t6 : Fin k0_t6_loop.trips, ∀ a, (k0_off581 k0_t6) a + S1x1x16.size a ≤ S16x16x128.size a
  k0_off582_inb : ∀ k0_t6 : Fin k0_t6_loop.trips, ∀ a, (k0_off582 k0_t6) a + S1x1x16.size a ≤ S16x16x128.size a
  k0_off583_inb : ∀ k0_t6 : Fin k0_t6_loop.trips, ∀ a, (k0_off583 k0_t6) a + S1x1x16.size a ≤ S16x16x128.size a
  k0_off584_inb : ∀ k0_t6 : Fin k0_t6_loop.trips, ∀ a, (k0_off584 k0_t6) a + S1x1x16.size a ≤ S16x4x128.size a
  k0_off585_inb : ∀ k0_t6 : Fin k0_t6_loop.trips, ∀ a, (k0_off585 k0_t6) a + S1x1x16.size a ≤ S16x4x128.size a
  k0_off586_inb : ∀ k0_t6 : Fin k0_t6_loop.trips, ∀ a, (k0_off586 k0_t6) a + S1x1x16.size a ≤ S16x4x128.size a
  k0_off587_inb : ∀ k0_t6 : Fin k0_t6_loop.trips, ∀ a, (k0_off587 k0_t6) a + S1x1x16.size a ≤ S16x4x128.size a
  k0_off588_inb : ∀ k0_t6 : Fin k0_t6_loop.trips, ∀ a, (k0_off588 k0_t6) a + S1x1x16.size a ≤ S16x16x128.size a
  k0_off589_inb : ∀ k0_t6 : Fin k0_t6_loop.trips, ∀ a, (k0_off589 k0_t6) a + S1x1x16.size a ≤ S16x16x128.size a
  k0_off590_inb : ∀ k0_t6 : Fin k0_t6_loop.trips, ∀ a, (k0_off590 k0_t6) a + S1x1x16.size a ≤ S16x16x128.size a
  k0_off591_inb : ∀ k0_t6 : Fin k0_t6_loop.trips, ∀ a, (k0_off591 k0_t6) a + S1x1x16.size a ≤ S16x16x128.size a
  k0_off592_inb : ∀ k0_t6 : Fin k0_t6_loop.trips, ∀ a, (k0_off592 k0_t6) a + S1x1x16.size a ≤ S16x16x128.size a
  k0_off593_inb : ∀ k0_t6 : Fin k0_t6_loop.trips, ∀ a, (k0_off593 k0_t6) a + S1x1x16.size a ≤ S16x16x128.size a
  k0_off594_inb : ∀ k0_t6 : Fin k0_t6_loop.trips, ∀ a, (k0_off594 k0_t6) a + S1x1x16.size a ≤ S16x16x128.size a
  k0_off595_inb : ∀ k0_t6 : Fin k0_t6_loop.trips, ∀ a, (k0_off595 k0_t6) a + S1x1x16.size a ≤ S16x16x128.size a
  k0_off596_inb : ∀ k0_t6 : Fin k0_t6_loop.trips, ∀ a, (k0_off596 k0_t6) a + S1x1x16.size a ≤ S16x16x128.size a
  k0_off597_inb : ∀ k0_t6 : Fin k0_t6_loop.trips, ∀ a, (k0_off597 k0_t6) a + S1x1x16.size a ≤ S16x16x128.size a
  k0_off598_inb : ∀ k0_t6 : Fin k0_t6_loop.trips, ∀ a, (k0_off598 k0_t6) a + S1x1x16.size a ≤ S16x16x128.size a
  k0_off599_inb : ∀ k0_t6 : Fin k0_t6_loop.trips, ∀ a, (k0_off599 k0_t6) a + S1x1x16.size a ≤ S16x16x128.size a
  k0_off600_inb : ∀ k0_t6 : Fin k0_t6_loop.trips, ∀ a, (k0_off600 k0_t6) a + S1x1x16.size a ≤ S16x16x128.size a
  k0_off601_inb : ∀ k0_t6 : Fin k0_t6_loop.trips, ∀ a, (k0_off601 k0_t6) a + S1x1x16.size a ≤ S16x16x128.size a
  k0_off602_inb : ∀ k0_t6 : Fin k0_t6_loop.trips, ∀ a, (k0_off602 k0_t6) a + S1x1x16.size a ≤ S16x16x128.size a
  k0_off603_inb : ∀ k0_t6 : Fin k0_t6_loop.trips, ∀ a, (k0_off603 k0_t6) a + S1x1x16.size a ≤ S16x16x128.size a
  k0_off604_inb : ∀ k0_t6 : Fin k0_t6_loop.trips, ∀ a, (k0_off604 k0_t6) a + S1x1x16.size a ≤ S16x4x128.size a
  k0_off605_inb : ∀ k0_t6 : Fin k0_t6_loop.trips, ∀ a, (k0_off605 k0_t6) a + S1x1x16.size a ≤ S16x4x128.size a
  k0_off606_inb : ∀ k0_t6 : Fin k0_t6_loop.trips, ∀ a, (k0_off606 k0_t6) a + S1x1x16.size a ≤ S16x4x128.size a
  k0_off607_inb : ∀ k0_t6 : Fin k0_t6_loop.trips, ∀ a, (k0_off607 k0_t6) a + S1x1x16.size a ≤ S16x4x128.size a
  k0_off608_inb : ∀ k0_t6 : Fin k0_t6_loop.trips, ∀ a, (k0_off608 k0_t6) a + S1x1x16.size a ≤ S16x16x128.size a
  k0_off609_inb : ∀ k0_t6 : Fin k0_t6_loop.trips, ∀ a, (k0_off609 k0_t6) a + S1x1x16.size a ≤ S16x16x128.size a
  k0_off610_inb : ∀ k0_t6 : Fin k0_t6_loop.trips, ∀ a, (k0_off610 k0_t6) a + S1x1x16.size a ≤ S16x16x128.size a
  k0_off611_inb : ∀ k0_t6 : Fin k0_t6_loop.trips, ∀ a, (k0_off611 k0_t6) a + S1x1x16.size a ≤ S16x16x128.size a
  k0_off612_inb : ∀ k0_t6 : Fin k0_t6_loop.trips, ∀ a, (k0_off612 k0_t6) a + S1x1x16.size a ≤ S16x16x128.size a
  k0_off613_inb : ∀ k0_t6 : Fin k0_t6_loop.trips, ∀ a, (k0_off613 k0_t6) a + S1x1x16.size a ≤ S16x16x128.size a
  k0_off614_inb : ∀ k0_t6 : Fin k0_t6_loop.trips, ∀ a, (k0_off614 k0_t6) a + S1x1x16.size a ≤ S16x16x128.size a
  k0_off615_inb : ∀ k0_t6 : Fin k0_t6_loop.trips, ∀ a, (k0_off615 k0_t6) a + S1x1x16.size a ≤ S16x16x128.size a
  k0_off616_inb : ∀ k0_t6 : Fin k0_t6_loop.trips, ∀ a, (k0_off616 k0_t6) a + S1x1x16.size a ≤ S16x16x128.size a
  k0_off617_inb : ∀ k0_t6 : Fin k0_t6_loop.trips, ∀ a, (k0_off617 k0_t6) a + S1x1x16.size a ≤ S16x16x128.size a
  k0_off618_inb : ∀ k0_t6 : Fin k0_t6_loop.trips, ∀ a, (k0_off618 k0_t6) a + S1x1x16.size a ≤ S16x16x128.size a
  k0_off619_inb : ∀ k0_t6 : Fin k0_t6_loop.trips, ∀ a, (k0_off619 k0_t6) a + S1x1x16.size a ≤ S16x16x128.size a
  k0_off620_inb : ∀ k0_t6 : Fin k0_t6_loop.trips, ∀ a, (k0_off620 k0_t6) a + S1x1x16.size a ≤ S16x16x128.size a
  k0_off621_inb : ∀ k0_t6 : Fin k0_t6_loop.trips, ∀ a, (k0_off621 k0_t6) a + S1x1x16.size a ≤ S16x16x128.size a
  k0_off622_inb : ∀ k0_t6 : Fin k0_t6_loop.trips, ∀ a, (k0_off622 k0_t6) a + S1x1x16.size a ≤ S16x16x128.size a
  k0_off623_inb : ∀ k0_t6 : Fin k0_t6_loop.trips, ∀ a, (k0_off623 k0_t6) a + S1x1x16.size a ≤ S16x16x128.size a
  k0_off624_inb : ∀ k0_t6 : Fin k0_t6_loop.trips, ∀ a, (k0_off624 k0_t6) a + S1x1x16.size a ≤ S16x4x128.size a
  k0_off625_inb : ∀ k0_t6 : Fin k0_t6_loop.trips, ∀ a, (k0_off625 k0_t6) a + S1x1x16.size a ≤ S16x4x128.size a
  k0_off626_inb : ∀ k0_t6 : Fin k0_t6_loop.trips, ∀ a, (k0_off626 k0_t6) a + S1x1x16.size a ≤ S16x4x128.size a
  k0_off627_inb : ∀ k0_t6 : Fin k0_t6_loop.trips, ∀ a, (k0_off627 k0_t6) a + S1x1x16.size a ≤ S16x4x128.size a
  k0_off628_inb : ∀ k0_t6 : Fin k0_t6_loop.trips, ∀ a, (k0_off628 k0_t6) a + S1x1x16.size a ≤ S16x16x128.size a
  k0_off629_inb : ∀ k0_t6 : Fin k0_t6_loop.trips, ∀ a, (k0_off629 k0_t6) a + S1x1x16.size a ≤ S16x16x128.size a
  k0_off630_inb : ∀ k0_t6 : Fin k0_t6_loop.trips, ∀ a, (k0_off630 k0_t6) a + S1x1x16.size a ≤ S16x16x128.size a
  k0_off631_inb : ∀ k0_t6 : Fin k0_t6_loop.trips, ∀ a, (k0_off631 k0_t6) a + S1x1x16.size a ≤ S16x16x128.size a
  k0_off632_inb : ∀ k0_t6 : Fin k0_t6_loop.trips, ∀ a, (k0_off632 k0_t6) a + S1x1x16.size a ≤ S16x16x128.size a
  k0_off633_inb : ∀ k0_t6 : Fin k0_t6_loop.trips, ∀ a, (k0_off633 k0_t6) a + S1x1x16.size a ≤ S16x16x128.size a
  k0_off634_inb : ∀ k0_t6 : Fin k0_t6_loop.trips, ∀ a, (k0_off634 k0_t6) a + S1x1x16.size a ≤ S16x16x128.size a
  k0_off635_inb : ∀ k0_t6 : Fin k0_t6_loop.trips, ∀ a, (k0_off635 k0_t6) a + S1x1x16.size a ≤ S16x16x128.size a
  k0_off636_inb : ∀ k0_t6 : Fin k0_t6_loop.trips, ∀ a, (k0_off636 k0_t6) a + S1x1x16.size a ≤ S16x16x128.size a
  k0_off637_inb : ∀ k0_t6 : Fin k0_t6_loop.trips, ∀ a, (k0_off637 k0_t6) a + S1x1x16.size a ≤ S16x16x128.size a
  k0_off638_inb : ∀ k0_t6 : Fin k0_t6_loop.trips, ∀ a, (k0_off638 k0_t6) a + S1x1x16.size a ≤ S16x16x128.size a
  k0_off639_inb : ∀ k0_t6 : Fin k0_t6_loop.trips, ∀ a, (k0_off639 k0_t6) a + S1x1x16.size a ≤ S16x16x128.size a
  k0_off640_inb : ∀ k0_t6 : Fin k0_t6_loop.trips, ∀ a, (k0_off640 k0_t6) a + S1x1x16.size a ≤ S16x16x128.size a
  k0_off641_inb : ∀ k0_t6 : Fin k0_t6_loop.trips, ∀ a, (k0_off641 k0_t6) a + S1x1x16.size a ≤ S16x16x128.size a
  k0_off642_inb : ∀ k0_t6 : Fin k0_t6_loop.trips, ∀ a, (k0_off642 k0_t6) a + S1x1x16.size a ≤ S16x16x128.size a
  k0_off643_inb : ∀ k0_t6 : Fin k0_t6_loop.trips, ∀ a, (k0_off643 k0_t6) a + S1x1x16.size a ≤ S16x16x128.size a
  k0_off644_inb : ∀ k0_t6 : Fin k0_t6_loop.trips, ∀ a, (k0_off644 k0_t6) a + S1x1x16.size a ≤ S16x4x128.size a
  k0_off645_inb : ∀ k0_t6 : Fin k0_t6_loop.trips, ∀ a, (k0_off645 k0_t6) a + S1x1x16.size a ≤ S16x4x128.size a
  k0_off646_inb : ∀ k0_t6 : Fin k0_t6_loop.trips, ∀ a, (k0_off646 k0_t6) a + S1x1x16.size a ≤ S16x4x128.size a
  k0_off647_inb : ∀ k0_t6 : Fin k0_t6_loop.trips, ∀ a, (k0_off647 k0_t6) a + S1x1x16.size a ≤ S16x4x128.size a
  k0_off648_inb : ∀ (i : grid0.Coords) (k0_t4 : Fin (k0_t4_loop i).trips), ∀ a, (k0_off648 i k0_t4) a + S16x4x128.size a ≤ S4096x4x128.size a
  k0_off649_inb : ∀ (i : grid0.Coords) (k0_t4 : Fin (k0_t4_loop i).trips), ∀ (k0_h8 : k0_cond8 i k0_t4 = 1#1), ∀ a, (k0_off649 i k0_t4) a + S16x16x128.size a ≤ S10000x16x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S984x16x128.size a < S10000x16x128.size a
  hwx1_0 : ∀ i : grid1.Coords, EltTy.bits .f32 = 32 ∨ (Rect.unit (s := S10000x16x128) (fun a => cc1_transform_0 i a * S984x16x128.size a) (fun a => (Pipeline.Clip.of (cc1_transform_0 i a) (S984x16x128.size a) (S10000x16x128.size a)).extent (S984x16x128.size a)) fun a => Pipeline.Clip.inb (Pipeline.Clip.ok_of (hstart1_0 i a))).WholeWords (EltTy.packing .f32)
  hwxs1_0 : ∀ i : grid1.Coords, EltTy.bits .f32 = 32 ∨ (Rect.unit (s := S984x16x128) (fun _ => 0) (fun a => (Pipeline.Clip.of (cc1_transform_0 i a) (S984x16x128.size a) (S10000x16x128.size a)).extent (S984x16x128.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S984x4x128.size a < S10000x4x128.size a
  hwx1_1 : ∀ i : grid1.Coords, EltTy.bits .f32 = 32 ∨ (Rect.unit (s := S10000x4x128) (fun a => cc1_transform_1 i a * S984x4x128.size a) (fun a => (Pipeline.Clip.of (cc1_transform_1 i a) (S984x4x128.size a) (S10000x4x128.size a)).extent (S984x4x128.size a)) fun a => Pipeline.Clip.inb (Pipeline.Clip.ok_of (hstart1_1 i a))).WholeWords (EltTy.packing .f32)
  hwxs1_1 : ∀ i : grid1.Coords, EltTy.bits .f32 = 32 ∨ (Rect.unit (s := S984x4x128) (fun _ => 0) (fun a => (Pipeline.Clip.of (cc1_transform_1 i a) (S984x4x128.size a) (S10000x4x128.size a)).extent (S984x4x128.size a)) fun a => (Nat.zero_add _).trans_le (Pipeline.Clip.extent_le (Pipeline.Clip.ok_of (hstart1_1 i a)))).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scratch6 : DmaSems sig S_ := SemArray.consecutive 2 S_ hcc0_scratch6
abbrev cc0_scratch7 : DmaSems sig S_ := SemArray.consecutive 3 S_ hcc0_scratch7

abbrev win1_0 : Pipeline.Window sig grid1 :=
  Pipeline.Window.ofSpecClip (Memref.whole main_arg0) S984x16x128.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpecClip (Memref.whole main_v1) S984x4x128.size cc1_transform_1 reads1_1 true false 2 stage1_1 sem1_1
    hrank1 hreads1_1 hstart1_1 nbuf1_1 (Memref.isWhole_whole _) hwx1_1 hwxs1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S10000x16x128 : Shape := ⟨3, ![10000, 16, 128]⟩
abbrev S16 : Shape := ⟨1, ![16]⟩
abbrev S4 : Shape := ⟨1, ![4]⟩
abbrev S_ : Shape := ⟨0, ![]⟩
abbrev S10000x4x128 : Shape := ⟨3, ![10000, 4, 128]⟩
abbrev S16x1 : Shape := ⟨2, ![16, 1]⟩
abbrev S1x4x1 : Shape := ⟨3, ![1, 4, 1]⟩

abbrev nBuf : Space → Nat
  | .hbm => 18
  | .vmem => 0
  | .smem => 0
  | _ => 0

abbrev bufTy : (tb : Table) → Fin (tcTables nBuf tb) → BufTy
  | .hbm, ⟨0, _⟩ => ⟨S10000x16x128, .f32⟩
  | .hbm, ⟨1, _⟩ => ⟨S16, .i32⟩
  | .hbm, ⟨2, _⟩ => ⟨S4, .f32⟩
  | .hbm, ⟨3, _⟩ => ⟨S10000x16x128, .f32⟩
  | .hbm, ⟨4, _⟩ => ⟨S_, .f32⟩
  | .hbm, ⟨5, _⟩ => ⟨S10000x4x128, .f32⟩
  | .hbm, ⟨6, _⟩ => ⟨S_, .i32⟩
  | .hbm, ⟨7, _⟩ => ⟨S16, .i32⟩
  | .hbm, ⟨8, _⟩ => ⟨S16, .i1⟩
  | .hbm, ⟨9, _⟩ => ⟨S_, .i32⟩
  | .hbm, ⟨10, _⟩ => ⟨S16, .i32⟩
  | .hbm, ⟨11, _⟩ => ⟨S16, .i32⟩
  | .hbm, ⟨12, _⟩ => ⟨S16, .i32⟩
  | .hbm, ⟨13, _⟩ => ⟨S16x1, .i32⟩
  | .hbm, ⟨14, _⟩ => ⟨S10000x4x128, .f32⟩
  | .hbm, ⟨15, _⟩ => ⟨S1x4x1, .f32⟩
  | .hbm, ⟨16, _⟩ => ⟨S10000x4x128, .f32⟩
  | .hbm, ⟨17, _⟩ => ⟨S10000x4x128, .f32⟩
  | _, _ => ⟨S10000x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_c_1 : Ref sig .tc := ⟨.hbm, 6, rfl⟩
abbrev main_v2 : Ref sig .tc := ⟨.hbm, 7, rfl⟩
abbrev main_v3 : Ref sig .tc := ⟨.hbm, 8, rfl⟩
abbrev main_c_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]

class Facts₀ : Prop where
  bcast_S_S10000x4x128 : S_.BroadcastsInDim S10000x4x128 (![] : Fin 0 → Fin S10000x4x128.rank)
  bcast_S_S16 : S_.BroadcastsInDim S16 (![] : Fin 0 → Fin S16.rank)
  bcast_S16_S16x1_0 : S16.BroadcastsInDim S16x1 (![0] : Fin 1 → Fin S16x1.rank)
  bcast_S4_S1x4x1_1 : S4.BroadcastsInDim S1x4x1 (![1] : Fin 1 → Fin S1x4x1.rank)
  bcast_S1x4x1_S10000x4x128_0_1_2 : S1x4x1.BroadcastsInDim S10000x4x128 (![0, 1, 2] : Fin 3 → Fin S10000x4x128.rank)
  scatter_S10000x4x128_S16x1_S10000x16x128_02_1_1_1_wf : ScatterDims.WF S10000x4x128 S16x1 S10000x16x128 [0, 2] [1] [1] 1

variable [Facts₀]

def scatter_S10000x4x128_S16x1_S10000x16x128_02_1_1_1 : ScatterDims S10000x4x128 S16x1 S10000x16x128 where
  updateWindowDims := [0, 2]
  insertedWindowDims := [1]
  scatterDimsToOperandDims := [1]
  indexVectorDim := 1
  wf := scatter_S10000x4x128_S16x1_S10000x16x128_02_1_1_1_wf

class Facts : Prop extends Facts₀ where

variable [Facts]
-- ==== Proof.Spec.lean ====
/-
  The function both programs compute, stated once over the argument array and imported by both sides.

  The input is 10000 nodes × 16 components × 128 channels.  The 16 components are the coordinates of four
  irreducible pieces of dimensions 1, 3, 5, 7 (components 0 | 1–3 | 4–8 | 9–15).  For node `n`, piece `k` and
  channel `c` the result is the squared norm of the piece, scaled by the float nearest to 1/dim:

      out[n, k, c] = (Σ_{r in piece k} x[n, r, c]²) · s_k,      s = (1, f32(1/3), f32(1/5), f32(1/7)).

  The sum is written over all 16 components with the ones outside piece `k` contributing 0, so that it is
  one `Finset.sum` whatever the piece.  On the extended reals addition and multiplication are commutative and
  associative, which is all that relating two groupings of this sum needs.
-/
import Idealize.ShloMosaic.PureOps.Ideal
import Idealize.ShloMosaic.Lib.ValueIdx

noncomputable section

namespace Cert.SqNorm

open Idealize.ShloMosaic Idealize.ShloMosaic.ValueIdx

/-- nodes × components × channels -/
abbrev SIn : Shape := ⟨3, ![10000, 16, 128]⟩
/-- nodes × pieces × channels -/
abbrev SOut : Shape := ⟨3, ![10000, 4, 128]⟩

/-- The piece each of the 16 components belongs to. -/
def seg : Fin 16 → Fin 4 := ![0, 1, 1, 1, 2, 2, 2, 2, 2, 3, 3, 3, 3, 3, 3, 3]

/-- The binary32 words of the four scales 1, 1/3, 1/5, 1/7 (each rounded to nearest). -/
def scaleBits : Fin 4 → BitVec 32 := ![0x3F800000#32, 0x3EAAAAAB#32, 0x3E4CCCCD#32, 0x3E124925#32]

/-- The scaled squared norm of piece `k` of node `n` in channel `c`. -/
def sqnorm (x : FVec Ideal SIn .f32) (n : Fin 10000) (k : Fin 4) (c : Fin 128) : EReal :=
  (∑ r : Fin 16, if seg r = k then x (ix3 n r c) * x (ix3 n r c) else 0) * Ideal.ofBits .f32 (scaleBits k)

/-- The whole result array as a function of the whole argument array. -/
def G (x : FVec Ideal SIn .f32) : FVec Ideal SOut .f32 := fun j => sqnorm x (j 0) (j 1) (j 2)

theorem G_apply (x : FVec Ideal SIn .f32) (n : Fin 10000) (k : Fin 4) (c : Fin 128) :
    G x (ix3 n k c) = sqnorm x n k c := rfl

end Cert.SqNorm

end
-- ==== Proof.RefRun.lean ====
/-
  The reference program's run, read back.

  The reference's @main is a straight line of 17 array operations: it squares the argument entry by entry, builds an
  all-zero array of the result's shape, normalises the 16 segment numbers (a negative number would have 4 added; none is
  negative), adds each squared component row into the result row its segment number names, and multiplies by the four scales
  spread over the node and channel axes.  Here the line is listed as data, shown equal to the program's @main, and run: every
  weakly fair execution terminates, the result array ends at the operations' composed term `refTerm` of the argument
  array, and the argument array ends unchanged.  What number that term holds at each entry is the subject of the next module.
-/
import proofs.«216336_g7232724927063_cont_9to1_m_658_15_alg».proof.ReferenceIdeal
import proofs.«216336_g7232724927063_cont_9to1_m_658_15_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 17 operations, in order. -/
abbrev ops : List (HloOp τ sig (Elt F)) :=
  [
    StableHlo.nullary main_c (fun i => lit0 (S16.rowMajor i)),
    StableHlo.nullary main_cst (fun i => FloatOps.ofBits .f32 (lit1 (S4.rowMajor i))),
    StableHlo.binary main_arg0 main_arg0 main_v0 (mulf : (⟨S10000x16x128, .f32⟩ : BufTy).Contents (Elt F) → (⟨S10000x16x128, .f32⟩ : BufTy).Contents (Elt F) → (⟨S10000x16x128, .f32⟩ : BufTy).Contents (Elt F)),
    StableHlo.nullary main_cst_0 (constant S_ .f32 0x00000000#32),
    StableHlo.unary main_cst_0 main_v1 (broadcastInDim S10000x4x128 ![] bcast_S_S10000x4x128 : (⟨S_, .f32⟩ : BufTy).Contents (Elt F) → (⟨S10000x4x128, .f32⟩ : BufTy).Contents (Elt F)),
    StableHlo.nullary main_c_1 (constantI S_ 32 0#32),
    StableHlo.unary main_c_1 main_v2 (broadcastInDim S16 ![] bcast_S_S16 : (⟨S_, .i32⟩ : BufTy).Contents (Elt F) → (⟨S16, .i32⟩ : BufTy).Contents (Elt F)),
    StableHlo.binary main_c main_v2 main_v3 (cmpi .slt : (⟨S16, .i32⟩ : BufTy).Contents (Elt F) → (⟨S16, .i32⟩ : BufTy).Contents (Elt F) → (⟨S16, .i1⟩ : BufTy).Contents (Elt F)),
    StableHlo.nullary main_c_2 (constantI S_ 32 4#32),
    StableHlo.unary main_c_2 main_v4 (broadcastInDim S16 ![] bcast_S_S16 : (⟨S_, .i32⟩ : BufTy).Contents (Elt F) → (⟨S16, .i32⟩ : BufTy).Contents (Elt F)),
    StableHlo.binary main_c main_v4 main_v5 (addi : (⟨S16, .i32⟩ : BufTy).Contents (Elt F) → (⟨S16, .i32⟩ : BufTy).Contents (Elt F) → (⟨S16, .i32⟩ : BufTy).Contents (Elt F)),
    StableHlo.ternary main_v3 main_v5 main_c main_v6 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    StableHlo.unary main_v6 main_v7 (broadcastInDim S16x1 ![0] bcast_S16_S16x1_0 : (⟨S16, .i32⟩ : BufTy).Contents (Elt F) → (⟨S16x1, .i32⟩ : BufTy).Contents (Elt F)),
    StableHlo.ternary main_v1 main_v7 main_v0 main_v8 ((fun x i u => Host.scatterAdd scatter_S10000x4x128_S16x1_S10000x16x128_02_1_1_1 x i u) : (⟨S10000x4x128, .f32⟩ : BufTy).Contents (Elt F) → (⟨S16x1, .i32⟩ : BufTy).Contents (Elt F) → (⟨S10000x16x128, .f32⟩ : BufTy).Contents (Elt F) → (⟨S10000x4x128, .f32⟩ : BufTy).Contents (Elt F)),
    StableHlo.unary main_cst main_v9 (broadcastInDim S1x4x1 ![1] bcast_S4_S1x4x1_1 : (⟨S4, .f32⟩ : BufTy).Contents (Elt F) → (⟨S1x4x1, .f32⟩ : BufTy).Contents (Elt F)),
    StableHlo.unary main_v9 main_v10 (broadcastInDim S10000x4x128 ![0, 1, 2] bcast_S1x4x1_S10000x4x128_0_1_2 : (⟨S1x4x1, .f32⟩ : BufTy).Contents (Elt F) → (⟨S10000x4x128, .f32⟩ : BufTy).Contents (Elt F)),
    StableHlo.binary main_v8 main_v10 main_v11 (mulf : (⟨S10000x4x128, .f32⟩ : BufTy).Contents (Elt F) → (⟨S10000x4x128, .f32⟩ : BufTy).Contents (Elt F) → (⟨S10000x4x128, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., binary_bufs_sub .., nullary_bufs_sub .., unary_bufs_sub .., nullary_bufs_sub .., unary_bufs_sub .., binary_bufs_sub .., nullary_bufs_sub .., unary_bufs_sub .., binary_bufs_sub .., ternary_bufs_sub .., unary_bufs_sub .., ternary_bufs_sub .., unary_bufs_sub .., unary_bufs_sub .., binary_bufs_sub ..⟩

/-- The 16 segment numbers as the program tabulates them. -/
def segTable : (⟨S16, .i32⟩ : BufTy).Contents (Elt F) := fun i => lit0 (S16.rowMajor i)

/-- The four scales as the program tabulates them. -/
def scaleTable : (⟨S4, .f32⟩ : BufTy).Contents (Elt F) := fun i => FloatOps.ofBits .f32 (lit1 (S4.rowMajor i))

/-- The segment numbers after the negative-index normalisation (a number below 0 has 4 added), as a 16 × 1 column. -/
def idxCol : (⟨S16x1, .i32⟩ : BufTy).Contents (Elt F) :=
  broadcastInDim S16x1 ![0] bcast_S16_S16x1_0
    (select (cmpi .slt (segTable (F := F)) (broadcastInDim S16 ![] bcast_S_S16 (constantI S_ 32 0#32)))
      (addi (segTable (F := F)) (broadcastInDim S16 ![] bcast_S_S16 (constantI S_ 32 4#32))) (segTable (F := F)))

/-- The all-zero array the squares are added into. -/
def zeros : (⟨S10000x4x128, .f32⟩ : BufTy).Contents (Elt F) :=
  broadcastInDim S10000x4x128 ![] bcast_S_S10000x4x128 (constant S_ .f32 0x00000000#32)

/-- The scales spread over nodes and channels. -/
def scales : (⟨S10000x4x128, .f32⟩ : BufTy).Contents (Elt F) :=
  broadcastInDim S10000x4x128 ![0, 1, 2] bcast_S1x4x1_S10000x4x128_0_1_2
    (broadcastInDim S1x4x1 ![1] bcast_S4_S1x4x1_1 (scaleTable (F := F)))

/-- The result array as the operations' composed term of the argument array. -/
def refTerm (x : (⟨S10000x16x128, .f32⟩ : BufTy).Contents (Elt F)) : (⟨S10000x4x128, .f32⟩ : BufTy).Contents (Elt F) :=
  mulf (Host.scatterAdd scatter_S10000x4x128_S16x1_S10000x16x128_02_1_1_1 (zeros (F := F)) (idxCol (F := F)) (mulf x x))
    (scales (F := F))

/-- On every device, for any float values, from any memory with zero counters: every weakly fair execution of
    @main terminates with the result at the operations' composed term of the argument and the argument unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v11).trans (by after_results; rfl),
      (h c main_arg0).trans (by after_results)⟩)
    (run_seq scopedRefs_eq scopedSems_eq defs main (fun _ => ops) main_eq (fun _ => ops_sub) m ρ)

end Cert.ReferenceIdeal.RefValue

end
-- ==== Proof.LibScatterMid.lean ====
/-
  The host's accumulating scatter read at an entry, at the ideal values, for the layout in which a list of E indices
  (an E×1 column of integers) addresses the MIDDLE axis of a three-axis array: an N×E×C array of updates is added into an
  N×K×C array, update slice e (all its N×C entries, first and last coordinates kept) going to the middle position its
  index names.  An update whose index, read signed, is not a middle position of the array is dropped.  Entry (n, k, c) of
  the result is the array's entry plus the sum, over the updates e whose index is k, of update entry (n, e, c).
  Also: a sum over the indices of a three-axis array is the triple sum over its coordinates.  General facts.
-/
import Idealize.ShloMosaic.PureOps.Ideal
import Idealize.ShloMosaic.PureOps.Ideal.Laws
import Idealize.ShloMosaic.Lib.ValueIdx

noncomputable section

namespace Cert.LibScatterMid

open Idealize.ShloMosaic Idealize.ShloMosaic.ValueIdx

/-! ## Sums over the indices of a three-axis array -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## Slices of an N×E×C array added at middle positions of an N×K×C array -/

variable {N E K C w : Nat}

/-- The dimension numbers of a middle-axis scatter: the index column names the operand's middle position; the update's
    first and last axes are the window along the operand's first and last axes. -/
abbrev midDims (wf : ScatterDims.WF ⟨3, ![N, K, C]⟩ ⟨2, ![E, 1]⟩ ⟨3, ![N, E, C]⟩ [0, 2] [1] [1] 1) :
    ScatterDims ⟨3, ![N, K, C]⟩ ⟨2, ![E, 1]⟩ ⟨3, ![N, E, C]⟩ :=
  { updateWindowDims := [0, 2], insertedWindowDims := [1], scatterDimsToOperandDims := [1], indexVectorDim := 1, wf := wf }

theorem midDims_start0 (wf) (idx : IVec ⟨2, ![E, 1]⟩ w) (n : Fin N) (e : Fin E) (c : Fin C) :
    (midDims (K := K) wf).start (ix3 n e c) idx 0 = 0 := by
  unfold ScatterDims.start
  rw [dif_neg (show (0 : Fin 3) ∉ ([1] : List (Fin 3)) by decide)]

theorem midDims_start1 (wf) (idx : IVec ⟨2, ![E, 1]⟩ w) (n : Fin N) (e : Fin E) (c : Fin C) :
    (midDims (K := K) wf).start (ix3 n e c) idx 1 = (idx (ix2 e 0)).toInt := by
  unfold ScatterDims.start
  rw [dif_pos (List.mem_singleton.mpr rfl)]
  congr 2
  funext b; refine Fin.ext ?_
  match b with
  | ⟨0, _⟩ => rfl
  | ⟨1, _⟩ => rfl

theorem midDims_start2 (wf) (idx : IVec ⟨2, ![E, 1]⟩ w) (n : Fin N) (e : Fin E) (c : Fin C) :
    (midDims (K := K) wf).start (ix3 n e c) idx 2 = 0 := by
  unfold ScatterDims.start
  rw [dif_neg (show (2 : Fin 3) ∉ ([1] : List (Fin 3)) by decide)]

theorem midDims_window0 (wf) (n : Fin N) (e : Fin E) (c : Fin C) :
    (midDims (K := K) wf).window (ix3 n e c) 0 = n.val := by
  unfold ScatterDims.window
  have h : (0 : Fin 3) ∈ (midDims (N := N) (E := E) (K := K) (C := C) wf).sKept := by
    show (0 : Fin 3) ∈ (List.finRange 3).filter (· ∉ ([1] : List (Fin 3))); decide
  rw [dif_pos h]
  rfl

theorem midDims_window1 (wf) (n : Fin N) (e : Fin E) (c : Fin C) :
    (midDims (K := K) wf).window (ix3 n e c) 1 = 0 := by
  unfold ScatterDims.window
  have h : (1 : Fin 3) ∉ (midDims (N := N) (E := E) (K := K) (C := C) wf).sKept := by
    show (1 : Fin 3) ∉ (List.finRange 3).filter (· ∉ ([1] : List (Fin 3))); decide
  rw [dif_neg h]

theorem midDims_window2 (wf) (n : Fin N) (e : Fin E) (c : Fin C) :
    (midDims (K := K) wf).window (ix3 n e c) 2 = c.val := by
  unfold ScatterDims.window
  have h : (2 : Fin 3) ∈ (midDims (N := N) (E := E) (K := K) (C := C) wf).sKept := by
    show (2 : Fin 3) ∈ (List.finRange 3).filter (· ∉ ([1] : List (Fin 3))); decide
  rw [dif_pos h]
  rfl

/-- Update entry (n', e, c') lands on entry (n, k, c) exactly when update e's index is k and the outer coordinates agree. -/
theorem midDims_lands_iff (wf) (idx : IVec ⟨2, ![E, 1]⟩ w) (n' n : Fin N) (e : Fin E) (c' c : Fin C) (k : Fin K) :
    (midDims (K := K) wf).resultIdx? (ix3 n' e c') idx = some (ix3 n k c)
      ↔ n' = n ∧ (idx (ix2 e 0)).toInt = (k.val : ℤ) ∧ c' = c := by
  have hn := n.isLt
  have hn' := n'.isLt
  have hk := k.isLt
  have hc := c.isLt
  have hc' := c'.isLt
  unfold ScatterDims.resultIdx?
  split
  · rename_i h
    rw [Option.some.injEq]
    constructor
    · intro hf
      have h0 : ((midDims (K := K) wf).start (ix3 n' e c') idx 0 + ((midDims (K := K) wf).window (ix3 n' e c') 0 : ℕ)).toNat = n.val :=
        congrArg (fun f : (⟨3, ![N, K, C]⟩ : Shape).Idx => (f 0).val) hf
      have h1 : ((midDims (K := K) wf).start (ix3 n' e c') idx 1 + ((midDims (K := K) wf).window (ix3 n' e c') 1 : ℕ)).toNat = k.val :=
        congrArg (fun f : (⟨3, ![N, K, C]⟩ : Shape).Idx => (f 1).val) hf
      have h2 : ((midDims (K := K) wf).start (ix3 n' e c') idx 2 + ((midDims (K := K) wf).window (ix3 n' e c') 2 : ℕ)).toNat = c.val :=
        congrArg (fun f : (⟨3, ![N, K, C]⟩ : Shape).Idx => (f 2).val) hf
      have g1 := (h 1).1
      rw [midDims_start0, midDims_window0] at h0
      rw [midDims_start1, midDims_window1] at h1 g1
      rw [midDims_start2, midDims_window2] at h2
      exact ⟨Fin.ext (by omega), by omega, Fin.ext (by omega)⟩
    · rintro ⟨rfl, h1, rfl⟩
      funext a; refine Fin.ext ?_
      match a with
      | ⟨0, _⟩ =>
        show ((midDims (K := K) wf).start (ix3 n' e c') idx 0 + ((midDims (K := K) wf).window (ix3 n' e c') 0 : ℕ)).toNat = n'.val
        rw [midDims_start0, midDims_window0]; omega
      | ⟨1, _⟩ =>
        show ((midDims (K := K) wf).start (ix3 n' e c') idx 1 + ((midDims (K := K) wf).window (ix3 n' e c') 1 : ℕ)).toNat = k.val
        rw [midDims_start1, midDims_window1, h1]; omega
      | ⟨2, _⟩ =>
        show ((midDims (K := K) wf).start (ix3 n' e c') idx 2 + ((midDims (K := K) wf).window (ix3 n' e c') 2 : ℕ)).toNat = c'.val
        rw [midDims_start2, midDims_window2]; omega
  · rename_i h
    constructor
    · intro hf; cases hf
    · rintro ⟨rfl, h1, rfl⟩
      exfalso; apply h
      intro a
      match a with
      | ⟨0, _⟩ =>
        show 0 ≤ (midDims (K := K) wf).start (ix3 n' e c') idx 0 + ((midDims (K := K) wf).window (ix3 n' e c') 0 : ℕ)
          ∧ (midDims (K := K) wf).start (ix3 n' e c') idx 0 + ((midDims (K := K) wf).window (ix3 n' e c') 0 : ℕ) < (N : ℤ)
        rw [midDims_start0, midDims_window0]; omega
      | ⟨1, _⟩ =>
        show 0 ≤ (midDims (K := K) wf).start (ix3 n' e c') idx 1 + ((midDims (K := K) wf).window (ix3 n' e c') 1 : ℕ)
          ∧ (midDims (K := K) wf).start (ix3 n' e c') idx 1 + ((midDims (K := K) wf).window (ix3 n' e c') 1 : ℕ) < (K : ℤ)
        rw [midDims_start1, midDims_window1, h1]; omega
      | ⟨2, _⟩ =>
        show 0 ≤ (midDims (K := K) wf).start (ix3 n' e c') idx 2 + ((midDims (K := K) wf).window (ix3 n' e c') 2 : ℕ)
          ∧ (midDims (K := K) wf).start (ix3 n' e c') idx 2 + ((midDims (K := K) wf).window (ix3 n' e c') 2 : ℕ) < (C : ℤ)
        rw [midDims_start2, midDims_window2]; omega

/-- THE MIDDLE-AXIS SCATTER READ AT (n, k, c): the array's entry plus the sum of the entries (n, e, c) of the update
    slices e whose index is k. -/
theorem scatterAdd_mid_apply {φ : FTy} (wf) (z : FVec Ideal ⟨3, ![N, K, C]⟩ φ) (idx : IVec ⟨2, ![E, 1]⟩ w)
    (upd : FVec Ideal ⟨3, ![N, E, C]⟩ φ) (n : Fin N) (k : Fin K) (c : Fin C) :
    Host.scatterAdd (midDims (K := K) wf) z idx upd (ix3 n k c)
      = z (ix3 n k c) + ∑ e : Fin E, if (idx (ix2 e 0)).toInt = (k.val : ℤ) then upd (ix3 n e c) else 0 := by
  show Ideal.hostScatterAdd (midDims (K := K) wf) z idx upd (ix3 n k c) = _
  unfold Ideal.hostScatterAdd
  congr 1
  rw [Finset.sum_filter, sum_idx3]
  simp only [midDims_lands_iff]
  rw [Finset.sum_eq_single n]
  · refine Finset.sum_congr rfl fun e _ => ?_
    by_cases hP : (idx (ix2 e 0)).toInt = (k.val : ℤ)
    · simp only [hP, true_and, if_true]
      rw [Finset.sum_ite_eq' Finset.univ c (fun c' => upd (ix3 n e c')), if_pos (Finset.mem_univ c)]
    · simp only [hP, false_and, and_false, if_false, Finset.sum_const_zero]
  · intro n' _ hn
    simp only [hn, false_and, if_false, Finset.sum_const_zero]
  · intro h; exact absurd (Finset.mem_univ n) h

end Cert.LibScatterMid

end
-- ==== Proof.RefValue.lean ====
/-
  The reference program's result is the scaled squared norm of each piece.

  The run (the previous module) leaves the result array at the operations' composed term of the argument array.  Here that
  term is read entry by entry.  At entry (n, k, c):
    • the all-zero array holds 0, so the accumulating scatter leaves there the sum of the squared entries (n, r, c) over the
      component rows r whose segment number is k (the general reading of a middle-axis scatter);
    • the segment numbers are the literal table 0 1 1 1 2 2 2 2 2 3 3 3 3 3 3 3: none is negative, so the normalisation of
      negative numbers changes nothing, and the table is the piece map `seg` entry by entry (16 literal cases);
    • the scale array holds, at (n, k, c), the k-th of the four literal scale words.
  So the entry is (Σ_{r : seg r = k} x[n, r, c]²) · s_k, which is the shared specification `G`.  Nothing is assumed of the
  argument: the only law used is 0 + a = a.
-/
import proofs.«216336_g7232724927063_cont_9to1_m_658_15_alg».proof.Proof.RefRun
import proofs.«216336_g7232724927063_cont_9to1_m_658_15_alg».proof.Proof.LibScatterMid
import proofs.«216336_g7232724927063_cont_9to1_m_658_15_alg».proof.Proof.Spec
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx Cert.SqNorm Cert.LibScatterMid

/-! ## The two literal tables at an entry -/

/-- Entry r of the segment-number table. -/
theorem segTable_apply (r : Fin 16) : segTable (F := Ideal) (ix1 r) = lit0 r :=
  congrArg lit0 (Fin.ext (Shape.rowMajor_val_one (ix1 r)))

/-- Entry k of the scale table. -/
theorem scaleTable_apply (k : Fin 4) : scaleTable (F := Ideal) (ix1 k) = Ideal.ofBits .f32 (lit1 k) :=
  congrArg (fun i => Ideal.ofBits .f32 (lit1 i)) (Fin.ext (Shape.rowMajor_val_one (ix1 k)))

/-- The scale words are the specification's, word for word. -/
theorem lit1_eq : ∀ k : Fin 4, lit1 k = scaleBits k := by decide

/-- Every segment number, after the normalisation of negative numbers and read signed, is the piece of its component. -/
theorem idx_entry : ∀ r : Fin 16,
    (Scalar.select (IntOp.cmpi .slt (lit0 r) 0#32) (IntOp.addi (lit0 r) 4#32) (lit0 r)).toInt = ((seg r).val : ℤ) := by
  decide

/-! ## The constituents at an entry -/

/-- Row r of the index column. -/
theorem idxCol_apply (r : Fin 16) :
    idxCol (F := Ideal) (ix2 r 0) = Scalar.select (IntOp.cmpi .slt (lit0 r) 0#32) (IntOp.addi (lit0 r) 4#32) (lit0 r) := by
  unfold idxCol
  rw [broadcastInDim_apply _ _ _ (ix2 r 0) (ix1 r) (by intro a; match a with | ⟨0, _⟩ => rfl)]
  show Scalar.select (IntOp.cmpi .slt (segTable (F := Ideal) (ix1 r)) 0#32) (IntOp.addi (segTable (F := Ideal) (ix1 r)) 4#32)
      (segTable (F := Ideal) (ix1 r)) = _
  rw [segTable_apply]

/-- The array the squares are added into is 0 everywhere. -/
theorem zeros_apply (j : S10000x4x128.Idx) : zeros (F := Ideal) j = 0 := by
  show Ideal.ofBits .f32 0x00000000#32 = 0
  exact Ideal.ofBits_zero_f32

/-- The scale array at (n, k, c) is the k-th scale. -/
theorem scales_apply (n : Fin 10000) (k : Fin 4) (c : Fin 128) :
    scales (F := Ideal) (ix3 n k c) = Ideal.ofBits .f32 (scaleBits k) := by
  unfold scales
  rw [broadcastInDim_apply _ _ _ (ix3 n k c) (ix3 0 k 0)
    (by intro a; match a with | ⟨0, _⟩ => rfl | ⟨1, _⟩ => rfl | ⟨2, _⟩ => rfl)]
  rw [broadcastInDim_apply _ _ _ (ix3 0 k 0) (ix1 k) (by intro a; match a with | ⟨0, _⟩ => rfl)]
  rw [scaleTable_apply, lit1_eq]

/-! ## The result at an entry -/

/-- The composed term at (n, k, c) is the scaled squared norm of piece k of node n in channel c. -/
theorem refTerm_apply (x : FVec Ideal SIn .f32) (n : Fin 10000) (k : Fin 4) (c : Fin 128) :
    refTerm (F := Ideal) x (ix3 n k c) = sqnorm x n k c := by
  have hs : Host.scatterAdd scatter_S10000x4x128_S16x1_S10000x16x128_02_1_1_1 (zeros (F := Ideal)) (idxCol (F := Ideal)) (mulf x x) (ix3 n k c)
      = zeros (F := Ideal) (ix3 n k c)
        + ∑ e : Fin 16, if (idxCol (F := Ideal) (ix2 e 0)).toInt = (k.val : ℤ) then (mulf x x : FVec Ideal SIn .f32) (ix3 n e c) else 0 :=
    scatterAdd_mid_apply (K := 4) Gen.scatter_S10000x4x128_S16x1_S10000x16x128_02_1_1_1_wf (zeros (F := Ideal)) (idxCol (F := Ideal)) (mulf x x) n k c
  unfold refTerm sqnorm
  rw [mulf_apply, scales_apply, hs, zeros_apply, zero_add]
  congr 1
  refine Finset.sum_congr rfl fun r _ => ?_
  rw [idxCol_apply, idx_entry, mulf_apply]
  by_cases h : seg r = k
  · rw [if_pos h, if_pos (by rw [h])]
  · rw [if_neg h, if_neg (fun e => h (Fin.ext (Nat.cast_injective e)))]

/-- The composed term of the argument is the specification's function of it. -/
theorem refTerm_eq_G (x : FVec Ideal SIn .f32) : refTerm (F := Ideal) x = G x := by
  funext j
  obtain ⟨n, k, c, rfl⟩ : ∃ (n : Fin 10000) (k : Fin 4) (c : Fin 128), j = ix3 n k c := ⟨j 0, j 1, j 2, eq_ix3 j⟩
  rw [refTerm_apply, G_apply]

/-! ## The run -/

/-- On every device, from any memory with zero counters, at the ideal values: every weakly fair execution of the reference's
    @main terminates with the result array at the specification's function of the argument array, and the argument
    array unchanged.  No condition on the argument. -/
theorem run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v11) = Cert.SqNorm.G (m ((c.tc : Thread Cert.ReferenceIdeal.nD Cert.ReferenceIdeal.τ).loc Cert.ReferenceIdeal.main_arg0))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)) :=
  (θ_run (Cert.ReferenceIdeal.defs (F := Ideal)) _ _).mono
    (fun _ h c => ⟨(h c).1.trans (refTerm_eq_G _), (h c).2⟩) (run_term m g)

end Cert.ReferenceIdeal.RefValue

end
-- ==== Proof.BaseIdeal.lean ====
/-
  The kernel's program as the SparseCore launch theorem sees it, the ghost state, and what the one SparseCore call
  hands the two SparseCores and their 32 tiles and takes back.

  The program: @main starts one vector-subcore kernel on 2 SparseCores × 16 tiles, waits for it, then runs a TensorCore
  pipeline of 6 grid points, then writes the SparseCore's 4096 result rows into rows 5904… of the pipeline's result.

  The SparseCore kernel: tile (c, s) has number w = 2·s + c and treats the eight 16-node blocks w, w + 32, …, w + 224
  of the last 4096 nodes: block b is input rows 5904 + 16·b … and output rows 16·b … of the kernel's own 4096-row result.
  Every tile only READS the input, so the input goes out as read shares of the whole array (one per SparseCore, split
  again per tile); each tile OWNS the eight 16-row blocks of the result it writes.

  The value a tile leaves in its blocks is one function `scOut` of the whole input array, the same for every float
  instance: each output entry is the kernel's own expression tree over the squares of the input entries.
-/
import proofs.«216336_g7232724927063_cont_9to1_m_658_15_alg».proof.Defs
import proofs.«216336_g7232724927063_cont_9to1_m_658_15_alg».proof.Proof.Gen.KernelIdeal
import Idealize.ShloMosaic.Lib.SparseCore.Launch
import Idealize.ShloMosaic.Lib.Pipeline.Kit
import Idealize.ShloMosaic.Lib.Transfers
import Idealize.ShloMosaic.Lib.ValueIdx

noncomputable section

namespace Cert.KernelIdeal.Frame

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch handshakes' rounds, the pipeline's staging cells' rounds, the tiles' transfer counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL

/-! ## The arrays -/

/-- the input, 10000 × 16 × 128 -/
abbrev xLoc (d : Dev nD) : Loc nD τ sig := (SparseCore.T d).loc main_arg0
/-- the SparseCore kernel's result, 4096 × 4 × 128 -/
abbrev oLoc (d : Dev nD) : Loc nD τ sig := (SparseCore.T d).loc main_v0
/-- the TensorCore pipeline's result, 10000 × 4 × 128 (its first 5904 rows written) -/
abbrev tLoc (d : Dev nD) : Loc nD τ sig := (SparseCore.T d).loc main_v1
/-- the program's result -/
abbrev rLoc (d : Dev nD) : Loc nD τ sig := (SparseCore.T d).loc main_v2

/-- The SparseCore result's 4096 rows are 256 blocks of 16. -/
theorem hdivO : 256 ∣ S4096x4x128.size 0 := ⟨16, rfl⟩
abbrev oBlk (b : Fin 256) : Rect S4096x4x128 := Rect.part (s := S4096x4x128) (a₀ := 0) hdivO b
abbrev oSet (b : Fin 256) : Finset S4096x4x128.Idx :=
  ((Memref.whole main_v0_scv : Memref sig .scVector .hbm S4096x4x128 .f32).view.slice (oBlk b)).set

/-- Block number `i` (of 8) of tile `s` of SparseCore `c`: w + 32·i with w = 2·s + c. -/
def blk (c : Fin 2) (s : Fin 16) (i : Fin 8) : Fin 256 := ⟨(2 * s.val + c.val) + 32 * i.val, by omega⟩

/-- The read share of the input SparseCore `c` is handed, and tile `s`'s part of it. -/
abbrev xTokC (c : Fin 2) : PosShare TreeShare := Transfers.shareTok fullShare 2 c
abbrev xTokT (c : Fin 2) (s : Fin 16) : PosShare TreeShare := Transfers.shareTok (xTokC c) 16 s

/-! ## The value the SparseCore kernel computes, at any float instance -/

section Value
variable [FloatOps F]

/-- the square of one input entry -/
def sqAt (x : FVec F S10000x16x128 .f32) (n : Fin 10000) (c : Fin 128) (r : Fin 16) : F .f32 :=
  FloatOps.mulf (x (ix3 n r c)) (x (ix3 n r c))

/-- The four results of node `n` in channel `c`, summed and scaled in the kernel's own order:
    q₀ | ((q₁+q₂)+q₃)·⅓ | (((q₄+q₅)+(q₆+q₇))+q₈)·⅕ | (((q₉+q₁₀)+(q₁₁+q₁₂))+((q₁₃+q₁₄)+q₁₅))·⅐, the scales the nearest floats. -/
def scRow (x : FVec F S10000x16x128 .f32) (n : Fin 10000) (c : Fin 128) : Fin 4 → F .f32 :=
  let q := sqAt x n c
  ![q 0,
    FloatOps.mulf (FloatOps.addf (FloatOps.addf (q 1) (q 2)) (q 3)) (Scalar.ofBits .f32 0x3EAAAAAB#32),
    FloatOps.mulf (FloatOps.addf (FloatOps.addf (FloatOps.addf (q 4) (q 5)) (FloatOps.addf (q 6) (q 7))) (q 8)) (Scalar.ofBits .f32 0x3E4CCCCD#32),
    FloatOps.mulf (FloatOps.addf (FloatOps.addf (FloatOps.addf (q 9) (q 10)) (FloatOps.addf (q 11) (q 12)))
      (FloatOps.addf (FloatOps.addf (q 13) (q 14)) (q 15))) (Scalar.ofBits .f32 0x3E124925#32)]

/-- Row `n'` of the SparseCore kernel's result is node 5904 + n'. -/
def scOut (x : FVec F S10000x16x128 .f32) : FVec F S4096x4x128 .f32 := fun j =>
  scRow x ⟨(j 0).val + 5904, by have := (j 0).isLt; simp only [Matrix.cons_val_zero] at this; omega⟩ (j 2) (j 1)

end Value

/-! ## What the call hands out and takes back -/

variable (m : (ℓ : Loc nD τ sig) → Buf (Elt F) ℓ)

/-- SparseCore `c`'s read share of the input at its launch contents. -/
abbrev xPtsC (d : Dev nD) (c : Fin 2) : sProp 𝕄 := xLoc d ↦{xTokC c} m (xLoc d)
/-- Tile (c, s)'s read share. -/
abbrev xPtsT (d : Dev nD) (c : Fin 2) (s : Fin 16) : sProp 𝕄 := xLoc d ↦{xTokT c s} m (xLoc d)
/-- Tile (c, s)'s eight result blocks, holding `f` there. -/
abbrev oPtsT (d : Dev nD) (c : Fin 2) (s : Fin 16) (f : Buf (Elt F) (oLoc d)) : sProp 𝕄 :=
  bigSep Finset.univ fun i : Fin 8 => oLoc d ↦[oSet (blk c s i)]{fullShare} f
/-- SparseCore `c`'s 128 result blocks. -/
abbrev oPtsC (d : Dev nD) (c : Fin 2) (f : Buf (Elt F) (oLoc d)) : sProp 𝕄 :=
  bigSep Finset.univ fun s : Fin 16 => oPtsT d c s f

variable [FloatOps F]

/-- The call hands SparseCore `c` its read share of the input and its result blocks as launched, and takes them back
    with the blocks at the kernel's value; each tile likewise. Nothing of the launch's own is consumed. -/
def P : (K (F := F)).Pay (nD := nD) (Val := Elt F) (Name := ℕ) (U := UU) where
  st := fun q d c => match q with
    | 0 => iprop(xPtsC m d (Fin.cast nCore_zero c) ∗ oPtsC d (Fin.cast nCore_zero c) (m (oLoc d)))
  dn := fun q d c => match q with
    | 0 => iprop(xPtsC m d (Fin.cast nCore_zero c) ∗ oPtsC d (Fin.cast nCore_zero c) (scOut (m (xLoc d))))
  go := fun q d c i => match q with
    | 0 => iprop(xPtsT m d (Fin.cast nCore_zero c) (Fin.cast nSub_zero i) ∗ oPtsT d (Fin.cast nCore_zero c) (Fin.cast nSub_zero i) (m (oLoc d)))
  td := fun q d c i => match q with
    | 0 => iprop(xPtsT m d (Fin.cast nCore_zero c) (Fin.cast nSub_zero i) ∗ oPtsT d (Fin.cast nCore_zero c) (Fin.cast nSub_zero i) (scOut (m (xLoc d))))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.KernelIdeal.Frame

end
-- ==== Proof.TcBodyIdeal.lean ====
/-
  The TensorCore pipeline's body, run once at a symbolic grid point, and the pipeline's proof data.

  The pipeline has six grid points; point t stages rows 984·t … 984·t + 983 of the input (a 984 × 16 × 128 block) and
  of the result (a 984 × 4 × 128 block). The body loads the input block whole, squares it, and stores four rows of
  sums — one per irreducible piece — into the result block; the four stores tile the result block, so what it holds
  afterwards is one function of the input block, whatever it held before.

  Both windows are stated with a cut at the array's end, but none of the six blocks reaches it: a fetched buffer
  holds the array's block everywhere, and what the body leaves is asked only on the part the transfers move, which is
  all of it.
-/
import proofs.«216336_g7232724927063_cont_9to1_m_658_15_alg».proof.Proof.BaseIdeal
import proofs.«216336_g7232724927063_cont_9to1_m_658_15_alg».proof.Proof.Gen.KernelIdeal.Launch
import proofs.«216336_g7232724927063_cont_9to1_m_658_15_alg».proof.Proof.Gen.KernelIdeal.Skeleton
import proofs.«216336_g7232724927063_cont_9to1_m_658_15_alg».proof.Proof.Gen.KernelIdeal.Points
import Idealize.ShloMosaic.Lib.Pipeline.FrameBody
import Idealize.ShloMosaic.Lib.Tactic

set_option maxRecDepth 16384

noncomputable section

namespace Cert.KernelIdeal.Frame

open Cert.KernelIdeal Cert.KernelIdeal.Gen

open Idealize.ShloMosaic Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses -/

abbrev rIn : Rect S984x16x128 := Rect.unit (s := S984x16x128) ![0, 0, 0] S984x16x128.size inb_S984x16x128_S984x16x128_0_0_0
abbrev rO0 : Rect S984x4x128 := Rect.unit (s := S984x4x128) ![0, 0, 0] S984x1x128.size inb_S984x4x128_S984x1x128_0_0_0
abbrev rO1 : Rect S984x4x128 := Rect.unit (s := S984x4x128) ![0, 1, 0] S984x1x128.size inb_S984x4x128_S984x1x128_0_1_0
abbrev rO2 : Rect S984x4x128 := Rect.unit (s := S984x4x128) ![0, 2, 0] S984x1x128.size inb_S984x4x128_S984x1x128_0_2_0
abbrev rO3 : Rect S984x4x128 := Rect.unit (s := S984x4x128) ![0, 3, 0] S984x1x128.size inb_S984x4x128_S984x1x128_0_3_0

/-- The output block after the body, from the input block: its four row stores as pieces, last first. -/
def outBlk [∀ e, Nonempty (Elt F e)] (x0 : Vec F S984x16x128 .f32) : Vec F S984x4x128 .f32 :=
  View.canon [⟨rO3, k1_pay1 (k1_pay2 (View.ld x0 rIn))⟩, ⟨rO2, k1_pay5 (View.ld x0 rIn)⟩, ⟨rO1, k1_pay4 (View.ld x0 rIn)⟩, ⟨rO0, k1_pay3 (View.ld x0 rIn)⟩]

/-- The four stores tile the output block. -/
theorem coverOut (p3 p2 p1 p0 : Vec F S984x1x128 .f32) (y : S984x4x128.Idx) :
    ∃ pc ∈ ([⟨rO3, p3⟩, ⟨rO2, p2⟩, ⟨rO1, p1⟩, ⟨rO0, p0⟩] : List (View.Piece (Elt F) S984x4x128 .f32)), y ∈ pc.1.set :=
  View.cover_of_tiled [⟨rO3, p3⟩, ⟨rO2, p2⟩, ⟨rO1, p1⟩, ⟨rO0, p0⟩] S984x1x128.size (by rfl) y

set_option maxHeartbeats 1000000 in
/-- The body on whole staging memrefs, the input's at `x0` and the output's at anything, leaves the input's as it was
    and the output's at `outBlk x0`. -/
theorem sound_kernel [∀ e, Nonempty (Elt F e)] (c : Dev nD) (E : Set ℕ) (i : grid1.Coords) (arg1 : Memref sig .tc .vmem S984x16x128 .f32) (harg1 : arg1.IsWhole)
    (arg2 : Memref sig .tc .vmem S984x4x128 .f32) (harg2 : arg2.IsWhole) (x0 : Vec F S984x16x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlk x0)) -∗ K ⟨⟩))
      ⊢ wp frame (wpE (defs₀ (F := F)) Variants.none c none) E (cc1__tc_body i arg1 harg1 arg2 harg2) K := by
  simp only [cc1__tc_body_eq_skeleton]; unfold cc1__tc_body_skel
  simp only [k1_part1_eq_skeleton]; unfold k1_part1_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (coverOut _ _ _ _)

/-! ## The proof data of the pipeline -/

variable (m : (ℓ : Loc nD τ sig) → Buf (Elt F) ℓ)

/-- The kernel's variants: none. -/
abbrev 𝒱k : Variants := Variants.none

/-- The input's block at point `t` as the fetch reads it. -/
def xblk (c : Dev nD) (t : Fin cfg1.N) : (win1_0.xblock (grid1.coords t)).Idx → Elt F .f32 :=
  (win1_0.blk t).view.read (Elt F) (m ((c : Thread nD τ).loc main_arg0))

/-- The input's staging buffer once fetched into (no block of the six is cut: the filler is never read). -/
def xblk8 (c : Dev nD) (t : Fin cfg1.N) : S984x16x128.Idx → Elt F .f32 :=
  win1_0.fill (grid1.coords t) (fun _ => Scalar.ofBits .f32 0#32) (xblk m c t)

/-- The pairs a TensorCore's waits may have recorded once the SparseCore call is over. -/
def recd (d : Dev nD) : Set (SemLoc sig × HIx 1) := {p | (K (F := F)).lev ((T d : Thread nD τ), p.1) p.2 ≤ 8}

/-- The proof data on device `c`'s TensorCore: the two arrays as launched; after the body the input's buffer as
    fetched and the output's at the body's four row stores of it; no invariant of the kernel's own; nothing owed. -/
def dats [∀ e, Nonempty (Elt F e)] (_ : Fin 1) (c : Dev nD) : Dat τ (Elt F) (HIx 1) ℕ UU ℕ cfg1 c where
  A w := m ((cfg1.win w).arr.view.loc (c : Thread nD τ))
  after w t := match w with
    | ⟨0, _⟩ => xblk8 m c t
    | ⟨1, _⟩ => outBlk (xblk8 m c t)
  Φ _ := Pipeline.scopedRest (Ix := HIx 1) (Name := ℕ) (U := UU) (Lvl := ℕ) (Val := Elt F) spec1 c
  q _ := fullShare
  owed _ := 0
  recorded _ := recd (F := F) c

theorem fetch_0 (t : Fin cfg1.N) : (cfg1.win (0 : Fin 2)).fetch t = true := fetch1_0 t
theorem flush_1 (t : Fin cfg1.N) : (cfg1.win (1 : Fin 2)).flush t = true := flush1_1 t
theorem fetch_1 (t : Fin cfg1.N) : (cfg1.win (1 : Fin 2)).fetch t = false :=
  (by decide +kernel : ∀ t : Fin grid1.N, win1_1.fetch t = false) t

/-- No block of the six is cut. -/
theorem clip_none0 : ∀ (t : Fin grid1.N) a, win1_0.clip (grid1.coords t) a = none := by decide +kernel

/-- So a fetched buffer holds the block everywhere, whatever it held. -/
theorem fill_indep (t : Fin cfg1.N) (d d' : S984x16x128.Idx → Elt F .f32) (g : (win1_0.xblock (grid1.coords t)).Idx → Elt F .f32) :
    win1_0.fill (grid1.coords t) d g = win1_0.fill (grid1.coords t) d' g := by
  funext j
  have hm : win1_0.moved (grid1.coords t) j = true :=
    (win1_0.moved_iff _ j).mpr fun a => by have := (j a).isLt; unfold Window.xsize; rw [clip_none0 t a]; exact this
  unfold Window.fill; rw [dif_pos hm, dif_pos hm]

/-- What the body finds: the input's buffer just fetched, -/
theorem before_0 [∀ e, Nonempty (Elt F e)] (c : Dev nD) (t : Fin cfg1.N) (d) :
    (dats m 0 c).before (0 : Fin 2) t d = xblk8 m c t := by
  unfold Dat.before; rw [if_pos (fetch_0 t)]
  exact fill_indep t d _ (xblk m c t)

/-- the output's at contents nothing names. -/
theorem before_1 [∀ e, Nonempty (Elt F e)] (c : Dev nD) (t : Fin cfg1.N) (d) : (dats m 0 c).before (1 : Fin 2) t d = d := by
  unfold Dat.before
  rw [if_neg (by rw [fetch_1 t]; exact Bool.false_ne_true)]
  by_cases h0 : t.val = 0
  · rw [if_pos h0]
  · rw [if_neg h0]; exact if_pos (flush_1 _)

/-- The pipeline rule's body obligation: the input's buffer arrives holding its block, the output's anything; the body leaves
    the first as it was and the second at its four row stores, which is what the loose obligation asks of each. -/
theorem body_obligation [∀ e, Nonempty (Elt F e)] (c : Dev nD) :
    Pipeline.BodyObligationLoose (dats m 0 c) (defs₀ (F := F)) 𝒱k (none : HIx 1) Set.univ := fun t => by
  rw [bigSep_W1, bigSep_W1]
  simp only
  rw [show (dats m 0 c).Φ t.succ = (dats m 0 c).Φ t.castSucc from rfl,
    show (dats m 0 c).owesAt none t.succ = (dats m 0 c).owesAt none t.castSucc from rfl]
  iintro ⟨HΦ, Ho, ⟨%d0, H0⟩, ⟨%d1, H1⟩⟩
  rw [before_0 m c t d0, before_1 m c t d1]
  iapply (sound_kernel (F := F) c Set.univ (grid1.coords t) _ _ _ _ (xblk8 m c t) _)
  isplitl [H0]; · iexact H0
  isplitl [H1]; · iexists _; iexact H1
  iintro ⟨H0, H1⟩
  isplitl [HΦ]; · iexact HΦ
  isplitl [Ho]; · iexact Ho
  isplitl [H0]
  · iexists (dats m 0 c).after 0 t
    rw [Pipeline.Window.fill_cut]
    dsimp only [dats]
    iexact H0
  · iexists (dats m 0 c).after 1 t
    rw [Pipeline.Window.fill_cut]
    dsimp only [dats]
    iexact H1

end Cert.KernelIdeal.Frame

end
-- ==== Proof.TcRowIdeal.lean ====
/-
  The value the TensorCore pipeline's body computes for one node and channel, at any float instance, and the
  program's whole result as one function of the input array.

  The body squares the sixteen components and sums the squares of each irreducible piece from the left,
  ((q₁+q₂)+q₃), ((((q₄+q₅)+q₆)+q₇)+q₈), ((((((q₉+q₁₀)+q₁₁)+q₁₂)+q₁₃)+q₁₄)+q₁₅), then multiplies each sum — the
  one-term sum q₀ included — by the float nearest to the reciprocal of the piece's dimension (1 for the first piece).
  The pipeline treats nodes 0 … 5903; the other 4096 rows of the result are the SparseCore kernel's.
-/
import proofs.«216336_g7232724927063_cont_9to1_m_658_15_alg».proof.Proof.BaseIdeal

noncomputable section

namespace Cert.KernelIdeal.Frame

open Idealize.ShloMosaic Idealize.ShloMosaic.ValueIdx

variable {F : FTy → Type} [FloatOps F]

/-- The four results of node `n` in channel `c` as the TensorCore body computes them: each piece's squares summed from the
    left, then scaled (the first piece by the float 1). -/
def tcRow (x : FVec F S10000x16x128 .f32) (n : Fin 10000) (c : Fin 128) : Fin 4 → F .f32 :=
  let q := sqAt x n c
  ![FloatOps.mulf (q 0) (Scalar.ofBits .f32 0x3F800000#32),
    FloatOps.mulf (FloatOps.addf (FloatOps.addf (q 1) (q 2)) (q 3)) (Scalar.ofBits .f32 0x3EAAAAAB#32),
    FloatOps.mulf (FloatOps.addf (FloatOps.addf (FloatOps.addf (FloatOps.addf (q 4) (q 5)) (q 6)) (q 7)) (q 8)) (Scalar.ofBits .f32 0x3E4CCCCD#32),
    FloatOps.mulf (FloatOps.addf (FloatOps.addf (FloatOps.addf (FloatOps.addf (FloatOps.addf (FloatOps.addf (q 9) (q 10)) (q 11)) (q 12)) (q 13)) (q 14)) (q 15))
      (Scalar.ofBits .f32 0x3E124925#32)]

/-- The program's result: rows 0 … 5903 the TensorCore pipeline's, rows 5904 … 9999 the SparseCore kernel's. -/
def finalOut (x : FVec F S10000x16x128 .f32) : FVec F S10000x4x128 .f32 := fun j =>
  if h : (j 0).val < 5904 then tcRow x (j 0) (j 2) (j 1)
  else scOut x (ix3 (⟨(j 0).val - 5904, by have := (j 0).isLt; simp only [Matrix.cons_val_zero] at this; omega⟩ : Fin 4096) (j 1) (j 2))

end Cert.KernelIdeal.Frame

end
-- ==== Proof.MainIdeal.lean ====
/-
  @main on the TensorCore and the program's run.

  @main starts the SparseCore kernel and waits for it, runs the TensorCore pipeline, then writes the SparseCore's 4096
  result rows into rows 5904 … of the pipeline's result. For the call the input goes out as two read shares (one per
  SparseCore, the remainder kept) and the SparseCore's result array as its 256 sixteen-row blocks, block w + 32·i to
  tile w = 2·s + c of SparseCore c; both come back whole, the result at the kernel's value. The pipeline is a region
  entered with the core owing nothing (the one call is over), its staging cells' rounds funded at launch in the middle
  factor of the ghost state; it leaves the input as it was and its result array with the six blocks written back.
  The three index constants and the final update are host operations over the arrays held whole.
-/
import proofs.«216336_g7232724927063_cont_9to1_m_658_15_alg».proof.Proof.BaseIdeal
import proofs.«216336_g7232724927063_cont_9to1_m_658_15_alg».proof.Proof.TcBodyIdeal
import proofs.«216336_g7232724927063_cont_9to1_m_658_15_alg».proof.Proof.TcRowIdeal
import Idealize.ShloMosaic.Lib.Pipeline.Regions

set_option maxRecDepth 16384

noncomputable section

namespace Cert.KernelIdeal.Frame

open Cert.KernelIdeal Cert.KernelIdeal.Gen

open Idealize.ShloMosaic Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state: the pipeline's staging cells' rounds sit in the middle factor -/

/-- The pipeline's rounds algebra inside the certificate's: the left of the right factor. -/
abbrev ER : Emb UR (MT nD τ sig (HIx 1) (Elt F) ℕ UU ℕ) := (Emb.inl : Emb UR (UR × Counters)).trans embR

instance ER_landsIn : (ER : Emb UR (MT nD τ sig (HIx 1) (Elt F) ℕ UU ℕ)).LandsIn (upEmb : UEmb _ (MT nD τ sig (HIx 1) (Elt F) ℕ UU ℕ)) := by
  unfold ER embR; infer_instance

/-- The prefetched tables' admissible contents: no table. -/
abbrev adm : (p : Fin 1) → (pcfgs (F := F) p).Adm := fun p => (cfgs p).toPCfg_adm

/-- The launch element: the handshakes' rounds, the staging cells' rounds, no counter yet. -/
def u₀ : UU := (initOf (K (F := F)).hsCells (K (F := F)).hsToks,
  (initOf (Pipeline.cells cfgs cellOf_inj) (Pipeline.launchToks cfgs cellOf_inj), 1))

/-- Pipeline `p`'s staging cells' launch ghost state on device `d`, and its duty tokens. -/
abbrev cG (p : Fin 1) (d : Dev nD) : sProp 𝕄 :=
  Pipeline.cellsGhost (Ix := HIx 1) (Val := Elt F) (Name := ℕ) (U := UU) (Lvl := ℕ) cfgs ER p d
abbrev tI (p : Fin 1) (d : Dev nD) : sProp 𝕄 :=
  Pipeline.toksInit (Ix := HIx 1) (Val := Elt F) (Name := ℕ) (U := UU) (Lvl := ℕ) cfgs ER p d

/-- What the launch element leaves each TensorCore for @main: its pipeline's cells' ghost state and duty tokens. -/
def G (d : Dev nD) : sProp 𝕄 :=
  iprop((bigSep Finset.univ fun p : Fin 1 => cG (F := F) p d) ∗ bigSep Finset.univ fun p : Fin 1 => tI (F := F) p d)

omit [FloatOps F] in
theorem G_elim (d : Dev nD) : G (F := F) d ⊢ iprop(cG (F := F) 0 d ∗ tI (F := F) 0 d) := by
  unfold G
  iintro ⟨Hg, Ht⟩
  isplitl [Hg]
  · iapply (SparseCore.ent (bigSep_elim (Φ := fun p : Fin 1 => cG (F := F) p d) (Finset.mem_univ (0 : Fin 1)))); iexact Hg
  · iapply (SparseCore.ent (bigSep_elim (Φ := fun p : Fin 1 => tI (F := F) p d) (Finset.mem_univ (0 : Fin 1)))); iexact Ht

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost cfgs ER cellOf_inj) $$ HP with ⟨Hg, Ht⟩
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The SparseCore result's 256 blocks, and the read shares -/

omit [FloatOps F] in
theorem oSet_eq (b : Fin 256) : oSet b = (oBlk b).set := by
  show ((View.whole (main_v0_scv : Ref sig .scVector)).slice (oBlk b)).set = _
  rw [View.set_slice]; exact Finset.map_refl
omit [FloatOps F] in
theorem blocks_disjoint : ∀ i ∈ (Finset.univ : Finset (Fin 256)), ∀ j ∈ (Finset.univ : Finset (Fin 256)), i ≠ j → Disjoint (oSet i) (oSet j) :=
  fun i _ j _ h => by rw [oSet_eq, oSet_eq]; exact Rect.part_disjoint hdivO h
omit [FloatOps F] in
theorem blocks_cover : (Finset.univ : Finset (Fin 256)).biUnion oSet = Finset.univ :=
  (Finset.biUnion_congr rfl fun i _ => oSet_eq i).trans (Rect.biUnion_part hdivO)

omit [FloatOps F] in
theorem oPts_blocks (d : Dev nD) (f : Buf (Elt F) (oLoc d)) :
    (oLoc d ↦{fullShare} f : sProp 𝕄) = bigSep Finset.univ fun b : Fin 256 => oLoc d ↦[oSet b]{fullShare} f := by
  rw [← pointsTo_biUnion Finset.univ (ℓ := oLoc d) oSet blocks_disjoint, blocks_cover]; try rfl

/-- Block numbers are exactly the triples (SparseCore, tile, round). -/
def blkE : Fin 2 × Fin 16 × Fin 8 ≃ Fin 256 :=
  Equiv.ofBijective (fun x => blk x.1 x.2.1 x.2.2) ((Fintype.bijective_iff_injective_and_card _).mpr ⟨by
    rintro ⟨c, s, i⟩ ⟨c', s', i'⟩ h
    have h' : 2 * s.val + c.val + 32 * i.val = 2 * s'.val + c'.val + 32 * i'.val := congrArg Fin.val h
    have := c.isLt; have := c'.isLt; have := s.isLt; have := s'.isLt; have := i.isLt; have := i'.isLt
    have hc : c.val = c'.val := by omega
    have hs : s.val = s'.val := by omega
    have hi : i.val = i'.val := by omega
    exact Prod.ext (Fin.ext hc) (Prod.ext (Fin.ext hs) (Fin.ext hi)), by simp⟩)

omit [FloatOps F] in
theorem bigSep_blk (Φ : Fin 256 → sProp 𝕄) :
    bigSep Finset.univ Φ = bigSep Finset.univ fun c : Fin 2 => bigSep Finset.univ fun s : Fin 16 => bigSep Finset.univ fun i : Fin 8 => Φ (blk c s i) := by
  rw [bigSep_univ_equiv blkE Φ, bigSep_univ_prod]
  refine bigSep_congr fun c _ => ?_
  rw [bigSep_univ_prod]; rfl

omit [FloatOps F] in
/-- The result array whole is the two SparseCores' blocks. -/
theorem oPts_cores (d : Dev nD) (f : Buf (Elt F) (oLoc d)) :
    (oLoc d ↦{fullShare} f : sProp 𝕄) = iprop(oPtsC d 0 f ∗ oPtsC d 1 f) := by
  rw [oPts_blocks, bigSep_blk, bigSep_univ_two]

/-- What the call takes for the two SparseCores, and what it hands back. -/
theorem st0_eq (d : Dev nD) : (bigSep Finset.univ fun c : Fin ((K (F := F)).nCore 0) => (P m).st 0 d c)
    = iprop((xPtsC m d 0 ∗ oPtsC d 0 (m (oLoc d))) ∗ (xPtsC m d 1 ∗ oPtsC d 1 (m (oLoc d)))) := by
  show (bigSep (Finset.univ : Finset (Fin 2)) fun c => (P m).st 0 d c) = _
  rw [bigSep_univ_two]; rfl
theorem dn0_eq (d : Dev nD) : (bigSep Finset.univ fun c : Fin ((K (F := F)).nCore 0) => (P m).dn 0 d c)
    = iprop((xPtsC m d 0 ∗ oPtsC d 0 (scOut (m (xLoc d)))) ∗ (xPtsC m d 1 ∗ oPtsC d 1 (scOut (m (xLoc d))))) := by
  show (bigSep (Finset.univ : Finset (Fin 2)) fun c => (P m).dn 0 d c) = _
  rw [bigSep_univ_two]; rfl

/-! ## The TensorCore pipeline as a region of @main -/

/-- What the TensorCore owes once the one SparseCore call is over: nothing, its recorded waits all of the call's. -/
def owesT (d : Dev nD) : sProp 𝕄 :=
  iprop(∃ W, ⌜(K (F := F)).WBelow (T d) W (8 * 1)⌝ ∗ owes (T d) (0 : CellTallies nD τ sig (HIx 1)) W)

/-- The TensorCore's handshake state after the call is that and a rest the region does not touch. -/
theorem tcSt_one (d : Dev nD) : ∃ R : sProp 𝕄, (K (F := F)).tcSt EH d 1 = iprop(owesT (F := F) d ∗ R) := by
  unfold SparseCore.Cfg.tcSt owesT; rw [(K (F := F)).Otc_end d (le_refl 1)]; exact ⟨_, rfl⟩

/-- The pipeline's result array when the region ends: its launch contents with the six blocks written back. -/
def tOut [∀ e, Nonempty (Elt F e)] (d : Dev nD) : Buf (Elt F) (tLoc d) := (dats m 0 d).arrAt 1 cfg1.N

set_option backward.isDefEq.respectTransparency.types false in
/-- The region: entered from the input and the result array whole at their launch contents and the core owing nothing,
    left with the input as it was and the result array at the pipeline's contents. -/
def reg [∀ e, Nonempty (Elt F e)] : Pipeline.RegionSeg (pcfgs (F := F)) adm (dats m) (none : HIx 1) defs₀ 𝒱k (K (F := F)).L (K (F := F)).lev 0 where
  win := launch1.win.to₀
  block_pos := launch1.block_pos
  stage_whole := launch1.stage_whole
  K := PEmpty
  osem k := k.elim
  ho := Pipeline.OwnSemFacts.none _
  hbody c := body_obligation m c
  hwaits := Pipeline.hwaits_of_owed_zero _ _ _ _ _ _ 0 fun _ _ => rfl
  pre d := iprop((xLoc d ↦{fullShare} m (xLoc d)) ∗ (tLoc d ↦{fullShare} m (tLoc d)) ∗ owesT (F := F) d)
  post d := iprop((xLoc d ↦{fullShare} m (xLoc d)) ∗ (tLoc d ↦{fullShare} tOut m d) ∗ owesT (F := F) d)
  X _ := iprop(emp)
  Y _ := iprop(emp)
  Z _ := iprop(emp)
  hentry d := by
    rw [Pipeline.arrays_eq cfgs (dats m) 0 d launch1.arr_whole ((dats m 0 d).share_full fun _ => rfl), bigSep_W1]
    iintro ⟨⟨Hx, Ht, HO⟩, -, -⟩
    imodintro
    isplitl [Hx Ht]
    · isplitl [Hx]; · iexact Hx
      iexact Ht
    isplitr; · unfold Pipeline.prefHeld; rw [show (Finset.univ : Finset (Fin 0)) = ∅ from rfl, BI.bigSep_empty]; iempintro
    isplitl [HO]
    · unfold Pipeline.Dat.owesAt Pipeline.owesWithin owesT
      icases HO with ⟨%W, %hW, HO⟩; iexists W; isplitr; · ipureintro; exact fun p hp => Or.inl (hW p hp)
      iexact HO
    isplitr <;> iempintro
  hin d := sep_elim_right.trans sep_elim_right
  hout d := by
    rw [Pipeline.ownSems0_none]
    have h : (dats m 0 d).Φ (Fin.last (Pipeline.pin (pcfgs (F := F)) adm 0).N)
        ⊢ (Pipeline.scopedRest (Ix := HIx 1) (Name := ℕ) (U := UU) (Lvl := ℕ) (Val := Elt F) (Pipeline.pin (pcfgs (F := F)) adm 0).spec d : sProp 𝕄) :=
      BI.Entails.refl _
    iintro Hr
    isplitr; · iempintro
    isplitr; · iempintro
    iapply h; iexact Hr
  hexit d := by
    rw [Pipeline.arrays_eq cfgs (dats m) 0 d launch1.arr_whole ((dats m 0 d).share_full fun _ => rfl), bigSep_W1,
      show (dats m 0 d).arrAt 0 (Pipeline.pin (pcfgs (F := F)) adm 0).N = m (xLoc d) from (dats m 0 d).arrAt_in 0 rfl _]
    iintro ⟨⟨Hx, Ht⟩, HO, -, -⟩
    imodintro
    isplitl [Hx]; · iexact Hx
    isplitl [Ht]; · iexact Ht
    unfold Pipeline.Dat.owesAt Pipeline.owesWithin owesT
    icases HO with ⟨%W, %hW, HO⟩; iexists W; isplitr
    · ipureintro
      intro p hp
      rcases hW hp with h | ⟨w, s, rfl⟩
      · exact h
      · exact Nat.zero_le _
    iexact HO

theorem reg_pre [∀ e, Nonempty (Elt F e)] (d : Dev nD) :
    (reg m).pre d = iprop((xLoc d ↦{fullShare} m (xLoc d)) ∗ (tLoc d ↦{fullShare} m (tLoc d)) ∗ owesT (F := F) d) := rfl
theorem reg_post [∀ e, Nonempty (Elt F e)] (d : Dev nD) :
    (reg m).post d = iprop((xLoc d ↦{fullShare} m (xLoc d)) ∗ (tLoc d ↦{fullShare} tOut m d) ∗ owesT (F := F) d) := rfl

/-! ## @main on the TensorCore -/

abbrev x' : DevRef τ sig := Proc.devRef .tc (main_arg0 : Ref sig .tc)
abbrev o' : DevRef τ sig := Proc.devRef .tc (main_v0 : Ref sig .tc)
abbrev t' : DevRef τ sig := Proc.devRef .tc (main_v1 : Ref sig .tc)
abbrev k5' : DevRef τ sig := Proc.devRef .tc (main_c : Ref sig .tc)
abbrev k0' : DevRef τ sig := Proc.devRef .tc (main_c_0 : Ref sig .tc)
abbrev k1' : DevRef τ sig := Proc.devRef .tc (main_c_1 : Ref sig .tc)
abbrev r' : DevRef τ sig := Proc.devRef .tc (main_v2 : Ref sig .tc)

/-- The arrays the host operations after the region touch. -/
abbrev S6 : Finset (DevRef τ sig) := {t', o', k5', k0', k1', r'}

omit [FloatOps F] in
theorem held_S6 (d : Dev nD) (W : Valuation τ sig (Elt F)) :
    (held (T d) S6 W : sProp 𝕄) = iprop((tLoc d ↦{fullShare} W t') ∗ (oLoc d ↦{fullShare} W o') ∗ ((SparseCore.T d).loc main_c ↦{fullShare} W k5')
      ∗ ((SparseCore.T d).loc main_c_0 ↦{fullShare} W k0') ∗ ((SparseCore.T d).loc main_c_1 ↦{fullShare} W k1') ∗ (rLoc d ↦{fullShare} W r')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ (tLoc d ↦{fullShare} W main_v1)
      ∗ ((SparseCore.T d).loc main_c ↦{fullShare} W main_c) ∗ ((SparseCore.T d).loc main_c_0 ↦{fullShare} W main_c_0)
      ∗ ((SparseCore.T d).loc main_c_1 ↦{fullShare} W main_c_1) ∗ (rLoc d ↦{fullShare} W main_v2)) := by
  unfold unscopedBufs
  rw [show (Finset.univ.filter fun b : Ref sig .tc => ¬ b.isScoped) = {main_arg0, main_v0, main_v1, main_c, main_c_0, main_c_1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The host operations' buffers when the region is left: the SparseCore's and the pipeline's results, the rest as launched. -/
def VA [∀ e, Nonempty (Elt F e)] (d : Dev nD) : Valuation τ sig (Elt F) :=
  Function.update (Function.update (fun b => m (d, b)) o' (scOut (m (xLoc d)))) t' (tOut m d)

theorem VA_t [∀ e, Nonempty (Elt F e)] (d : Dev nD) : VA m d t' = tOut m d := Function.update_self _ _ _
theorem VA_o [∀ e, Nonempty (Elt F e)] (d : Dev nD) : VA m d o' = scOut (m (xLoc d)) :=
  (Function.update_of_ne (show o' ≠ t' by decide) _ _).trans (Function.update_self _ _ _)
theorem VA_other [∀ e, Nonempty (Elt F e)] (d : Dev nD) (b : DevRef τ sig) (h1 : b ≠ t') (h2 : b ≠ o') : VA m d b = m (d, b) :=
  (Function.update_of_ne h1 _ _).trans (Function.update_of_ne h2 _ _)

abbrev op1 : HloOp τ sig (Elt F) := StableHlo.nullary main_c (constantI S_ 32 5904#32)
abbrev op2 : HloOp τ sig (Elt F) := StableHlo.nullary main_c_0 (constantI S_ 32 0#32)
abbrev op3 : HloOp τ sig (Elt F) := StableHlo.nullary main_c_1 (constantI S_ 32 0#32)
/-- The final update: the second operand written into the first at the clamped start the three index operands give. -/
abbrev dusF : (⟨S10000x4x128, .f32⟩ : BufTy).Contents (Elt F) → (⟨S4096x4x128, .f32⟩ : BufTy).Contents (Elt F)
    → (Fin 3 → (⟨S_, .i32⟩ : BufTy).Contents (Elt F)) → (⟨S10000x4x128, .f32⟩ : BufTy).Contents (Elt F) :=
  fun x u i => Host.dynamicUpdateSlice x u (fun k => (i k (Shape.Idx.first h_S_)).toInt) updateFits_S10000x4x128_S4096x4x128
abbrev op4 : HloOp τ sig (Elt F) := StableHlo.binaryIndexed main_v1 main_v0 ![main_c, main_c_0, main_c_1] ⟨S_, .i32⟩ main_v2 dusF

theorem hop1 : (op1 (F := F)).bufs ⊆ S6 := show ({k5'} : Finset (DevRef τ sig)) ⊆ S6 by decide
theorem hop2 : (op2 (F := F)).bufs ⊆ S6 := show ({k0'} : Finset (DevRef τ sig)) ⊆ S6 by decide
theorem hop3 : (op3 (F := F)).bufs ⊆ S6 := show ({k1'} : Finset (DevRef τ sig)) ⊆ S6 by decide
theorem hop4 : (op4 (F := F)).bufs ⊆ S6 :=
  show (insert t' (insert o' (insert r' (Finset.univ.image fun k : Fin 3 => (Proc.devRef .tc (![main_c, main_c_0, main_c_1] k : Ref sig .tc) : DevRef τ sig)))) : Finset (DevRef τ sig)) ⊆ S6 by decide

/-- The buffers after the four host operations. -/
def VB [∀ e, Nonempty (Elt F e)] (d : Dev nD) : Valuation τ sig (Elt F) :=
  (op4 (F := F)).result ((op3 (F := F)).result ((op2 (F := F)).result ((op1 (F := F)).result (VA m d))))

/-- What @main leaves the claim: the input as launched, the result array at what the last update wrote. -/
abbrev FIN [∀ e, Nonempty (Elt F e)] (d : Dev nD) : sProp 𝕄 :=
  iprop((xLoc d ↦{fullShare} m (xLoc d)) ∗ (rLoc d ↦{fullShare} VB m d r'))

set_option backward.isDefEq.respectTransparency.types false in
set_option maxHeartbeats 1000000 in
/-- @main on device `d`'s TensorCore: the SparseCore call from the input's read shares and the result's blocks, the
    pipeline's region, the three constants and the update. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_one (F := F) d
  have hst1 : (K (F := F)).tcSt EH d ((0 : Fin 1).val + 1) ⊢ iprop(owesT (F := F) d ∗ R) := Entails.of_eq hR
  unfold SparseCore.Cfg.tcRes
  rw [unscopedBufs_eq]
  simp only [main, wp_bind, wp_pure]
  iintro ⟨#Hctx, Hst, ⟨Hb, ⟨Hx, Ho, Ht, Hc, Hc0, Hc1, Hr⟩, -, -⟩, HG⟩
  ihave HG' := (G_elim (F := F) d) $$ HG
  icases HG' with ⟨Hg, Htk⟩
  -- the input as two read shares, the SparseCore result as its blocks
  ihave Hx' := (Transfers.pointsTo_toks_split fullShare 2) $$ Hx
  icases Hx' with ⟨Hxd, Hxt⟩
  ihave Hxt' := (Entails.of_eq (bigSep_univ_two _)) $$ Hxt
  icases Hxt' with ⟨Hx0, Hx1⟩
  ihave Ho' := (Entails.of_eq (oPts_cores d _)) $$ Ho
  icases Ho' with ⟨Ho0, Ho1⟩
  iapply ((K (F := F)).wp_run (D (F := F)) 𝒱 (EH := EH) (P := P m) κ d 0) $$ [Hst Hx0 Hx1 Ho0 Ho1 Hb Hxd Ht Hc Hc0 Hc1 Hr Hg Htk]
  isplitr; · iexact Hctx
  isplitl [Hst]; · iexact Hst
  isplitl [Hx0 Hx1 Ho0 Ho1]
  · rw [st0_eq]
    isplitl [Hx0 Ho0]
    · isplitl [Hx0]; · iexact Hx0
      iexact Ho0
    · isplitl [Hx1]; · iexact Hx1
      iexact Ho1
  iintro ⟨Hst, Hdn⟩
  ihave Hdn' := (Entails.of_eq (dn0_eq m d)) $$ Hdn
  icases Hdn' with ⟨⟨Hx0, Ho0⟩, ⟨Hx1, Ho1⟩⟩
  ihave Hx := (Transfers.pointsTo_toks_join (ℓ := xLoc d) (S := Finset.univ) (f := m (xLoc d)) fullShare 2) $$ [Hxd Hx0 Hx1]
  · isplitl [Hxd]; · iexact Hxd
    rw [bigSep_univ_two]
    isplitl [Hx0]; · iexact Hx0
    iexact Hx1
  ihave Ho := (Entails.of_eq (oPts_cores d (scOut (m (xLoc d)))).symm) $$ [Ho0 Ho1]
  · isplitl [Ho0]; · iexact Ho0
    iexact Ho1
  -- the handshake state after the call: the core owes nothing
  ihave Hst' := hst1 $$ Hst
  icases Hst' with ⟨HO, HR⟩
  -- the region
  iapply (SparseCore.Cfg.wp_liftProg (K (F := F)) (D (F := F)) 𝒱 (SparseCore.T d) Set.univ none
    (Prog.op (.customCall (Pipeline.entry (0 : Fin 1)) ()) Prog.ret) _)
  iapply (Pipeline.RegionSeg.wp (pcfgs (F := F)) adm (dats m) (none : HIx 1) cellOf_inj ER defs₀ 𝒱k (K (F := F)).L (K (F := F)).lev
    (reg m) d none (fun _ h => nomatch h) Prog.ret _) $$ [Hb Hx Ht HO Hg Htk Ho Hc Hc0 Hc1 Hr HR]
  rw [reg_pre m d, reg_post m d]
  isplitr [Hb Hx Ht HO Hg Htk]
  swap
  · isplitl [Hb]; · iexact Hb
    isplitl [Hx Ht HO]
    · isplitl [Hx]; · iexact Hx
      isplitl [Ht]; · iexact Ht
      iexact HO
    isplitr; · iapply (SparseCore.Cfg.ctx_levAts κ); iexact Hctx
    isplitl [Hg]; · iexact Hg
    iexact Htk
  iintro ⟨Hb, Hx, Ht, HO⟩
  rw [wp_ret]; imodintro
  -- the three constants and the update
  iapply (wp_hlo_within 𝒱 (SparseCore.T d) none Set.univ (op := op1) (S := S6) hop1 (V := VA m d)) $$ [Hb Ht Ho Hc Hc0 Hc1 Hr]
  · isplitl [Hb]; · iexact Hb
    rw [held_S6, VA_t, VA_o, VA_other m d k5' (by decide) (by decide), VA_other m d k0' (by decide) (by decide),
      VA_other m d k1' (by decide) (by decide), VA_other m d r' (by decide) (by decide)]
    isplitl [Ht]; · iexact Ht
    isplitl [Ho]; · iexact Ho
    isplitl [Hc]; · iexact Hc
    isplitl [Hc0]; · iexact Hc0
    isplitl [Hc1]; · iexact Hc1
    iexact Hr
  iintro ⟨Hb, Hheld⟩
  rw [wp_ret]; imodintro
  iapply (wp_hlo_within 𝒱 (SparseCore.T d) none Set.univ (op := op2) (S := S6) hop2) $$ [Hb Hheld]
  · isplitl [Hb]; · iexact Hb
    iexact Hheld
  iintro ⟨Hb, Hheld⟩
  rw [wp_ret]; imodintro
  iapply (wp_hlo_within 𝒱 (SparseCore.T d) none Set.univ (op := op3) (S := S6) hop3) $$ [Hb Hheld]
  · isplitl [Hb]; · iexact Hb
    iexact Hheld
  iintro ⟨Hb, Hheld⟩
  rw [wp_ret]; imodintro
  iapply (wp_hlo_within 𝒱 (SparseCore.T d) none Set.univ (op := op4) (S := S6) hop4) $$ [Hb Hheld]
  · isplitl [Hb]; · iexact Hb
    iexact Hheld
  iintro ⟨Hb, Hheld⟩
  ihave Hh := (Entails.of_eq (held_S6 (F := F) d _)) $$ Hheld
  icases Hh with ⟨-, -, -, -, -, Hr⟩
  rw [wp_ret]; imodintro; imodintro
  isplitl [HO HR]
  · rw [hR]
    isplitl [HO]; · iexact HO
    iexact HR
  isplitl [Hx]; · iexact Hx
  iexact Hr

/-! ## The run -/

def fq [∀ e, Nonempty (Elt F e)] (d : Dev nD) (s' : Phys nD τ sig (Elt F)) : Prop :=
  s'.mem.mem (rLoc d) = VB m d r' ∧ s'.mem.mem (xLoc d) = m (xLoc d)

theorem hfin [∀ e, Nonempty (Elt F e)] (d : Dev nD) (s' : Phys nD τ sig (Elt F)) : iprop(FIN m d ∗ SI s') ⊢ (⌜fq m d s'⌝ : sProp 𝕄) := by
  iintro ⟨⟨Hx, Hr⟩, HSI⟩
  icombine HSI Hx gives %hx
  icombine HSI Hr gives %hr
  ipureintro
  exact ⟨funext fun i => hr i (Finset.mem_univ i), funext fun i => hx i (Finset.mem_univ i)⟩

/-- Every weakly fair execution of the program ends, nothing faulting, with the result array at what the last update
    wrote and the input as launched — given the tiles' body and how a SparseCore's operands split among its tiles. -/
theorem run_main_raw [∀ e, Nonempty (Elt F e)]
    (hT : (K (F := F)).TileObl (D (F := F)) 𝒱 (P m) v₀ 0) (hV : (K (F := F)).VecSplit' (P m) 0) :
    θ_run (Cert.KernelIdeal.defs (F := F)) (Cert.KernelIdeal.threads (F := F)) ⟨m, fun _ => 0, ρ⟩
      (fun r => ∀ c : Dev nD, r.2.mem (rLoc c) = VB m c r' ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain hV)
    m ρ main (G (F := F)) (FIN m) (u₀ (F := F)) (sep_elim_left.trans (hu₀ m)) (hmain m ρ) (fq m) (hfin m) _ (fun _ h => h)

end Cert.KernelIdeal.Frame

end
-- ==== Proof.TcOutIdeal.lean ====
/-
  What the TensorCore pipeline leaves in its result array, entry by entry.

  Each stored row is, entry by entry, the body's tree over the squares of the input block (the slices and unit-axis
  casts only move indices); the four rows tile the result block, so the block after the body is that tree at every
  entry. Block t of the input is rows 984·t … of the input array, so what point t writes back is block t of the
  program's result read through the same window; the six blocks cover rows 0 … 5903 of the result array, which
  therefore hold the program's result there after the region.
-/
import proofs.«216336_g7232724927063_cont_9to1_m_658_15_alg».proof.Proof.BaseIdeal
import proofs.«216336_g7232724927063_cont_9to1_m_658_15_alg».proof.Proof.TcBodyIdeal
import proofs.«216336_g7232724927063_cont_9to1_m_658_15_alg».proof.Proof.TcRowIdeal
import Idealize.ShloMosaic.Lib.Pipeline.Value

set_option maxRecDepth 16384

noncomputable section

namespace Cert.KernelIdeal.Frame

open Cert.KernelIdeal Cert.KernelIdeal.Gen

open Idealize.ShloMosaic Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's stored rows, entry by entry -/

/-- Component `r` of the squared block, as the body slices it out and drops the unit axis. -/
theorem row_apply (r : Nat) (v1 : FVec F S984x16x128 .f32) (hs : S984x16x128.Slices ![0, r, 0] S984x1x128)
    (hc : S984x1x128.ShapeCasts S984x128) (j : S984x128.Idx) (hr : r < 16) :
    shapeCast S984x128 (extractStridedSlice S984x1x128 ![0, r, 0] v1 hs) hc j = v1 (ix3 (j 0) ⟨r, hr⟩ (j 1)) := by
  rw [shapeCast_apply _ hc j (ix3 (j 0) 0 (j 1)) (by
      rw [Shape.rowMajor_val_three, Shape.rowMajor_val_two]; simp),
    extractStridedSlice_apply ![0, r, 0] v1 hs _ (ix3 (j 0) ⟨r, hr⟩ (j 1)) (by
      intro a; fin_cases a <;> simp)]

/-- A row put back under a unit axis. -/
theorem unrow_apply (v : FVec F S984x128 .f32) (hc : S984x128.ShapeCasts S984x1x128) (y : S984x1x128.Idx) :
    shapeCast S984x1x128 v hc y = v (ix2 (y 0) (y 2)) := by
  rw [shapeCast_apply _ hc y (ix2 (y 0) (y 2)) (by
      have h1 : (y 1).val = 0 := by have := (y 1).isLt; simp at this; omega
      rw [Shape.rowMajor_val_three, Shape.rowMajor_val_two]; simp [h1])]

theorem vmulf_apply {s : Shape} (a b : FVec F s .f32) (i : s.Idx) : mulf a b i = FloatOps.mulf (a i) (b i) := rfl
theorem vaddf_apply {s : Shape} (a b : FVec F s .f32) (i : s.Idx) : addf a b i = FloatOps.addf (a i) (b i) := rfl

/-- The square of entry (i, r, c) of an input block. -/
def sqB (X : FVec F S984x16x128 .f32) (i : Fin 984) (c : Fin 128) (r : Fin 16) : F .f32 :=
  FloatOps.mulf (X (ix3 i r c)) (X (ix3 i r c))

/-- The four results of row `i`, channel `c` of a block: the body's tree over the block's squares. -/
def blkRow (X : FVec F S984x16x128 .f32) (i : Fin 984) (c : Fin 128) : Fin 4 → F .f32 :=
  let q := sqB X i c
  ![FloatOps.mulf (q 0) (Scalar.ofBits .f32 0x3F800000#32),
    FloatOps.mulf (FloatOps.addf (FloatOps.addf (q 1) (q 2)) (q 3)) (Scalar.ofBits .f32 0x3EAAAAAB#32),
    FloatOps.mulf (FloatOps.addf (FloatOps.addf (FloatOps.addf (FloatOps.addf (q 4) (q 5)) (q 6)) (q 7)) (q 8)) (Scalar.ofBits .f32 0x3E4CCCCD#32),
    FloatOps.mulf (FloatOps.addf (FloatOps.addf (FloatOps.addf (FloatOps.addf (FloatOps.addf (FloatOps.addf (q 9) (q 10)) (q 11)) (q 12)) (q 13)) (q 14)) (q 15))
      (Scalar.ofBits .f32 0x3E124925#32)]

theorem pay3_apply (v0 : Vec F S984x16x128 .f32) (y : S984x1x128.Idx) : k1_pay3 v0 y = blkRow v0 (y 0) (y 2) 0 := by
  unfold k1_pay3 k1_pay2
  simp only [unrow_apply, vmulf_apply, vaddf_apply, broadcast_apply]
  rw [row_apply 0 _ _ _ _ (by decide)]
  rfl
theorem pay4_apply (v0 : Vec F S984x16x128 .f32) (y : S984x1x128.Idx) : k1_pay4 v0 y = blkRow v0 (y 0) (y 2) 1 := by
  unfold k1_pay4 k1_pay2
  simp only [unrow_apply, vmulf_apply, vaddf_apply, broadcast_apply]
  rw [row_apply 1 _ _ _ _ (by decide), row_apply 2 _ _ _ _ (by decide), row_apply 3 _ _ _ _ (by decide)]
  rfl
theorem pay5_apply (v0 : Vec F S984x16x128 .f32) (y : S984x1x128.Idx) : k1_pay5 v0 y = blkRow v0 (y 0) (y 2) 2 := by
  unfold k1_pay5 k1_pay2
  simp only [unrow_apply, vmulf_apply, vaddf_apply, broadcast_apply]
  rw [row_apply 4 _ _ _ _ (by decide), row_apply 5 _ _ _ _ (by decide), row_apply 6 _ _ _ _ (by decide), row_apply 7 _ _ _ _ (by decide), row_apply 8 _ _ _ _ (by decide)]
  rfl
theorem pay1_apply (v0 : Vec F S984x16x128 .f32) (y : S984x1x128.Idx) : k1_pay1 (k1_pay2 v0) y = blkRow v0 (y 0) (y 2) 3 := by
  unfold k1_pay1 k1_pay2
  simp only [unrow_apply, vmulf_apply, vaddf_apply, broadcast_apply]
  rw [row_apply 9 _ _ _ _ (by decide), row_apply 10 _ _ _ _ (by decide), row_apply 11 _ _ _ _ (by decide), row_apply 12 _ _ _ _ (by decide), row_apply 13 _ _ _ _ (by decide), row_apply 14 _ _ _ _ (by decide), row_apply 15 _ _ _ _ (by decide)]
  rfl

/-- Where a stored row's entry sits in the output block. -/
theorem emb_rO (k : Nat) (hk : ∀ a, (![0, k, 0] : Fin 3 → Nat) a + S984x1x128.size a ≤ S984x4x128.size a)
    (x : (Rect.unit (s := S984x4x128) ![0, k, 0] S984x1x128.size hk).shape.Idx) :
    ((Rect.unit (s := S984x4x128) ![0, k, 0] S984x1x128.size hk).emb x 0).val = (x 0).val
      ∧ ((Rect.unit (s := S984x4x128) ![0, k, 0] S984x1x128.size hk).emb x 1).val = k
      ∧ ((Rect.unit (s := S984x4x128) ![0, k, 0] S984x1x128.size hk).emb x 2).val = (x 2).val := by
  have h1 : (x 1).val = 0 := by have := (x 1).isLt; simp at this; omega
  refine ⟨?_, ?_, ?_⟩ <;> rw [Rect.emb_apply] <;> simp [h1]

/-- The output block after the body, entry by entry. -/
theorem outBlk_apply [∀ e, Nonempty (Elt F e)] (X : Vec F S984x16x128 .f32) (j : S984x4x128.Idx) :
    outBlk X j = blkRow X (j 0) (j 2) (j 1) := by
  unfold outBlk
  rw [View.ld_unit_zero (funext fun a => by fin_cases a <;> rfl) inb_S984x16x128_S984x16x128_0_0_0]
  refine View.canon_apply_of_pieces (fun j => blkRow X (j 0) (j 2) (j 1)) _ ?_ j (coverOut _ _ _ _ j)
  intro p hp x
  simp only [List.mem_cons, List.mem_nil_iff, or_false] at hp
  rcases hp with rfl | rfl | rfl | rfl
  · obtain ⟨e0, e1, e2⟩ := emb_rO 3 inb_S984x4x128_S984x1x128_0_3_0 x
    show k1_pay1 (k1_pay2 X) x = blkRow X (rO3.emb x 0) (rO3.emb x 2) (rO3.emb x 1)
    rw [pay1_apply, show rO3.emb x 0 = x 0 from Fin.ext e0, show rO3.emb x 2 = x 2 from Fin.ext e2, show rO3.emb x 1 = (3 : Fin 4) from Fin.ext e1]
  · obtain ⟨e0, e1, e2⟩ := emb_rO 2 inb_S984x4x128_S984x1x128_0_2_0 x
    show k1_pay5 X x = blkRow X (rO2.emb x 0) (rO2.emb x 2) (rO2.emb x 1)
    rw [pay5_apply, show rO2.emb x 0 = x 0 from Fin.ext e0, show rO2.emb x 2 = x 2 from Fin.ext e2, show rO2.emb x 1 = (2 : Fin 4) from Fin.ext e1]
  · obtain ⟨e0, e1, e2⟩ := emb_rO 1 inb_S984x4x128_S984x1x128_0_1_0 x
    show k1_pay4 X x = blkRow X (rO1.emb x 0) (rO1.emb x 2) (rO1.emb x 1)
    rw [pay4_apply, show rO1.emb x 0 = x 0 from Fin.ext e0, show rO1.emb x 2 = x 2 from Fin.ext e2, show rO1.emb x 1 = (1 : Fin 4) from Fin.ext e1]
  · obtain ⟨e0, e1, e2⟩ := emb_rO 0 inb_S984x4x128_S984x1x128_0_0_0 x
    show k1_pay3 X x = blkRow X (rO0.emb x 0) (rO0.emb x 2) (rO0.emb x 1)
    rw [pay3_apply, show rO0.emb x 0 = x 0 from Fin.ext e0, show rO0.emb x 2 = x 2 from Fin.ext e2, show rO0.emb x 1 = (0 : Fin 4) from Fin.ext e1]

variable (m : (ℓ : Loc nD τ sig) → Buf (Elt F) ℓ)

/-- The body's tree over a block is the tree over the array when the block's squares are the array's. -/
theorem blkRow_eq (X : FVec F S984x16x128 .f32) (x : FVec F S10000x16x128 .f32) (i : Fin 984) (n : Fin 10000) (c : Fin 128)
    (h : ∀ r : Fin 16, X (ix3 i r c) = x (ix3 n r c)) : blkRow X i c = tcRow x n c := by
  unfold blkRow tcRow sqB sqAt
  simp only [h]

/-- Where the windows' blocks sit: block `t` starts at row 984·t, at component and channel 0. -/
theorem index0 : ∀ t : Fin grid1.N, win1_0.index t 0 = t.val ∧ win1_0.index t 1 = 0 ∧ win1_0.index t 2 = 0 := by decide +kernel
theorem index1 : ∀ t : Fin grid1.N, win1_1.index t 0 = t.val ∧ win1_1.index t 1 = 0 ∧ win1_1.index t 2 = 0 := by decide +kernel
theorem clip_none1 : ∀ (t : Fin grid1.N) a, win1_1.clip (grid1.coords t) a = none := by decide +kernel

/-- The fetched input block, entry by entry: rows 984·t … of the input array. -/
theorem xblk8_apply (d : Dev nD) (t : Fin cfg1.N) (i : Fin 984) (r : Fin 16) (c : Fin 128) (hn : 984 * t.val + i.val < 10000) :
    xblk8 m d t (ix3 i r c) = m (xLoc d) (ix3 ⟨984 * t.val + i.val, hn⟩ r c) := by
  have hx : ∀ a, ((ix3 i r c : S984x16x128.Idx) a).val < win1_0.xsize (grid1.coords t) a := fun a => by
    have := ((ix3 i r c : S984x16x128.Idx) a).isLt; unfold Window.xsize; rw [clip_none0 t a]; exact this
  have e : (ix3 i r c : S984x16x128.Idx) = win1_0.xinj (grid1.coords t) (fun a => ⟨((ix3 i r c : S984x16x128.Idx) a).val, hx a⟩) := rfl
  unfold xblk8
  rw [e, win1_0.fill_xinj]
  unfold xblk
  rw [View.read_apply]
  obtain ⟨h0, h1, h2⟩ := index0 t
  have hemb : ((win1_0.blk t).view.emb fun a => (⟨((ix3 i r c : S984x16x128.Idx) a).val, hx a⟩ : Fin (win1_0.xsize (grid1.coords t) a)))
      = (ix3 ⟨984 * t.val + i.val, hn⟩ r c : S10000x16x128.Idx) := by
    funext a
    apply Fin.ext
    show ((win1_0.rect t).emb _ a : Nat) = _
    rw [Window.rect_emb_val]
    fin_cases a
    · show win1_0.index t 0 * 984 + i.val = 984 * t.val + i.val
      rw [h0]; omega
    · show win1_0.index t 1 * 16 + r.val = r.val
      rw [h1]; omega
    · show win1_0.index t 2 * 128 + c.val = c.val
      rw [h2]; omega
  rw [hemb]
  rfl

set_option maxHeartbeats 1000000 in
/-- What each point writes back is its block of the program's result. -/
theorem flushed_eq [∀ e, Nonempty (Elt F e)] (d : Dev nD) (t : Fin cfg1.N) :
    (dats m 0 d).flushed 1 t = (win1_1.blk t).view.read (Elt F) (finalOut (m (xLoc d)) : Buf (Elt F) (tLoc d)) := by
  funext y
  rw [View.read_apply]
  have hL : (dats m 0 d).flushed 1 t y = outBlk (xblk8 m d t) (win1_1.xinj (grid1.coords t) y) := by
    unfold Dat.flushed
    dsimp only [dats]
  rw [hL, outBlk_apply]
  obtain ⟨h0, h1, h2⟩ := index1 t
  have hs : ∀ a, win1_1.xsize (grid1.coords t) a = S984x4x128.size a := fun a => by
    unfold Window.xsize; rw [clip_none1 t a]
  have ht : t.val < 6 := Nat.lt_of_lt_of_eq t.isLt N_1
  have hy0 : (y 0).val < 984 := Nat.lt_of_lt_of_eq (y 0).isLt (hs 0)
  have hy1 : (y 1).val < 4 := Nat.lt_of_lt_of_eq (y 1).isLt (hs 1)
  have hy2 : (y 2).val < 128 := Nat.lt_of_lt_of_eq (y 2).isLt (hs 2)
  have hn : 984 * t.val + (y 0).val < 10000 := by omega
  have hemb : (win1_1.blk t).view.emb y = (ix3 ⟨984 * t.val + (y 0).val, hn⟩ ⟨(y 1).val, hy1⟩ ⟨(y 2).val, hy2⟩ : S10000x4x128.Idx) := by
    funext a
    apply Fin.ext
    show ((win1_1.rect t).emb y a : Nat) = _
    rw [Window.rect_emb_val]
    fin_cases a
    · show win1_1.index t 0 * 984 + (y 0).val = 984 * t.val + (y 0).val
      rw [h0]; omega
    · show win1_1.index t 1 * 4 + (y 1).val = (y 1).val
      rw [h1]; omega
    · show win1_1.index t 2 * 128 + (y 2).val = (y 2).val
      rw [h2]; omega
  rw [hemb]
  show blkRow (xblk8 m d t) ⟨(y 0).val, hy0⟩ ⟨(y 2).val, hy2⟩ ⟨(y 1).val, hy1⟩ = finalOut (m (xLoc d)) (ix3 ⟨984 * t.val + (y 0).val, hn⟩ ⟨(y 1).val, hy1⟩ ⟨(y 2).val, hy2⟩)
  unfold finalOut
  rw [dif_pos (show ((ix3 (⟨984 * t.val + (y 0).val, hn⟩ : Fin 10000) (⟨(y 1).val, hy1⟩ : Fin 4) (⟨(y 2).val, hy2⟩ : Fin 128) : S10000x4x128.Idx) 0).val < 5904 from by
    show 984 * t.val + (y 0).val < 5904; omega)]
  rw [blkRow_eq (xblk8 m d t) (m (xLoc d)) ⟨(y 0).val, hy0⟩ ⟨984 * t.val + (y 0).val, hn⟩ ⟨(y 2).val, hy2⟩ fun r => xblk8_apply m d t _ r _ hn]

/-- Row `n` of the result array lies in block n / 984. -/
theorem mem_blk (t : Fin cfg1.N) (j : S10000x4x128.Idx) (h : 984 * t.val ≤ (j 0).val ∧ (j 0).val < 984 * t.val + 984) :
    j ∈ (win1_1.blk t).view.set := by
  show j ∈ ((View.whole main_v1).slice (win1_1.rect t)).set
  rw [View.set_slice_whole, Rect.mem_set_unit]
  obtain ⟨h0, h1, h2⟩ := index1 t
  have hs : ∀ a, win1_1.xsize (grid1.coords t) a = S984x4x128.size a := fun a => by
    unfold Window.xsize; rw [clip_none1 t a]
  intro a
  rw [hs a]
  have := (j a).isLt
  fin_cases a
  · show win1_1.index t 0 * 984 ≤ (j 0).val ∧ (j 0).val < win1_1.index t 0 * 984 + 984
    rw [h0]; omega
  · show win1_1.index t 1 * 4 ≤ (j 1).val ∧ (j 1).val < win1_1.index t 1 * 4 + 4
    rw [h1]; have := (j 1).isLt; simp at this; omega
  · show win1_1.index t 2 * 128 ≤ (j 2).val ∧ (j 2).val < win1_1.index t 2 * 128 + 128
    rw [h2]; have := (j 2).isLt; simp at this; omega

/-- After the region the result array's first 5904 rows are the program's result. -/
theorem tOut_apply [∀ e, Nonempty (Elt F e)] (d : Dev nD) (j : S10000x4x128.Idx) (hj : (j 0).val < 5904) :
    (dats m 0 d).arrAt 1 cfg1.N j = finalOut (m (xLoc d)) j := by
  have hN : cfg1.N = 6 := N_1
  have ht : (j 0).val / 984 < cfg1.N := by rw [hN]; omega
  rw [(dats m 0 d).arrAt_eq_piecewise 1 (finalOut (m (xLoc d)) : Buf (Elt F) (tLoc d)) (fun t _ => flushed_eq m d t) j]
  have hq : 984 * ((j 0).val / 984) ≤ (j 0).val ∧ (j 0).val < 984 * ((j 0).val / 984) + 984 := by omega
  exact if_pos ⟨⟨(j 0).val / 984, ht⟩, flush_1 _, mem_blk ⟨(j 0).val / 984, ht⟩ j hq⟩

end Cert.KernelIdeal.Frame

end
-- ==== Proof.RunIdeal.lean ====
/-
  The program's result as one function of its input, and the run stated with it.

  After the three index constants the final update reads its start as (5904, 0, 0), already inside the clamp, so it
  writes the SparseCore's 4096 rows at rows 5904 … 9999 of the pipeline's result array and keeps rows 0 … 5903,
  which the pipeline left at the program's result: the array the program returns is `finalOut` of the input.
-/
import proofs.«216336_g7232724927063_cont_9to1_m_658_15_alg».proof.Proof.BaseIdeal
import proofs.«216336_g7232724927063_cont_9to1_m_658_15_alg».proof.Proof.MainIdeal
import proofs.«216336_g7232724927063_cont_9to1_m_658_15_alg».proof.Proof.TcOutIdeal
import Idealize.ShloMosaic.Lib.Pipeline.Value

set_option maxRecDepth 16384

noncomputable section

namespace Cert.KernelIdeal.Frame

open Cert.KernelIdeal Cert.KernelIdeal.Gen

open Idealize.ShloMosaic Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- The buffers after the three constants. -/
abbrev V3 [∀ e, Nonempty (Elt F e)] (d : Dev nD) : Valuation τ sig (Elt F) :=
  (op3 (F := F)).result ((op2 (F := F)).result ((op1 (F := F)).result (VA m d)))

theorem V3_of_ne [∀ e, Nonempty (Elt F e)] (d : Dev nD) (b : DevRef τ sig) (h1 : b ∉ ({k1'} : Finset (DevRef τ sig)))
    (h0 : b ∉ ({k0'} : Finset (DevRef τ sig))) (h5 : b ∉ ({k5'} : Finset (DevRef τ sig))) : V3 m d b = VA m d b := by
  unfold V3
  rw [(op3 (F := F)).result_of_not_mem _ (b := b) h1, (op2 (F := F)).result_of_not_mem _ (b := b) h0, (op1 (F := F)).result_of_not_mem _ (b := b) h5]

theorem V3_t [∀ e, Nonempty (Elt F e)] (d : Dev nD) : V3 m d t' = tOut m d :=
  (V3_of_ne m d t' (by decide) (by decide) (by decide)).trans (VA_t m d)
theorem V3_o [∀ e, Nonempty (Elt F e)] (d : Dev nD) : V3 m d o' = scOut (m (xLoc d)) :=
  (V3_of_ne m d o' (by decide) (by decide) (by decide)).trans (VA_o m d)
theorem V3_k5 [∀ e, Nonempty (Elt F e)] (d : Dev nD) : V3 m d k5' = constantI S_ 32 5904#32 := by
  unfold V3
  rw [(op3 (F := F)).result_of_not_mem _ (b := k5') (show k5' ∉ ({k1'} : Finset (DevRef τ sig)) by decide),
    (op2 (F := F)).result_of_not_mem _ (b := k5') (show k5' ∉ ({k0'} : Finset (DevRef τ sig)) by decide)]
  exact StableHlo.nullary_result _ _ _ _
theorem V3_k0 [∀ e, Nonempty (Elt F e)] (d : Dev nD) : V3 m d k0' = constantI S_ 32 0#32 := by
  unfold V3
  rw [(op3 (F := F)).result_of_not_mem _ (b := k0') (show k0' ∉ ({k1'} : Finset (DevRef τ sig)) by decide)]
  exact StableHlo.nullary_result _ _ _ _
theorem V3_k1 [∀ e, Nonempty (Elt F e)] (d : Dev nD) : V3 m d k1' = constantI S_ 32 0#32 := by
  unfold V3
  exact StableHlo.nullary_result _ _ _ _

set_option maxHeartbeats 1000000 in
/-- The last update's result: the SparseCore's rows written into the pipeline's result at row 5904. -/
theorem VB_r [∀ e, Nonempty (Elt F e)] (d : Dev nD) :
    VB m d r' = updateSlice (tOut m d : S10000x4x128.Idx → F .f32) (scOut (m (xLoc d))) ![5904, 0, 0]
      (by decide : S10000x4x128.Slices ![5904, 0, 0] S4096x4x128) := by
  have h4 := StableHlo.binaryIndexed_result (τ := τ) main_v1 main_v0 ![main_c, main_c_0, main_c_1] ⟨S_, .i32⟩ main_v2 (dusF (F := F))
    (by decide) ⟨by decide, rfl⟩ ⟨by decide, rfl⟩ (by decide) ⟨by decide, rfl⟩ (V3 m d)
  unfold VB
  refine Eq.trans h4 ?_
  rw [V3_t, V3_o]
  refine Host.dynamicUpdateSlice_eq_updateSlice (s := S10000x4x128) (u := S4096x4x128) _ _ _ _ ![5904, 0, 0] (fun a => ?_) _
  fin_cases a
  · show (min (max ((V3 m d k5' (Shape.Idx.first h_S_)).toInt) 0) (((10000 - 4096 : Nat)) : Int)).toNat = 5904
    rw [V3_k5]
    show (min (max ((5904#32 : BitVec 32).toInt) 0) (((10000 - 4096 : Nat)) : Int)).toNat = 5904
    decide
  · show (min (max ((V3 m d k0' (Shape.Idx.first h_S_)).toInt) 0) (((4 - 4 : Nat)) : Int)).toNat = 0
    rw [V3_k0]
    show (min (max ((0#32 : BitVec 32).toInt) 0) (((4 - 4 : Nat)) : Int)).toNat = 0
    decide
  · show (min (max ((V3 m d k1' (Shape.Idx.first h_S_)).toInt) 0) (((128 - 128 : Nat)) : Int)).toNat = 0
    rw [V3_k1]
    show (min (max ((0#32 : BitVec 32).toInt) 0) (((128 - 128 : Nat)) : Int)).toNat = 0
    decide

/-- The program's result array is `finalOut` of its input: the update keeps the pipeline's rows below 5904 and puts the
    SparseCore's above. -/
theorem VB_eq [∀ e, Nonempty (Elt F e)] (d : Dev nD) : VB m d r' = finalOut (m (xLoc d)) := by
  refine (VB_r m d).trans ?_
  refine funext fun (j : S10000x4x128.Idx) => ?_
  show updateSlice (s := S10000x4x128) (u := S4096x4x128) (tOut m d) (scOut (m (xLoc d))) ![5904, 0, 0]
    (by decide : S10000x4x128.Slices ![5904, 0, 0] S4096x4x128) j = finalOut (m (xLoc d)) j
  unfold updateSlice
  by_cases hj : (j 0).val < 5904
  · rw [dif_neg (fun hin => by have := (hin 0).1; simp at this; omega)]
    unfold finalOut
    rw [dif_pos hj]
    have := tOut_apply m d j hj
    unfold finalOut at this
    rw [dif_pos hj] at this
    exact this
  · have hin : ∀ a : Fin S10000x4x128.rank, (![5904, 0, 0] : Fin 3 → Nat) a ≤ (j a).val ∧ (j a).val < (![5904, 0, 0] : Fin 3 → Nat) a + S4096x4x128.size (a.cast rfl) := by
      intro a
      have := (j a).isLt
      fin_cases a <;> simp at this ⊢ <;> omega
    rw [dif_pos hin]
    unfold finalOut
    rw [dif_neg hj]
    refine congrArg (scOut (m (xLoc d))) (funext fun b => ?_)
    fin_cases b <;> apply Fin.ext <;> simp

/-- Every weakly fair execution of the program ends, nothing faulting, with the result array at `finalOut` of the input
    and the input as launched. -/
theorem run_main [∀ e, Nonempty (Elt F e)] (m : (ℓ : Loc nD τ sig) → Buf (Elt F) ℓ) (ρ : Dev nD → PrngReg)
    (hT : (K (F := F)).TileObl (D (F := F)) 𝒱 (P m) v₀ 0) (hV : (K (F := F)).VecSplit' (P m) 0) :
    θ_run (Cert.KernelIdeal.defs (F := F)) (Cert.KernelIdeal.threads (F := F)) ⟨m, fun _ => 0, ρ⟩
      (fun r => ∀ c : Dev nD, r.2.mem (rLoc c) = finalOut (m (xLoc c)) ∧ r.2.mem (xLoc c) = m (xLoc c)) :=
  (θ_run _ _ _).mono (fun _ h c => ⟨(h c).1.trans (VB_eq m c), (h c).2⟩) (run_main_raw m ρ hT hV)

end Cert.KernelIdeal.Frame

end
-- ==== Proof.TcValueIdeal.lean ====
/-
  At the exact instance the TensorCore body's value is the specification's scaled squared norm: the body's left-nested
  sums are the specification's one sum over the sixteen components, addition on the extended reals being commutative and
  associative, and the first piece's scale is the number 1.
-/
import proofs.«216336_g7232724927063_cont_9to1_m_658_15_alg».proof.Proof.TcRowIdeal
import proofs.«216336_g7232724927063_cont_9to1_m_658_15_alg».proof.Proof.Spec

noncomputable section

namespace Cert.KernelIdeal.Frame

open Idealize.ShloMosaic Idealize.ShloMosaic.ValueIdx

/-- The word 0x3F800000 is the float 1. -/
theorem ofBits_one : Ideal.ofBits .f32 0x3F800000#32 = 1 := by
  simp [Ideal.ofBits, Ideal.ieee, -EReal.coe_mul]; norm_num

/-- The specification's sum over the sixteen components, piece by piece. -/
theorem seg_sum (f : Fin 16 → EReal) (k : Fin 4) :
    (∑ r : Fin 16, if Cert.SqNorm.seg r = k then f r else 0)
      = (![f 0, (f 1 + f 2) + f 3, (((f 4 + f 5) + f 6) + f 7) + f 8,
            (((((f 9 + f 10) + f 11) + f 12) + f 13) + f 14) + f 15] : Fin 4 → EReal) k := by
  fin_cases k <;> simp (decide := true) [Fin.sum_univ_succ, Cert.SqNorm.seg] <;> first | rfl | abel | (simp only [add_comm, add_left_comm, add_assoc])

/-- At the exact instance the body's value is the specification's. -/
theorem tcRow_ideal (x : FVec Ideal S10000x16x128 .f32) (n : Fin 10000) (c : Fin 128) (k : Fin 4) :
    tcRow (F := Ideal) x n c k = Cert.SqNorm.sqnorm x n k c := by
  unfold Cert.SqNorm.sqnorm
  rw [seg_sum (fun r => x (ix3 n r c) * x (ix3 n r c)) k]
  fin_cases k
  · show x (ix3 n 0 c) * x (ix3 n 0 c) * Ideal.ofBits .f32 0x3F800000#32 = x (ix3 n 0 c) * x (ix3 n 0 c) * Ideal.ofBits .f32 (Cert.SqNorm.scaleBits 0)
    rfl
  · rfl
  · rfl
  · rfl

end Cert.KernelIdeal.Frame

end
-- ==== Proof.ScValueIdeal.lean ====
/-
  On the extended reals the SparseCore kernel's expression tree for one node, piece and channel is the scaled
  squared norm of the specification: the tree's sums are regroupings of the specification's one sum over the 16
  components (the components outside the piece contribute 0 there), and addition on the extended reals is
  commutative and associative; piece 0 is stored unscaled by the kernel, and its scale is the float 1.
-/
import proofs.«216336_g7232724927063_cont_9to1_m_658_15_alg».proof.Proof.Spec
import proofs.«216336_g7232724927063_cont_9to1_m_658_15_alg».proof.Proof.BaseIdeal
import Idealize.ShloMosaic.PureOps.Ideal
import Idealize.ShloMosaic.PureOps.Ideal.Laws

noncomputable section

namespace Cert.KernelIdeal.Frame

open Cert.KernelIdeal
open Idealize.ShloMosaic Idealize.ShloMosaic.ValueIdx

/-- The binary32 word 0x3F800000 is the number 1. -/
theorem ofBits_one_f32 : Ideal.ofBits .f32 0x3F800000#32 = 1 := by
  simp [Ideal.ofBits, Ideal.ieee]
  rw [← EReal.coe_mul, ← EReal.coe_one]
  congr 1
  norm_num

/-- The specification's sum over all 16 components with the ones outside piece `k` at 0, regrouped as the kernel
    adds the piece's components. -/
theorem sum_piece (q : Fin 16 → EReal) (k : Fin 4) :
    (∑ r : Fin 16, if Cert.SqNorm.seg r = k then q r else 0)
      = ![q 0, q 1 + q 2 + q 3, q 4 + q 5 + (q 6 + q 7) + q 8, q 9 + q 10 + (q 11 + q 12) + (q 13 + q 14 + q 15)] k := by
  fin_cases k
  · simp [Fin.sum_univ_succ, Cert.SqNorm.seg]
  · simp [Fin.sum_univ_succ, Cert.SqNorm.seg]
    simp only [add_assoc]
  · simp [Fin.sum_univ_succ, Cert.SqNorm.seg]
    simp only [add_assoc]
  · simp [Fin.sum_univ_succ, Cert.SqNorm.seg]
    simp only [add_assoc]

theorem scRow_ideal (x : FVec Ideal S10000x16x128 .f32) (n : Fin 10000) (c : Fin 128) (k : Fin 4) :
    scRow (F := Ideal) x n c k = Cert.SqNorm.sqnorm x n k c := by
  unfold Cert.SqNorm.sqnorm
  rw [sum_piece (fun r => x (ix3 n r c) * x (ix3 n r c)) k]
  unfold scRow sqAt
  fin_cases k
  · simp [Cert.SqNorm.scaleBits, ofBits_one_f32]
  · simp [Cert.SqNorm.scaleBits, Scalar.ofBits]
  · simp [Cert.SqNorm.scaleBits, Scalar.ofBits]
  · simp [Cert.SqNorm.scaleBits, Scalar.ofBits]

/-- Row `n'` of the SparseCore kernel's result is the specification's row 5904 + n'. -/
theorem scOut_ideal (x : FVec Ideal S10000x16x128 .f32) (j : S4096x4x128.Idx) (hn : (j 0).val + 5904 < 10000) :
    scOut (F := Ideal) x j = Cert.SqNorm.sqnorm x ⟨(j 0).val + 5904, hn⟩ (j 1) (j 2) :=
  scRow_ideal x _ (j 2) (j 1)

end Cert.KernelIdeal.Frame

end
-- ==== Proof.SplitIdeal.lean ====
/-
  The split of the SparseCore call's operands among the 16 tiles of one SparseCore, at any float instance.

  The SparseCore's read share of the input is a remainder together with one share per tile: the 16 tiles' shares go out,
  the remainder stays behind, and when the tiles' shares come back the remainder joins them into the SparseCore's share
  again.  The SparseCore's 128 result blocks are, by definition, its 16 tiles' eight blocks each taken together, so they go
  out and come back as they are, whatever values they hold.  The tiles are numbered by the call's own index type, which is
  the numbers below 16.
-/
import proofs.«216336_g7232724927063_cont_9to1_m_658_15_alg».proof.Defs
import proofs.«216336_g7232724927063_cont_9to1_m_658_15_alg».proof.Proof.Gen.KernelIdeal
import proofs.«216336_g7232724927063_cont_9to1_m_658_15_alg».proof.Proof.BaseIdeal
import Idealize.ShloMosaic.Lib.SparseCore.Launch
import Idealize.ShloMosaic.Lib.Pipeline.Kit
import Idealize.ShloMosaic.Lib.Transfers
import Idealize.ShloMosaic.Lib.ValueIdx

noncomputable section

namespace Cert.KernelIdeal.Frame

open Cert.KernelIdeal Cert.KernelIdeal.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A family over the call's tile numbers, read through the identification with the numbers below 16, is the family
    over the numbers below 16. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable (m : (ℓ : Loc nD τ sig) → Buf (Elt F) ℓ)

variable [FloatOps F]

/-- What SparseCore `c` is handed splits into what its 16 tiles are handed, and what the tiles hand back joins into what
    the SparseCore hands back: the read share of the input as remainder and tiles' shares, the result blocks tile by tile. -/
theorem vecSplit : (K (F := F)).VecSplit' (P m) 0 := by
  intro d c
  show iprop(xPtsC m d (Fin.cast nCore_zero c) ∗ oPtsC d (Fin.cast nCore_zero c) (m (oLoc d))) ⊢ |={Set.univ}=> iprop(
      (bigSep Finset.univ fun i : Fin ((K (F := F)).nSub 0) =>
        iprop(xPtsT m d (Fin.cast nCore_zero c) (Fin.cast nSub_zero i) ∗ oPtsT d (Fin.cast nCore_zero c) (Fin.cast nSub_zero i) (m (oLoc d))))
      ∗ ((bigSep Finset.univ fun i : Fin ((K (F := F)).nSub 0) =>
          iprop(xPtsT m d (Fin.cast nCore_zero c) (Fin.cast nSub_zero i) ∗ oPtsT d (Fin.cast nCore_zero c) (Fin.cast nSub_zero i) (scOut (m (xLoc d)))))
          -∗ iprop(xPtsC m d (Fin.cast nCore_zero c) ∗ oPtsC d (Fin.cast nCore_zero c) (scOut (m (xLoc d))))))
  generalize Fin.cast nCore_zero c = c'
  rw [bigSep_tiles (F := F) (fun i => iprop(xPtsT m d c' i ∗ oPtsT d c' i (m (oLoc d)))),
    bigSep_tiles (F := F) (fun i => iprop(xPtsT m d c' i ∗ oPtsT d c' i (scOut (m (xLoc d))))), bigSep_sep', bigSep_sep']
  iintro ⟨Hx, Ho⟩
  ihave Hx' := (Transfers.pointsTo_toks_split (xTokC c') 16) $$ Hx
  icases Hx' with ⟨Hrem, Htoks⟩
  imodintro
  isplitl [Htoks Ho]
  · isplitl [Htoks]; · iexact Htoks
    iexact Ho
  iintro ⟨Hts, Ho'⟩
  isplitl [Hrem Hts]
  · iapply (Transfers.pointsTo_toks_join (xTokC c') 16)
    isplitl [Hrem]; · iexact Hrem
    iexact Hts
  iexact Ho'

end Cert.KernelIdeal.Frame

end
-- ==== Proof.FinalIdeal.lean ====
/-
  The idealized program computes the specification.

  On the extended reals the program's result `finalOut` is the specification's array `G`: on rows 0 … 5903 it is the
  TensorCore body's tree, on rows 5904 … 9999 the SparseCore kernel's tree at the same row of the input, and each tree
  is the scaled squared norm of its piece. So the program's run ends with the result array at `G` of the input array
  and the input array unchanged.
-/
import proofs.«216336_g7232724927063_cont_9to1_m_658_15_alg».proof.Proof.RunIdeal
import proofs.«216336_g7232724927063_cont_9to1_m_658_15_alg».proof.Proof.TcValueIdeal
import proofs.«216336_g7232724927063_cont_9to1_m_658_15_alg».proof.Proof.ScValueIdeal
import proofs.«216336_g7232724927063_cont_9to1_m_658_15_alg».proof.Proof.SplitIdeal
import proofs.«216336_g7232724927063_cont_9to1_m_658_15_alg».proof.Proof.Spec

set_option maxRecDepth 16384

noncomputable section

namespace Cert.KernelIdeal.Frame

open Cert.KernelIdeal
open Idealize.ShloMosaic Idealize.ShloMosaic.ValueIdx Idealize.SL.Sem

/-- The program's result, on the extended reals, is the specification's. -/
theorem finalOut_ideal (x : FVec Ideal S10000x16x128 .f32) : finalOut (F := Ideal) x = Cert.SqNorm.G x := by
  funext j
  unfold finalOut
  by_cases h : (j 0).val < 5904
  · rw [dif_pos h]
    exact tcRow_ideal x (j 0) (j 2) (j 1)
  · rw [dif_neg h]
    have hlt : (j 0).val < 10000 := (j 0).isLt
    have hsub : (j 0).val - 5904 + 5904 = (j 0).val := Nat.sub_add_cancel (Nat.le_of_not_lt h)
    have hn := lt_of_eq_of_lt hsub hlt
    unfold scOut
    refine (scRow_ideal x _ _ _).trans ?_
    show Cert.SqNorm.sqnorm x ⟨(j 0).val - 5904 + 5904, hn⟩ (j 1) (j 2) = Cert.SqNorm.sqnorm x (j 0) (j 1) (j 2)
    congr 1
    exact Fin.ext hsub

/-- Every weakly fair execution of the idealized program ends, nothing faulting, with the result array at the
    specification's value of the input array and the input array unchanged — given the tiles' body. -/
theorem run_full (m : (ℓ : Loc nD τ sig) → Buf (Elt Ideal) ℓ) (ρ : Dev nD → PrngReg)
    (hT : (K (F := Ideal)).TileObl (D (F := Ideal)) 𝒱 (P m) v₀ 0) :
    θ_run (Cert.KernelIdeal.defs (F := Ideal)) (Cert.KernelIdeal.threads (F := Ideal)) ⟨m, fun _ => 0, ρ⟩
      (fun r => ∀ c : Dev Cert.KernelIdeal.nD, r.2.mem (rLoc c) = Cert.SqNorm.G (m (xLoc c)) ∧ r.2.mem (xLoc c) = m (xLoc c)) :=
  (θ_run _ _ _).mono (fun _ h c => ⟨(h c).1.trans (finalOut_ideal _), (h c).2⟩) (run_main (F := Ideal) m ρ hT (vecSplit m))

end Cert.KernelIdeal.Frame

end
-- ==== Proof.BaseBits.lean ====
/-
  The kernel's program as the SparseCore launch theorem sees it, the ghost state, and what the one SparseCore call
  hands the two SparseCores and their 32 tiles and takes back.

  The program: @main starts one vector-subcore kernel on 2 SparseCores × 16 tiles, waits for it, then runs a TensorCore
  pipeline of 6 grid points, then writes the SparseCore's 4096 result rows into rows 5904… of the pipeline's result.

  The SparseCore kernel: tile (c, s) has number w = 2·s + c and treats the eight 16-node blocks w, w + 32, …, w + 224
  of the last 4096 nodes: block b is input rows 5904 + 16·b … and output rows 16·b … of the kernel's own 4096-row result.
  Every tile only READS the input, so the input goes out as read shares of the whole array (one per SparseCore, split
  again per tile); each tile OWNS the eight 16-row blocks of the result it writes.

  The value a tile leaves in its blocks is one function `scOut` of the whole input array, the same for every float
  instance: each output entry is the kernel's own expression tree over the squares of the input entries.
-/
import proofs.«216336_g7232724927063_cont_9to1_m_658_15_alg».proof.Defs
import proofs.«216336_g7232724927063_cont_9to1_m_658_15_alg».proof.Proof.Gen.Kernel
import Idealize.ShloMosaic.Lib.SparseCore.Launch
import Idealize.ShloMosaic.Lib.Pipeline.Kit
import Idealize.ShloMosaic.Lib.Transfers
import Idealize.ShloMosaic.Lib.ValueIdx

noncomputable section

namespace Cert.Kernel.Frame

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch handshakes' rounds, the pipeline's staging cells' rounds, the tiles' transfer counters -/

abbrev UH : Type := URounds (GSem nD τ sig) ℕ
abbrev UR : Type := URounds (GSem nD τ sig) Unit
abbrev UU : Type := UH × (UR × Counters)

local notation "𝕄" => MT nD τ sig (HIx 1) (Elt F) ℕ UU ℕ

abbrev EH : Emb UH (MT nD τ sig (HIx 1) (Elt F) ℕ UU ℕ) := embL

/-! ## The arrays -/

/-- the input, 10000 × 16 × 128 -/
abbrev xLoc (d : Dev nD) : Loc nD τ sig := (SparseCore.T d).loc main_arg0
/-- the SparseCore kernel's result, 4096 × 4 × 128 -/
abbrev oLoc (d : Dev nD) : Loc nD τ sig := (SparseCore.T d).loc main_v0
/-- the TensorCore pipeline's result, 10000 × 4 × 128 (its first 5904 rows written) -/
abbrev tLoc (d : Dev nD) : Loc nD τ sig := (SparseCore.T d).loc main_v1
/-- the program's result -/
abbrev rLoc (d : Dev nD) : Loc nD τ sig := (SparseCore.T d).loc main_v2

/-- The SparseCore result's 4096 rows are 256 blocks of 16. -/
theorem hdivO : 256 ∣ S4096x4x128.size 0 := ⟨16, rfl⟩
abbrev oBlk (b : Fin 256) : Rect S4096x4x128 := Rect.part (s := S4096x4x128) (a₀ := 0) hdivO b
abbrev oSet (b : Fin 256) : Finset S4096x4x128.Idx :=
  ((Memref.whole main_v0_scv : Memref sig .scVector .hbm S4096x4x128 .f32).view.slice (oBlk b)).set

/-- Block number `i` (of 8) of tile `s` of SparseCore `c`: w + 32·i with w = 2·s + c. -/
def blk (c : Fin 2) (s : Fin 16) (i : Fin 8) : Fin 256 := ⟨(2 * s.val + c.val) + 32 * i.val, by omega⟩

/-- The read share of the input SparseCore `c` is handed, and tile `s`'s part of it. -/
abbrev xTokC (c : Fin 2) : PosShare TreeShare := Transfers.shareTok fullShare 2 c
abbrev xTokT (c : Fin 2) (s : Fin 16) : PosShare TreeShare := Transfers.shareTok (xTokC c) 16 s

/-! ## The value the SparseCore kernel computes, at any float instance -/

section Value
variable [FloatOps F]

/-- the square of one input entry -/
def sqAt (x : FVec F S10000x16x128 .f32) (n : Fin 10000) (c : Fin 128) (r : Fin 16) : F .f32 :=
  FloatOps.mulf (x (ix3 n r c)) (x (ix3 n r c))

/-- The four results of node `n` in channel `c`, summed and scaled in the kernel's own order:
    q₀ | ((q₁+q₂)+q₃)·⅓ | (((q₄+q₅)+(q₆+q₇))+q₈)·⅕ | (((q₉+q₁₀)+(q₁₁+q₁₂))+((q₁₃+q₁₄)+q₁₅))·⅐, the scales the nearest floats. -/
def scRow (x : FVec F S10000x16x128 .f32) (n : Fin 10000) (c : Fin 128) : Fin 4 → F .f32 :=
  let q := sqAt x n c
  ![q 0,
    FloatOps.mulf (FloatOps.addf (FloatOps.addf (q 1) (q 2)) (q 3)) (Scalar.ofBits .f32 0x3EAAAAAB#32),
    FloatOps.mulf (FloatOps.addf (FloatOps.addf (FloatOps.addf (q 4) (q 5)) (FloatOps.addf (q 6) (q 7))) (q 8)) (Scalar.ofBits .f32 0x3E4CCCCD#32),
    FloatOps.mulf (FloatOps.addf (FloatOps.addf (FloatOps.addf (q 9) (q 10)) (FloatOps.addf (q 11) (q 12)))
      (FloatOps.addf (FloatOps.addf (q 13) (q 14)) (q 15))) (Scalar.ofBits .f32 0x3E124925#32)]

/-- Row `n'` of the SparseCore kernel's result is node 5904 + n'. -/
def scOut (x : FVec F S10000x16x128 .f32) : FVec F S4096x4x128 .f32 := fun j =>
  scRow x ⟨(j 0).val + 5904, by have := (j 0).isLt; simp only [Matrix.cons_val_zero] at this; omega⟩ (j 2) (j 1)

end Value

/-! ## What the call hands out and takes back -/

variable (m : (ℓ : Loc nD τ sig) → Buf (Elt F) ℓ)

/-- SparseCore `c`'s read share of the input at its launch contents. -/
abbrev xPtsC (d : Dev nD) (c : Fin 2) : sProp 𝕄 := xLoc d ↦{xTokC c} m (xLoc d)
/-- Tile (c, s)'s read share. -/
abbrev xPtsT (d : Dev nD) (c : Fin 2) (s : Fin 16) : sProp 𝕄 := xLoc d ↦{xTokT c s} m (xLoc d)
/-- Tile (c, s)'s eight result blocks, holding `f` there. -/
abbrev oPtsT (d : Dev nD) (c : Fin 2) (s : Fin 16) (f : Buf (Elt F) (oLoc d)) : sProp 𝕄 :=
  bigSep Finset.univ fun i : Fin 8 => oLoc d ↦[oSet (blk c s i)]{fullShare} f
/-- SparseCore `c`'s 128 result blocks. -/
abbrev oPtsC (d : Dev nD) (c : Fin 2) (f : Buf (Elt F) (oLoc d)) : sProp 𝕄 :=
  bigSep Finset.univ fun s : Fin 16 => oPtsT d c s f

variable [FloatOps F]

/-- The call hands SparseCore `c` its read share of the input and its result blocks as launched, and takes them back
    with the blocks at the kernel's value; each tile likewise. Nothing of the launch's own is consumed. -/
def P : (K (F := F)).Pay (nD := nD) (Val := Elt F) (Name := ℕ) (U := UU) where
  st := fun q d c => match q with
    | 0 => iprop(xPtsC m d (Fin.cast nCore_zero c) ∗ oPtsC d (Fin.cast nCore_zero c) (m (oLoc d)))
  dn := fun q d c => match q with
    | 0 => iprop(xPtsC m d (Fin.cast nCore_zero c) ∗ oPtsC d (Fin.cast nCore_zero c) (scOut (m (xLoc d))))
  go := fun q d c i => match q with
    | 0 => iprop(xPtsT m d (Fin.cast nCore_zero c) (Fin.cast nSub_zero i) ∗ oPtsT d (Fin.cast nCore_zero c) (Fin.cast nSub_zero i) (m (oLoc d)))
  td := fun q d c i => match q with
    | 0 => iprop(xPtsT m d (Fin.cast nCore_zero c) (Fin.cast nSub_zero i) ∗ oPtsT d (Fin.cast nCore_zero c) (Fin.cast nSub_zero i) (scOut (m (xLoc d))))
  x := fun _ _ => iprop(emp)

instance P_storable : (P (F := F) m).IsStorable where
  st q d c := match q with | 0 => by unfold P; infer_instance
  dn q d c := match q with | 0 => by unfold P; infer_instance
  go q d c i := match q with | 0 => by unfold P; infer_instance
  td q d c i := match q with | 0 => by unfold P; infer_instance

end Cert.Kernel.Frame

end
-- ==== Proof.TcBodyBits.lean ====
/-
  The TensorCore pipeline's body, run once at a symbolic grid point, and the pipeline's proof data.

  The pipeline has six grid points; point t stages rows 984·t … 984·t + 983 of the input (a 984 × 16 × 128 block) and
  of the result (a 984 × 4 × 128 block). The body loads the input block whole, squares it, and stores four rows of
  sums — one per irreducible piece — into the result block; the four stores tile the result block, so what it holds
  afterwards is one function of the input block, whatever it held before.

  Both windows are stated with a cut at the array's end, but none of the six blocks reaches it: a fetched buffer
  holds the array's block everywhere, and what the body leaves is asked only on the part the transfers move, which is
  all of it.
-/
import proofs.«216336_g7232724927063_cont_9to1_m_658_15_alg».proof.Proof.BaseBits
import proofs.«216336_g7232724927063_cont_9to1_m_658_15_alg».proof.Proof.Gen.Kernel.Launch
import proofs.«216336_g7232724927063_cont_9to1_m_658_15_alg».proof.Proof.Gen.Kernel.Skeleton
import proofs.«216336_g7232724927063_cont_9to1_m_658_15_alg».proof.Proof.Gen.Kernel.Points
import Idealize.ShloMosaic.Lib.Pipeline.FrameBody
import Idealize.ShloMosaic.Lib.Tactic

set_option maxRecDepth 16384

noncomputable section

namespace Cert.Kernel.Frame

open Cert.Kernel Cert.Kernel.Gen

open Idealize.ShloMosaic Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's accesses -/

abbrev rIn : Rect S984x16x128 := Rect.unit (s := S984x16x128) ![0, 0, 0] S984x16x128.size inb_S984x16x128_S984x16x128_0_0_0
abbrev rO0 : Rect S984x4x128 := Rect.unit (s := S984x4x128) ![0, 0, 0] S984x1x128.size inb_S984x4x128_S984x1x128_0_0_0
abbrev rO1 : Rect S984x4x128 := Rect.unit (s := S984x4x128) ![0, 1, 0] S984x1x128.size inb_S984x4x128_S984x1x128_0_1_0
abbrev rO2 : Rect S984x4x128 := Rect.unit (s := S984x4x128) ![0, 2, 0] S984x1x128.size inb_S984x4x128_S984x1x128_0_2_0
abbrev rO3 : Rect S984x4x128 := Rect.unit (s := S984x4x128) ![0, 3, 0] S984x1x128.size inb_S984x4x128_S984x1x128_0_3_0

/-- The output block after the body, from the input block: its four row stores as pieces, last first. -/
def outBlk [∀ e, Nonempty (Elt F e)] (x0 : Vec F S984x16x128 .f32) : Vec F S984x4x128 .f32 :=
  View.canon [⟨rO3, k1_pay1 (k1_pay2 (View.ld x0 rIn))⟩, ⟨rO2, k1_pay5 (View.ld x0 rIn)⟩, ⟨rO1, k1_pay4 (View.ld x0 rIn)⟩, ⟨rO0, k1_pay3 (View.ld x0 rIn)⟩]

/-- The four stores tile the output block. -/
theorem coverOut (p3 p2 p1 p0 : Vec F S984x1x128 .f32) (y : S984x4x128.Idx) :
    ∃ pc ∈ ([⟨rO3, p3⟩, ⟨rO2, p2⟩, ⟨rO1, p1⟩, ⟨rO0, p0⟩] : List (View.Piece (Elt F) S984x4x128 .f32)), y ∈ pc.1.set :=
  View.cover_of_tiled [⟨rO3, p3⟩, ⟨rO2, p2⟩, ⟨rO1, p1⟩, ⟨rO0, p0⟩] S984x1x128.size (by rfl) y

set_option maxHeartbeats 1000000 in
/-- The body on whole staging memrefs, the input's at `x0` and the output's at anything, leaves the input's as it was
    and the output's at `outBlk x0`. -/
theorem sound_kernel [∀ e, Nonempty (Elt F e)] (c : Dev nD) (E : Set ℕ) (i : grid1.Coords) (arg1 : Memref sig .tc .vmem S984x16x128 .f32) (harg1 : arg1.IsWhole)
    (arg2 : Memref sig .tc .vmem S984x4x128 .f32) (harg2 : arg2.IsWhole) (x0 : Vec F S984x16x128 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlk x0)) -∗ K ⟨⟩))
      ⊢ wp frame (wpE (defs₀ (F := F)) Variants.none c none) E (cc1__tc_body i arg1 harg1 arg2 harg2) K := by
  simp only [cc1__tc_body_eq_skeleton]; unfold cc1__tc_body_skel
  simp only [k1_part1_eq_skeleton]; unfold k1_part1_skel
  unfold owns
  iintro ⟨⟨%f0, %hf0, H0⟩, ⟨%d2, %f2, -, H2⟩, Hk⟩
  subst hf0
  sl_exec
  sl_step
  iapply Hk
  isplitl [H0]
  · iexists f0; isplitr; · ipureintro; rfl
    iexact H0
  iexists _; isplitr
  swap; · iexact H2
  ipureintro
  exact View.read_writes_eq_canon _ _ _ (coverOut _ _ _ _)

/-! ## The proof data of the pipeline -/

variable (m : (ℓ : Loc nD τ sig) → Buf (Elt F) ℓ)

/-- The kernel's variants: none. -/
abbrev 𝒱k : Variants := Variants.none

/-- The input's block at point `t` as the fetch reads it. -/
def xblk (c : Dev nD) (t : Fin cfg1.N) : (win1_0.xblock (grid1.coords t)).Idx → Elt F .f32 :=
  (win1_0.blk t).view.read (Elt F) (m ((c : Thread nD τ).loc main_arg0))

/-- The input's staging buffer once fetched into (no block of the six is cut: the filler is never read). -/
def xblk8 (c : Dev nD) (t : Fin cfg1.N) : S984x16x128.Idx → Elt F .f32 :=
  win1_0.fill (grid1.coords t) (fun _ => Scalar.ofBits .f32 0#32) (xblk m c t)

/-- The pairs a TensorCore's waits may have recorded once the SparseCore call is over. -/
def recd (d : Dev nD) : Set (SemLoc sig × HIx 1) := {p | (K (F := F)).lev ((T d : Thread nD τ), p.1) p.2 ≤ 8}

/-- The proof data on device `c`'s TensorCore: the two arrays as launched; after the body the input's buffer as
    fetched and the output's at the body's four row stores of it; no invariant of the kernel's own; nothing owed. -/
def dats [∀ e, Nonempty (Elt F e)] (_ : Fin 1) (c : Dev nD) : Dat τ (Elt F) (HIx 1) ℕ UU ℕ cfg1 c where
  A w := m ((cfg1.win w).arr.view.loc (c : Thread nD τ))
  after w t := match w with
    | ⟨0, _⟩ => xblk8 m c t
    | ⟨1, _⟩ => outBlk (xblk8 m c t)
  Φ _ := Pipeline.scopedRest (Ix := HIx 1) (Name := ℕ) (U := UU) (Lvl := ℕ) (Val := Elt F) spec1 c
  q _ := fullShare
  owed _ := 0
  recorded _ := recd (F := F) c

theorem fetch_0 (t : Fin cfg1.N) : (cfg1.win (0 : Fin 2)).fetch t = true := fetch1_0 t
theorem flush_1 (t : Fin cfg1.N) : (cfg1.win (1 : Fin 2)).flush t = true := flush1_1 t
theorem fetch_1 (t : Fin cfg1.N) : (cfg1.win (1 : Fin 2)).fetch t = false :=
  (by decide +kernel : ∀ t : Fin grid1.N, win1_1.fetch t = false) t

/-- No block of the six is cut. -/
theorem clip_none0 : ∀ (t : Fin grid1.N) a, win1_0.clip (grid1.coords t) a = none := by decide +kernel

/-- So a fetched buffer holds the block everywhere, whatever it held. -/
theorem fill_indep (t : Fin cfg1.N) (d d' : S984x16x128.Idx → Elt F .f32) (g : (win1_0.xblock (grid1.coords t)).Idx → Elt F .f32) :
    win1_0.fill (grid1.coords t) d g = win1_0.fill (grid1.coords t) d' g := by
  funext j
  have hm : win1_0.moved (grid1.coords t) j = true :=
    (win1_0.moved_iff _ j).mpr fun a => by have := (j a).isLt; unfold Window.xsize; rw [clip_none0 t a]; exact this
  unfold Window.fill; rw [dif_pos hm, dif_pos hm]

/-- What the body finds: the input's buffer just fetched, -/
theorem before_0 [∀ e, Nonempty (Elt F e)] (c : Dev nD) (t : Fin cfg1.N) (d) :
    (dats m 0 c).before (0 : Fin 2) t d = xblk8 m c t := by
  unfold Dat.before; rw [if_pos (fetch_0 t)]
  exact fill_indep t d _ (xblk m c t)

/-- the output's at contents nothing names. -/
theorem before_1 [∀ e, Nonempty (Elt F e)] (c : Dev nD) (t : Fin cfg1.N) (d) : (dats m 0 c).before (1 : Fin 2) t d = d := by
  unfold Dat.before
  rw [if_neg (by rw [fetch_1 t]; exact Bool.false_ne_true)]
  by_cases h0 : t.val = 0
  · rw [if_pos h0]
  · rw [if_neg h0]; exact if_pos (flush_1 _)

/-- The pipeline rule's body obligation: the input's buffer arrives holding its block, the output's anything; the body leaves
    the first as it was and the second at its four row stores, which is what the loose obligation asks of each. -/
theorem body_obligation [∀ e, Nonempty (Elt F e)] (c : Dev nD) :
    Pipeline.BodyObligationLoose (dats m 0 c) (defs₀ (F := F)) 𝒱k (none : HIx 1) Set.univ := fun t => by
  rw [bigSep_W1, bigSep_W1]
  simp only
  rw [show (dats m 0 c).Φ t.succ = (dats m 0 c).Φ t.castSucc from rfl,
    show (dats m 0 c).owesAt none t.succ = (dats m 0 c).owesAt none t.castSucc from rfl]
  iintro ⟨HΦ, Ho, ⟨%d0, H0⟩, ⟨%d1, H1⟩⟩
  rw [before_0 m c t d0, before_1 m c t d1]
  iapply (sound_kernel (F := F) c Set.univ (grid1.coords t) _ _ _ _ (xblk8 m c t) _)
  isplitl [H0]; · iexact H0
  isplitl [H1]; · iexists _; iexact H1
  iintro ⟨H0, H1⟩
  isplitl [HΦ]; · iexact HΦ
  isplitl [Ho]; · iexact Ho
  isplitl [H0]
  · iexists (dats m 0 c).after 0 t
    rw [Pipeline.Window.fill_cut]
    dsimp only [dats]
    iexact H0
  · iexists (dats m 0 c).after 1 t
    rw [Pipeline.Window.fill_cut]
    dsimp only [dats]
    iexact H1

end Cert.Kernel.Frame

end
-- ==== Proof.TcRowBits.lean ====
/-
  The value the TensorCore pipeline's body computes for one node and channel, at any float instance, and the
  program's whole result as one function of the input array.

  The body squares the sixteen components and sums the squares of each irreducible piece from the left,
  ((q₁+q₂)+q₃), ((((q₄+q₅)+q₆)+q₇)+q₈), ((((((q₉+q₁₀)+q₁₁)+q₁₂)+q₁₃)+q₁₄)+q₁₅), then multiplies each sum — the
  one-term sum q₀ included — by the float nearest to the reciprocal of the piece's dimension (1 for the first piece).
  The pipeline treats nodes 0 … 5903; the other 4096 rows of the result are the SparseCore kernel's.
-/
import proofs.«216336_g7232724927063_cont_9to1_m_658_15_alg».proof.Proof.BaseBits

noncomputable section

namespace Cert.Kernel.Frame

open Idealize.ShloMosaic Idealize.ShloMosaic.ValueIdx

variable {F : FTy → Type} [FloatOps F]

/-- The four results of node `n` in channel `c` as the TensorCore body computes them: each piece's squares summed from the
    left, then scaled (the first piece by the float 1). -/
def tcRow (x : FVec F S10000x16x128 .f32) (n : Fin 10000) (c : Fin 128) : Fin 4 → F .f32 :=
  let q := sqAt x n c
  ![FloatOps.mulf (q 0) (Scalar.ofBits .f32 0x3F800000#32),
    FloatOps.mulf (FloatOps.addf (FloatOps.addf (q 1) (q 2)) (q 3)) (Scalar.ofBits .f32 0x3EAAAAAB#32),
    FloatOps.mulf (FloatOps.addf (FloatOps.addf (FloatOps.addf (FloatOps.addf (q 4) (q 5)) (q 6)) (q 7)) (q 8)) (Scalar.ofBits .f32 0x3E4CCCCD#32),
    FloatOps.mulf (FloatOps.addf (FloatOps.addf (FloatOps.addf (FloatOps.addf (FloatOps.addf (FloatOps.addf (q 9) (q 10)) (q 11)) (q 12)) (q 13)) (q 14)) (q 15))
      (Scalar.ofBits .f32 0x3E124925#32)]

/-- The program's result: rows 0 … 5903 the TensorCore pipeline's, rows 5904 … 9999 the SparseCore kernel's. -/
def finalOut (x : FVec F S10000x16x128 .f32) : FVec F S10000x4x128 .f32 := fun j =>
  if h : (j 0).val < 5904 then tcRow x (j 0) (j 2) (j 1)
  else scOut x (ix3 (⟨(j 0).val - 5904, by have := (j 0).isLt; simp only [Matrix.cons_val_zero] at this; omega⟩ : Fin 4096) (j 1) (j 2))

end Cert.Kernel.Frame

end
-- ==== Proof.MainBits.lean ====
/-
  @main on the TensorCore and the program's run.

  @main starts the SparseCore kernel and waits for it, runs the TensorCore pipeline, then writes the SparseCore's 4096
  result rows into rows 5904 … of the pipeline's result. For the call the input goes out as two read shares (one per
  SparseCore, the remainder kept) and the SparseCore's result array as its 256 sixteen-row blocks, block w + 32·i to
  tile w = 2·s + c of SparseCore c; both come back whole, the result at the kernel's value. The pipeline is a region
  entered with the core owing nothing (the one call is over), its staging cells' rounds funded at launch in the middle
  factor of the ghost state; it leaves the input as it was and its result array with the six blocks written back.
  The three index constants and the final update are host operations over the arrays held whole.
-/
import proofs.«216336_g7232724927063_cont_9to1_m_658_15_alg».proof.Proof.BaseBits
import proofs.«216336_g7232724927063_cont_9to1_m_658_15_alg».proof.Proof.TcBodyBits
import proofs.«216336_g7232724927063_cont_9to1_m_658_15_alg».proof.Proof.TcRowBits
import Idealize.ShloMosaic.Lib.Pipeline.Regions

set_option maxRecDepth 16384

noncomputable section

namespace Cert.Kernel.Frame

open Cert.Kernel Cert.Kernel.Gen

open Idealize.ShloMosaic Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state: the pipeline's staging cells' rounds sit in the middle factor -/

/-- The pipeline's rounds algebra inside the certificate's: the left of the right factor. -/
abbrev ER : Emb UR (MT nD τ sig (HIx 1) (Elt F) ℕ UU ℕ) := (Emb.inl : Emb UR (UR × Counters)).trans embR

instance ER_landsIn : (ER : Emb UR (MT nD τ sig (HIx 1) (Elt F) ℕ UU ℕ)).LandsIn (upEmb : UEmb _ (MT nD τ sig (HIx 1) (Elt F) ℕ UU ℕ)) := by
  unfold ER embR; infer_instance

/-- The prefetched tables' admissible contents: no table. -/
abbrev adm : (p : Fin 1) → (pcfgs (F := F) p).Adm := fun p => (cfgs p).toPCfg_adm

/-- The launch element: the handshakes' rounds, the staging cells' rounds, no counter yet. -/
def u₀ : UU := (initOf (K (F := F)).hsCells (K (F := F)).hsToks,
  (initOf (Pipeline.cells cfgs cellOf_inj) (Pipeline.launchToks cfgs cellOf_inj), 1))

/-- Pipeline `p`'s staging cells' launch ghost state on device `d`, and its duty tokens. -/
abbrev cG (p : Fin 1) (d : Dev nD) : sProp 𝕄 :=
  Pipeline.cellsGhost (Ix := HIx 1) (Val := Elt F) (Name := ℕ) (U := UU) (Lvl := ℕ) cfgs ER p d
abbrev tI (p : Fin 1) (d : Dev nD) : sProp 𝕄 :=
  Pipeline.toksInit (Ix := HIx 1) (Val := Elt F) (Name := ℕ) (U := UU) (Lvl := ℕ) cfgs ER p d

/-- What the launch element leaves each TensorCore for @main: its pipeline's cells' ghost state and duty tokens. -/
def G (d : Dev nD) : sProp 𝕄 :=
  iprop((bigSep Finset.univ fun p : Fin 1 => cG (F := F) p d) ∗ bigSep Finset.univ fun p : Fin 1 => tI (F := F) p d)

omit [FloatOps F] in
theorem G_elim (d : Dev nD) : G (F := F) d ⊢ iprop(cG (F := F) 0 d ∗ tI (F := F) 0 d) := by
  unfold G
  iintro ⟨Hg, Ht⟩
  isplitl [Hg]
  · iapply (SparseCore.ent (bigSep_elim (Φ := fun p : Fin 1 => cG (F := F) p d) (Finset.mem_univ (0 : Fin 1)))); iexact Hg
  · iapply (SparseCore.ent (bigSep_elim (Φ := fun p : Fin 1 => tI (F := F) p d) (Finset.mem_univ (0 : Fin 1)))); iexact Ht

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost cfgs ER cellOf_inj) $$ HP with ⟨Hg, Ht⟩
  imodintro
  isplitl [HH]; · iexact HH
  isplitl [Hg Ht]
  · unfold G; rw [bigSep_sep']
    isplitl [Hg]; · iexact Hg
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The SparseCore result's 256 blocks, and the read shares -/

omit [FloatOps F] in
theorem oSet_eq (b : Fin 256) : oSet b = (oBlk b).set := by
  show ((View.whole (main_v0_scv : Ref sig .scVector)).slice (oBlk b)).set = _
  rw [View.set_slice]; exact Finset.map_refl
omit [FloatOps F] in
theorem blocks_disjoint : ∀ i ∈ (Finset.univ : Finset (Fin 256)), ∀ j ∈ (Finset.univ : Finset (Fin 256)), i ≠ j → Disjoint (oSet i) (oSet j) :=
  fun i _ j _ h => by rw [oSet_eq, oSet_eq]; exact Rect.part_disjoint hdivO h
omit [FloatOps F] in
theorem blocks_cover : (Finset.univ : Finset (Fin 256)).biUnion oSet = Finset.univ :=
  (Finset.biUnion_congr rfl fun i _ => oSet_eq i).trans (Rect.biUnion_part hdivO)

omit [FloatOps F] in
theorem oPts_blocks (d : Dev nD) (f : Buf (Elt F) (oLoc d)) :
    (oLoc d ↦{fullShare} f : sProp 𝕄) = bigSep Finset.univ fun b : Fin 256 => oLoc d ↦[oSet b]{fullShare} f := by
  rw [← pointsTo_biUnion Finset.univ (ℓ := oLoc d) oSet blocks_disjoint, blocks_cover]; try rfl

/-- Block numbers are exactly the triples (SparseCore, tile, round). -/
def blkE : Fin 2 × Fin 16 × Fin 8 ≃ Fin 256 :=
  Equiv.ofBijective (fun x => blk x.1 x.2.1 x.2.2) ((Fintype.bijective_iff_injective_and_card _).mpr ⟨by
    rintro ⟨c, s, i⟩ ⟨c', s', i'⟩ h
    have h' : 2 * s.val + c.val + 32 * i.val = 2 * s'.val + c'.val + 32 * i'.val := congrArg Fin.val h
    have := c.isLt; have := c'.isLt; have := s.isLt; have := s'.isLt; have := i.isLt; have := i'.isLt
    have hc : c.val = c'.val := by omega
    have hs : s.val = s'.val := by omega
    have hi : i.val = i'.val := by omega
    exact Prod.ext (Fin.ext hc) (Prod.ext (Fin.ext hs) (Fin.ext hi)), by simp⟩)

omit [FloatOps F] in
theorem bigSep_blk (Φ : Fin 256 → sProp 𝕄) :
    bigSep Finset.univ Φ = bigSep Finset.univ fun c : Fin 2 => bigSep Finset.univ fun s : Fin 16 => bigSep Finset.univ fun i : Fin 8 => Φ (blk c s i) := by
  rw [bigSep_univ_equiv blkE Φ, bigSep_univ_prod]
  refine bigSep_congr fun c _ => ?_
  rw [bigSep_univ_prod]; rfl

omit [FloatOps F] in
/-- The result array whole is the two SparseCores' blocks. -/
theorem oPts_cores (d : Dev nD) (f : Buf (Elt F) (oLoc d)) :
    (oLoc d ↦{fullShare} f : sProp 𝕄) = iprop(oPtsC d 0 f ∗ oPtsC d 1 f) := by
  rw [oPts_blocks, bigSep_blk, bigSep_univ_two]

/-- What the call takes for the two SparseCores, and what it hands back. -/
theorem st0_eq (d : Dev nD) : (bigSep Finset.univ fun c : Fin ((K (F := F)).nCore 0) => (P m).st 0 d c)
    = iprop((xPtsC m d 0 ∗ oPtsC d 0 (m (oLoc d))) ∗ (xPtsC m d 1 ∗ oPtsC d 1 (m (oLoc d)))) := by
  show (bigSep (Finset.univ : Finset (Fin 2)) fun c => (P m).st 0 d c) = _
  rw [bigSep_univ_two]; rfl
theorem dn0_eq (d : Dev nD) : (bigSep Finset.univ fun c : Fin ((K (F := F)).nCore 0) => (P m).dn 0 d c)
    = iprop((xPtsC m d 0 ∗ oPtsC d 0 (scOut (m (xLoc d)))) ∗ (xPtsC m d 1 ∗ oPtsC d 1 (scOut (m (xLoc d))))) := by
  show (bigSep (Finset.univ : Finset (Fin 2)) fun c => (P m).dn 0 d c) = _
  rw [bigSep_univ_two]; rfl

/-! ## The TensorCore pipeline as a region of @main -/

/-- What the TensorCore owes once the one SparseCore call is over: nothing, its recorded waits all of the call's. -/
def owesT (d : Dev nD) : sProp 𝕄 :=
  iprop(∃ W, ⌜(K (F := F)).WBelow (T d) W (8 * 1)⌝ ∗ owes (T d) (0 : CellTallies nD τ sig (HIx 1)) W)

/-- The TensorCore's handshake state after the call is that and a rest the region does not touch. -/
theorem tcSt_one (d : Dev nD) : ∃ R : sProp 𝕄, (K (F := F)).tcSt EH d 1 = iprop(owesT (F := F) d ∗ R) := by
  unfold SparseCore.Cfg.tcSt owesT; rw [(K (F := F)).Otc_end d (le_refl 1)]; exact ⟨_, rfl⟩

/-- The pipeline's result array when the region ends: its launch contents with the six blocks written back. -/
def tOut [∀ e, Nonempty (Elt F e)] (d : Dev nD) : Buf (Elt F) (tLoc d) := (dats m 0 d).arrAt 1 cfg1.N

set_option backward.isDefEq.respectTransparency.types false in
/-- The region: entered from the input and the result array whole at their launch contents and the core owing nothing,
    left with the input as it was and the result array at the pipeline's contents. -/
def reg [∀ e, Nonempty (Elt F e)] : Pipeline.RegionSeg (pcfgs (F := F)) adm (dats m) (none : HIx 1) defs₀ 𝒱k (K (F := F)).L (K (F := F)).lev 0 where
  win := launch1.win.to₀
  block_pos := launch1.block_pos
  stage_whole := launch1.stage_whole
  K := PEmpty
  osem k := k.elim
  ho := Pipeline.OwnSemFacts.none _
  hbody c := body_obligation m c
  hwaits := Pipeline.hwaits_of_owed_zero _ _ _ _ _ _ 0 fun _ _ => rfl
  pre d := iprop((xLoc d ↦{fullShare} m (xLoc d)) ∗ (tLoc d ↦{fullShare} m (tLoc d)) ∗ owesT (F := F) d)
  post d := iprop((xLoc d ↦{fullShare} m (xLoc d)) ∗ (tLoc d ↦{fullShare} tOut m d) ∗ owesT (F := F) d)
  X _ := iprop(emp)
  Y _ := iprop(emp)
  Z _ := iprop(emp)
  hentry d := by
    rw [Pipeline.arrays_eq cfgs (dats m) 0 d launch1.arr_whole ((dats m 0 d).share_full fun _ => rfl), bigSep_W1]
    iintro ⟨⟨Hx, Ht, HO⟩, -, -⟩
    imodintro
    isplitl [Hx Ht]
    · isplitl [Hx]; · iexact Hx
      iexact Ht
    isplitr; · unfold Pipeline.prefHeld; rw [show (Finset.univ : Finset (Fin 0)) = ∅ from rfl, BI.bigSep_empty]; iempintro
    isplitl [HO]
    · unfold Pipeline.Dat.owesAt Pipeline.owesWithin owesT
      icases HO with ⟨%W, %hW, HO⟩; iexists W; isplitr; · ipureintro; exact fun p hp => Or.inl (hW p hp)
      iexact HO
    isplitr <;> iempintro
  hin d := sep_elim_right.trans sep_elim_right
  hout d := by
    rw [Pipeline.ownSems0_none]
    have h : (dats m 0 d).Φ (Fin.last (Pipeline.pin (pcfgs (F := F)) adm 0).N)
        ⊢ (Pipeline.scopedRest (Ix := HIx 1) (Name := ℕ) (U := UU) (Lvl := ℕ) (Val := Elt F) (Pipeline.pin (pcfgs (F := F)) adm 0).spec d : sProp 𝕄) :=
      BI.Entails.refl _
    iintro Hr
    isplitr; · iempintro
    isplitr; · iempintro
    iapply h; iexact Hr
  hexit d := by
    rw [Pipeline.arrays_eq cfgs (dats m) 0 d launch1.arr_whole ((dats m 0 d).share_full fun _ => rfl), bigSep_W1,
      show (dats m 0 d).arrAt 0 (Pipeline.pin (pcfgs (F := F)) adm 0).N = m (xLoc d) from (dats m 0 d).arrAt_in 0 rfl _]
    iintro ⟨⟨Hx, Ht⟩, HO, -, -⟩
    imodintro
    isplitl [Hx]; · iexact Hx
    isplitl [Ht]; · iexact Ht
    unfold Pipeline.Dat.owesAt Pipeline.owesWithin owesT
    icases HO with ⟨%W, %hW, HO⟩; iexists W; isplitr
    · ipureintro
      intro p hp
      rcases hW hp with h | ⟨w, s, rfl⟩
      · exact h
      · exact Nat.zero_le _
    iexact HO

theorem reg_pre [∀ e, Nonempty (Elt F e)] (d : Dev nD) :
    (reg m).pre d = iprop((xLoc d ↦{fullShare} m (xLoc d)) ∗ (tLoc d ↦{fullShare} m (tLoc d)) ∗ owesT (F := F) d) := rfl
theorem reg_post [∀ e, Nonempty (Elt F e)] (d : Dev nD) :
    (reg m).post d = iprop((xLoc d ↦{fullShare} m (xLoc d)) ∗ (tLoc d ↦{fullShare} tOut m d) ∗ owesT (F := F) d) := rfl

/-! ## @main on the TensorCore -/

abbrev x' : DevRef τ sig := Proc.devRef .tc (main_arg0 : Ref sig .tc)
abbrev o' : DevRef τ sig := Proc.devRef .tc (main_v0 : Ref sig .tc)
abbrev t' : DevRef τ sig := Proc.devRef .tc (main_v1 : Ref sig .tc)
abbrev k5' : DevRef τ sig := Proc.devRef .tc (main_c : Ref sig .tc)
abbrev k0' : DevRef τ sig := Proc.devRef .tc (main_c_0 : Ref sig .tc)
abbrev k1' : DevRef τ sig := Proc.devRef .tc (main_c_1 : Ref sig .tc)
abbrev r' : DevRef τ sig := Proc.devRef .tc (main_v2 : Ref sig .tc)

/-- The arrays the host operations after the region touch. -/
abbrev S6 : Finset (DevRef τ sig) := {t', o', k5', k0', k1', r'}

omit [FloatOps F] in
theorem held_S6 (d : Dev nD) (W : Valuation τ sig (Elt F)) :
    (held (T d) S6 W : sProp 𝕄) = iprop((tLoc d ↦{fullShare} W t') ∗ (oLoc d ↦{fullShare} W o') ∗ ((SparseCore.T d).loc main_c ↦{fullShare} W k5')
      ∗ ((SparseCore.T d).loc main_c_0 ↦{fullShare} W k0') ∗ ((SparseCore.T d).loc main_c_1 ↦{fullShare} W k1') ∗ (rLoc d ↦{fullShare} W r')) := by
  unfold held S6
  rw [SparseCore.bigSep_insert' (by decide), SparseCore.bigSep_insert' (by decide), SparseCore.bigSep_insert' (by decide),
    SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ (tLoc d ↦{fullShare} W main_v1)
      ∗ ((SparseCore.T d).loc main_c ↦{fullShare} W main_c) ∗ ((SparseCore.T d).loc main_c_0 ↦{fullShare} W main_c_0)
      ∗ ((SparseCore.T d).loc main_c_1 ↦{fullShare} W main_c_1) ∗ (rLoc d ↦{fullShare} W main_v2)) := by
  unfold unscopedBufs
  rw [show (Finset.univ.filter fun b : Ref sig .tc => ¬ b.isScoped) = {main_arg0, main_v0, main_v1, main_c, main_c_0, main_c_1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The host operations' buffers when the region is left: the SparseCore's and the pipeline's results, the rest as launched. -/
def VA [∀ e, Nonempty (Elt F e)] (d : Dev nD) : Valuation τ sig (Elt F) :=
  Function.update (Function.update (fun b => m (d, b)) o' (scOut (m (xLoc d)))) t' (tOut m d)

theorem VA_t [∀ e, Nonempty (Elt F e)] (d : Dev nD) : VA m d t' = tOut m d := Function.update_self _ _ _
theorem VA_o [∀ e, Nonempty (Elt F e)] (d : Dev nD) : VA m d o' = scOut (m (xLoc d)) :=
  (Function.update_of_ne (show o' ≠ t' by decide) _ _).trans (Function.update_self _ _ _)
theorem VA_other [∀ e, Nonempty (Elt F e)] (d : Dev nD) (b : DevRef τ sig) (h1 : b ≠ t') (h2 : b ≠ o') : VA m d b = m (d, b) :=
  (Function.update_of_ne h1 _ _).trans (Function.update_of_ne h2 _ _)

abbrev op1 : HloOp τ sig (Elt F) := StableHlo.nullary main_c (constantI S_ 32 5904#32)
abbrev op2 : HloOp τ sig (Elt F) := StableHlo.nullary main_c_0 (constantI S_ 32 0#32)
abbrev op3 : HloOp τ sig (Elt F) := StableHlo.nullary main_c_1 (constantI S_ 32 0#32)
/-- The final update: the second operand written into the first at the clamped start the three index operands give. -/
abbrev dusF : (⟨S10000x4x128, .f32⟩ : BufTy).Contents (Elt F) → (⟨S4096x4x128, .f32⟩ : BufTy).Contents (Elt F)
    → (Fin 3 → (⟨S_, .i32⟩ : BufTy).Contents (Elt F)) → (⟨S10000x4x128, .f32⟩ : BufTy).Contents (Elt F) :=
  fun x u i => Host.dynamicUpdateSlice x u (fun k => (i k (Shape.Idx.first h_S_)).toInt) updateFits_S10000x4x128_S4096x4x128
abbrev op4 : HloOp τ sig (Elt F) := StableHlo.binaryIndexed main_v1 main_v0 ![main_c, main_c_0, main_c_1] ⟨S_, .i32⟩ main_v2 dusF

theorem hop1 : (op1 (F := F)).bufs ⊆ S6 := show ({k5'} : Finset (DevRef τ sig)) ⊆ S6 by decide
theorem hop2 : (op2 (F := F)).bufs ⊆ S6 := show ({k0'} : Finset (DevRef τ sig)) ⊆ S6 by decide
theorem hop3 : (op3 (F := F)).bufs ⊆ S6 := show ({k1'} : Finset (DevRef τ sig)) ⊆ S6 by decide
theorem hop4 : (op4 (F := F)).bufs ⊆ S6 :=
  show (insert t' (insert o' (insert r' (Finset.univ.image fun k : Fin 3 => (Proc.devRef .tc (![main_c, main_c_0, main_c_1] k : Ref sig .tc) : DevRef τ sig)))) : Finset (DevRef τ sig)) ⊆ S6 by decide

/-- The buffers after the four host operations. -/
def VB [∀ e, Nonempty (Elt F e)] (d : Dev nD) : Valuation τ sig (Elt F) :=
  (op4 (F := F)).result ((op3 (F := F)).result ((op2 (F := F)).result ((op1 (F := F)).result (VA m d))))

/-- What @main leaves the claim: the input as launched, the result array at what the last update wrote. -/
abbrev FIN [∀ e, Nonempty (Elt F e)] (d : Dev nD) : sProp 𝕄 :=
  iprop((xLoc d ↦{fullShare} m (xLoc d)) ∗ (rLoc d ↦{fullShare} VB m d r'))

set_option backward.isDefEq.respectTransparency.types false in
set_option maxHeartbeats 1000000 in
/-- @main on device `d`'s TensorCore: the SparseCore call from the input's read shares and the result's blocks, the
    pipeline's region, the three constants and the update. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  obtain ⟨R, hR⟩ := tcSt_one (F := F) d
  have hst1 : (K (F := F)).tcSt EH d ((0 : Fin 1).val + 1) ⊢ iprop(owesT (F := F) d ∗ R) := Entails.of_eq hR
  unfold SparseCore.Cfg.tcRes
  rw [unscopedBufs_eq]
  simp only [main, wp_bind, wp_pure]
  iintro ⟨#Hctx, Hst, ⟨Hb, ⟨Hx, Ho, Ht, Hc, Hc0, Hc1, Hr⟩, -, -⟩, HG⟩
  ihave HG' := (G_elim (F := F) d) $$ HG
  icases HG' with ⟨Hg, Htk⟩
  -- the input as two read shares, the SparseCore result as its blocks
  ihave Hx' := (Transfers.pointsTo_toks_split fullShare 2) $$ Hx
  icases Hx' with ⟨Hxd, Hxt⟩
  ihave Hxt' := (Entails.of_eq (bigSep_univ_two _)) $$ Hxt
  icases Hxt' with ⟨Hx0, Hx1⟩
  ihave Ho' := (Entails.of_eq (oPts_cores d _)) $$ Ho
  icases Ho' with ⟨Ho0, Ho1⟩
  iapply ((K (F := F)).wp_run (D (F := F)) 𝒱 (EH := EH) (P := P m) κ d 0) $$ [Hst Hx0 Hx1 Ho0 Ho1 Hb Hxd Ht Hc Hc0 Hc1 Hr Hg Htk]
  isplitr; · iexact Hctx
  isplitl [Hst]; · iexact Hst
  isplitl [Hx0 Hx1 Ho0 Ho1]
  · rw [st0_eq]
    isplitl [Hx0 Ho0]
    · isplitl [Hx0]; · iexact Hx0
      iexact Ho0
    · isplitl [Hx1]; · iexact Hx1
      iexact Ho1
  iintro ⟨Hst, Hdn⟩
  ihave Hdn' := (Entails.of_eq (dn0_eq m d)) $$ Hdn
  icases Hdn' with ⟨⟨Hx0, Ho0⟩, ⟨Hx1, Ho1⟩⟩
  ihave Hx := (Transfers.pointsTo_toks_join (ℓ := xLoc d) (S := Finset.univ) (f := m (xLoc d)) fullShare 2) $$ [Hxd Hx0 Hx1]
  · isplitl [Hxd]; · iexact Hxd
    rw [bigSep_univ_two]
    isplitl [Hx0]; · iexact Hx0
    iexact Hx1
  ihave Ho := (Entails.of_eq (oPts_cores d (scOut (m (xLoc d)))).symm) $$ [Ho0 Ho1]
  · isplitl [Ho0]; · iexact Ho0
    iexact Ho1
  -- the handshake state after the call: the core owes nothing
  ihave Hst' := hst1 $$ Hst
  icases Hst' with ⟨HO, HR⟩
  -- the region
  iapply (SparseCore.Cfg.wp_liftProg (K (F := F)) (D (F := F)) 𝒱 (SparseCore.T d) Set.univ none
    (Prog.op (.customCall (Pipeline.entry (0 : Fin 1)) ()) Prog.ret) _)
  iapply (Pipeline.RegionSeg.wp (pcfgs (F := F)) adm (dats m) (none : HIx 1) cellOf_inj ER defs₀ 𝒱k (K (F := F)).L (K (F := F)).lev
    (reg m) d none (fun _ h => nomatch h) Prog.ret _) $$ [Hb Hx Ht HO Hg Htk Ho Hc Hc0 Hc1 Hr HR]
  rw [reg_pre m d, reg_post m d]
  isplitr [Hb Hx Ht HO Hg Htk]
  swap
  · isplitl [Hb]; · iexact Hb
    isplitl [Hx Ht HO]
    · isplitl [Hx]; · iexact Hx
      isplitl [Ht]; · iexact Ht
      iexact HO
    isplitr; · iapply (SparseCore.Cfg.ctx_levAts κ); iexact Hctx
    isplitl [Hg]; · iexact Hg
    iexact Htk
  iintro ⟨Hb, Hx, Ht, HO⟩
  rw [wp_ret]; imodintro
  -- the three constants and the update
  iapply (wp_hlo_within 𝒱 (SparseCore.T d) none Set.univ (op := op1) (S := S6) hop1 (V := VA m d)) $$ [Hb Ht Ho Hc Hc0 Hc1 Hr]
  · isplitl [Hb]; · iexact Hb
    rw [held_S6, VA_t, VA_o, VA_other m d k5' (by decide) (by decide), VA_other m d k0' (by decide) (by decide),
      VA_other m d k1' (by decide) (by decide), VA_other m d r' (by decide) (by decide)]
    isplitl [Ht]; · iexact Ht
    isplitl [Ho]; · iexact Ho
    isplitl [Hc]; · iexact Hc
    isplitl [Hc0]; · iexact Hc0
    isplitl [Hc1]; · iexact Hc1
    iexact Hr
  iintro ⟨Hb, Hheld⟩
  rw [wp_ret]; imodintro
  iapply (wp_hlo_within 𝒱 (SparseCore.T d) none Set.univ (op := op2) (S := S6) hop2) $$ [Hb Hheld]
  · isplitl [Hb]; · iexact Hb
    iexact Hheld
  iintro ⟨Hb, Hheld⟩
  rw [wp_ret]; imodintro
  iapply (wp_hlo_within 𝒱 (SparseCore.T d) none Set.univ (op := op3) (S := S6) hop3) $$ [Hb Hheld]
  · isplitl [Hb]; · iexact Hb
    iexact Hheld
  iintro ⟨Hb, Hheld⟩
  rw [wp_ret]; imodintro
  iapply (wp_hlo_within 𝒱 (SparseCore.T d) none Set.univ (op := op4) (S := S6) hop4) $$ [Hb Hheld]
  · isplitl [Hb]; · iexact Hb
    iexact Hheld
  iintro ⟨Hb, Hheld⟩
  ihave Hh := (Entails.of_eq (held_S6 (F := F) d _)) $$ Hheld
  icases Hh with ⟨-, -, -, -, -, Hr⟩
  rw [wp_ret]; imodintro; imodintro
  isplitl [HO HR]
  · rw [hR]
    isplitl [HO]; · iexact HO
    iexact HR
  isplitl [Hx]; · iexact Hx
  iexact Hr

/-! ## The run -/

def fq [∀ e, Nonempty (Elt F e)] (d : Dev nD) (s' : Phys nD τ sig (Elt F)) : Prop :=
  s'.mem.mem (rLoc d) = VB m d r' ∧ s'.mem.mem (xLoc d) = m (xLoc d)

theorem hfin [∀ e, Nonempty (Elt F e)] (d : Dev nD) (s' : Phys nD τ sig (Elt F)) : iprop(FIN m d ∗ SI s') ⊢ (⌜fq m d s'⌝ : sProp 𝕄) := by
  iintro ⟨⟨Hx, Hr⟩, HSI⟩
  icombine HSI Hx gives %hx
  icombine HSI Hr gives %hr
  ipureintro
  exact ⟨funext fun i => hr i (Finset.mem_univ i), funext fun i => hx i (Finset.mem_univ i)⟩

/-- Every weakly fair execution of the program ends, nothing faulting, with the result array at what the last update
    wrote and the input as launched — given the tiles' body and how a SparseCore's operands split among its tiles. -/
theorem run_main_raw [∀ e, Nonempty (Elt F e)]
    (hT : (K (F := F)).TileObl (D (F := F)) 𝒱 (P m) v₀ 0) (hV : (K (F := F)).VecSplit' (P m) 0) :
    θ_run (Cert.Kernel.defs (F := F)) (Cert.Kernel.threads (F := F)) ⟨m, fun _ => 0, ρ⟩
      (fun r => ∀ c : Dev nD, r.2.mem (rLoc c) = VB m c r' ∧ r.2.mem (xLoc c) = m (xLoc c)) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain hV)
    m ρ main (G (F := F)) (FIN m) (u₀ (F := F)) (sep_elim_left.trans (hu₀ m)) (hmain m ρ) (fq m) (hfin m) _ (fun _ h => h)

end Cert.Kernel.Frame

end
-- ==== Proof.TcOutBits.lean ====
/-
  What the TensorCore pipeline leaves in its result array, entry by entry.

  Each stored row is, entry by entry, the body's tree over the squares of the input block (the slices and unit-axis
  casts only move indices); the four rows tile the result block, so the block after the body is that tree at every
  entry. Block t of the input is rows 984·t … of the input array, so what point t writes back is block t of the
  program's result read through the same window; the six blocks cover rows 0 … 5903 of the result array, which
  therefore hold the program's result there after the region.
-/
import proofs.«216336_g7232724927063_cont_9to1_m_658_15_alg».proof.Proof.BaseBits
import proofs.«216336_g7232724927063_cont_9to1_m_658_15_alg».proof.Proof.TcBodyBits
import proofs.«216336_g7232724927063_cont_9to1_m_658_15_alg».proof.Proof.TcRowBits
import Idealize.ShloMosaic.Lib.Pipeline.Value

set_option maxRecDepth 16384

noncomputable section

namespace Cert.Kernel.Frame

open Cert.Kernel Cert.Kernel.Gen

open Idealize.ShloMosaic Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## The body's stored rows, entry by entry -/

/-- Component `r` of the squared block, as the body slices it out and drops the unit axis. -/
theorem row_apply (r : Nat) (v1 : FVec F S984x16x128 .f32) (hs : S984x16x128.Slices ![0, r, 0] S984x1x128)
    (hc : S984x1x128.ShapeCasts S984x128) (j : S984x128.Idx) (hr : r < 16) :
    shapeCast S984x128 (extractStridedSlice S984x1x128 ![0, r, 0] v1 hs) hc j = v1 (ix3 (j 0) ⟨r, hr⟩ (j 1)) := by
  rw [shapeCast_apply _ hc j (ix3 (j 0) 0 (j 1)) (by
      rw [Shape.rowMajor_val_three, Shape.rowMajor_val_two]; simp),
    extractStridedSlice_apply ![0, r, 0] v1 hs _ (ix3 (j 0) ⟨r, hr⟩ (j 1)) (by
      intro a; fin_cases a <;> simp)]

/-- A row put back under a unit axis. -/
theorem unrow_apply (v : FVec F S984x128 .f32) (hc : S984x128.ShapeCasts S984x1x128) (y : S984x1x128.Idx) :
    shapeCast S984x1x128 v hc y = v (ix2 (y 0) (y 2)) := by
  rw [shapeCast_apply _ hc y (ix2 (y 0) (y 2)) (by
      have h1 : (y 1).val = 0 := by have := (y 1).isLt; simp at this; omega
      rw [Shape.rowMajor_val_three, Shape.rowMajor_val_two]; simp [h1])]

theorem vmulf_apply {s : Shape} (a b : FVec F s .f32) (i : s.Idx) : mulf a b i = FloatOps.mulf (a i) (b i) := rfl
theorem vaddf_apply {s : Shape} (a b : FVec F s .f32) (i : s.Idx) : addf a b i = FloatOps.addf (a i) (b i) := rfl

/-- The square of entry (i, r, c) of an input block. -/
def sqB (X : FVec F S984x16x128 .f32) (i : Fin 984) (c : Fin 128) (r : Fin 16) : F .f32 :=
  FloatOps.mulf (X (ix3 i r c)) (X (ix3 i r c))

/-- The four results of row `i`, channel `c` of a block: the body's tree over the block's squares. -/
def blkRow (X : FVec F S984x16x128 .f32) (i : Fin 984) (c : Fin 128) : Fin 4 → F .f32 :=
  let q := sqB X i c
  ![FloatOps.mulf (q 0) (Scalar.ofBits .f32 0x3F800000#32),
    FloatOps.mulf (FloatOps.addf (FloatOps.addf (q 1) (q 2)) (q 3)) (Scalar.ofBits .f32 0x3EAAAAAB#32),
    FloatOps.mulf (FloatOps.addf (FloatOps.addf (FloatOps.addf (FloatOps.addf (q 4) (q 5)) (q 6)) (q 7)) (q 8)) (Scalar.ofBits .f32 0x3E4CCCCD#32),
    FloatOps.mulf (FloatOps.addf (FloatOps.addf (FloatOps.addf (FloatOps.addf (FloatOps.addf (FloatOps.addf (q 9) (q 10)) (q 11)) (q 12)) (q 13)) (q 14)) (q 15))
      (Scalar.ofBits .f32 0x3E124925#32)]

theorem pay3_apply (v0 : Vec F S984x16x128 .f32) (y : S984x1x128.Idx) : k1_pay3 v0 y = blkRow v0 (y 0) (y 2) 0 := by
  unfold k1_pay3 k1_pay2
  simp only [unrow_apply, vmulf_apply, vaddf_apply, broadcast_apply]
  rw [row_apply 0 _ _ _ _ (by decide)]
  rfl
theorem pay4_apply (v0 : Vec F S984x16x128 .f32) (y : S984x1x128.Idx) : k1_pay4 v0 y = blkRow v0 (y 0) (y 2) 1 := by
  unfold k1_pay4 k1_pay2
  simp only [unrow_apply, vmulf_apply, vaddf_apply, broadcast_apply]
  rw [row_apply 1 _ _ _ _ (by decide), row_apply 2 _ _ _ _ (by decide), row_apply 3 _ _ _ _ (by decide)]
  rfl
theorem pay5_apply (v0 : Vec F S984x16x128 .f32) (y : S984x1x128.Idx) : k1_pay5 v0 y = blkRow v0 (y 0) (y 2) 2 := by
  unfold k1_pay5 k1_pay2
  simp only [unrow_apply, vmulf_apply, vaddf_apply, broadcast_apply]
  rw [row_apply 4 _ _ _ _ (by decide), row_apply 5 _ _ _ _ (by decide), row_apply 6 _ _ _ _ (by decide), row_apply 7 _ _ _ _ (by decide), row_apply 8 _ _ _ _ (by decide)]
  rfl
theorem pay1_apply (v0 : Vec F S984x16x128 .f32) (y : S984x1x128.Idx) : k1_pay1 (k1_pay2 v0) y = blkRow v0 (y 0) (y 2) 3 := by
  unfold k1_pay1 k1_pay2
  simp only [unrow_apply, vmulf_apply, vaddf_apply, broadcast_apply]
  rw [row_apply 9 _ _ _ _ (by decide), row_apply 10 _ _ _ _ (by decide), row_apply 11 _ _ _ _ (by decide), row_apply 12 _ _ _ _ (by decide), row_apply 13 _ _ _ _ (by decide), row_apply 14 _ _ _ _ (by decide), row_apply 15 _ _ _ _ (by decide)]
  rfl

/-- Where a stored row's entry sits in the output block. -/
theorem emb_rO (k : Nat) (hk : ∀ a, (![0, k, 0] : Fin 3 → Nat) a + S984x1x128.size a ≤ S984x4x128.size a)
    (x : (Rect.unit (s := S984x4x128) ![0, k, 0] S984x1x128.size hk).shape.Idx) :
    ((Rect.unit (s := S984x4x128) ![0, k, 0] S984x1x128.size hk).emb x 0).val = (x 0).val
      ∧ ((Rect.unit (s := S984x4x128) ![0, k, 0] S984x1x128.size hk).emb x 1).val = k
      ∧ ((Rect.unit (s := S984x4x128) ![0, k, 0] S984x1x128.size hk).emb x 2).val = (x 2).val := by
  have h1 : (x 1).val = 0 := by have := (x 1).isLt; simp at this; omega
  refine ⟨?_, ?_, ?_⟩ <;> rw [Rect.emb_apply] <;> simp [h1]

/-- The output block after the body, entry by entry. -/
theorem outBlk_apply [∀ e, Nonempty (Elt F e)] (X : Vec F S984x16x128 .f32) (j : S984x4x128.Idx) :
    outBlk X j = blkRow X (j 0) (j 2) (j 1) := by
  unfold outBlk
  rw [View.ld_unit_zero (funext fun a => by fin_cases a <;> rfl) inb_S984x16x128_S984x16x128_0_0_0]
  refine View.canon_apply_of_pieces (fun j => blkRow X (j 0) (j 2) (j 1)) _ ?_ j (coverOut _ _ _ _ j)
  intro p hp x
  simp only [List.mem_cons, List.mem_nil_iff, or_false] at hp
  rcases hp with rfl | rfl | rfl | rfl
  · obtain ⟨e0, e1, e2⟩ := emb_rO 3 inb_S984x4x128_S984x1x128_0_3_0 x
    show k1_pay1 (k1_pay2 X) x = blkRow X (rO3.emb x 0) (rO3.emb x 2) (rO3.emb x 1)
    rw [pay1_apply, show rO3.emb x 0 = x 0 from Fin.ext e0, show rO3.emb x 2 = x 2 from Fin.ext e2, show rO3.emb x 1 = (3 : Fin 4) from Fin.ext e1]
  · obtain ⟨e0, e1, e2⟩ := emb_rO 2 inb_S984x4x128_S984x1x128_0_2_0 x
    show k1_pay5 X x = blkRow X (rO2.emb x 0) (rO2.emb x 2) (rO2.emb x 1)
    rw [pay5_apply, show rO2.emb x 0 = x 0 from Fin.ext e0, show rO2.emb x 2 = x 2 from Fin.ext e2, show rO2.emb x 1 = (2 : Fin 4) from Fin.ext e1]
  · obtain ⟨e0, e1, e2⟩ := emb_rO 1 inb_S984x4x128_S984x1x128_0_1_0 x
    show k1_pay4 X x = blkRow X (rO1.emb x 0) (rO1.emb x 2) (rO1.emb x 1)
    rw [pay4_apply, show rO1.emb x 0 = x 0 from Fin.ext e0, show rO1.emb x 2 = x 2 from Fin.ext e2, show rO1.emb x 1 = (1 : Fin 4) from Fin.ext e1]
  · obtain ⟨e0, e1, e2⟩ := emb_rO 0 inb_S984x4x128_S984x1x128_0_0_0 x
    show k1_pay3 X x = blkRow X (rO0.emb x 0) (rO0.emb x 2) (rO0.emb x 1)
    rw [pay3_apply, show rO0.emb x 0 = x 0 from Fin.ext e0, show rO0.emb x 2 = x 2 from Fin.ext e2, show rO0.emb x 1 = (0 : Fin 4) from Fin.ext e1]

variable (m : (ℓ : Loc nD τ sig) → Buf (Elt F) ℓ)

/-- The body's tree over a block is the tree over the array when the block's squares are the array's. -/
theorem blkRow_eq (X : FVec F S984x16x128 .f32) (x : FVec F S10000x16x128 .f32) (i : Fin 984) (n : Fin 10000) (c : Fin 128)
    (h : ∀ r : Fin 16, X (ix3 i r c) = x (ix3 n r c)) : blkRow X i c = tcRow x n c := by
  unfold blkRow tcRow sqB sqAt
  simp only [h]

/-- Where the windows' blocks sit: block `t` starts at row 984·t, at component and channel 0. -/
theorem index0 : ∀ t : Fin grid1.N, win1_0.index t 0 = t.val ∧ win1_0.index t 1 = 0 ∧ win1_0.index t 2 = 0 := by decide +kernel
theorem index1 : ∀ t : Fin grid1.N, win1_1.index t 0 = t.val ∧ win1_1.index t 1 = 0 ∧ win1_1.index t 2 = 0 := by decide +kernel
theorem clip_none1 : ∀ (t : Fin grid1.N) a, win1_1.clip (grid1.coords t) a = none := by decide +kernel

/-- The fetched input block, entry by entry: rows 984·t … of the input array. -/
theorem xblk8_apply (d : Dev nD) (t : Fin cfg1.N) (i : Fin 984) (r : Fin 16) (c : Fin 128) (hn : 984 * t.val + i.val < 10000) :
    xblk8 m d t (ix3 i r c) = m (xLoc d) (ix3 ⟨984 * t.val + i.val, hn⟩ r c) := by
  have hx : ∀ a, ((ix3 i r c : S984x16x128.Idx) a).val < win1_0.xsize (grid1.coords t) a := fun a => by
    have := ((ix3 i r c : S984x16x128.Idx) a).isLt; unfold Window.xsize; rw [clip_none0 t a]; exact this
  have e : (ix3 i r c : S984x16x128.Idx) = win1_0.xinj (grid1.coords t) (fun a => ⟨((ix3 i r c : S984x16x128.Idx) a).val, hx a⟩) := rfl
  unfold xblk8
  rw [e, win1_0.fill_xinj]
  unfold xblk
  rw [View.read_apply]
  obtain ⟨h0, h1, h2⟩ := index0 t
  have hemb : ((win1_0.blk t).view.emb fun a => (⟨((ix3 i r c : S984x16x128.Idx) a).val, hx a⟩ : Fin (win1_0.xsize (grid1.coords t) a)))
      = (ix3 ⟨984 * t.val + i.val, hn⟩ r c : S10000x16x128.Idx) := by
    funext a
    apply Fin.ext
    show ((win1_0.rect t).emb _ a : Nat) = _
    rw [Window.rect_emb_val]
    fin_cases a
    · show win1_0.index t 0 * 984 + i.val = 984 * t.val + i.val
      rw [h0]; omega
    · show win1_0.index t 1 * 16 + r.val = r.val
      rw [h1]; omega
    · show win1_0.index t 2 * 128 + c.val = c.val
      rw [h2]; omega
  rw [hemb]
  rfl

set_option maxHeartbeats 1000000 in
/-- What each point writes back is its block of the program's result. -/
theorem flushed_eq [∀ e, Nonempty (Elt F e)] (d : Dev nD) (t : Fin cfg1.N) :
    (dats m 0 d).flushed 1 t = (win1_1.blk t).view.read (Elt F) (finalOut (m (xLoc d)) : Buf (Elt F) (tLoc d)) := by
  funext y
  rw [View.read_apply]
  have hL : (dats m 0 d).flushed 1 t y = outBlk (xblk8 m d t) (win1_1.xinj (grid1.coords t) y) := by
    unfold Dat.flushed
    dsimp only [dats]
  rw [hL, outBlk_apply]
  obtain ⟨h0, h1, h2⟩ := index1 t
  have hs : ∀ a, win1_1.xsize (grid1.coords t) a = S984x4x128.size a := fun a => by
    unfold Window.xsize; rw [clip_none1 t a]
  have ht : t.val < 6 := Nat.lt_of_lt_of_eq t.isLt N_1
  have hy0 : (y 0).val < 984 := Nat.lt_of_lt_of_eq (y 0).isLt (hs 0)
  have hy1 : (y 1).val < 4 := Nat.lt_of_lt_of_eq (y 1).isLt (hs 1)
  have hy2 : (y 2).val < 128 := Nat.lt_of_lt_of_eq (y 2).isLt (hs 2)
  have hn : 984 * t.val + (y 0).val < 10000 := by omega
  have hemb : (win1_1.blk t).view.emb y = (ix3 ⟨984 * t.val + (y 0).val, hn⟩ ⟨(y 1).val, hy1⟩ ⟨(y 2).val, hy2⟩ : S10000x4x128.Idx) := by
    funext a
    apply Fin.ext
    show ((win1_1.rect t).emb y a : Nat) = _
    rw [Window.rect_emb_val]
    fin_cases a
    · show win1_1.index t 0 * 984 + (y 0).val = 984 * t.val + (y 0).val
      rw [h0]; omega
    · show win1_1.index t 1 * 4 + (y 1).val = (y 1).val
      rw [h1]; omega
    · show win1_1.index t 2 * 128 + (y 2).val = (y 2).val
      rw [h2]; omega
  rw [hemb]
  show blkRow (xblk8 m d t) ⟨(y 0).val, hy0⟩ ⟨(y 2).val, hy2⟩ ⟨(y 1).val, hy1⟩ = finalOut (m (xLoc d)) (ix3 ⟨984 * t.val + (y 0).val, hn⟩ ⟨(y 1).val, hy1⟩ ⟨(y 2).val, hy2⟩)
  unfold finalOut
  rw [dif_pos (show ((ix3 (⟨984 * t.val + (y 0).val, hn⟩ : Fin 10000) (⟨(y 1).val, hy1⟩ : Fin 4) (⟨(y 2).val, hy2⟩ : Fin 128) : S10000x4x128.Idx) 0).val < 5904 from by
    show 984 * t.val + (y 0).val < 5904; omega)]
  rw [blkRow_eq (xblk8 m d t) (m (xLoc d)) ⟨(y 0).val, hy0⟩ ⟨984 * t.val + (y 0).val, hn⟩ ⟨(y 2).val, hy2⟩ fun r => xblk8_apply m d t _ r _ hn]

/-- Row `n` of the result array lies in block n / 984. -/
theorem mem_blk (t : Fin cfg1.N) (j : S10000x4x128.Idx) (h : 984 * t.val ≤ (j 0).val ∧ (j 0).val < 984 * t.val + 984) :
    j ∈ (win1_1.blk t).view.set := by
  show j ∈ ((View.whole main_v1).slice (win1_1.rect t)).set
  rw [View.set_slice_whole, Rect.mem_set_unit]
  obtain ⟨h0, h1, h2⟩ := index1 t
  have hs : ∀ a, win1_1.xsize (grid1.coords t) a = S984x4x128.size a := fun a => by
    unfold Window.xsize; rw [clip_none1 t a]
  intro a
  rw [hs a]
  have := (j a).isLt
  fin_cases a
  · show win1_1.index t 0 * 984 ≤ (j 0).val ∧ (j 0).val < win1_1.index t 0 * 984 + 984
    rw [h0]; omega
  · show win1_1.index t 1 * 4 ≤ (j 1).val ∧ (j 1).val < win1_1.index t 1 * 4 + 4
    rw [h1]; have := (j 1).isLt; simp at this; omega
  · show win1_1.index t 2 * 128 ≤ (j 2).val ∧ (j 2).val < win1_1.index t 2 * 128 + 128
    rw [h2]; have := (j 2).isLt; simp at this; omega

/-- After the region the result array's first 5904 rows are the program's result. -/
theorem tOut_apply [∀ e, Nonempty (Elt F e)] (d : Dev nD) (j : S10000x4x128.Idx) (hj : (j 0).val < 5904) :
    (dats m 0 d).arrAt 1 cfg1.N j = finalOut (m (xLoc d)) j := by
  have hN : cfg1.N = 6 := N_1
  have ht : (j 0).val / 984 < cfg1.N := by rw [hN]; omega
  rw [(dats m 0 d).arrAt_eq_piecewise 1 (finalOut (m (xLoc d)) : Buf (Elt F) (tLoc d)) (fun t _ => flushed_eq m d t) j]
  have hq : 984 * ((j 0).val / 984) ≤ (j 0).val ∧ (j 0).val < 984 * ((j 0).val / 984) + 984 := by omega
  exact if_pos ⟨⟨(j 0).val / 984, ht⟩, flush_1 _, mem_blk ⟨(j 0).val / 984, ht⟩ j hq⟩

end Cert.Kernel.Frame

end
-- ==== Proof.RunBits.lean ====
/-
  The program's result as one function of its input, and the run stated with it.

  After the three index constants the final update reads its start as (5904, 0, 0), already inside the clamp, so it
  writes the SparseCore's 4096 rows at rows 5904 … 9999 of the pipeline's result array and keeps rows 0 … 5903,
  which the pipeline left at the program's result: the array the program returns is `finalOut` of the input.
-/
import proofs.«216336_g7232724927063_cont_9to1_m_658_15_alg».proof.Proof.BaseBits
import proofs.«216336_g7232724927063_cont_9to1_m_658_15_alg».proof.Proof.MainBits
import proofs.«216336_g7232724927063_cont_9to1_m_658_15_alg».proof.Proof.TcOutBits
import Idealize.ShloMosaic.Lib.Pipeline.Value

set_option maxRecDepth 16384

noncomputable section

namespace Cert.Kernel.Frame

open Cert.Kernel Cert.Kernel.Gen

open Idealize.ShloMosaic Idealize.ShloMosaic.ValueIdx Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo (held held_split held_sdiff_result wp_hlo_within)

variable {F : FTy → Type} [FloatOps F]

local notation "𝕄" => MT nD τ sig (HIx 1) (Elt F) ℕ UU ℕ

variable (m : (ℓ : Loc nD τ sig) → Buf (Elt F) ℓ) (ρ : Dev nD → PrngReg)

/-- The buffers after the three constants. -/
abbrev V3 [∀ e, Nonempty (Elt F e)] (d : Dev nD) : Valuation τ sig (Elt F) :=
  (op3 (F := F)).result ((op2 (F := F)).result ((op1 (F := F)).result (VA m d)))

theorem V3_of_ne [∀ e, Nonempty (Elt F e)] (d : Dev nD) (b : DevRef τ sig) (h1 : b ∉ ({k1'} : Finset (DevRef τ sig)))
    (h0 : b ∉ ({k0'} : Finset (DevRef τ sig))) (h5 : b ∉ ({k5'} : Finset (DevRef τ sig))) : V3 m d b = VA m d b := by
  unfold V3
  rw [(op3 (F := F)).result_of_not_mem _ (b := b) h1, (op2 (F := F)).result_of_not_mem _ (b := b) h0, (op1 (F := F)).result_of_not_mem _ (b := b) h5]

theorem V3_t [∀ e, Nonempty (Elt F e)] (d : Dev nD) : V3 m d t' = tOut m d :=
  (V3_of_ne m d t' (by decide) (by decide) (by decide)).trans (VA_t m d)
theorem V3_o [∀ e, Nonempty (Elt F e)] (d : Dev nD) : V3 m d o' = scOut (m (xLoc d)) :=
  (V3_of_ne m d o' (by decide) (by decide) (by decide)).trans (VA_o m d)
theorem V3_k5 [∀ e, Nonempty (Elt F e)] (d : Dev nD) : V3 m d k5' = constantI S_ 32 5904#32 := by
  unfold V3
  rw [(op3 (F := F)).result_of_not_mem _ (b := k5') (show k5' ∉ ({k1'} : Finset (DevRef τ sig)) by decide),
    (op2 (F := F)).result_of_not_mem _ (b := k5') (show k5' ∉ ({k0'} : Finset (DevRef τ sig)) by decide)]
  exact StableHlo.nullary_result _ _ _ _
theorem V3_k0 [∀ e, Nonempty (Elt F e)] (d : Dev nD) : V3 m d k0' = constantI S_ 32 0#32 := by
  unfold V3
  rw [(op3 (F := F)).result_of_not_mem _ (b := k0') (show k0' ∉ ({k1'} : Finset (DevRef τ sig)) by decide)]
  exact StableHlo.nullary_result _ _ _ _
theorem V3_k1 [∀ e, Nonempty (Elt F e)] (d : Dev nD) : V3 m d k1' = constantI S_ 32 0#32 := by
  unfold V3
  exact StableHlo.nullary_result _ _ _ _

set_option maxHeartbeats 1000000 in
/-- The last update's result: the SparseCore's rows written into the pipeline's result at row 5904. -/
theorem VB_r [∀ e, Nonempty (Elt F e)] (d : Dev nD) :
    VB m d r' = updateSlice (tOut m d : S10000x4x128.Idx → F .f32) (scOut (m (xLoc d))) ![5904, 0, 0]
      (by decide : S10000x4x128.Slices ![5904, 0, 0] S4096x4x128) := by
  have h4 := StableHlo.binaryIndexed_result (τ := τ) main_v1 main_v0 ![main_c, main_c_0, main_c_1] ⟨S_, .i32⟩ main_v2 (dusF (F := F))
    (by decide) ⟨by decide, rfl⟩ ⟨by decide, rfl⟩ (by decide) ⟨by decide, rfl⟩ (V3 m d)
  unfold VB
  refine Eq.trans h4 ?_
  rw [V3_t, V3_o]
  refine Host.dynamicUpdateSlice_eq_updateSlice (s := S10000x4x128) (u := S4096x4x128) _ _ _ _ ![5904, 0, 0] (fun a => ?_) _
  fin_cases a
  · show (min (max ((V3 m d k5' (Shape.Idx.first h_S_)).toInt) 0) (((10000 - 4096 : Nat)) : Int)).toNat = 5904
    rw [V3_k5]
    show (min (max ((5904#32 : BitVec 32).toInt) 0) (((10000 - 4096 : Nat)) : Int)).toNat = 5904
    decide
  · show (min (max ((V3 m d k0' (Shape.Idx.first h_S_)).toInt) 0) (((4 - 4 : Nat)) : Int)).toNat = 0
    rw [V3_k0]
    show (min (max ((0#32 : BitVec 32).toInt) 0) (((4 - 4 : Nat)) : Int)).toNat = 0
    decide
  · show (min (max ((V3 m d k1' (Shape.Idx.first h_S_)).toInt) 0) (((128 - 128 : Nat)) : Int)).toNat = 0
    rw [V3_k1]
    show (min (max ((0#32 : BitVec 32).toInt) 0) (((128 - 128 : Nat)) : Int)).toNat = 0
    decide

/-- The program's result array is `finalOut` of its input: the update keeps the pipeline's rows below 5904 and puts the
    SparseCore's above. -/
theorem VB_eq [∀ e, Nonempty (Elt F e)] (d : Dev nD) : VB m d r' = finalOut (m (xLoc d)) := by
  refine (VB_r m d).trans ?_
  refine funext fun (j : S10000x4x128.Idx) => ?_
  show updateSlice (s := S10000x4x128) (u := S4096x4x128) (tOut m d) (scOut (m (xLoc d))) ![5904, 0, 0]
    (by decide : S10000x4x128.Slices ![5904, 0, 0] S4096x4x128) j = finalOut (m (xLoc d)) j
  unfold updateSlice
  by_cases hj : (j 0).val < 5904
  · rw [dif_neg (fun hin => by have := (hin 0).1; simp at this; omega)]
    unfold finalOut
    rw [dif_pos hj]
    have := tOut_apply m d j hj
    unfold finalOut at this
    rw [dif_pos hj] at this
    exact this
  · have hin : ∀ a : Fin S10000x4x128.rank, (![5904, 0, 0] : Fin 3 → Nat) a ≤ (j a).val ∧ (j a).val < (![5904, 0, 0] : Fin 3 → Nat) a + S4096x4x128.size (a.cast rfl) := by
      intro a
      have := (j a).isLt
      fin_cases a <;> simp at this ⊢ <;> omega
    rw [dif_pos hin]
    unfold finalOut
    rw [dif_neg hj]
    refine congrArg (scOut (m (xLoc d))) (funext fun b => ?_)
    fin_cases b <;> apply Fin.ext <;> simp

/-- Every weakly fair execution of the program ends, nothing faulting, with the result array at `finalOut` of the input
    and the input as launched. -/
theorem run_main [∀ e, Nonempty (Elt F e)] (m : (ℓ : Loc nD τ sig) → Buf (Elt F) ℓ) (ρ : Dev nD → PrngReg)
    (hT : (K (F := F)).TileObl (D (F := F)) 𝒱 (P m) v₀ 0) (hV : (K (F := F)).VecSplit' (P m) 0) :
    θ_run (Cert.Kernel.defs (F := F)) (Cert.Kernel.threads (F := F)) ⟨m, fun _ => 0, ρ⟩
      (fun r => ∀ c : Dev nD, r.2.mem (rLoc c) = finalOut (m (xLoc c)) ∧ r.2.mem (xLoc c) = m (xLoc c)) :=
  (θ_run _ _ _).mono (fun _ h c => ⟨(h c).1.trans (VB_eq m c), (h c).2⟩) (run_main_raw m ρ hT hV)

end Cert.Kernel.Frame

end
-- ==== Proof.SplitBits.lean ====
/-
  The split of the SparseCore call's operands among the 16 tiles of one SparseCore, at any float instance.

  The SparseCore's read share of the input is a remainder together with one share per tile: the 16 tiles' shares go out,
  the remainder stays behind, and when the tiles' shares come back the remainder joins them into the SparseCore's share
  again.  The SparseCore's 128 result blocks are, by definition, its 16 tiles' eight blocks each taken together, so they go
  out and come back as they are, whatever values they hold.  The tiles are numbered by the call's own index type, which is
  the numbers below 16.
-/
import proofs.«216336_g7232724927063_cont_9to1_m_658_15_alg».proof.Defs
import proofs.«216336_g7232724927063_cont_9to1_m_658_15_alg».proof.Proof.Gen.Kernel
import proofs.«216336_g7232724927063_cont_9to1_m_658_15_alg».proof.Proof.BaseBits
import Idealize.ShloMosaic.Lib.SparseCore.Launch
import Idealize.ShloMosaic.Lib.Pipeline.Kit
import Idealize.ShloMosaic.Lib.Transfers
import Idealize.ShloMosaic.Lib.ValueIdx

noncomputable section

namespace Cert.Kernel.Frame

open Cert.Kernel Cert.Kernel.Gen

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- A family over the call's tile numbers, read through the identification with the numbers below 16, is the family
    over the numbers below 16. -/
theorem bigSep_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

variable (m : (ℓ : Loc nD τ sig) → Buf (Elt F) ℓ)

variable [FloatOps F]

/-- What SparseCore `c` is handed splits into what its 16 tiles are handed, and what the tiles hand back joins into what
    the SparseCore hands back: the read share of the input as remainder and tiles' shares, the result blocks tile by tile. -/
theorem vecSplit : (K (F := F)).VecSplit' (P m) 0 := by
  intro d c
  show iprop(xPtsC m d (Fin.cast nCore_zero c) ∗ oPtsC d (Fin.cast nCore_zero c) (m (oLoc d))) ⊢ |={Set.univ}=> iprop(
      (bigSep Finset.univ fun i : Fin ((K (F := F)).nSub 0) =>
        iprop(xPtsT m d (Fin.cast nCore_zero c) (Fin.cast nSub_zero i) ∗ oPtsT d (Fin.cast nCore_zero c) (Fin.cast nSub_zero i) (m (oLoc d))))
      ∗ ((bigSep Finset.univ fun i : Fin ((K (F := F)).nSub 0) =>
          iprop(xPtsT m d (Fin.cast nCore_zero c) (Fin.cast nSub_zero i) ∗ oPtsT d (Fin.cast nCore_zero c) (Fin.cast nSub_zero i) (scOut (m (xLoc d)))))
          -∗ iprop(xPtsC m d (Fin.cast nCore_zero c) ∗ oPtsC d (Fin.cast nCore_zero c) (scOut (m (xLoc d))))))
  generalize Fin.cast nCore_zero c = c'
  rw [bigSep_tiles (F := F) (fun i => iprop(xPtsT m d c' i ∗ oPtsT d c' i (m (oLoc d)))),
    bigSep_tiles (F := F) (fun i => iprop(xPtsT m d c' i ∗ oPtsT d c' i (scOut (m (xLoc d))))), bigSep_sep', bigSep_sep']
  iintro ⟨Hx, Ho⟩
  ihave Hx' := (Transfers.pointsTo_toks_split (xTokC c') 16) $$ Hx
  icases Hx' with ⟨Hrem, Htoks⟩
  imodintro
  isplitl [Htoks Ho]
  · isplitl [Htoks]; · iexact Htoks
    iexact Ho
  iintro ⟨Hts, Ho'⟩
  isplitl [Hrem Hts]
  · iapply (Transfers.pointsTo_toks_join (xTokC c') 16)
    isplitl [Hrem]; · iexact Hrem
    iexact Hts
  iexact Ho'

end Cert.Kernel.Frame

end
-- ==== Proof.FinalBits.lean ====
/-
  The word-level program's frame: its run, with the value dropped, leaves the input array unchanged.
-/
import proofs.«216336_g7232724927063_cont_9to1_m_658_15_alg».proof.Proof.RunBits
import proofs.«216336_g7232724927063_cont_9to1_m_658_15_alg».proof.Proof.SplitBits

noncomputable section

namespace Cert.Kernel.Frame

open Cert.Kernel
open Idealize.ShloMosaic Idealize.ShloMosaic.ValueIdx Idealize.SL.Sem

/-- Every weakly fair execution of the word-level program ends, nothing faulting, with the input array unchanged — given
    the tiles' body. -/
theorem run_frame (m : (ℓ : Loc nD τ sig) → Buf (Elt Bits) ℓ) (ρ : Dev nD → PrngReg)
    (hT : (K (F := Bits)).TileObl (D (F := Bits)) 𝒱 (P m) v₀ 0) :
    θ_run (Cert.Kernel.defs (F := Bits)) (Cert.Kernel.threads (F := Bits)) ⟨m, fun _ => 0, ρ⟩
      (fun r => ∀ c : Dev Cert.Kernel.nD, r.2.mem (xLoc c) = m (xLoc c)) :=
  (θ_run _ _ _).mono (fun _ h c => (h c).2) (run_main (F := Bits) m ρ hT (vecSplit m))

end Cert.Kernel.Frame

end
-- ==== Proof.TileBaseIdeal.lean ====
/-
  A tile's view of the SparseCore kernel: its thread, the memrefs the body is called with, its four completion cells,
  how its own scoped buffers and semaphores open into the four scratch buffers and the four cells, and the function
  one pass of the compute loop leaves in an output scratch.

  One compute pass reads a 16-node block held in an input scratch `fin` (16 × 16 × 128) and writes the 16 × 4 × 128
  output scratch: entry (n, k, c) is the piece-`k` expression tree over the squares fin[n, r, c]², r = 0…15 — the same
  tree the kernel's result function `scRow` is built from.
-/
import proofs.«216336_g7232724927063_cont_9to1_m_658_15_alg».proof.Proof.BaseIdeal
import proofs.«216336_g7232724927063_cont_9to1_m_658_15_alg».proof.Proof.Gen.KernelIdeal.Skeleton
import Idealize.ShloMosaic.Lib.SparseCore.Launch
import Idealize.ShloMosaic.Lib.SparseCore.Ops
import Idealize.ShloMosaic.Lib.StableHlo.Run
import Idealize.ShloMosaic.Lib.Tactic

noncomputable section

namespace Cert.KernelIdeal.Frame

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## The tile and its memrefs -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

local notation "xV" => (Memref.whole Cert.KernelIdeal.main_arg0_scv : Memref Cert.KernelIdeal.sig Kind.scVector Space.hbm Cert.KernelIdeal.S10000x16x128 EltTy.f32)
local notation "oV" => (Memref.whole Cert.KernelIdeal.main_v0_scv : Memref Cert.KernelIdeal.sig Kind.scVector Space.hbm Cert.KernelIdeal.S4096x4x128 EltTy.f32)
local notation "inA" => (Memref.whole Cert.KernelIdeal.cc0_scratch0 : Memref Cert.KernelIdeal.sig Kind.scVector Space.vmem Cert.KernelIdeal.S16x16x128 EltTy.f32)
local notation "inB" => (Memref.whole Cert.KernelIdeal.cc0_scratch1 : Memref Cert.KernelIdeal.sig Kind.scVector Space.vmem Cert.KernelIdeal.S16x16x128 EltTy.f32)
local notation "outA" => (Memref.whole Cert.KernelIdeal.cc0_scratch2 : Memref Cert.KernelIdeal.sig Kind.scVector Space.vmem Cert.KernelIdeal.S16x4x128 EltTy.f32)
local notation "outB" => (Memref.whole Cert.KernelIdeal.cc0_scratch3 : Memref Cert.KernelIdeal.sig Kind.scVector Space.vmem Cert.KernelIdeal.S16x4x128 EltTy.f32)

/-- the four completion cells of the tile: input slot A, input slot B, output slot A, output slot B -/
abbrev cellIA (d : Dev nD) (c : Fin τ.nSC) (i : Fin τ.nSub) : GSem nD τ sig := (V d c i, .dma cc0_scratch4.sem)
abbrev cellIB (d : Dev nD) (c : Fin τ.nSC) (i : Fin τ.nSub) : GSem nD τ sig := (V d c i, .dma cc0_scratch5.sem)
abbrev cellOA (d : Dev nD) (c : Fin τ.nSC) (i : Fin τ.nSub) : GSem nD τ sig := (V d c i, .dma cc0_scratch6.sem)
abbrev cellOB (d : Dev nD) (c : Fin τ.nSC) (i : Fin τ.nSub) : GSem nD τ sig := (V d c i, .dma cc0_scratch7.sem)

theorem ownSems0_V :
    (ownSems0 (V d (cV L) (jV L)) : sProp 𝕄)
      = iprop(semVal (cellIA d (cV L) (jV L)) 0 ∗ semVal (cellIB d (cV L) (jV L)) 0 ∗ semVal (cellOA d (cV L) (jV L)) 0 ∗ semVal (cellOB d (cV L) (jV L)) 0
          ∗ bigSep (((((ownCells (V d (cV L) (jV L))).erase (cellIA d (cV L) (jV L))).erase (cellIB d (cV L) (jV L))).erase (cellOA d (cV L) (jV L))).erase (cellOB d (cV L) (jV L)))
              fun g => semVal g 0) := by
  unfold SparseCore.Cfg.ownSems0
  have hA := (mem_ownCells (sig := sig) (g := cellIA d (cV L) (jV L))).mpr ⟨rfl, by show (SemLoc.dma cc0_scratch4.sem : SemLoc sig).isScoped .scVector = true; decide⟩
  have hB := (mem_ownCells (sig := sig) (g := cellIB d (cV L) (jV L))).mpr ⟨rfl, by show (SemLoc.dma cc0_scratch5.sem : SemLoc sig).isScoped .scVector = true; decide⟩
  have hC := (mem_ownCells (sig := sig) (g := cellOA d (cV L) (jV L))).mpr ⟨rfl, by show (SemLoc.dma cc0_scratch6.sem : SemLoc sig).isScoped .scVector = true; decide⟩
  have hD := (mem_ownCells (sig := sig) (g := cellOB d (cV L) (jV L))).mpr ⟨rfl, by show (SemLoc.dma cc0_scratch7.sem : SemLoc sig).isScoped .scVector = true; decide⟩
  have nBA : cellIB d (cV L) (jV L) ≠ cellIA d (cV L) (jV L) := by simp [cellIA, cellIB]; decide
  have nCA : cellOA d (cV L) (jV L) ≠ cellIA d (cV L) (jV L) := by simp [cellIA, cellOA]; decide
  have nCB : cellOA d (cV L) (jV L) ≠ cellIB d (cV L) (jV L) := by simp [cellIB, cellOA]; decide
  have nDA : cellOB d (cV L) (jV L) ≠ cellIA d (cV L) (jV L) := by simp [cellIA, cellOB]; decide
  have nDB : cellOB d (cV L) (jV L) ≠ cellIB d (cV L) (jV L) := by simp [cellIB, cellOB]; decide
  have nDC : cellOB d (cV L) (jV L) ≠ cellOA d (cV L) (jV L) := by simp [cellOA, cellOB]; decide
  rw [SparseCore.bigSep_erase' hA,
    SparseCore.bigSep_erase' (Finset.mem_erase.mpr ⟨nBA, hB⟩),
    SparseCore.bigSep_erase' (Finset.mem_erase.mpr ⟨nCB, Finset.mem_erase.mpr ⟨nCA, hC⟩⟩),
    SparseCore.bigSep_erase' (Finset.mem_erase.mpr ⟨nDC, Finset.mem_erase.mpr ⟨nDB, Finset.mem_erase.mpr ⟨nDA, hD⟩⟩⟩)]

/-- The four scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  have h0 := SparseCore.Cfg.mem_ownRefs_of_owner (τ := τ) (sig := sig) (p := Proc.scVector (cV L) (jV L)) (b := (Proc.scVector (cV L) (jV L)).devRef cc0_scratch0) rfl
  have h1 := SparseCore.Cfg.mem_ownRefs_of_owner (τ := τ) (sig := sig) (p := Proc.scVector (cV L) (jV L)) (b := (Proc.scVector (cV L) (jV L)).devRef cc0_scratch1) rfl
  have h2 := SparseCore.Cfg.mem_ownRefs_of_owner (τ := τ) (sig := sig) (p := Proc.scVector (cV L) (jV L)) (b := (Proc.scVector (cV L) (jV L)).devRef cc0_scratch2) rfl
  have h3 := SparseCore.Cfg.mem_ownRefs_of_owner (τ := τ) (sig := sig) (p := Proc.scVector (cV L) (jV L)) (b := (Proc.scVector (cV L) (jV L)).devRef cc0_scratch3) rfl
  have ne (a b : Ref sig .scVector) (h : a ≠ b) : (Proc.scVector (cV L) (jV L)).devRef a ≠ (Proc.scVector (cV L) (jV L)).devRef b :=
    fun e => absurd (Proc.devRef_injective _ e) h
  refine (SparseCore.bigSep_erase' h0).trans ?_
  rw [SparseCore.bigSep_erase' (Finset.mem_erase.mpr ⟨ne cc0_scratch1 cc0_scratch0 (by decide), h1⟩),
    SparseCore.bigSep_erase' (Finset.mem_erase.mpr ⟨ne cc0_scratch2 cc0_scratch1 (by decide), Finset.mem_erase.mpr ⟨ne cc0_scratch2 cc0_scratch0 (by decide), h2⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), h3⟩⟩⟩)]

/-- The input as a tile's memref addresses it is the TensorCore's array. -/
theorem pts_x (q : PosShare TreeShare) (f : Buf (Elt F) (xLoc d)) :
    ((xV).view.loc (V d (cV L) (jV L)) ↦{q} f : sProp 𝕄) = xLoc d ↦{q} f := by
  simp only [Memref.view_whole, View.set_whole]

theorem univ_fin2 : (Finset.univ : Finset (Fin 2)) = {0, 1} := by decide

theorem bigSep_fin2 (Φ : Fin 2 → sProp 𝕄) : (bigSep Finset.univ Φ) = iprop(Φ 0 ∗ Φ 1) := by
  rw [univ_fin2, SparseCore.bigSep_insert' (by decide), bigSep_singleton]

/-- The four scratch buffers as the body's whole memrefs address them. -/
theorem pts_inA (f : Buf (Elt F) ((V d (cV L) (jV L)).loc cc0_scratch0)) :
    ((inA).view.loc (V d (cV L) (jV L)) ↦{fullShare} f : sProp 𝕄) = (V d (cV L) (jV L)).loc cc0_scratch0 ↦{fullShare} f := rfl
theorem pts_inB (f : Buf (Elt F) ((V d (cV L) (jV L)).loc cc0_scratch1)) :
    ((inB).view.loc (V d (cV L) (jV L)) ↦{fullShare} f : sProp 𝕄) = (V d (cV L) (jV L)).loc cc0_scratch1 ↦{fullShare} f := rfl
theorem pts_outA (f : Buf (Elt F) ((V d (cV L) (jV L)).loc cc0_scratch2)) :
    ((outA).view.loc (V d (cV L) (jV L)) ↦{fullShare} f : sProp 𝕄) = (V d (cV L) (jV L)).loc cc0_scratch2 ↦{fullShare} f := rfl
theorem pts_outB (f : Buf (Elt F) ((V d (cV L) (jV L)).loc cc0_scratch3)) :
    ((outB).view.loc (V d (cV L) (jV L)) ↦{fullShare} f : sProp 𝕄) = (V d (cV L) (jV L)).loc cc0_scratch3 ↦{fullShare} f := rfl

variable [FloatOps F]

/-! ## Trip counts -/

theorem t1_trips : ∀ i : grid0.Coords, (k0_t1_loop i).trips = 4 := by decide +kernel
theorem t4_trips : ∀ i : grid0.Coords, (k0_t4_loop i).trips = 0 := by decide +kernel

/-! ## One compute pass as a function -/

/-- The four piece results from the sixteen squares, summed and scaled in the kernel's own order. -/
def tree4 (q : Fin 16 → F .f32) : Fin 4 → F .f32 :=
  ![q 0,
    FloatOps.mulf (FloatOps.addf (FloatOps.addf (q 1) (q 2)) (q 3)) (Scalar.ofBits .f32 0x3EAAAAAB#32),
    FloatOps.mulf (FloatOps.addf (FloatOps.addf (FloatOps.addf (q 4) (q 5)) (FloatOps.addf (q 6) (q 7))) (q 8)) (Scalar.ofBits .f32 0x3E4CCCCD#32),
    FloatOps.mulf (FloatOps.addf (FloatOps.addf (FloatOps.addf (q 9) (q 10)) (FloatOps.addf (q 11) (q 12)))
      (FloatOps.addf (FloatOps.addf (q 13) (q 14)) (q 15))) (Scalar.ofBits .f32 0x3E124925#32)]

theorem scRow_eq_tree4 (x : FVec F S10000x16x128 .f32) (n : Fin 10000) (c : Fin 128) : scRow x n c = tree4 (sqAt x n c) := rfl

/-- What a compute pass leaves in the output scratch, from the input scratch's contents. -/
def blockOut (fin : FVec F S16x16x128 .f32) : FVec F S16x4x128 .f32 := fun j =>
  tree4 (fun r => FloatOps.mulf (fin (ix3 (j 0) r (j 2))) (fin (ix3 (j 0) r (j 2)))) (j 1)

/-- The output scratch before trip `n` of a pass: rows below `n` done, the others as the pass found them. -/
def outAt (fin : FVec F S16x16x128 .f32) (g0 : FVec F S16x4x128 .f32) (n : ℕ) : FVec F S16x4x128 .f32 := fun j =>
  if (j 0).val < n then blockOut fin j else g0 j

theorem outAt_zero (fin : FVec F S16x16x128 .f32) (g0 : FVec F S16x4x128 .f32) : outAt fin g0 0 = g0 := by
  funext j; simp [outAt]

theorem outAt_full (fin : FVec F S16x16x128 .f32) (g0 : FVec F S16x4x128 .f32) : outAt fin g0 16 = blockOut fin := by
  funext j
  have := (j 0).isLt
  simp only [Matrix.cons_val_zero] at this
  simp [outAt, this]

end Cert.KernelIdeal.Frame

end
-- ==== Proof.BlocksIdeal.lean ====
/-
  The tile's eight blocks in one spelling. Block b (0…7) of tile (c, s) starts at row 16·(2s + c) + 512·b of the
  kernel's 4096-row result and at row 5904 more of the input. The rectangles the body slices with are these, by the
  generated closed forms of its offset chains.
-/
import proofs.«216336_g7232724927063_cont_9to1_m_658_15_alg».proof.Proof.TileBaseIdeal

noncomputable section

namespace Cert.KernelIdeal.Frame

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg0_scv : Memref Cert.KernelIdeal.sig Kind.scVector Space.hbm Cert.KernelIdeal.S10000x16x128 EltTy.f32)
local notation "oV" => (Memref.whole Cert.KernelIdeal.main_v0_scv : Memref Cert.KernelIdeal.sig Kind.scVector Space.hbm Cert.KernelIdeal.S4096x4x128 EltTy.f32)
local notation "inA" => (Memref.whole Cert.KernelIdeal.cc0_scratch0 : Memref Cert.KernelIdeal.sig Kind.scVector Space.vmem Cert.KernelIdeal.S16x16x128 EltTy.f32)
local notation "inB" => (Memref.whole Cert.KernelIdeal.cc0_scratch1 : Memref Cert.KernelIdeal.sig Kind.scVector Space.vmem Cert.KernelIdeal.S16x16x128 EltTy.f32)
local notation "outA" => (Memref.whole Cert.KernelIdeal.cc0_scratch2 : Memref Cert.KernelIdeal.sig Kind.scVector Space.vmem Cert.KernelIdeal.S16x4x128 EltTy.f32)
local notation "outB" => (Memref.whole Cert.KernelIdeal.cc0_scratch3 : Memref Cert.KernelIdeal.sig Kind.scVector Space.vmem Cert.KernelIdeal.S16x4x128 EltTy.f32)

/-- first result row of the tile's block `b` -/
def wOff (L : grid0.Coords) (b : ℕ) : ℕ := 32 * (L 1).val + 16 * (L 0).val + 512 * b

theorem L0_lt (L : grid0.Coords) : (L 0).val < 2 := (L 0).isLt
theorem L1_lt (L : grid0.Coords) : (L 1).val < 16 := (L 1).isLt

theorem xOff_inb (L : grid0.Coords) (b : ℕ) (hb : b < 8) :
    ∀ a, (![wOff L b + 5904, 0, 0] : Fin 3 → ℕ) a + S16x16x128.size a ≤ S10000x16x128.size a := by
  have h0 := L0_lt L; have h1 := L1_lt L
  intro a; fin_cases a <;> simp [wOff, Shape.size] <;> omega

theorem oOff_inb (L : grid0.Coords) (b : ℕ) (hb : b < 8) :
    ∀ a, (![wOff L b, 0, 0] : Fin 3 → ℕ) a + S16x4x128.size a ≤ S4096x4x128.size a := by
  have h0 := L0_lt L; have h1 := L1_lt L
  intro a; fin_cases a <;> simp [wOff, Shape.size] <;> omega

/-- input block `b` of the tile, as a rectangle of the input and as the memref the body slices -/
abbrev xRect (L : grid0.Coords) (b : ℕ) (hb : b < 8) : Rect S10000x16x128 :=
  Rect.unit (s := S10000x16x128) ![wOff L b + 5904, 0, 0] S16x16x128.size (xOff_inb L b hb)
abbrev xSl (L : grid0.Coords) (b : ℕ) (hb : b < 8) : Memref sig .scVector .hbm S16x16x128 .f32 :=
  (xV).slice (xRect L b hb) (fun _ => rfl)
/-- result block `b` of the tile -/
abbrev oRect (L : grid0.Coords) (b : ℕ) (hb : b < 8) : Rect S4096x4x128 :=
  Rect.unit (s := S4096x4x128) ![wOff L b, 0, 0] S16x4x128.size (oOff_inb L b hb)
abbrev oSl (L : grid0.Coords) (b : ℕ) (hb : b < 8) : Memref sig .scVector .hbm S16x4x128 .f32 :=
  (oV).slice (oRect L b hb) (fun _ => rfl)

theorem rect_unit_congr {s : Shape} {off off' : Fin s.rank → ℕ} (size : Fin s.rank → ℕ) (h : off = off')
    (inb : ∀ a, off a + size a ≤ s.size a) (inb' : ∀ a, off' a + size a ≤ s.size a) :
    Rect.unit (s := s) off size inb = Rect.unit (s := s) off' size inb' := by
  subst h; rfl

/-- The body's rectangles are the tile's blocks. -/
theorem rect_in0 (r : Fin 2) (inb) :
    Rect.unit (s := S10000x16x128) (k0_off1 L (BitVec.ofNat 32 (32 * r.val))) S16x16x128.size inb = xRect L r.val (by omega) :=
  rect_unit_congr _ (by rw [k0_off1_eq]; simp [wOff] <;> ring_nf) _ _
theorem rect_inA (k : Fin (k0_t1_loop L).trips) (inb) (hb : 2 * k.val + 2 < 8) :
    Rect.unit (s := S10000x16x128) (k0_off163 L k) S16x16x128.size inb = xRect L (2 * k.val + 2) hb :=
  rect_unit_congr _ (by rw [k0_off163_eq]; simp [wOff] <;> ring_nf) _ _
theorem rect_inB (k : Fin (k0_t1_loop L).trips) (inb) (hb : 2 * k.val + 3 < 8) :
    Rect.unit (s := S10000x16x128) (k0_off325 L k) S16x16x128.size inb = xRect L (2 * k.val + 3) hb :=
  rect_unit_congr _ (by rw [k0_off325_eq]; simp [wOff] <;> ring_nf) _ _
theorem rect_outA (k : Fin (k0_t1_loop L).trips) (inb) (hb : 2 * k.val < 8) :
    Rect.unit (s := S4096x4x128) (k0_off162 L k) S16x4x128.size inb = oRect L (2 * k.val) hb :=
  rect_unit_congr _ (by rw [k0_off162_eq]; simp [wOff] <;> ring_nf) _ _
theorem rect_outB (k : Fin (k0_t1_loop L).trips) (inb) (hb : 2 * k.val + 1 < 8) :
    Rect.unit (s := S4096x4x128) (k0_off324 L k) S16x4x128.size inb = oRect L (2 * k.val + 1) hb :=
  rect_unit_congr _ (by rw [k0_off324_eq]; simp [wOff] <;> ring_nf) _ _

end Cert.KernelIdeal.Frame

end
-- ==== Proof.BlockStateIdeal.lean ====
/-
  Bookkeeping for the tile's eight result blocks across the trips of the pairs loop, and the passage between the
  body's spelling of a block (a slice of the result array at computed offsets) and the launch's (part number
  (2s + c) + 32·b of the 256 sixteen-row parts).

  Before trip k (k = 0…4) blocks 2k, 2k+1, … are untouched (`todo k`), blocks below 2k − 2 have landed at the kernel's
  value (`landed k`), and blocks 2k − 2, 2k − 1 are on their way (held by their copies).
-/
import proofs.«216336_g7232724927063_cont_9to1_m_658_15_alg».proof.Proof.BlocksIdeal

noncomputable section

namespace Cert.KernelIdeal.Frame

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg0_scv : Memref Cert.KernelIdeal.sig Kind.scVector Space.hbm Cert.KernelIdeal.S10000x16x128 EltTy.f32)
local notation "oV" => (Memref.whole Cert.KernelIdeal.main_v0_scv : Memref Cert.KernelIdeal.sig Kind.scVector Space.hbm Cert.KernelIdeal.S4096x4x128 EltTy.f32)
local notation "inA" => (Memref.whole Cert.KernelIdeal.cc0_scratch0 : Memref Cert.KernelIdeal.sig Kind.scVector Space.vmem Cert.KernelIdeal.S16x16x128 EltTy.f32)
local notation "inB" => (Memref.whole Cert.KernelIdeal.cc0_scratch1 : Memref Cert.KernelIdeal.sig Kind.scVector Space.vmem Cert.KernelIdeal.S16x16x128 EltTy.f32)
local notation "outA" => (Memref.whole Cert.KernelIdeal.cc0_scratch2 : Memref Cert.KernelIdeal.sig Kind.scVector Space.vmem Cert.KernelIdeal.S16x4x128 EltTy.f32)
local notation "outB" => (Memref.whole Cert.KernelIdeal.cc0_scratch3 : Memref Cert.KernelIdeal.sig Kind.scVector Space.vmem Cert.KernelIdeal.S16x4x128 EltTy.f32)

variable [FloatOps F]

/-- A block's rectangle at canonical offsets is the launch's part. -/
theorem oRect_eq_part (b : ℕ) (hb : b < 8) : oRect L b hb = oBlk (blk (cL L) (sL L) ⟨b, hb⟩) := by
  have h0 := L0_lt L; have h1 := L1_lt L
  unfold oRect oBlk Rect.part Rect.block
  congr 1 <;> funext a
  · fin_cases a <;> simp [Shape.partIx, Shape.partSize, wOff, blk] <;> omega
  · fin_cases a <;> simp [Shape.partSize]

theorem oSl_set (b : ℕ) (hb : b < 8) : (oSl L b hb).view.set = oSet (blk (cL L) (sL L) ⟨b, hb⟩) := by
  show ((oV).view.slice (oRect L b hb)).set = ((oV).view.slice (oBlk (blk (cL L) (sL L) ⟨b, hb⟩))).set
  rw [oRect_eq_part]

/-- A result block as the body's slice addresses it is the TensorCore's array on the launch's part. -/
theorem pts_oblk (b : ℕ) (hb : b < 8) (q : PosShare TreeShare) (f : Buf (Elt F) (oLoc d)) :
    ((oSl L b hb).view.loc (V d (cV L) (jV L)) ↦[(oSl L b hb).view.set]{q} f : sProp 𝕄)
      = oLoc d ↦[oSet (blk (cL L) (sL L) ⟨b, hb⟩)]{q} f := by
  rw [oSl_set]

/-- block `i` untouched / at the kernel's value -/
abbrev oInit (i : Fin 8) : sProp 𝕄 := oLoc d ↦[oSet (blk (cL L) (sL L) i)]{fullShare} m (oLoc d)
abbrev oFin (i : Fin 8) : sProp 𝕄 := oLoc d ↦[oSet (blk (cL L) (sL L) i)]{fullShare} scOut (m (xLoc d))

def todo (k : ℕ) : sProp 𝕄 := bigSep (Finset.univ.filter fun i : Fin 8 => 2 * k ≤ i.val) (oInit m d L)
def landed (k : ℕ) : sProp 𝕄 := bigSep (Finset.univ.filter fun i : Fin 8 => i.val + 2 < 2 * k) (oFin m d L)

theorem todo_zero : todo m d L 0 = oPtsT d (cL L) (sL L) (m (oLoc d)) := by
  unfold todo; congr 1; try (ext i; simp)

theorem todo_succ (k : ℕ) (hk : k < 4) :
    todo m d L k = iprop(oInit m d L ⟨2 * k, by omega⟩ ∗ oInit m d L ⟨2 * k + 1, by omega⟩ ∗ todo m d L (k + 1)) := by
  unfold todo
  have e : (Finset.univ.filter fun i : Fin 8 => 2 * k ≤ i.val)
      = insert (⟨2 * k, by omega⟩ : Fin 8) (insert (⟨2 * k + 1, by omega⟩ : Fin 8) (Finset.univ.filter fun i : Fin 8 => 2 * (k + 1) ≤ i.val)) := by
    ext i; simp [Fin.ext_iff] <;> omega
  rw [e, SparseCore.bigSep_insert' (by simp [Fin.ext_iff] <;> omega), SparseCore.bigSep_insert' (by simp [Fin.ext_iff] <;> omega)]

theorem todo_four : todo m d L 4 = (iprop(emp) : sProp 𝕄) := by
  unfold todo
  have e : (Finset.univ.filter fun i : Fin 8 => 2 * 4 ≤ i.val) = ∅ := by
    ext i; simp <;> omega
  rw [e, bigSep_empty]; rfl

theorem landed_low (k : ℕ) (hk : k ≤ 1) : landed m d L k = (iprop(emp) : sProp 𝕄) := by
  unfold landed
  have e : (Finset.univ.filter fun i : Fin 8 => i.val + 2 < 2 * k) = ∅ := by
    ext i; simp <;> omega
  rw [e, bigSep_empty]; rfl

theorem landed_succ (k : ℕ) (hk0 : 0 < k) (hk : k ≤ 4) :
    landed m d L (k + 1) = iprop(oFin m d L ⟨2 * k - 2, by omega⟩ ∗ oFin m d L ⟨2 * k - 1, by omega⟩ ∗ landed m d L k) := by
  unfold landed
  have e : (Finset.univ.filter fun i : Fin 8 => i.val + 2 < 2 * (k + 1))
      = insert (⟨2 * k - 2, by omega⟩ : Fin 8) (insert (⟨2 * k - 1, by omega⟩ : Fin 8) (Finset.univ.filter fun i : Fin 8 => i.val + 2 < 2 * k)) := by
    ext i; simp [Fin.ext_iff] <;> omega
  rw [e, SparseCore.bigSep_insert' (by simp [Fin.ext_iff] <;> omega), SparseCore.bigSep_insert' (by simp [Fin.ext_iff] <;> omega)]

/-- All eight blocks at the kernel's value: six landed during the loop and the last two. -/
theorem landed_all :
    iprop(landed m d L 4 ∗ oFin m d L ⟨6, by omega⟩ ∗ oFin m d L ⟨7, by omega⟩) ⊢ oPtsT d (cL L) (sL L) (scOut (m (xLoc d))) := by
  have e : (Finset.univ : Finset (Fin 8))
      = insert (⟨6, by omega⟩ : Fin 8) (insert (⟨7, by omega⟩ : Fin 8) (Finset.univ.filter fun i : Fin 8 => i.val + 2 < 2 * 4)) := by
    ext i; simp [Fin.ext_iff] <;> omega
  have e' : oPtsT d (cL L) (sL L) (scOut (m (xLoc d)))
      = iprop(oFin m d L ⟨6, by omega⟩ ∗ oFin m d L ⟨7, by omega⟩ ∗ landed m d L 4) := by
    show bigSep (Finset.univ : Finset (Fin 8)) (oFin m d L) = _
    rw [e, SparseCore.bigSep_insert' (by simp [Fin.ext_iff] <;> omega), SparseCore.bigSep_insert' (by simp [Fin.ext_iff] <;> omega)]
    rfl
  rw [e']
  iintro ⟨H, H6, H7⟩
  isplitl [H6]; · iexact H6
  isplitl [H7]; · iexact H7
  iexact H

end Cert.KernelIdeal.Frame

end
-- ==== Proof.PairsInvIdeal.lean ====
/-
  The pairs loop's invariant and what its copies deliver.

  Before trip k of the pairs loop (k = 0…4) a tile holds: for each input slot the copy of its next block on its way
  (block 2k into slot A, 2k + 1 into slot B; after the last trip nothing, the slot idle), each slot reading the input
  through its own read share, the rest of that share beside the flight; for each output slot the copy of the block
  computed in the previous trip on its way out (before trip 0 nothing, the slot idle); the untouched result blocks,
  and the ones that have landed.

  A landed input copy leaves the input scratch at the block's rows of the input array; a landed output copy leaves
  the result block at the compute pass's function of that, which is the kernel's value `scOut` there: row n' of the
  result is node 5904 + n', and the pass's tree over the squares is `scRow`'s.
-/
import proofs.«216336_g7232724927063_cont_9to1_m_658_15_alg».proof.Proof.BlockStateIdeal

noncomputable section

namespace Cert.KernelIdeal.Frame

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg0_scv : Memref Cert.KernelIdeal.sig Kind.scVector Space.hbm Cert.KernelIdeal.S10000x16x128 EltTy.f32)
local notation "oV" => (Memref.whole Cert.KernelIdeal.main_v0_scv : Memref Cert.KernelIdeal.sig Kind.scVector Space.hbm Cert.KernelIdeal.S4096x4x128 EltTy.f32)
local notation "inA" => (Memref.whole Cert.KernelIdeal.cc0_scratch0 : Memref Cert.KernelIdeal.sig Kind.scVector Space.vmem Cert.KernelIdeal.S16x16x128 EltTy.f32)
local notation "inB" => (Memref.whole Cert.KernelIdeal.cc0_scratch1 : Memref Cert.KernelIdeal.sig Kind.scVector Space.vmem Cert.KernelIdeal.S16x16x128 EltTy.f32)
local notation "outA" => (Memref.whole Cert.KernelIdeal.cc0_scratch2 : Memref Cert.KernelIdeal.sig Kind.scVector Space.vmem Cert.KernelIdeal.S16x4x128 EltTy.f32)
local notation "outB" => (Memref.whole Cert.KernelIdeal.cc0_scratch3 : Memref Cert.KernelIdeal.sig Kind.scVector Space.vmem Cert.KernelIdeal.S16x4x128 EltTy.f32)

variable [FloatOps F]

abbrev tokA (L : grid0.Coords) : PosShare TreeShare := Transfers.shareTok (xTokT (cL L) (sL L)) 2 0
abbrev tokB (L : grid0.Coords) : PosShare TreeShare := Transfers.shareTok (xTokT (cL L) (sL L)) 2 1

/-- the tile's input block `b` as a 16 × 16 × 128 array -/
def blockIn (b : ℕ) (hb : b < 8) : FVec F S16x16x128 .f32 := (xSl L b hb).view.read (Elt F) (m (xLoc d))

/-! ## The slots -/

/-- block `b` on its way into input slot A; the rest of the slot's read share -/
def inFlA (b : ℕ) (hb : b < 8) : sProp 𝕄 :=
  iprop(Transfers.Flight countersEmb (V d (cV L) (jV L)) (SemLoc.dma cc0_scratch4.sem) (default : HIx 1) 1048576
      iprop(((inA).view.loc (V d (cV L) (jV L)) ↦{fullShare} blockIn m d L b hb)
        ∗ ((xV).view.loc (V d (cV L) (jV L)) ↦[(xSl L b hb).view.set]{tokA L} m (xLoc d)))
    ∗ ((xV).view.loc (V d (cV L) (jV L)) ↦[Finset.univ \ (xSl L b hb).view.set]{tokA L} m (xLoc d)))
def inFlB (b : ℕ) (hb : b < 8) : sProp 𝕄 :=
  iprop(Transfers.Flight countersEmb (V d (cV L) (jV L)) (SemLoc.dma cc0_scratch5.sem) (default : HIx 1) 1048576
      iprop(((inB).view.loc (V d (cV L) (jV L)) ↦{fullShare} blockIn m d L b hb)
        ∗ ((xV).view.loc (V d (cV L) (jV L)) ↦[(xSl L b hb).view.set]{tokB L} m (xLoc d)))
    ∗ ((xV).view.loc (V d (cV L) (jV L)) ↦[Finset.univ \ (xSl L b hb).view.set]{tokB L} m (xLoc d)))
/-- an input slot idle -/
def inIdleA : sProp 𝕄 :=
  iprop(semVal (cellIA d (cV L) (jV L)) 0 ∗ (∃ f, (inA).view.loc (V d (cV L) (jV L)) ↦{fullShare} f)
    ∗ ((xV).view.loc (V d (cV L) (jV L)) ↦{tokA L} m (xLoc d)))
def inIdleB : sProp 𝕄 :=
  iprop(semVal (cellIB d (cV L) (jV L)) 0 ∗ (∃ f, (inB).view.loc (V d (cV L) (jV L)) ↦{fullShare} f)
    ∗ ((xV).view.loc (V d (cV L) (jV L)) ↦{tokB L} m (xLoc d)))

/-- result block `b` on its way out of output slot A (the scratch at `g` meanwhile) -/
def outFlA (b : ℕ) (hb : b < 8) (g : Buf (Elt F) ((V d (cV L) (jV L)).loc cc0_scratch2)) : sProp 𝕄 :=
  Transfers.Flight countersEmb (V d (cV L) (jV L)) (SemLoc.dma cc0_scratch6.sem) (default : HIx 1) 262144
    iprop(oFin m d L ⟨b, hb⟩ ∗ ((outA).view.loc (V d (cV L) (jV L)) ↦{fullShare} g))
def outFlB (b : ℕ) (hb : b < 8) (g : Buf (Elt F) ((V d (cV L) (jV L)).loc cc0_scratch3)) : sProp 𝕄 :=
  Transfers.Flight countersEmb (V d (cV L) (jV L)) (SemLoc.dma cc0_scratch7.sem) (default : HIx 1) 262144
    iprop(oFin m d L ⟨b, hb⟩ ∗ ((outB).view.loc (V d (cV L) (jV L)) ↦{fullShare} g))
def outIdleA (g : Buf (Elt F) ((V d (cV L) (jV L)).loc cc0_scratch2)) : sProp 𝕄 :=
  iprop(semVal (cellOA d (cV L) (jV L)) 0 ∗ ((outA).view.loc (V d (cV L) (jV L)) ↦{fullShare} g))
def outIdleB (g : Buf (Elt F) ((V d (cV L) (jV L)).loc cc0_scratch3)) : sProp 𝕄 :=
  iprop(semVal (cellOB d (cV L) (jV L)) 0 ∗ ((outB).view.loc (V d (cV L) (jV L)) ↦{fullShare} g))

def inPartA (k : ℕ) : sProp 𝕄 := if h : k < 4 then inFlA m d L (2 * k) (by omega) else inIdleA m d L
def inPartB (k : ℕ) : sProp 𝕄 := if h : k < 4 then inFlB m d L (2 * k + 1) (by omega) else inIdleB m d L
def outPartA (k : ℕ) (g : Buf (Elt F) ((V d (cV L) (jV L)).loc cc0_scratch2)) : sProp 𝕄 :=
  if h : 0 < k ∧ k ≤ 4 then outFlA m d L (2 * k - 2) (by omega) g else outIdleA d L g
def outPartB (k : ℕ) (g : Buf (Elt F) ((V d (cV L) (jV L)).loc cc0_scratch3)) : sProp 𝕄 :=
  if h : 0 < k ∧ k ≤ 4 then outFlB m d L (2 * k - 1) (by omega) g else outIdleB d L g

/-- The invariant before trip `k`. -/
def pairsInv (O : CellTallies nD τ sig (HIx 1)) (W : Waits sig (HIx 1)) (k : ℕ) (_ : PUnit) : sProp 𝕄 :=
  iprop(Transfers.MayWaits (V d (cV L) (jV L)) (none : HIx 1) O
    ∗ inPartA m d L k ∗ inPartB m d L k
    ∗ (∃ ga, outPartA m d L k ga) ∗ (∃ gb, outPartB m d L k gb)
    ∗ todo m d L k ∗ landed m d L k
    ∗ ∃ W', ⌜∀ p ∈ W', p ∈ W ∨ p.2 = none⌝ ∗ owes (V d (cV L) (jV L)) O W')

/-! ## What the copies deliver -/

/-- An input copy's delivery, in the spelling it was issued with, is the block in the scratch and the slice's share back. -/
theorem in_deliverA (b : ℕ) (hb : b < 8) (q : PosShare TreeShare) (off : Fin 3 → ℕ) (inb : ∀ a, off a + S16x16x128.size a ≤ S10000x16x128.size a)
    (hoff : off = ![wOff L b + 5904, 0, 0]) (fd : Buf (Elt F) ((V d (cV L) (jV L)).loc cc0_scratch0)) (X : S16x16x128.Idx → Elt F .f32)
    (hX : X = ((xV).slice (Rect.unit (s := S10000x16x128) off S16x16x128.size inb) (fun _ => rfl)).view.read (Elt F) (m (xLoc d))) :
    (iprop(((inA).view.loc (V d (cV L) (jV L)) ↦{fullShare} (inA).view.write (Elt F) fd X Finset.univ)
        ∗ ((xV).view.loc (V d (cV L) (jV L)) ↦[((xV).slice (Rect.unit (s := S10000x16x128) off S16x16x128.size inb) (fun _ => rfl)).view.set]{q} m (xLoc d))) : sProp 𝕄)
      ⊢ iprop(((inA).view.loc (V d (cV L) (jV L)) ↦{fullShare} blockIn m d L b hb)
        ∗ ((xV).view.loc (V d (cV L) (jV L)) ↦[(xSl L b hb).view.set]{q} m (xLoc d))) := by
  subst hoff; subst hX
  rw [show (inA).view.write (Elt F) fd (((xV).slice (Rect.unit (s := S10000x16x128) ![wOff L b + 5904, 0, 0] S16x16x128.size inb) (fun _ => rfl)).view.read (Elt F) (m (xLoc d))) Finset.univ
      = blockIn m d L b hb from View.write_whole_univ _ _ _]

theorem in_deliverB (b : ℕ) (hb : b < 8) (q : PosShare TreeShare) (off : Fin 3 → ℕ) (inb : ∀ a, off a + S16x16x128.size a ≤ S10000x16x128.size a)
    (hoff : off = ![wOff L b + 5904, 0, 0]) (fd : Buf (Elt F) ((V d (cV L) (jV L)).loc cc0_scratch1)) (X : S16x16x128.Idx → Elt F .f32)
    (hX : X = ((xV).slice (Rect.unit (s := S10000x16x128) off S16x16x128.size inb) (fun _ => rfl)).view.read (Elt F) (m (xLoc d))) :
    (iprop(((inB).view.loc (V d (cV L) (jV L)) ↦{fullShare} (inB).view.write (Elt F) fd X Finset.univ)
        ∗ ((xV).view.loc (V d (cV L) (jV L)) ↦[((xV).slice (Rect.unit (s := S10000x16x128) off S16x16x128.size inb) (fun _ => rfl)).view.set]{q} m (xLoc d))) : sProp 𝕄)
      ⊢ iprop(((inB).view.loc (V d (cV L) (jV L)) ↦{fullShare} blockIn m d L b hb)
        ∗ ((xV).view.loc (V d (cV L) (jV L)) ↦[(xSl L b hb).view.set]{q} m (xLoc d))) := by
  subst hoff; subst hX
  rw [show (inB).view.write (Elt F) fd (((xV).slice (Rect.unit (s := S10000x16x128) ![wOff L b + 5904, 0, 0] S16x16x128.size inb) (fun _ => rfl)).view.read (Elt F) (m (xLoc d))) Finset.univ
      = blockIn m d L b hb from View.write_whole_univ _ _ _]

/-- The rest of a slot's share, in the issuing spelling, is the rest in the canonical one. -/
theorem x_rest (b : ℕ) (hb : b < 8) (q : PosShare TreeShare) (off : Fin 3 → ℕ) (inb : ∀ a, off a + S16x16x128.size a ≤ S10000x16x128.size a)
    (hoff : off = ![wOff L b + 5904, 0, 0]) :
    ((xV).view.loc (V d (cV L) (jV L)) ↦[Finset.univ \ ((xV).slice (Rect.unit (s := S10000x16x128) off S16x16x128.size inb) (fun _ => rfl)).view.set]{q} m (xLoc d) : sProp 𝕄)
      ⊢ (xV).view.loc (V d (cV L) (jV L)) ↦[Finset.univ \ (xSl L b hb).view.set]{q} m (xLoc d) := by
  subst hoff; exact BI.Entails.refl _

end Cert.KernelIdeal.Frame

end
-- ==== Proof.DeliverIdeal.lean ====
/-
  What a landed output copy delivers: the result block at the kernel's value.

  The compute pass leaves in the output scratch the function `blockOut` of the input scratch, which held the tile's
  block `b` of the input: rows 5904 + 16·(2s + c) + 512·b + n, n = 0…15. The copy writes that 16 × 4 × 128 array over
  rows 16·(2s + c) + 512·b + n of the kernel's result, and the kernel's value at result row n' is the same tree over
  the squares of input row 5904 + n'.
-/
import proofs.«216336_g7232724927063_cont_9to1_m_658_15_alg».proof.Proof.PairsInvIdeal

noncomputable section

namespace Cert.KernelIdeal.Frame

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg0_scv : Memref Cert.KernelIdeal.sig Kind.scVector Space.hbm Cert.KernelIdeal.S10000x16x128 EltTy.f32)
local notation "oV" => (Memref.whole Cert.KernelIdeal.main_v0_scv : Memref Cert.KernelIdeal.sig Kind.scVector Space.hbm Cert.KernelIdeal.S4096x4x128 EltTy.f32)
local notation "inA" => (Memref.whole Cert.KernelIdeal.cc0_scratch0 : Memref Cert.KernelIdeal.sig Kind.scVector Space.vmem Cert.KernelIdeal.S16x16x128 EltTy.f32)
local notation "inB" => (Memref.whole Cert.KernelIdeal.cc0_scratch1 : Memref Cert.KernelIdeal.sig Kind.scVector Space.vmem Cert.KernelIdeal.S16x16x128 EltTy.f32)
local notation "outA" => (Memref.whole Cert.KernelIdeal.cc0_scratch2 : Memref Cert.KernelIdeal.sig Kind.scVector Space.vmem Cert.KernelIdeal.S16x4x128 EltTy.f32)
local notation "outB" => (Memref.whole Cert.KernelIdeal.cc0_scratch3 : Memref Cert.KernelIdeal.sig Kind.scVector Space.vmem Cert.KernelIdeal.S16x4x128 EltTy.f32)

variable [FloatOps F]

/-- On the tile's result block `b`, the block written from the compute pass's output is the kernel's value. -/
theorem out_value (b : ℕ) (hb : b < 8) (fo : Buf (Elt F) (oLoc d)) (X : S16x4x128.Idx → Elt F .f32)
    (hX : X = blockOut (blockIn m d L b hb)) :
    ∀ i ∈ oSet (blk (cL L) (sL L) ⟨b, hb⟩),
      (oSl L b hb).view.writes (Elt F) fo [(⟨Rect.whole S16x4x128, X⟩ : View.Piece (Elt F) S16x4x128 EltTy.f32)] i = scOut (m (xLoc d)) i := by
  subst hX
  intro i hi
  rw [← oSl_set (L := L) b hb] at hi
  obtain ⟨y, -, rfl⟩ := Finset.mem_map.mp hi
  have h1 := View.read_writes_cons_emb (oSl L b hb).view fo (Rect.whole S16x4x128) (blockOut (blockIn m d L b hb)) [] y
  rw [Rect.emb_whole_apply, View.read_apply] at h1
  rw [cast_eq] at h1
  rw [h1]
  have h0 := L0_lt L
  have hL1 := L1_lt L
  have hy0 : (y 0).val < 16 := (y 0).isLt
  have hy1 : (y 1).val < 4 := (y 1).isLt
  have hy2 : (y 2).val < 128 := (y 2).isLt
  have hw : wOff L b + (y 0).val < 4096 := by unfold wOff; omega
  have hn : wOff L b + (y 0).val + 5904 < 10000 := by omega
  have hemb : (oSl L b hb).view.emb y = (ix3 ⟨wOff L b + (y 0).val, hw⟩ ⟨(y 1).val, hy1⟩ ⟨(y 2).val, hy2⟩ : S4096x4x128.Idx) := by
    funext a
    apply Fin.ext
    show ((oRect L b hb).emb y a : ℕ) = _
    rw [Rect.emb_apply]
    fin_cases a
    · show wOff L b + 1 * (y 0).val = wOff L b + (y 0).val
      omega
    · show 0 + 1 * (y 1).val = (y 1).val
      omega
    · show 0 + 1 * (y 2).val = (y 2).val
      omega
  have hin : ∀ r : Fin 16, blockIn m d L b hb (ix3 (y 0) r (y 2))
      = m (xLoc d) (ix3 ⟨wOff L b + (y 0).val + 5904, hn⟩ r ⟨(y 2).val, hy2⟩) := by
    intro r
    unfold blockIn
    rw [View.read_apply]
    have he : (xSl L b hb).view.emb (ix3 (y 0) r (y 2)) = (ix3 ⟨wOff L b + (y 0).val + 5904, hn⟩ r ⟨(y 2).val, hy2⟩ : S10000x16x128.Idx) := by
      funext a
      apply Fin.ext
      show ((xRect L b hb).emb (ix3 (y 0) r (y 2)) a : ℕ) = _
      rw [Rect.emb_apply]
      fin_cases a
      · show (wOff L b + 5904) + 1 * (y 0).val = wOff L b + (y 0).val + 5904
        omega
      · show 0 + 1 * r.val = r.val
        omega
      · show 0 + 1 * (y 2).val = (y 2).val
        omega
    rw [he]
    rfl
  rw [hemb]
  show tree4 (fun r => FloatOps.mulf (blockIn m d L b hb (ix3 (y 0) r (y 2))) (blockIn m d L b hb (ix3 (y 0) r (y 2)))) (y 1)
    = tree4 (sqAt (m (xLoc d)) ⟨wOff L b + (y 0).val + 5904, hn⟩ ⟨(y 2).val, hy2⟩) ⟨(y 1).val, hy1⟩
  rw [show (fun r => FloatOps.mulf (blockIn m d L b hb (ix3 (y 0) r (y 2))) (blockIn m d L b hb (ix3 (y 0) r (y 2))))
      = sqAt (m (xLoc d)) ⟨wOff L b + (y 0).val + 5904, hn⟩ ⟨(y 2).val, hy2⟩ from funext fun r => by rw [hin r]; rfl]
  rfl

theorem out_deliverA (b : ℕ) (hb : b < 8) (off : Fin 3 → ℕ) (inb : ∀ a, off a + S16x4x128.size a ≤ S4096x4x128.size a)
    (hoff : off = ![wOff L b, 0, 0]) (X : S16x4x128.Idx → Elt F .f32) (hX : X = blockOut (blockIn m d L b hb)) :
    (iprop((((oV).slice (Rect.unit (s := S4096x4x128) off S16x4x128.size inb) (fun _ => rfl)).view.loc (V d (cV L) (jV L))
          ↦[((oV).slice (Rect.unit (s := S4096x4x128) off S16x4x128.size inb) (fun _ => rfl)).view.set]{fullShare}
            ((oV).slice (Rect.unit (s := S4096x4x128) off S16x4x128.size inb) (fun _ => rfl)).view.writes (Elt F) (m (oLoc d))
              [(⟨Rect.whole S16x4x128, X⟩ : View.Piece (Elt F) S16x4x128 EltTy.f32)])
        ∗ ((outA).view.loc (V d (cV L) (jV L)) ↦[(outA).view.set]{fullShare} blockOut (blockIn m d L b hb))) : sProp 𝕄)
      ⊢ iprop(oFin m d L ⟨b, hb⟩ ∗ ((outA).view.loc (V d (cV L) (jV L)) ↦{fullShare} blockOut (blockIn m d L b hb))) := by
  subst hoff
  iintro ⟨Hd, Hs⟩
  isplitl [Hd]
  · iapply (Entails.of_eq (pointsTo_congr (out_value m d L b hb (m (oLoc d)) X hX)))
    iapply (Entails.of_eq (pts_oblk (F := F) d L b hb fullShare _))
    iexact Hd
  · iapply (Entails.of_eq (show ((outA).view.loc (V d (cV L) (jV L)) ↦[(outA).view.set]{fullShare} blockOut (blockIn m d L b hb) : sProp 𝕄)
        = (outA).view.loc (V d (cV L) (jV L)) ↦{fullShare} blockOut (blockIn m d L b hb) by simp only [Memref.view_whole, View.set_whole]))
    iexact Hs

theorem out_deliverB (b : ℕ) (hb : b < 8) (off : Fin 3 → ℕ) (inb : ∀ a, off a + S16x4x128.size a ≤ S4096x4x128.size a)
    (hoff : off = ![wOff L b, 0, 0]) (X : S16x4x128.Idx → Elt F .f32) (hX : X = blockOut (blockIn m d L b hb)) :
    (iprop((((oV).slice (Rect.unit (s := S4096x4x128) off S16x4x128.size inb) (fun _ => rfl)).view.loc (V d (cV L) (jV L))
          ↦[((oV).slice (Rect.unit (s := S4096x4x128) off S16x4x128.size inb) (fun _ => rfl)).view.set]{fullShare}
            ((oV).slice (Rect.unit (s := S4096x4x128) off S16x4x128.size inb) (fun _ => rfl)).view.writes (Elt F) (m (oLoc d))
              [(⟨Rect.whole S16x4x128, X⟩ : View.Piece (Elt F) S16x4x128 EltTy.f32)])
        ∗ ((outB).view.loc (V d (cV L) (jV L)) ↦[(outB).view.set]{fullShare} blockOut (blockIn m d L b hb))) : sProp 𝕄)
      ⊢ iprop(oFin m d L ⟨b, hb⟩ ∗ ((outB).view.loc (V d (cV L) (jV L)) ↦{fullShare} blockOut (blockIn m d L b hb))) := by
  subst hoff
  iintro ⟨Hd, Hs⟩
  isplitl [Hd]
  · iapply (Entails.of_eq (pointsTo_congr (out_value m d L b hb (m (oLoc d)) X hX)))
    iapply (Entails.of_eq (pts_oblk (F := F) d L b hb fullShare _))
    iexact Hd
  · iapply (Entails.of_eq (show ((outB).view.loc (V d (cV L) (jV L)) ↦[(outB).view.set]{fullShare} blockOut (blockIn m d L b hb) : sProp 𝕄)
        = (outB).view.loc (V d (cV L) (jV L)) ↦{fullShare} blockOut (blockIn m d L b hb) by simp only [Memref.view_whole, View.set_whole]))
    iexact Hs

end Cert.KernelIdeal.Frame

end
-- ==== Proof.PairsStepIdeal.lean ====
/-
  One trip of the pairs loop keeps the invariant.

  Trip k waits for input block 2k in slot A, waits (when k > 0) for the previous output copy of slot A to have left,
  runs the compute pass from slot A's input scratch into its output scratch, starts the copy of that scratch out to
  result block 2k, and (when k < 3) starts the copy of input block 2k + 2 into slot A; then the same for slot B with
  blocks 2k + 1 and 2k + 3. A copy's source or destination is never touched between its start and its wait: each
  slot has its own completion cell, and at most one copy per cell is on its way. The three cases (first, middle,
  last trip) differ only in which of the two tests hold, decided for every tile and trip at once.
  The compute pass's one step is a hypothesis here, so that this module does not depend on its proof.
-/
import proofs.«216336_g7232724927063_cont_9to1_m_658_15_alg».proof.Proof.PairsInvIdeal
import proofs.«216336_g7232724927063_cont_9to1_m_658_15_alg».proof.Proof.DeliverIdeal

noncomputable section

namespace Cert.KernelIdeal.Frame

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg0_scv : Memref Cert.KernelIdeal.sig Kind.scVector Space.hbm Cert.KernelIdeal.S10000x16x128 EltTy.f32)
local notation "oV" => (Memref.whole Cert.KernelIdeal.main_v0_scv : Memref Cert.KernelIdeal.sig Kind.scVector Space.hbm Cert.KernelIdeal.S4096x4x128 EltTy.f32)
local notation "inA" => (Memref.whole Cert.KernelIdeal.cc0_scratch0 : Memref Cert.KernelIdeal.sig Kind.scVector Space.vmem Cert.KernelIdeal.S16x16x128 EltTy.f32)
local notation "inB" => (Memref.whole Cert.KernelIdeal.cc0_scratch1 : Memref Cert.KernelIdeal.sig Kind.scVector Space.vmem Cert.KernelIdeal.S16x16x128 EltTy.f32)
local notation "outA" => (Memref.whole Cert.KernelIdeal.cc0_scratch2 : Memref Cert.KernelIdeal.sig Kind.scVector Space.vmem Cert.KernelIdeal.S16x4x128 EltTy.f32)
local notation "outB" => (Memref.whole Cert.KernelIdeal.cc0_scratch3 : Memref Cert.KernelIdeal.sig Kind.scVector Space.vmem Cert.KernelIdeal.S16x4x128 EltTy.f32)

variable [FloatOps F]

/-! ## The loop counter's tests and the body's offsets, for every tile and trip -/

theorem cond_pos : ∀ (L : grid0.Coords) (k : Fin (k0_t1_loop L).trips), 0 < k.val →
    Scalar.cmpi .ne (Scalar.extui (Scalar.cmpi .sgt (Scf.iv 0#32 1#32 k) 0#32)) 0#32 = 1#1 := by decide +kernel
theorem cond_zero : ∀ (L : grid0.Coords) (k : Fin (k0_t1_loop L).trips), k.val = 0 →
    ¬ Scalar.cmpi .ne (Scalar.extui (Scalar.cmpi .sgt (Scf.iv 0#32 1#32 k) 0#32)) 0#32 = 1#1 := by decide +kernel
theorem cond2_lt : ∀ (L : grid0.Coords) (k : Fin (k0_t1_loop L).trips), k.val < 3 → k0_cond2 L k = 1#1 := by decide +kernel
theorem cond4_lt : ∀ (L : grid0.Coords) (k : Fin (k0_t1_loop L).trips), k.val < 3 → k0_cond4 L k = 1#1 := by decide +kernel
theorem cond2_last : ∀ (L : grid0.Coords) (k : Fin (k0_t1_loop L).trips), ¬ k.val < 3 → ¬ k0_cond2 L k = 1#1 := by decide +kernel
theorem cond4_last : ∀ (L : grid0.Coords) (k : Fin (k0_t1_loop L).trips), ¬ k.val < 3 → ¬ k0_cond4 L k = 1#1 := by decide +kernel

theorem off162_eq' (k : Fin (k0_t1_loop L).trips) (b : ℕ) (hbk : b = 2 * k.val) : k0_off162 L k = ![wOff L b, 0, 0] := by
  subst hbk; rw [k0_off162_eq]; simp [wOff] <;> ring_nf
theorem off324_eq' (k : Fin (k0_t1_loop L).trips) (b : ℕ) (hbk : b = 2 * k.val + 1) : k0_off324 L k = ![wOff L b, 0, 0] := by
  subst hbk; rw [k0_off324_eq]; simp [wOff] <;> ring_nf
theorem off163_eq' (k : Fin (k0_t1_loop L).trips) (b : ℕ) (hbk : b = 2 * k.val + 2) : k0_off163 L k = ![wOff L b + 5904, 0, 0] := by
  subst hbk; rw [k0_off163_eq]; simp [wOff] <;> ring_nf
theorem off325_eq' (k : Fin (k0_t1_loop L).trips) (b : ℕ) (hbk : b = 2 * k.val + 3) : k0_off325 L k = ![wOff L b + 5904, 0, 0] := by
  subst hbk; rw [k0_off325_eq]; simp [wOff] <;> ring_nf
theorem off1_eq' (r : Fin 2) : k0_off1 L (BitVec.ofNat 32 (32 * r.val)) = ![wOff L r.val + 5904, 0, 0] := by
  rw [k0_off1_eq]; simp [wOff] <;> ring_nf

/-- A result block of the tile, untouched, in any spelling of its offsets. -/
theorem oblock_spell (b : ℕ) (hb : b < 8) (off : Fin 3 → ℕ) (inb : ∀ a, off a + S16x4x128.size a ≤ S4096x4x128.size a)
    (hoff : off = ![wOff L b, 0, 0]) (q : PosShare TreeShare) (f : Buf (Elt F) (oLoc d)) :
    (oLoc d ↦[oSet (blk (cL L) (sL L) ⟨b, hb⟩)]{q} f : sProp 𝕄)
      = ((oV).slice (Rect.unit (s := S4096x4x128) off S16x4x128.size inb) (fun _ => rfl)).view.loc (V d (cV L) (jV L))
          ↦[((oV).slice (Rect.unit (s := S4096x4x128) off S16x4x128.size inb) (fun _ => rfl)).view.set]{q} f := by
  subst hoff; exact (pts_oblk d L b hb q f).symm

/-! ## One trip of the pairs loop: a middle trip, the first, the last -/

set_option maxHeartbeats 1600000 in
theorem trip_mid
    (hstepA : ∀ (fin : Buf (Elt F) ((V d (cV L) (jV L)).loc cc0_scratch0)) (g0 : Buf (Elt F) ((V d (cV L) (jV L)).loc cc0_scratch2)) (a b c0 c1 : BitVec 32) (k1 : Fin (k0_t1_loop L).trips) (n : Fin k0_t2_loop.trips),
      (iprop(((inA).view.loc (V d (cV L) (jV L)) ↦{fullShare} fin) ∗ ((outA).view.loc (V d (cV L) (jV L)) ↦{fullShare} outAt fin g0 n.val)) : sProp 𝕄)
        ⊢ wp frame (wpE (defs₀ (F := F)) 𝒱₀ (V d (cV L) (jV L)) none) Set.univ
            (k0_t2_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 a b c0 c1 k1 n ⟨⟩)
            fun _ => iprop(((inA).view.loc (V d (cV L) (jV L)) ↦{fullShare} fin) ∗ ((outA).view.loc (V d (cV L) (jV L)) ↦{fullShare} outAt fin g0 (n.val + 1))))
    (hstepB : ∀ (fin : Buf (Elt F) ((V d (cV L) (jV L)).loc cc0_scratch1)) (g0 : Buf (Elt F) ((V d (cV L) (jV L)).loc cc0_scratch3)) (n : Fin k0_t3_loop.trips),
      (iprop(((inB).view.loc (V d (cV L) (jV L)) ↦{fullShare} fin) ∗ ((outB).view.loc (V d (cV L) (jV L)) ↦{fullShare} outAt fin g0 n.val)) : sProp 𝕄)
        ⊢ wp frame (wpE (defs₀ (F := F)) 𝒱₀ (V d (cV L) (jV L)) none) Set.univ
            (k0_t3_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 n ⟨⟩)
            fun _ => iprop(((inB).view.loc (V d (cV L) (jV L)) ↦{fullShare} fin) ∗ ((outB).view.loc (V d (cV L) (jV L)) ↦{fullShare} outAt fin g0 (n.val + 1))))
    (O : CellTallies nD τ sig (HIx 1)) (W : Waits sig (HIx 1)) (v1 v21 : BitVec 32)
    (k : Fin (k0_t1_loop L).trips) (hk0 : 0 < k.val) (hk3 : k.val < 3) :
    pairsInv m d L O W k.val ⟨⟩
      ⊢ wp frame (wpE (defs₀ (F := F)) 𝒱₀ (V d (cV L) (jV L)) none) Set.univ
          (k0_t1_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7 v1 v21 k ⟨⟩)
          fun _ => pairsInv m d L O W (k.val + 1) ⟨⟩ := by
  have hk4 : k.val < 4 := by omega
  have hk4' : k.val + 1 < 4 := by omega
  have hpre : 0 < k.val ∧ k.val ≤ 4 := by omega
  have hpost : 0 < k.val + 1 ∧ k.val + 1 ≤ 4 := by omega
  have hb0 : 2 * k.val < 8 := by omega
  have hb1 : 2 * k.val + 1 < 8 := by omega
  have e16a : Scf.trips k0_t2_loop.lb k0_t2_loop.ub k0_t2_loop.st = 16 := by decide
  have e16b : Scf.trips k0_t3_loop.lb k0_t3_loop.ub k0_t3_loop.st = 16 := by decide
  have eA : (⟨2 * (k.val + 1) - 2, by omega⟩ : Fin 8) = ⟨2 * k.val, hb0⟩ := Fin.ext (by show 2 * (k.val + 1) - 2 = 2 * k.val; omega)
  have eB : (⟨2 * (k.val + 1) - 1, by omega⟩ : Fin 8) = ⟨2 * k.val + 1, hb1⟩ := Fin.ext (by show 2 * (k.val + 1) - 1 = 2 * k.val + 1; omega)
  have k0_h1 := cond_pos L k hk0
  have k0_h2 := cond2_lt L k hk3
  have k0_h4 := cond4_lt L k hk3
  unfold pairsInv inPartA inPartB outPartA outPartB
  simp only [dif_pos hk4, dif_pos hk4', dif_pos hpre, dif_pos hpost]
  rw [todo_succ m d L k.val hk4, landed_succ m d L k.val hk0 (by omega)]
  unfold inFlA inFlB outFlA outFlB
  rw [eA, eB]
  unfold k0_t1_body
  iintro ⟨#Hmw, ⟨HfIA, Hxa⟩, ⟨HfIB, Hxb⟩, ⟨%ga, HfOA⟩, ⟨%gb, HfOB⟩, ⟨Hob0, Hob1, Htodo⟩, Hland, ⟨%W', %hW', HO⟩⟩
  ihave Hob0' := (Entails.of_eq (oblock_spell (F := F) d L (2 * k.val) hb0 (k0_off162 L k) (k0_off162_inb L k) (off162_eq' L k _ rfl) fullShare (m (oLoc d)))) $$ Hob0
  ihave Hob1' := (Entails.of_eq (oblock_spell (F := F) d L (2 * k.val + 1) hb1 (k0_off324 L k) (k0_off324_inb L k) (off324_eq' L k _ rfl) fullShare (m (oLoc d)))) $$ Hob1
  sl_exec_parts
  sl_for (fun (n : ℕ) (_ : PUnit) => (iprop(((inA).view.loc (V d (cV L) (jV L)) ↦{fullShare} blockIn m d L (2 * k.val) hb0)
      ∗ ((outA).view.loc (V d (cV L) (jV L)) ↦{fullShare} outAt (blockIn m d L (2 * k.val) hb0) ga n)) : sProp 𝕄)) $$ [HfIA_dst HfOA_src]
  case region => intro n acc; exact hstepA _ _ _ _ _ _ k n
  · rw [outAt_zero]
    isplitl [HfIA_dst]; · iexact HfIA_dst
    iexact HfOA_src
  iintro %_ HI
  rw [e16a, outAt_full]
  icases HI with ⟨HfIA_dst, HfOA_src⟩
  sl_exec_parts
  sl_for (fun (n : ℕ) (_ : PUnit) => (iprop(((inB).view.loc (V d (cV L) (jV L)) ↦{fullShare} blockIn m d L (2 * k.val + 1) hb1)
      ∗ ((outB).view.loc (V d (cV L) (jV L)) ↦{fullShare} outAt (blockIn m d L (2 * k.val + 1) hb1) gb n)) : sProp 𝕄)) $$ [HfIB_dst HfOB_src]
  case region => intro n acc; exact hstepB _ _ n
  · rw [outAt_zero]
    isplitl [HfIB_dst]; · iexact HfIB_dst
    iexact HfOB_src
  iintro %_ HI
  rw [e16b, outAt_full]
  icases HI with ⟨HfIB_dst, HfOB_src⟩
  sl_exec_parts
  sl_step
  isplitr; · iexact Hmw
  isplitl [HfIA Hxa]
  · isplitl [HfIA]
    · iapply (Transfers.Flight_mono countersEmb _ (in_deliverA m d L (2 * (k.val + 1)) _ (tokA L) (k0_off163 L k) (k0_off163_inb L k k0_h2) (off163_eq' L k _ (by omega)) _ _ rfl))
      iexact HfIA
    · iapply (x_rest m d L (2 * (k.val + 1)) _ (tokA L) (k0_off163 L k) (k0_off163_inb L k k0_h2) (off163_eq' L k _ (by omega)))
      iexact Hxa
  isplitl [HfIB Hxb]
  · isplitl [HfIB]
    · iapply (Transfers.Flight_mono countersEmb _ (in_deliverB m d L (2 * (k.val + 1) + 1) _ (tokB L) (k0_off325 L k) (k0_off325_inb L k k0_h4) (off325_eq' L k _ (by omega)) _ _ rfl))
      iexact HfIB
    · iapply (x_rest m d L (2 * (k.val + 1) + 1) _ (tokB L) (k0_off325 L k) (k0_off325_inb L k k0_h4) (off325_eq' L k _ (by omega)))
      iexact Hxb
  isplitl [HfOA HfOA_src]
  · iexists (blockOut (blockIn m d L (2 * k.val) hb0))
    iclear HfOA_src
    iapply (Transfers.Flight_mono countersEmb _ (out_deliverA m d L (2 * k.val) hb0 (k0_off162 L k) (k0_off162_inb L k) (off162_eq' L k _ rfl) _ rfl))
    iexact HfOA
  isplitl [HfOB HfOB_src]
  · iexists (blockOut (blockIn m d L (2 * k.val + 1) hb1))
    iclear HfOB_src
    iapply (Transfers.Flight_mono countersEmb _ (out_deliverB m d L (2 * k.val + 1) hb1 (k0_off324 L k) (k0_off324_inb L k) (off324_eq' L k _ rfl) _ rfl))
    iexact HfOB
  isplitl [Htodo]; · iexact Htodo
  isplitl [HfOA_dst HfOB_dst Hland]
  · isplitl [HfOA_dst]; · iexact HfOA_dst
    isplitl [HfOB_dst]; · iexact HfOB_dst
    iexact Hland
  iexists _; isplitr
  swap
  · iexact HO
  · ipureintro
    intro p hp
    simp only [Finset.mem_insert] at hp
    rcases hp with rfl | rfl | rfl | rfl | hp
    · exact .inr rfl
    · exact .inr rfl
    · exact .inr rfl
    · exact .inr rfl
    · exact hW' p hp

set_option maxHeartbeats 1600000 in
theorem trip_first
    (hstepA : ∀ (fin : Buf (Elt F) ((V d (cV L) (jV L)).loc cc0_scratch0)) (g0 : Buf (Elt F) ((V d (cV L) (jV L)).loc cc0_scratch2)) (a b c0 c1 : BitVec 32) (k1 : Fin (k0_t1_loop L).trips) (n : Fin k0_t2_loop.trips),
      (iprop(((inA).view.loc (V d (cV L) (jV L)) ↦{fullShare} fin) ∗ ((outA).view.loc (V d (cV L) (jV L)) ↦{fullShare} outAt fin g0 n.val)) : sProp 𝕄)
        ⊢ wp frame (wpE (defs₀ (F := F)) 𝒱₀ (V d (cV L) (jV L)) none) Set.univ
            (k0_t2_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 a b c0 c1 k1 n ⟨⟩)
            fun _ => iprop(((inA).view.loc (V d (cV L) (jV L)) ↦{fullShare} fin) ∗ ((outA).view.loc (V d (cV L) (jV L)) ↦{fullShare} outAt fin g0 (n.val + 1))))
    (hstepB : ∀ (fin : Buf (Elt F) ((V d (cV L) (jV L)).loc cc0_scratch1)) (g0 : Buf (Elt F) ((V d (cV L) (jV L)).loc cc0_scratch3)) (n : Fin k0_t3_loop.trips),
      (iprop(((inB).view.loc (V d (cV L) (jV L)) ↦{fullShare} fin) ∗ ((outB).view.loc (V d (cV L) (jV L)) ↦{fullShare} outAt fin g0 n.val)) : sProp 𝕄)
        ⊢ wp frame (wpE (defs₀ (F := F)) 𝒱₀ (V d (cV L) (jV L)) none) Set.univ
            (k0_t3_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 n ⟨⟩)
            fun _ => iprop(((inB).view.loc (V d (cV L) (jV L)) ↦{fullShare} fin) ∗ ((outB).view.loc (V d (cV L) (jV L)) ↦{fullShare} outAt fin g0 (n.val + 1))))
    (O : CellTallies nD τ sig (HIx 1)) (W : Waits sig (HIx 1)) (v1 v21 : BitVec 32)
    (k : Fin (k0_t1_loop L).trips) (hk0 : k.val = 0) :
    pairsInv m d L O W k.val ⟨⟩
      ⊢ wp frame (wpE (defs₀ (F := F)) 𝒱₀ (V d (cV L) (jV L)) none) Set.univ
          (k0_t1_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7 v1 v21 k ⟨⟩)
          fun _ => pairsInv m d L O W (k.val + 1) ⟨⟩ := by
  have hk4 : k.val < 4 := by omega
  have hk4' : k.val + 1 < 4 := by omega
  have hk3 : k.val < 3 := by omega
  have hpre : ¬ (0 < k.val ∧ k.val ≤ 4) := by omega
  have hpost : 0 < k.val + 1 ∧ k.val + 1 ≤ 4 := by omega
  have hb0 : 2 * k.val < 8 := by omega
  have hb1 : 2 * k.val + 1 < 8 := by omega
  have e16a : Scf.trips k0_t2_loop.lb k0_t2_loop.ub k0_t2_loop.st = 16 := by decide
  have e16b : Scf.trips k0_t3_loop.lb k0_t3_loop.ub k0_t3_loop.st = 16 := by decide
  have eA : (⟨2 * (k.val + 1) - 2, by omega⟩ : Fin 8) = ⟨2 * k.val, hb0⟩ := Fin.ext (by show 2 * (k.val + 1) - 2 = 2 * k.val; omega)
  have eB : (⟨2 * (k.val + 1) - 1, by omega⟩ : Fin 8) = ⟨2 * k.val + 1, hb1⟩ := Fin.ext (by show 2 * (k.val + 1) - 1 = 2 * k.val + 1; omega)
  have k0_h1 := cond_zero L k hk0
  have k0_h2 := cond2_lt L k hk3
  have k0_h4 := cond4_lt L k hk3
  unfold pairsInv inPartA inPartB outPartA outPartB
  simp only [dif_pos hk4, dif_pos hk4', dif_neg hpre, dif_pos hpost]
  rw [todo_succ m d L k.val hk4, landed_low m d L k.val (by omega), landed_low m d L (k.val + 1) (by omega)]
  unfold inFlA inFlB outFlA outFlB outIdleA outIdleB
  rw [eA, eB]
  unfold k0_t1_body
  iintro ⟨#Hmw, ⟨HfIA, Hxa⟩, ⟨HfIB, Hxb⟩, ⟨%ga, HfOA, HfOA_src⟩, ⟨%gb, HfOB, HfOB_src⟩, ⟨Hob0, Hob1, Htodo⟩, -, ⟨%W', %hW', HO⟩⟩
  ihave Hob0' := (Entails.of_eq (oblock_spell (F := F) d L (2 * k.val) hb0 (k0_off162 L k) (k0_off162_inb L k) (off162_eq' L k _ rfl) fullShare (m (oLoc d)))) $$ Hob0
  ihave Hob1' := (Entails.of_eq (oblock_spell (F := F) d L (2 * k.val + 1) hb1 (k0_off324 L k) (k0_off324_inb L k) (off324_eq' L k _ rfl) fullShare (m (oLoc d)))) $$ Hob1
  sl_exec_parts
  sl_for (fun (n : ℕ) (_ : PUnit) => (iprop(((inA).view.loc (V d (cV L) (jV L)) ↦{fullShare} blockIn m d L (2 * k.val) hb0)
      ∗ ((outA).view.loc (V d (cV L) (jV L)) ↦{fullShare} outAt (blockIn m d L (2 * k.val) hb0) ga n)) : sProp 𝕄)) $$ [HfIA_dst HfOA_src]
  case region => intro n acc; exact hstepA _ _ _ _ _ _ k n
  · rw [outAt_zero]
    isplitl [HfIA_dst]; · iexact HfIA_dst
    iexact HfOA_src
  iintro %_ HI
  rw [e16a, outAt_full]
  icases HI with ⟨HfIA_dst, HfOA_src⟩
  sl_exec_parts
  sl_for (fun (n : ℕ) (_ : PUnit) => (iprop(((inB).view.loc (V d (cV L) (jV L)) ↦{fullShare} blockIn m d L (2 * k.val + 1) hb1)
      ∗ ((outB).view.loc (V d (cV L) (jV L)) ↦{fullShare} outAt (blockIn m d L (2 * k.val + 1) hb1) gb n)) : sProp 𝕄)) $$ [HfIB_dst HfOB_src]
  case region => intro n acc; exact hstepB _ _ n
  · rw [outAt_zero]
    isplitl [HfIB_dst]; · iexact HfIB_dst
    iexact HfOB_src
  iintro %_ HI
  rw [e16b, outAt_full]
  icases HI with ⟨HfIB_dst, HfOB_src⟩
  sl_exec_parts
  sl_step
  isplitr; · iexact Hmw
  isplitl [HfIA Hxa]
  · isplitl [HfIA]
    · iapply (Transfers.Flight_mono countersEmb _ (in_deliverA m d L (2 * (k.val + 1)) _ (tokA L) (k0_off163 L k) (k0_off163_inb L k k0_h2) (off163_eq' L k _ (by omega)) _ _ rfl))
      iexact HfIA
    · iapply (x_rest m d L (2 * (k.val + 1)) _ (tokA L) (k0_off163 L k) (k0_off163_inb L k k0_h2) (off163_eq' L k _ (by omega)))
      iexact Hxa
  isplitl [HfIB Hxb]
  · isplitl [HfIB]
    · iapply (Transfers.Flight_mono countersEmb _ (in_deliverB m d L (2 * (k.val + 1) + 1) _ (tokB L) (k0_off325 L k) (k0_off325_inb L k k0_h4) (off325_eq' L k _ (by omega)) _ _ rfl))
      iexact HfIB
    · iapply (x_rest m d L (2 * (k.val + 1) + 1) _ (tokB L) (k0_off325 L k) (k0_off325_inb L k k0_h4) (off325_eq' L k _ (by omega)))
      iexact Hxb
  isplitl [HfOA HfOA_src]
  · iexists (blockOut (blockIn m d L (2 * k.val) hb0))
    iclear HfOA_src
    iapply (Transfers.Flight_mono countersEmb _ (out_deliverA m d L (2 * k.val) hb0 (k0_off162 L k) (k0_off162_inb L k) (off162_eq' L k _ rfl) _ rfl))
    iexact HfOA
  isplitl [HfOB HfOB_src]
  · iexists (blockOut (blockIn m d L (2 * k.val + 1) hb1))
    iclear HfOB_src
    iapply (Transfers.Flight_mono countersEmb _ (out_deliverB m d L (2 * k.val + 1) hb1 (k0_off324 L k) (k0_off324_inb L k) (off324_eq' L k _ rfl) _ rfl))
    iexact HfOB
  isplitl [Htodo]; · iexact Htodo
  isplitr; · iempintro
  iexists _; isplitr
  swap
  · iexact HO
  · ipureintro
    intro p hp
    simp only [Finset.mem_insert] at hp
    rcases hp with rfl | rfl | hp
    · exact .inr rfl
    · exact .inr rfl
    · exact hW' p hp

set_option maxHeartbeats 1600000 in
theorem trip_last
    (hstepA : ∀ (fin : Buf (Elt F) ((V d (cV L) (jV L)).loc cc0_scratch0)) (g0 : Buf (Elt F) ((V d (cV L) (jV L)).loc cc0_scratch2)) (a b c0 c1 : BitVec 32) (k1 : Fin (k0_t1_loop L).trips) (n : Fin k0_t2_loop.trips),
      (iprop(((inA).view.loc (V d (cV L) (jV L)) ↦{fullShare} fin) ∗ ((outA).view.loc (V d (cV L) (jV L)) ↦{fullShare} outAt fin g0 n.val)) : sProp 𝕄)
        ⊢ wp frame (wpE (defs₀ (F := F)) 𝒱₀ (V d (cV L) (jV L)) none) Set.univ
            (k0_t2_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 a b c0 c1 k1 n ⟨⟩)
            fun _ => iprop(((inA).view.loc (V d (cV L) (jV L)) ↦{fullShare} fin) ∗ ((outA).view.loc (V d (cV L) (jV L)) ↦{fullShare} outAt fin g0 (n.val + 1))))
    (hstepB : ∀ (fin : Buf (Elt F) ((V d (cV L) (jV L)).loc cc0_scratch1)) (g0 : Buf (Elt F) ((V d (cV L) (jV L)).loc cc0_scratch3)) (n : Fin k0_t3_loop.trips),
      (iprop(((inB).view.loc (V d (cV L) (jV L)) ↦{fullShare} fin) ∗ ((outB).view.loc (V d (cV L) (jV L)) ↦{fullShare} outAt fin g0 n.val)) : sProp 𝕄)
        ⊢ wp frame (wpE (defs₀ (F := F)) 𝒱₀ (V d (cV L) (jV L)) none) Set.univ
            (k0_t3_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 n ⟨⟩)
            fun _ => iprop(((inB).view.loc (V d (cV L) (jV L)) ↦{fullShare} fin) ∗ ((outB).view.loc (V d (cV L) (jV L)) ↦{fullShare} outAt fin g0 (n.val + 1))))
    (O : CellTallies nD τ sig (HIx 1)) (W : Waits sig (HIx 1)) (v1 v21 : BitVec 32)
    (k : Fin (k0_t1_loop L).trips) (hk3 : ¬ k.val < 3) :
    pairsInv m d L O W k.val ⟨⟩
      ⊢ wp frame (wpE (defs₀ (F := F)) 𝒱₀ (V d (cV L) (jV L)) none) Set.univ
          (k0_t1_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7 v1 v21 k ⟨⟩)
          fun _ => pairsInv m d L O W (k.val + 1) ⟨⟩ := by
  have hk4 : k.val < 4 := lt_of_lt_of_eq k.isLt (t1_trips L)
  have hk0 : 0 < k.val := by omega
  have hk4' : ¬ k.val + 1 < 4 := by omega
  have hpre : 0 < k.val ∧ k.val ≤ 4 := by omega
  have hpost : 0 < k.val + 1 ∧ k.val + 1 ≤ 4 := by omega
  have hb0 : 2 * k.val < 8 := by omega
  have hb1 : 2 * k.val + 1 < 8 := by omega
  have e16a : Scf.trips k0_t2_loop.lb k0_t2_loop.ub k0_t2_loop.st = 16 := by decide
  have e16b : Scf.trips k0_t3_loop.lb k0_t3_loop.ub k0_t3_loop.st = 16 := by decide
  have eA : (⟨2 * (k.val + 1) - 2, by omega⟩ : Fin 8) = ⟨2 * k.val, hb0⟩ := Fin.ext (by show 2 * (k.val + 1) - 2 = 2 * k.val; omega)
  have eB : (⟨2 * (k.val + 1) - 1, by omega⟩ : Fin 8) = ⟨2 * k.val + 1, hb1⟩ := Fin.ext (by show 2 * (k.val + 1) - 1 = 2 * k.val + 1; omega)
  have k0_h1 := cond_pos L k hk0
  have k0_h2 := cond2_last L k hk3
  have k0_h4 := cond4_last L k hk3
  unfold pairsInv inPartA inPartB outPartA outPartB
  simp only [dif_pos hk4, dif_neg hk4', dif_pos hpre, dif_pos hpost]
  rw [todo_succ m d L k.val hk4, landed_succ m d L k.val hk0 (by omega)]
  unfold inFlA inFlB outFlA outFlB inIdleA inIdleB
  rw [eA, eB]
  unfold k0_t1_body
  iintro ⟨#Hmw, ⟨HfIA, Hxa⟩, ⟨HfIB, Hxb⟩, ⟨%ga, HfOA⟩, ⟨%gb, HfOB⟩, ⟨Hob0, Hob1, Htodo⟩, Hland, ⟨%W', %hW', HO⟩⟩
  ihave Hob0' := (Entails.of_eq (oblock_spell (F := F) d L (2 * k.val) hb0 (k0_off162 L k) (k0_off162_inb L k) (off162_eq' L k _ rfl) fullShare (m (oLoc d)))) $$ Hob0
  ihave Hob1' := (Entails.of_eq (oblock_spell (F := F) d L (2 * k.val + 1) hb1 (k0_off324 L k) (k0_off324_inb L k) (off324_eq' L k _ rfl) fullShare (m (oLoc d)))) $$ Hob1
  sl_exec_parts
  sl_for (fun (n : ℕ) (_ : PUnit) => (iprop(((inA).view.loc (V d (cV L) (jV L)) ↦{fullShare} blockIn m d L (2 * k.val) hb0)
      ∗ ((outA).view.loc (V d (cV L) (jV L)) ↦{fullShare} outAt (blockIn m d L (2 * k.val) hb0) ga n)) : sProp 𝕄)) $$ [HfIA_dst HfOA_src]
  case region => intro n acc; exact hstepA _ _ _ _ _ _ k n
  · rw [outAt_zero]
    isplitl [HfIA_dst]; · iexact HfIA_dst
    iexact HfOA_src
  iintro %_ HI
  rw [e16a, outAt_full]
  icases HI with ⟨HfIA_dst, HfOA_src⟩
  sl_exec_parts
  sl_for (fun (n : ℕ) (_ : PUnit) => (iprop(((inB).view.loc (V d (cV L) (jV L)) ↦{fullShare} blockIn m d L (2 * k.val + 1) hb1)
      ∗ ((outB).view.loc (V d (cV L) (jV L)) ↦{fullShare} outAt (blockIn m d L (2 * k.val + 1) hb1) gb n)) : sProp 𝕄)) $$ [HfIB_dst HfOB_src]
  case region => intro n acc; exact hstepB _ _ n
  · rw [outAt_zero]
    isplitl [HfIB_dst]; · iexact HfIB_dst
    iexact HfOB_src
  iintro %_ HI
  rw [e16b, outAt_full]
  icases HI with ⟨HfIB_dst, HfOB_src⟩
  sl_exec_parts
  sl_step
  isplitr; · iexact Hmw
  isplitl [HfIA HfIA_dst Hxa]
  · isplitl [HfIA]; · iexact HfIA
    isplitl [HfIA_dst]; · iexists _; iexact HfIA_dst
    iexact Hxa
  isplitl [HfIB HfIB_dst Hxb]
  · isplitl [HfIB]; · iexact HfIB
    isplitl [HfIB_dst]; · iexists _; iexact HfIB_dst
    iexact Hxb
  isplitl [HfOA HfOA_src]
  · iexists (blockOut (blockIn m d L (2 * k.val) hb0))
    iclear HfOA_src
    iapply (Transfers.Flight_mono countersEmb _ (out_deliverA m d L (2 * k.val) hb0 (k0_off162 L k) (k0_off162_inb L k) (off162_eq' L k _ rfl) _ rfl))
    iexact HfOA
  isplitl [HfOB HfOB_src]
  · iexists (blockOut (blockIn m d L (2 * k.val + 1) hb1))
    iclear HfOB_src
    iapply (Transfers.Flight_mono countersEmb _ (out_deliverB m d L (2 * k.val + 1) hb1 (k0_off324 L k) (k0_off324_inb L k) (off324_eq' L k _ rfl) _ rfl))
    iexact HfOB
  isplitl [Htodo]; · iexact Htodo
  isplitl [HfOA_dst HfOB_dst Hland]
  · isplitl [HfOA_dst]; · iexact HfOA_dst
    isplitl [HfOB_dst]; · iexact HfOB_dst
    iexact Hland
  iexists _; isplitr
  swap
  · iexact HO
  · ipureintro
    intro p hp
    simp only [Finset.mem_insert] at hp
    rcases hp with rfl | rfl | rfl | rfl | hp
    · exact .inr rfl
    · exact .inr rfl
    · exact .inr rfl
    · exact .inr rfl
    · exact hW' p hp

end Cert.KernelIdeal.Frame

end
-- ==== Proof.ComputeBaseIdeal.lean ====
/-
  Reading one trip of a compute pass of the SparseCore tile body, at any float instance.

  One trip treats row n of a 16-node block: for each of the 8 groups of 16 channels it loads the sixteen component vectors
  fin[n, r, 16g … 16g + 15], r = 0 … 15, squares them lane by lane, sums and scales them piece by piece, and stores the four
  results into out[n, k, 16g … 16g + 15], k = 0 … 3.  Here are the facts that read those operations at a lane:
    • a 1×1×16 vector and a 16-vector recast into one another keep their lanes; the arithmetic acts lane by lane;
    • a 1×1×16 load at offsets (a, r, c0) reads the scratch's entries (a, r, c0 + lane);
    • a 1×1×16 store at offsets (a, k, c0) covers exactly the entries (a, k, c0 … c0 + 15) of the output scratch;
    • stores that all lie in row n, cover row n, and each hold the pass's function `blockOut fin` on the entries they cover,
      take the output scratch from "rows below n done" to "rows below n + 1 done".
-/
import proofs.«216336_g7232724927063_cont_9to1_m_658_15_alg».proof.Proof.TileBaseIdeal
import Idealize.ShloMosaic.Lib.Pipeline.Value
import Idealize.ShloMosaic.Lib.Writes
import Idealize.ShloMosaic.Lib.WritesUnit

noncomputable section

namespace Cert.KernelIdeal.Frame

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg0_scv : Memref Cert.KernelIdeal.sig Kind.scVector Space.hbm Cert.KernelIdeal.S10000x16x128 EltTy.f32)
local notation "oV" => (Memref.whole Cert.KernelIdeal.main_v0_scv : Memref Cert.KernelIdeal.sig Kind.scVector Space.hbm Cert.KernelIdeal.S4096x4x128 EltTy.f32)
local notation "inA" => (Memref.whole Cert.KernelIdeal.cc0_scratch0 : Memref Cert.KernelIdeal.sig Kind.scVector Space.vmem Cert.KernelIdeal.S16x16x128 EltTy.f32)
local notation "inB" => (Memref.whole Cert.KernelIdeal.cc0_scratch1 : Memref Cert.KernelIdeal.sig Kind.scVector Space.vmem Cert.KernelIdeal.S16x16x128 EltTy.f32)
local notation "outA" => (Memref.whole Cert.KernelIdeal.cc0_scratch2 : Memref Cert.KernelIdeal.sig Kind.scVector Space.vmem Cert.KernelIdeal.S16x4x128 EltTy.f32)
local notation "outB" => (Memref.whole Cert.KernelIdeal.cc0_scratch3 : Memref Cert.KernelIdeal.sig Kind.scVector Space.vmem Cert.KernelIdeal.S16x4x128 EltTy.f32)

variable [FloatOps F]

/-! ## Reading the layout operations and the loads at an index -/

theorem mulf_at {s : Shape} {φ : FTy} (a b : FVec F s φ) (i : s.Idx) : mulf a b i = FloatOps.mulf (a i) (b i) := rfl
theorem addf_at {s : Shape} {φ : FTy} (a b : FVec F s φ) (i : s.Idx) : addf a b i = FloatOps.addf (a i) (b i) := rfl

/-- Every index of a 1×1×16 vector is a lane. -/
theorem exists_lane (x : S1x1x16.Idx) : ∃ l : Fin 16, x = ix3 (n0 := 1) (n1 := 1) (n2 := 16) 0 0 l :=
  ⟨x 2, by
    funext a
    match a with
    | ⟨0, _⟩ => exact Subsingleton.elim (α := Fin 1) _ _
    | ⟨1, _⟩ => exact Subsingleton.elim (α := Fin 1) _ _
    | ⟨2, _⟩ => rfl⟩

/-- A 1×1×16 vector recast as a 16-vector keeps its lanes. -/
theorem cast_lanes {α : Type} (v : S1x1x16.Idx → α) (h : S1x1x16.ShapeCasts S16) (l : Fin 16) :
    shapeCast S16 v h (ix1 l) = v (ix3 (n0 := 1) (n1 := 1) (n2 := 16) 0 0 l) :=
  shapeCast_apply v h (ix1 l) _ (by rw [Shape.rowMajor_val_three, Shape.rowMajor_val_one]; simp)

/-- A 16-vector recast as a 1×1×16 vector keeps its lanes. -/
theorem cast_row {α : Type} (v : S16.Idx → α) (h : S16.ShapeCasts S1x1x16) (l : Fin 16) :
    shapeCast S1x1x16 v h (ix3 (n0 := 1) (n1 := 1) (n2 := 16) 0 0 l) = v (ix1 l) :=
  shapeCast_apply v h _ (ix1 l) (by rw [Shape.rowMajor_val_three, Shape.rowMajor_val_one]; simp)

/-- A 1×1×16 load from input scratch A at offsets `off`, read at lane `l`: the scratch's entry (off 0, off 1, off 2 + l). -/
theorem load_atA (fin : FVec F S16x16x128 .f32) (off : Fin 3 → ℕ)
    (p : ∀ i, off i + S1x1x16.size i ≤ S16x16x128.size i) (l : Fin 16) :
    View.readAt (Elt F) (View.whole (cc0_scratch0 : Ref sig .scVector))
        (Rect.unit (s := S16x16x128) off S1x1x16.size p).toLoadRect fin (ix3 (n0 := 1) (n1 := 1) (n2 := 16) 0 0 l)
      = fin (ix3 (n0 := 16) (n1 := 16) (n2 := 128) ⟨off 0, by have := p 0; simp at this; omega⟩ ⟨off 1, by have := p 1; simp at this; omega⟩
          ⟨off 2 + l.val, by have := p 2; have := l.isLt; simp at *; omega⟩) := by
  show fin _ = fin _
  congr 1
  funext i
  match i with
  | ⟨0, _⟩ => exact Fin.ext (by show off 0 + 1 * 0 = off 0; omega)
  | ⟨1, _⟩ => exact Fin.ext (by show off 1 + 1 * 0 = off 1; omega)
  | ⟨2, _⟩ => exact Fin.ext (by show off 2 + 1 * l.val = off 2 + l.val; omega)

/-- A 1×1×16 load from input scratch B at offsets `off`, read at lane `l`: the scratch's entry (off 0, off 1, off 2 + l). -/
theorem load_atB (fin : FVec F S16x16x128 .f32) (off : Fin 3 → ℕ)
    (p : ∀ i, off i + S1x1x16.size i ≤ S16x16x128.size i) (l : Fin 16) :
    View.readAt (Elt F) (View.whole (cc0_scratch1 : Ref sig .scVector))
        (Rect.unit (s := S16x16x128) off S1x1x16.size p).toLoadRect fin (ix3 (n0 := 1) (n1 := 1) (n2 := 16) 0 0 l)
      = fin (ix3 (n0 := 16) (n1 := 16) (n2 := 128) ⟨off 0, by have := p 0; simp at this; omega⟩ ⟨off 1, by have := p 1; simp at this; omega⟩
          ⟨off 2 + l.val, by have := p 2; have := l.isLt; simp at *; omega⟩) := by
  show fin _ = fin _
  congr 1
  funext i
  match i with
  | ⟨0, _⟩ => exact Fin.ext (by show off 0 + 1 * 0 = off 0; omega)
  | ⟨1, _⟩ => exact Fin.ext (by show off 1 + 1 * 0 = off 1; omega)
  | ⟨2, _⟩ => exact Fin.ext (by show off 2 + 1 * l.val = off 2 + l.val; omega)

theorem trips_A : k0_t2_loop.trips = 16 := by decide
theorem trips_B : k0_t3_loop.trips = 16 := by decide

/-! ## The geometry of a 1×1×16 store into the 16 × 4 × 128 output scratch -/

/-- The store's position `l` lands on entry (off 0, off 1, off 2 + l). -/
theorem piece_emb (off : Fin 3 → ℕ) (p : ∀ i, off i + S1x1x16.size i ≤ S16x4x128.size i) (l : Fin 16) :
    (Rect.unit (s := S16x4x128) off S1x1x16.size p).emb (ix3 (n0 := 1) (n1 := 1) (n2 := 16) 0 0 l)
      = ix3 (n0 := 16) (n1 := 4) (n2 := 128) ⟨off 0, by have := p 0; simp at this; omega⟩ ⟨off 1, by have := p 1; simp at this; omega⟩
          ⟨off 2 + l.val, by have := p 2; have := l.isLt; simp at *; omega⟩ := by
  funext i
  match i with
  | ⟨0, _⟩ => exact Fin.ext (by show off 0 + 1 * 0 = off 0; omega)
  | ⟨1, _⟩ => exact Fin.ext (by show off 1 + 1 * 0 = off 1; omega)
  | ⟨2, _⟩ => exact Fin.ext (by show off 2 + 1 * l.val = off 2 + l.val; omega)

/-- A store at row `a` touches only row `a`. -/
theorem piece_row (off : Fin 3 → ℕ) (p : ∀ i, off i + S1x1x16.size i ≤ S16x4x128.size i) {a : ℕ} (h0 : off 0 = a)
    (y : S16x4x128.Idx) (hy : y ∈ (Rect.unit (s := S16x4x128) off S1x1x16.size p).set) : (y 0).val = a := by
  have h := (Rect.mem_set_unit.1 hy) 0
  have hs : S1x1x16.size 0 = 1 := rfl
  rw [hs, h0] at h
  omega

/-- An entry of row `a`, piece `k`, channels c0 … c0 + 15 is under the store at (a, k, c0). -/
theorem piece_mem (off : Fin 3 → ℕ) (p : ∀ i, off i + S1x1x16.size i ≤ S16x4x128.size i) (y : S16x4x128.Idx) {a k c0 : ℕ}
    (h : off = ![a, k, c0]) (h0 : (y 0).val = a) (h1 : (y 1).val = k) (h2 : c0 ≤ (y 2).val ∧ (y 2).val < c0 + 16) :
    y ∈ (Rect.unit (s := S16x4x128) off S1x1x16.size p).set := by
  subst h
  refine Rect.mem_set_unit.2 fun i => ?_
  match i with
  | ⟨0, _⟩ => show a ≤ (y 0).val ∧ (y 0).val < a + 1; omega
  | ⟨1, _⟩ => show k ≤ (y 1).val ∧ (y 1).val < k + 1; omega
  | ⟨2, _⟩ => show c0 ≤ (y 2).val ∧ (y 2).val < c0 + 16; omega

/-! ## Stores that are blocks of one function on one row -/

/-- Stores into the output scratch that all lie in row `n`, cover it, and each hold the pass's function `blockOut fin` on
    their own entries, take the scratch from "rows below n done" to "rows below n + 1 done". -/
theorem writes_rowA (fin : FVec F S16x16x128 .f32) (g0 : FVec F S16x4x128 .f32) (n : ℕ)
    (PL : List (View.Piece (Elt F) S16x4x128 .f32))
    (hG : ∀ p ∈ PL, ∀ x, p.2 x = blockOut fin (p.1.emb x))
    (hrow : ∀ p ∈ PL, ∀ y ∈ p.1.set, (y 0).val = n)
    (hcov : ∀ y : S16x4x128.Idx, (y 0).val = n → ∃ p ∈ PL, y ∈ p.1.set) :
    (outA).view.writes (Elt F) (outAt fin g0 n) PL
      = outAt fin g0 (n + 1) := by
  funext y
  by_cases hy : (y 0).val = n
  · refine (View.read_writes_apply_of_pieces (outA).view (outAt fin g0 n) (blockOut fin) PL hG y (hcov y hy)).trans ?_
    unfold outAt
    rw [if_pos (by omega)]
  · refine (View.read_writes_apply_of_forall_not_mem (outA).view (outAt fin g0 n) y PL fun p hp hm => hy (hrow p hp y hm)).trans ?_
    show outAt fin g0 n y = outAt fin g0 (n + 1) y
    unfold outAt
    by_cases hlt : (y 0).val < n
    · rw [if_pos hlt, if_pos (by omega)]
    · rw [if_neg hlt, if_neg (by omega)]

/-- The same for output scratch B: stores that all lie in row `n`, cover it, and each hold the pass's function `blockOut fin` on
    their own entries, take the scratch from "rows below n done" to "rows below n + 1 done". -/
theorem writes_rowB (fin : FVec F S16x16x128 .f32) (g0 : FVec F S16x4x128 .f32) (n : ℕ)
    (PL : List (View.Piece (Elt F) S16x4x128 .f32))
    (hG : ∀ p ∈ PL, ∀ x, p.2 x = blockOut fin (p.1.emb x))
    (hrow : ∀ p ∈ PL, ∀ y ∈ p.1.set, (y 0).val = n)
    (hcov : ∀ y : S16x4x128.Idx, (y 0).val = n → ∃ p ∈ PL, y ∈ p.1.set) :
    (outB).view.writes (Elt F) (outAt fin g0 n) PL
      = outAt fin g0 (n + 1) := by
  funext y
  by_cases hy : (y 0).val = n
  · refine (View.read_writes_apply_of_pieces (outB).view (outAt fin g0 n) (blockOut fin) PL hG y (hcov y hy)).trans ?_
    unfold outAt
    rw [if_pos (by omega)]
  · refine (View.read_writes_apply_of_forall_not_mem (outB).view (outAt fin g0 n) y PL fun p hp hm => hy (hrow p hp y hm)).trans ?_
    show outAt fin g0 n y = outAt fin g0 (n + 1) y
    unfold outAt
    by_cases hlt : (y 0).val < n
    · rw [if_pos hlt, if_pos (by omega)]
    · rw [if_neg hlt, if_neg (by omega)]

end Cert.KernelIdeal.Frame

end
-- ==== Proof.ComputeAIdeal.lean ====
/-
  One trip of compute pass A of the SparseCore tile body, with its value, at any float instance.

  Pass A reads input scratch A (16 × 16 × 128) and writes output scratch A (16 × 4 × 128).  Trip n runs the kernel's
  1,322 statements for row n: 128 loads of 1×1×16 component vectors, their squares, sums and scalings, and 32 stores of
  1×1×16 result vectors, one per piece k = 0 … 3 and group of 16 channels.  The theorem: if the output scratch has its
  rows below n at the pass's function `blockOut fin` of the input scratch's contents `fin` and the others as the pass found
  them (`outAt fin g0 n`), then after the trip it has its rows below n + 1 there (`outAt fin g0 (n + 1)`), and the input
  scratch is unchanged.  The run leaves the output scratch as 32 stores over its former contents; each store's value at
  a lane is the kernel's expression tree over the loaded lanes, which is `blockOut fin` at the entry the lane lands on;
  the stores lie in row n and cover it.
-/
import proofs.«216336_g7232724927063_cont_9to1_m_658_15_alg».proof.Proof.TileBaseIdeal
import proofs.«216336_g7232724927063_cont_9to1_m_658_15_alg».proof.Proof.ComputeBaseIdeal
import Idealize.ShloMosaic.Lib.Pipeline.Value
import Idealize.ShloMosaic.Lib.Writes
import Idealize.ShloMosaic.Lib.WritesUnit

noncomputable section

namespace Cert.KernelIdeal.Frame

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg0_scv : Memref Cert.KernelIdeal.sig Kind.scVector Space.hbm Cert.KernelIdeal.S10000x16x128 EltTy.f32)
local notation "oV" => (Memref.whole Cert.KernelIdeal.main_v0_scv : Memref Cert.KernelIdeal.sig Kind.scVector Space.hbm Cert.KernelIdeal.S4096x4x128 EltTy.f32)
local notation "inA" => (Memref.whole Cert.KernelIdeal.cc0_scratch0 : Memref Cert.KernelIdeal.sig Kind.scVector Space.vmem Cert.KernelIdeal.S16x16x128 EltTy.f32)
local notation "inB" => (Memref.whole Cert.KernelIdeal.cc0_scratch1 : Memref Cert.KernelIdeal.sig Kind.scVector Space.vmem Cert.KernelIdeal.S16x16x128 EltTy.f32)
local notation "outA" => (Memref.whole Cert.KernelIdeal.cc0_scratch2 : Memref Cert.KernelIdeal.sig Kind.scVector Space.vmem Cert.KernelIdeal.S16x4x128 EltTy.f32)
local notation "outB" => (Memref.whole Cert.KernelIdeal.cc0_scratch3 : Memref Cert.KernelIdeal.sig Kind.scVector Space.vmem Cert.KernelIdeal.S16x4x128 EltTy.f32)

variable [FloatOps F]

/-- One store's value at a lane: unfold the kernel's expression over the loaded lanes and compare with the pass's function. -/
local macro "piece_val" fin:ident n:ident l:ident : tactic =>
  `(tactic| (simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, cast_row, cast_lanes, mulf_at, addf_at, broadcast_apply, load_atA $fin (k0_off2 $n) (k0_off2_inb $n) $l, load_atA $fin (k0_off3 $n) (k0_off3_inb $n) $l, load_atA $fin (k0_off4 $n) (k0_off4_inb $n) $l, load_atA $fin (k0_off5 $n) (k0_off5_inb $n) $l, load_atA $fin (k0_off6 $n) (k0_off6_inb $n) $l, load_atA $fin (k0_off7 $n) (k0_off7_inb $n) $l, load_atA $fin (k0_off8 $n) (k0_off8_inb $n) $l, load_atA $fin (k0_off9 $n) (k0_off9_inb $n) $l, load_atA $fin (k0_off10 $n) (k0_off10_inb $n) $l, load_atA $fin (k0_off11 $n) (k0_off11_inb $n) $l, load_atA $fin (k0_off12 $n) (k0_off12_inb $n) $l, load_atA $fin (k0_off13 $n) (k0_off13_inb $n) $l, load_atA $fin (k0_off14 $n) (k0_off14_inb $n) $l, load_atA $fin (k0_off15 $n) (k0_off15_inb $n) $l, load_atA $fin (k0_off16 $n) (k0_off16_inb $n) $l, load_atA $fin (k0_off17 $n) (k0_off17_inb $n) $l, load_atA $fin (k0_off22 $n) (k0_off22_inb $n) $l, load_atA $fin (k0_off23 $n) (k0_off23_inb $n) $l, load_atA $fin (k0_off24 $n) (k0_off24_inb $n) $l, load_atA $fin (k0_off25 $n) (k0_off25_inb $n) $l, load_atA $fin (k0_off26 $n) (k0_off26_inb $n) $l, load_atA $fin (k0_off27 $n) (k0_off27_inb $n) $l, load_atA $fin (k0_off28 $n) (k0_off28_inb $n) $l, load_atA $fin (k0_off29 $n) (k0_off29_inb $n) $l, load_atA $fin (k0_off30 $n) (k0_off30_inb $n) $l, load_atA $fin (k0_off31 $n) (k0_off31_inb $n) $l, load_atA $fin (k0_off32 $n) (k0_off32_inb $n) $l, load_atA $fin (k0_off33 $n) (k0_off33_inb $n) $l, load_atA $fin (k0_off34 $n) (k0_off34_inb $n) $l, load_atA $fin (k0_off35 $n) (k0_off35_inb $n) $l, load_atA $fin (k0_off36 $n) (k0_off36_inb $n) $l, load_atA $fin (k0_off37 $n) (k0_off37_inb $n) $l, load_atA $fin (k0_off42 $n) (k0_off42_inb $n) $l, load_atA $fin (k0_off43 $n) (k0_off43_inb $n) $l, load_atA $fin (k0_off44 $n) (k0_off44_inb $n) $l, load_atA $fin (k0_off45 $n) (k0_off45_inb $n) $l, load_atA $fin (k0_off46 $n) (k0_off46_inb $n) $l, load_atA $fin (k0_off47 $n) (k0_off47_inb $n) $l, load_atA $fin (k0_off48 $n) (k0_off48_inb $n) $l, load_atA $fin (k0_off49 $n) (k0_off49_inb $n) $l, load_atA $fin (k0_off50 $n) (k0_off50_inb $n) $l, load_atA $fin (k0_off51 $n) (k0_off51_inb $n) $l, load_atA $fin (k0_off52 $n) (k0_off52_inb $n) $l, load_atA $fin (k0_off53 $n) (k0_off53_inb $n) $l, load_atA $fin (k0_off54 $n) (k0_off54_inb $n) $l, load_atA $fin (k0_off55 $n) (k0_off55_inb $n) $l, load_atA $fin (k0_off56 $n) (k0_off56_inb $n) $l, load_atA $fin (k0_off57 $n) (k0_off57_inb $n) $l, load_atA $fin (k0_off62 $n) (k0_off62_inb $n) $l, load_atA $fin (k0_off63 $n) (k0_off63_inb $n) $l, load_atA $fin (k0_off64 $n) (k0_off64_inb $n) $l, load_atA $fin (k0_off65 $n) (k0_off65_inb $n) $l, load_atA $fin (k0_off66 $n) (k0_off66_inb $n) $l, load_atA $fin (k0_off67 $n) (k0_off67_inb $n) $l, load_atA $fin (k0_off68 $n) (k0_off68_inb $n) $l, load_atA $fin (k0_off69 $n) (k0_off69_inb $n) $l, load_atA $fin (k0_off70 $n) (k0_off70_inb $n) $l, load_atA $fin (k0_off71 $n) (k0_off71_inb $n) $l, load_atA $fin (k0_off72 $n) (k0_off72_inb $n) $l, load_atA $fin (k0_off73 $n) (k0_off73_inb $n) $l, load_atA $fin (k0_off74 $n) (k0_off74_inb $n) $l, load_atA $fin (k0_off75 $n) (k0_off75_inb $n) $l, load_atA $fin (k0_off76 $n) (k0_off76_inb $n) $l, load_atA $fin (k0_off77 $n) (k0_off77_inb $n) $l, load_atA $fin (k0_off82 $n) (k0_off82_inb $n) $l, load_atA $fin (k0_off83 $n) (k0_off83_inb $n) $l, load_atA $fin (k0_off84 $n) (k0_off84_inb $n) $l, load_atA $fin (k0_off85 $n) (k0_off85_inb $n) $l, load_atA $fin (k0_off86 $n) (k0_off86_inb $n) $l, load_atA $fin (k0_off87 $n) (k0_off87_inb $n) $l, load_atA $fin (k0_off88 $n) (k0_off88_inb $n) $l, load_atA $fin (k0_off89 $n) (k0_off89_inb $n) $l, load_atA $fin (k0_off90 $n) (k0_off90_inb $n) $l, load_atA $fin (k0_off91 $n) (k0_off91_inb $n) $l, load_atA $fin (k0_off92 $n) (k0_off92_inb $n) $l, load_atA $fin (k0_off93 $n) (k0_off93_inb $n) $l, load_atA $fin (k0_off94 $n) (k0_off94_inb $n) $l, load_atA $fin (k0_off95 $n) (k0_off95_inb $n) $l, load_atA $fin (k0_off96 $n) (k0_off96_inb $n) $l, load_atA $fin (k0_off97 $n) (k0_off97_inb $n) $l, load_atA $fin (k0_off102 $n) (k0_off102_inb $n) $l, load_atA $fin (k0_off103 $n) (k0_off103_inb $n) $l, load_atA $fin (k0_off104 $n) (k0_off104_inb $n) $l, load_atA $fin (k0_off105 $n) (k0_off105_inb $n) $l, load_atA $fin (k0_off106 $n) (k0_off106_inb $n) $l, load_atA $fin (k0_off107 $n) (k0_off107_inb $n) $l, load_atA $fin (k0_off108 $n) (k0_off108_inb $n) $l, load_atA $fin (k0_off109 $n) (k0_off109_inb $n) $l, load_atA $fin (k0_off110 $n) (k0_off110_inb $n) $l, load_atA $fin (k0_off111 $n) (k0_off111_inb $n) $l, load_atA $fin (k0_off112 $n) (k0_off112_inb $n) $l, load_atA $fin (k0_off113 $n) (k0_off113_inb $n) $l, load_atA $fin (k0_off114 $n) (k0_off114_inb $n) $l, load_atA $fin (k0_off115 $n) (k0_off115_inb $n) $l, load_atA $fin (k0_off116 $n) (k0_off116_inb $n) $l, load_atA $fin (k0_off117 $n) (k0_off117_inb $n) $l, load_atA $fin (k0_off122 $n) (k0_off122_inb $n) $l, load_atA $fin (k0_off123 $n) (k0_off123_inb $n) $l, load_atA $fin (k0_off124 $n) (k0_off124_inb $n) $l, load_atA $fin (k0_off125 $n) (k0_off125_inb $n) $l, load_atA $fin (k0_off126 $n) (k0_off126_inb $n) $l, load_atA $fin (k0_off127 $n) (k0_off127_inb $n) $l, load_atA $fin (k0_off128 $n) (k0_off128_inb $n) $l, load_atA $fin (k0_off129 $n) (k0_off129_inb $n) $l, load_atA $fin (k0_off130 $n) (k0_off130_inb $n) $l, load_atA $fin (k0_off131 $n) (k0_off131_inb $n) $l, load_atA $fin (k0_off132 $n) (k0_off132_inb $n) $l, load_atA $fin (k0_off133 $n) (k0_off133_inb $n) $l, load_atA $fin (k0_off134 $n) (k0_off134_inb $n) $l, load_atA $fin (k0_off135 $n) (k0_off135_inb $n) $l, load_atA $fin (k0_off136 $n) (k0_off136_inb $n) $l, load_atA $fin (k0_off137 $n) (k0_off137_inb $n) $l, load_atA $fin (k0_off142 $n) (k0_off142_inb $n) $l, load_atA $fin (k0_off143 $n) (k0_off143_inb $n) $l, load_atA $fin (k0_off144 $n) (k0_off144_inb $n) $l, load_atA $fin (k0_off145 $n) (k0_off145_inb $n) $l, load_atA $fin (k0_off146 $n) (k0_off146_inb $n) $l, load_atA $fin (k0_off147 $n) (k0_off147_inb $n) $l, load_atA $fin (k0_off148 $n) (k0_off148_inb $n) $l, load_atA $fin (k0_off149 $n) (k0_off149_inb $n) $l, load_atA $fin (k0_off150 $n) (k0_off150_inb $n) $l, load_atA $fin (k0_off151 $n) (k0_off151_inb $n) $l, load_atA $fin (k0_off152 $n) (k0_off152_inb $n) $l, load_atA $fin (k0_off153 $n) (k0_off153_inb $n) $l, load_atA $fin (k0_off154 $n) (k0_off154_inb $n) $l, load_atA $fin (k0_off155 $n) (k0_off155_inb $n) $l, load_atA $fin (k0_off156 $n) (k0_off156_inb $n) $l, load_atA $fin (k0_off157 $n) (k0_off157_inb $n) $l]
             simp only [k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq, k0_off88_eq, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, k0_off104_eq, k0_off105_eq, k0_off106_eq, k0_off107_eq, k0_off108_eq, k0_off109_eq, k0_off110_eq, k0_off111_eq, k0_off112_eq, k0_off113_eq, k0_off114_eq, k0_off115_eq, k0_off116_eq, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq, k0_off145_eq, k0_off146_eq, k0_off147_eq, k0_off148_eq, k0_off149_eq, k0_off150_eq, k0_off151_eq, k0_off152_eq, k0_off153_eq, k0_off154_eq, k0_off155_eq, k0_off156_eq, k0_off157_eq, k0_off158_eq, k0_off159_eq, k0_off160_eq, k0_off161_eq]
             rfl))

set_option maxHeartbeats 6400000 in
theorem computeA_step (fin : Buf (Elt F) ((V d (cV L) (jV L)).loc cc0_scratch0)) (g0 : Buf (Elt F) ((V d (cV L) (jV L)).loc cc0_scratch2))
    (v1 v21 c0 c1 : BitVec 32) (k1 : Fin (k0_t1_loop L).trips) (n : Fin k0_t2_loop.trips) :
    iprop((((inA).view.loc (V d (cV L) (jV L)) ↦{fullShare} fin : sProp 𝕄)) ∗ ((outA).view.loc (V d (cV L) (jV L)) ↦{fullShare} outAt fin g0 n.val))
      ⊢ wp frame (wpE (defs₀ (F := F)) 𝒱₀ (V d (cV L) (jV L)) none) Set.univ
          (k0_t2_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 v1 v21 c0 c1 k1 n ⟨⟩)
          fun _ => iprop(((inA).view.loc (V d (cV L) (jV L)) ↦{fullShare} fin) ∗ ((outA).view.loc (V d (cV L) (jV L)) ↦{fullShare} outAt fin g0 (n.val + 1))) := by
  unfold k0_t2_body
  iintro ⟨Hin, Hout⟩
  sl_exec_parts
  sl_unfold_run_names
  rw [writes_rowA (F := F) fin g0 n.val _ ?hG ?hrow ?hcov]
  case hG =>
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    exact fun _ hp => absurd hp List.not_mem_nil
  case hrow =>
    refine List.forall_mem_cons.2 ⟨?_, ?_⟩
    · intro y hy
      exact piece_row (k0_off161 n) (k0_off161_inb n) (by rw [k0_off161_eq]; rfl) y hy
    refine List.forall_mem_cons.2 ⟨?_, ?_⟩
    · intro y hy
      exact piece_row (k0_off160 n) (k0_off160_inb n) (by rw [k0_off160_eq]; rfl) y hy
    refine List.forall_mem_cons.2 ⟨?_, ?_⟩
    · intro y hy
      exact piece_row (k0_off159 n) (k0_off159_inb n) (by rw [k0_off159_eq]; rfl) y hy
    refine List.forall_mem_cons.2 ⟨?_, ?_⟩
    · intro y hy
      exact piece_row (k0_off158 n) (k0_off158_inb n) (by rw [k0_off158_eq]; rfl) y hy
    refine List.forall_mem_cons.2 ⟨?_, ?_⟩
    · intro y hy
      exact piece_row (k0_off141 n) (k0_off141_inb n) (by rw [k0_off141_eq]; rfl) y hy
    refine List.forall_mem_cons.2 ⟨?_, ?_⟩
    · intro y hy
      exact piece_row (k0_off140 n) (k0_off140_inb n) (by rw [k0_off140_eq]; rfl) y hy
    refine List.forall_mem_cons.2 ⟨?_, ?_⟩
    · intro y hy
      exact piece_row (k0_off139 n) (k0_off139_inb n) (by rw [k0_off139_eq]; rfl) y hy
    refine List.forall_mem_cons.2 ⟨?_, ?_⟩
    · intro y hy
      exact piece_row (k0_off138 n) (k0_off138_inb n) (by rw [k0_off138_eq]; rfl) y hy
    refine List.forall_mem_cons.2 ⟨?_, ?_⟩
    · intro y hy
      exact piece_row (k0_off121 n) (k0_off121_inb n) (by rw [k0_off121_eq]; rfl) y hy
    refine List.forall_mem_cons.2 ⟨?_, ?_⟩
    · intro y hy
      exact piece_row (k0_off120 n) (k0_off120_inb n) (by rw [k0_off120_eq]; rfl) y hy
    refine List.forall_mem_cons.2 ⟨?_, ?_⟩
    · intro y hy
      exact piece_row (k0_off119 n) (k0_off119_inb n) (by rw [k0_off119_eq]; rfl) y hy
    refine List.forall_mem_cons.2 ⟨?_, ?_⟩
    · intro y hy
      exact piece_row (k0_off118 n) (k0_off118_inb n) (by rw [k0_off118_eq]; rfl) y hy
    refine List.forall_mem_cons.2 ⟨?_, ?_⟩
    · intro y hy
      exact piece_row (k0_off101 n) (k0_off101_inb n) (by rw [k0_off101_eq]; rfl) y hy
    refine List.forall_mem_cons.2 ⟨?_, ?_⟩
    · intro y hy
      exact piece_row (k0_off100 n) (k0_off100_inb n) (by rw [k0_off100_eq]; rfl) y hy
    refine List.forall_mem_cons.2 ⟨?_, ?_⟩
    · intro y hy
      exact piece_row (k0_off99 n) (k0_off99_inb n) (by rw [k0_off99_eq]; rfl) y hy
    refine List.forall_mem_cons.2 ⟨?_, ?_⟩
    · intro y hy
      exact piece_row (k0_off98 n) (k0_off98_inb n) (by rw [k0_off98_eq]; rfl) y hy
    refine List.forall_mem_cons.2 ⟨?_, ?_⟩
    · intro y hy
      exact piece_row (k0_off81 n) (k0_off81_inb n) (by rw [k0_off81_eq]; rfl) y hy
    refine List.forall_mem_cons.2 ⟨?_, ?_⟩
    · intro y hy
      exact piece_row (k0_off80 n) (k0_off80_inb n) (by rw [k0_off80_eq]; rfl) y hy
    refine List.forall_mem_cons.2 ⟨?_, ?_⟩
    · intro y hy
      exact piece_row (k0_off79 n) (k0_off79_inb n) (by rw [k0_off79_eq]; rfl) y hy
    refine List.forall_mem_cons.2 ⟨?_, ?_⟩
    · intro y hy
      exact piece_row (k0_off78 n) (k0_off78_inb n) (by rw [k0_off78_eq]; rfl) y hy
    refine List.forall_mem_cons.2 ⟨?_, ?_⟩
    · intro y hy
      exact piece_row (k0_off61 n) (k0_off61_inb n) (by rw [k0_off61_eq]; rfl) y hy
    refine List.forall_mem_cons.2 ⟨?_, ?_⟩
    · intro y hy
      exact piece_row (k0_off60 n) (k0_off60_inb n) (by rw [k0_off60_eq]; rfl) y hy
    refine List.forall_mem_cons.2 ⟨?_, ?_⟩
    · intro y hy
      exact piece_row (k0_off59 n) (k0_off59_inb n) (by rw [k0_off59_eq]; rfl) y hy
    refine List.forall_mem_cons.2 ⟨?_, ?_⟩
    · intro y hy
      exact piece_row (k0_off58 n) (k0_off58_inb n) (by rw [k0_off58_eq]; rfl) y hy
    refine List.forall_mem_cons.2 ⟨?_, ?_⟩
    · intro y hy
      exact piece_row (k0_off41 n) (k0_off41_inb n) (by rw [k0_off41_eq]; rfl) y hy
    refine List.forall_mem_cons.2 ⟨?_, ?_⟩
    · intro y hy
      exact piece_row (k0_off40 n) (k0_off40_inb n) (by rw [k0_off40_eq]; rfl) y hy
    refine List.forall_mem_cons.2 ⟨?_, ?_⟩
    · intro y hy
      exact piece_row (k0_off39 n) (k0_off39_inb n) (by rw [k0_off39_eq]; rfl) y hy
    refine List.forall_mem_cons.2 ⟨?_, ?_⟩
    · intro y hy
      exact piece_row (k0_off38 n) (k0_off38_inb n) (by rw [k0_off38_eq]; rfl) y hy
    refine List.forall_mem_cons.2 ⟨?_, ?_⟩
    · intro y hy
      exact piece_row (k0_off21 n) (k0_off21_inb n) (by rw [k0_off21_eq]; rfl) y hy
    refine List.forall_mem_cons.2 ⟨?_, ?_⟩
    · intro y hy
      exact piece_row (k0_off20 n) (k0_off20_inb n) (by rw [k0_off20_eq]; rfl) y hy
    refine List.forall_mem_cons.2 ⟨?_, ?_⟩
    · intro y hy
      exact piece_row (k0_off19 n) (k0_off19_inb n) (by rw [k0_off19_eq]; rfl) y hy
    refine List.forall_mem_cons.2 ⟨?_, ?_⟩
    · intro y hy
      exact piece_row (k0_off18 n) (k0_off18_inb n) (by rw [k0_off18_eq]; rfl) y hy
    exact fun _ hp => absurd hp List.not_mem_nil
  case hcov =>
    intro y hy
    have hk' : (y 1).val < 4 := (y 1).isLt
    have hc' : (y 2).val < 128 := (y 2).isLt
    obtain ⟨k, hk1⟩ : ∃ k, (y 1).val = k := ⟨_, rfl⟩
    obtain ⟨cg, hcg⟩ : ∃ cg, (y 2).val / 16 = cg := ⟨_, rfl⟩
    have hkb : k < 4 := by omega
    have hcgb : cg < 8 := by omega
    interval_cases k <;> interval_cases cg
    · exact ⟨_, List.getElem_mem (n := 31) (Nat.lt_of_lt_of_eq (by omega : 31 < 32) rfl), piece_mem (k0_off18 n) (k0_off18_inb n) y (k0_off18_eq n) hy hk1 (by omega)⟩
    · exact ⟨_, List.getElem_mem (n := 27) (Nat.lt_of_lt_of_eq (by omega : 27 < 32) rfl), piece_mem (k0_off38 n) (k0_off38_inb n) y (k0_off38_eq n) hy hk1 (by omega)⟩
    · exact ⟨_, List.getElem_mem (n := 23) (Nat.lt_of_lt_of_eq (by omega : 23 < 32) rfl), piece_mem (k0_off58 n) (k0_off58_inb n) y (k0_off58_eq n) hy hk1 (by omega)⟩
    · exact ⟨_, List.getElem_mem (n := 19) (Nat.lt_of_lt_of_eq (by omega : 19 < 32) rfl), piece_mem (k0_off78 n) (k0_off78_inb n) y (k0_off78_eq n) hy hk1 (by omega)⟩
    · exact ⟨_, List.getElem_mem (n := 15) (Nat.lt_of_lt_of_eq (by omega : 15 < 32) rfl), piece_mem (k0_off98 n) (k0_off98_inb n) y (k0_off98_eq n) hy hk1 (by omega)⟩
    · exact ⟨_, List.getElem_mem (n := 11) (Nat.lt_of_lt_of_eq (by omega : 11 < 32) rfl), piece_mem (k0_off118 n) (k0_off118_inb n) y (k0_off118_eq n) hy hk1 (by omega)⟩
    · exact ⟨_, List.getElem_mem (n := 7) (Nat.lt_of_lt_of_eq (by omega : 7 < 32) rfl), piece_mem (k0_off138 n) (k0_off138_inb n) y (k0_off138_eq n) hy hk1 (by omega)⟩
    · exact ⟨_, List.getElem_mem (n := 3) (Nat.lt_of_lt_of_eq (by omega : 3 < 32) rfl), piece_mem (k0_off158 n) (k0_off158_inb n) y (k0_off158_eq n) hy hk1 (by omega)⟩
    · exact ⟨_, List.getElem_mem (n := 30) (Nat.lt_of_lt_of_eq (by omega : 30 < 32) rfl), piece_mem (k0_off19 n) (k0_off19_inb n) y (k0_off19_eq n) hy hk1 (by omega)⟩
    · exact ⟨_, List.getElem_mem (n := 26) (Nat.lt_of_lt_of_eq (by omega : 26 < 32) rfl), piece_mem (k0_off39 n) (k0_off39_inb n) y (k0_off39_eq n) hy hk1 (by omega)⟩
    · exact ⟨_, List.getElem_mem (n := 22) (Nat.lt_of_lt_of_eq (by omega : 22 < 32) rfl), piece_mem (k0_off59 n) (k0_off59_inb n) y (k0_off59_eq n) hy hk1 (by omega)⟩
    · exact ⟨_, List.getElem_mem (n := 18) (Nat.lt_of_lt_of_eq (by omega : 18 < 32) rfl), piece_mem (k0_off79 n) (k0_off79_inb n) y (k0_off79_eq n) hy hk1 (by omega)⟩
    · exact ⟨_, List.getElem_mem (n := 14) (Nat.lt_of_lt_of_eq (by omega : 14 < 32) rfl), piece_mem (k0_off99 n) (k0_off99_inb n) y (k0_off99_eq n) hy hk1 (by omega)⟩
    · exact ⟨_, List.getElem_mem (n := 10) (Nat.lt_of_lt_of_eq (by omega : 10 < 32) rfl), piece_mem (k0_off119 n) (k0_off119_inb n) y (k0_off119_eq n) hy hk1 (by omega)⟩
    · exact ⟨_, List.getElem_mem (n := 6) (Nat.lt_of_lt_of_eq (by omega : 6 < 32) rfl), piece_mem (k0_off139 n) (k0_off139_inb n) y (k0_off139_eq n) hy hk1 (by omega)⟩
    · exact ⟨_, List.getElem_mem (n := 2) (Nat.lt_of_lt_of_eq (by omega : 2 < 32) rfl), piece_mem (k0_off159 n) (k0_off159_inb n) y (k0_off159_eq n) hy hk1 (by omega)⟩
    · exact ⟨_, List.getElem_mem (n := 29) (Nat.lt_of_lt_of_eq (by omega : 29 < 32) rfl), piece_mem (k0_off20 n) (k0_off20_inb n) y (k0_off20_eq n) hy hk1 (by omega)⟩
    · exact ⟨_, List.getElem_mem (n := 25) (Nat.lt_of_lt_of_eq (by omega : 25 < 32) rfl), piece_mem (k0_off40 n) (k0_off40_inb n) y (k0_off40_eq n) hy hk1 (by omega)⟩
    · exact ⟨_, List.getElem_mem (n := 21) (Nat.lt_of_lt_of_eq (by omega : 21 < 32) rfl), piece_mem (k0_off60 n) (k0_off60_inb n) y (k0_off60_eq n) hy hk1 (by omega)⟩
    · exact ⟨_, List.getElem_mem (n := 17) (Nat.lt_of_lt_of_eq (by omega : 17 < 32) rfl), piece_mem (k0_off80 n) (k0_off80_inb n) y (k0_off80_eq n) hy hk1 (by omega)⟩
    · exact ⟨_, List.getElem_mem (n := 13) (Nat.lt_of_lt_of_eq (by omega : 13 < 32) rfl), piece_mem (k0_off100 n) (k0_off100_inb n) y (k0_off100_eq n) hy hk1 (by omega)⟩
    · exact ⟨_, List.getElem_mem (n := 9) (Nat.lt_of_lt_of_eq (by omega : 9 < 32) rfl), piece_mem (k0_off120 n) (k0_off120_inb n) y (k0_off120_eq n) hy hk1 (by omega)⟩
    · exact ⟨_, List.getElem_mem (n := 5) (Nat.lt_of_lt_of_eq (by omega : 5 < 32) rfl), piece_mem (k0_off140 n) (k0_off140_inb n) y (k0_off140_eq n) hy hk1 (by omega)⟩
    · exact ⟨_, List.getElem_mem (n := 1) (Nat.lt_of_lt_of_eq (by omega : 1 < 32) rfl), piece_mem (k0_off160 n) (k0_off160_inb n) y (k0_off160_eq n) hy hk1 (by omega)⟩
    · exact ⟨_, List.getElem_mem (n := 28) (Nat.lt_of_lt_of_eq (by omega : 28 < 32) rfl), piece_mem (k0_off21 n) (k0_off21_inb n) y (k0_off21_eq n) hy hk1 (by omega)⟩
    · exact ⟨_, List.getElem_mem (n := 24) (Nat.lt_of_lt_of_eq (by omega : 24 < 32) rfl), piece_mem (k0_off41 n) (k0_off41_inb n) y (k0_off41_eq n) hy hk1 (by omega)⟩
    · exact ⟨_, List.getElem_mem (n := 20) (Nat.lt_of_lt_of_eq (by omega : 20 < 32) rfl), piece_mem (k0_off61 n) (k0_off61_inb n) y (k0_off61_eq n) hy hk1 (by omega)⟩
    · exact ⟨_, List.getElem_mem (n := 16) (Nat.lt_of_lt_of_eq (by omega : 16 < 32) rfl), piece_mem (k0_off81 n) (k0_off81_inb n) y (k0_off81_eq n) hy hk1 (by omega)⟩
    · exact ⟨_, List.getElem_mem (n := 12) (Nat.lt_of_lt_of_eq (by omega : 12 < 32) rfl), piece_mem (k0_off101 n) (k0_off101_inb n) y (k0_off101_eq n) hy hk1 (by omega)⟩
    · exact ⟨_, List.getElem_mem (n := 8) (Nat.lt_of_lt_of_eq (by omega : 8 < 32) rfl), piece_mem (k0_off121 n) (k0_off121_inb n) y (k0_off121_eq n) hy hk1 (by omega)⟩
    · exact ⟨_, List.getElem_mem (n := 4) (Nat.lt_of_lt_of_eq (by omega : 4 < 32) rfl), piece_mem (k0_off141 n) (k0_off141_inb n) y (k0_off141_eq n) hy hk1 (by omega)⟩
    · exact ⟨_, List.getElem_mem (n := 0) (Nat.lt_of_lt_of_eq (by omega : 0 < 32) rfl), piece_mem (k0_off161 n) (k0_off161_inb n) y (k0_off161_eq n) hy hk1 (by omega)⟩
  rw [wp_ret]; imodintro
  isplitl [Hin]; · iexact Hin
  iexact Hout

end Cert.KernelIdeal.Frame

end
-- ==== Proof.ComputeBIdeal.lean ====
/-
  One trip of compute pass B of the SparseCore tile body, with its value, at any float instance.

  Pass B reads input scratch B (16 × 16 × 128) and writes output scratch B (16 × 4 × 128).  Trip n runs the kernel's
  1,322 statements for row n: 128 loads of 1×1×16 component vectors, their squares, sums and scalings, and 32 stores of
  1×1×16 result vectors, one per piece k = 0 … 3 and group of 16 channels.  The theorem: if the output scratch has its
  rows below n at the pass's function `blockOut fin` of the input scratch's contents `fin` and the others as the pass found
  them (`outAt fin g0 n`), then after the trip it has its rows below n + 1 there (`outAt fin g0 (n + 1)`), and the input
  scratch is unchanged.  The run leaves the output scratch as 32 stores over its former contents; each store's value at
  a lane is the kernel's expression tree over the loaded lanes, which is `blockOut fin` at the entry the lane lands on;
  the stores lie in row n and cover it.
-/
import proofs.«216336_g7232724927063_cont_9to1_m_658_15_alg».proof.Proof.TileBaseIdeal
import proofs.«216336_g7232724927063_cont_9to1_m_658_15_alg».proof.Proof.ComputeBaseIdeal
import Idealize.ShloMosaic.Lib.Pipeline.Value
import Idealize.ShloMosaic.Lib.Writes
import Idealize.ShloMosaic.Lib.WritesUnit

noncomputable section

namespace Cert.KernelIdeal.Frame

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg0_scv : Memref Cert.KernelIdeal.sig Kind.scVector Space.hbm Cert.KernelIdeal.S10000x16x128 EltTy.f32)
local notation "oV" => (Memref.whole Cert.KernelIdeal.main_v0_scv : Memref Cert.KernelIdeal.sig Kind.scVector Space.hbm Cert.KernelIdeal.S4096x4x128 EltTy.f32)
local notation "inA" => (Memref.whole Cert.KernelIdeal.cc0_scratch0 : Memref Cert.KernelIdeal.sig Kind.scVector Space.vmem Cert.KernelIdeal.S16x16x128 EltTy.f32)
local notation "inB" => (Memref.whole Cert.KernelIdeal.cc0_scratch1 : Memref Cert.KernelIdeal.sig Kind.scVector Space.vmem Cert.KernelIdeal.S16x16x128 EltTy.f32)
local notation "outA" => (Memref.whole Cert.KernelIdeal.cc0_scratch2 : Memref Cert.KernelIdeal.sig Kind.scVector Space.vmem Cert.KernelIdeal.S16x4x128 EltTy.f32)
local notation "outB" => (Memref.whole Cert.KernelIdeal.cc0_scratch3 : Memref Cert.KernelIdeal.sig Kind.scVector Space.vmem Cert.KernelIdeal.S16x4x128 EltTy.f32)

variable [FloatOps F]

/-- One store's value at a lane: unfold the kernel's expression over the loaded lanes and compare with the pass's function. -/
local macro "piece_val" fin:ident n:ident l:ident : tactic =>
  `(tactic| (simp only [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, cast_row, cast_lanes, mulf_at, addf_at, broadcast_apply, load_atB $fin (k0_off164 $n) (k0_off164_inb $n) $l, load_atB $fin (k0_off165 $n) (k0_off165_inb $n) $l, load_atB $fin (k0_off166 $n) (k0_off166_inb $n) $l, load_atB $fin (k0_off167 $n) (k0_off167_inb $n) $l, load_atB $fin (k0_off168 $n) (k0_off168_inb $n) $l, load_atB $fin (k0_off169 $n) (k0_off169_inb $n) $l, load_atB $fin (k0_off170 $n) (k0_off170_inb $n) $l, load_atB $fin (k0_off171 $n) (k0_off171_inb $n) $l, load_atB $fin (k0_off172 $n) (k0_off172_inb $n) $l, load_atB $fin (k0_off173 $n) (k0_off173_inb $n) $l, load_atB $fin (k0_off174 $n) (k0_off174_inb $n) $l, load_atB $fin (k0_off175 $n) (k0_off175_inb $n) $l, load_atB $fin (k0_off176 $n) (k0_off176_inb $n) $l, load_atB $fin (k0_off177 $n) (k0_off177_inb $n) $l, load_atB $fin (k0_off178 $n) (k0_off178_inb $n) $l, load_atB $fin (k0_off179 $n) (k0_off179_inb $n) $l, load_atB $fin (k0_off184 $n) (k0_off184_inb $n) $l, load_atB $fin (k0_off185 $n) (k0_off185_inb $n) $l, load_atB $fin (k0_off186 $n) (k0_off186_inb $n) $l, load_atB $fin (k0_off187 $n) (k0_off187_inb $n) $l, load_atB $fin (k0_off188 $n) (k0_off188_inb $n) $l, load_atB $fin (k0_off189 $n) (k0_off189_inb $n) $l, load_atB $fin (k0_off190 $n) (k0_off190_inb $n) $l, load_atB $fin (k0_off191 $n) (k0_off191_inb $n) $l, load_atB $fin (k0_off192 $n) (k0_off192_inb $n) $l, load_atB $fin (k0_off193 $n) (k0_off193_inb $n) $l, load_atB $fin (k0_off194 $n) (k0_off194_inb $n) $l, load_atB $fin (k0_off195 $n) (k0_off195_inb $n) $l, load_atB $fin (k0_off196 $n) (k0_off196_inb $n) $l, load_atB $fin (k0_off197 $n) (k0_off197_inb $n) $l, load_atB $fin (k0_off198 $n) (k0_off198_inb $n) $l, load_atB $fin (k0_off199 $n) (k0_off199_inb $n) $l, load_atB $fin (k0_off204 $n) (k0_off204_inb $n) $l, load_atB $fin (k0_off205 $n) (k0_off205_inb $n) $l, load_atB $fin (k0_off206 $n) (k0_off206_inb $n) $l, load_atB $fin (k0_off207 $n) (k0_off207_inb $n) $l, load_atB $fin (k0_off208 $n) (k0_off208_inb $n) $l, load_atB $fin (k0_off209 $n) (k0_off209_inb $n) $l, load_atB $fin (k0_off210 $n) (k0_off210_inb $n) $l, load_atB $fin (k0_off211 $n) (k0_off211_inb $n) $l, load_atB $fin (k0_off212 $n) (k0_off212_inb $n) $l, load_atB $fin (k0_off213 $n) (k0_off213_inb $n) $l, load_atB $fin (k0_off214 $n) (k0_off214_inb $n) $l, load_atB $fin (k0_off215 $n) (k0_off215_inb $n) $l, load_atB $fin (k0_off216 $n) (k0_off216_inb $n) $l, load_atB $fin (k0_off217 $n) (k0_off217_inb $n) $l, load_atB $fin (k0_off218 $n) (k0_off218_inb $n) $l, load_atB $fin (k0_off219 $n) (k0_off219_inb $n) $l, load_atB $fin (k0_off224 $n) (k0_off224_inb $n) $l, load_atB $fin (k0_off225 $n) (k0_off225_inb $n) $l, load_atB $fin (k0_off226 $n) (k0_off226_inb $n) $l, load_atB $fin (k0_off227 $n) (k0_off227_inb $n) $l, load_atB $fin (k0_off228 $n) (k0_off228_inb $n) $l, load_atB $fin (k0_off229 $n) (k0_off229_inb $n) $l, load_atB $fin (k0_off230 $n) (k0_off230_inb $n) $l, load_atB $fin (k0_off231 $n) (k0_off231_inb $n) $l, load_atB $fin (k0_off232 $n) (k0_off232_inb $n) $l, load_atB $fin (k0_off233 $n) (k0_off233_inb $n) $l, load_atB $fin (k0_off234 $n) (k0_off234_inb $n) $l, load_atB $fin (k0_off235 $n) (k0_off235_inb $n) $l, load_atB $fin (k0_off236 $n) (k0_off236_inb $n) $l, load_atB $fin (k0_off237 $n) (k0_off237_inb $n) $l, load_atB $fin (k0_off238 $n) (k0_off238_inb $n) $l, load_atB $fin (k0_off239 $n) (k0_off239_inb $n) $l, load_atB $fin (k0_off244 $n) (k0_off244_inb $n) $l, load_atB $fin (k0_off245 $n) (k0_off245_inb $n) $l, load_atB $fin (k0_off246 $n) (k0_off246_inb $n) $l, load_atB $fin (k0_off247 $n) (k0_off247_inb $n) $l, load_atB $fin (k0_off248 $n) (k0_off248_inb $n) $l, load_atB $fin (k0_off249 $n) (k0_off249_inb $n) $l, load_atB $fin (k0_off250 $n) (k0_off250_inb $n) $l, load_atB $fin (k0_off251 $n) (k0_off251_inb $n) $l, load_atB $fin (k0_off252 $n) (k0_off252_inb $n) $l, load_atB $fin (k0_off253 $n) (k0_off253_inb $n) $l, load_atB $fin (k0_off254 $n) (k0_off254_inb $n) $l, load_atB $fin (k0_off255 $n) (k0_off255_inb $n) $l, load_atB $fin (k0_off256 $n) (k0_off256_inb $n) $l, load_atB $fin (k0_off257 $n) (k0_off257_inb $n) $l, load_atB $fin (k0_off258 $n) (k0_off258_inb $n) $l, load_atB $fin (k0_off259 $n) (k0_off259_inb $n) $l, load_atB $fin (k0_off264 $n) (k0_off264_inb $n) $l, load_atB $fin (k0_off265 $n) (k0_off265_inb $n) $l, load_atB $fin (k0_off266 $n) (k0_off266_inb $n) $l, load_atB $fin (k0_off267 $n) (k0_off267_inb $n) $l, load_atB $fin (k0_off268 $n) (k0_off268_inb $n) $l, load_atB $fin (k0_off269 $n) (k0_off269_inb $n) $l, load_atB $fin (k0_off270 $n) (k0_off270_inb $n) $l, load_atB $fin (k0_off271 $n) (k0_off271_inb $n) $l, load_atB $fin (k0_off272 $n) (k0_off272_inb $n) $l, load_atB $fin (k0_off273 $n) (k0_off273_inb $n) $l, load_atB $fin (k0_off274 $n) (k0_off274_inb $n) $l, load_atB $fin (k0_off275 $n) (k0_off275_inb $n) $l, load_atB $fin (k0_off276 $n) (k0_off276_inb $n) $l, load_atB $fin (k0_off277 $n) (k0_off277_inb $n) $l, load_atB $fin (k0_off278 $n) (k0_off278_inb $n) $l, load_atB $fin (k0_off279 $n) (k0_off279_inb $n) $l, load_atB $fin (k0_off284 $n) (k0_off284_inb $n) $l, load_atB $fin (k0_off285 $n) (k0_off285_inb $n) $l, load_atB $fin (k0_off286 $n) (k0_off286_inb $n) $l, load_atB $fin (k0_off287 $n) (k0_off287_inb $n) $l, load_atB $fin (k0_off288 $n) (k0_off288_inb $n) $l, load_atB $fin (k0_off289 $n) (k0_off289_inb $n) $l, load_atB $fin (k0_off290 $n) (k0_off290_inb $n) $l, load_atB $fin (k0_off291 $n) (k0_off291_inb $n) $l, load_atB $fin (k0_off292 $n) (k0_off292_inb $n) $l, load_atB $fin (k0_off293 $n) (k0_off293_inb $n) $l, load_atB $fin (k0_off294 $n) (k0_off294_inb $n) $l, load_atB $fin (k0_off295 $n) (k0_off295_inb $n) $l, load_atB $fin (k0_off296 $n) (k0_off296_inb $n) $l, load_atB $fin (k0_off297 $n) (k0_off297_inb $n) $l, load_atB $fin (k0_off298 $n) (k0_off298_inb $n) $l, load_atB $fin (k0_off299 $n) (k0_off299_inb $n) $l, load_atB $fin (k0_off304 $n) (k0_off304_inb $n) $l, load_atB $fin (k0_off305 $n) (k0_off305_inb $n) $l, load_atB $fin (k0_off306 $n) (k0_off306_inb $n) $l, load_atB $fin (k0_off307 $n) (k0_off307_inb $n) $l, load_atB $fin (k0_off308 $n) (k0_off308_inb $n) $l, load_atB $fin (k0_off309 $n) (k0_off309_inb $n) $l, load_atB $fin (k0_off310 $n) (k0_off310_inb $n) $l, load_atB $fin (k0_off311 $n) (k0_off311_inb $n) $l, load_atB $fin (k0_off312 $n) (k0_off312_inb $n) $l, load_atB $fin (k0_off313 $n) (k0_off313_inb $n) $l, load_atB $fin (k0_off314 $n) (k0_off314_inb $n) $l, load_atB $fin (k0_off315 $n) (k0_off315_inb $n) $l, load_atB $fin (k0_off316 $n) (k0_off316_inb $n) $l, load_atB $fin (k0_off317 $n) (k0_off317_inb $n) $l, load_atB $fin (k0_off318 $n) (k0_off318_inb $n) $l, load_atB $fin (k0_off319 $n) (k0_off319_inb $n) $l]
             simp only [k0_off164_eq, k0_off165_eq, k0_off166_eq, k0_off167_eq, k0_off168_eq, k0_off169_eq, k0_off170_eq, k0_off171_eq, k0_off172_eq, k0_off173_eq, k0_off174_eq, k0_off175_eq, k0_off176_eq, k0_off177_eq, k0_off178_eq, k0_off179_eq, k0_off180_eq, k0_off181_eq, k0_off182_eq, k0_off183_eq, k0_off184_eq, k0_off185_eq, k0_off186_eq, k0_off187_eq, k0_off188_eq, k0_off189_eq, k0_off190_eq, k0_off191_eq, k0_off192_eq, k0_off193_eq, k0_off194_eq, k0_off195_eq, k0_off196_eq, k0_off197_eq, k0_off198_eq, k0_off199_eq, k0_off200_eq, k0_off201_eq, k0_off202_eq, k0_off203_eq, k0_off204_eq, k0_off205_eq, k0_off206_eq, k0_off207_eq, k0_off208_eq, k0_off209_eq, k0_off210_eq, k0_off211_eq, k0_off212_eq, k0_off213_eq, k0_off214_eq, k0_off215_eq, k0_off216_eq, k0_off217_eq, k0_off218_eq, k0_off219_eq, k0_off220_eq, k0_off221_eq, k0_off222_eq, k0_off223_eq, k0_off224_eq, k0_off225_eq, k0_off226_eq, k0_off227_eq, k0_off228_eq, k0_off229_eq, k0_off230_eq, k0_off231_eq, k0_off232_eq, k0_off233_eq, k0_off234_eq, k0_off235_eq, k0_off236_eq, k0_off237_eq, k0_off238_eq, k0_off239_eq, k0_off240_eq, k0_off241_eq, k0_off242_eq, k0_off243_eq, k0_off244_eq, k0_off245_eq, k0_off246_eq, k0_off247_eq, k0_off248_eq, k0_off249_eq, k0_off250_eq, k0_off251_eq, k0_off252_eq, k0_off253_eq, k0_off254_eq, k0_off255_eq, k0_off256_eq, k0_off257_eq, k0_off258_eq, k0_off259_eq, k0_off260_eq, k0_off261_eq, k0_off262_eq, k0_off263_eq, k0_off264_eq, k0_off265_eq, k0_off266_eq, k0_off267_eq, k0_off268_eq, k0_off269_eq, k0_off270_eq, k0_off271_eq, k0_off272_eq, k0_off273_eq, k0_off274_eq, k0_off275_eq, k0_off276_eq, k0_off277_eq, k0_off278_eq, k0_off279_eq, k0_off280_eq, k0_off281_eq, k0_off282_eq, k0_off283_eq, k0_off284_eq, k0_off285_eq, k0_off286_eq, k0_off287_eq, k0_off288_eq, k0_off289_eq, k0_off290_eq, k0_off291_eq, k0_off292_eq, k0_off293_eq, k0_off294_eq, k0_off295_eq, k0_off296_eq, k0_off297_eq, k0_off298_eq, k0_off299_eq, k0_off300_eq, k0_off301_eq, k0_off302_eq, k0_off303_eq, k0_off304_eq, k0_off305_eq, k0_off306_eq, k0_off307_eq, k0_off308_eq, k0_off309_eq, k0_off310_eq, k0_off311_eq, k0_off312_eq, k0_off313_eq, k0_off314_eq, k0_off315_eq, k0_off316_eq, k0_off317_eq, k0_off318_eq, k0_off319_eq, k0_off320_eq, k0_off321_eq, k0_off322_eq, k0_off323_eq]
             rfl))

set_option maxHeartbeats 6400000 in
theorem computeB_step (fin : Buf (Elt F) ((V d (cV L) (jV L)).loc cc0_scratch1)) (g0 : Buf (Elt F) ((V d (cV L) (jV L)).loc cc0_scratch3))
    (n : Fin k0_t3_loop.trips) :
    iprop((((inB).view.loc (V d (cV L) (jV L)) ↦{fullShare} fin : sProp 𝕄)) ∗ ((outB).view.loc (V d (cV L) (jV L)) ↦{fullShare} outAt fin g0 n.val))
      ⊢ wp frame (wpE (defs₀ (F := F)) 𝒱₀ (V d (cV L) (jV L)) none) Set.univ
          (k0_t3_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 n ⟨⟩)
          fun _ => iprop(((inB).view.loc (V d (cV L) (jV L)) ↦{fullShare} fin) ∗ ((outB).view.loc (V d (cV L) (jV L)) ↦{fullShare} outAt fin g0 (n.val + 1))) := by
  unfold k0_t3_body
  iintro ⟨Hin, Hout⟩
  sl_exec_parts
  sl_unfold_run_names
  rw [writes_rowB (F := F) fin g0 n.val _ ?hG ?hrow ?hcov]
  case hG =>
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    exact fun _ hp => absurd hp List.not_mem_nil
  case hrow =>
    refine List.forall_mem_cons.2 ⟨?_, ?_⟩
    · intro y hy
      exact piece_row (k0_off323 n) (k0_off323_inb n) (by rw [k0_off323_eq]; rfl) y hy
    refine List.forall_mem_cons.2 ⟨?_, ?_⟩
    · intro y hy
      exact piece_row (k0_off322 n) (k0_off322_inb n) (by rw [k0_off322_eq]; rfl) y hy
    refine List.forall_mem_cons.2 ⟨?_, ?_⟩
    · intro y hy
      exact piece_row (k0_off321 n) (k0_off321_inb n) (by rw [k0_off321_eq]; rfl) y hy
    refine List.forall_mem_cons.2 ⟨?_, ?_⟩
    · intro y hy
      exact piece_row (k0_off320 n) (k0_off320_inb n) (by rw [k0_off320_eq]; rfl) y hy
    refine List.forall_mem_cons.2 ⟨?_, ?_⟩
    · intro y hy
      exact piece_row (k0_off303 n) (k0_off303_inb n) (by rw [k0_off303_eq]; rfl) y hy
    refine List.forall_mem_cons.2 ⟨?_, ?_⟩
    · intro y hy
      exact piece_row (k0_off302 n) (k0_off302_inb n) (by rw [k0_off302_eq]; rfl) y hy
    refine List.forall_mem_cons.2 ⟨?_, ?_⟩
    · intro y hy
      exact piece_row (k0_off301 n) (k0_off301_inb n) (by rw [k0_off301_eq]; rfl) y hy
    refine List.forall_mem_cons.2 ⟨?_, ?_⟩
    · intro y hy
      exact piece_row (k0_off300 n) (k0_off300_inb n) (by rw [k0_off300_eq]; rfl) y hy
    refine List.forall_mem_cons.2 ⟨?_, ?_⟩
    · intro y hy
      exact piece_row (k0_off283 n) (k0_off283_inb n) (by rw [k0_off283_eq]; rfl) y hy
    refine List.forall_mem_cons.2 ⟨?_, ?_⟩
    · intro y hy
      exact piece_row (k0_off282 n) (k0_off282_inb n) (by rw [k0_off282_eq]; rfl) y hy
    refine List.forall_mem_cons.2 ⟨?_, ?_⟩
    · intro y hy
      exact piece_row (k0_off281 n) (k0_off281_inb n) (by rw [k0_off281_eq]; rfl) y hy
    refine List.forall_mem_cons.2 ⟨?_, ?_⟩
    · intro y hy
      exact piece_row (k0_off280 n) (k0_off280_inb n) (by rw [k0_off280_eq]; rfl) y hy
    refine List.forall_mem_cons.2 ⟨?_, ?_⟩
    · intro y hy
      exact piece_row (k0_off263 n) (k0_off263_inb n) (by rw [k0_off263_eq]; rfl) y hy
    refine List.forall_mem_cons.2 ⟨?_, ?_⟩
    · intro y hy
      exact piece_row (k0_off262 n) (k0_off262_inb n) (by rw [k0_off262_eq]; rfl) y hy
    refine List.forall_mem_cons.2 ⟨?_, ?_⟩
    · intro y hy
      exact piece_row (k0_off261 n) (k0_off261_inb n) (by rw [k0_off261_eq]; rfl) y hy
    refine List.forall_mem_cons.2 ⟨?_, ?_⟩
    · intro y hy
      exact piece_row (k0_off260 n) (k0_off260_inb n) (by rw [k0_off260_eq]; rfl) y hy
    refine List.forall_mem_cons.2 ⟨?_, ?_⟩
    · intro y hy
      exact piece_row (k0_off243 n) (k0_off243_inb n) (by rw [k0_off243_eq]; rfl) y hy
    refine List.forall_mem_cons.2 ⟨?_, ?_⟩
    · intro y hy
      exact piece_row (k0_off242 n) (k0_off242_inb n) (by rw [k0_off242_eq]; rfl) y hy
    refine List.forall_mem_cons.2 ⟨?_, ?_⟩
    · intro y hy
      exact piece_row (k0_off241 n) (k0_off241_inb n) (by rw [k0_off241_eq]; rfl) y hy
    refine List.forall_mem_cons.2 ⟨?_, ?_⟩
    · intro y hy
      exact piece_row (k0_off240 n) (k0_off240_inb n) (by rw [k0_off240_eq]; rfl) y hy
    refine List.forall_mem_cons.2 ⟨?_, ?_⟩
    · intro y hy
      exact piece_row (k0_off223 n) (k0_off223_inb n) (by rw [k0_off223_eq]; rfl) y hy
    refine List.forall_mem_cons.2 ⟨?_, ?_⟩
    · intro y hy
      exact piece_row (k0_off222 n) (k0_off222_inb n) (by rw [k0_off222_eq]; rfl) y hy
    refine List.forall_mem_cons.2 ⟨?_, ?_⟩
    · intro y hy
      exact piece_row (k0_off221 n) (k0_off221_inb n) (by rw [k0_off221_eq]; rfl) y hy
    refine List.forall_mem_cons.2 ⟨?_, ?_⟩
    · intro y hy
      exact piece_row (k0_off220 n) (k0_off220_inb n) (by rw [k0_off220_eq]; rfl) y hy
    refine List.forall_mem_cons.2 ⟨?_, ?_⟩
    · intro y hy
      exact piece_row (k0_off203 n) (k0_off203_inb n) (by rw [k0_off203_eq]; rfl) y hy
    refine List.forall_mem_cons.2 ⟨?_, ?_⟩
    · intro y hy
      exact piece_row (k0_off202 n) (k0_off202_inb n) (by rw [k0_off202_eq]; rfl) y hy
    refine List.forall_mem_cons.2 ⟨?_, ?_⟩
    · intro y hy
      exact piece_row (k0_off201 n) (k0_off201_inb n) (by rw [k0_off201_eq]; rfl) y hy
    refine List.forall_mem_cons.2 ⟨?_, ?_⟩
    · intro y hy
      exact piece_row (k0_off200 n) (k0_off200_inb n) (by rw [k0_off200_eq]; rfl) y hy
    refine List.forall_mem_cons.2 ⟨?_, ?_⟩
    · intro y hy
      exact piece_row (k0_off183 n) (k0_off183_inb n) (by rw [k0_off183_eq]; rfl) y hy
    refine List.forall_mem_cons.2 ⟨?_, ?_⟩
    · intro y hy
      exact piece_row (k0_off182 n) (k0_off182_inb n) (by rw [k0_off182_eq]; rfl) y hy
    refine List.forall_mem_cons.2 ⟨?_, ?_⟩
    · intro y hy
      exact piece_row (k0_off181 n) (k0_off181_inb n) (by rw [k0_off181_eq]; rfl) y hy
    refine List.forall_mem_cons.2 ⟨?_, ?_⟩
    · intro y hy
      exact piece_row (k0_off180 n) (k0_off180_inb n) (by rw [k0_off180_eq]; rfl) y hy
    exact fun _ hp => absurd hp List.not_mem_nil
  case hcov =>
    intro y hy
    have hk' : (y 1).val < 4 := (y 1).isLt
    have hc' : (y 2).val < 128 := (y 2).isLt
    obtain ⟨k, hk1⟩ : ∃ k, (y 1).val = k := ⟨_, rfl⟩
    obtain ⟨cg, hcg⟩ : ∃ cg, (y 2).val / 16 = cg := ⟨_, rfl⟩
    have hkb : k < 4 := by omega
    have hcgb : cg < 8 := by omega
    interval_cases k <;> interval_cases cg
    · exact ⟨_, List.getElem_mem (n := 31) (Nat.lt_of_lt_of_eq (by omega : 31 < 32) rfl), piece_mem (k0_off180 n) (k0_off180_inb n) y (k0_off180_eq n) hy hk1 (by omega)⟩
    · exact ⟨_, List.getElem_mem (n := 27) (Nat.lt_of_lt_of_eq (by omega : 27 < 32) rfl), piece_mem (k0_off200 n) (k0_off200_inb n) y (k0_off200_eq n) hy hk1 (by omega)⟩
    · exact ⟨_, List.getElem_mem (n := 23) (Nat.lt_of_lt_of_eq (by omega : 23 < 32) rfl), piece_mem (k0_off220 n) (k0_off220_inb n) y (k0_off220_eq n) hy hk1 (by omega)⟩
    · exact ⟨_, List.getElem_mem (n := 19) (Nat.lt_of_lt_of_eq (by omega : 19 < 32) rfl), piece_mem (k0_off240 n) (k0_off240_inb n) y (k0_off240_eq n) hy hk1 (by omega)⟩
    · exact ⟨_, List.getElem_mem (n := 15) (Nat.lt_of_lt_of_eq (by omega : 15 < 32) rfl), piece_mem (k0_off260 n) (k0_off260_inb n) y (k0_off260_eq n) hy hk1 (by omega)⟩
    · exact ⟨_, List.getElem_mem (n := 11) (Nat.lt_of_lt_of_eq (by omega : 11 < 32) rfl), piece_mem (k0_off280 n) (k0_off280_inb n) y (k0_off280_eq n) hy hk1 (by omega)⟩
    · exact ⟨_, List.getElem_mem (n := 7) (Nat.lt_of_lt_of_eq (by omega : 7 < 32) rfl), piece_mem (k0_off300 n) (k0_off300_inb n) y (k0_off300_eq n) hy hk1 (by omega)⟩
    · exact ⟨_, List.getElem_mem (n := 3) (Nat.lt_of_lt_of_eq (by omega : 3 < 32) rfl), piece_mem (k0_off320 n) (k0_off320_inb n) y (k0_off320_eq n) hy hk1 (by omega)⟩
    · exact ⟨_, List.getElem_mem (n := 30) (Nat.lt_of_lt_of_eq (by omega : 30 < 32) rfl), piece_mem (k0_off181 n) (k0_off181_inb n) y (k0_off181_eq n) hy hk1 (by omega)⟩
    · exact ⟨_, List.getElem_mem (n := 26) (Nat.lt_of_lt_of_eq (by omega : 26 < 32) rfl), piece_mem (k0_off201 n) (k0_off201_inb n) y (k0_off201_eq n) hy hk1 (by omega)⟩
    · exact ⟨_, List.getElem_mem (n := 22) (Nat.lt_of_lt_of_eq (by omega : 22 < 32) rfl), piece_mem (k0_off221 n) (k0_off221_inb n) y (k0_off221_eq n) hy hk1 (by omega)⟩
    · exact ⟨_, List.getElem_mem (n := 18) (Nat.lt_of_lt_of_eq (by omega : 18 < 32) rfl), piece_mem (k0_off241 n) (k0_off241_inb n) y (k0_off241_eq n) hy hk1 (by omega)⟩
    · exact ⟨_, List.getElem_mem (n := 14) (Nat.lt_of_lt_of_eq (by omega : 14 < 32) rfl), piece_mem (k0_off261 n) (k0_off261_inb n) y (k0_off261_eq n) hy hk1 (by omega)⟩
    · exact ⟨_, List.getElem_mem (n := 10) (Nat.lt_of_lt_of_eq (by omega : 10 < 32) rfl), piece_mem (k0_off281 n) (k0_off281_inb n) y (k0_off281_eq n) hy hk1 (by omega)⟩
    · exact ⟨_, List.getElem_mem (n := 6) (Nat.lt_of_lt_of_eq (by omega : 6 < 32) rfl), piece_mem (k0_off301 n) (k0_off301_inb n) y (k0_off301_eq n) hy hk1 (by omega)⟩
    · exact ⟨_, List.getElem_mem (n := 2) (Nat.lt_of_lt_of_eq (by omega : 2 < 32) rfl), piece_mem (k0_off321 n) (k0_off321_inb n) y (k0_off321_eq n) hy hk1 (by omega)⟩
    · exact ⟨_, List.getElem_mem (n := 29) (Nat.lt_of_lt_of_eq (by omega : 29 < 32) rfl), piece_mem (k0_off182 n) (k0_off182_inb n) y (k0_off182_eq n) hy hk1 (by omega)⟩
    · exact ⟨_, List.getElem_mem (n := 25) (Nat.lt_of_lt_of_eq (by omega : 25 < 32) rfl), piece_mem (k0_off202 n) (k0_off202_inb n) y (k0_off202_eq n) hy hk1 (by omega)⟩
    · exact ⟨_, List.getElem_mem (n := 21) (Nat.lt_of_lt_of_eq (by omega : 21 < 32) rfl), piece_mem (k0_off222 n) (k0_off222_inb n) y (k0_off222_eq n) hy hk1 (by omega)⟩
    · exact ⟨_, List.getElem_mem (n := 17) (Nat.lt_of_lt_of_eq (by omega : 17 < 32) rfl), piece_mem (k0_off242 n) (k0_off242_inb n) y (k0_off242_eq n) hy hk1 (by omega)⟩
    · exact ⟨_, List.getElem_mem (n := 13) (Nat.lt_of_lt_of_eq (by omega : 13 < 32) rfl), piece_mem (k0_off262 n) (k0_off262_inb n) y (k0_off262_eq n) hy hk1 (by omega)⟩
    · exact ⟨_, List.getElem_mem (n := 9) (Nat.lt_of_lt_of_eq (by omega : 9 < 32) rfl), piece_mem (k0_off282 n) (k0_off282_inb n) y (k0_off282_eq n) hy hk1 (by omega)⟩
    · exact ⟨_, List.getElem_mem (n := 5) (Nat.lt_of_lt_of_eq (by omega : 5 < 32) rfl), piece_mem (k0_off302 n) (k0_off302_inb n) y (k0_off302_eq n) hy hk1 (by omega)⟩
    · exact ⟨_, List.getElem_mem (n := 1) (Nat.lt_of_lt_of_eq (by omega : 1 < 32) rfl), piece_mem (k0_off322 n) (k0_off322_inb n) y (k0_off322_eq n) hy hk1 (by omega)⟩
    · exact ⟨_, List.getElem_mem (n := 28) (Nat.lt_of_lt_of_eq (by omega : 28 < 32) rfl), piece_mem (k0_off183 n) (k0_off183_inb n) y (k0_off183_eq n) hy hk1 (by omega)⟩
    · exact ⟨_, List.getElem_mem (n := 24) (Nat.lt_of_lt_of_eq (by omega : 24 < 32) rfl), piece_mem (k0_off203 n) (k0_off203_inb n) y (k0_off203_eq n) hy hk1 (by omega)⟩
    · exact ⟨_, List.getElem_mem (n := 20) (Nat.lt_of_lt_of_eq (by omega : 20 < 32) rfl), piece_mem (k0_off223 n) (k0_off223_inb n) y (k0_off223_eq n) hy hk1 (by omega)⟩
    · exact ⟨_, List.getElem_mem (n := 16) (Nat.lt_of_lt_of_eq (by omega : 16 < 32) rfl), piece_mem (k0_off243 n) (k0_off243_inb n) y (k0_off243_eq n) hy hk1 (by omega)⟩
    · exact ⟨_, List.getElem_mem (n := 12) (Nat.lt_of_lt_of_eq (by omega : 12 < 32) rfl), piece_mem (k0_off263 n) (k0_off263_inb n) y (k0_off263_eq n) hy hk1 (by omega)⟩
    · exact ⟨_, List.getElem_mem (n := 8) (Nat.lt_of_lt_of_eq (by omega : 8 < 32) rfl), piece_mem (k0_off283 n) (k0_off283_inb n) y (k0_off283_eq n) hy hk1 (by omega)⟩
    · exact ⟨_, List.getElem_mem (n := 4) (Nat.lt_of_lt_of_eq (by omega : 4 < 32) rfl), piece_mem (k0_off303 n) (k0_off303_inb n) y (k0_off303_eq n) hy hk1 (by omega)⟩
    · exact ⟨_, List.getElem_mem (n := 0) (Nat.lt_of_lt_of_eq (by omega : 0 < 32) rfl), piece_mem (k0_off323 n) (k0_off323_inb n) y (k0_off323_eq n) hy hk1 (by omega)⟩
  rw [wp_ret]; imodintro
  isplitl [Hin]; · iexact Hin
  iexact Hout

end Cert.KernelIdeal.Frame

end
-- ==== Proof.TileIdeal.lean ====
/-
  The tile's body of the SparseCore kernel, and the launch theorem's obligation for a tile.

  The body computes the tile's number and trip count, starts the copies of its first two input blocks, runs the
  pairs loop (four trips for every tile, by its invariant), runs the remainder loop (no trip), and waits for the
  last two output copies. It starts from the tile's read share of the input and its eight result blocks untouched,
  and ends with the share whole again, the eight blocks at the kernel's value, its scratch buffers at some contents
  and its four completion cells at zero.
-/
import proofs.«216336_g7232724927063_cont_9to1_m_658_15_alg».proof.Proof.PairsInvIdeal
import proofs.«216336_g7232724927063_cont_9to1_m_658_15_alg».proof.Proof.PairsStepIdeal
import proofs.«216336_g7232724927063_cont_9to1_m_658_15_alg».proof.Proof.ComputeAIdeal
import proofs.«216336_g7232724927063_cont_9to1_m_658_15_alg».proof.Proof.ComputeBIdeal

noncomputable section

namespace Cert.KernelIdeal.Frame

open Cert.KernelIdeal Cert.KernelIdeal.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.KernelIdeal.main_arg0_scv : Memref Cert.KernelIdeal.sig Kind.scVector Space.hbm Cert.KernelIdeal.S10000x16x128 EltTy.f32)
local notation "oV" => (Memref.whole Cert.KernelIdeal.main_v0_scv : Memref Cert.KernelIdeal.sig Kind.scVector Space.hbm Cert.KernelIdeal.S4096x4x128 EltTy.f32)
local notation "inA" => (Memref.whole Cert.KernelIdeal.cc0_scratch0 : Memref Cert.KernelIdeal.sig Kind.scVector Space.vmem Cert.KernelIdeal.S16x16x128 EltTy.f32)
local notation "inB" => (Memref.whole Cert.KernelIdeal.cc0_scratch1 : Memref Cert.KernelIdeal.sig Kind.scVector Space.vmem Cert.KernelIdeal.S16x16x128 EltTy.f32)
local notation "outA" => (Memref.whole Cert.KernelIdeal.cc0_scratch2 : Memref Cert.KernelIdeal.sig Kind.scVector Space.vmem Cert.KernelIdeal.S16x4x128 EltTy.f32)
local notation "outB" => (Memref.whole Cert.KernelIdeal.cc0_scratch3 : Memref Cert.KernelIdeal.sig Kind.scVector Space.vmem Cert.KernelIdeal.S16x4x128 EltTy.f32)

variable [FloatOps F]

/-! ## The tile's body -/

set_option maxHeartbeats 1600000 in
theorem tile_body
    (hstepA : ∀ (fin : Buf (Elt F) ((V d (cV L) (jV L)).loc cc0_scratch0)) (g0 : Buf (Elt F) ((V d (cV L) (jV L)).loc cc0_scratch2)) (a b c0 c1 : BitVec 32) (k1 : Fin (k0_t1_loop L).trips) (n : Fin k0_t2_loop.trips),
      (iprop(((inA).view.loc (V d (cV L) (jV L)) ↦{fullShare} fin) ∗ ((outA).view.loc (V d (cV L) (jV L)) ↦{fullShare} outAt fin g0 n.val)) : sProp 𝕄)
        ⊢ wp frame (wpE (defs₀ (F := F)) 𝒱₀ (V d (cV L) (jV L)) none) Set.univ
            (k0_t2_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 a b c0 c1 k1 n ⟨⟩)
            fun _ => iprop(((inA).view.loc (V d (cV L) (jV L)) ↦{fullShare} fin) ∗ ((outA).view.loc (V d (cV L) (jV L)) ↦{fullShare} outAt fin g0 (n.val + 1))))
    (hstepB : ∀ (fin : Buf (Elt F) ((V d (cV L) (jV L)).loc cc0_scratch1)) (g0 : Buf (Elt F) ((V d (cV L) (jV L)).loc cc0_scratch3)) (n : Fin k0_t3_loop.trips),
      (iprop(((inB).view.loc (V d (cV L) (jV L)) ↦{fullShare} fin) ∗ ((outB).view.loc (V d (cV L) (jV L)) ↦{fullShare} outAt fin g0 n.val)) : sProp 𝕄)
        ⊢ wp frame (wpE (defs₀ (F := F)) 𝒱₀ (V d (cV L) (jV L)) none) Set.univ
            (k0_t3_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 n ⟨⟩)
            fun _ => iprop(((inB).view.loc (V d (cV L) (jV L)) ↦{fullShare} fin) ∗ ((outB).view.loc (V d (cV L) (jV L)) ↦{fullShare} outAt fin g0 (n.val + 1))))
    (hF : (K (F := F)).Facts) (O : CellTallies nD τ sig (HIx 1)) (W : Waits sig (HIx 1)) (hO : ∀ g, O g none = 0) :
    iprop(levAts (K (F := F)).L (K (F := F)).lev ∗ emp
        ∗ (xPtsT m d (cL L) (sL L) ∗ oPtsT d (cL L) (sL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7)
          fun _ => iprop((xPtsT m d (cL L) (sL L) ∗ oPtsT d (cL L) (sL L) (scOut (m (xLoc d)))) ∗ scopedBufs (V d (cV L) (jV L)) ∗ scopedSems0 (V d (cV L) (jV L))
            ∗ ∃ W', ⌜∀ p ∈ W', p ∈ W ∨ p.2 = none⌝ ∗ owes (V d (cV L) (jV L)) O W') := by
  have e4 : Scf.trips (k0_t1_loop L).lb (k0_t1_loop L).ub (k0_t1_loop L).st = 4 := t1_trips L
  have h40 : (k0_t4_loop L).trips = 0 := t4_trips L
  have n44 : ¬ (4 < 4) := by omega
  have p44 : 0 < 4 ∧ 4 ≤ 4 := by omega
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fa, Hia⟩, ⟨%fb, Hib⟩, ⟨%ga, Hoa⟩, ⟨%gb, Hob⟩, Hbufs⟩, ⟨HsIA, HsIB, HsOA, HsOB, Hsems⟩, HO⟩
  ihave Hmw := ((K (F := F)).mayWaits_none (thr := V d (cV L) (jV L)) hO) $$ Hlv
  -- the tile's read share of the input, one part per input slot
  ihave Hx2 := (Transfers.pointsTo_toks_split (xTokT (cL L) (sL L)) 2) $$ Hx
  icases Hx2 with ⟨Hxr, Hxt⟩
  ihave Hxt' := (Entails.of_eq (bigSep_fin2 (F := F) _)) $$ Hxt
  icases Hxt' with ⟨Hxa, Hxb⟩
  ihave Hxa' := (Entails.of_eq (pts_x (F := F) d L _ _).symm) $$ Hxa
  ihave Hxb' := (Entails.of_eq (pts_x (F := F) d L _ _).symm) $$ Hxb
  ihave Hia' := (Entails.of_eq (pts_inA (F := F) d L _).symm) $$ Hia
  ihave Hib' := (Entails.of_eq (pts_inB (F := F) d L _).symm) $$ Hib
  ihave Hoa' := (Entails.of_eq (pts_outA (F := F) d L _).symm) $$ Hoa
  ihave Hob' := (Entails.of_eq (pts_outB (F := F) d L _).symm) $$ Hob
  ihave Htodo := (Entails.of_eq (todo_zero (F := F) m d L).symm) $$ Ho
  sl_exec_parts
  sl_for (pairsInv m d L O W) $$ [Hmw HsIA Hxa' HsIB Hxb' HsOA Hoa' HsOB Hob' Htodo HO]
  case region =>
    intro k acc
    by_cases hk0 : k.val = 0
    · exact trip_first m d L hstepA hstepB O W _ _ k hk0
    · by_cases hk3 : k.val < 3
      · exact trip_mid m d L hstepA hstepB O W _ _ k (Nat.pos_of_ne_zero hk0) hk3
      · exact trip_last m d L hstepA hstepB O W _ _ k hk3
  · unfold pairsInv inPartA inPartB outPartA outPartB
    simp only [dif_pos (show 0 < 4 by omega), dif_neg (show ¬ (0 < 0 ∧ 0 ≤ 4) by omega)]
    rw [landed_low m d L 0 (by omega)]
    unfold inFlA inFlB outIdleA outIdleB
    isplitr; · iexact Hmw
    isplitl [HsIA Hxa']
    · isplitl [HsIA]
      · iapply (Transfers.Flight_mono countersEmb _ (in_deliverA m d L (2 * 0) _ (tokA L) (k0_off1 L 0#32) (k0_off1_inb L 0) (off1_eq' L 0) _ _ rfl))
        iexact HsIA
      · iapply (x_rest m d L (2 * 0) _ (tokA L) (k0_off1 L 0#32) (k0_off1_inb L 0) (off1_eq' L 0))
        iexact Hxa'
    isplitl [HsIB Hxb']
    · isplitl [HsIB]
      · iapply (Transfers.Flight_mono countersEmb _ (in_deliverB m d L (2 * 0 + 1) _ (tokB L) (k0_off1 L 32#32) (k0_off1_inb L 1) (off1_eq' L 1) _ _ rfl))
        iexact HsIB
      · iapply (x_rest m d L (2 * 0 + 1) _ (tokB L) (k0_off1 L 32#32) (k0_off1_inb L 1) (off1_eq' L 1))
        iexact Hxb'
    isplitl [HsOA Hoa']
    · iexists _; isplitl [HsOA]; · iexact HsOA
      iexact Hoa'
    isplitl [HsOB Hob']
    · iexists _; isplitl [HsOB]; · iexact HsOB
      iexact Hob'
    isplitl [Htodo]; · iexact Htodo
    isplitr; · iempintro
    iexists W; isplitr
    · ipureintro; exact fun p hp => .inl hp
    · iexact HO
  iintro %_ HI
  rw [e4]
  unfold pairsInv inPartA inPartB outPartA outPartB
  simp only [dif_neg n44, dif_pos p44]
  rw [todo_four]
  unfold inIdleA inIdleB outFlA outFlB
  icases HI with ⟨-, ⟨HsIA, ⟨%fa', Hia⟩, Hxa⟩, ⟨HsIB, ⟨%fb', Hib⟩, Hxb⟩, ⟨%ga', HfOA⟩, ⟨%gb', HfOB⟩, -, Hland, ⟨%W', %hW', HO⟩⟩
  sl_exec_parts
  sl_step
  isplitl [Hxr Hxa Hxb Hland HfOA_dst HfOB_dst]
  · isplitl [Hxr Hxa Hxb]
    · -- the tile's read share of the input, whole again
      iapply (Transfers.pointsTo_toks_join (xTokT (cL L) (sL L)) 2)
      isplitl [Hxr]; · iexact Hxr
      iapply (Entails.of_eq (bigSep_fin2 (F := F) _).symm)
      isplitl [Hxa]
      · iapply (Entails.of_eq (pts_x (F := F) d L _ _)); iexact Hxa
      · iapply (Entails.of_eq (pts_x (F := F) d L _ _)); iexact Hxb
    · -- the eight result blocks at the kernel's value
      iapply (landed_all m d L)
      isplitl [Hland]; · iexact Hland
      isplitl [HfOA_dst]; · iexact HfOA_dst
      iexact HfOB_dst
  isplitl [Hia Hib HfOA_src HfOB_src Hbufs]
  · isplitl [Hia]; · iexists _; iexact Hia
    isplitl [Hib]; · iexists _; iexact Hib
    isplitl [HfOA_src]; · iexists _; iexact HfOA_src
    isplitl [HfOB_src]; · iexists _; iexact HfOB_src
    iexact Hbufs
  isplitl [HsIA HsIB HfOA HfOB Hsems]
  · isplitl [HsIA]; · iexact HsIA
    isplitl [HsIB]; · iexact HsIB
    isplitl [HfOA]; · iexact HfOA
    isplitl [HfOB]; · iexact HfOB
    iexact Hsems
  iexists _; isplitr
  swap
  · iexact HO
  · ipureintro
    intro p hp
    simp only [Finset.mem_insert] at hp
    rcases hp with rfl | rfl | hp
    · exact .inr rfl
    · exact .inr rfl
    · exact hW' p hp

/-! ## The launch theorem's obligation for a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) inA (Memref.isWhole_whole _) inB (Memref.isWhole_whole _)
          outA (Memref.isWhole_whole _) outB (Memref.isWhole_whole _) cc0_scratch4 cc0_scratch5 cc0_scratch6 cc0_scratch7) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each tile's task, from its read share of the input and its eight result blocks untouched to the blocks at the
    kernel's value: the tile's body, with the compute pass's step as proved. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩)
      (fun fin g0 a b c0 c1 k1 n => computeA_step d (coordsV ⟨_, hc.1⟩ ⟨_, hc.2⟩) fin g0 a b c0 c1 k1 n)
      (fun fin g0 n => computeB_step d (coordsV ⟨_, hc.1⟩ ⟨_, hc.2⟩) fin g0 n)
      facts O W hO).trans (wp_mono frame _ _ fun _ => obl_post)

end Cert.KernelIdeal.Frame

end
-- ==== Proof.TileBaseBits.lean ====
/-
  A tile's view of the SparseCore kernel: its thread, the memrefs the body is called with, its four completion cells,
  how its own scoped buffers and semaphores open into the four scratch buffers and the four cells, and the function
  one pass of the compute loop leaves in an output scratch.

  One compute pass reads a 16-node block held in an input scratch `fin` (16 × 16 × 128) and writes the 16 × 4 × 128
  output scratch: entry (n, k, c) is the piece-`k` expression tree over the squares fin[n, r, c]², r = 0…15 — the same
  tree the kernel's result function `scRow` is built from.
-/
import proofs.«216336_g7232724927063_cont_9to1_m_658_15_alg».proof.Proof.BaseBits
import proofs.«216336_g7232724927063_cont_9to1_m_658_15_alg».proof.Proof.Gen.Kernel.Skeleton
import Idealize.ShloMosaic.Lib.SparseCore.Launch
import Idealize.ShloMosaic.Lib.SparseCore.Ops
import Idealize.ShloMosaic.Lib.StableHlo.Run
import Idealize.ShloMosaic.Lib.Tactic

noncomputable section

namespace Cert.Kernel.Frame

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

/-! ## The tile and its memrefs -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev cL (L : grid0.Coords) : Fin 2 := Fin.cast bound_zero (L 0)
abbrev sL (L : grid0.Coords) : Fin 16 := Fin.cast bound_one (L 1)

local notation "xV" => (Memref.whole Cert.Kernel.main_arg0_scv : Memref Cert.Kernel.sig Kind.scVector Space.hbm Cert.Kernel.S10000x16x128 EltTy.f32)
local notation "oV" => (Memref.whole Cert.Kernel.main_v0_scv : Memref Cert.Kernel.sig Kind.scVector Space.hbm Cert.Kernel.S4096x4x128 EltTy.f32)
local notation "inA" => (Memref.whole Cert.Kernel.cc0_scratch0 : Memref Cert.Kernel.sig Kind.scVector Space.vmem Cert.Kernel.S16x16x128 EltTy.f32)
local notation "inB" => (Memref.whole Cert.Kernel.cc0_scratch1 : Memref Cert.Kernel.sig Kind.scVector Space.vmem Cert.Kernel.S16x16x128 EltTy.f32)
local notation "outA" => (Memref.whole Cert.Kernel.cc0_scratch2 : Memref Cert.Kernel.sig Kind.scVector Space.vmem Cert.Kernel.S16x4x128 EltTy.f32)
local notation "outB" => (Memref.whole Cert.Kernel.cc0_scratch3 : Memref Cert.Kernel.sig Kind.scVector Space.vmem Cert.Kernel.S16x4x128 EltTy.f32)

/-- the four completion cells of the tile: input slot A, input slot B, output slot A, output slot B -/
abbrev cellIA (d : Dev nD) (c : Fin τ.nSC) (i : Fin τ.nSub) : GSem nD τ sig := (V d c i, .dma cc0_scratch4.sem)
abbrev cellIB (d : Dev nD) (c : Fin τ.nSC) (i : Fin τ.nSub) : GSem nD τ sig := (V d c i, .dma cc0_scratch5.sem)
abbrev cellOA (d : Dev nD) (c : Fin τ.nSC) (i : Fin τ.nSub) : GSem nD τ sig := (V d c i, .dma cc0_scratch6.sem)
abbrev cellOB (d : Dev nD) (c : Fin τ.nSC) (i : Fin τ.nSub) : GSem nD τ sig := (V d c i, .dma cc0_scratch7.sem)

theorem ownSems0_V :
    (ownSems0 (V d (cV L) (jV L)) : sProp 𝕄)
      = iprop(semVal (cellIA d (cV L) (jV L)) 0 ∗ semVal (cellIB d (cV L) (jV L)) 0 ∗ semVal (cellOA d (cV L) (jV L)) 0 ∗ semVal (cellOB d (cV L) (jV L)) 0
          ∗ bigSep (((((ownCells (V d (cV L) (jV L))).erase (cellIA d (cV L) (jV L))).erase (cellIB d (cV L) (jV L))).erase (cellOA d (cV L) (jV L))).erase (cellOB d (cV L) (jV L)))
              fun g => semVal g 0) := by
  unfold SparseCore.Cfg.ownSems0
  have hA := (mem_ownCells (sig := sig) (g := cellIA d (cV L) (jV L))).mpr ⟨rfl, by show (SemLoc.dma cc0_scratch4.sem : SemLoc sig).isScoped .scVector = true; decide⟩
  have hB := (mem_ownCells (sig := sig) (g := cellIB d (cV L) (jV L))).mpr ⟨rfl, by show (SemLoc.dma cc0_scratch5.sem : SemLoc sig).isScoped .scVector = true; decide⟩
  have hC := (mem_ownCells (sig := sig) (g := cellOA d (cV L) (jV L))).mpr ⟨rfl, by show (SemLoc.dma cc0_scratch6.sem : SemLoc sig).isScoped .scVector = true; decide⟩
  have hD := (mem_ownCells (sig := sig) (g := cellOB d (cV L) (jV L))).mpr ⟨rfl, by show (SemLoc.dma cc0_scratch7.sem : SemLoc sig).isScoped .scVector = true; decide⟩
  have nBA : cellIB d (cV L) (jV L) ≠ cellIA d (cV L) (jV L) := by simp [cellIA, cellIB]; decide
  have nCA : cellOA d (cV L) (jV L) ≠ cellIA d (cV L) (jV L) := by simp [cellIA, cellOA]; decide
  have nCB : cellOA d (cV L) (jV L) ≠ cellIB d (cV L) (jV L) := by simp [cellIB, cellOA]; decide
  have nDA : cellOB d (cV L) (jV L) ≠ cellIA d (cV L) (jV L) := by simp [cellIA, cellOB]; decide
  have nDB : cellOB d (cV L) (jV L) ≠ cellIB d (cV L) (jV L) := by simp [cellIB, cellOB]; decide
  have nDC : cellOB d (cV L) (jV L) ≠ cellOA d (cV L) (jV L) := by simp [cellOA, cellOB]; decide
  rw [SparseCore.bigSep_erase' hA,
    SparseCore.bigSep_erase' (Finset.mem_erase.mpr ⟨nBA, hB⟩),
    SparseCore.bigSep_erase' (Finset.mem_erase.mpr ⟨nCB, Finset.mem_erase.mpr ⟨nCA, hC⟩⟩),
    SparseCore.bigSep_erase' (Finset.mem_erase.mpr ⟨nDC, Finset.mem_erase.mpr ⟨nDB, Finset.mem_erase.mpr ⟨nDA, hD⟩⟩⟩)]

/-- The four scratch buffers are among the tile's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase ((Proc.scVector (cV L) (jV L)).devRef cc0_scratch3))
              fun b => iprop(∃ f, ((d, b) : Loc nD τ sig) ↦{fullShare} f)) := by
  unfold SparseCore.Cfg.ownBufs
  have h0 := SparseCore.Cfg.mem_ownRefs_of_owner (τ := τ) (sig := sig) (p := Proc.scVector (cV L) (jV L)) (b := (Proc.scVector (cV L) (jV L)).devRef cc0_scratch0) rfl
  have h1 := SparseCore.Cfg.mem_ownRefs_of_owner (τ := τ) (sig := sig) (p := Proc.scVector (cV L) (jV L)) (b := (Proc.scVector (cV L) (jV L)).devRef cc0_scratch1) rfl
  have h2 := SparseCore.Cfg.mem_ownRefs_of_owner (τ := τ) (sig := sig) (p := Proc.scVector (cV L) (jV L)) (b := (Proc.scVector (cV L) (jV L)).devRef cc0_scratch2) rfl
  have h3 := SparseCore.Cfg.mem_ownRefs_of_owner (τ := τ) (sig := sig) (p := Proc.scVector (cV L) (jV L)) (b := (Proc.scVector (cV L) (jV L)).devRef cc0_scratch3) rfl
  have ne (a b : Ref sig .scVector) (h : a ≠ b) : (Proc.scVector (cV L) (jV L)).devRef a ≠ (Proc.scVector (cV L) (jV L)).devRef b :=
    fun e => absurd (Proc.devRef_injective _ e) h
  refine (SparseCore.bigSep_erase' h0).trans ?_
  rw [SparseCore.bigSep_erase' (Finset.mem_erase.mpr ⟨ne cc0_scratch1 cc0_scratch0 (by decide), h1⟩),
    SparseCore.bigSep_erase' (Finset.mem_erase.mpr ⟨ne cc0_scratch2 cc0_scratch1 (by decide), Finset.mem_erase.mpr ⟨ne cc0_scratch2 cc0_scratch0 (by decide), h2⟩⟩),
    SparseCore.bigSep_erase' (Finset.mem_erase.mpr ⟨ne cc0_scratch3 cc0_scratch2 (by decide), Finset.mem_erase.mpr ⟨ne cc0_scratch3 cc0_scratch1 (by decide),
      Finset.mem_erase.mpr ⟨ne cc0_scratch3 cc0_scratch0 (by decide), h3⟩⟩⟩)]

/-- The input as a tile's memref addresses it is the TensorCore's array. -/
theorem pts_x (q : PosShare TreeShare) (f : Buf (Elt F) (xLoc d)) :
    ((xV).view.loc (V d (cV L) (jV L)) ↦{q} f : sProp 𝕄) = xLoc d ↦{q} f := by
  simp only [Memref.view_whole, View.set_whole]

theorem univ_fin2 : (Finset.univ : Finset (Fin 2)) = {0, 1} := by decide

theorem bigSep_fin2 (Φ : Fin 2 → sProp 𝕄) : (bigSep Finset.univ Φ) = iprop(Φ 0 ∗ Φ 1) := by
  rw [univ_fin2, SparseCore.bigSep_insert' (by decide), bigSep_singleton]

/-- The four scratch buffers as the body's whole memrefs address them. -/
theorem pts_inA (f : Buf (Elt F) ((V d (cV L) (jV L)).loc cc0_scratch0)) :
    ((inA).view.loc (V d (cV L) (jV L)) ↦{fullShare} f : sProp 𝕄) = (V d (cV L) (jV L)).loc cc0_scratch0 ↦{fullShare} f := rfl
theorem pts_inB (f : Buf (Elt F) ((V d (cV L) (jV L)).loc cc0_scratch1)) :
    ((inB).view.loc (V d (cV L) (jV L)) ↦{fullShare} f : sProp 𝕄) = (V d (cV L) (jV L)).loc cc0_scratch1 ↦{fullShare} f := rfl
theorem pts_outA (f : Buf (Elt F) ((V d (cV L) (jV L)).loc cc0_scratch2)) :
    ((outA).view.loc (V d (cV L) (jV L)) ↦{fullShare} f : sProp 𝕄) = (V d (cV L) (jV L)).loc cc0_scratch2 ↦{fullShare} f := rfl
theorem pts_outB (f : Buf (Elt F) ((V d (cV L) (jV L)).loc cc0_scratch3)) :
    ((outB).view.loc (V d (cV L) (jV L)) ↦{fullShare} f : sProp 𝕄) = (V d (cV L) (jV L)).loc cc0_scratch3 ↦{fullShare} f := rfl

variable [FloatOps F]

/-! ## Trip counts -/

theorem t1_trips : ∀ i : grid0.Coords, (k0_t1_loop i).trips = 4 := by decide +kernel
theorem t4_trips : ∀ i : grid0.Coords, (k0_t4_loop i).trips = 0 := by decide +kernel

/-! ## One compute pass as a function -/

/-- The four piece results from the sixteen squares, summed and scaled in the kernel's own order. -/
def tree4 (q : Fin 16 → F .f32) : Fin 4 → F .f32 :=
  ![q 0,
    FloatOps.mulf (FloatOps.addf (FloatOps.addf (q 1) (q 2)) (q 3)) (Scalar.ofBits .f32 0x3EAAAAAB#32),
    FloatOps.mulf (FloatOps.addf (FloatOps.addf (FloatOps.addf (q 4) (q 5)) (FloatOps.addf (q 6) (q 7))) (q 8)) (Scalar.ofBits .f32 0x3E4CCCCD#32),
    FloatOps.mulf (FloatOps.addf (FloatOps.addf (FloatOps.addf (q 9) (q 10)) (FloatOps.addf (q 11) (q 12)))
      (FloatOps.addf (FloatOps.addf (q 13) (q 14)) (q 15))) (Scalar.ofBits .f32 0x3E124925#32)]

theorem scRow_eq_tree4 (x : FVec F S10000x16x128 .f32) (n : Fin 10000) (c : Fin 128) : scRow x n c = tree4 (sqAt x n c) := rfl

/-- What a compute pass leaves in the output scratch, from the input scratch's contents. -/
def blockOut (fin : FVec F S16x16x128 .f32) : FVec F S16x4x128 .f32 := fun j =>
  tree4 (fun r => FloatOps.mulf (fin (ix3 (j 0) r (j 2))) (fin (ix3 (j 0) r (j 2)))) (j 1)

/-- The output scratch before trip `n` of a pass: rows below `n` done, the others as the pass found them. -/
def outAt (fin : FVec F S16x16x128 .f32) (g0 : FVec F S16x4x128 .f32) (n : ℕ) : FVec F S16x4x128 .f32 := fun j =>
  if (j 0).val < n then blockOut fin j else g0 j

theorem outAt_zero (fin : FVec F S16x16x128 .f32) (g0 : FVec F S16x4x128 .f32) : outAt fin g0 0 = g0 := by
  funext j; simp [outAt]

theorem outAt_full (fin : FVec F S16x16x128 .f32) (g0 : FVec F S16x4x128 .f32) : outAt fin g0 16 = blockOut fin := by
  funext j
  have := (j 0).isLt
  simp only [Matrix.cons_val_zero] at this
  simp [outAt, this]

end Cert.Kernel.Frame

end
-- ==== Proof.BlocksBits.lean ====
/-
  The tile's eight blocks in one spelling. Block b (0…7) of tile (c, s) starts at row 16·(2s + c) + 512·b of the
  kernel's 4096-row result and at row 5904 more of the input. The rectangles the body slices with are these, by the
  generated closed forms of its offset chains.
-/
import proofs.«216336_g7232724927063_cont_9to1_m_658_15_alg».proof.Proof.TileBaseBits

noncomputable section

namespace Cert.Kernel.Frame

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg0_scv : Memref Cert.Kernel.sig Kind.scVector Space.hbm Cert.Kernel.S10000x16x128 EltTy.f32)
local notation "oV" => (Memref.whole Cert.Kernel.main_v0_scv : Memref Cert.Kernel.sig Kind.scVector Space.hbm Cert.Kernel.S4096x4x128 EltTy.f32)
local notation "inA" => (Memref.whole Cert.Kernel.cc0_scratch0 : Memref Cert.Kernel.sig Kind.scVector Space.vmem Cert.Kernel.S16x16x128 EltTy.f32)
local notation "inB" => (Memref.whole Cert.Kernel.cc0_scratch1 : Memref Cert.Kernel.sig Kind.scVector Space.vmem Cert.Kernel.S16x16x128 EltTy.f32)
local notation "outA" => (Memref.whole Cert.Kernel.cc0_scratch2 : Memref Cert.Kernel.sig Kind.scVector Space.vmem Cert.Kernel.S16x4x128 EltTy.f32)
local notation "outB" => (Memref.whole Cert.Kernel.cc0_scratch3 : Memref Cert.Kernel.sig Kind.scVector Space.vmem Cert.Kernel.S16x4x128 EltTy.f32)

/-- first result row of the tile's block `b` -/
def wOff (L : grid0.Coords) (b : ℕ) : ℕ := 32 * (L 1).val + 16 * (L 0).val + 512 * b

theorem L0_lt (L : grid0.Coords) : (L 0).val < 2 := (L 0).isLt
theorem L1_lt (L : grid0.Coords) : (L 1).val < 16 := (L 1).isLt

theorem xOff_inb (L : grid0.Coords) (b : ℕ) (hb : b < 8) :
    ∀ a, (![wOff L b + 5904, 0, 0] : Fin 3 → ℕ) a + S16x16x128.size a ≤ S10000x16x128.size a := by
  have h0 := L0_lt L; have h1 := L1_lt L
  intro a; fin_cases a <;> simp [wOff, Shape.size] <;> omega

theorem oOff_inb (L : grid0.Coords) (b : ℕ) (hb : b < 8) :
    ∀ a, (![wOff L b, 0, 0] : Fin 3 → ℕ) a + S16x4x128.size a ≤ S4096x4x128.size a := by
  have h0 := L0_lt L; have h1 := L1_lt L
  intro a; fin_cases a <;> simp [wOff, Shape.size] <;> omega

/-- input block `b` of the tile, as a rectangle of the input and as the memref the body slices -/
abbrev xRect (L : grid0.Coords) (b : ℕ) (hb : b < 8) : Rect S10000x16x128 :=
  Rect.unit (s := S10000x16x128) ![wOff L b + 5904, 0, 0] S16x16x128.size (xOff_inb L b hb)
abbrev xSl (L : grid0.Coords) (b : ℕ) (hb : b < 8) : Memref sig .scVector .hbm S16x16x128 .f32 :=
  (xV).slice (xRect L b hb) (fun _ => rfl)
/-- result block `b` of the tile -/
abbrev oRect (L : grid0.Coords) (b : ℕ) (hb : b < 8) : Rect S4096x4x128 :=
  Rect.unit (s := S4096x4x128) ![wOff L b, 0, 0] S16x4x128.size (oOff_inb L b hb)
abbrev oSl (L : grid0.Coords) (b : ℕ) (hb : b < 8) : Memref sig .scVector .hbm S16x4x128 .f32 :=
  (oV).slice (oRect L b hb) (fun _ => rfl)

theorem rect_unit_congr {s : Shape} {off off' : Fin s.rank → ℕ} (size : Fin s.rank → ℕ) (h : off = off')
    (inb : ∀ a, off a + size a ≤ s.size a) (inb' : ∀ a, off' a + size a ≤ s.size a) :
    Rect.unit (s := s) off size inb = Rect.unit (s := s) off' size inb' := by
  subst h; rfl

/-- The body's rectangles are the tile's blocks. -/
theorem rect_in0 (r : Fin 2) (inb) :
    Rect.unit (s := S10000x16x128) (k0_off1 L (BitVec.ofNat 32 (32 * r.val))) S16x16x128.size inb = xRect L r.val (by omega) :=
  rect_unit_congr _ (by rw [k0_off1_eq]; simp [wOff] <;> ring_nf) _ _
theorem rect_inA (k : Fin (k0_t1_loop L).trips) (inb) (hb : 2 * k.val + 2 < 8) :
    Rect.unit (s := S10000x16x128) (k0_off163 L k) S16x16x128.size inb = xRect L (2 * k.val + 2) hb :=
  rect_unit_congr _ (by rw [k0_off163_eq]; simp [wOff] <;> ring_nf) _ _
theorem rect_inB (k : Fin (k0_t1_loop L).trips) (inb) (hb : 2 * k.val + 3 < 8) :
    Rect.unit (s := S10000x16x128) (k0_off325 L k) S16x16x128.size inb = xRect L (2 * k.val + 3) hb :=
  rect_unit_congr _ (by rw [k0_off325_eq]; simp [wOff] <;> ring_nf) _ _
theorem rect_outA (k : Fin (k0_t1_loop L).trips) (inb) (hb : 2 * k.val < 8) :
    Rect.unit (s := S4096x4x128) (k0_off162 L k) S16x4x128.size inb = oRect L (2 * k.val) hb :=
  rect_unit_congr _ (by rw [k0_off162_eq]; simp [wOff] <;> ring_nf) _ _
theorem rect_outB (k : Fin (k0_t1_loop L).trips) (inb) (hb : 2 * k.val + 1 < 8) :
    Rect.unit (s := S4096x4x128) (k0_off324 L k) S16x4x128.size inb = oRect L (2 * k.val + 1) hb :=
  rect_unit_congr _ (by rw [k0_off324_eq]; simp [wOff] <;> ring_nf) _ _

end Cert.Kernel.Frame

end
-- ==== Proof.BlockStateBits.lean ====
/-
  Bookkeeping for the tile's eight result blocks across the trips of the pairs loop, and the passage between the
  body's spelling of a block (a slice of the result array at computed offsets) and the launch's (part number
  (2s + c) + 32·b of the 256 sixteen-row parts).

  Before trip k (k = 0…4) blocks 2k, 2k+1, … are untouched (`todo k`), blocks below 2k − 2 have landed at the kernel's
  value (`landed k`), and blocks 2k − 2, 2k − 1 are on their way (held by their copies).
-/
import proofs.«216336_g7232724927063_cont_9to1_m_658_15_alg».proof.Proof.BlocksBits

noncomputable section

namespace Cert.Kernel.Frame

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg0_scv : Memref Cert.Kernel.sig Kind.scVector Space.hbm Cert.Kernel.S10000x16x128 EltTy.f32)
local notation "oV" => (Memref.whole Cert.Kernel.main_v0_scv : Memref Cert.Kernel.sig Kind.scVector Space.hbm Cert.Kernel.S4096x4x128 EltTy.f32)
local notation "inA" => (Memref.whole Cert.Kernel.cc0_scratch0 : Memref Cert.Kernel.sig Kind.scVector Space.vmem Cert.Kernel.S16x16x128 EltTy.f32)
local notation "inB" => (Memref.whole Cert.Kernel.cc0_scratch1 : Memref Cert.Kernel.sig Kind.scVector Space.vmem Cert.Kernel.S16x16x128 EltTy.f32)
local notation "outA" => (Memref.whole Cert.Kernel.cc0_scratch2 : Memref Cert.Kernel.sig Kind.scVector Space.vmem Cert.Kernel.S16x4x128 EltTy.f32)
local notation "outB" => (Memref.whole Cert.Kernel.cc0_scratch3 : Memref Cert.Kernel.sig Kind.scVector Space.vmem Cert.Kernel.S16x4x128 EltTy.f32)

variable [FloatOps F]

/-- A block's rectangle at canonical offsets is the launch's part. -/
theorem oRect_eq_part (b : ℕ) (hb : b < 8) : oRect L b hb = oBlk (blk (cL L) (sL L) ⟨b, hb⟩) := by
  have h0 := L0_lt L; have h1 := L1_lt L
  unfold oRect oBlk Rect.part Rect.block
  congr 1 <;> funext a
  · fin_cases a <;> simp [Shape.partIx, Shape.partSize, wOff, blk] <;> omega
  · fin_cases a <;> simp [Shape.partSize]

theorem oSl_set (b : ℕ) (hb : b < 8) : (oSl L b hb).view.set = oSet (blk (cL L) (sL L) ⟨b, hb⟩) := by
  show ((oV).view.slice (oRect L b hb)).set = ((oV).view.slice (oBlk (blk (cL L) (sL L) ⟨b, hb⟩))).set
  rw [oRect_eq_part]

/-- A result block as the body's slice addresses it is the TensorCore's array on the launch's part. -/
theorem pts_oblk (b : ℕ) (hb : b < 8) (q : PosShare TreeShare) (f : Buf (Elt F) (oLoc d)) :
    ((oSl L b hb).view.loc (V d (cV L) (jV L)) ↦[(oSl L b hb).view.set]{q} f : sProp 𝕄)
      = oLoc d ↦[oSet (blk (cL L) (sL L) ⟨b, hb⟩)]{q} f := by
  rw [oSl_set]

/-- block `i` untouched / at the kernel's value -/
abbrev oInit (i : Fin 8) : sProp 𝕄 := oLoc d ↦[oSet (blk (cL L) (sL L) i)]{fullShare} m (oLoc d)
abbrev oFin (i : Fin 8) : sProp 𝕄 := oLoc d ↦[oSet (blk (cL L) (sL L) i)]{fullShare} scOut (m (xLoc d))

def todo (k : ℕ) : sProp 𝕄 := bigSep (Finset.univ.filter fun i : Fin 8 => 2 * k ≤ i.val) (oInit m d L)
def landed (k : ℕ) : sProp 𝕄 := bigSep (Finset.univ.filter fun i : Fin 8 => i.val + 2 < 2 * k) (oFin m d L)

theorem todo_zero : todo m d L 0 = oPtsT d (cL L) (sL L) (m (oLoc d)) := by
  unfold todo; congr 1; try (ext i; simp)

theorem todo_succ (k : ℕ) (hk : k < 4) :
    todo m d L k = iprop(oInit m d L ⟨2 * k, by omega⟩ ∗ oInit m d L ⟨2 * k + 1, by omega⟩ ∗ todo m d L (k + 1)) := by
  unfold todo
  have e : (Finset.univ.filter fun i : Fin 8 => 2 * k ≤ i.val)
      = insert (⟨2 * k, by omega⟩ : Fin 8) (insert (⟨2 * k + 1, by omega⟩ : Fin 8) (Finset.univ.filter fun i : Fin 8 => 2 * (k + 1) ≤ i.val)) := by
    ext i; simp [Fin.ext_iff] <;> omega
  rw [e, SparseCore.bigSep_insert' (by simp [Fin.ext_iff] <;> omega), SparseCore.bigSep_insert' (by simp [Fin.ext_iff] <;> omega)]

theorem todo_four : todo m d L 4 = (iprop(emp) : sProp 𝕄) := by
  unfold todo
  have e : (Finset.univ.filter fun i : Fin 8 => 2 * 4 ≤ i.val) = ∅ := by
    ext i; simp <;> omega
  rw [e, bigSep_empty]; rfl

theorem landed_low (k : ℕ) (hk : k ≤ 1) : landed m d L k = (iprop(emp) : sProp 𝕄) := by
  unfold landed
  have e : (Finset.univ.filter fun i : Fin 8 => i.val + 2 < 2 * k) = ∅ := by
    ext i; simp <;> omega
  rw [e, bigSep_empty]; rfl

theorem landed_succ (k : ℕ) (hk0 : 0 < k) (hk : k ≤ 4) :
    landed m d L (k + 1) = iprop(oFin m d L ⟨2 * k - 2, by omega⟩ ∗ oFin m d L ⟨2 * k - 1, by omega⟩ ∗ landed m d L k) := by
  unfold landed
  have e : (Finset.univ.filter fun i : Fin 8 => i.val + 2 < 2 * (k + 1))
      = insert (⟨2 * k - 2, by omega⟩ : Fin 8) (insert (⟨2 * k - 1, by omega⟩ : Fin 8) (Finset.univ.filter fun i : Fin 8 => i.val + 2 < 2 * k)) := by
    ext i; simp [Fin.ext_iff] <;> omega
  rw [e, SparseCore.bigSep_insert' (by simp [Fin.ext_iff] <;> omega), SparseCore.bigSep_insert' (by simp [Fin.ext_iff] <;> omega)]

/-- All eight blocks at the kernel's value: six landed during the loop and the last two. -/
theorem landed_all :
    iprop(landed m d L 4 ∗ oFin m d L ⟨6, by omega⟩ ∗ oFin m d L ⟨7, by omega⟩) ⊢ oPtsT d (cL L) (sL L) (scOut (m (xLoc d))) := by
  have e : (Finset.univ : Finset (Fin 8))
      = insert (⟨6, by omega⟩ : Fin 8) (insert (⟨7, by omega⟩ : Fin 8) (Finset.univ.filter fun i : Fin 8 => i.val + 2 < 2 * 4)) := by
    ext i; simp [Fin.ext_iff] <;> omega
  have e' : oPtsT d (cL L) (sL L) (scOut (m (xLoc d)))
      = iprop(oFin m d L ⟨6, by omega⟩ ∗ oFin m d L ⟨7, by omega⟩ ∗ landed m d L 4) := by
    show bigSep (Finset.univ : Finset (Fin 8)) (oFin m d L) = _
    rw [e, SparseCore.bigSep_insert' (by simp [Fin.ext_iff] <;> omega), SparseCore.bigSep_insert' (by simp [Fin.ext_iff] <;> omega)]
    rfl
  rw [e']
  iintro ⟨H, H6, H7⟩
  isplitl [H6]; · iexact H6
  isplitl [H7]; · iexact H7
  iexact H

end Cert.Kernel.Frame

end
-- ==== Proof.PairsInvBits.lean ====
/-
  The pairs loop's invariant and what its copies deliver.

  Before trip k of the pairs loop (k = 0…4) a tile holds: for each input slot the copy of its next block on its way
  (block 2k into slot A, 2k + 1 into slot B; after the last trip nothing, the slot idle), each slot reading the input
  through its own read share, the rest of that share beside the flight; for each output slot the copy of the block
  computed in the previous trip on its way out (before trip 0 nothing, the slot idle); the untouched result blocks,
  and the ones that have landed.

  A landed input copy leaves the input scratch at the block's rows of the input array; a landed output copy leaves
  the result block at the compute pass's function of that, which is the kernel's value `scOut` there: row n' of the
  result is node 5904 + n', and the pass's tree over the squares is `scRow`'s.
-/
import proofs.«216336_g7232724927063_cont_9to1_m_658_15_alg».proof.Proof.BlockStateBits

noncomputable section

namespace Cert.Kernel.Frame

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg0_scv : Memref Cert.Kernel.sig Kind.scVector Space.hbm Cert.Kernel.S10000x16x128 EltTy.f32)
local notation "oV" => (Memref.whole Cert.Kernel.main_v0_scv : Memref Cert.Kernel.sig Kind.scVector Space.hbm Cert.Kernel.S4096x4x128 EltTy.f32)
local notation "inA" => (Memref.whole Cert.Kernel.cc0_scratch0 : Memref Cert.Kernel.sig Kind.scVector Space.vmem Cert.Kernel.S16x16x128 EltTy.f32)
local notation "inB" => (Memref.whole Cert.Kernel.cc0_scratch1 : Memref Cert.Kernel.sig Kind.scVector Space.vmem Cert.Kernel.S16x16x128 EltTy.f32)
local notation "outA" => (Memref.whole Cert.Kernel.cc0_scratch2 : Memref Cert.Kernel.sig Kind.scVector Space.vmem Cert.Kernel.S16x4x128 EltTy.f32)
local notation "outB" => (Memref.whole Cert.Kernel.cc0_scratch3 : Memref Cert.Kernel.sig Kind.scVector Space.vmem Cert.Kernel.S16x4x128 EltTy.f32)

variable [FloatOps F]

abbrev tokA (L : grid0.Coords) : PosShare TreeShare := Transfers.shareTok (xTokT (cL L) (sL L)) 2 0
abbrev tokB (L : grid0.Coords) : PosShare TreeShare := Transfers.shareTok (xTokT (cL L) (sL L)) 2 1

/-- the tile's input block `b` as a 16 × 16 × 128 array -/
def blockIn (b : ℕ) (hb : b < 8) : FVec F S16x16x128 .f32 := (xSl L b hb).view.read (Elt F) (m (xLoc d))

/-! ## The slots -/

/-- block `b` on its way into input slot A; the rest of the slot's read share -/
def inFlA (b : ℕ) (hb : b < 8) : sProp 𝕄 :=
  iprop(Transfers.Flight countersEmb (V d (cV L) (jV L)) (SemLoc.dma cc0_scratch4.sem) (default : HIx 1) 1048576
      iprop(((inA).view.loc (V d (cV L) (jV L)) ↦{fullShare} blockIn m d L b hb)
        ∗ ((xV).view.loc (V d (cV L) (jV L)) ↦[(xSl L b hb).view.set]{tokA L} m (xLoc d)))
    ∗ ((xV).view.loc (V d (cV L) (jV L)) ↦[Finset.univ \ (xSl L b hb).view.set]{tokA L} m (xLoc d)))
def inFlB (b : ℕ) (hb : b < 8) : sProp 𝕄 :=
  iprop(Transfers.Flight countersEmb (V d (cV L) (jV L)) (SemLoc.dma cc0_scratch5.sem) (default : HIx 1) 1048576
      iprop(((inB).view.loc (V d (cV L) (jV L)) ↦{fullShare} blockIn m d L b hb)
        ∗ ((xV).view.loc (V d (cV L) (jV L)) ↦[(xSl L b hb).view.set]{tokB L} m (xLoc d)))
    ∗ ((xV).view.loc (V d (cV L) (jV L)) ↦[Finset.univ \ (xSl L b hb).view.set]{tokB L} m (xLoc d)))
/-- an input slot idle -/
def inIdleA : sProp 𝕄 :=
  iprop(semVal (cellIA d (cV L) (jV L)) 0 ∗ (∃ f, (inA).view.loc (V d (cV L) (jV L)) ↦{fullShare} f)
    ∗ ((xV).view.loc (V d (cV L) (jV L)) ↦{tokA L} m (xLoc d)))
def inIdleB : sProp 𝕄 :=
  iprop(semVal (cellIB d (cV L) (jV L)) 0 ∗ (∃ f, (inB).view.loc (V d (cV L) (jV L)) ↦{fullShare} f)
    ∗ ((xV).view.loc (V d (cV L) (jV L)) ↦{tokB L} m (xLoc d)))

/-- result block `b` on its way out of output slot A (the scratch at `g` meanwhile) -/
def outFlA (b : ℕ) (hb : b < 8) (g : Buf (Elt F) ((V d (cV L) (jV L)).loc cc0_scratch2)) : sProp 𝕄 :=
  Transfers.Flight countersEmb (V d (cV L) (jV L)) (SemLoc.dma cc0_scratch6.sem) (default : HIx 1) 262144
    iprop(oFin m d L ⟨b, hb⟩ ∗ ((outA).view.loc (V d (cV L) (jV L)) ↦{fullShare} g))
def outFlB (b : ℕ) (hb : b < 8) (g : Buf (Elt F) ((V d (cV L) (jV L)).loc cc0_scratch3)) : sProp 𝕄 :=
  Transfers.Flight countersEmb (V d (cV L) (jV L)) (SemLoc.dma cc0_scratch7.sem) (default : HIx 1) 262144
    iprop(oFin m d L ⟨b, hb⟩ ∗ ((outB).view.loc (V d (cV L) (jV L)) ↦{fullShare} g))
def outIdleA (g : Buf (Elt F) ((V d (cV L) (jV L)).loc cc0_scratch2)) : sProp 𝕄 :=
  iprop(semVal (cellOA d (cV L) (jV L)) 0 ∗ ((outA).view.loc (V d (cV L) (jV L)) ↦{fullShare} g))
def outIdleB (g : Buf (Elt F) ((V d (cV L) (jV L)).loc cc0_scratch3)) : sProp 𝕄 :=
  iprop(semVal (cellOB d (cV L) (jV L)) 0 ∗ ((outB).view.loc (V d (cV L) (jV L)) ↦{fullShare} g))

def inPartA (k : ℕ) : sProp 𝕄 := if h : k < 4 then inFlA m d L (2 * k) (by omega) else inIdleA m d L
def inPartB (k : ℕ) : sProp 𝕄 := if h : k < 4 then inFlB m d L (2 * k + 1) (by omega) else inIdleB m d L
def outPartA (k : ℕ) (g : Buf (Elt F) ((V d (cV L) (jV L)).loc cc0_scratch2)) : sProp 𝕄 :=
  if h : 0 < k ∧ k ≤ 4 then outFlA m d L (2 * k - 2) (by omega) g else outIdleA d L g
def outPartB (k : ℕ) (g : Buf (Elt F) ((V d (cV L) (jV L)).loc cc0_scratch3)) : sProp 𝕄 :=
  if h : 0 < k ∧ k ≤ 4 then outFlB m d L (2 * k - 1) (by omega) g else outIdleB d L g

/-- The invariant before trip `k`. -/
def pairsInv (O : CellTallies nD τ sig (HIx 1)) (W : Waits sig (HIx 1)) (k : ℕ) (_ : PUnit) : sProp 𝕄 :=
  iprop(Transfers.MayWaits (V d (cV L) (jV L)) (none : HIx 1) O
    ∗ inPartA m d L k ∗ inPartB m d L k
    ∗ (∃ ga, outPartA m d L k ga) ∗ (∃ gb, outPartB m d L k gb)
    ∗ todo m d L k ∗ landed m d L k
    ∗ ∃ W', ⌜∀ p ∈ W', p ∈ W ∨ p.2 = none⌝ ∗ owes (V d (cV L) (jV L)) O W')

/-! ## What the copies deliver -/

/-- An input copy's delivery, in the spelling it was issued with, is the block in the scratch and the slice's share back. -/
theorem in_deliverA (b : ℕ) (hb : b < 8) (q : PosShare TreeShare) (off : Fin 3 → ℕ) (inb : ∀ a, off a + S16x16x128.size a ≤ S10000x16x128.size a)
    (hoff : off = ![wOff L b + 5904, 0, 0]) (fd : Buf (Elt F) ((V d (cV L) (jV L)).loc cc0_scratch0)) (X : S16x16x128.Idx → Elt F .f32)
    (hX : X = ((xV).slice (Rect.unit (s := S10000x16x128) off S16x16x128.size inb) (fun _ => rfl)).view.read (Elt F) (m (xLoc d))) :
    (iprop(((inA).view.loc (V d (cV L) (jV L)) ↦{fullShare} (inA).view.write (Elt F) fd X Finset.univ)
        ∗ ((xV).view.loc (V d (cV L) (jV L)) ↦[((xV).slice (Rect.unit (s := S10000x16x128) off S16x16x128.size inb) (fun _ => rfl)).view.set]{q} m (xLoc d))) : sProp 𝕄)
      ⊢ iprop(((inA).view.loc (V d (cV L) (jV L)) ↦{fullShare} blockIn m d L b hb)
        ∗ ((xV).view.loc (V d (cV L) (jV L)) ↦[(xSl L b hb).view.set]{q} m (xLoc d))) := by
  subst hoff; subst hX
  rw [show (inA).view.write (Elt F) fd (((xV).slice (Rect.unit (s := S10000x16x128) ![wOff L b + 5904, 0, 0] S16x16x128.size inb) (fun _ => rfl)).view.read (Elt F) (m (xLoc d))) Finset.univ
      = blockIn m d L b hb from View.write_whole_univ _ _ _]

theorem in_deliverB (b : ℕ) (hb : b < 8) (q : PosShare TreeShare) (off : Fin 3 → ℕ) (inb : ∀ a, off a + S16x16x128.size a ≤ S10000x16x128.size a)
    (hoff : off = ![wOff L b + 5904, 0, 0]) (fd : Buf (Elt F) ((V d (cV L) (jV L)).loc cc0_scratch1)) (X : S16x16x128.Idx → Elt F .f32)
    (hX : X = ((xV).slice (Rect.unit (s := S10000x16x128) off S16x16x128.size inb) (fun _ => rfl)).view.read (Elt F) (m (xLoc d))) :
    (iprop(((inB).view.loc (V d (cV L) (jV L)) ↦{fullShare} (inB).view.write (Elt F) fd X Finset.univ)
        ∗ ((xV).view.loc (V d (cV L) (jV L)) ↦[((xV).slice (Rect.unit (s := S10000x16x128) off S16x16x128.size inb) (fun _ => rfl)).view.set]{q} m (xLoc d))) : sProp 𝕄)
      ⊢ iprop(((inB).view.loc (V d (cV L) (jV L)) ↦{fullShare} blockIn m d L b hb)
        ∗ ((xV).view.loc (V d (cV L) (jV L)) ↦[(xSl L b hb).view.set]{q} m (xLoc d))) := by
  subst hoff; subst hX
  rw [show (inB).view.write (Elt F) fd (((xV).slice (Rect.unit (s := S10000x16x128) ![wOff L b + 5904, 0, 0] S16x16x128.size inb) (fun _ => rfl)).view.read (Elt F) (m (xLoc d))) Finset.univ
      = blockIn m d L b hb from View.write_whole_univ _ _ _]

/-- The rest of a slot's share, in the issuing spelling, is the rest in the canonical one. -/
theorem x_rest (b : ℕ) (hb : b < 8) (q : PosShare TreeShare) (off : Fin 3 → ℕ) (inb : ∀ a, off a + S16x16x128.size a ≤ S10000x16x128.size a)
    (hoff : off = ![wOff L b + 5904, 0, 0]) :
    ((xV).view.loc (V d (cV L) (jV L)) ↦[Finset.univ \ ((xV).slice (Rect.unit (s := S10000x16x128) off S16x16x128.size inb) (fun _ => rfl)).view.set]{q} m (xLoc d) : sProp 𝕄)
      ⊢ (xV).view.loc (V d (cV L) (jV L)) ↦[Finset.univ \ (xSl L b hb).view.set]{q} m (xLoc d) := by
  subst hoff; exact BI.Entails.refl _

end Cert.Kernel.Frame

end
-- ==== Proof.DeliverBits.lean ====
/-
  What a landed output copy delivers: the result block at the kernel's value.

  The compute pass leaves in the output scratch the function `blockOut` of the input scratch, which held the tile's
  block `b` of the input: rows 5904 + 16·(2s + c) + 512·b + n, n = 0…15. The copy writes that 16 × 4 × 128 array over
  rows 16·(2s + c) + 512·b + n of the kernel's result, and the kernel's value at result row n' is the same tree over
  the squares of input row 5904 + n'.
-/
import proofs.«216336_g7232724927063_cont_9to1_m_658_15_alg».proof.Proof.PairsInvBits

noncomputable section

namespace Cert.Kernel.Frame

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg0_scv : Memref Cert.Kernel.sig Kind.scVector Space.hbm Cert.Kernel.S10000x16x128 EltTy.f32)
local notation "oV" => (Memref.whole Cert.Kernel.main_v0_scv : Memref Cert.Kernel.sig Kind.scVector Space.hbm Cert.Kernel.S4096x4x128 EltTy.f32)
local notation "inA" => (Memref.whole Cert.Kernel.cc0_scratch0 : Memref Cert.Kernel.sig Kind.scVector Space.vmem Cert.Kernel.S16x16x128 EltTy.f32)
local notation "inB" => (Memref.whole Cert.Kernel.cc0_scratch1 : Memref Cert.Kernel.sig Kind.scVector Space.vmem Cert.Kernel.S16x16x128 EltTy.f32)
local notation "outA" => (Memref.whole Cert.Kernel.cc0_scratch2 : Memref Cert.Kernel.sig Kind.scVector Space.vmem Cert.Kernel.S16x4x128 EltTy.f32)
local notation "outB" => (Memref.whole Cert.Kernel.cc0_scratch3 : Memref Cert.Kernel.sig Kind.scVector Space.vmem Cert.Kernel.S16x4x128 EltTy.f32)

variable [FloatOps F]

/-- On the tile's result block `b`, the block written from the compute pass's output is the kernel's value. -/
theorem out_value (b : ℕ) (hb : b < 8) (fo : Buf (Elt F) (oLoc d)) (X : S16x4x128.Idx → Elt F .f32)
    (hX : X = blockOut (blockIn m d L b hb)) :
    ∀ i ∈ oSet (blk (cL L) (sL L) ⟨b, hb⟩),
      (oSl L b hb).view.writes (Elt F) fo [(⟨Rect.whole S16x4x128, X⟩ : View.Piece (Elt F) S16x4x128 EltTy.f32)] i = scOut (m (xLoc d)) i := by
  subst hX
  intro i hi
  rw [← oSl_set (L := L) b hb] at hi
  obtain ⟨y, -, rfl⟩ := Finset.mem_map.mp hi
  have h1 := View.read_writes_cons_emb (oSl L b hb).view fo (Rect.whole S16x4x128) (blockOut (blockIn m d L b hb)) [] y
  rw [Rect.emb_whole_apply, View.read_apply] at h1
  rw [cast_eq] at h1
  rw [h1]
  have h0 := L0_lt L
  have hL1 := L1_lt L
  have hy0 : (y 0).val < 16 := (y 0).isLt
  have hy1 : (y 1).val < 4 := (y 1).isLt
  have hy2 : (y 2).val < 128 := (y 2).isLt
  have hw : wOff L b + (y 0).val < 4096 := by unfold wOff; omega
  have hn : wOff L b + (y 0).val + 5904 < 10000 := by omega
  have hemb : (oSl L b hb).view.emb y = (ix3 ⟨wOff L b + (y 0).val, hw⟩ ⟨(y 1).val, hy1⟩ ⟨(y 2).val, hy2⟩ : S4096x4x128.Idx) := by
    funext a
    apply Fin.ext
    show ((oRect L b hb).emb y a : ℕ) = _
    rw [Rect.emb_apply]
    fin_cases a
    · show wOff L b + 1 * (y 0).val = wOff L b + (y 0).val
      omega
    · show 0 + 1 * (y 1).val = (y 1).val
      omega
    · show 0 + 1 * (y 2).val = (y 2).val
      omega
  have hin : ∀ r : Fin 16, blockIn m d L b hb (ix3 (y 0) r (y 2))
      = m (xLoc d) (ix3 ⟨wOff L b + (y 0).val + 5904, hn⟩ r ⟨(y 2).val, hy2⟩) := by
    intro r
    unfold blockIn
    rw [View.read_apply]
    have he : (xSl L b hb).view.emb (ix3 (y 0) r (y 2)) = (ix3 ⟨wOff L b + (y 0).val + 5904, hn⟩ r ⟨(y 2).val, hy2⟩ : S10000x16x128.Idx) := by
      funext a
      apply Fin.ext
      show ((xRect L b hb).emb (ix3 (y 0) r (y 2)) a : ℕ) = _
      rw [Rect.emb_apply]
      fin_cases a
      · show (wOff L b + 5904) + 1 * (y 0).val = wOff L b + (y 0).val + 5904
        omega
      · show 0 + 1 * r.val = r.val
        omega
      · show 0 + 1 * (y 2).val = (y 2).val
        omega
    rw [he]
    rfl
  rw [hemb]
  show tree4 (fun r => FloatOps.mulf (blockIn m d L b hb (ix3 (y 0) r (y 2))) (blockIn m d L b hb (ix3 (y 0) r (y 2)))) (y 1)
    = tree4 (sqAt (m (xLoc d)) ⟨wOff L b + (y 0).val + 5904, hn⟩ ⟨(y 2).val, hy2⟩) ⟨(y 1).val, hy1⟩
  rw [show (fun r => FloatOps.mulf (blockIn m d L b hb (ix3 (y 0) r (y 2))) (blockIn m d L b hb (ix3 (y 0) r (y 2))))
      = sqAt (m (xLoc d)) ⟨wOff L b + (y 0).val + 5904, hn⟩ ⟨(y 2).val, hy2⟩ from funext fun r => by rw [hin r]; rfl]
  rfl

theorem out_deliverA (b : ℕ) (hb : b < 8) (off : Fin 3 → ℕ) (inb : ∀ a, off a + S16x4x128.size a ≤ S4096x4x128.size a)
    (hoff : off = ![wOff L b, 0, 0]) (X : S16x4x128.Idx → Elt F .f32) (hX : X = blockOut (blockIn m d L b hb)) :
    (iprop((((oV).slice (Rect.unit (s := S4096x4x128) off S16x4x128.size inb) (fun _ => rfl)).view.loc (V d (cV L) (jV L))
          ↦[((oV).slice (Rect.unit (s := S4096x4x128) off S16x4x128.size inb) (fun _ => rfl)).view.set]{fullShare}
            ((oV).slice (Rect.unit (s := S4096x4x128) off S16x4x128.size inb) (fun _ => rfl)).view.writes (Elt F) (m (oLoc d))
              [(⟨Rect.whole S16x4x128, X⟩ : View.Piece (Elt F) S16x4x128 EltTy.f32)])
        ∗ ((outA).view.loc (V d (cV L) (jV L)) ↦[(outA).view.set]{fullShare} blockOut (blockIn m d L b hb))) : sProp 𝕄)
      ⊢ iprop(oFin m d L ⟨b, hb⟩ ∗ ((outA).view.loc (V d (cV L) (jV L)) ↦{fullShare} blockOut (blockIn m d L b hb))) := by
  subst hoff
  iintro ⟨Hd, Hs⟩
  isplitl [Hd]
  · iapply (Entails.of_eq (pointsTo_congr (out_value m d L b hb (m (oLoc d)) X hX)))
    iapply (Entails.of_eq (pts_oblk (F := F) d L b hb fullShare _))
    iexact Hd
  · iapply (Entails.of_eq (show ((outA).view.loc (V d (cV L) (jV L)) ↦[(outA).view.set]{fullShare} blockOut (blockIn m d L b hb) : sProp 𝕄)
        = (outA).view.loc (V d (cV L) (jV L)) ↦{fullShare} blockOut (blockIn m d L b hb) by simp only [Memref.view_whole, View.set_whole]))
    iexact Hs

theorem out_deliverB (b : ℕ) (hb : b < 8) (off : Fin 3 → ℕ) (inb : ∀ a, off a + S16x4x128.size a ≤ S4096x4x128.size a)
    (hoff : off = ![wOff L b, 0, 0]) (X : S16x4x128.Idx → Elt F .f32) (hX : X = blockOut (blockIn m d L b hb)) :
    (iprop((((oV).slice (Rect.unit (s := S4096x4x128) off S16x4x128.size inb) (fun _ => rfl)).view.loc (V d (cV L) (jV L))
          ↦[((oV).slice (Rect.unit (s := S4096x4x128) off S16x4x128.size inb) (fun _ => rfl)).view.set]{fullShare}
            ((oV).slice (Rect.unit (s := S4096x4x128) off S16x4x128.size inb) (fun _ => rfl)).view.writes (Elt F) (m (oLoc d))
              [(⟨Rect.whole S16x4x128, X⟩ : View.Piece (Elt F) S16x4x128 EltTy.f32)])
        ∗ ((outB).view.loc (V d (cV L) (jV L)) ↦[(outB).view.set]{fullShare} blockOut (blockIn m d L b hb))) : sProp 𝕄)
      ⊢ iprop(oFin m d L ⟨b, hb⟩ ∗ ((outB).view.loc (V d (cV L) (jV L)) ↦{fullShare} blockOut (blockIn m d L b hb))) := by
  subst hoff
  iintro ⟨Hd, Hs⟩
  isplitl [Hd]
  · iapply (Entails.of_eq (pointsTo_congr (out_value m d L b hb (m (oLoc d)) X hX)))
    iapply (Entails.of_eq (pts_oblk (F := F) d L b hb fullShare _))
    iexact Hd
  · iapply (Entails.of_eq (show ((outB).view.loc (V d (cV L) (jV L)) ↦[(outB).view.set]{fullShare} blockOut (blockIn m d L b hb) : sProp 𝕄)
        = (outB).view.loc (V d (cV L) (jV L)) ↦{fullShare} blockOut (blockIn m d L b hb) by simp only [Memref.view_whole, View.set_whole]))
    iexact Hs

end Cert.Kernel.Frame

end
-- ==== Proof.PairsStepBits.lean ====
/-
  One trip of the pairs loop keeps the invariant.

  Trip k waits for input block 2k in slot A, waits (when k > 0) for the previous output copy of slot A to have left,
  runs the compute pass from slot A's input scratch into its output scratch, starts the copy of that scratch out to
  result block 2k, and (when k < 3) starts the copy of input block 2k + 2 into slot A; then the same for slot B with
  blocks 2k + 1 and 2k + 3. A copy's source or destination is never touched between its start and its wait: each
  slot has its own completion cell, and at most one copy per cell is on its way. The three cases (first, middle,
  last trip) differ only in which of the two tests hold, decided for every tile and trip at once.
  The compute pass's one step is a hypothesis here, so that this module does not depend on its proof.
-/
import proofs.«216336_g7232724927063_cont_9to1_m_658_15_alg».proof.Proof.PairsInvBits
import proofs.«216336_g7232724927063_cont_9to1_m_658_15_alg».proof.Proof.DeliverBits

noncomputable section

namespace Cert.Kernel.Frame

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg0_scv : Memref Cert.Kernel.sig Kind.scVector Space.hbm Cert.Kernel.S10000x16x128 EltTy.f32)
local notation "oV" => (Memref.whole Cert.Kernel.main_v0_scv : Memref Cert.Kernel.sig Kind.scVector Space.hbm Cert.Kernel.S4096x4x128 EltTy.f32)
local notation "inA" => (Memref.whole Cert.Kernel.cc0_scratch0 : Memref Cert.Kernel.sig Kind.scVector Space.vmem Cert.Kernel.S16x16x128 EltTy.f32)
local notation "inB" => (Memref.whole Cert.Kernel.cc0_scratch1 : Memref Cert.Kernel.sig Kind.scVector Space.vmem Cert.Kernel.S16x16x128 EltTy.f32)
local notation "outA" => (Memref.whole Cert.Kernel.cc0_scratch2 : Memref Cert.Kernel.sig Kind.scVector Space.vmem Cert.Kernel.S16x4x128 EltTy.f32)
local notation "outB" => (Memref.whole Cert.Kernel.cc0_scratch3 : Memref Cert.Kernel.sig Kind.scVector Space.vmem Cert.Kernel.S16x4x128 EltTy.f32)

variable [FloatOps F]

/-! ## The loop counter's tests and the body's offsets, for every tile and trip -/

theorem cond_pos : ∀ (L : grid0.Coords) (k : Fin (k0_t1_loop L).trips), 0 < k.val →
    Scalar.cmpi .ne (Scalar.extui (Scalar.cmpi .sgt (Scf.iv 0#32 1#32 k) 0#32)) 0#32 = 1#1 := by decide +kernel
theorem cond_zero : ∀ (L : grid0.Coords) (k : Fin (k0_t1_loop L).trips), k.val = 0 →
    ¬ Scalar.cmpi .ne (Scalar.extui (Scalar.cmpi .sgt (Scf.iv 0#32 1#32 k) 0#32)) 0#32 = 1#1 := by decide +kernel
theorem cond2_lt : ∀ (L : grid0.Coords) (k : Fin (k0_t1_loop L).trips), k.val < 3 → k0_cond2 L k = 1#1 := by decide +kernel
theorem cond4_lt : ∀ (L : grid0.Coords) (k : Fin (k0_t1_loop L).trips), k.val < 3 → k0_cond4 L k = 1#1 := by decide +kernel
theorem cond2_last : ∀ (L : grid0.Coords) (k : Fin (k0_t1_loop L).trips), ¬ k.val < 3 → ¬ k0_cond2 L k = 1#1 := by decide +kernel
theorem cond4_last : ∀ (L : grid0.Coords) (k : Fin (k0_t1_loop L).trips), ¬ k.val < 3 → ¬ k0_cond4 L k = 1#1 := by decide +kernel

theorem off162_eq' (k : Fin (k0_t1_loop L).trips) (b : ℕ) (hbk : b = 2 * k.val) : k0_off162 L k = ![wOff L b, 0, 0] := by
  subst hbk; rw [k0_off162_eq]; simp [wOff] <;> ring_nf
theorem off324_eq' (k : Fin (k0_t1_loop L).trips) (b : ℕ) (hbk : b = 2 * k.val + 1) : k0_off324 L k = ![wOff L b, 0, 0] := by
  subst hbk; rw [k0_off324_eq]; simp [wOff] <;> ring_nf
theorem off163_eq' (k : Fin (k0_t1_loop L).trips) (b : ℕ) (hbk : b = 2 * k.val + 2) : k0_off163 L k = ![wOff L b + 5904, 0, 0] := by
  subst hbk; rw [k0_off163_eq]; simp [wOff] <;> ring_nf
theorem off325_eq' (k : Fin (k0_t1_loop L).trips) (b : ℕ) (hbk : b = 2 * k.val + 3) : k0_off325 L k = ![wOff L b + 5904, 0, 0] := by
  subst hbk; rw [k0_off325_eq]; simp [wOff] <;> ring_nf
theorem off1_eq' (r : Fin 2) : k0_off1 L (BitVec.ofNat 32 (32 * r.val)) = ![wOff L r.val + 5904, 0, 0] := by
  rw [k0_off1_eq]; simp [wOff] <;> ring_nf

/-- A result block of the tile, untouched, in any spelling of its offsets. -/
theorem oblock_spell (b : ℕ) (hb : b < 8) (off : Fin 3 → ℕ) (inb : ∀ a, off a + S16x4x128.size a ≤ S4096x4x128.size a)
    (hoff : off = ![wOff L b, 0, 0]) (q : PosShare TreeShare) (f : Buf (Elt F) (oLoc d)) :
    (oLoc d ↦[oSet (blk (cL L) (sL L) ⟨b, hb⟩)]{q} f : sProp 𝕄)
      = ((oV).slice (Rect.unit (s := S4096x4x128) off S16x4x128.size inb) (fun _ => rfl)).view.loc (V d (cV L) (jV L))
          ↦[((oV).slice (Rect.unit (s := S4096x4x128) off S16x4x128.size inb) (fun _ => rfl)).view.set]{q} f := by
  subst hoff; exact (pts_oblk d L b hb q f).symm

/-! ## One trip of the pairs loop: a middle trip, the first, the last -/

set_option maxHeartbeats 1600000 in
theorem trip_mid
    (hstepA : ∀ (fin : Buf (Elt F) ((V d (cV L) (jV L)).loc cc0_scratch0)) (g0 : Buf (Elt F) ((V d (cV L) (jV L)).loc cc0_scratch2)) (a b c0 c1 : BitVec 32) (k1 : Fin (k0_t1_loop L).trips) (n : Fin k0_t2_loop.trips),
      (iprop(((inA).view.loc (V d (cV L) (jV L)) ↦{fullShare} fin) ∗ ((outA).view.loc (V d (cV L) (jV L)) ↦{fullShare} outAt fin g0 n.val)) : sProp 𝕄)
        ⊢ wp frame (wpE (defs₀ (F := F)) 𝒱₀ (V d (cV L) (jV L)) none) Set.univ
            (k0_t2_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 a b c0 c1 k1 n ⟨⟩)
            fun _ => iprop(((inA).view.loc (V d (cV L) (jV L)) ↦{fullShare} fin) ∗ ((outA).view.loc (V d (cV L) (jV L)) ↦{fullShare} outAt fin g0 (n.val + 1))))
    (hstepB : ∀ (fin : Buf (Elt F) ((V d (cV L) (jV L)).loc cc0_scratch1)) (g0 : Buf (Elt F) ((V d (cV L) (jV L)).loc cc0_scratch3)) (n : Fin k0_t3_loop.trips),
      (iprop(((inB).view.loc (V d (cV L) (jV L)) ↦{fullShare} fin) ∗ ((outB).view.loc (V d (cV L) (jV L)) ↦{fullShare} outAt fin g0 n.val)) : sProp 𝕄)
        ⊢ wp frame (wpE (defs₀ (F := F)) 𝒱₀ (V d (cV L) (jV L)) none) Set.univ
            (k0_t3_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 n ⟨⟩)
            fun _ => iprop(((inB).view.loc (V d (cV L) (jV L)) ↦{fullShare} fin) ∗ ((outB).view.loc (V d (cV L) (jV L)) ↦{fullShare} outAt fin g0 (n.val + 1))))
    (O : CellTallies nD τ sig (HIx 1)) (W : Waits sig (HIx 1)) (v1 v21 : BitVec 32)
    (k : Fin (k0_t1_loop L).trips) (hk0 : 0 < k.val) (hk3 : k.val < 3) :
    pairsInv m d L O W k.val ⟨⟩
      ⊢ wp frame (wpE (defs₀ (F := F)) 𝒱₀ (V d (cV L) (jV L)) none) Set.univ
          (k0_t1_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7 v1 v21 k ⟨⟩)
          fun _ => pairsInv m d L O W (k.val + 1) ⟨⟩ := by
  have hk4 : k.val < 4 := by omega
  have hk4' : k.val + 1 < 4 := by omega
  have hpre : 0 < k.val ∧ k.val ≤ 4 := by omega
  have hpost : 0 < k.val + 1 ∧ k.val + 1 ≤ 4 := by omega
  have hb0 : 2 * k.val < 8 := by omega
  have hb1 : 2 * k.val + 1 < 8 := by omega
  have e16a : Scf.trips k0_t2_loop.lb k0_t2_loop.ub k0_t2_loop.st = 16 := by decide
  have e16b : Scf.trips k0_t3_loop.lb k0_t3_loop.ub k0_t3_loop.st = 16 := by decide
  have eA : (⟨2 * (k.val + 1) - 2, by omega⟩ : Fin 8) = ⟨2 * k.val, hb0⟩ := Fin.ext (by show 2 * (k.val + 1) - 2 = 2 * k.val; omega)
  have eB : (⟨2 * (k.val + 1) - 1, by omega⟩ : Fin 8) = ⟨2 * k.val + 1, hb1⟩ := Fin.ext (by show 2 * (k.val + 1) - 1 = 2 * k.val + 1; omega)
  have k0_h1 := cond_pos L k hk0
  have k0_h2 := cond2_lt L k hk3
  have k0_h4 := cond4_lt L k hk3
  unfold pairsInv inPartA inPartB outPartA outPartB
  simp only [dif_pos hk4, dif_pos hk4', dif_pos hpre, dif_pos hpost]
  rw [todo_succ m d L k.val hk4, landed_succ m d L k.val hk0 (by omega)]
  unfold inFlA inFlB outFlA outFlB
  rw [eA, eB]
  unfold k0_t1_body
  iintro ⟨#Hmw, ⟨HfIA, Hxa⟩, ⟨HfIB, Hxb⟩, ⟨%ga, HfOA⟩, ⟨%gb, HfOB⟩, ⟨Hob0, Hob1, Htodo⟩, Hland, ⟨%W', %hW', HO⟩⟩
  ihave Hob0' := (Entails.of_eq (oblock_spell (F := F) d L (2 * k.val) hb0 (k0_off162 L k) (k0_off162_inb L k) (off162_eq' L k _ rfl) fullShare (m (oLoc d)))) $$ Hob0
  ihave Hob1' := (Entails.of_eq (oblock_spell (F := F) d L (2 * k.val + 1) hb1 (k0_off324 L k) (k0_off324_inb L k) (off324_eq' L k _ rfl) fullShare (m (oLoc d)))) $$ Hob1
  sl_exec_parts
  sl_for (fun (n : ℕ) (_ : PUnit) => (iprop(((inA).view.loc (V d (cV L) (jV L)) ↦{fullShare} blockIn m d L (2 * k.val) hb0)
      ∗ ((outA).view.loc (V d (cV L) (jV L)) ↦{fullShare} outAt (blockIn m d L (2 * k.val) hb0) ga n)) : sProp 𝕄)) $$ [HfIA_dst HfOA_src]
  case region => intro n acc; exact hstepA _ _ _ _ _ _ k n
  · rw [outAt_zero]
    isplitl [HfIA_dst]; · iexact HfIA_dst
    iexact HfOA_src
  iintro %_ HI
  rw [e16a, outAt_full]
  icases HI with ⟨HfIA_dst, HfOA_src⟩
  sl_exec_parts
  sl_for (fun (n : ℕ) (_ : PUnit) => (iprop(((inB).view.loc (V d (cV L) (jV L)) ↦{fullShare} blockIn m d L (2 * k.val + 1) hb1)
      ∗ ((outB).view.loc (V d (cV L) (jV L)) ↦{fullShare} outAt (blockIn m d L (2 * k.val + 1) hb1) gb n)) : sProp 𝕄)) $$ [HfIB_dst HfOB_src]
  case region => intro n acc; exact hstepB _ _ n
  · rw [outAt_zero]
    isplitl [HfIB_dst]; · iexact HfIB_dst
    iexact HfOB_src
  iintro %_ HI
  rw [e16b, outAt_full]
  icases HI with ⟨HfIB_dst, HfOB_src⟩
  sl_exec_parts
  sl_step
  isplitr; · iexact Hmw
  isplitl [HfIA Hxa]
  · isplitl [HfIA]
    · iapply (Transfers.Flight_mono countersEmb _ (in_deliverA m d L (2 * (k.val + 1)) _ (tokA L) (k0_off163 L k) (k0_off163_inb L k k0_h2) (off163_eq' L k _ (by omega)) _ _ rfl))
      iexact HfIA
    · iapply (x_rest m d L (2 * (k.val + 1)) _ (tokA L) (k0_off163 L k) (k0_off163_inb L k k0_h2) (off163_eq' L k _ (by omega)))
      iexact Hxa
  isplitl [HfIB Hxb]
  · isplitl [HfIB]
    · iapply (Transfers.Flight_mono countersEmb _ (in_deliverB m d L (2 * (k.val + 1) + 1) _ (tokB L) (k0_off325 L k) (k0_off325_inb L k k0_h4) (off325_eq' L k _ (by omega)) _ _ rfl))
      iexact HfIB
    · iapply (x_rest m d L (2 * (k.val + 1) + 1) _ (tokB L) (k0_off325 L k) (k0_off325_inb L k k0_h4) (off325_eq' L k _ (by omega)))
      iexact Hxb
  isplitl [HfOA HfOA_src]
  · iexists (blockOut (blockIn m d L (2 * k.val) hb0))
    iclear HfOA_src
    iapply (Transfers.Flight_mono countersEmb _ (out_deliverA m d L (2 * k.val) hb0 (k0_off162 L k) (k0_off162_inb L k) (off162_eq' L k _ rfl) _ rfl))
    iexact HfOA
  isplitl [HfOB HfOB_src]
  · iexists (blockOut (blockIn m d L (2 * k.val + 1) hb1))
    iclear HfOB_src
    iapply (Transfers.Flight_mono countersEmb _ (out_deliverB m d L (2 * k.val + 1) hb1 (k0_off324 L k) (k0_off324_inb L k) (off324_eq' L k _ rfl) _ rfl))
    iexact HfOB
  isplitl [Htodo]; · iexact Htodo
  isplitl [HfOA_dst HfOB_dst Hland]
  · isplitl [HfOA_dst]; · iexact HfOA_dst
    isplitl [HfOB_dst]; · iexact HfOB_dst
    iexact Hland
  iexists _; isplitr
  swap
  · iexact HO
  · ipureintro
    intro p hp
    simp only [Finset.mem_insert] at hp
    rcases hp with rfl | rfl | rfl | rfl | hp
    · exact .inr rfl
    · exact .inr rfl
    · exact .inr rfl
    · exact .inr rfl
    · exact hW' p hp

set_option maxHeartbeats 1600000 in
theorem trip_first
    (hstepA : ∀ (fin : Buf (Elt F) ((V d (cV L) (jV L)).loc cc0_scratch0)) (g0 : Buf (Elt F) ((V d (cV L) (jV L)).loc cc0_scratch2)) (a b c0 c1 : BitVec 32) (k1 : Fin (k0_t1_loop L).trips) (n : Fin k0_t2_loop.trips),
      (iprop(((inA).view.loc (V d (cV L) (jV L)) ↦{fullShare} fin) ∗ ((outA).view.loc (V d (cV L) (jV L)) ↦{fullShare} outAt fin g0 n.val)) : sProp 𝕄)
        ⊢ wp frame (wpE (defs₀ (F := F)) 𝒱₀ (V d (cV L) (jV L)) none) Set.univ
            (k0_t2_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 a b c0 c1 k1 n ⟨⟩)
            fun _ => iprop(((inA).view.loc (V d (cV L) (jV L)) ↦{fullShare} fin) ∗ ((outA).view.loc (V d (cV L) (jV L)) ↦{fullShare} outAt fin g0 (n.val + 1))))
    (hstepB : ∀ (fin : Buf (Elt F) ((V d (cV L) (jV L)).loc cc0_scratch1)) (g0 : Buf (Elt F) ((V d (cV L) (jV L)).loc cc0_scratch3)) (n : Fin k0_t3_loop.trips),
      (iprop(((inB).view.loc (V d (cV L) (jV L)) ↦{fullShare} fin) ∗ ((outB).view.loc (V d (cV L) (jV L)) ↦{fullShare} outAt fin g0 n.val)) : sProp 𝕄)
        ⊢ wp frame (wpE (defs₀ (F := F)) 𝒱₀ (V d (cV L) (jV L)) none) Set.univ
            (k0_t3_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 n ⟨⟩)
            fun _ => iprop(((inB).view.loc (V d (cV L) (jV L)) ↦{fullShare} fin) ∗ ((outB).view.loc (V d (cV L) (jV L)) ↦{fullShare} outAt fin g0 (n.val + 1))))
    (O : CellTallies nD τ sig (HIx 1)) (W : Waits sig (HIx 1)) (v1 v21 : BitVec 32)
    (k : Fin (k0_t1_loop L).trips) (hk0 : k.val = 0) :
    pairsInv m d L O W k.val ⟨⟩
      ⊢ wp frame (wpE (defs₀ (F := F)) 𝒱₀ (V d (cV L) (jV L)) none) Set.univ
          (k0_t1_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7 v1 v21 k ⟨⟩)
          fun _ => pairsInv m d L O W (k.val + 1) ⟨⟩ := by
  have hk4 : k.val < 4 := by omega
  have hk4' : k.val + 1 < 4 := by omega
  have hk3 : k.val < 3 := by omega
  have hpre : ¬ (0 < k.val ∧ k.val ≤ 4) := by omega
  have hpost : 0 < k.val + 1 ∧ k.val + 1 ≤ 4 := by omega
  have hb0 : 2 * k.val < 8 := by omega
  have hb1 : 2 * k.val + 1 < 8 := by omega
  have e16a : Scf.trips k0_t2_loop.lb k0_t2_loop.ub k0_t2_loop.st = 16 := by decide
  have e16b : Scf.trips k0_t3_loop.lb k0_t3_loop.ub k0_t3_loop.st = 16 := by decide
  have eA : (⟨2 * (k.val + 1) - 2, by omega⟩ : Fin 8) = ⟨2 * k.val, hb0⟩ := Fin.ext (by show 2 * (k.val + 1) - 2 = 2 * k.val; omega)
  have eB : (⟨2 * (k.val + 1) - 1, by omega⟩ : Fin 8) = ⟨2 * k.val + 1, hb1⟩ := Fin.ext (by show 2 * (k.val + 1) - 1 = 2 * k.val + 1; omega)
  have k0_h1 := cond_zero L k hk0
  have k0_h2 := cond2_lt L k hk3
  have k0_h4 := cond4_lt L k hk3
  unfold pairsInv inPartA inPartB outPartA outPartB
  simp only [dif_pos hk4, dif_pos hk4', dif_neg hpre, dif_pos hpost]
  rw [todo_succ m d L k.val hk4, landed_low m d L k.val (by omega), landed_low m d L (k.val + 1) (by omega)]
  unfold inFlA inFlB outFlA outFlB outIdleA outIdleB
  rw [eA, eB]
  unfold k0_t1_body
  iintro ⟨#Hmw, ⟨HfIA, Hxa⟩, ⟨HfIB, Hxb⟩, ⟨%ga, HfOA, HfOA_src⟩, ⟨%gb, HfOB, HfOB_src⟩, ⟨Hob0, Hob1, Htodo⟩, -, ⟨%W', %hW', HO⟩⟩
  ihave Hob0' := (Entails.of_eq (oblock_spell (F := F) d L (2 * k.val) hb0 (k0_off162 L k) (k0_off162_inb L k) (off162_eq' L k _ rfl) fullShare (m (oLoc d)))) $$ Hob0
  ihave Hob1' := (Entails.of_eq (oblock_spell (F := F) d L (2 * k.val + 1) hb1 (k0_off324 L k) (k0_off324_inb L k) (off324_eq' L k _ rfl) fullShare (m (oLoc d)))) $$ Hob1
  sl_exec_parts
  sl_for (fun (n : ℕ) (_ : PUnit) => (iprop(((inA).view.loc (V d (cV L) (jV L)) ↦{fullShare} blockIn m d L (2 * k.val) hb0)
      ∗ ((outA).view.loc (V d (cV L) (jV L)) ↦{fullShare} outAt (blockIn m d L (2 * k.val) hb0) ga n)) : sProp 𝕄)) $$ [HfIA_dst HfOA_src]
  case region => intro n acc; exact hstepA _ _ _ _ _ _ k n
  · rw [outAt_zero]
    isplitl [HfIA_dst]; · iexact HfIA_dst
    iexact HfOA_src
  iintro %_ HI
  rw [e16a, outAt_full]
  icases HI with ⟨HfIA_dst, HfOA_src⟩
  sl_exec_parts
  sl_for (fun (n : ℕ) (_ : PUnit) => (iprop(((inB).view.loc (V d (cV L) (jV L)) ↦{fullShare} blockIn m d L (2 * k.val + 1) hb1)
      ∗ ((outB).view.loc (V d (cV L) (jV L)) ↦{fullShare} outAt (blockIn m d L (2 * k.val + 1) hb1) gb n)) : sProp 𝕄)) $$ [HfIB_dst HfOB_src]
  case region => intro n acc; exact hstepB _ _ n
  · rw [outAt_zero]
    isplitl [HfIB_dst]; · iexact HfIB_dst
    iexact HfOB_src
  iintro %_ HI
  rw [e16b, outAt_full]
  icases HI with ⟨HfIB_dst, HfOB_src⟩
  sl_exec_parts
  sl_step
  isplitr; · iexact Hmw
  isplitl [HfIA Hxa]
  · isplitl [HfIA]
    · iapply (Transfers.Flight_mono countersEmb _ (in_deliverA m d L (2 * (k.val + 1)) _ (tokA L) (k0_off163 L k) (k0_off163_inb L k k0_h2) (off163_eq' L k _ (by omega)) _ _ rfl))
      iexact HfIA
    · iapply (x_rest m d L (2 * (k.val + 1)) _ (tokA L) (k0_off163 L k) (k0_off163_inb L k k0_h2) (off163_eq' L k _ (by omega)))
      iexact Hxa
  isplitl [HfIB Hxb]
  · isplitl [HfIB]
    · iapply (Transfers.Flight_mono countersEmb _ (in_deliverB m d L (2 * (k.val + 1) + 1) _ (tokB L) (k0_off325 L k) (k0_off325_inb L k k0_h4) (off325_eq' L k _ (by omega)) _ _ rfl))
      iexact HfIB
    · iapply (x_rest m d L (2 * (k.val + 1) + 1) _ (tokB L) (k0_off325 L k) (k0_off325_inb L k k0_h4) (off325_eq' L k _ (by omega)))
      iexact Hxb
  isplitl [HfOA HfOA_src]
  · iexists (blockOut (blockIn m d L (2 * k.val) hb0))
    iclear HfOA_src
    iapply (Transfers.Flight_mono countersEmb _ (out_deliverA m d L (2 * k.val) hb0 (k0_off162 L k) (k0_off162_inb L k) (off162_eq' L k _ rfl) _ rfl))
    iexact HfOA
  isplitl [HfOB HfOB_src]
  · iexists (blockOut (blockIn m d L (2 * k.val + 1) hb1))
    iclear HfOB_src
    iapply (Transfers.Flight_mono countersEmb _ (out_deliverB m d L (2 * k.val + 1) hb1 (k0_off324 L k) (k0_off324_inb L k) (off324_eq' L k _ rfl) _ rfl))
    iexact HfOB
  isplitl [Htodo]; · iexact Htodo
  isplitr; · iempintro
  iexists _; isplitr
  swap
  · iexact HO
  · ipureintro
    intro p hp
    simp only [Finset.mem_insert] at hp
    rcases hp with rfl | rfl | hp
    · exact .inr rfl
    · exact .inr rfl
    · exact hW' p hp

set_option maxHeartbeats 1600000 in
theorem trip_last
    (hstepA : ∀ (fin : Buf (Elt F) ((V d (cV L) (jV L)).loc cc0_scratch0)) (g0 : Buf (Elt F) ((V d (cV L) (jV L)).loc cc0_scratch2)) (a b c0 c1 : BitVec 32) (k1 : Fin (k0_t1_loop L).trips) (n : Fin k0_t2_loop.trips),
      (iprop(((inA).view.loc (V d (cV L) (jV L)) ↦{fullShare} fin) ∗ ((outA).view.loc (V d (cV L) (jV L)) ↦{fullShare} outAt fin g0 n.val)) : sProp 𝕄)
        ⊢ wp frame (wpE (defs₀ (F := F)) 𝒱₀ (V d (cV L) (jV L)) none) Set.univ
            (k0_t2_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 a b c0 c1 k1 n ⟨⟩)
            fun _ => iprop(((inA).view.loc (V d (cV L) (jV L)) ↦{fullShare} fin) ∗ ((outA).view.loc (V d (cV L) (jV L)) ↦{fullShare} outAt fin g0 (n.val + 1))))
    (hstepB : ∀ (fin : Buf (Elt F) ((V d (cV L) (jV L)).loc cc0_scratch1)) (g0 : Buf (Elt F) ((V d (cV L) (jV L)).loc cc0_scratch3)) (n : Fin k0_t3_loop.trips),
      (iprop(((inB).view.loc (V d (cV L) (jV L)) ↦{fullShare} fin) ∗ ((outB).view.loc (V d (cV L) (jV L)) ↦{fullShare} outAt fin g0 n.val)) : sProp 𝕄)
        ⊢ wp frame (wpE (defs₀ (F := F)) 𝒱₀ (V d (cV L) (jV L)) none) Set.univ
            (k0_t3_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 n ⟨⟩)
            fun _ => iprop(((inB).view.loc (V d (cV L) (jV L)) ↦{fullShare} fin) ∗ ((outB).view.loc (V d (cV L) (jV L)) ↦{fullShare} outAt fin g0 (n.val + 1))))
    (O : CellTallies nD τ sig (HIx 1)) (W : Waits sig (HIx 1)) (v1 v21 : BitVec 32)
    (k : Fin (k0_t1_loop L).trips) (hk3 : ¬ k.val < 3) :
    pairsInv m d L O W k.val ⟨⟩
      ⊢ wp frame (wpE (defs₀ (F := F)) 𝒱₀ (V d (cV L) (jV L)) none) Set.univ
          (k0_t1_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7 v1 v21 k ⟨⟩)
          fun _ => pairsInv m d L O W (k.val + 1) ⟨⟩ := by
  have hk4 : k.val < 4 := lt_of_lt_of_eq k.isLt (t1_trips L)
  have hk0 : 0 < k.val := by omega
  have hk4' : ¬ k.val + 1 < 4 := by omega
  have hpre : 0 < k.val ∧ k.val ≤ 4 := by omega
  have hpost : 0 < k.val + 1 ∧ k.val + 1 ≤ 4 := by omega
  have hb0 : 2 * k.val < 8 := by omega
  have hb1 : 2 * k.val + 1 < 8 := by omega
  have e16a : Scf.trips k0_t2_loop.lb k0_t2_loop.ub k0_t2_loop.st = 16 := by decide
  have e16b : Scf.trips k0_t3_loop.lb k0_t3_loop.ub k0_t3_loop.st = 16 := by decide
  have eA : (⟨2 * (k.val + 1) - 2, by omega⟩ : Fin 8) = ⟨2 * k.val, hb0⟩ := Fin.ext (by show 2 * (k.val + 1) - 2 = 2 * k.val; omega)
  have eB : (⟨2 * (k.val + 1) - 1, by omega⟩ : Fin 8) = ⟨2 * k.val + 1, hb1⟩ := Fin.ext (by show 2 * (k.val + 1) - 1 = 2 * k.val + 1; omega)
  have k0_h1 := cond_pos L k hk0
  have k0_h2 := cond2_last L k hk3
  have k0_h4 := cond4_last L k hk3
  unfold pairsInv inPartA inPartB outPartA outPartB
  simp only [dif_pos hk4, dif_neg hk4', dif_pos hpre, dif_pos hpost]
  rw [todo_succ m d L k.val hk4, landed_succ m d L k.val hk0 (by omega)]
  unfold inFlA inFlB outFlA outFlB inIdleA inIdleB
  rw [eA, eB]
  unfold k0_t1_body
  iintro ⟨#Hmw, ⟨HfIA, Hxa⟩, ⟨HfIB, Hxb⟩, ⟨%ga, HfOA⟩, ⟨%gb, HfOB⟩, ⟨Hob0, Hob1, Htodo⟩, Hland, ⟨%W', %hW', HO⟩⟩
  ihave Hob0' := (Entails.of_eq (oblock_spell (F := F) d L (2 * k.val) hb0 (k0_off162 L k) (k0_off162_inb L k) (off162_eq' L k _ rfl) fullShare (m (oLoc d)))) $$ Hob0
  ihave Hob1' := (Entails.of_eq (oblock_spell (F := F) d L (2 * k.val + 1) hb1 (k0_off324 L k) (k0_off324_inb L k) (off324_eq' L k _ rfl) fullShare (m (oLoc d)))) $$ Hob1
  sl_exec_parts
  sl_for (fun (n : ℕ) (_ : PUnit) => (iprop(((inA).view.loc (V d (cV L) (jV L)) ↦{fullShare} blockIn m d L (2 * k.val) hb0)
      ∗ ((outA).view.loc (V d (cV L) (jV L)) ↦{fullShare} outAt (blockIn m d L (2 * k.val) hb0) ga n)) : sProp 𝕄)) $$ [HfIA_dst HfOA_src]
  case region => intro n acc; exact hstepA _ _ _ _ _ _ k n
  · rw [outAt_zero]
    isplitl [HfIA_dst]; · iexact HfIA_dst
    iexact HfOA_src
  iintro %_ HI
  rw [e16a, outAt_full]
  icases HI with ⟨HfIA_dst, HfOA_src⟩
  sl_exec_parts
  sl_for (fun (n : ℕ) (_ : PUnit) => (iprop(((inB).view.loc (V d (cV L) (jV L)) ↦{fullShare} blockIn m d L (2 * k.val + 1) hb1)
      ∗ ((outB).view.loc (V d (cV L) (jV L)) ↦{fullShare} outAt (blockIn m d L (2 * k.val + 1) hb1) gb n)) : sProp 𝕄)) $$ [HfIB_dst HfOB_src]
  case region => intro n acc; exact hstepB _ _ n
  · rw [outAt_zero]
    isplitl [HfIB_dst]; · iexact HfIB_dst
    iexact HfOB_src
  iintro %_ HI
  rw [e16b, outAt_full]
  icases HI with ⟨HfIB_dst, HfOB_src⟩
  sl_exec_parts
  sl_step
  isplitr; · iexact Hmw
  isplitl [HfIA HfIA_dst Hxa]
  · isplitl [HfIA]; · iexact HfIA
    isplitl [HfIA_dst]; · iexists _; iexact HfIA_dst
    iexact Hxa
  isplitl [HfIB HfIB_dst Hxb]
  · isplitl [HfIB]; · iexact HfIB
    isplitl [HfIB_dst]; · iexists _; iexact HfIB_dst
    iexact Hxb
  isplitl [HfOA HfOA_src]
  · iexists (blockOut (blockIn m d L (2 * k.val) hb0))
    iclear HfOA_src
    iapply (Transfers.Flight_mono countersEmb _ (out_deliverA m d L (2 * k.val) hb0 (k0_off162 L k) (k0_off162_inb L k) (off162_eq' L k _ rfl) _ rfl))
    iexact HfOA
  isplitl [HfOB HfOB_src]
  · iexists (blockOut (blockIn m d L (2 * k.val + 1) hb1))
    iclear HfOB_src
    iapply (Transfers.Flight_mono countersEmb _ (out_deliverB m d L (2 * k.val + 1) hb1 (k0_off324 L k) (k0_off324_inb L k) (off324_eq' L k _ rfl) _ rfl))
    iexact HfOB
  isplitl [Htodo]; · iexact Htodo
  isplitl [HfOA_dst HfOB_dst Hland]
  · isplitl [HfOA_dst]; · iexact HfOA_dst
    isplitl [HfOB_dst]; · iexact HfOB_dst
    iexact Hland
  iexists _; isplitr
  swap
  · iexact HO
  · ipureintro
    intro p hp
    simp only [Finset.mem_insert] at hp
    rcases hp with rfl | rfl | rfl | rfl | hp
    · exact .inr rfl
    · exact .inr rfl
    · exact .inr rfl
    · exact .inr rfl
    · exact hW' p hp

end Cert.Kernel.Frame

end
-- ==== Proof.ComputeBaseBits.lean ====
/-
  Reading one trip of a compute pass of the SparseCore tile body, at any float instance.

  One trip treats row n of a 16-node block: for each of the 8 groups of 16 channels it loads the sixteen component vectors
  fin[n, r, 16g … 16g + 15], r = 0 … 15, squares them lane by lane, sums and scales them piece by piece, and stores the four
  results into out[n, k, 16g … 16g + 15], k = 0 … 3.  Here are the facts that read those operations at a lane:
    • a 1×1×16 vector and a 16-vector recast into one another keep their lanes; the arithmetic acts lane by lane;
    • a 1×1×16 load at offsets (a, r, c0) reads the scratch's entries (a, r, c0 + lane);
    • a 1×1×16 store at offsets (a, k, c0) covers exactly the entries (a, k, c0 … c0 + 15) of the output scratch;
    • stores that all lie in row n, cover row n, and each hold the pass's function `blockOut fin` on the entries they cover,
      take the output scratch from "rows below n done" to "rows below n + 1 done".
-/
import proofs.«216336_g7232724927063_cont_9to1_m_658_15_alg».proof.Proof.TileBaseBits
import Idealize.ShloMosaic.Lib.Pipeline.Value
import Idealize.ShloMosaic.Lib.Writes
import Idealize.ShloMosaic.Lib.WritesUnit

noncomputable section

namespace Cert.Kernel.Frame

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg0_scv : Memref Cert.Kernel.sig Kind.scVector Space.hbm Cert.Kernel.S10000x16x128 EltTy.f32)
local notation "oV" => (Memref.whole Cert.Kernel.main_v0_scv : Memref Cert.Kernel.sig Kind.scVector Space.hbm Cert.Kernel.S4096x4x128 EltTy.f32)
local notation "inA" => (Memref.whole Cert.Kernel.cc0_scratch0 : Memref Cert.Kernel.sig Kind.scVector Space.vmem Cert.Kernel.S16x16x128 EltTy.f32)
local notation "inB" => (Memref.whole Cert.Kernel.cc0_scratch1 : Memref Cert.Kernel.sig Kind.scVector Space.vmem Cert.Kernel.S16x16x128 EltTy.f32)
local notation "outA" => (Memref.whole Cert.Kernel.cc0_scratch2 : Memref Cert.Kernel.sig Kind.scVector Space.vmem Cert.Kernel.S16x4x128 EltTy.f32)
local notation "outB" => (Memref.whole Cert.Kernel.cc0_scratch3 : Memref Cert.Kernel.sig Kind.scVector Space.vmem Cert.Kernel.S16x4x128 EltTy.f32)

variable [FloatOps F]

/-! ## Reading the layout operations and the loads at an index -/

theorem mulf_at {s : Shape} {φ : FTy} (a b : FVec F s φ) (i : s.Idx) : mulf a b i = FloatOps.mulf (a i) (b i) := rfl
theorem addf_at {s : Shape} {φ : FTy} (a b : FVec F s φ) (i : s.Idx) : addf a b i = FloatOps.addf (a i) (b i) := rfl

/-- Every index of a 1×1×16 vector is a lane. -/
theorem exists_lane (x : S1x1x16.Idx) : ∃ l : Fin 16, x = ix3 (n0 := 1) (n1 := 1) (n2 := 16) 0 0 l :=
  ⟨x 2, by
    funext a
    match a with
    | ⟨0, _⟩ => exact Subsingleton.elim (α := Fin 1) _ _
    | ⟨1, _⟩ => exact Subsingleton.elim (α := Fin 1) _ _
    | ⟨2, _⟩ => rfl⟩

/-- A 1×1×16 vector recast as a 16-vector keeps its lanes. -/
theorem cast_lanes {α : Type} (v : S1x1x16.Idx → α) (h : S1x1x16.ShapeCasts S16) (l : Fin 16) :
    shapeCast S16 v h (ix1 l) = v (ix3 (n0 := 1) (n1 := 1) (n2 := 16) 0 0 l) :=
  shapeCast_apply v h (ix1 l) _ (by rw [Shape.rowMajor_val_three, Shape.rowMajor_val_one]; simp)

/-- A 16-vector recast as a 1×1×16 vector keeps its lanes. -/
theorem cast_row {α : Type} (v : S16.Idx → α) (h : S16.ShapeCasts S1x1x16) (l : Fin 16) :
    shapeCast S1x1x16 v h (ix3 (n0 := 1) (n1 := 1) (n2 := 16) 0 0 l) = v (ix1 l) :=
  shapeCast_apply v h _ (ix1 l) (by rw [Shape.rowMajor_val_three, Shape.rowMajor_val_one]; simp)

/-- A 1×1×16 load from input scratch A at offsets `off`, read at lane `l`: the scratch's entry (off 0, off 1, off 2 + l). -/
theorem load_atA (fin : FVec F S16x16x128 .f32) (off : Fin 3 → ℕ)
    (p : ∀ i, off i + S1x1x16.size i ≤ S16x16x128.size i) (l : Fin 16) :
    View.readAt (Elt F) (View.whole (cc0_scratch0 : Ref sig .scVector))
        (Rect.unit (s := S16x16x128) off S1x1x16.size p).toLoadRect fin (ix3 (n0 := 1) (n1 := 1) (n2 := 16) 0 0 l)
      = fin (ix3 (n0 := 16) (n1 := 16) (n2 := 128) ⟨off 0, by have := p 0; simp at this; omega⟩ ⟨off 1, by have := p 1; simp at this; omega⟩
          ⟨off 2 + l.val, by have := p 2; have := l.isLt; simp at *; omega⟩) := by
  show fin _ = fin _
  congr 1
  funext i
  match i with
  | ⟨0, _⟩ => exact Fin.ext (by show off 0 + 1 * 0 = off 0; omega)
  | ⟨1, _⟩ => exact Fin.ext (by show off 1 + 1 * 0 = off 1; omega)
  | ⟨2, _⟩ => exact Fin.ext (by show off 2 + 1 * l.val = off 2 + l.val; omega)

/-- A 1×1×16 load from input scratch B at offsets `off`, read at lane `l`: the scratch's entry (off 0, off 1, off 2 + l). -/
theorem load_atB (fin : FVec F S16x16x128 .f32) (off : Fin 3 → ℕ)
    (p : ∀ i, off i + S1x1x16.size i ≤ S16x16x128.size i) (l : Fin 16) :
    View.readAt (Elt F) (View.whole (cc0_scratch1 : Ref sig .scVector))
        (Rect.unit (s := S16x16x128) off S1x1x16.size p).toLoadRect fin (ix3 (n0 := 1) (n1 := 1) (n2 := 16) 0 0 l)
      = fin (ix3 (n0 := 16) (n1 := 16) (n2 := 128) ⟨off 0, by have := p 0; simp at this; omega⟩ ⟨off 1, by have := p 1; simp at this; omega⟩
          ⟨off 2 + l.val, by have := p 2; have := l.isLt; simp at *; omega⟩) := by
  show fin _ = fin _
  congr 1
  funext i
  match i with
  | ⟨0, _⟩ => exact Fin.ext (by show off 0 + 1 * 0 = off 0; omega)
  | ⟨1, _⟩ => exact Fin.ext (by show off 1 + 1 * 0 = off 1; omega)
  | ⟨2, _⟩ => exact Fin.ext (by show off 2 + 1 * l.val = off 2 + l.val; omega)

theorem trips_A : k0_t2_loop.trips = 16 := by decide
theorem trips_B : k0_t3_loop.trips = 16 := by decide

/-! ## The geometry of a 1×1×16 store into the 16 × 4 × 128 output scratch -/

/-- The store's position `l` lands on entry (off 0, off 1, off 2 + l). -/
theorem piece_emb (off : Fin 3 → ℕ) (p : ∀ i, off i + S1x1x16.size i ≤ S16x4x128.size i) (l : Fin 16) :
    (Rect.unit (s := S16x4x128) off S1x1x16.size p).emb (ix3 (n0 := 1) (n1 := 1) (n2 := 16) 0 0 l)
      = ix3 (n0 := 16) (n1 := 4) (n2 := 128) ⟨off 0, by have := p 0; simp at this; omega⟩ ⟨off 1, by have := p 1; simp at this; omega⟩
          ⟨off 2 + l.val, by have := p 2; have := l.isLt; simp at *; omega⟩ := by
  funext i
  match i with
  | ⟨0, _⟩ => exact Fin.ext (by show off 0 + 1 * 0 = off 0; omega)
  | ⟨1, _⟩ => exact Fin.ext (by show off 1 + 1 * 0 = off 1; omega)
  | ⟨2, _⟩ => exact Fin.ext (by show off 2 + 1 * l.val = off 2 + l.val; omega)

/-- A store at row `a` touches only row `a`. -/
theorem piece_row (off : Fin 3 → ℕ) (p : ∀ i, off i + S1x1x16.size i ≤ S16x4x128.size i) {a : ℕ} (h0 : off 0 = a)
    (y : S16x4x128.Idx) (hy : y ∈ (Rect.unit (s := S16x4x128) off S1x1x16.size p).set) : (y 0).val = a := by
  have h := (Rect.mem_set_unit.1 hy) 0
  have hs : S1x1x16.size 0 = 1 := rfl
  rw [hs, h0] at h
  omega

/-- An entry of row `a`, piece `k`, channels c0 … c0 + 15 is under the store at (a, k, c0). -/
theorem piece_mem (off : Fin 3 → ℕ) (p : ∀ i, off i + S1x1x16.size i ≤ S16x4x128.size i) (y : S16x4x128.Idx) {a k c0 : ℕ}
    (h : off = ![a, k, c0]) (h0 : (y 0).val = a) (h1 : (y 1).val = k) (h2 : c0 ≤ (y 2).val ∧ (y 2).val < c0 + 16) :
    y ∈ (Rect.unit (s := S16x4x128) off S1x1x16.size p).set := by
  subst h
  refine Rect.mem_set_unit.2 fun i => ?_
  match i with
  | ⟨0, _⟩ => show a ≤ (y 0).val ∧ (y 0).val < a + 1; omega
  | ⟨1, _⟩ => show k ≤ (y 1).val ∧ (y 1).val < k + 1; omega
  | ⟨2, _⟩ => show c0 ≤ (y 2).val ∧ (y 2).val < c0 + 16; omega

/-! ## Stores that are blocks of one function on one row -/

/-- Stores into the output scratch that all lie in row `n`, cover it, and each hold the pass's function `blockOut fin` on
    their own entries, take the scratch from "rows below n done" to "rows below n + 1 done". -/
theorem writes_rowA (fin : FVec F S16x16x128 .f32) (g0 : FVec F S16x4x128 .f32) (n : ℕ)
    (PL : List (View.Piece (Elt F) S16x4x128 .f32))
    (hG : ∀ p ∈ PL, ∀ x, p.2 x = blockOut fin (p.1.emb x))
    (hrow : ∀ p ∈ PL, ∀ y ∈ p.1.set, (y 0).val = n)
    (hcov : ∀ y : S16x4x128.Idx, (y 0).val = n → ∃ p ∈ PL, y ∈ p.1.set) :
    (outA).view.writes (Elt F) (outAt fin g0 n) PL
      = outAt fin g0 (n + 1) := by
  funext y
  by_cases hy : (y 0).val = n
  · refine (View.read_writes_apply_of_pieces (outA).view (outAt fin g0 n) (blockOut fin) PL hG y (hcov y hy)).trans ?_
    unfold outAt
    rw [if_pos (by omega)]
  · refine (View.read_writes_apply_of_forall_not_mem (outA).view (outAt fin g0 n) y PL fun p hp hm => hy (hrow p hp y hm)).trans ?_
    show outAt fin g0 n y = outAt fin g0 (n + 1) y
    unfold outAt
    by_cases hlt : (y 0).val < n
    · rw [if_pos hlt, if_pos (by omega)]
    · rw [if_neg hlt, if_neg (by omega)]

/-- The same for output scratch B: stores that all lie in row `n`, cover it, and each hold the pass's function `blockOut fin` on
    their own entries, take the scratch from "rows below n done" to "rows below n + 1 done". -/
theorem writes_rowB (fin : FVec F S16x16x128 .f32) (g0 : FVec F S16x4x128 .f32) (n : ℕ)
    (PL : List (View.Piece (Elt F) S16x4x128 .f32))
    (hG : ∀ p ∈ PL, ∀ x, p.2 x = blockOut fin (p.1.emb x))
    (hrow : ∀ p ∈ PL, ∀ y ∈ p.1.set, (y 0).val = n)
    (hcov : ∀ y : S16x4x128.Idx, (y 0).val = n → ∃ p ∈ PL, y ∈ p.1.set) :
    (outB).view.writes (Elt F) (outAt fin g0 n) PL
      = outAt fin g0 (n + 1) := by
  funext y
  by_cases hy : (y 0).val = n
  · refine (View.read_writes_apply_of_pieces (outB).view (outAt fin g0 n) (blockOut fin) PL hG y (hcov y hy)).trans ?_
    unfold outAt
    rw [if_pos (by omega)]
  · refine (View.read_writes_apply_of_forall_not_mem (outB).view (outAt fin g0 n) y PL fun p hp hm => hy (hrow p hp y hm)).trans ?_
    show outAt fin g0 n y = outAt fin g0 (n + 1) y
    unfold outAt
    by_cases hlt : (y 0).val < n
    · rw [if_pos hlt, if_pos (by omega)]
    · rw [if_neg hlt, if_neg (by omega)]

end Cert.Kernel.Frame

end
-- ==== Proof.ComputeABits.lean ====
/-
  One trip of compute pass A of the SparseCore tile body, with its value, at any float instance.

  Pass A reads input scratch A (16 × 16 × 128) and writes output scratch A (16 × 4 × 128).  Trip n runs the kernel's
  1,322 statements for row n: 128 loads of 1×1×16 component vectors, their squares, sums and scalings, and 32 stores of
  1×1×16 result vectors, one per piece k = 0 … 3 and group of 16 channels.  The theorem: if the output scratch has its
  rows below n at the pass's function `blockOut fin` of the input scratch's contents `fin` and the others as the pass found
  them (`outAt fin g0 n`), then after the trip it has its rows below n + 1 there (`outAt fin g0 (n + 1)`), and the input
  scratch is unchanged.  The run leaves the output scratch as 32 stores over its former contents; each store's value at
  a lane is the kernel's expression tree over the loaded lanes, which is `blockOut fin` at the entry the lane lands on;
  the stores lie in row n and cover it.
-/
import proofs.«216336_g7232724927063_cont_9to1_m_658_15_alg».proof.Proof.TileBaseBits
import proofs.«216336_g7232724927063_cont_9to1_m_658_15_alg».proof.Proof.ComputeBaseBits
import Idealize.ShloMosaic.Lib.Pipeline.Value
import Idealize.ShloMosaic.Lib.Writes
import Idealize.ShloMosaic.Lib.WritesUnit

noncomputable section

namespace Cert.Kernel.Frame

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg0_scv : Memref Cert.Kernel.sig Kind.scVector Space.hbm Cert.Kernel.S10000x16x128 EltTy.f32)
local notation "oV" => (Memref.whole Cert.Kernel.main_v0_scv : Memref Cert.Kernel.sig Kind.scVector Space.hbm Cert.Kernel.S4096x4x128 EltTy.f32)
local notation "inA" => (Memref.whole Cert.Kernel.cc0_scratch0 : Memref Cert.Kernel.sig Kind.scVector Space.vmem Cert.Kernel.S16x16x128 EltTy.f32)
local notation "inB" => (Memref.whole Cert.Kernel.cc0_scratch1 : Memref Cert.Kernel.sig Kind.scVector Space.vmem Cert.Kernel.S16x16x128 EltTy.f32)
local notation "outA" => (Memref.whole Cert.Kernel.cc0_scratch2 : Memref Cert.Kernel.sig Kind.scVector Space.vmem Cert.Kernel.S16x4x128 EltTy.f32)
local notation "outB" => (Memref.whole Cert.Kernel.cc0_scratch3 : Memref Cert.Kernel.sig Kind.scVector Space.vmem Cert.Kernel.S16x4x128 EltTy.f32)

variable [FloatOps F]

/-- One store's value at a lane: unfold the kernel's expression over the loaded lanes and compare with the pass's function. -/
local macro "piece_val" fin:ident n:ident l:ident : tactic =>
  `(tactic| (simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, cast_row, cast_lanes, mulf_at, addf_at, broadcast_apply, load_atA $fin (k0_off2 $n) (k0_off2_inb $n) $l, load_atA $fin (k0_off3 $n) (k0_off3_inb $n) $l, load_atA $fin (k0_off4 $n) (k0_off4_inb $n) $l, load_atA $fin (k0_off5 $n) (k0_off5_inb $n) $l, load_atA $fin (k0_off6 $n) (k0_off6_inb $n) $l, load_atA $fin (k0_off7 $n) (k0_off7_inb $n) $l, load_atA $fin (k0_off8 $n) (k0_off8_inb $n) $l, load_atA $fin (k0_off9 $n) (k0_off9_inb $n) $l, load_atA $fin (k0_off10 $n) (k0_off10_inb $n) $l, load_atA $fin (k0_off11 $n) (k0_off11_inb $n) $l, load_atA $fin (k0_off12 $n) (k0_off12_inb $n) $l, load_atA $fin (k0_off13 $n) (k0_off13_inb $n) $l, load_atA $fin (k0_off14 $n) (k0_off14_inb $n) $l, load_atA $fin (k0_off15 $n) (k0_off15_inb $n) $l, load_atA $fin (k0_off16 $n) (k0_off16_inb $n) $l, load_atA $fin (k0_off17 $n) (k0_off17_inb $n) $l, load_atA $fin (k0_off22 $n) (k0_off22_inb $n) $l, load_atA $fin (k0_off23 $n) (k0_off23_inb $n) $l, load_atA $fin (k0_off24 $n) (k0_off24_inb $n) $l, load_atA $fin (k0_off25 $n) (k0_off25_inb $n) $l, load_atA $fin (k0_off26 $n) (k0_off26_inb $n) $l, load_atA $fin (k0_off27 $n) (k0_off27_inb $n) $l, load_atA $fin (k0_off28 $n) (k0_off28_inb $n) $l, load_atA $fin (k0_off29 $n) (k0_off29_inb $n) $l, load_atA $fin (k0_off30 $n) (k0_off30_inb $n) $l, load_atA $fin (k0_off31 $n) (k0_off31_inb $n) $l, load_atA $fin (k0_off32 $n) (k0_off32_inb $n) $l, load_atA $fin (k0_off33 $n) (k0_off33_inb $n) $l, load_atA $fin (k0_off34 $n) (k0_off34_inb $n) $l, load_atA $fin (k0_off35 $n) (k0_off35_inb $n) $l, load_atA $fin (k0_off36 $n) (k0_off36_inb $n) $l, load_atA $fin (k0_off37 $n) (k0_off37_inb $n) $l, load_atA $fin (k0_off42 $n) (k0_off42_inb $n) $l, load_atA $fin (k0_off43 $n) (k0_off43_inb $n) $l, load_atA $fin (k0_off44 $n) (k0_off44_inb $n) $l, load_atA $fin (k0_off45 $n) (k0_off45_inb $n) $l, load_atA $fin (k0_off46 $n) (k0_off46_inb $n) $l, load_atA $fin (k0_off47 $n) (k0_off47_inb $n) $l, load_atA $fin (k0_off48 $n) (k0_off48_inb $n) $l, load_atA $fin (k0_off49 $n) (k0_off49_inb $n) $l, load_atA $fin (k0_off50 $n) (k0_off50_inb $n) $l, load_atA $fin (k0_off51 $n) (k0_off51_inb $n) $l, load_atA $fin (k0_off52 $n) (k0_off52_inb $n) $l, load_atA $fin (k0_off53 $n) (k0_off53_inb $n) $l, load_atA $fin (k0_off54 $n) (k0_off54_inb $n) $l, load_atA $fin (k0_off55 $n) (k0_off55_inb $n) $l, load_atA $fin (k0_off56 $n) (k0_off56_inb $n) $l, load_atA $fin (k0_off57 $n) (k0_off57_inb $n) $l, load_atA $fin (k0_off62 $n) (k0_off62_inb $n) $l, load_atA $fin (k0_off63 $n) (k0_off63_inb $n) $l, load_atA $fin (k0_off64 $n) (k0_off64_inb $n) $l, load_atA $fin (k0_off65 $n) (k0_off65_inb $n) $l, load_atA $fin (k0_off66 $n) (k0_off66_inb $n) $l, load_atA $fin (k0_off67 $n) (k0_off67_inb $n) $l, load_atA $fin (k0_off68 $n) (k0_off68_inb $n) $l, load_atA $fin (k0_off69 $n) (k0_off69_inb $n) $l, load_atA $fin (k0_off70 $n) (k0_off70_inb $n) $l, load_atA $fin (k0_off71 $n) (k0_off71_inb $n) $l, load_atA $fin (k0_off72 $n) (k0_off72_inb $n) $l, load_atA $fin (k0_off73 $n) (k0_off73_inb $n) $l, load_atA $fin (k0_off74 $n) (k0_off74_inb $n) $l, load_atA $fin (k0_off75 $n) (k0_off75_inb $n) $l, load_atA $fin (k0_off76 $n) (k0_off76_inb $n) $l, load_atA $fin (k0_off77 $n) (k0_off77_inb $n) $l, load_atA $fin (k0_off82 $n) (k0_off82_inb $n) $l, load_atA $fin (k0_off83 $n) (k0_off83_inb $n) $l, load_atA $fin (k0_off84 $n) (k0_off84_inb $n) $l, load_atA $fin (k0_off85 $n) (k0_off85_inb $n) $l, load_atA $fin (k0_off86 $n) (k0_off86_inb $n) $l, load_atA $fin (k0_off87 $n) (k0_off87_inb $n) $l, load_atA $fin (k0_off88 $n) (k0_off88_inb $n) $l, load_atA $fin (k0_off89 $n) (k0_off89_inb $n) $l, load_atA $fin (k0_off90 $n) (k0_off90_inb $n) $l, load_atA $fin (k0_off91 $n) (k0_off91_inb $n) $l, load_atA $fin (k0_off92 $n) (k0_off92_inb $n) $l, load_atA $fin (k0_off93 $n) (k0_off93_inb $n) $l, load_atA $fin (k0_off94 $n) (k0_off94_inb $n) $l, load_atA $fin (k0_off95 $n) (k0_off95_inb $n) $l, load_atA $fin (k0_off96 $n) (k0_off96_inb $n) $l, load_atA $fin (k0_off97 $n) (k0_off97_inb $n) $l, load_atA $fin (k0_off102 $n) (k0_off102_inb $n) $l, load_atA $fin (k0_off103 $n) (k0_off103_inb $n) $l, load_atA $fin (k0_off104 $n) (k0_off104_inb $n) $l, load_atA $fin (k0_off105 $n) (k0_off105_inb $n) $l, load_atA $fin (k0_off106 $n) (k0_off106_inb $n) $l, load_atA $fin (k0_off107 $n) (k0_off107_inb $n) $l, load_atA $fin (k0_off108 $n) (k0_off108_inb $n) $l, load_atA $fin (k0_off109 $n) (k0_off109_inb $n) $l, load_atA $fin (k0_off110 $n) (k0_off110_inb $n) $l, load_atA $fin (k0_off111 $n) (k0_off111_inb $n) $l, load_atA $fin (k0_off112 $n) (k0_off112_inb $n) $l, load_atA $fin (k0_off113 $n) (k0_off113_inb $n) $l, load_atA $fin (k0_off114 $n) (k0_off114_inb $n) $l, load_atA $fin (k0_off115 $n) (k0_off115_inb $n) $l, load_atA $fin (k0_off116 $n) (k0_off116_inb $n) $l, load_atA $fin (k0_off117 $n) (k0_off117_inb $n) $l, load_atA $fin (k0_off122 $n) (k0_off122_inb $n) $l, load_atA $fin (k0_off123 $n) (k0_off123_inb $n) $l, load_atA $fin (k0_off124 $n) (k0_off124_inb $n) $l, load_atA $fin (k0_off125 $n) (k0_off125_inb $n) $l, load_atA $fin (k0_off126 $n) (k0_off126_inb $n) $l, load_atA $fin (k0_off127 $n) (k0_off127_inb $n) $l, load_atA $fin (k0_off128 $n) (k0_off128_inb $n) $l, load_atA $fin (k0_off129 $n) (k0_off129_inb $n) $l, load_atA $fin (k0_off130 $n) (k0_off130_inb $n) $l, load_atA $fin (k0_off131 $n) (k0_off131_inb $n) $l, load_atA $fin (k0_off132 $n) (k0_off132_inb $n) $l, load_atA $fin (k0_off133 $n) (k0_off133_inb $n) $l, load_atA $fin (k0_off134 $n) (k0_off134_inb $n) $l, load_atA $fin (k0_off135 $n) (k0_off135_inb $n) $l, load_atA $fin (k0_off136 $n) (k0_off136_inb $n) $l, load_atA $fin (k0_off137 $n) (k0_off137_inb $n) $l, load_atA $fin (k0_off142 $n) (k0_off142_inb $n) $l, load_atA $fin (k0_off143 $n) (k0_off143_inb $n) $l, load_atA $fin (k0_off144 $n) (k0_off144_inb $n) $l, load_atA $fin (k0_off145 $n) (k0_off145_inb $n) $l, load_atA $fin (k0_off146 $n) (k0_off146_inb $n) $l, load_atA $fin (k0_off147 $n) (k0_off147_inb $n) $l, load_atA $fin (k0_off148 $n) (k0_off148_inb $n) $l, load_atA $fin (k0_off149 $n) (k0_off149_inb $n) $l, load_atA $fin (k0_off150 $n) (k0_off150_inb $n) $l, load_atA $fin (k0_off151 $n) (k0_off151_inb $n) $l, load_atA $fin (k0_off152 $n) (k0_off152_inb $n) $l, load_atA $fin (k0_off153 $n) (k0_off153_inb $n) $l, load_atA $fin (k0_off154 $n) (k0_off154_inb $n) $l, load_atA $fin (k0_off155 $n) (k0_off155_inb $n) $l, load_atA $fin (k0_off156 $n) (k0_off156_inb $n) $l, load_atA $fin (k0_off157 $n) (k0_off157_inb $n) $l]
             simp only [k0_off2_eq, k0_off3_eq, k0_off4_eq, k0_off5_eq, k0_off6_eq, k0_off7_eq, k0_off8_eq, k0_off9_eq, k0_off10_eq, k0_off11_eq, k0_off12_eq, k0_off13_eq, k0_off14_eq, k0_off15_eq, k0_off16_eq, k0_off17_eq, k0_off18_eq, k0_off19_eq, k0_off20_eq, k0_off21_eq, k0_off22_eq, k0_off23_eq, k0_off24_eq, k0_off25_eq, k0_off26_eq, k0_off27_eq, k0_off28_eq, k0_off29_eq, k0_off30_eq, k0_off31_eq, k0_off32_eq, k0_off33_eq, k0_off34_eq, k0_off35_eq, k0_off36_eq, k0_off37_eq, k0_off38_eq, k0_off39_eq, k0_off40_eq, k0_off41_eq, k0_off42_eq, k0_off43_eq, k0_off44_eq, k0_off45_eq, k0_off46_eq, k0_off47_eq, k0_off48_eq, k0_off49_eq, k0_off50_eq, k0_off51_eq, k0_off52_eq, k0_off53_eq, k0_off54_eq, k0_off55_eq, k0_off56_eq, k0_off57_eq, k0_off58_eq, k0_off59_eq, k0_off60_eq, k0_off61_eq, k0_off62_eq, k0_off63_eq, k0_off64_eq, k0_off65_eq, k0_off66_eq, k0_off67_eq, k0_off68_eq, k0_off69_eq, k0_off70_eq, k0_off71_eq, k0_off72_eq, k0_off73_eq, k0_off74_eq, k0_off75_eq, k0_off76_eq, k0_off77_eq, k0_off78_eq, k0_off79_eq, k0_off80_eq, k0_off81_eq, k0_off82_eq, k0_off83_eq, k0_off84_eq, k0_off85_eq, k0_off86_eq, k0_off87_eq, k0_off88_eq, k0_off89_eq, k0_off90_eq, k0_off91_eq, k0_off92_eq, k0_off93_eq, k0_off94_eq, k0_off95_eq, k0_off96_eq, k0_off97_eq, k0_off98_eq, k0_off99_eq, k0_off100_eq, k0_off101_eq, k0_off102_eq, k0_off103_eq, k0_off104_eq, k0_off105_eq, k0_off106_eq, k0_off107_eq, k0_off108_eq, k0_off109_eq, k0_off110_eq, k0_off111_eq, k0_off112_eq, k0_off113_eq, k0_off114_eq, k0_off115_eq, k0_off116_eq, k0_off117_eq, k0_off118_eq, k0_off119_eq, k0_off120_eq, k0_off121_eq, k0_off122_eq, k0_off123_eq, k0_off124_eq, k0_off125_eq, k0_off126_eq, k0_off127_eq, k0_off128_eq, k0_off129_eq, k0_off130_eq, k0_off131_eq, k0_off132_eq, k0_off133_eq, k0_off134_eq, k0_off135_eq, k0_off136_eq, k0_off137_eq, k0_off138_eq, k0_off139_eq, k0_off140_eq, k0_off141_eq, k0_off142_eq, k0_off143_eq, k0_off144_eq, k0_off145_eq, k0_off146_eq, k0_off147_eq, k0_off148_eq, k0_off149_eq, k0_off150_eq, k0_off151_eq, k0_off152_eq, k0_off153_eq, k0_off154_eq, k0_off155_eq, k0_off156_eq, k0_off157_eq, k0_off158_eq, k0_off159_eq, k0_off160_eq, k0_off161_eq]
             rfl))

set_option maxHeartbeats 6400000 in
theorem computeA_step (fin : Buf (Elt F) ((V d (cV L) (jV L)).loc cc0_scratch0)) (g0 : Buf (Elt F) ((V d (cV L) (jV L)).loc cc0_scratch2))
    (v1 v21 c0 c1 : BitVec 32) (k1 : Fin (k0_t1_loop L).trips) (n : Fin k0_t2_loop.trips) :
    iprop((((inA).view.loc (V d (cV L) (jV L)) ↦{fullShare} fin : sProp 𝕄)) ∗ ((outA).view.loc (V d (cV L) (jV L)) ↦{fullShare} outAt fin g0 n.val))
      ⊢ wp frame (wpE (defs₀ (F := F)) 𝒱₀ (V d (cV L) (jV L)) none) Set.univ
          (k0_t2_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 v1 v21 c0 c1 k1 n ⟨⟩)
          fun _ => iprop(((inA).view.loc (V d (cV L) (jV L)) ↦{fullShare} fin) ∗ ((outA).view.loc (V d (cV L) (jV L)) ↦{fullShare} outAt fin g0 (n.val + 1))) := by
  unfold k0_t2_body
  iintro ⟨Hin, Hout⟩
  sl_exec_parts
  sl_unfold_run_names
  rw [writes_rowA (F := F) fin g0 n.val _ ?hG ?hrow ?hcov]
  case hG =>
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    exact fun _ hp => absurd hp List.not_mem_nil
  case hrow =>
    refine List.forall_mem_cons.2 ⟨?_, ?_⟩
    · intro y hy
      exact piece_row (k0_off161 n) (k0_off161_inb n) (by rw [k0_off161_eq]; rfl) y hy
    refine List.forall_mem_cons.2 ⟨?_, ?_⟩
    · intro y hy
      exact piece_row (k0_off160 n) (k0_off160_inb n) (by rw [k0_off160_eq]; rfl) y hy
    refine List.forall_mem_cons.2 ⟨?_, ?_⟩
    · intro y hy
      exact piece_row (k0_off159 n) (k0_off159_inb n) (by rw [k0_off159_eq]; rfl) y hy
    refine List.forall_mem_cons.2 ⟨?_, ?_⟩
    · intro y hy
      exact piece_row (k0_off158 n) (k0_off158_inb n) (by rw [k0_off158_eq]; rfl) y hy
    refine List.forall_mem_cons.2 ⟨?_, ?_⟩
    · intro y hy
      exact piece_row (k0_off141 n) (k0_off141_inb n) (by rw [k0_off141_eq]; rfl) y hy
    refine List.forall_mem_cons.2 ⟨?_, ?_⟩
    · intro y hy
      exact piece_row (k0_off140 n) (k0_off140_inb n) (by rw [k0_off140_eq]; rfl) y hy
    refine List.forall_mem_cons.2 ⟨?_, ?_⟩
    · intro y hy
      exact piece_row (k0_off139 n) (k0_off139_inb n) (by rw [k0_off139_eq]; rfl) y hy
    refine List.forall_mem_cons.2 ⟨?_, ?_⟩
    · intro y hy
      exact piece_row (k0_off138 n) (k0_off138_inb n) (by rw [k0_off138_eq]; rfl) y hy
    refine List.forall_mem_cons.2 ⟨?_, ?_⟩
    · intro y hy
      exact piece_row (k0_off121 n) (k0_off121_inb n) (by rw [k0_off121_eq]; rfl) y hy
    refine List.forall_mem_cons.2 ⟨?_, ?_⟩
    · intro y hy
      exact piece_row (k0_off120 n) (k0_off120_inb n) (by rw [k0_off120_eq]; rfl) y hy
    refine List.forall_mem_cons.2 ⟨?_, ?_⟩
    · intro y hy
      exact piece_row (k0_off119 n) (k0_off119_inb n) (by rw [k0_off119_eq]; rfl) y hy
    refine List.forall_mem_cons.2 ⟨?_, ?_⟩
    · intro y hy
      exact piece_row (k0_off118 n) (k0_off118_inb n) (by rw [k0_off118_eq]; rfl) y hy
    refine List.forall_mem_cons.2 ⟨?_, ?_⟩
    · intro y hy
      exact piece_row (k0_off101 n) (k0_off101_inb n) (by rw [k0_off101_eq]; rfl) y hy
    refine List.forall_mem_cons.2 ⟨?_, ?_⟩
    · intro y hy
      exact piece_row (k0_off100 n) (k0_off100_inb n) (by rw [k0_off100_eq]; rfl) y hy
    refine List.forall_mem_cons.2 ⟨?_, ?_⟩
    · intro y hy
      exact piece_row (k0_off99 n) (k0_off99_inb n) (by rw [k0_off99_eq]; rfl) y hy
    refine List.forall_mem_cons.2 ⟨?_, ?_⟩
    · intro y hy
      exact piece_row (k0_off98 n) (k0_off98_inb n) (by rw [k0_off98_eq]; rfl) y hy
    refine List.forall_mem_cons.2 ⟨?_, ?_⟩
    · intro y hy
      exact piece_row (k0_off81 n) (k0_off81_inb n) (by rw [k0_off81_eq]; rfl) y hy
    refine List.forall_mem_cons.2 ⟨?_, ?_⟩
    · intro y hy
      exact piece_row (k0_off80 n) (k0_off80_inb n) (by rw [k0_off80_eq]; rfl) y hy
    refine List.forall_mem_cons.2 ⟨?_, ?_⟩
    · intro y hy
      exact piece_row (k0_off79 n) (k0_off79_inb n) (by rw [k0_off79_eq]; rfl) y hy
    refine List.forall_mem_cons.2 ⟨?_, ?_⟩
    · intro y hy
      exact piece_row (k0_off78 n) (k0_off78_inb n) (by rw [k0_off78_eq]; rfl) y hy
    refine List.forall_mem_cons.2 ⟨?_, ?_⟩
    · intro y hy
      exact piece_row (k0_off61 n) (k0_off61_inb n) (by rw [k0_off61_eq]; rfl) y hy
    refine List.forall_mem_cons.2 ⟨?_, ?_⟩
    · intro y hy
      exact piece_row (k0_off60 n) (k0_off60_inb n) (by rw [k0_off60_eq]; rfl) y hy
    refine List.forall_mem_cons.2 ⟨?_, ?_⟩
    · intro y hy
      exact piece_row (k0_off59 n) (k0_off59_inb n) (by rw [k0_off59_eq]; rfl) y hy
    refine List.forall_mem_cons.2 ⟨?_, ?_⟩
    · intro y hy
      exact piece_row (k0_off58 n) (k0_off58_inb n) (by rw [k0_off58_eq]; rfl) y hy
    refine List.forall_mem_cons.2 ⟨?_, ?_⟩
    · intro y hy
      exact piece_row (k0_off41 n) (k0_off41_inb n) (by rw [k0_off41_eq]; rfl) y hy
    refine List.forall_mem_cons.2 ⟨?_, ?_⟩
    · intro y hy
      exact piece_row (k0_off40 n) (k0_off40_inb n) (by rw [k0_off40_eq]; rfl) y hy
    refine List.forall_mem_cons.2 ⟨?_, ?_⟩
    · intro y hy
      exact piece_row (k0_off39 n) (k0_off39_inb n) (by rw [k0_off39_eq]; rfl) y hy
    refine List.forall_mem_cons.2 ⟨?_, ?_⟩
    · intro y hy
      exact piece_row (k0_off38 n) (k0_off38_inb n) (by rw [k0_off38_eq]; rfl) y hy
    refine List.forall_mem_cons.2 ⟨?_, ?_⟩
    · intro y hy
      exact piece_row (k0_off21 n) (k0_off21_inb n) (by rw [k0_off21_eq]; rfl) y hy
    refine List.forall_mem_cons.2 ⟨?_, ?_⟩
    · intro y hy
      exact piece_row (k0_off20 n) (k0_off20_inb n) (by rw [k0_off20_eq]; rfl) y hy
    refine List.forall_mem_cons.2 ⟨?_, ?_⟩
    · intro y hy
      exact piece_row (k0_off19 n) (k0_off19_inb n) (by rw [k0_off19_eq]; rfl) y hy
    refine List.forall_mem_cons.2 ⟨?_, ?_⟩
    · intro y hy
      exact piece_row (k0_off18 n) (k0_off18_inb n) (by rw [k0_off18_eq]; rfl) y hy
    exact fun _ hp => absurd hp List.not_mem_nil
  case hcov =>
    intro y hy
    have hk' : (y 1).val < 4 := (y 1).isLt
    have hc' : (y 2).val < 128 := (y 2).isLt
    obtain ⟨k, hk1⟩ : ∃ k, (y 1).val = k := ⟨_, rfl⟩
    obtain ⟨cg, hcg⟩ : ∃ cg, (y 2).val / 16 = cg := ⟨_, rfl⟩
    have hkb : k < 4 := by omega
    have hcgb : cg < 8 := by omega
    interval_cases k <;> interval_cases cg
    · exact ⟨_, List.getElem_mem (n := 31) (Nat.lt_of_lt_of_eq (by omega : 31 < 32) rfl), piece_mem (k0_off18 n) (k0_off18_inb n) y (k0_off18_eq n) hy hk1 (by omega)⟩
    · exact ⟨_, List.getElem_mem (n := 27) (Nat.lt_of_lt_of_eq (by omega : 27 < 32) rfl), piece_mem (k0_off38 n) (k0_off38_inb n) y (k0_off38_eq n) hy hk1 (by omega)⟩
    · exact ⟨_, List.getElem_mem (n := 23) (Nat.lt_of_lt_of_eq (by omega : 23 < 32) rfl), piece_mem (k0_off58 n) (k0_off58_inb n) y (k0_off58_eq n) hy hk1 (by omega)⟩
    · exact ⟨_, List.getElem_mem (n := 19) (Nat.lt_of_lt_of_eq (by omega : 19 < 32) rfl), piece_mem (k0_off78 n) (k0_off78_inb n) y (k0_off78_eq n) hy hk1 (by omega)⟩
    · exact ⟨_, List.getElem_mem (n := 15) (Nat.lt_of_lt_of_eq (by omega : 15 < 32) rfl), piece_mem (k0_off98 n) (k0_off98_inb n) y (k0_off98_eq n) hy hk1 (by omega)⟩
    · exact ⟨_, List.getElem_mem (n := 11) (Nat.lt_of_lt_of_eq (by omega : 11 < 32) rfl), piece_mem (k0_off118 n) (k0_off118_inb n) y (k0_off118_eq n) hy hk1 (by omega)⟩
    · exact ⟨_, List.getElem_mem (n := 7) (Nat.lt_of_lt_of_eq (by omega : 7 < 32) rfl), piece_mem (k0_off138 n) (k0_off138_inb n) y (k0_off138_eq n) hy hk1 (by omega)⟩
    · exact ⟨_, List.getElem_mem (n := 3) (Nat.lt_of_lt_of_eq (by omega : 3 < 32) rfl), piece_mem (k0_off158 n) (k0_off158_inb n) y (k0_off158_eq n) hy hk1 (by omega)⟩
    · exact ⟨_, List.getElem_mem (n := 30) (Nat.lt_of_lt_of_eq (by omega : 30 < 32) rfl), piece_mem (k0_off19 n) (k0_off19_inb n) y (k0_off19_eq n) hy hk1 (by omega)⟩
    · exact ⟨_, List.getElem_mem (n := 26) (Nat.lt_of_lt_of_eq (by omega : 26 < 32) rfl), piece_mem (k0_off39 n) (k0_off39_inb n) y (k0_off39_eq n) hy hk1 (by omega)⟩
    · exact ⟨_, List.getElem_mem (n := 22) (Nat.lt_of_lt_of_eq (by omega : 22 < 32) rfl), piece_mem (k0_off59 n) (k0_off59_inb n) y (k0_off59_eq n) hy hk1 (by omega)⟩
    · exact ⟨_, List.getElem_mem (n := 18) (Nat.lt_of_lt_of_eq (by omega : 18 < 32) rfl), piece_mem (k0_off79 n) (k0_off79_inb n) y (k0_off79_eq n) hy hk1 (by omega)⟩
    · exact ⟨_, List.getElem_mem (n := 14) (Nat.lt_of_lt_of_eq (by omega : 14 < 32) rfl), piece_mem (k0_off99 n) (k0_off99_inb n) y (k0_off99_eq n) hy hk1 (by omega)⟩
    · exact ⟨_, List.getElem_mem (n := 10) (Nat.lt_of_lt_of_eq (by omega : 10 < 32) rfl), piece_mem (k0_off119 n) (k0_off119_inb n) y (k0_off119_eq n) hy hk1 (by omega)⟩
    · exact ⟨_, List.getElem_mem (n := 6) (Nat.lt_of_lt_of_eq (by omega : 6 < 32) rfl), piece_mem (k0_off139 n) (k0_off139_inb n) y (k0_off139_eq n) hy hk1 (by omega)⟩
    · exact ⟨_, List.getElem_mem (n := 2) (Nat.lt_of_lt_of_eq (by omega : 2 < 32) rfl), piece_mem (k0_off159 n) (k0_off159_inb n) y (k0_off159_eq n) hy hk1 (by omega)⟩
    · exact ⟨_, List.getElem_mem (n := 29) (Nat.lt_of_lt_of_eq (by omega : 29 < 32) rfl), piece_mem (k0_off20 n) (k0_off20_inb n) y (k0_off20_eq n) hy hk1 (by omega)⟩
    · exact ⟨_, List.getElem_mem (n := 25) (Nat.lt_of_lt_of_eq (by omega : 25 < 32) rfl), piece_mem (k0_off40 n) (k0_off40_inb n) y (k0_off40_eq n) hy hk1 (by omega)⟩
    · exact ⟨_, List.getElem_mem (n := 21) (Nat.lt_of_lt_of_eq (by omega : 21 < 32) rfl), piece_mem (k0_off60 n) (k0_off60_inb n) y (k0_off60_eq n) hy hk1 (by omega)⟩
    · exact ⟨_, List.getElem_mem (n := 17) (Nat.lt_of_lt_of_eq (by omega : 17 < 32) rfl), piece_mem (k0_off80 n) (k0_off80_inb n) y (k0_off80_eq n) hy hk1 (by omega)⟩
    · exact ⟨_, List.getElem_mem (n := 13) (Nat.lt_of_lt_of_eq (by omega : 13 < 32) rfl), piece_mem (k0_off100 n) (k0_off100_inb n) y (k0_off100_eq n) hy hk1 (by omega)⟩
    · exact ⟨_, List.getElem_mem (n := 9) (Nat.lt_of_lt_of_eq (by omega : 9 < 32) rfl), piece_mem (k0_off120 n) (k0_off120_inb n) y (k0_off120_eq n) hy hk1 (by omega)⟩
    · exact ⟨_, List.getElem_mem (n := 5) (Nat.lt_of_lt_of_eq (by omega : 5 < 32) rfl), piece_mem (k0_off140 n) (k0_off140_inb n) y (k0_off140_eq n) hy hk1 (by omega)⟩
    · exact ⟨_, List.getElem_mem (n := 1) (Nat.lt_of_lt_of_eq (by omega : 1 < 32) rfl), piece_mem (k0_off160 n) (k0_off160_inb n) y (k0_off160_eq n) hy hk1 (by omega)⟩
    · exact ⟨_, List.getElem_mem (n := 28) (Nat.lt_of_lt_of_eq (by omega : 28 < 32) rfl), piece_mem (k0_off21 n) (k0_off21_inb n) y (k0_off21_eq n) hy hk1 (by omega)⟩
    · exact ⟨_, List.getElem_mem (n := 24) (Nat.lt_of_lt_of_eq (by omega : 24 < 32) rfl), piece_mem (k0_off41 n) (k0_off41_inb n) y (k0_off41_eq n) hy hk1 (by omega)⟩
    · exact ⟨_, List.getElem_mem (n := 20) (Nat.lt_of_lt_of_eq (by omega : 20 < 32) rfl), piece_mem (k0_off61 n) (k0_off61_inb n) y (k0_off61_eq n) hy hk1 (by omega)⟩
    · exact ⟨_, List.getElem_mem (n := 16) (Nat.lt_of_lt_of_eq (by omega : 16 < 32) rfl), piece_mem (k0_off81 n) (k0_off81_inb n) y (k0_off81_eq n) hy hk1 (by omega)⟩
    · exact ⟨_, List.getElem_mem (n := 12) (Nat.lt_of_lt_of_eq (by omega : 12 < 32) rfl), piece_mem (k0_off101 n) (k0_off101_inb n) y (k0_off101_eq n) hy hk1 (by omega)⟩
    · exact ⟨_, List.getElem_mem (n := 8) (Nat.lt_of_lt_of_eq (by omega : 8 < 32) rfl), piece_mem (k0_off121 n) (k0_off121_inb n) y (k0_off121_eq n) hy hk1 (by omega)⟩
    · exact ⟨_, List.getElem_mem (n := 4) (Nat.lt_of_lt_of_eq (by omega : 4 < 32) rfl), piece_mem (k0_off141 n) (k0_off141_inb n) y (k0_off141_eq n) hy hk1 (by omega)⟩
    · exact ⟨_, List.getElem_mem (n := 0) (Nat.lt_of_lt_of_eq (by omega : 0 < 32) rfl), piece_mem (k0_off161 n) (k0_off161_inb n) y (k0_off161_eq n) hy hk1 (by omega)⟩
  rw [wp_ret]; imodintro
  isplitl [Hin]; · iexact Hin
  iexact Hout

end Cert.Kernel.Frame

end
-- ==== Proof.ComputeBBits.lean ====
/-
  One trip of compute pass B of the SparseCore tile body, with its value, at any float instance.

  Pass B reads input scratch B (16 × 16 × 128) and writes output scratch B (16 × 4 × 128).  Trip n runs the kernel's
  1,322 statements for row n: 128 loads of 1×1×16 component vectors, their squares, sums and scalings, and 32 stores of
  1×1×16 result vectors, one per piece k = 0 … 3 and group of 16 channels.  The theorem: if the output scratch has its
  rows below n at the pass's function `blockOut fin` of the input scratch's contents `fin` and the others as the pass found
  them (`outAt fin g0 n`), then after the trip it has its rows below n + 1 there (`outAt fin g0 (n + 1)`), and the input
  scratch is unchanged.  The run leaves the output scratch as 32 stores over its former contents; each store's value at
  a lane is the kernel's expression tree over the loaded lanes, which is `blockOut fin` at the entry the lane lands on;
  the stores lie in row n and cover it.
-/
import proofs.«216336_g7232724927063_cont_9to1_m_658_15_alg».proof.Proof.TileBaseBits
import proofs.«216336_g7232724927063_cont_9to1_m_658_15_alg».proof.Proof.ComputeBaseBits
import Idealize.ShloMosaic.Lib.Pipeline.Value
import Idealize.ShloMosaic.Lib.Writes
import Idealize.ShloMosaic.Lib.WritesUnit

noncomputable section

namespace Cert.Kernel.Frame

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg0_scv : Memref Cert.Kernel.sig Kind.scVector Space.hbm Cert.Kernel.S10000x16x128 EltTy.f32)
local notation "oV" => (Memref.whole Cert.Kernel.main_v0_scv : Memref Cert.Kernel.sig Kind.scVector Space.hbm Cert.Kernel.S4096x4x128 EltTy.f32)
local notation "inA" => (Memref.whole Cert.Kernel.cc0_scratch0 : Memref Cert.Kernel.sig Kind.scVector Space.vmem Cert.Kernel.S16x16x128 EltTy.f32)
local notation "inB" => (Memref.whole Cert.Kernel.cc0_scratch1 : Memref Cert.Kernel.sig Kind.scVector Space.vmem Cert.Kernel.S16x16x128 EltTy.f32)
local notation "outA" => (Memref.whole Cert.Kernel.cc0_scratch2 : Memref Cert.Kernel.sig Kind.scVector Space.vmem Cert.Kernel.S16x4x128 EltTy.f32)
local notation "outB" => (Memref.whole Cert.Kernel.cc0_scratch3 : Memref Cert.Kernel.sig Kind.scVector Space.vmem Cert.Kernel.S16x4x128 EltTy.f32)

variable [FloatOps F]

/-- One store's value at a lane: unfold the kernel's expression over the loaded lanes and compare with the pass's function. -/
local macro "piece_val" fin:ident n:ident l:ident : tactic =>
  `(tactic| (simp only [k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, cast_row, cast_lanes, mulf_at, addf_at, broadcast_apply, load_atB $fin (k0_off164 $n) (k0_off164_inb $n) $l, load_atB $fin (k0_off165 $n) (k0_off165_inb $n) $l, load_atB $fin (k0_off166 $n) (k0_off166_inb $n) $l, load_atB $fin (k0_off167 $n) (k0_off167_inb $n) $l, load_atB $fin (k0_off168 $n) (k0_off168_inb $n) $l, load_atB $fin (k0_off169 $n) (k0_off169_inb $n) $l, load_atB $fin (k0_off170 $n) (k0_off170_inb $n) $l, load_atB $fin (k0_off171 $n) (k0_off171_inb $n) $l, load_atB $fin (k0_off172 $n) (k0_off172_inb $n) $l, load_atB $fin (k0_off173 $n) (k0_off173_inb $n) $l, load_atB $fin (k0_off174 $n) (k0_off174_inb $n) $l, load_atB $fin (k0_off175 $n) (k0_off175_inb $n) $l, load_atB $fin (k0_off176 $n) (k0_off176_inb $n) $l, load_atB $fin (k0_off177 $n) (k0_off177_inb $n) $l, load_atB $fin (k0_off178 $n) (k0_off178_inb $n) $l, load_atB $fin (k0_off179 $n) (k0_off179_inb $n) $l, load_atB $fin (k0_off184 $n) (k0_off184_inb $n) $l, load_atB $fin (k0_off185 $n) (k0_off185_inb $n) $l, load_atB $fin (k0_off186 $n) (k0_off186_inb $n) $l, load_atB $fin (k0_off187 $n) (k0_off187_inb $n) $l, load_atB $fin (k0_off188 $n) (k0_off188_inb $n) $l, load_atB $fin (k0_off189 $n) (k0_off189_inb $n) $l, load_atB $fin (k0_off190 $n) (k0_off190_inb $n) $l, load_atB $fin (k0_off191 $n) (k0_off191_inb $n) $l, load_atB $fin (k0_off192 $n) (k0_off192_inb $n) $l, load_atB $fin (k0_off193 $n) (k0_off193_inb $n) $l, load_atB $fin (k0_off194 $n) (k0_off194_inb $n) $l, load_atB $fin (k0_off195 $n) (k0_off195_inb $n) $l, load_atB $fin (k0_off196 $n) (k0_off196_inb $n) $l, load_atB $fin (k0_off197 $n) (k0_off197_inb $n) $l, load_atB $fin (k0_off198 $n) (k0_off198_inb $n) $l, load_atB $fin (k0_off199 $n) (k0_off199_inb $n) $l, load_atB $fin (k0_off204 $n) (k0_off204_inb $n) $l, load_atB $fin (k0_off205 $n) (k0_off205_inb $n) $l, load_atB $fin (k0_off206 $n) (k0_off206_inb $n) $l, load_atB $fin (k0_off207 $n) (k0_off207_inb $n) $l, load_atB $fin (k0_off208 $n) (k0_off208_inb $n) $l, load_atB $fin (k0_off209 $n) (k0_off209_inb $n) $l, load_atB $fin (k0_off210 $n) (k0_off210_inb $n) $l, load_atB $fin (k0_off211 $n) (k0_off211_inb $n) $l, load_atB $fin (k0_off212 $n) (k0_off212_inb $n) $l, load_atB $fin (k0_off213 $n) (k0_off213_inb $n) $l, load_atB $fin (k0_off214 $n) (k0_off214_inb $n) $l, load_atB $fin (k0_off215 $n) (k0_off215_inb $n) $l, load_atB $fin (k0_off216 $n) (k0_off216_inb $n) $l, load_atB $fin (k0_off217 $n) (k0_off217_inb $n) $l, load_atB $fin (k0_off218 $n) (k0_off218_inb $n) $l, load_atB $fin (k0_off219 $n) (k0_off219_inb $n) $l, load_atB $fin (k0_off224 $n) (k0_off224_inb $n) $l, load_atB $fin (k0_off225 $n) (k0_off225_inb $n) $l, load_atB $fin (k0_off226 $n) (k0_off226_inb $n) $l, load_atB $fin (k0_off227 $n) (k0_off227_inb $n) $l, load_atB $fin (k0_off228 $n) (k0_off228_inb $n) $l, load_atB $fin (k0_off229 $n) (k0_off229_inb $n) $l, load_atB $fin (k0_off230 $n) (k0_off230_inb $n) $l, load_atB $fin (k0_off231 $n) (k0_off231_inb $n) $l, load_atB $fin (k0_off232 $n) (k0_off232_inb $n) $l, load_atB $fin (k0_off233 $n) (k0_off233_inb $n) $l, load_atB $fin (k0_off234 $n) (k0_off234_inb $n) $l, load_atB $fin (k0_off235 $n) (k0_off235_inb $n) $l, load_atB $fin (k0_off236 $n) (k0_off236_inb $n) $l, load_atB $fin (k0_off237 $n) (k0_off237_inb $n) $l, load_atB $fin (k0_off238 $n) (k0_off238_inb $n) $l, load_atB $fin (k0_off239 $n) (k0_off239_inb $n) $l, load_atB $fin (k0_off244 $n) (k0_off244_inb $n) $l, load_atB $fin (k0_off245 $n) (k0_off245_inb $n) $l, load_atB $fin (k0_off246 $n) (k0_off246_inb $n) $l, load_atB $fin (k0_off247 $n) (k0_off247_inb $n) $l, load_atB $fin (k0_off248 $n) (k0_off248_inb $n) $l, load_atB $fin (k0_off249 $n) (k0_off249_inb $n) $l, load_atB $fin (k0_off250 $n) (k0_off250_inb $n) $l, load_atB $fin (k0_off251 $n) (k0_off251_inb $n) $l, load_atB $fin (k0_off252 $n) (k0_off252_inb $n) $l, load_atB $fin (k0_off253 $n) (k0_off253_inb $n) $l, load_atB $fin (k0_off254 $n) (k0_off254_inb $n) $l, load_atB $fin (k0_off255 $n) (k0_off255_inb $n) $l, load_atB $fin (k0_off256 $n) (k0_off256_inb $n) $l, load_atB $fin (k0_off257 $n) (k0_off257_inb $n) $l, load_atB $fin (k0_off258 $n) (k0_off258_inb $n) $l, load_atB $fin (k0_off259 $n) (k0_off259_inb $n) $l, load_atB $fin (k0_off264 $n) (k0_off264_inb $n) $l, load_atB $fin (k0_off265 $n) (k0_off265_inb $n) $l, load_atB $fin (k0_off266 $n) (k0_off266_inb $n) $l, load_atB $fin (k0_off267 $n) (k0_off267_inb $n) $l, load_atB $fin (k0_off268 $n) (k0_off268_inb $n) $l, load_atB $fin (k0_off269 $n) (k0_off269_inb $n) $l, load_atB $fin (k0_off270 $n) (k0_off270_inb $n) $l, load_atB $fin (k0_off271 $n) (k0_off271_inb $n) $l, load_atB $fin (k0_off272 $n) (k0_off272_inb $n) $l, load_atB $fin (k0_off273 $n) (k0_off273_inb $n) $l, load_atB $fin (k0_off274 $n) (k0_off274_inb $n) $l, load_atB $fin (k0_off275 $n) (k0_off275_inb $n) $l, load_atB $fin (k0_off276 $n) (k0_off276_inb $n) $l, load_atB $fin (k0_off277 $n) (k0_off277_inb $n) $l, load_atB $fin (k0_off278 $n) (k0_off278_inb $n) $l, load_atB $fin (k0_off279 $n) (k0_off279_inb $n) $l, load_atB $fin (k0_off284 $n) (k0_off284_inb $n) $l, load_atB $fin (k0_off285 $n) (k0_off285_inb $n) $l, load_atB $fin (k0_off286 $n) (k0_off286_inb $n) $l, load_atB $fin (k0_off287 $n) (k0_off287_inb $n) $l, load_atB $fin (k0_off288 $n) (k0_off288_inb $n) $l, load_atB $fin (k0_off289 $n) (k0_off289_inb $n) $l, load_atB $fin (k0_off290 $n) (k0_off290_inb $n) $l, load_atB $fin (k0_off291 $n) (k0_off291_inb $n) $l, load_atB $fin (k0_off292 $n) (k0_off292_inb $n) $l, load_atB $fin (k0_off293 $n) (k0_off293_inb $n) $l, load_atB $fin (k0_off294 $n) (k0_off294_inb $n) $l, load_atB $fin (k0_off295 $n) (k0_off295_inb $n) $l, load_atB $fin (k0_off296 $n) (k0_off296_inb $n) $l, load_atB $fin (k0_off297 $n) (k0_off297_inb $n) $l, load_atB $fin (k0_off298 $n) (k0_off298_inb $n) $l, load_atB $fin (k0_off299 $n) (k0_off299_inb $n) $l, load_atB $fin (k0_off304 $n) (k0_off304_inb $n) $l, load_atB $fin (k0_off305 $n) (k0_off305_inb $n) $l, load_atB $fin (k0_off306 $n) (k0_off306_inb $n) $l, load_atB $fin (k0_off307 $n) (k0_off307_inb $n) $l, load_atB $fin (k0_off308 $n) (k0_off308_inb $n) $l, load_atB $fin (k0_off309 $n) (k0_off309_inb $n) $l, load_atB $fin (k0_off310 $n) (k0_off310_inb $n) $l, load_atB $fin (k0_off311 $n) (k0_off311_inb $n) $l, load_atB $fin (k0_off312 $n) (k0_off312_inb $n) $l, load_atB $fin (k0_off313 $n) (k0_off313_inb $n) $l, load_atB $fin (k0_off314 $n) (k0_off314_inb $n) $l, load_atB $fin (k0_off315 $n) (k0_off315_inb $n) $l, load_atB $fin (k0_off316 $n) (k0_off316_inb $n) $l, load_atB $fin (k0_off317 $n) (k0_off317_inb $n) $l, load_atB $fin (k0_off318 $n) (k0_off318_inb $n) $l, load_atB $fin (k0_off319 $n) (k0_off319_inb $n) $l]
             simp only [k0_off164_eq, k0_off165_eq, k0_off166_eq, k0_off167_eq, k0_off168_eq, k0_off169_eq, k0_off170_eq, k0_off171_eq, k0_off172_eq, k0_off173_eq, k0_off174_eq, k0_off175_eq, k0_off176_eq, k0_off177_eq, k0_off178_eq, k0_off179_eq, k0_off180_eq, k0_off181_eq, k0_off182_eq, k0_off183_eq, k0_off184_eq, k0_off185_eq, k0_off186_eq, k0_off187_eq, k0_off188_eq, k0_off189_eq, k0_off190_eq, k0_off191_eq, k0_off192_eq, k0_off193_eq, k0_off194_eq, k0_off195_eq, k0_off196_eq, k0_off197_eq, k0_off198_eq, k0_off199_eq, k0_off200_eq, k0_off201_eq, k0_off202_eq, k0_off203_eq, k0_off204_eq, k0_off205_eq, k0_off206_eq, k0_off207_eq, k0_off208_eq, k0_off209_eq, k0_off210_eq, k0_off211_eq, k0_off212_eq, k0_off213_eq, k0_off214_eq, k0_off215_eq, k0_off216_eq, k0_off217_eq, k0_off218_eq, k0_off219_eq, k0_off220_eq, k0_off221_eq, k0_off222_eq, k0_off223_eq, k0_off224_eq, k0_off225_eq, k0_off226_eq, k0_off227_eq, k0_off228_eq, k0_off229_eq, k0_off230_eq, k0_off231_eq, k0_off232_eq, k0_off233_eq, k0_off234_eq, k0_off235_eq, k0_off236_eq, k0_off237_eq, k0_off238_eq, k0_off239_eq, k0_off240_eq, k0_off241_eq, k0_off242_eq, k0_off243_eq, k0_off244_eq, k0_off245_eq, k0_off246_eq, k0_off247_eq, k0_off248_eq, k0_off249_eq, k0_off250_eq, k0_off251_eq, k0_off252_eq, k0_off253_eq, k0_off254_eq, k0_off255_eq, k0_off256_eq, k0_off257_eq, k0_off258_eq, k0_off259_eq, k0_off260_eq, k0_off261_eq, k0_off262_eq, k0_off263_eq, k0_off264_eq, k0_off265_eq, k0_off266_eq, k0_off267_eq, k0_off268_eq, k0_off269_eq, k0_off270_eq, k0_off271_eq, k0_off272_eq, k0_off273_eq, k0_off274_eq, k0_off275_eq, k0_off276_eq, k0_off277_eq, k0_off278_eq, k0_off279_eq, k0_off280_eq, k0_off281_eq, k0_off282_eq, k0_off283_eq, k0_off284_eq, k0_off285_eq, k0_off286_eq, k0_off287_eq, k0_off288_eq, k0_off289_eq, k0_off290_eq, k0_off291_eq, k0_off292_eq, k0_off293_eq, k0_off294_eq, k0_off295_eq, k0_off296_eq, k0_off297_eq, k0_off298_eq, k0_off299_eq, k0_off300_eq, k0_off301_eq, k0_off302_eq, k0_off303_eq, k0_off304_eq, k0_off305_eq, k0_off306_eq, k0_off307_eq, k0_off308_eq, k0_off309_eq, k0_off310_eq, k0_off311_eq, k0_off312_eq, k0_off313_eq, k0_off314_eq, k0_off315_eq, k0_off316_eq, k0_off317_eq, k0_off318_eq, k0_off319_eq, k0_off320_eq, k0_off321_eq, k0_off322_eq, k0_off323_eq]
             rfl))

set_option maxHeartbeats 6400000 in
theorem computeB_step (fin : Buf (Elt F) ((V d (cV L) (jV L)).loc cc0_scratch1)) (g0 : Buf (Elt F) ((V d (cV L) (jV L)).loc cc0_scratch3))
    (n : Fin k0_t3_loop.trips) :
    iprop((((inB).view.loc (V d (cV L) (jV L)) ↦{fullShare} fin : sProp 𝕄)) ∗ ((outB).view.loc (V d (cV L) (jV L)) ↦{fullShare} outAt fin g0 n.val))
      ⊢ wp frame (wpE (defs₀ (F := F)) 𝒱₀ (V d (cV L) (jV L)) none) Set.univ
          (k0_t3_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 n ⟨⟩)
          fun _ => iprop(((inB).view.loc (V d (cV L) (jV L)) ↦{fullShare} fin) ∗ ((outB).view.loc (V d (cV L) (jV L)) ↦{fullShare} outAt fin g0 (n.val + 1))) := by
  unfold k0_t3_body
  iintro ⟨Hin, Hout⟩
  sl_exec_parts
  sl_unfold_run_names
  rw [writes_rowB (F := F) fin g0 n.val _ ?hG ?hrow ?hcov]
  case hG =>
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    refine List.forall_mem_cons.2 ⟨?_, ?_⟩
    · intro x
      obtain ⟨l, rfl⟩ := exists_lane x
      dsimp only
      rw [piece_emb]
      piece_val fin n l
    exact fun _ hp => absurd hp List.not_mem_nil
  case hrow =>
    refine List.forall_mem_cons.2 ⟨?_, ?_⟩
    · intro y hy
      exact piece_row (k0_off323 n) (k0_off323_inb n) (by rw [k0_off323_eq]; rfl) y hy
    refine List.forall_mem_cons.2 ⟨?_, ?_⟩
    · intro y hy
      exact piece_row (k0_off322 n) (k0_off322_inb n) (by rw [k0_off322_eq]; rfl) y hy
    refine List.forall_mem_cons.2 ⟨?_, ?_⟩
    · intro y hy
      exact piece_row (k0_off321 n) (k0_off321_inb n) (by rw [k0_off321_eq]; rfl) y hy
    refine List.forall_mem_cons.2 ⟨?_, ?_⟩
    · intro y hy
      exact piece_row (k0_off320 n) (k0_off320_inb n) (by rw [k0_off320_eq]; rfl) y hy
    refine List.forall_mem_cons.2 ⟨?_, ?_⟩
    · intro y hy
      exact piece_row (k0_off303 n) (k0_off303_inb n) (by rw [k0_off303_eq]; rfl) y hy
    refine List.forall_mem_cons.2 ⟨?_, ?_⟩
    · intro y hy
      exact piece_row (k0_off302 n) (k0_off302_inb n) (by rw [k0_off302_eq]; rfl) y hy
    refine List.forall_mem_cons.2 ⟨?_, ?_⟩
    · intro y hy
      exact piece_row (k0_off301 n) (k0_off301_inb n) (by rw [k0_off301_eq]; rfl) y hy
    refine List.forall_mem_cons.2 ⟨?_, ?_⟩
    · intro y hy
      exact piece_row (k0_off300 n) (k0_off300_inb n) (by rw [k0_off300_eq]; rfl) y hy
    refine List.forall_mem_cons.2 ⟨?_, ?_⟩
    · intro y hy
      exact piece_row (k0_off283 n) (k0_off283_inb n) (by rw [k0_off283_eq]; rfl) y hy
    refine List.forall_mem_cons.2 ⟨?_, ?_⟩
    · intro y hy
      exact piece_row (k0_off282 n) (k0_off282_inb n) (by rw [k0_off282_eq]; rfl) y hy
    refine List.forall_mem_cons.2 ⟨?_, ?_⟩
    · intro y hy
      exact piece_row (k0_off281 n) (k0_off281_inb n) (by rw [k0_off281_eq]; rfl) y hy
    refine List.forall_mem_cons.2 ⟨?_, ?_⟩
    · intro y hy
      exact piece_row (k0_off280 n) (k0_off280_inb n) (by rw [k0_off280_eq]; rfl) y hy
    refine List.forall_mem_cons.2 ⟨?_, ?_⟩
    · intro y hy
      exact piece_row (k0_off263 n) (k0_off263_inb n) (by rw [k0_off263_eq]; rfl) y hy
    refine List.forall_mem_cons.2 ⟨?_, ?_⟩
    · intro y hy
      exact piece_row (k0_off262 n) (k0_off262_inb n) (by rw [k0_off262_eq]; rfl) y hy
    refine List.forall_mem_cons.2 ⟨?_, ?_⟩
    · intro y hy
      exact piece_row (k0_off261 n) (k0_off261_inb n) (by rw [k0_off261_eq]; rfl) y hy
    refine List.forall_mem_cons.2 ⟨?_, ?_⟩
    · intro y hy
      exact piece_row (k0_off260 n) (k0_off260_inb n) (by rw [k0_off260_eq]; rfl) y hy
    refine List.forall_mem_cons.2 ⟨?_, ?_⟩
    · intro y hy
      exact piece_row (k0_off243 n) (k0_off243_inb n) (by rw [k0_off243_eq]; rfl) y hy
    refine List.forall_mem_cons.2 ⟨?_, ?_⟩
    · intro y hy
      exact piece_row (k0_off242 n) (k0_off242_inb n) (by rw [k0_off242_eq]; rfl) y hy
    refine List.forall_mem_cons.2 ⟨?_, ?_⟩
    · intro y hy
      exact piece_row (k0_off241 n) (k0_off241_inb n) (by rw [k0_off241_eq]; rfl) y hy
    refine List.forall_mem_cons.2 ⟨?_, ?_⟩
    · intro y hy
      exact piece_row (k0_off240 n) (k0_off240_inb n) (by rw [k0_off240_eq]; rfl) y hy
    refine List.forall_mem_cons.2 ⟨?_, ?_⟩
    · intro y hy
      exact piece_row (k0_off223 n) (k0_off223_inb n) (by rw [k0_off223_eq]; rfl) y hy
    refine List.forall_mem_cons.2 ⟨?_, ?_⟩
    · intro y hy
      exact piece_row (k0_off222 n) (k0_off222_inb n) (by rw [k0_off222_eq]; rfl) y hy
    refine List.forall_mem_cons.2 ⟨?_, ?_⟩
    · intro y hy
      exact piece_row (k0_off221 n) (k0_off221_inb n) (by rw [k0_off221_eq]; rfl) y hy
    refine List.forall_mem_cons.2 ⟨?_, ?_⟩
    · intro y hy
      exact piece_row (k0_off220 n) (k0_off220_inb n) (by rw [k0_off220_eq]; rfl) y hy
    refine List.forall_mem_cons.2 ⟨?_, ?_⟩
    · intro y hy
      exact piece_row (k0_off203 n) (k0_off203_inb n) (by rw [k0_off203_eq]; rfl) y hy
    refine List.forall_mem_cons.2 ⟨?_, ?_⟩
    · intro y hy
      exact piece_row (k0_off202 n) (k0_off202_inb n) (by rw [k0_off202_eq]; rfl) y hy
    refine List.forall_mem_cons.2 ⟨?_, ?_⟩
    · intro y hy
      exact piece_row (k0_off201 n) (k0_off201_inb n) (by rw [k0_off201_eq]; rfl) y hy
    refine List.forall_mem_cons.2 ⟨?_, ?_⟩
    · intro y hy
      exact piece_row (k0_off200 n) (k0_off200_inb n) (by rw [k0_off200_eq]; rfl) y hy
    refine List.forall_mem_cons.2 ⟨?_, ?_⟩
    · intro y hy
      exact piece_row (k0_off183 n) (k0_off183_inb n) (by rw [k0_off183_eq]; rfl) y hy
    refine List.forall_mem_cons.2 ⟨?_, ?_⟩
    · intro y hy
      exact piece_row (k0_off182 n) (k0_off182_inb n) (by rw [k0_off182_eq]; rfl) y hy
    refine List.forall_mem_cons.2 ⟨?_, ?_⟩
    · intro y hy
      exact piece_row (k0_off181 n) (k0_off181_inb n) (by rw [k0_off181_eq]; rfl) y hy
    refine List.forall_mem_cons.2 ⟨?_, ?_⟩
    · intro y hy
      exact piece_row (k0_off180 n) (k0_off180_inb n) (by rw [k0_off180_eq]; rfl) y hy
    exact fun _ hp => absurd hp List.not_mem_nil
  case hcov =>
    intro y hy
    have hk' : (y 1).val < 4 := (y 1).isLt
    have hc' : (y 2).val < 128 := (y 2).isLt
    obtain ⟨k, hk1⟩ : ∃ k, (y 1).val = k := ⟨_, rfl⟩
    obtain ⟨cg, hcg⟩ : ∃ cg, (y 2).val / 16 = cg := ⟨_, rfl⟩
    have hkb : k < 4 := by omega
    have hcgb : cg < 8 := by omega
    interval_cases k <;> interval_cases cg
    · exact ⟨_, List.getElem_mem (n := 31) (Nat.lt_of_lt_of_eq (by omega : 31 < 32) rfl), piece_mem (k0_off180 n) (k0_off180_inb n) y (k0_off180_eq n) hy hk1 (by omega)⟩
    · exact ⟨_, List.getElem_mem (n := 27) (Nat.lt_of_lt_of_eq (by omega : 27 < 32) rfl), piece_mem (k0_off200 n) (k0_off200_inb n) y (k0_off200_eq n) hy hk1 (by omega)⟩
    · exact ⟨_, List.getElem_mem (n := 23) (Nat.lt_of_lt_of_eq (by omega : 23 < 32) rfl), piece_mem (k0_off220 n) (k0_off220_inb n) y (k0_off220_eq n) hy hk1 (by omega)⟩
    · exact ⟨_, List.getElem_mem (n := 19) (Nat.lt_of_lt_of_eq (by omega : 19 < 32) rfl), piece_mem (k0_off240 n) (k0_off240_inb n) y (k0_off240_eq n) hy hk1 (by omega)⟩
    · exact ⟨_, List.getElem_mem (n := 15) (Nat.lt_of_lt_of_eq (by omega : 15 < 32) rfl), piece_mem (k0_off260 n) (k0_off260_inb n) y (k0_off260_eq n) hy hk1 (by omega)⟩
    · exact ⟨_, List.getElem_mem (n := 11) (Nat.lt_of_lt_of_eq (by omega : 11 < 32) rfl), piece_mem (k0_off280 n) (k0_off280_inb n) y (k0_off280_eq n) hy hk1 (by omega)⟩
    · exact ⟨_, List.getElem_mem (n := 7) (Nat.lt_of_lt_of_eq (by omega : 7 < 32) rfl), piece_mem (k0_off300 n) (k0_off300_inb n) y (k0_off300_eq n) hy hk1 (by omega)⟩
    · exact ⟨_, List.getElem_mem (n := 3) (Nat.lt_of_lt_of_eq (by omega : 3 < 32) rfl), piece_mem (k0_off320 n) (k0_off320_inb n) y (k0_off320_eq n) hy hk1 (by omega)⟩
    · exact ⟨_, List.getElem_mem (n := 30) (Nat.lt_of_lt_of_eq (by omega : 30 < 32) rfl), piece_mem (k0_off181 n) (k0_off181_inb n) y (k0_off181_eq n) hy hk1 (by omega)⟩
    · exact ⟨_, List.getElem_mem (n := 26) (Nat.lt_of_lt_of_eq (by omega : 26 < 32) rfl), piece_mem (k0_off201 n) (k0_off201_inb n) y (k0_off201_eq n) hy hk1 (by omega)⟩
    · exact ⟨_, List.getElem_mem (n := 22) (Nat.lt_of_lt_of_eq (by omega : 22 < 32) rfl), piece_mem (k0_off221 n) (k0_off221_inb n) y (k0_off221_eq n) hy hk1 (by omega)⟩
    · exact ⟨_, List.getElem_mem (n := 18) (Nat.lt_of_lt_of_eq (by omega : 18 < 32) rfl), piece_mem (k0_off241 n) (k0_off241_inb n) y (k0_off241_eq n) hy hk1 (by omega)⟩
    · exact ⟨_, List.getElem_mem (n := 14) (Nat.lt_of_lt_of_eq (by omega : 14 < 32) rfl), piece_mem (k0_off261 n) (k0_off261_inb n) y (k0_off261_eq n) hy hk1 (by omega)⟩
    · exact ⟨_, List.getElem_mem (n := 10) (Nat.lt_of_lt_of_eq (by omega : 10 < 32) rfl), piece_mem (k0_off281 n) (k0_off281_inb n) y (k0_off281_eq n) hy hk1 (by omega)⟩
    · exact ⟨_, List.getElem_mem (n := 6) (Nat.lt_of_lt_of_eq (by omega : 6 < 32) rfl), piece_mem (k0_off301 n) (k0_off301_inb n) y (k0_off301_eq n) hy hk1 (by omega)⟩
    · exact ⟨_, List.getElem_mem (n := 2) (Nat.lt_of_lt_of_eq (by omega : 2 < 32) rfl), piece_mem (k0_off321 n) (k0_off321_inb n) y (k0_off321_eq n) hy hk1 (by omega)⟩
    · exact ⟨_, List.getElem_mem (n := 29) (Nat.lt_of_lt_of_eq (by omega : 29 < 32) rfl), piece_mem (k0_off182 n) (k0_off182_inb n) y (k0_off182_eq n) hy hk1 (by omega)⟩
    · exact ⟨_, List.getElem_mem (n := 25) (Nat.lt_of_lt_of_eq (by omega : 25 < 32) rfl), piece_mem (k0_off202 n) (k0_off202_inb n) y (k0_off202_eq n) hy hk1 (by omega)⟩
    · exact ⟨_, List.getElem_mem (n := 21) (Nat.lt_of_lt_of_eq (by omega : 21 < 32) rfl), piece_mem (k0_off222 n) (k0_off222_inb n) y (k0_off222_eq n) hy hk1 (by omega)⟩
    · exact ⟨_, List.getElem_mem (n := 17) (Nat.lt_of_lt_of_eq (by omega : 17 < 32) rfl), piece_mem (k0_off242 n) (k0_off242_inb n) y (k0_off242_eq n) hy hk1 (by omega)⟩
    · exact ⟨_, List.getElem_mem (n := 13) (Nat.lt_of_lt_of_eq (by omega : 13 < 32) rfl), piece_mem (k0_off262 n) (k0_off262_inb n) y (k0_off262_eq n) hy hk1 (by omega)⟩
    · exact ⟨_, List.getElem_mem (n := 9) (Nat.lt_of_lt_of_eq (by omega : 9 < 32) rfl), piece_mem (k0_off282 n) (k0_off282_inb n) y (k0_off282_eq n) hy hk1 (by omega)⟩
    · exact ⟨_, List.getElem_mem (n := 5) (Nat.lt_of_lt_of_eq (by omega : 5 < 32) rfl), piece_mem (k0_off302 n) (k0_off302_inb n) y (k0_off302_eq n) hy hk1 (by omega)⟩
    · exact ⟨_, List.getElem_mem (n := 1) (Nat.lt_of_lt_of_eq (by omega : 1 < 32) rfl), piece_mem (k0_off322 n) (k0_off322_inb n) y (k0_off322_eq n) hy hk1 (by omega)⟩
    · exact ⟨_, List.getElem_mem (n := 28) (Nat.lt_of_lt_of_eq (by omega : 28 < 32) rfl), piece_mem (k0_off183 n) (k0_off183_inb n) y (k0_off183_eq n) hy hk1 (by omega)⟩
    · exact ⟨_, List.getElem_mem (n := 24) (Nat.lt_of_lt_of_eq (by omega : 24 < 32) rfl), piece_mem (k0_off203 n) (k0_off203_inb n) y (k0_off203_eq n) hy hk1 (by omega)⟩
    · exact ⟨_, List.getElem_mem (n := 20) (Nat.lt_of_lt_of_eq (by omega : 20 < 32) rfl), piece_mem (k0_off223 n) (k0_off223_inb n) y (k0_off223_eq n) hy hk1 (by omega)⟩
    · exact ⟨_, List.getElem_mem (n := 16) (Nat.lt_of_lt_of_eq (by omega : 16 < 32) rfl), piece_mem (k0_off243 n) (k0_off243_inb n) y (k0_off243_eq n) hy hk1 (by omega)⟩
    · exact ⟨_, List.getElem_mem (n := 12) (Nat.lt_of_lt_of_eq (by omega : 12 < 32) rfl), piece_mem (k0_off263 n) (k0_off263_inb n) y (k0_off263_eq n) hy hk1 (by omega)⟩
    · exact ⟨_, List.getElem_mem (n := 8) (Nat.lt_of_lt_of_eq (by omega : 8 < 32) rfl), piece_mem (k0_off283 n) (k0_off283_inb n) y (k0_off283_eq n) hy hk1 (by omega)⟩
    · exact ⟨_, List.getElem_mem (n := 4) (Nat.lt_of_lt_of_eq (by omega : 4 < 32) rfl), piece_mem (k0_off303 n) (k0_off303_inb n) y (k0_off303_eq n) hy hk1 (by omega)⟩
    · exact ⟨_, List.getElem_mem (n := 0) (Nat.lt_of_lt_of_eq (by omega : 0 < 32) rfl), piece_mem (k0_off323 n) (k0_off323_inb n) y (k0_off323_eq n) hy hk1 (by omega)⟩
  rw [wp_ret]; imodintro
  isplitl [Hin]; · iexact Hin
  iexact Hout

end Cert.Kernel.Frame

end
-- ==== Proof.TileBits.lean ====
/-
  The tile's body of the SparseCore kernel, and the launch theorem's obligation for a tile.

  The body computes the tile's number and trip count, starts the copies of its first two input blocks, runs the
  pairs loop (four trips for every tile, by its invariant), runs the remainder loop (no trip), and waits for the
  last two output copies. It starts from the tile's read share of the input and its eight result blocks untouched,
  and ends with the share whole again, the eight blocks at the kernel's value, its scratch buffers at some contents
  and its four completion cells at zero.
-/
import proofs.«216336_g7232724927063_cont_9to1_m_658_15_alg».proof.Proof.PairsInvBits
import proofs.«216336_g7232724927063_cont_9to1_m_658_15_alg».proof.Proof.PairsStepBits
import proofs.«216336_g7232724927063_cont_9to1_m_658_15_alg».proof.Proof.ComputeABits
import proofs.«216336_g7232724927063_cont_9to1_m_658_15_alg».proof.Proof.ComputeBBits

noncomputable section

namespace Cert.Kernel.Frame

open Cert.Kernel Cert.Kernel.Gen

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (d : Dev nD) (L : grid0.Coords)

local notation "xV" => (Memref.whole Cert.Kernel.main_arg0_scv : Memref Cert.Kernel.sig Kind.scVector Space.hbm Cert.Kernel.S10000x16x128 EltTy.f32)
local notation "oV" => (Memref.whole Cert.Kernel.main_v0_scv : Memref Cert.Kernel.sig Kind.scVector Space.hbm Cert.Kernel.S4096x4x128 EltTy.f32)
local notation "inA" => (Memref.whole Cert.Kernel.cc0_scratch0 : Memref Cert.Kernel.sig Kind.scVector Space.vmem Cert.Kernel.S16x16x128 EltTy.f32)
local notation "inB" => (Memref.whole Cert.Kernel.cc0_scratch1 : Memref Cert.Kernel.sig Kind.scVector Space.vmem Cert.Kernel.S16x16x128 EltTy.f32)
local notation "outA" => (Memref.whole Cert.Kernel.cc0_scratch2 : Memref Cert.Kernel.sig Kind.scVector Space.vmem Cert.Kernel.S16x4x128 EltTy.f32)
local notation "outB" => (Memref.whole Cert.Kernel.cc0_scratch3 : Memref Cert.Kernel.sig Kind.scVector Space.vmem Cert.Kernel.S16x4x128 EltTy.f32)

variable [FloatOps F]

/-! ## The tile's body -/

set_option maxHeartbeats 1600000 in
theorem tile_body
    (hstepA : ∀ (fin : Buf (Elt F) ((V d (cV L) (jV L)).loc cc0_scratch0)) (g0 : Buf (Elt F) ((V d (cV L) (jV L)).loc cc0_scratch2)) (a b c0 c1 : BitVec 32) (k1 : Fin (k0_t1_loop L).trips) (n : Fin k0_t2_loop.trips),
      (iprop(((inA).view.loc (V d (cV L) (jV L)) ↦{fullShare} fin) ∗ ((outA).view.loc (V d (cV L) (jV L)) ↦{fullShare} outAt fin g0 n.val)) : sProp 𝕄)
        ⊢ wp frame (wpE (defs₀ (F := F)) 𝒱₀ (V d (cV L) (jV L)) none) Set.univ
            (k0_t2_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 a b c0 c1 k1 n ⟨⟩)
            fun _ => iprop(((inA).view.loc (V d (cV L) (jV L)) ↦{fullShare} fin) ∗ ((outA).view.loc (V d (cV L) (jV L)) ↦{fullShare} outAt fin g0 (n.val + 1))))
    (hstepB : ∀ (fin : Buf (Elt F) ((V d (cV L) (jV L)).loc cc0_scratch1)) (g0 : Buf (Elt F) ((V d (cV L) (jV L)).loc cc0_scratch3)) (n : Fin k0_t3_loop.trips),
      (iprop(((inB).view.loc (V d (cV L) (jV L)) ↦{fullShare} fin) ∗ ((outB).view.loc (V d (cV L) (jV L)) ↦{fullShare} outAt fin g0 n.val)) : sProp 𝕄)
        ⊢ wp frame (wpE (defs₀ (F := F)) 𝒱₀ (V d (cV L) (jV L)) none) Set.univ
            (k0_t3_body L xV (Memref.isWhole_whole _) oV (Memref.isWhole_whole _) inA (Memref.isWhole_whole _) inB (Memref.isWhole_whole _) outA (Memref.isWhole_whole _) outB (Memref.isWhole_whole _) cc0_scratch4 cc0_scratch5 cc0_scratch6 cc0_scratch7 n ⟨⟩)
            fun _ => iprop(((inB).view.loc (V d (cV L) (jV L)) ↦{fullShare} fin) ∗ ((outB).view.loc (V d (cV L) (jV L)) ↦{fullShare} outAt fin g0 (n.val + 1))))
    (hF : (K (F := F)).Facts) (O : CellTallies nD τ sig (HIx 1)) (W : Waits sig (HIx 1)) (hO : ∀ g, O g none = 0) :
    iprop(levAts (K (F := F)).L (K (F := F)).lev ∗ emp
        ∗ (xPtsT m d (cL L) (sL L) ∗ oPtsT d (cL L) (sL L) (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L xV (Memref.isWhole_whole _) oV (Memref.isWhole_whole _) inA (Memref.isWhole_whole _) inB (Memref.isWhole_whole _)
            outA (Memref.isWhole_whole _) outB (Memref.isWhole_whole _) cc0_scratch4 cc0_scratch5 cc0_scratch6 cc0_scratch7)
          fun _ => iprop((xPtsT m d (cL L) (sL L) ∗ oPtsT d (cL L) (sL L) (scOut (m (xLoc d)))) ∗ scopedBufs (V d (cV L) (jV L)) ∗ scopedSems0 (V d (cV L) (jV L))
            ∗ ∃ W', ⌜∀ p ∈ W', p ∈ W ∨ p.2 = none⌝ ∗ owes (V d (cV L) (jV L)) O W') := by
  have e4 : Scf.trips (k0_t1_loop L).lb (k0_t1_loop L).ub (k0_t1_loop L).st = 4 := t1_trips L
  have h40 : (k0_t4_loop L).trips = 0 := t4_trips L
  have n44 : ¬ (4 < 4) := by omega
  have p44 : 0 < 4 ∧ 4 ≤ 4 := by omega
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fa, Hia⟩, ⟨%fb, Hib⟩, ⟨%ga, Hoa⟩, ⟨%gb, Hob⟩, Hbufs⟩, ⟨HsIA, HsIB, HsOA, HsOB, Hsems⟩, HO⟩
  ihave Hmw := ((K (F := F)).mayWaits_none (thr := V d (cV L) (jV L)) hO) $$ Hlv
  -- the tile's read share of the input, one part per input slot
  ihave Hx2 := (Transfers.pointsTo_toks_split (xTokT (cL L) (sL L)) 2) $$ Hx
  icases Hx2 with ⟨Hxr, Hxt⟩
  ihave Hxt' := (Entails.of_eq (bigSep_fin2 (F := F) _)) $$ Hxt
  icases Hxt' with ⟨Hxa, Hxb⟩
  ihave Hxa' := (Entails.of_eq (pts_x (F := F) d L _ _).symm) $$ Hxa
  ihave Hxb' := (Entails.of_eq (pts_x (F := F) d L _ _).symm) $$ Hxb
  ihave Hia' := (Entails.of_eq (pts_inA (F := F) d L _).symm) $$ Hia
  ihave Hib' := (Entails.of_eq (pts_inB (F := F) d L _).symm) $$ Hib
  ihave Hoa' := (Entails.of_eq (pts_outA (F := F) d L _).symm) $$ Hoa
  ihave Hob' := (Entails.of_eq (pts_outB (F := F) d L _).symm) $$ Hob
  ihave Htodo := (Entails.of_eq (todo_zero (F := F) m d L).symm) $$ Ho
  sl_exec_parts
  sl_for (pairsInv m d L O W) $$ [Hmw HsIA Hxa' HsIB Hxb' HsOA Hoa' HsOB Hob' Htodo HO]
  case region =>
    intro k acc
    by_cases hk0 : k.val = 0
    · exact trip_first m d L hstepA hstepB O W _ _ k hk0
    · by_cases hk3 : k.val < 3
      · exact trip_mid m d L hstepA hstepB O W _ _ k (Nat.pos_of_ne_zero hk0) hk3
      · exact trip_last m d L hstepA hstepB O W _ _ k hk3
  · unfold pairsInv inPartA inPartB outPartA outPartB
    simp only [dif_pos (show 0 < 4 by omega), dif_neg (show ¬ (0 < 0 ∧ 0 ≤ 4) by omega)]
    rw [landed_low m d L 0 (by omega)]
    unfold inFlA inFlB outIdleA outIdleB
    isplitr; · iexact Hmw
    isplitl [HsIA Hxa']
    · isplitl [HsIA]
      · iapply (Transfers.Flight_mono countersEmb _ (in_deliverA m d L (2 * 0) _ (tokA L) (k0_off1 L 0#32) (k0_off1_inb L 0) (off1_eq' L 0) _ _ rfl))
        iexact HsIA
      · iapply (x_rest m d L (2 * 0) _ (tokA L) (k0_off1 L 0#32) (k0_off1_inb L 0) (off1_eq' L 0))
        iexact Hxa'
    isplitl [HsIB Hxb']
    · isplitl [HsIB]
      · iapply (Transfers.Flight_mono countersEmb _ (in_deliverB m d L (2 * 0 + 1) _ (tokB L) (k0_off1 L 32#32) (k0_off1_inb L 1) (off1_eq' L 1) _ _ rfl))
        iexact HsIB
      · iapply (x_rest m d L (2 * 0 + 1) _ (tokB L) (k0_off1 L 32#32) (k0_off1_inb L 1) (off1_eq' L 1))
        iexact Hxb'
    isplitl [HsOA Hoa']
    · iexists _; isplitl [HsOA]; · iexact HsOA
      iexact Hoa'
    isplitl [HsOB Hob']
    · iexists _; isplitl [HsOB]; · iexact HsOB
      iexact Hob'
    isplitl [Htodo]; · iexact Htodo
    isplitr; · iempintro
    iexists W; isplitr
    · ipureintro; exact fun p hp => .inl hp
    · iexact HO
  iintro %_ HI
  rw [e4]
  unfold pairsInv inPartA inPartB outPartA outPartB
  simp only [dif_neg n44, dif_pos p44]
  rw [todo_four]
  unfold inIdleA inIdleB outFlA outFlB
  icases HI with ⟨-, ⟨HsIA, ⟨%fa', Hia⟩, Hxa⟩, ⟨HsIB, ⟨%fb', Hib⟩, Hxb⟩, ⟨%ga', HfOA⟩, ⟨%gb', HfOB⟩, -, Hland, ⟨%W', %hW', HO⟩⟩
  sl_exec_parts
  sl_step
  isplitl [Hxr Hxa Hxb Hland HfOA_dst HfOB_dst]
  · isplitl [Hxr Hxa Hxb]
    · -- the tile's read share of the input, whole again
      iapply (Transfers.pointsTo_toks_join (xTokT (cL L) (sL L)) 2)
      isplitl [Hxr]; · iexact Hxr
      iapply (Entails.of_eq (bigSep_fin2 (F := F) _).symm)
      isplitl [Hxa]
      · iapply (Entails.of_eq (pts_x (F := F) d L _ _)); iexact Hxa
      · iapply (Entails.of_eq (pts_x (F := F) d L _ _)); iexact Hxb
    · -- the eight result blocks at the kernel's value
      iapply (landed_all m d L)
      isplitl [Hland]; · iexact Hland
      isplitl [HfOA_dst]; · iexact HfOA_dst
      iexact HfOB_dst
  isplitl [Hia Hib HfOA_src HfOB_src Hbufs]
  · isplitl [Hia]; · iexists _; iexact Hia
    isplitl [Hib]; · iexists _; iexact Hib
    isplitl [HfOA_src]; · iexists _; iexact HfOA_src
    isplitl [HfOB_src]; · iexists _; iexact HfOB_src
    iexact Hbufs
  isplitl [HsIA HsIB HfOA HfOB Hsems]
  · isplitl [HsIA]; · iexact HsIA
    isplitl [HsIB]; · iexact HsIB
    isplitl [HfOA]; · iexact HfOA
    isplitl [HfOB]; · iexact HfOB
    iexact Hsems
  iexists _; isplitr
  swap
  · iexact HO
  · ipureintro
    intro p hp
    simp only [Finset.mem_insert] at hp
    rcases hp with rfl | rfl | hp
    · exact .inr rfl
    · exact .inr rfl
    · exact hW' p hp

/-! ## The launch theorem's obligation for a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) oV (Memref.isWhole_whole _) inA (Memref.isWhole_whole _) inB (Memref.isWhole_whole _)
          outA (Memref.isWhole_whole _) outB (Memref.isWhole_whole _) cc0_scratch4 cc0_scratch5 cc0_scratch6 cc0_scratch7) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each tile's task, from its read share of the input and its eight result blocks untouched to the blocks at the
    kernel's value: the tile's body, with the compute pass's step as proved. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩)
      (fun fin g0 a b c0 c1 k1 n => computeA_step d (coordsV ⟨_, hc.1⟩ ⟨_, hc.2⟩) fin g0 a b c0 c1 k1 n)
      (fun fin g0 n => computeB_step d (coordsV ⟨_, hc.1⟩ ⟨_, hc.2⟩) fin g0 n)
      facts O W hO).trans (wp_mono frame _ _ fun _ => obl_post)

end Cert.Kernel.Frame

end
-- ==== Proof.lean ====
/-
  The five claims.

  Both idealized programs compute one function of the argument array: the scaled squared norms `Cert.SqNorm.G` of its four
  pieces (Proof/Spec.lean).  The kernel's run ends with its result array at `G` of its argument array and the argument
  unchanged; the reference's run likewise (Proof/RefValue.lean).  So from memories that agree on the argument the two results
  are equal, entry by entry, as extended reals: both are `G` of the same array.  The three frames are those runs, and the
  word-level kernel's, with the value dropped.  The idealization rewrote no operation, so there is nothing to preserve.
  Nothing is assumed of the argument beyond what the claims state.

  The kernel's run is the launch of one vector-subcore kernel on 2 × 16 tiles (each tile's body: Proof/Tile….lean over the
  pairs loop's invariant, Proof/Pairs….lean, and the compute pass, Proof/Compute….lean), then a TensorCore pipeline over the
  first 5904 nodes (Proof/TcBody…, TcOut…), then the write of the tiles' 4096 rows behind them (Proof/Main…, Run…, Final…).
-/
import proofs.«216336_g7232724927063_cont_9to1_m_658_15_alg».proof.Defs
import proofs.«216336_g7232724927063_cont_9to1_m_658_15_alg».proof.Proof.Gen.Kernel
import proofs.«216336_g7232724927063_cont_9to1_m_658_15_alg».proof.Proof.Gen.KernelIdeal
import proofs.«216336_g7232724927063_cont_9to1_m_658_15_alg».proof.Proof.Gen.ReferenceIdeal
import proofs.«216336_g7232724927063_cont_9to1_m_658_15_alg».proof.Proof.Gen.Pre_finite_inputs
import proofs.«216336_g7232724927063_cont_9to1_m_658_15_alg».proof.Proof.Spec
import proofs.«216336_g7232724927063_cont_9to1_m_658_15_alg».proof.Proof.RefValue
import proofs.«216336_g7232724927063_cont_9to1_m_658_15_alg».proof.Proof.FinalIdeal
import proofs.«216336_g7232724927063_cont_9to1_m_658_15_alg».proof.Proof.FinalBits
import proofs.«216336_g7232724927063_cont_9to1_m_658_15_alg».proof.Proof.TileIdeal
import proofs.«216336_g7232724927063_cont_9to1_m_658_15_alg».proof.Proof.TileBits

noncomputable section

open Idealize.ShloMosaic Idealize.ShloMosaic.TcCoe Idealize.SL.Sem

namespace Cert.Proof

theorem frame_k : Cert.frame_Kernel := fun m ρ _ =>
  (θ_run (Cert.Kernel.defs (F := Bits)) _ _).mono (fun _ h c => h c)
    (Cert.Kernel.Frame.run_frame m ρ (Cert.Kernel.Frame.tileObl (F := Bits) m))

theorem frame_ki : Cert.frame_KernelIdeal := fun m ρ _ =>
  (θ_run (Cert.KernelIdeal.defs (F := Ideal)) _ _).mono (fun _ h c => (h c).2)
    (Cert.KernelIdeal.Frame.run_full m ρ (Cert.KernelIdeal.Frame.tileObl (F := Ideal) m))

theorem frame_ri : Cert.frame_ReferenceIdeal := fun m ρ _ =>
  (θ_run (Cert.ReferenceIdeal.defs (F := Ideal)) _ _).mono (fun _ h c => (h c).2) (Cert.ReferenceIdeal.RefValue.run m ρ)

theorem preserves : Cert.preserves_Kernel_KernelIdeal := trivial

/-- From memories agreeing on the argument both results are `G` of that one array. -/
theorem algebraic : Cert.algebraic_KernelIdeal_ReferenceIdeal := by
  intro m ρ m' ρ' _ hagree
  refine ⟨fun c => Cert.SqNorm.G (m (Cert.KernelIdeal.Frame.xLoc c)), ?_, ?_⟩
  · exact (θ_run (Cert.KernelIdeal.defs (F := Ideal)) _ _).mono (fun _ h c => ⟨(h c).1, (h c).2⟩)
      (Cert.KernelIdeal.Frame.run_full m ρ (Cert.KernelIdeal.Frame.tileObl (F := Ideal) m))
  · exact (θ_run (Cert.ReferenceIdeal.defs (F := Ideal)) _ _).mono
      (fun _ h c => ⟨(h c).1.trans (congrArg Cert.SqNorm.G (hagree c)), (h c).2⟩)
      (Cert.ReferenceIdeal.RefValue.run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
